-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x2048x8 : Shape := ⟨3, ![4096, 2048, 8]⟩
abbrev S1 : Shape := ⟨1, ![1]⟩
abbrev S8 : Shape := ⟨1, ![8]⟩
abbrev S_ : Shape := ⟨0, ![]⟩

class Facts : Prop where
  bcast_S_S4096x2048x8 : S_.BroadcastsInDim S4096x2048x8 (![] : Fin 0 → Fin S4096x2048x8.rank)
  reducesTo_S4096x2048x8_S_d0_1_2 : S4096x2048x8.ReducesTo [0, 1, 2] S_
  h_S_ : 0 < S_.numel
  bcast_S_S1 : S_.BroadcastsInDim S1 (![] : Fin 0 → Fin S1.rank)
  reducesTo_S1_S_d0 : S1.ReducesTo [0] S_
  bcast_S_S8 : S_.BroadcastsInDim S8 (![] : Fin 0 → Fin S8.rank)
  reducesTo_S8_S_d0 : S8.ReducesTo [0] S_

variable [Facts]

def fn_part1 {F : FTy → Type} [FloatOps F] (main_arg2 : IVec S1 32) (main_v13 : IVec S_ 1) (main_v15 : IVec S1 1) (main_c_5 : IVec S_ 32) : IVec S_ 1 :=
  let main_v16 : IVec S1 32 := broadcastInDim S1 ![] bcast_S_S1 main_c_5
  let main_v17 : IVec S1 1 := cmpi .sle main_arg2 main_v16
  let main_v18 : IVec S1 1 := andi main_v15 main_v17
  let main_c_6 : IVec S_ 1 := constantI S_ 1 1#1
  let main_v19 : IVec S_ 1 := (fun x v => Host.reduce IntOp.andi x v reducesTo_S1_S_d0 h_S_) main_v18 main_c_6
  let main_v20 : IVec S_ 1 := andi main_v13 main_v19
  main_v20

def fn {F : FTy → Type} [FloatOps F] (main_arg0 : FVec F S4096x2048x8 .f32) (main_arg1 : FVec F S1 .f32) (main_arg2 : IVec S1 32) (main_arg3 : FVec F S8 .f32) : IVec S_ 1 :=
  let main_v0 : FVec F S4096x2048x8 .f32 := Host.absf main_arg0
  let main_cst : FVec F S_ .f32 := constant S_ .f32 0x7F800000#32
  let main_v1 : FVec F S4096x2048x8 .f32 := broadcastInDim S4096x2048x8 ![] bcast_S_S4096x2048x8 main_cst
  let main_v2 : IVec S4096x2048x8 1 := cmpf .olt main_v0 main_v1
  let main_c : IVec S_ 1 := constantI S_ 1 1#1
  let main_v3 : IVec S_ 1 := (fun x v => Host.reduce IntOp.andi x v reducesTo_S4096x2048x8_S_d0_1_2 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_c_4 : IVec S_ 32 := constantI S_ 32 0#32
  let main_v14 : IVec S1 32 := broadcastInDim S1 ![] bcast_S_S1 main_c_4
  let main_v15 : IVec S1 1 := cmpi .sge main_arg2 main_v14
  let main_c_5 : IVec S_ 32 := constantI S_ 32 7#32
  fn_part1 (F := F) main_arg2 main_v13 main_v15 main_c_5
-- ==== Kernel.lean ====
abbrev S4096x2048x8 : Shape := ⟨3, ![4096, 2048, 8]⟩
abbrev S1 : Shape := ⟨1, ![1]⟩
abbrev S8 : Shape := ⟨1, ![8]⟩
abbrev S67108864 : Shape := ⟨1, ![67108864]⟩
abbrev S16 : Shape := ⟨1, ![16]⟩
abbrev S8388608 : Shape := ⟨1, ![8388608]⟩
abbrev S32768 : Shape := ⟨1, ![32768]⟩
abbrev S4096 : Shape := ⟨1, ![4096]⟩
abbrev S2 : Shape := ⟨1, ![2]⟩
abbrev S_ : Shape := ⟨0, ![]⟩
abbrev S4096x2048 : Shape := ⟨2, ![4096, 2048]⟩

abbrev nBuf : Table → Nat
  | .hbm => 8
  | .local .scVector .vmem => 5
  | _ => 0

abbrev bufTy : (tb : Table) → Fin (nBuf tb) → BufTy
  | .hbm, ⟨0, _⟩ => ⟨S4096x2048x8, .f32⟩
  | .hbm, ⟨1, _⟩ => ⟨S1, .f32⟩
  | .hbm, ⟨2, _⟩ => ⟨S1, .i32⟩
  | .hbm, ⟨3, _⟩ => ⟨S8, .f32⟩
  | .hbm, ⟨4, _⟩ => ⟨S67108864, .f32⟩
  | .hbm, ⟨5, _⟩ => ⟨S16, .i32⟩
  | .hbm, ⟨6, _⟩ => ⟨S8388608, .f32⟩
  | .hbm, ⟨7, _⟩ => ⟨S4096x2048, .f32⟩
  | .local .scVector .vmem, ⟨0, _⟩ => ⟨S16, .i32⟩
  | .local .scVector .vmem, ⟨1, _⟩ => ⟨S32768, .f32⟩
  | .local .scVector .vmem, ⟨2, _⟩ => ⟨S32768, .f32⟩
  | .local .scVector .vmem, ⟨3, _⟩ => ⟨S4096, .f32⟩
  | .local .scVector .vmem, ⟨4, _⟩ => ⟨S4096, .f32⟩
  | _, _ => ⟨S4096x2048x8, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v7 : BitVec 32 := Scalar.muli v1 c128_i32
  let c16384_i32 : BitVec 32 := 16384#32
  let v8 : BitVec 32 := Scalar.muli v7 c16384_i32
  let v11 : BitVec 32 := Scalar.addi v8 c0_i32
  ![v11.toNat]

def k0_chk1 (v29 : IVec S16 32) : Prop :=
  (∀ a x, ((![v29] : Fin 1 → IVec S16 32) a x).toNat < S32768.size a)
instance k0_chk1.dec : ∀ (v29 : IVec S16 32), Decidable (k0_chk1 v29) := fun v29 => decidable_of_iff' _ (Iff.of_eq (k0_chk1.eq_1 v29))
theorem k0_idx1_inb : ∀ (v29 : IVec S16 32) (k0_hw1 : k0_chk1 v29), ∀ a x, ((![v29] : Fin 1 → IVec S16 32) a x).toNat < S32768.size a := fun v29 k0_hw1 => k0_hw1

def k0_chk2 (v33 : IVec S16 32) : Prop :=
  (∀ a x, ((![v33] : Fin 1 → IVec S16 32) a x).toNat < S32768.size a)
instance k0_chk2.dec : ∀ (v33 : IVec S16 32), Decidable (k0_chk2 v33) := fun v33 => decidable_of_iff' _ (Iff.of_eq (k0_chk2.eq_1 v33))
theorem k0_idx2_inb : ∀ (v33 : IVec S16 32) (k0_hw2 : k0_chk2 v33), ∀ a x, ((![v33] : Fin 1 → IVec S16 32) a x).toNat < S32768.size a := fun v33 k0_hw2 => k0_hw2

def k0_chk3 (v37 : IVec S16 32) : Prop :=
  (∀ a x, ((![v37] : Fin 1 → IVec S16 32) a x).toNat < S32768.size a)
instance k0_chk3.dec : ∀ (v37 : IVec S16 32), Decidable (k0_chk3 v37) := fun v37 => decidable_of_iff' _ (Iff.of_eq (k0_chk3.eq_1 v37))
theorem k0_idx3_inb : ∀ (v37 : IVec S16 32) (k0_hw3 : k0_chk3 v37), ∀ a x, ((![v37] : Fin 1 → IVec S16 32) a x).toNat < S32768.size a := fun v37 k0_hw3 => k0_hw3

def k0_chk4 (v41 : IVec S16 32) : Prop :=
  (∀ a x, ((![v41] : Fin 1 → IVec S16 32) a x).toNat < S32768.size a)
instance k0_chk4.dec : ∀ (v41 : IVec S16 32), Decidable (k0_chk4 v41) := fun v41 => decidable_of_iff' _ (Iff.of_eq (k0_chk4.eq_1 v41))
theorem k0_idx4_inb : ∀ (v41 : IVec S16 32) (k0_hw4 : k0_chk4 v41), ∀ a x, ((![v41] : Fin 1 → IVec S16 32) a x).toNat < S32768.size a := fun v41 k0_hw4 => k0_hw4

def k0_chk5 (v45 : IVec S16 32) : Prop :=
  (∀ a x, ((![v45] : Fin 1 → IVec S16 32) a x).toNat < S32768.size a)
instance k0_chk5.dec : ∀ (v45 : IVec S16 32), Decidable (k0_chk5 v45) := fun v45 => decidable_of_iff' _ (Iff.of_eq (k0_chk5.eq_1 v45))
theorem k0_idx5_inb : ∀ (v45 : IVec S16 32) (k0_hw5 : k0_chk5 v45), ∀ a x, ((![v45] : Fin 1 → IVec S16 32) a x).toNat < S32768.size a := fun v45 k0_hw5 => k0_hw5

def k0_chk6 (v49 : IVec S16 32) : Prop :=
  (∀ a x, ((![v49] : Fin 1 → IVec S16 32) a x).toNat < S32768.size a)
instance k0_chk6.dec : ∀ (v49 : IVec S16 32), Decidable (k0_chk6 v49) := fun v49 => decidable_of_iff' _ (Iff.of_eq (k0_chk6.eq_1 v49))
theorem k0_idx6_inb : ∀ (v49 : IVec S16 32) (k0_hw6 : k0_chk6 v49), ∀ a x, ((![v49] : Fin 1 → IVec S16 32) a x).toNat < S32768.size a := fun v49 k0_hw6 => k0_hw6

def k0_chk7 (v53 : IVec S16 32) : Prop :=
  (∀ a x, ((![v53] : Fin 1 → IVec S16 32) a x).toNat < S32768.size a)
instance k0_chk7.dec : ∀ (v53 : IVec S16 32), Decidable (k0_chk7 v53) := fun v53 => decidable_of_iff' _ (Iff.of_eq (k0_chk7.eq_1 v53))
theorem k0_idx7_inb : ∀ (v53 : IVec S16 32) (k0_hw7 : k0_chk7 v53), ∀ a x, ((![v53] : Fin 1 → IVec S16 32) a x).toNat < S32768.size a := fun v53 k0_hw7 => k0_hw7

def k0_chk8 (v57 : IVec S16 32) : Prop :=
  (∀ a x, ((![v57] : Fin 1 → IVec S16 32) a x).toNat < S32768.size a)
instance k0_chk8.dec : ∀ (v57 : IVec S16 32), Decidable (k0_chk8 v57) := fun v57 => decidable_of_iff' _ (Iff.of_eq (k0_chk8.eq_1 v57))
theorem k0_idx8_inb : ∀ (v57 : IVec S16 32) (k0_hw8 : k0_chk8 v57), ∀ a x, ((![v57] : Fin 1 → IVec S16 32) a x).toNat < S32768.size a := fun v57 k0_hw8 => k0_hw8

def k0_chk9 (v61 : IVec S16 32) : Prop :=
  (∀ a x, ((![v61] : Fin 1 → IVec S16 32) a x).toNat < S32768.size a)
instance k0_chk9.dec : ∀ (v61 : IVec S16 32), Decidable (k0_chk9 v61) := fun v61 => decidable_of_iff' _ (Iff.of_eq (k0_chk9.eq_1 v61))
theorem k0_idx9_inb : ∀ (v61 : IVec S16 32) (k0_hw9 : k0_chk9 v61), ∀ a x, ((![v61] : Fin 1 → IVec S16 32) a x).toNat < S32768.size a := fun v61 k0_hw9 => k0_hw9

def k0_chk10 (v65 : IVec S16 32) : Prop :=
  (∀ a x, ((![v65] : Fin 1 → IVec S16 32) a x).toNat < S32768.size a)
instance k0_chk10.dec : ∀ (v65 : IVec S16 32), Decidable (k0_chk10 v65) := fun v65 => decidable_of_iff' _ (Iff.of_eq (k0_chk10.eq_1 v65))
theorem k0_idx10_inb : ∀ (v65 : IVec S16 32) (k0_hw10 : k0_chk10 v65), ∀ a x, ((![v65] : Fin 1 → IVec S16 32) a x).toNat < S32768.size a := fun v65 k0_hw10 => k0_hw10

def k0_chk11 (v69 : IVec S16 32) : Prop :=
  (∀ a x, ((![v69] : Fin 1 → IVec S16 32) a x).toNat < S32768.size a)
instance k0_chk11.dec : ∀ (v69 : IVec S16 32), Decidable (k0_chk11 v69) := fun v69 => decidable_of_iff' _ (Iff.of_eq (k0_chk11.eq_1 v69))
theorem k0_idx11_inb : ∀ (v69 : IVec S16 32) (k0_hw11 : k0_chk11 v69), ∀ a x, ((![v69] : Fin 1 → IVec S16 32) a x).toNat < S32768.size a := fun v69 k0_hw11 => k0_hw11

def k0_chk12 (v73 : IVec S16 32) : Prop :=
  (∀ a x, ((![v73] : Fin 1 → IVec S16 32) a x).toNat < S32768.size a)
instance k0_chk12.dec : ∀ (v73 : IVec S16 32), Decidable (k0_chk12 v73) := fun v73 => decidable_of_iff' _ (Iff.of_eq (k0_chk12.eq_1 v73))
theorem k0_idx12_inb : ∀ (v73 : IVec S16 32) (k0_hw12 : k0_chk12 v73), ∀ a x, ((![v73] : Fin 1 → IVec S16 32) a x).toNat < S32768.size a := fun v73 k0_hw12 => k0_hw12

def k0_chk13 (v77 : IVec S16 32) : Prop :=
  (∀ a x, ((![v77] : Fin 1 → IVec S16 32) a x).toNat < S32768.size a)
instance k0_chk13.dec : ∀ (v77 : IVec S16 32), Decidable (k0_chk13 v77) := fun v77 => decidable_of_iff' _ (Iff.of_eq (k0_chk13.eq_1 v77))
theorem k0_idx13_inb : ∀ (v77 : IVec S16 32) (k0_hw13 : k0_chk13 v77), ∀ a x, ((![v77] : Fin 1 → IVec S16 32) a x).toNat < S32768.size a := fun v77 k0_hw13 => k0_hw13

def k0_chk14 (v81 : IVec S16 32) : Prop :=
  (∀ a x, ((![v81] : Fin 1 → IVec S16 32) a x).toNat < S32768.size a)
instance k0_chk14.dec : ∀ (v81 : IVec S16 32), Decidable (k0_chk14 v81) := fun v81 => decidable_of_iff' _ (Iff.of_eq (k0_chk14.eq_1 v81))
theorem k0_idx14_inb : ∀ (v81 : IVec S16 32) (k0_hw14 : k0_chk14 v81), ∀ a x, ((![v81] : Fin 1 → IVec S16 32) a x).toNat < S32768.size a := fun v81 k0_hw14 => k0_hw14

def k0_chk15 (v85 : IVec S16 32) : Prop :=
  (∀ a x, ((![v85] : Fin 1 → IVec S16 32) a x).toNat < S32768.size a)
instance k0_chk15.dec : ∀ (v85 : IVec S16 32), Decidable (k0_chk15 v85) := fun v85 => decidable_of_iff' _ (Iff.of_eq (k0_chk15.eq_1 v85))
theorem k0_idx15_inb : ∀ (v85 : IVec S16 32) (k0_hw15 : k0_chk15 v85), ∀ a x, ((![v85] : Fin 1 → IVec S16 32) a x).toNat < S32768.size a := fun v85 k0_hw15 => k0_hw15

def k0_chk16 (v89 : IVec S16 32) : Prop :=
  (∀ a x, ((![v89] : Fin 1 → IVec S16 32) a x).toNat < S32768.size a)
instance k0_chk16.dec : ∀ (v89 : IVec S16 32), Decidable (k0_chk16 v89) := fun v89 => decidable_of_iff' _ (Iff.of_eq (k0_chk16.eq_1 v89))
theorem k0_idx16_inb : ∀ (v89 : IVec S16 32) (k0_hw16 : k0_chk16 v89), ∀ a x, ((![v89] : Fin 1 → IVec S16 32) a x).toNat < S32768.size a := fun v89 k0_hw16 => k0_hw16

def k0_chk17 (v93 : IVec S16 32) : Prop :=
  (∀ a x, ((![v93] : Fin 1 → IVec S16 32) a x).toNat < S32768.size a)
instance k0_chk17.dec : ∀ (v93 : IVec S16 32), Decidable (k0_chk17 v93) := fun v93 => decidable_of_iff' _ (Iff.of_eq (k0_chk17.eq_1 v93))
theorem k0_idx17_inb : ∀ (v93 : IVec S16 32) (k0_hw17 : k0_chk17 v93), ∀ a x, ((![v93] : Fin 1 → IVec S16 32) a x).toNat < S32768.size a := fun v93 k0_hw17 => k0_hw17

def k0_chk18 (v97 : IVec S16 32) : Prop :=
  (∀ a x, ((![v97] : Fin 1 → IVec S16 32) a x).toNat < S32768.size a)
instance k0_chk18.dec : ∀ (v97 : IVec S16 32), Decidable (k0_chk18 v97) := fun v97 => decidable_of_iff' _ (Iff.of_eq (k0_chk18.eq_1 v97))
theorem k0_idx18_inb : ∀ (v97 : IVec S16 32) (k0_hw18 : k0_chk18 v97), ∀ a x, ((![v97] : Fin 1 → IVec S16 32) a x).toNat < S32768.size a := fun v97 k0_hw18 => k0_hw18

def k0_chk19 (v101 : IVec S16 32) : Prop :=
  (∀ a x, ((![v101] : Fin 1 → IVec S16 32) a x).toNat < S32768.size a)
instance k0_chk19.dec : ∀ (v101 : IVec S16 32), Decidable (k0_chk19 v101) := fun v101 => decidable_of_iff' _ (Iff.of_eq (k0_chk19.eq_1 v101))
theorem k0_idx19_inb : ∀ (v101 : IVec S16 32) (k0_hw19 : k0_chk19 v101), ∀ a x, ((![v101] : Fin 1 → IVec S16 32) a x).toNat < S32768.size a := fun v101 k0_hw19 => k0_hw19

def k0_chk20 (v105 : IVec S16 32) : Prop :=
  (∀ a x, ((![v105] : Fin 1 → IVec S16 32) a x).toNat < S32768.size a)
instance k0_chk20.dec : ∀ (v105 : IVec S16 32), Decidable (k0_chk20 v105) := fun v105 => decidable_of_iff' _ (Iff.of_eq (k0_chk20.eq_1 v105))
theorem k0_idx20_inb : ∀ (v105 : IVec S16 32) (k0_hw20 : k0_chk20 v105), ∀ a x, ((![v105] : Fin 1 → IVec S16 32) a x).toNat < S32768.size a := fun v105 k0_hw20 => k0_hw20

def k0_chk21 (v109 : IVec S16 32) : Prop :=
  (∀ a x, ((![v109] : Fin 1 → IVec S16 32) a x).toNat < S32768.size a)
instance k0_chk21.dec : ∀ (v109 : IVec S16 32), Decidable (k0_chk21 v109) := fun v109 => decidable_of_iff' _ (Iff.of_eq (k0_chk21.eq_1 v109))
theorem k0_idx21_inb : ∀ (v109 : IVec S16 32) (k0_hw21 : k0_chk21 v109), ∀ a x, ((![v109] : Fin 1 → IVec S16 32) a x).toNat < S32768.size a := fun v109 k0_hw21 => k0_hw21

def k0_chk22 (v113 : IVec S16 32) : Prop :=
  (∀ a x, ((![v113] : Fin 1 → IVec S16 32) a x).toNat < S32768.size a)
instance k0_chk22.dec : ∀ (v113 : IVec S16 32), Decidable (k0_chk22 v113) := fun v113 => decidable_of_iff' _ (Iff.of_eq (k0_chk22.eq_1 v113))
theorem k0_idx22_inb : ∀ (v113 : IVec S16 32) (k0_hw22 : k0_chk22 v113), ∀ a x, ((![v113] : Fin 1 → IVec S16 32) a x).toNat < S32768.size a := fun v113 k0_hw22 => k0_hw22

def k0_chk23 (v117 : IVec S16 32) : Prop :=
  (∀ a x, ((![v117] : Fin 1 → IVec S16 32) a x).toNat < S32768.size a)
instance k0_chk23.dec : ∀ (v117 : IVec S16 32), Decidable (k0_chk23 v117) := fun v117 => decidable_of_iff' _ (Iff.of_eq (k0_chk23.eq_1 v117))
theorem k0_idx23_inb : ∀ (v117 : IVec S16 32) (k0_hw23 : k0_chk23 v117), ∀ a x, ((![v117] : Fin 1 → IVec S16 32) a x).toNat < S32768.size a := fun v117 k0_hw23 => k0_hw23

def k0_chk24 (v121 : IVec S16 32) : Prop :=
  (∀ a x, ((![v121] : Fin 1 → IVec S16 32) a x).toNat < S32768.size a)
instance k0_chk24.dec : ∀ (v121 : IVec S16 32), Decidable (k0_chk24 v121) := fun v121 => decidable_of_iff' _ (Iff.of_eq (k0_chk24.eq_1 v121))
theorem k0_idx24_inb : ∀ (v121 : IVec S16 32) (k0_hw24 : k0_chk24 v121), ∀ a x, ((![v121] : Fin 1 → IVec S16 32) a x).toNat < S32768.size a := fun v121 k0_hw24 => k0_hw24

def k0_chk25 (v125 : IVec S16 32) : Prop :=
  (∀ a x, ((![v125] : Fin 1 → IVec S16 32) a x).toNat < S32768.size a)
instance k0_chk25.dec : ∀ (v125 : IVec S16 32), Decidable (k0_chk25 v125) := fun v125 => decidable_of_iff' _ (Iff.of_eq (k0_chk25.eq_1 v125))
theorem k0_idx25_inb : ∀ (v125 : IVec S16 32) (k0_hw25 : k0_chk25 v125), ∀ a x, ((![v125] : Fin 1 → IVec S16 32) a x).toNat < S32768.size a := fun v125 k0_hw25 => k0_hw25

def k0_chk26 (v129 : IVec S16 32) : Prop :=
  (∀ a x, ((![v129] : Fin 1 → IVec S16 32) a x).toNat < S32768.size a)
instance k0_chk26.dec : ∀ (v129 : IVec S16 32), Decidable (k0_chk26 v129) := fun v129 => decidable_of_iff' _ (Iff.of_eq (k0_chk26.eq_1 v129))
theorem k0_idx26_inb : ∀ (v129 : IVec S16 32) (k0_hw26 : k0_chk26 v129), ∀ a x, ((![v129] : Fin 1 → IVec S16 32) a x).toNat < S32768.size a := fun v129 k0_hw26 => k0_hw26

def k0_chk27 (v133 : IVec S16 32) : Prop :=
  (∀ a x, ((![v133] : Fin 1 → IVec S16 32) a x).toNat < S32768.size a)
instance k0_chk27.dec : ∀ (v133 : IVec S16 32), Decidable (k0_chk27 v133) := fun v133 => decidable_of_iff' _ (Iff.of_eq (k0_chk27.eq_1 v133))
theorem k0_idx27_inb : ∀ (v133 : IVec S16 32) (k0_hw27 : k0_chk27 v133), ∀ a x, ((![v133] : Fin 1 → IVec S16 32) a x).toNat < S32768.size a := fun v133 k0_hw27 => k0_hw27

def k0_chk28 (v137 : IVec S16 32) : Prop :=
  (∀ a x, ((![v137] : Fin 1 → IVec S16 32) a x).toNat < S32768.size a)
instance k0_chk28.dec : ∀ (v137 : IVec S16 32), Decidable (k0_chk28 v137) := fun v137 => decidable_of_iff' _ (Iff.of_eq (k0_chk28.eq_1 v137))
theorem k0_idx28_inb : ∀ (v137 : IVec S16 32) (k0_hw28 : k0_chk28 v137), ∀ a x, ((![v137] : Fin 1 → IVec S16 32) a x).toNat < S32768.size a := fun v137 k0_hw28 => k0_hw28

def k0_chk29 (v141 : IVec S16 32) : Prop :=
  (∀ a x, ((![v141] : Fin 1 → IVec S16 32) a x).toNat < S32768.size a)
instance k0_chk29.dec : ∀ (v141 : IVec S16 32), Decidable (k0_chk29 v141) := fun v141 => decidable_of_iff' _ (Iff.of_eq (k0_chk29.eq_1 v141))
theorem k0_idx29_inb : ∀ (v141 : IVec S16 32) (k0_hw29 : k0_chk29 v141), ∀ a x, ((![v141] : Fin 1 → IVec S16 32) a x).toNat < S32768.size a := fun v141 k0_hw29 => k0_hw29

def k0_chk30 (v145 : IVec S16 32) : Prop :=
  (∀ a x, ((![v145] : Fin 1 → IVec S16 32) a x).toNat < S32768.size a)
instance k0_chk30.dec : ∀ (v145 : IVec S16 32), Decidable (k0_chk30 v145) := fun v145 => decidable_of_iff' _ (Iff.of_eq (k0_chk30.eq_1 v145))
theorem k0_idx30_inb : ∀ (v145 : IVec S16 32) (k0_hw30 : k0_chk30 v145), ∀ a x, ((![v145] : Fin 1 → IVec S16 32) a x).toNat < S32768.size a := fun v145 k0_hw30 => k0_hw30

def k0_chk31 (v149 : IVec S16 32) : Prop :=
  (∀ a x, ((![v149] : Fin 1 → IVec S16 32) a x).toNat < S32768.size a)
instance k0_chk31.dec : ∀ (v149 : IVec S16 32), Decidable (k0_chk31 v149) := fun v149 => decidable_of_iff' _ (Iff.of_eq (k0_chk31.eq_1 v149))
theorem k0_idx31_inb : ∀ (v149 : IVec S16 32) (k0_hw31 : k0_chk31 v149), ∀ a x, ((![v149] : Fin 1 → IVec S16 32) a x).toNat < S32768.size a := fun v149 k0_hw31 => k0_hw31

def k0_chk32 (v153 : IVec S16 32) : Prop :=
  (∀ a x, ((![v153] : Fin 1 → IVec S16 32) a x).toNat < S32768.size a)
instance k0_chk32.dec : ∀ (v153 : IVec S16 32), Decidable (k0_chk32 v153) := fun v153 => decidable_of_iff' _ (Iff.of_eq (k0_chk32.eq_1 v153))
theorem k0_idx32_inb : ∀ (v153 : IVec S16 32) (k0_hw32 : k0_chk32 v153), ∀ a x, ((![v153] : Fin 1 → IVec S16 32) a x).toNat < S32768.size a := fun v153 k0_hw32 => k0_hw32

def k0_chk33 (v157 : IVec S16 32) : Prop :=
  (∀ a x, ((![v157] : Fin 1 → IVec S16 32) a x).toNat < S32768.size a)
instance k0_chk33.dec : ∀ (v157 : IVec S16 32), Decidable (k0_chk33 v157) := fun v157 => decidable_of_iff' _ (Iff.of_eq (k0_chk33.eq_1 v157))
theorem k0_idx33_inb : ∀ (v157 : IVec S16 32) (k0_hw33 : k0_chk33 v157), ∀ a x, ((![v157] : Fin 1 → IVec S16 32) a x).toNat < S32768.size a := fun v157 k0_hw33 => k0_hw33

def k0_chk34 (v161 : IVec S16 32) : Prop :=
  (∀ a x, ((![v161] : Fin 1 → IVec S16 32) a x).toNat < S32768.size a)
instance k0_chk34.dec : ∀ (v161 : IVec S16 32), Decidable (k0_chk34 v161) := fun v161 => decidable_of_iff' _ (Iff.of_eq (k0_chk34.eq_1 v161))
theorem k0_idx34_inb : ∀ (v161 : IVec S16 32) (k0_hw34 : k0_chk34 v161), ∀ a x, ((![v161] : Fin 1 → IVec S16 32) a x).toNat < S32768.size a := fun v161 k0_hw34 => k0_hw34

def k0_chk35 (v165 : IVec S16 32) : Prop :=
  (∀ a x, ((![v165] : Fin 1 → IVec S16 32) a x).toNat < S32768.size a)
instance k0_chk35.dec : ∀ (v165 : IVec S16 32), Decidable (k0_chk35 v165) := fun v165 => decidable_of_iff' _ (Iff.of_eq (k0_chk35.eq_1 v165))
theorem k0_idx35_inb : ∀ (v165 : IVec S16 32) (k0_hw35 : k0_chk35 v165), ∀ a x, ((![v165] : Fin 1 → IVec S16 32) a x).toNat < S32768.size a := fun v165 k0_hw35 => k0_hw35

def k0_chk36 (v169 : IVec S16 32) : Prop :=
  (∀ a x, ((![v169] : Fin 1 → IVec S16 32) a x).toNat < S32768.size a)
instance k0_chk36.dec : ∀ (v169 : IVec S16 32), Decidable (k0_chk36 v169) := fun v169 => decidable_of_iff' _ (Iff.of_eq (k0_chk36.eq_1 v169))
theorem k0_idx36_inb : ∀ (v169 : IVec S16 32) (k0_hw36 : k0_chk36 v169), ∀ a x, ((![v169] : Fin 1 → IVec S16 32) a x).toNat < S32768.size a := fun v169 k0_hw36 => k0_hw36

def k0_chk37 (v173 : IVec S16 32) : Prop :=
  (∀ a x, ((![v173] : Fin 1 → IVec S16 32) a x).toNat < S32768.size a)
instance k0_chk37.dec : ∀ (v173 : IVec S16 32), Decidable (k0_chk37 v173) := fun v173 => decidable_of_iff' _ (Iff.of_eq (k0_chk37.eq_1 v173))
theorem k0_idx37_inb : ∀ (v173 : IVec S16 32) (k0_hw37 : k0_chk37 v173), ∀ a x, ((![v173] : Fin 1 → IVec S16 32) a x).toNat < S32768.size a := fun v173 k0_hw37 => k0_hw37

def k0_chk38 (v177 : IVec S16 32) : Prop :=
  (∀ a x, ((![v177] : Fin 1 → IVec S16 32) a x).toNat < S32768.size a)
instance k0_chk38.dec : ∀ (v177 : IVec S16 32), Decidable (k0_chk38 v177) := fun v177 => decidable_of_iff' _ (Iff.of_eq (k0_chk38.eq_1 v177))
theorem k0_idx38_inb : ∀ (v177 : IVec S16 32) (k0_hw38 : k0_chk38 v177), ∀ a x, ((![v177] : Fin 1 → IVec S16 32) a x).toNat < S32768.size a := fun v177 k0_hw38 => k0_hw38

def k0_chk39 (v181 : IVec S16 32) : Prop :=
  (∀ a x, ((![v181] : Fin 1 → IVec S16 32) a x).toNat < S32768.size a)
instance k0_chk39.dec : ∀ (v181 : IVec S16 32), Decidable (k0_chk39 v181) := fun v181 => decidable_of_iff' _ (Iff.of_eq (k0_chk39.eq_1 v181))
theorem k0_idx39_inb : ∀ (v181 : IVec S16 32) (k0_hw39 : k0_chk39 v181), ∀ a x, ((![v181] : Fin 1 → IVec S16 32) a x).toNat < S32768.size a := fun v181 k0_hw39 => k0_hw39

def k0_chk40 (v185 : IVec S16 32) : Prop :=
  (∀ a x, ((![v185] : Fin 1 → IVec S16 32) a x).toNat < S32768.size a)
instance k0_chk40.dec : ∀ (v185 : IVec S16 32), Decidable (k0_chk40 v185) := fun v185 => decidable_of_iff' _ (Iff.of_eq (k0_chk40.eq_1 v185))
theorem k0_idx40_inb : ∀ (v185 : IVec S16 32) (k0_hw40 : k0_chk40 v185), ∀ a x, ((![v185] : Fin 1 → IVec S16 32) a x).toNat < S32768.size a := fun v185 k0_hw40 => k0_hw40

def k0_chk41 (v189 : IVec S16 32) : Prop :=
  (∀ a x, ((![v189] : Fin 1 → IVec S16 32) a x).toNat < S32768.size a)
instance k0_chk41.dec : ∀ (v189 : IVec S16 32), Decidable (k0_chk41 v189) := fun v189 => decidable_of_iff' _ (Iff.of_eq (k0_chk41.eq_1 v189))
theorem k0_idx41_inb : ∀ (v189 : IVec S16 32) (k0_hw41 : k0_chk41 v189), ∀ a x, ((![v189] : Fin 1 → IVec S16 32) a x).toNat < S32768.size a := fun v189 k0_hw41 => k0_hw41

def k0_chk42 (v193 : IVec S16 32) : Prop :=
  (∀ a x, ((![v193] : Fin 1 → IVec S16 32) a x).toNat < S32768.size a)
instance k0_chk42.dec : ∀ (v193 : IVec S16 32), Decidable (k0_chk42 v193) := fun v193 => decidable_of_iff' _ (Iff.of_eq (k0_chk42.eq_1 v193))
theorem k0_idx42_inb : ∀ (v193 : IVec S16 32) (k0_hw42 : k0_chk42 v193), ∀ a x, ((![v193] : Fin 1 → IVec S16 32) a x).toNat < S32768.size a := fun v193 k0_hw42 => k0_hw42

def k0_chk43 (v197 : IVec S16 32) : Prop :=
  (∀ a x, ((![v197] : Fin 1 → IVec S16 32) a x).toNat < S32768.size a)
instance k0_chk43.dec : ∀ (v197 : IVec S16 32), Decidable (k0_chk43 v197) := fun v197 => decidable_of_iff' _ (Iff.of_eq (k0_chk43.eq_1 v197))
theorem k0_idx43_inb : ∀ (v197 : IVec S16 32) (k0_hw43 : k0_chk43 v197), ∀ a x, ((![v197] : Fin 1 → IVec S16 32) a x).toNat < S32768.size a := fun v197 k0_hw43 => k0_hw43

def k0_chk44 (v201 : IVec S16 32) : Prop :=
  (∀ a x, ((![v201] : Fin 1 → IVec S16 32) a x).toNat < S32768.size a)
instance k0_chk44.dec : ∀ (v201 : IVec S16 32), Decidable (k0_chk44 v201) := fun v201 => decidable_of_iff' _ (Iff.of_eq (k0_chk44.eq_1 v201))
theorem k0_idx44_inb : ∀ (v201 : IVec S16 32) (k0_hw44 : k0_chk44 v201), ∀ a x, ((![v201] : Fin 1 → IVec S16 32) a x).toNat < S32768.size a := fun v201 k0_hw44 => k0_hw44

def k0_chk45 (v205 : IVec S16 32) : Prop :=
  (∀ a x, ((![v205] : Fin 1 → IVec S16 32) a x).toNat < S32768.size a)
instance k0_chk45.dec : ∀ (v205 : IVec S16 32), Decidable (k0_chk45 v205) := fun v205 => decidable_of_iff' _ (Iff.of_eq (k0_chk45.eq_1 v205))
theorem k0_idx45_inb : ∀ (v205 : IVec S16 32) (k0_hw45 : k0_chk45 v205), ∀ a x, ((![v205] : Fin 1 → IVec S16 32) a x).toNat < S32768.size a := fun v205 k0_hw45 => k0_hw45

def k0_chk46 (v209 : IVec S16 32) : Prop :=
  (∀ a x, ((![v209] : Fin 1 → IVec S16 32) a x).toNat < S32768.size a)
instance k0_chk46.dec : ∀ (v209 : IVec S16 32), Decidable (k0_chk46 v209) := fun v209 => decidable_of_iff' _ (Iff.of_eq (k0_chk46.eq_1 v209))
theorem k0_idx46_inb : ∀ (v209 : IVec S16 32) (k0_hw46 : k0_chk46 v209), ∀ a x, ((![v209] : Fin 1 → IVec S16 32) a x).toNat < S32768.size a := fun v209 k0_hw46 => k0_hw46

def k0_chk47 (v213 : IVec S16 32) : Prop :=
  (∀ a x, ((![v213] : Fin 1 → IVec S16 32) a x).toNat < S32768.size a)
instance k0_chk47.dec : ∀ (v213 : IVec S16 32), Decidable (k0_chk47 v213) := fun v213 => decidable_of_iff' _ (Iff.of_eq (k0_chk47.eq_1 v213))
theorem k0_idx47_inb : ∀ (v213 : IVec S16 32) (k0_hw47 : k0_chk47 v213), ∀ a x, ((![v213] : Fin 1 → IVec S16 32) a x).toNat < S32768.size a := fun v213 k0_hw47 => k0_hw47

def k0_chk48 (v217 : IVec S16 32) : Prop :=
  (∀ a x, ((![v217] : Fin 1 → IVec S16 32) a x).toNat < S32768.size a)
instance k0_chk48.dec : ∀ (v217 : IVec S16 32), Decidable (k0_chk48 v217) := fun v217 => decidable_of_iff' _ (Iff.of_eq (k0_chk48.eq_1 v217))
theorem k0_idx48_inb : ∀ (v217 : IVec S16 32) (k0_hw48 : k0_chk48 v217), ∀ a x, ((![v217] : Fin 1 → IVec S16 32) a x).toNat < S32768.size a := fun v217 k0_hw48 => k0_hw48

def k0_chk49 (v221 : IVec S16 32) : Prop :=
  (∀ a x, ((![v221] : Fin 1 → IVec S16 32) a x).toNat < S32768.size a)
instance k0_chk49.dec : ∀ (v221 : IVec S16 32), Decidable (k0_chk49 v221) := fun v221 => decidable_of_iff' _ (Iff.of_eq (k0_chk49.eq_1 v221))
theorem k0_idx49_inb : ∀ (v221 : IVec S16 32) (k0_hw49 : k0_chk49 v221), ∀ a x, ((![v221] : Fin 1 → IVec S16 32) a x).toNat < S32768.size a := fun v221 k0_hw49 => k0_hw49

def k0_chk50 (v225 : IVec S16 32) : Prop :=
  (∀ a x, ((![v225] : Fin 1 → IVec S16 32) a x).toNat < S32768.size a)
instance k0_chk50.dec : ∀ (v225 : IVec S16 32), Decidable (k0_chk50 v225) := fun v225 => decidable_of_iff' _ (Iff.of_eq (k0_chk50.eq_1 v225))
theorem k0_idx50_inb : ∀ (v225 : IVec S16 32) (k0_hw50 : k0_chk50 v225), ∀ a x, ((![v225] : Fin 1 → IVec S16 32) a x).toNat < S32768.size a := fun v225 k0_hw50 => k0_hw50

def k0_chk51 (v229 : IVec S16 32) : Prop :=
  (∀ a x, ((![v229] : Fin 1 → IVec S16 32) a x).toNat < S32768.size a)
instance k0_chk51.dec : ∀ (v229 : IVec S16 32), Decidable (k0_chk51 v229) := fun v229 => decidable_of_iff' _ (Iff.of_eq (k0_chk51.eq_1 v229))
theorem k0_idx51_inb : ∀ (v229 : IVec S16 32) (k0_hw51 : k0_chk51 v229), ∀ a x, ((![v229] : Fin 1 → IVec S16 32) a x).toNat < S32768.size a := fun v229 k0_hw51 => k0_hw51

def k0_chk52 (v233 : IVec S16 32) : Prop :=
  (∀ a x, ((![v233] : Fin 1 → IVec S16 32) a x).toNat < S32768.size a)
instance k0_chk52.dec : ∀ (v233 : IVec S16 32), Decidable (k0_chk52 v233) := fun v233 => decidable_of_iff' _ (Iff.of_eq (k0_chk52.eq_1 v233))
theorem k0_idx52_inb : ∀ (v233 : IVec S16 32) (k0_hw52 : k0_chk52 v233), ∀ a x, ((![v233] : Fin 1 → IVec S16 32) a x).toNat < S32768.size a := fun v233 k0_hw52 => k0_hw52

def k0_chk53 (v237 : IVec S16 32) : Prop :=
  (∀ a x, ((![v237] : Fin 1 → IVec S16 32) a x).toNat < S32768.size a)
instance k0_chk53.dec : ∀ (v237 : IVec S16 32), Decidable (k0_chk53 v237) := fun v237 => decidable_of_iff' _ (Iff.of_eq (k0_chk53.eq_1 v237))
theorem k0_idx53_inb : ∀ (v237 : IVec S16 32) (k0_hw53 : k0_chk53 v237), ∀ a x, ((![v237] : Fin 1 → IVec S16 32) a x).toNat < S32768.size a := fun v237 k0_hw53 => k0_hw53

def k0_chk54 (v241 : IVec S16 32) : Prop :=
  (∀ a x, ((![v241] : Fin 1 → IVec S16 32) a x).toNat < S32768.size a)
instance k0_chk54.dec : ∀ (v241 : IVec S16 32), Decidable (k0_chk54 v241) := fun v241 => decidable_of_iff' _ (Iff.of_eq (k0_chk54.eq_1 v241))
theorem k0_idx54_inb : ∀ (v241 : IVec S16 32) (k0_hw54 : k0_chk54 v241), ∀ a x, ((![v241] : Fin 1 → IVec S16 32) a x).toNat < S32768.size a := fun v241 k0_hw54 => k0_hw54

def k0_chk55 (v245 : IVec S16 32) : Prop :=
  (∀ a x, ((![v245] : Fin 1 → IVec S16 32) a x).toNat < S32768.size a)
instance k0_chk55.dec : ∀ (v245 : IVec S16 32), Decidable (k0_chk55 v245) := fun v245 => decidable_of_iff' _ (Iff.of_eq (k0_chk55.eq_1 v245))
theorem k0_idx55_inb : ∀ (v245 : IVec S16 32) (k0_hw55 : k0_chk55 v245), ∀ a x, ((![v245] : Fin 1 → IVec S16 32) a x).toNat < S32768.size a := fun v245 k0_hw55 => k0_hw55

def k0_chk56 (v249 : IVec S16 32) : Prop :=
  (∀ a x, ((![v249] : Fin 1 → IVec S16 32) a x).toNat < S32768.size a)
instance k0_chk56.dec : ∀ (v249 : IVec S16 32), Decidable (k0_chk56 v249) := fun v249 => decidable_of_iff' _ (Iff.of_eq (k0_chk56.eq_1 v249))
theorem k0_idx56_inb : ∀ (v249 : IVec S16 32) (k0_hw56 : k0_chk56 v249), ∀ a x, ((![v249] : Fin 1 → IVec S16 32) a x).toNat < S32768.size a := fun v249 k0_hw56 => k0_hw56

def k0_chk57 (v253 : IVec S16 32) : Prop :=
  (∀ a x, ((![v253] : Fin 1 → IVec S16 32) a x).toNat < S32768.size a)
instance k0_chk57.dec : ∀ (v253 : IVec S16 32), Decidable (k0_chk57 v253) := fun v253 => decidable_of_iff' _ (Iff.of_eq (k0_chk57.eq_1 v253))
theorem k0_idx57_inb : ∀ (v253 : IVec S16 32) (k0_hw57 : k0_chk57 v253), ∀ a x, ((![v253] : Fin 1 → IVec S16 32) a x).toNat < S32768.size a := fun v253 k0_hw57 => k0_hw57

def k0_chk58 (v257 : IVec S16 32) : Prop :=
  (∀ a x, ((![v257] : Fin 1 → IVec S16 32) a x).toNat < S32768.size a)
instance k0_chk58.dec : ∀ (v257 : IVec S16 32), Decidable (k0_chk58 v257) := fun v257 => decidable_of_iff' _ (Iff.of_eq (k0_chk58.eq_1 v257))
theorem k0_idx58_inb : ∀ (v257 : IVec S16 32) (k0_hw58 : k0_chk58 v257), ∀ a x, ((![v257] : Fin 1 → IVec S16 32) a x).toNat < S32768.size a := fun v257 k0_hw58 => k0_hw58

def k0_chk59 (v261 : IVec S16 32) : Prop :=
  (∀ a x, ((![v261] : Fin 1 → IVec S16 32) a x).toNat < S32768.size a)
instance k0_chk59.dec : ∀ (v261 : IVec S16 32), Decidable (k0_chk59 v261) := fun v261 => decidable_of_iff' _ (Iff.of_eq (k0_chk59.eq_1 v261))
theorem k0_idx59_inb : ∀ (v261 : IVec S16 32) (k0_hw59 : k0_chk59 v261), ∀ a x, ((![v261] : Fin 1 → IVec S16 32) a x).toNat < S32768.size a := fun v261 k0_hw59 => k0_hw59

def k0_chk60 (v265 : IVec S16 32) : Prop :=
  (∀ a x, ((![v265] : Fin 1 → IVec S16 32) a x).toNat < S32768.size a)
instance k0_chk60.dec : ∀ (v265 : IVec S16 32), Decidable (k0_chk60 v265) := fun v265 => decidable_of_iff' _ (Iff.of_eq (k0_chk60.eq_1 v265))
theorem k0_idx60_inb : ∀ (v265 : IVec S16 32) (k0_hw60 : k0_chk60 v265), ∀ a x, ((![v265] : Fin 1 → IVec S16 32) a x).toNat < S32768.size a := fun v265 k0_hw60 => k0_hw60

def k0_chk61 (v269 : IVec S16 32) : Prop :=
  (∀ a x, ((![v269] : Fin 1 → IVec S16 32) a x).toNat < S32768.size a)
instance k0_chk61.dec : ∀ (v269 : IVec S16 32), Decidable (k0_chk61 v269) := fun v269 => decidable_of_iff' _ (Iff.of_eq (k0_chk61.eq_1 v269))
theorem k0_idx61_inb : ∀ (v269 : IVec S16 32) (k0_hw61 : k0_chk61 v269), ∀ a x, ((![v269] : Fin 1 → IVec S16 32) a x).toNat < S32768.size a := fun v269 k0_hw61 => k0_hw61

def k0_chk62 (v273 : IVec S16 32) : Prop :=
  (∀ a x, ((![v273] : Fin 1 → IVec S16 32) a x).toNat < S32768.size a)
instance k0_chk62.dec : ∀ (v273 : IVec S16 32), Decidable (k0_chk62 v273) := fun v273 => decidable_of_iff' _ (Iff.of_eq (k0_chk62.eq_1 v273))
theorem k0_idx62_inb : ∀ (v273 : IVec S16 32) (k0_hw62 : k0_chk62 v273), ∀ a x, ((![v273] : Fin 1 → IVec S16 32) a x).toNat < S32768.size a := fun v273 k0_hw62 => k0_hw62

def k0_chk63 (v277 : IVec S16 32) : Prop :=
  (∀ a x, ((![v277] : Fin 1 → IVec S16 32) a x).toNat < S32768.size a)
instance k0_chk63.dec : ∀ (v277 : IVec S16 32), Decidable (k0_chk63 v277) := fun v277 => decidable_of_iff' _ (Iff.of_eq (k0_chk63.eq_1 v277))
theorem k0_idx63_inb : ∀ (v277 : IVec S16 32) (k0_hw63 : k0_chk63 v277), ∀ a x, ((![v277] : Fin 1 → IVec S16 32) a x).toNat < S32768.size a := fun v277 k0_hw63 => k0_hw63

def k0_chk64 (v281 : IVec S16 32) : Prop :=
  (∀ a x, ((![v281] : Fin 1 → IVec S16 32) a x).toNat < S32768.size a)
instance k0_chk64.dec : ∀ (v281 : IVec S16 32), Decidable (k0_chk64 v281) := fun v281 => decidable_of_iff' _ (Iff.of_eq (k0_chk64.eq_1 v281))
theorem k0_idx64_inb : ∀ (v281 : IVec S16 32) (k0_hw64 : k0_chk64 v281), ∀ a x, ((![v281] : Fin 1 → IVec S16 32) a x).toNat < S32768.size a := fun v281 k0_hw64 => k0_hw64

def k0_chk65 (v285 : IVec S16 32) : Prop :=
  (∀ a x, ((![v285] : Fin 1 → IVec S16 32) a x).toNat < S32768.size a)
instance k0_chk65.dec : ∀ (v285 : IVec S16 32), Decidable (k0_chk65 v285) := fun v285 => decidable_of_iff' _ (Iff.of_eq (k0_chk65.eq_1 v285))
theorem k0_idx65_inb : ∀ (v285 : IVec S16 32) (k0_hw65 : k0_chk65 v285), ∀ a x, ((![v285] : Fin 1 → IVec S16 32) a x).toNat < S32768.size a := fun v285 k0_hw65 => k0_hw65

def k0_chk66 (v289 : IVec S16 32) : Prop :=
  (∀ a x, ((![v289] : Fin 1 → IVec S16 32) a x).toNat < S32768.size a)
instance k0_chk66.dec : ∀ (v289 : IVec S16 32), Decidable (k0_chk66 v289) := fun v289 => decidable_of_iff' _ (Iff.of_eq (k0_chk66.eq_1 v289))
theorem k0_idx66_inb : ∀ (v289 : IVec S16 32) (k0_hw66 : k0_chk66 v289), ∀ a x, ((![v289] : Fin 1 → IVec S16 32) a x).toNat < S32768.size a := fun v289 k0_hw66 => k0_hw66

def k0_chk67 (v293 : IVec S16 32) : Prop :=
  (∀ a x, ((![v293] : Fin 1 → IVec S16 32) a x).toNat < S32768.size a)
instance k0_chk67.dec : ∀ (v293 : IVec S16 32), Decidable (k0_chk67 v293) := fun v293 => decidable_of_iff' _ (Iff.of_eq (k0_chk67.eq_1 v293))
theorem k0_idx67_inb : ∀ (v293 : IVec S16 32) (k0_hw67 : k0_chk67 v293), ∀ a x, ((![v293] : Fin 1 → IVec S16 32) a x).toNat < S32768.size a := fun v293 k0_hw67 => k0_hw67

def k0_chk68 (v297 : IVec S16 32) : Prop :=
  (∀ a x, ((![v297] : Fin 1 → IVec S16 32) a x).toNat < S32768.size a)
instance k0_chk68.dec : ∀ (v297 : IVec S16 32), Decidable (k0_chk68 v297) := fun v297 => decidable_of_iff' _ (Iff.of_eq (k0_chk68.eq_1 v297))
theorem k0_idx68_inb : ∀ (v297 : IVec S16 32) (k0_hw68 : k0_chk68 v297), ∀ a x, ((![v297] : Fin 1 → IVec S16 32) a x).toNat < S32768.size a := fun v297 k0_hw68 => k0_hw68

def k0_chk69 (v301 : IVec S16 32) : Prop :=
  (∀ a x, ((![v301] : Fin 1 → IVec S16 32) a x).toNat < S32768.size a)
instance k0_chk69.dec : ∀ (v301 : IVec S16 32), Decidable (k0_chk69 v301) := fun v301 => decidable_of_iff' _ (Iff.of_eq (k0_chk69.eq_1 v301))
theorem k0_idx69_inb : ∀ (v301 : IVec S16 32) (k0_hw69 : k0_chk69 v301), ∀ a x, ((![v301] : Fin 1 → IVec S16 32) a x).toNat < S32768.size a := fun v301 k0_hw69 => k0_hw69

def k0_chk70 (v305 : IVec S16 32) : Prop :=
  (∀ a x, ((![v305] : Fin 1 → IVec S16 32) a x).toNat < S32768.size a)
instance k0_chk70.dec : ∀ (v305 : IVec S16 32), Decidable (k0_chk70 v305) := fun v305 => decidable_of_iff' _ (Iff.of_eq (k0_chk70.eq_1 v305))
theorem k0_idx70_inb : ∀ (v305 : IVec S16 32) (k0_hw70 : k0_chk70 v305), ∀ a x, ((![v305] : Fin 1 → IVec S16 32) a x).toNat < S32768.size a := fun v305 k0_hw70 => k0_hw70

def k0_chk71 (v309 : IVec S16 32) : Prop :=
  (∀ a x, ((![v309] : Fin 1 → IVec S16 32) a x).toNat < S32768.size a)
instance k0_chk71.dec : ∀ (v309 : IVec S16 32), Decidable (k0_chk71 v309) := fun v309 => decidable_of_iff' _ (Iff.of_eq (k0_chk71.eq_1 v309))
theorem k0_idx71_inb : ∀ (v309 : IVec S16 32) (k0_hw71 : k0_chk71 v309), ∀ a x, ((![v309] : Fin 1 → IVec S16 32) a x).toNat < S32768.size a := fun v309 k0_hw71 => k0_hw71

def k0_chk72 (v313 : IVec S16 32) : Prop :=
  (∀ a x, ((![v313] : Fin 1 → IVec S16 32) a x).toNat < S32768.size a)
instance k0_chk72.dec : ∀ (v313 : IVec S16 32), Decidable (k0_chk72 v313) := fun v313 => decidable_of_iff' _ (Iff.of_eq (k0_chk72.eq_1 v313))
theorem k0_idx72_inb : ∀ (v313 : IVec S16 32) (k0_hw72 : k0_chk72 v313), ∀ a x, ((![v313] : Fin 1 → IVec S16 32) a x).toNat < S32768.size a := fun v313 k0_hw72 => k0_hw72

def k0_chk73 (v317 : IVec S16 32) : Prop :=
  (∀ a x, ((![v317] : Fin 1 → IVec S16 32) a x).toNat < S32768.size a)
instance k0_chk73.dec : ∀ (v317 : IVec S16 32), Decidable (k0_chk73 v317) := fun v317 => decidable_of_iff' _ (Iff.of_eq (k0_chk73.eq_1 v317))
theorem k0_idx73_inb : ∀ (v317 : IVec S16 32) (k0_hw73 : k0_chk73 v317), ∀ a x, ((![v317] : Fin 1 → IVec S16 32) a x).toNat < S32768.size a := fun v317 k0_hw73 => k0_hw73

def k0_chk74 (v321 : IVec S16 32) : Prop :=
  (∀ a x, ((![v321] : Fin 1 → IVec S16 32) a x).toNat < S32768.size a)
instance k0_chk74.dec : ∀ (v321 : IVec S16 32), Decidable (k0_chk74 v321) := fun v321 => decidable_of_iff' _ (Iff.of_eq (k0_chk74.eq_1 v321))
theorem k0_idx74_inb : ∀ (v321 : IVec S16 32) (k0_hw74 : k0_chk74 v321), ∀ a x, ((![v321] : Fin 1 → IVec S16 32) a x).toNat < S32768.size a := fun v321 k0_hw74 => k0_hw74

def k0_chk75 (v325 : IVec S16 32) : Prop :=
  (∀ a x, ((![v325] : Fin 1 → IVec S16 32) a x).toNat < S32768.size a)
instance k0_chk75.dec : ∀ (v325 : IVec S16 32), Decidable (k0_chk75 v325) := fun v325 => decidable_of_iff' _ (Iff.of_eq (k0_chk75.eq_1 v325))
theorem k0_idx75_inb : ∀ (v325 : IVec S16 32) (k0_hw75 : k0_chk75 v325), ∀ a x, ((![v325] : Fin 1 → IVec S16 32) a x).toNat < S32768.size a := fun v325 k0_hw75 => k0_hw75

def k0_chk76 (v329 : IVec S16 32) : Prop :=
  (∀ a x, ((![v329] : Fin 1 → IVec S16 32) a x).toNat < S32768.size a)
instance k0_chk76.dec : ∀ (v329 : IVec S16 32), Decidable (k0_chk76 v329) := fun v329 => decidable_of_iff' _ (Iff.of_eq (k0_chk76.eq_1 v329))
theorem k0_idx76_inb : ∀ (v329 : IVec S16 32) (k0_hw76 : k0_chk76 v329), ∀ a x, ((![v329] : Fin 1 → IVec S16 32) a x).toNat < S32768.size a := fun v329 k0_hw76 => k0_hw76

def k0_chk77 (v333 : IVec S16 32) : Prop :=
  (∀ a x, ((![v333] : Fin 1 → IVec S16 32) a x).toNat < S32768.size a)
instance k0_chk77.dec : ∀ (v333 : IVec S16 32), Decidable (k0_chk77 v333) := fun v333 => decidable_of_iff' _ (Iff.of_eq (k0_chk77.eq_1 v333))
theorem k0_idx77_inb : ∀ (v333 : IVec S16 32) (k0_hw77 : k0_chk77 v333), ∀ a x, ((![v333] : Fin 1 → IVec S16 32) a x).toNat < S32768.size a := fun v333 k0_hw77 => k0_hw77

def k0_chk78 (v337 : IVec S16 32) : Prop :=
  (∀ a x, ((![v337] : Fin 1 → IVec S16 32) a x).toNat < S32768.size a)
instance k0_chk78.dec : ∀ (v337 : IVec S16 32), Decidable (k0_chk78 v337) := fun v337 => decidable_of_iff' _ (Iff.of_eq (k0_chk78.eq_1 v337))
theorem k0_idx78_inb : ∀ (v337 : IVec S16 32) (k0_hw78 : k0_chk78 v337), ∀ a x, ((![v337] : Fin 1 → IVec S16 32) a x).toNat < S32768.size a := fun v337 k0_hw78 => k0_hw78

def k0_chk79 (v341 : IVec S16 32) : Prop :=
  (∀ a x, ((![v341] : Fin 1 → IVec S16 32) a x).toNat < S32768.size a)
instance k0_chk79.dec : ∀ (v341 : IVec S16 32), Decidable (k0_chk79 v341) := fun v341 => decidable_of_iff' _ (Iff.of_eq (k0_chk79.eq_1 v341))
theorem k0_idx79_inb : ∀ (v341 : IVec S16 32) (k0_hw79 : k0_chk79 v341), ∀ a x, ((![v341] : Fin 1 → IVec S16 32) a x).toNat < S32768.size a := fun v341 k0_hw79 => k0_hw79

def k0_chk80 (v345 : IVec S16 32) : Prop :=
  (∀ a x, ((![v345] : Fin 1 → IVec S16 32) a x).toNat < S32768.size a)
instance k0_chk80.dec : ∀ (v345 : IVec S16 32), Decidable (k0_chk80 v345) := fun v345 => decidable_of_iff' _ (Iff.of_eq (k0_chk80.eq_1 v345))
theorem k0_idx80_inb : ∀ (v345 : IVec S16 32) (k0_hw80 : k0_chk80 v345), ∀ a x, ((![v345] : Fin 1 → IVec S16 32) a x).toNat < S32768.size a := fun v345 k0_hw80 => k0_hw80

def k0_chk81 (v349 : IVec S16 32) : Prop :=
  (∀ a x, ((![v349] : Fin 1 → IVec S16 32) a x).toNat < S32768.size a)
instance k0_chk81.dec : ∀ (v349 : IVec S16 32), Decidable (k0_chk81 v349) := fun v349 => decidable_of_iff' _ (Iff.of_eq (k0_chk81.eq_1 v349))
theorem k0_idx81_inb : ∀ (v349 : IVec S16 32) (k0_hw81 : k0_chk81 v349), ∀ a x, ((![v349] : Fin 1 → IVec S16 32) a x).toNat < S32768.size a := fun v349 k0_hw81 => k0_hw81

def k0_chk82 (v353 : IVec S16 32) : Prop :=
  (∀ a x, ((![v353] : Fin 1 → IVec S16 32) a x).toNat < S32768.size a)
instance k0_chk82.dec : ∀ (v353 : IVec S16 32), Decidable (k0_chk82 v353) := fun v353 => decidable_of_iff' _ (Iff.of_eq (k0_chk82.eq_1 v353))
theorem k0_idx82_inb : ∀ (v353 : IVec S16 32) (k0_hw82 : k0_chk82 v353), ∀ a x, ((![v353] : Fin 1 → IVec S16 32) a x).toNat < S32768.size a := fun v353 k0_hw82 => k0_hw82

def k0_chk83 (v357 : IVec S16 32) : Prop :=
  (∀ a x, ((![v357] : Fin 1 → IVec S16 32) a x).toNat < S32768.size a)
instance k0_chk83.dec : ∀ (v357 : IVec S16 32), Decidable (k0_chk83 v357) := fun v357 => decidable_of_iff' _ (Iff.of_eq (k0_chk83.eq_1 v357))
theorem k0_idx83_inb : ∀ (v357 : IVec S16 32) (k0_hw83 : k0_chk83 v357), ∀ a x, ((![v357] : Fin 1 → IVec S16 32) a x).toNat < S32768.size a := fun v357 k0_hw83 => k0_hw83

def k0_chk84 (v361 : IVec S16 32) : Prop :=
  (∀ a x, ((![v361] : Fin 1 → IVec S16 32) a x).toNat < S32768.size a)
instance k0_chk84.dec : ∀ (v361 : IVec S16 32), Decidable (k0_chk84 v361) := fun v361 => decidable_of_iff' _ (Iff.of_eq (k0_chk84.eq_1 v361))
theorem k0_idx84_inb : ∀ (v361 : IVec S16 32) (k0_hw84 : k0_chk84 v361), ∀ a x, ((![v361] : Fin 1 → IVec S16 32) a x).toNat < S32768.size a := fun v361 k0_hw84 => k0_hw84

def k0_chk85 (v365 : IVec S16 32) : Prop :=
  (∀ a x, ((![v365] : Fin 1 → IVec S16 32) a x).toNat < S32768.size a)
instance k0_chk85.dec : ∀ (v365 : IVec S16 32), Decidable (k0_chk85 v365) := fun v365 => decidable_of_iff' _ (Iff.of_eq (k0_chk85.eq_1 v365))
theorem k0_idx85_inb : ∀ (v365 : IVec S16 32) (k0_hw85 : k0_chk85 v365), ∀ a x, ((![v365] : Fin 1 → IVec S16 32) a x).toNat < S32768.size a := fun v365 k0_hw85 => k0_hw85

def k0_chk86 (v369 : IVec S16 32) : Prop :=
  (∀ a x, ((![v369] : Fin 1 → IVec S16 32) a x).toNat < S32768.size a)
instance k0_chk86.dec : ∀ (v369 : IVec S16 32), Decidable (k0_chk86 v369) := fun v369 => decidable_of_iff' _ (Iff.of_eq (k0_chk86.eq_1 v369))
theorem k0_idx86_inb : ∀ (v369 : IVec S16 32) (k0_hw86 : k0_chk86 v369), ∀ a x, ((![v369] : Fin 1 → IVec S16 32) a x).toNat < S32768.size a := fun v369 k0_hw86 => k0_hw86

def k0_chk87 (v373 : IVec S16 32) : Prop :=
  (∀ a x, ((![v373] : Fin 1 → IVec S16 32) a x).toNat < S32768.size a)
instance k0_chk87.dec : ∀ (v373 : IVec S16 32), Decidable (k0_chk87 v373) := fun v373 => decidable_of_iff' _ (Iff.of_eq (k0_chk87.eq_1 v373))
theorem k0_idx87_inb : ∀ (v373 : IVec S16 32) (k0_hw87 : k0_chk87 v373), ∀ a x, ((![v373] : Fin 1 → IVec S16 32) a x).toNat < S32768.size a := fun v373 k0_hw87 => k0_hw87

def k0_chk88 (v377 : IVec S16 32) : Prop :=
  (∀ a x, ((![v377] : Fin 1 → IVec S16 32) a x).toNat < S32768.size a)
instance k0_chk88.dec : ∀ (v377 : IVec S16 32), Decidable (k0_chk88 v377) := fun v377 => decidable_of_iff' _ (Iff.of_eq (k0_chk88.eq_1 v377))
theorem k0_idx88_inb : ∀ (v377 : IVec S16 32) (k0_hw88 : k0_chk88 v377), ∀ a x, ((![v377] : Fin 1 → IVec S16 32) a x).toNat < S32768.size a := fun v377 k0_hw88 => k0_hw88

def k0_chk89 (v381 : IVec S16 32) : Prop :=
  (∀ a x, ((![v381] : Fin 1 → IVec S16 32) a x).toNat < S32768.size a)
instance k0_chk89.dec : ∀ (v381 : IVec S16 32), Decidable (k0_chk89 v381) := fun v381 => decidable_of_iff' _ (Iff.of_eq (k0_chk89.eq_1 v381))
theorem k0_idx89_inb : ∀ (v381 : IVec S16 32) (k0_hw89 : k0_chk89 v381), ∀ a x, ((![v381] : Fin 1 → IVec S16 32) a x).toNat < S32768.size a := fun v381 k0_hw89 => k0_hw89

def k0_chk90 (v385 : IVec S16 32) : Prop :=
  (∀ a x, ((![v385] : Fin 1 → IVec S16 32) a x).toNat < S32768.size a)
instance k0_chk90.dec : ∀ (v385 : IVec S16 32), Decidable (k0_chk90 v385) := fun v385 => decidable_of_iff' _ (Iff.of_eq (k0_chk90.eq_1 v385))
theorem k0_idx90_inb : ∀ (v385 : IVec S16 32) (k0_hw90 : k0_chk90 v385), ∀ a x, ((![v385] : Fin 1 → IVec S16 32) a x).toNat < S32768.size a := fun v385 k0_hw90 => k0_hw90

def k0_chk91 (v389 : IVec S16 32) : Prop :=
  (∀ a x, ((![v389] : Fin 1 → IVec S16 32) a x).toNat < S32768.size a)
instance k0_chk91.dec : ∀ (v389 : IVec S16 32), Decidable (k0_chk91 v389) := fun v389 => decidable_of_iff' _ (Iff.of_eq (k0_chk91.eq_1 v389))
theorem k0_idx91_inb : ∀ (v389 : IVec S16 32) (k0_hw91 : k0_chk91 v389), ∀ a x, ((![v389] : Fin 1 → IVec S16 32) a x).toNat < S32768.size a := fun v389 k0_hw91 => k0_hw91

def k0_chk92 (v393 : IVec S16 32) : Prop :=
  (∀ a x, ((![v393] : Fin 1 → IVec S16 32) a x).toNat < S32768.size a)
instance k0_chk92.dec : ∀ (v393 : IVec S16 32), Decidable (k0_chk92 v393) := fun v393 => decidable_of_iff' _ (Iff.of_eq (k0_chk92.eq_1 v393))
theorem k0_idx92_inb : ∀ (v393 : IVec S16 32) (k0_hw92 : k0_chk92 v393), ∀ a x, ((![v393] : Fin 1 → IVec S16 32) a x).toNat < S32768.size a := fun v393 k0_hw92 => k0_hw92

def k0_chk93 (v397 : IVec S16 32) : Prop :=
  (∀ a x, ((![v397] : Fin 1 → IVec S16 32) a x).toNat < S32768.size a)
instance k0_chk93.dec : ∀ (v397 : IVec S16 32), Decidable (k0_chk93 v397) := fun v397 => decidable_of_iff' _ (Iff.of_eq (k0_chk93.eq_1 v397))
theorem k0_idx93_inb : ∀ (v397 : IVec S16 32) (k0_hw93 : k0_chk93 v397), ∀ a x, ((![v397] : Fin 1 → IVec S16 32) a x).toNat < S32768.size a := fun v397 k0_hw93 => k0_hw93

def k0_chk94 (v401 : IVec S16 32) : Prop :=
  (∀ a x, ((![v401] : Fin 1 → IVec S16 32) a x).toNat < S32768.size a)
instance k0_chk94.dec : ∀ (v401 : IVec S16 32), Decidable (k0_chk94 v401) := fun v401 => decidable_of_iff' _ (Iff.of_eq (k0_chk94.eq_1 v401))
theorem k0_idx94_inb : ∀ (v401 : IVec S16 32) (k0_hw94 : k0_chk94 v401), ∀ a x, ((![v401] : Fin 1 → IVec S16 32) a x).toNat < S32768.size a := fun v401 k0_hw94 => k0_hw94

def k0_chk95 (v405 : IVec S16 32) : Prop :=
  (∀ a x, ((![v405] : Fin 1 → IVec S16 32) a x).toNat < S32768.size a)
instance k0_chk95.dec : ∀ (v405 : IVec S16 32), Decidable (k0_chk95 v405) := fun v405 => decidable_of_iff' _ (Iff.of_eq (k0_chk95.eq_1 v405))
theorem k0_idx95_inb : ∀ (v405 : IVec S16 32) (k0_hw95 : k0_chk95 v405), ∀ a x, ((![v405] : Fin 1 → IVec S16 32) a x).toNat < S32768.size a := fun v405 k0_hw95 => k0_hw95

def k0_chk96 (v409 : IVec S16 32) : Prop :=
  (∀ a x, ((![v409] : Fin 1 → IVec S16 32) a x).toNat < S32768.size a)
instance k0_chk96.dec : ∀ (v409 : IVec S16 32), Decidable (k0_chk96 v409) := fun v409 => decidable_of_iff' _ (Iff.of_eq (k0_chk96.eq_1 v409))
theorem k0_idx96_inb : ∀ (v409 : IVec S16 32) (k0_hw96 : k0_chk96 v409), ∀ a x, ((![v409] : Fin 1 → IVec S16 32) a x).toNat < S32768.size a := fun v409 k0_hw96 => k0_hw96

def k0_chk97 (v413 : IVec S16 32) : Prop :=
  (∀ a x, ((![v413] : Fin 1 → IVec S16 32) a x).toNat < S32768.size a)
instance k0_chk97.dec : ∀ (v413 : IVec S16 32), Decidable (k0_chk97 v413) := fun v413 => decidable_of_iff' _ (Iff.of_eq (k0_chk97.eq_1 v413))
theorem k0_idx97_inb : ∀ (v413 : IVec S16 32) (k0_hw97 : k0_chk97 v413), ∀ a x, ((![v413] : Fin 1 → IVec S16 32) a x).toNat < S32768.size a := fun v413 k0_hw97 => k0_hw97

def k0_chk98 (v417 : IVec S16 32) : Prop :=
  (∀ a x, ((![v417] : Fin 1 → IVec S16 32) a x).toNat < S32768.size a)
instance k0_chk98.dec : ∀ (v417 : IVec S16 32), Decidable (k0_chk98 v417) := fun v417 => decidable_of_iff' _ (Iff.of_eq (k0_chk98.eq_1 v417))
theorem k0_idx98_inb : ∀ (v417 : IVec S16 32) (k0_hw98 : k0_chk98 v417), ∀ a x, ((![v417] : Fin 1 → IVec S16 32) a x).toNat < S32768.size a := fun v417 k0_hw98 => k0_hw98

def k0_chk99 (v421 : IVec S16 32) : Prop :=
  (∀ a x, ((![v421] : Fin 1 → IVec S16 32) a x).toNat < S32768.size a)
instance k0_chk99.dec : ∀ (v421 : IVec S16 32), Decidable (k0_chk99 v421) := fun v421 => decidable_of_iff' _ (Iff.of_eq (k0_chk99.eq_1 v421))
theorem k0_idx99_inb : ∀ (v421 : IVec S16 32) (k0_hw99 : k0_chk99 v421), ∀ a x, ((![v421] : Fin 1 → IVec S16 32) a x).toNat < S32768.size a := fun v421 k0_hw99 => k0_hw99

def k0_chk100 (v425 : IVec S16 32) : Prop :=
  (∀ a x, ((![v425] : Fin 1 → IVec S16 32) a x).toNat < S32768.size a)
instance k0_chk100.dec : ∀ (v425 : IVec S16 32), Decidable (k0_chk100 v425) := fun v425 => decidable_of_iff' _ (Iff.of_eq (k0_chk100.eq_1 v425))
theorem k0_idx100_inb : ∀ (v425 : IVec S16 32) (k0_hw100 : k0_chk100 v425), ∀ a x, ((![v425] : Fin 1 → IVec S16 32) a x).toNat < S32768.size a := fun v425 k0_hw100 => k0_hw100

def k0_chk101 (v429 : IVec S16 32) : Prop :=
  (∀ a x, ((![v429] : Fin 1 → IVec S16 32) a x).toNat < S32768.size a)
instance k0_chk101.dec : ∀ (v429 : IVec S16 32), Decidable (k0_chk101 v429) := fun v429 => decidable_of_iff' _ (Iff.of_eq (k0_chk101.eq_1 v429))
theorem k0_idx101_inb : ∀ (v429 : IVec S16 32) (k0_hw101 : k0_chk101 v429), ∀ a x, ((![v429] : Fin 1 → IVec S16 32) a x).toNat < S32768.size a := fun v429 k0_hw101 => k0_hw101

def k0_chk102 (v433 : IVec S16 32) : Prop :=
  (∀ a x, ((![v433] : Fin 1 → IVec S16 32) a x).toNat < S32768.size a)
instance k0_chk102.dec : ∀ (v433 : IVec S16 32), Decidable (k0_chk102 v433) := fun v433 => decidable_of_iff' _ (Iff.of_eq (k0_chk102.eq_1 v433))
theorem k0_idx102_inb : ∀ (v433 : IVec S16 32) (k0_hw102 : k0_chk102 v433), ∀ a x, ((![v433] : Fin 1 → IVec S16 32) a x).toNat < S32768.size a := fun v433 k0_hw102 => k0_hw102

def k0_chk103 (v437 : IVec S16 32) : Prop :=
  (∀ a x, ((![v437] : Fin 1 → IVec S16 32) a x).toNat < S32768.size a)
instance k0_chk103.dec : ∀ (v437 : IVec S16 32), Decidable (k0_chk103 v437) := fun v437 => decidable_of_iff' _ (Iff.of_eq (k0_chk103.eq_1 v437))
theorem k0_idx103_inb : ∀ (v437 : IVec S16 32) (k0_hw103 : k0_chk103 v437), ∀ a x, ((![v437] : Fin 1 → IVec S16 32) a x).toNat < S32768.size a := fun v437 k0_hw103 => k0_hw103

def k0_chk104 (v441 : IVec S16 32) : Prop :=
  (∀ a x, ((![v441] : Fin 1 → IVec S16 32) a x).toNat < S32768.size a)
instance k0_chk104.dec : ∀ (v441 : IVec S16 32), Decidable (k0_chk104 v441) := fun v441 => decidable_of_iff' _ (Iff.of_eq (k0_chk104.eq_1 v441))
theorem k0_idx104_inb : ∀ (v441 : IVec S16 32) (k0_hw104 : k0_chk104 v441), ∀ a x, ((![v441] : Fin 1 → IVec S16 32) a x).toNat < S32768.size a := fun v441 k0_hw104 => k0_hw104

def k0_chk105 (v445 : IVec S16 32) : Prop :=
  (∀ a x, ((![v445] : Fin 1 → IVec S16 32) a x).toNat < S32768.size a)
instance k0_chk105.dec : ∀ (v445 : IVec S16 32), Decidable (k0_chk105 v445) := fun v445 => decidable_of_iff' _ (Iff.of_eq (k0_chk105.eq_1 v445))
theorem k0_idx105_inb : ∀ (v445 : IVec S16 32) (k0_hw105 : k0_chk105 v445), ∀ a x, ((![v445] : Fin 1 → IVec S16 32) a x).toNat < S32768.size a := fun v445 k0_hw105 => k0_hw105

def k0_chk106 (v449 : IVec S16 32) : Prop :=
  (∀ a x, ((![v449] : Fin 1 → IVec S16 32) a x).toNat < S32768.size a)
instance k0_chk106.dec : ∀ (v449 : IVec S16 32), Decidable (k0_chk106 v449) := fun v449 => decidable_of_iff' _ (Iff.of_eq (k0_chk106.eq_1 v449))
theorem k0_idx106_inb : ∀ (v449 : IVec S16 32) (k0_hw106 : k0_chk106 v449), ∀ a x, ((![v449] : Fin 1 → IVec S16 32) a x).toNat < S32768.size a := fun v449 k0_hw106 => k0_hw106

def k0_chk107 (v453 : IVec S16 32) : Prop :=
  (∀ a x, ((![v453] : Fin 1 → IVec S16 32) a x).toNat < S32768.size a)
instance k0_chk107.dec : ∀ (v453 : IVec S16 32), Decidable (k0_chk107 v453) := fun v453 => decidable_of_iff' _ (Iff.of_eq (k0_chk107.eq_1 v453))
theorem k0_idx107_inb : ∀ (v453 : IVec S16 32) (k0_hw107 : k0_chk107 v453), ∀ a x, ((![v453] : Fin 1 → IVec S16 32) a x).toNat < S32768.size a := fun v453 k0_hw107 => k0_hw107

def k0_chk108 (v457 : IVec S16 32) : Prop :=
  (∀ a x, ((![v457] : Fin 1 → IVec S16 32) a x).toNat < S32768.size a)
instance k0_chk108.dec : ∀ (v457 : IVec S16 32), Decidable (k0_chk108 v457) := fun v457 => decidable_of_iff' _ (Iff.of_eq (k0_chk108.eq_1 v457))
theorem k0_idx108_inb : ∀ (v457 : IVec S16 32) (k0_hw108 : k0_chk108 v457), ∀ a x, ((![v457] : Fin 1 → IVec S16 32) a x).toNat < S32768.size a := fun v457 k0_hw108 => k0_hw108

def k0_chk109 (v461 : IVec S16 32) : Prop :=
  (∀ a x, ((![v461] : Fin 1 → IVec S16 32) a x).toNat < S32768.size a)
instance k0_chk109.dec : ∀ (v461 : IVec S16 32), Decidable (k0_chk109 v461) := fun v461 => decidable_of_iff' _ (Iff.of_eq (k0_chk109.eq_1 v461))
theorem k0_idx109_inb : ∀ (v461 : IVec S16 32) (k0_hw109 : k0_chk109 v461), ∀ a x, ((![v461] : Fin 1 → IVec S16 32) a x).toNat < S32768.size a := fun v461 k0_hw109 => k0_hw109

def k0_chk110 (v465 : IVec S16 32) : Prop :=
  (∀ a x, ((![v465] : Fin 1 → IVec S16 32) a x).toNat < S32768.size a)
instance k0_chk110.dec : ∀ (v465 : IVec S16 32), Decidable (k0_chk110 v465) := fun v465 => decidable_of_iff' _ (Iff.of_eq (k0_chk110.eq_1 v465))
theorem k0_idx110_inb : ∀ (v465 : IVec S16 32) (k0_hw110 : k0_chk110 v465), ∀ a x, ((![v465] : Fin 1 → IVec S16 32) a x).toNat < S32768.size a := fun v465 k0_hw110 => k0_hw110

def k0_chk111 (v469 : IVec S16 32) : Prop :=
  (∀ a x, ((![v469] : Fin 1 → IVec S16 32) a x).toNat < S32768.size a)
instance k0_chk111.dec : ∀ (v469 : IVec S16 32), Decidable (k0_chk111 v469) := fun v469 => decidable_of_iff' _ (Iff.of_eq (k0_chk111.eq_1 v469))
theorem k0_idx111_inb : ∀ (v469 : IVec S16 32) (k0_hw111 : k0_chk111 v469), ∀ a x, ((![v469] : Fin 1 → IVec S16 32) a x).toNat < S32768.size a := fun v469 k0_hw111 => k0_hw111

def k0_chk112 (v473 : IVec S16 32) : Prop :=
  (∀ a x, ((![v473] : Fin 1 → IVec S16 32) a x).toNat < S32768.size a)
instance k0_chk112.dec : ∀ (v473 : IVec S16 32), Decidable (k0_chk112 v473) := fun v473 => decidable_of_iff' _ (Iff.of_eq (k0_chk112.eq_1 v473))
theorem k0_idx112_inb : ∀ (v473 : IVec S16 32) (k0_hw112 : k0_chk112 v473), ∀ a x, ((![v473] : Fin 1 → IVec S16 32) a x).toNat < S32768.size a := fun v473 k0_hw112 => k0_hw112

def k0_chk113 (v477 : IVec S16 32) : Prop :=
  (∀ a x, ((![v477] : Fin 1 → IVec S16 32) a x).toNat < S32768.size a)
instance k0_chk113.dec : ∀ (v477 : IVec S16 32), Decidable (k0_chk113 v477) := fun v477 => decidable_of_iff' _ (Iff.of_eq (k0_chk113.eq_1 v477))
theorem k0_idx113_inb : ∀ (v477 : IVec S16 32) (k0_hw113 : k0_chk113 v477), ∀ a x, ((![v477] : Fin 1 → IVec S16 32) a x).toNat < S32768.size a := fun v477 k0_hw113 => k0_hw113

def k0_chk114 (v481 : IVec S16 32) : Prop :=
  (∀ a x, ((![v481] : Fin 1 → IVec S16 32) a x).toNat < S32768.size a)
instance k0_chk114.dec : ∀ (v481 : IVec S16 32), Decidable (k0_chk114 v481) := fun v481 => decidable_of_iff' _ (Iff.of_eq (k0_chk114.eq_1 v481))
theorem k0_idx114_inb : ∀ (v481 : IVec S16 32) (k0_hw114 : k0_chk114 v481), ∀ a x, ((![v481] : Fin 1 → IVec S16 32) a x).toNat < S32768.size a := fun v481 k0_hw114 => k0_hw114

def k0_chk115 (v485 : IVec S16 32) : Prop :=
  (∀ a x, ((![v485] : Fin 1 → IVec S16 32) a x).toNat < S32768.size a)
instance k0_chk115.dec : ∀ (v485 : IVec S16 32), Decidable (k0_chk115 v485) := fun v485 => decidable_of_iff' _ (Iff.of_eq (k0_chk115.eq_1 v485))
theorem k0_idx115_inb : ∀ (v485 : IVec S16 32) (k0_hw115 : k0_chk115 v485), ∀ a x, ((![v485] : Fin 1 → IVec S16 32) a x).toNat < S32768.size a := fun v485 k0_hw115 => k0_hw115

def k0_chk116 (v489 : IVec S16 32) : Prop :=
  (∀ a x, ((![v489] : Fin 1 → IVec S16 32) a x).toNat < S32768.size a)
instance k0_chk116.dec : ∀ (v489 : IVec S16 32), Decidable (k0_chk116 v489) := fun v489 => decidable_of_iff' _ (Iff.of_eq (k0_chk116.eq_1 v489))
theorem k0_idx116_inb : ∀ (v489 : IVec S16 32) (k0_hw116 : k0_chk116 v489), ∀ a x, ((![v489] : Fin 1 → IVec S16 32) a x).toNat < S32768.size a := fun v489 k0_hw116 => k0_hw116

def k0_chk117 (v493 : IVec S16 32) : Prop :=
  (∀ a x, ((![v493] : Fin 1 → IVec S16 32) a x).toNat < S32768.size a)
instance k0_chk117.dec : ∀ (v493 : IVec S16 32), Decidable (k0_chk117 v493) := fun v493 => decidable_of_iff' _ (Iff.of_eq (k0_chk117.eq_1 v493))
theorem k0_idx117_inb : ∀ (v493 : IVec S16 32) (k0_hw117 : k0_chk117 v493), ∀ a x, ((![v493] : Fin 1 → IVec S16 32) a x).toNat < S32768.size a := fun v493 k0_hw117 => k0_hw117

def k0_chk118 (v497 : IVec S16 32) : Prop :=
  (∀ a x, ((![v497] : Fin 1 → IVec S16 32) a x).toNat < S32768.size a)
instance k0_chk118.dec : ∀ (v497 : IVec S16 32), Decidable (k0_chk118 v497) := fun v497 => decidable_of_iff' _ (Iff.of_eq (k0_chk118.eq_1 v497))
theorem k0_idx118_inb : ∀ (v497 : IVec S16 32) (k0_hw118 : k0_chk118 v497), ∀ a x, ((![v497] : Fin 1 → IVec S16 32) a x).toNat < S32768.size a := fun v497 k0_hw118 => k0_hw118

def k0_chk119 (v501 : IVec S16 32) : Prop :=
  (∀ a x, ((![v501] : Fin 1 → IVec S16 32) a x).toNat < S32768.size a)
instance k0_chk119.dec : ∀ (v501 : IVec S16 32), Decidable (k0_chk119 v501) := fun v501 => decidable_of_iff' _ (Iff.of_eq (k0_chk119.eq_1 v501))
theorem k0_idx119_inb : ∀ (v501 : IVec S16 32) (k0_hw119 : k0_chk119 v501), ∀ a x, ((![v501] : Fin 1 → IVec S16 32) a x).toNat < S32768.size a := fun v501 k0_hw119 => k0_hw119

def k0_chk120 (v505 : IVec S16 32) : Prop :=
  (∀ a x, ((![v505] : Fin 1 → IVec S16 32) a x).toNat < S32768.size a)
instance k0_chk120.dec : ∀ (v505 : IVec S16 32), Decidable (k0_chk120 v505) := fun v505 => decidable_of_iff' _ (Iff.of_eq (k0_chk120.eq_1 v505))
theorem k0_idx120_inb : ∀ (v505 : IVec S16 32) (k0_hw120 : k0_chk120 v505), ∀ a x, ((![v505] : Fin 1 → IVec S16 32) a x).toNat < S32768.size a := fun v505 k0_hw120 => k0_hw120

def k0_chk121 (v509 : IVec S16 32) : Prop :=
  (∀ a x, ((![v509] : Fin 1 → IVec S16 32) a x).toNat < S32768.size a)
instance k0_chk121.dec : ∀ (v509 : IVec S16 32), Decidable (k0_chk121 v509) := fun v509 => decidable_of_iff' _ (Iff.of_eq (k0_chk121.eq_1 v509))
theorem k0_idx121_inb : ∀ (v509 : IVec S16 32) (k0_hw121 : k0_chk121 v509), ∀ a x, ((![v509] : Fin 1 → IVec S16 32) a x).toNat < S32768.size a := fun v509 k0_hw121 => k0_hw121

def k0_chk122 (v513 : IVec S16 32) : Prop :=
  (∀ a x, ((![v513] : Fin 1 → IVec S16 32) a x).toNat < S32768.size a)
instance k0_chk122.dec : ∀ (v513 : IVec S16 32), Decidable (k0_chk122 v513) := fun v513 => decidable_of_iff' _ (Iff.of_eq (k0_chk122.eq_1 v513))
theorem k0_idx122_inb : ∀ (v513 : IVec S16 32) (k0_hw122 : k0_chk122 v513), ∀ a x, ((![v513] : Fin 1 → IVec S16 32) a x).toNat < S32768.size a := fun v513 k0_hw122 => k0_hw122

def k0_chk123 (v517 : IVec S16 32) : Prop :=
  (∀ a x, ((![v517] : Fin 1 → IVec S16 32) a x).toNat < S32768.size a)
instance k0_chk123.dec : ∀ (v517 : IVec S16 32), Decidable (k0_chk123 v517) := fun v517 => decidable_of_iff' _ (Iff.of_eq (k0_chk123.eq_1 v517))
theorem k0_idx123_inb : ∀ (v517 : IVec S16 32) (k0_hw123 : k0_chk123 v517), ∀ a x, ((![v517] : Fin 1 → IVec S16 32) a x).toNat < S32768.size a := fun v517 k0_hw123 => k0_hw123

def k0_chk124 (v521 : IVec S16 32) : Prop :=
  (∀ a x, ((![v521] : Fin 1 → IVec S16 32) a x).toNat < S32768.size a)
instance k0_chk124.dec : ∀ (v521 : IVec S16 32), Decidable (k0_chk124 v521) := fun v521 => decidable_of_iff' _ (Iff.of_eq (k0_chk124.eq_1 v521))
theorem k0_idx124_inb : ∀ (v521 : IVec S16 32) (k0_hw124 : k0_chk124 v521), ∀ a x, ((![v521] : Fin 1 → IVec S16 32) a x).toNat < S32768.size a := fun v521 k0_hw124 => k0_hw124

def k0_chk125 (v525 : IVec S16 32) : Prop :=
  (∀ a x, ((![v525] : Fin 1 → IVec S16 32) a x).toNat < S32768.size a)
instance k0_chk125.dec : ∀ (v525 : IVec S16 32), Decidable (k0_chk125 v525) := fun v525 => decidable_of_iff' _ (Iff.of_eq (k0_chk125.eq_1 v525))
theorem k0_idx125_inb : ∀ (v525 : IVec S16 32) (k0_hw125 : k0_chk125 v525), ∀ a x, ((![v525] : Fin 1 → IVec S16 32) a x).toNat < S32768.size a := fun v525 k0_hw125 => k0_hw125

def k0_chk126 (v529 : IVec S16 32) : Prop :=
  (∀ a x, ((![v529] : Fin 1 → IVec S16 32) a x).toNat < S32768.size a)
instance k0_chk126.dec : ∀ (v529 : IVec S16 32), Decidable (k0_chk126 v529) := fun v529 => decidable_of_iff' _ (Iff.of_eq (k0_chk126.eq_1 v529))
theorem k0_idx126_inb : ∀ (v529 : IVec S16 32) (k0_hw126 : k0_chk126 v529), ∀ a x, ((![v529] : Fin 1 → IVec S16 32) a x).toNat < S32768.size a := fun v529 k0_hw126 => k0_hw126

def k0_chk127 (v533 : IVec S16 32) : Prop :=
  (∀ a x, ((![v533] : Fin 1 → IVec S16 32) a x).toNat < S32768.size a)
instance k0_chk127.dec : ∀ (v533 : IVec S16 32), Decidable (k0_chk127 v533) := fun v533 => decidable_of_iff' _ (Iff.of_eq (k0_chk127.eq_1 v533))
theorem k0_idx127_inb : ∀ (v533 : IVec S16 32) (k0_hw127 : k0_chk127 v533), ∀ a x, ((![v533] : Fin 1 → IVec S16 32) a x).toNat < S32768.size a := fun v533 k0_hw127 => k0_hw127

def k0_chk128 (v537 : IVec S16 32) : Prop :=
  (∀ a x, ((![v537] : Fin 1 → IVec S16 32) a x).toNat < S32768.size a)
instance k0_chk128.dec : ∀ (v537 : IVec S16 32), Decidable (k0_chk128 v537) := fun v537 => decidable_of_iff' _ (Iff.of_eq (k0_chk128.eq_1 v537))
theorem k0_idx128_inb : ∀ (v537 : IVec S16 32) (k0_hw128 : k0_chk128 v537), ∀ a x, ((![v537] : Fin 1 → IVec S16 32) a x).toNat < S32768.size a := fun v537 k0_hw128 => k0_hw128

def k0_chk129 (v543 : IVec S16 32) : Prop :=
  (∀ a x, ((![v543] : Fin 1 → IVec S16 32) a x).toNat < S32768.size a)
instance k0_chk129.dec : ∀ (v543 : IVec S16 32), Decidable (k0_chk129 v543) := fun v543 => decidable_of_iff' _ (Iff.of_eq (k0_chk129.eq_1 v543))
theorem k0_idx129_inb : ∀ (v543 : IVec S16 32) (k0_hw129 : k0_chk129 v543), ∀ a x, ((![v543] : Fin 1 → IVec S16 32) a x).toNat < S32768.size a := fun v543 k0_hw129 => k0_hw129

def k0_chk130 (v547 : IVec S16 32) : Prop :=
  (∀ a x, ((![v547] : Fin 1 → IVec S16 32) a x).toNat < S32768.size a)
instance k0_chk130.dec : ∀ (v547 : IVec S16 32), Decidable (k0_chk130 v547) := fun v547 => decidable_of_iff' _ (Iff.of_eq (k0_chk130.eq_1 v547))
theorem k0_idx130_inb : ∀ (v547 : IVec S16 32) (k0_hw130 : k0_chk130 v547), ∀ a x, ((![v547] : Fin 1 → IVec S16 32) a x).toNat < S32768.size a := fun v547 k0_hw130 => k0_hw130

def k0_chk131 (v551 : IVec S16 32) : Prop :=
  (∀ a x, ((![v551] : Fin 1 → IVec S16 32) a x).toNat < S32768.size a)
instance k0_chk131.dec : ∀ (v551 : IVec S16 32), Decidable (k0_chk131 v551) := fun v551 => decidable_of_iff' _ (Iff.of_eq (k0_chk131.eq_1 v551))
theorem k0_idx131_inb : ∀ (v551 : IVec S16 32) (k0_hw131 : k0_chk131 v551), ∀ a x, ((![v551] : Fin 1 → IVec S16 32) a x).toNat < S32768.size a := fun v551 k0_hw131 => k0_hw131

def k0_chk132 (v555 : IVec S16 32) : Prop :=
  (∀ a x, ((![v555] : Fin 1 → IVec S16 32) a x).toNat < S32768.size a)
instance k0_chk132.dec : ∀ (v555 : IVec S16 32), Decidable (k0_chk132 v555) := fun v555 => decidable_of_iff' _ (Iff.of_eq (k0_chk132.eq_1 v555))
theorem k0_idx132_inb : ∀ (v555 : IVec S16 32) (k0_hw132 : k0_chk132 v555), ∀ a x, ((![v555] : Fin 1 → IVec S16 32) a x).toNat < S32768.size a := fun v555 k0_hw132 => k0_hw132

def k0_chk133 (v559 : IVec S16 32) : Prop :=
  (∀ a x, ((![v559] : Fin 1 → IVec S16 32) a x).toNat < S32768.size a)
instance k0_chk133.dec : ∀ (v559 : IVec S16 32), Decidable (k0_chk133 v559) := fun v559 => decidable_of_iff' _ (Iff.of_eq (k0_chk133.eq_1 v559))
theorem k0_idx133_inb : ∀ (v559 : IVec S16 32) (k0_hw133 : k0_chk133 v559), ∀ a x, ((![v559] : Fin 1 → IVec S16 32) a x).toNat < S32768.size a := fun v559 k0_hw133 => k0_hw133

def k0_chk134 (v563 : IVec S16 32) : Prop :=
  (∀ a x, ((![v563] : Fin 1 → IVec S16 32) a x).toNat < S32768.size a)
instance k0_chk134.dec : ∀ (v563 : IVec S16 32), Decidable (k0_chk134 v563) := fun v563 => decidable_of_iff' _ (Iff.of_eq (k0_chk134.eq_1 v563))
theorem k0_idx134_inb : ∀ (v563 : IVec S16 32) (k0_hw134 : k0_chk134 v563), ∀ a x, ((![v563] : Fin 1 → IVec S16 32) a x).toNat < S32768.size a := fun v563 k0_hw134 => k0_hw134

def k0_chk135 (v567 : IVec S16 32) : Prop :=
  (∀ a x, ((![v567] : Fin 1 → IVec S16 32) a x).toNat < S32768.size a)
instance k0_chk135.dec : ∀ (v567 : IVec S16 32), Decidable (k0_chk135 v567) := fun v567 => decidable_of_iff' _ (Iff.of_eq (k0_chk135.eq_1 v567))
theorem k0_idx135_inb : ∀ (v567 : IVec S16 32) (k0_hw135 : k0_chk135 v567), ∀ a x, ((![v567] : Fin 1 → IVec S16 32) a x).toNat < S32768.size a := fun v567 k0_hw135 => k0_hw135

def k0_chk136 (v571 : IVec S16 32) : Prop :=
  (∀ a x, ((![v571] : Fin 1 → IVec S16 32) a x).toNat < S32768.size a)
instance k0_chk136.dec : ∀ (v571 : IVec S16 32), Decidable (k0_chk136 v571) := fun v571 => decidable_of_iff' _ (Iff.of_eq (k0_chk136.eq_1 v571))
theorem k0_idx136_inb : ∀ (v571 : IVec S16 32) (k0_hw136 : k0_chk136 v571), ∀ a x, ((![v571] : Fin 1 → IVec S16 32) a x).toNat < S32768.size a := fun v571 k0_hw136 => k0_hw136

def k0_chk137 (v575 : IVec S16 32) : Prop :=
  (∀ a x, ((![v575] : Fin 1 → IVec S16 32) a x).toNat < S32768.size a)
instance k0_chk137.dec : ∀ (v575 : IVec S16 32), Decidable (k0_chk137 v575) := fun v575 => decidable_of_iff' _ (Iff.of_eq (k0_chk137.eq_1 v575))
theorem k0_idx137_inb : ∀ (v575 : IVec S16 32) (k0_hw137 : k0_chk137 v575), ∀ a x, ((![v575] : Fin 1 → IVec S16 32) a x).toNat < S32768.size a := fun v575 k0_hw137 => k0_hw137

def k0_chk138 (v579 : IVec S16 32) : Prop :=
  (∀ a x, ((![v579] : Fin 1 → IVec S16 32) a x).toNat < S32768.size a)
instance k0_chk138.dec : ∀ (v579 : IVec S16 32), Decidable (k0_chk138 v579) := fun v579 => decidable_of_iff' _ (Iff.of_eq (k0_chk138.eq_1 v579))
theorem k0_idx138_inb : ∀ (v579 : IVec S16 32) (k0_hw138 : k0_chk138 v579), ∀ a x, ((![v579] : Fin 1 → IVec S16 32) a x).toNat < S32768.size a := fun v579 k0_hw138 => k0_hw138

def k0_chk139 (v583 : IVec S16 32) : Prop :=
  (∀ a x, ((![v583] : Fin 1 → IVec S16 32) a x).toNat < S32768.size a)
instance k0_chk139.dec : ∀ (v583 : IVec S16 32), Decidable (k0_chk139 v583) := fun v583 => decidable_of_iff' _ (Iff.of_eq (k0_chk139.eq_1 v583))
theorem k0_idx139_inb : ∀ (v583 : IVec S16 32) (k0_hw139 : k0_chk139 v583), ∀ a x, ((![v583] : Fin 1 → IVec S16 32) a x).toNat < S32768.size a := fun v583 k0_hw139 => k0_hw139

def k0_chk140 (v587 : IVec S16 32) : Prop :=
  (∀ a x, ((![v587] : Fin 1 → IVec S16 32) a x).toNat < S32768.size a)
instance k0_chk140.dec : ∀ (v587 : IVec S16 32), Decidable (k0_chk140 v587) := fun v587 => decidable_of_iff' _ (Iff.of_eq (k0_chk140.eq_1 v587))
theorem k0_idx140_inb : ∀ (v587 : IVec S16 32) (k0_hw140 : k0_chk140 v587), ∀ a x, ((![v587] : Fin 1 → IVec S16 32) a x).toNat < S32768.size a := fun v587 k0_hw140 => k0_hw140

def k0_chk141 (v591 : IVec S16 32) : Prop :=
  (∀ a x, ((![v591] : Fin 1 → IVec S16 32) a x).toNat < S32768.size a)
instance k0_chk141.dec : ∀ (v591 : IVec S16 32), Decidable (k0_chk141 v591) := fun v591 => decidable_of_iff' _ (Iff.of_eq (k0_chk141.eq_1 v591))
theorem k0_idx141_inb : ∀ (v591 : IVec S16 32) (k0_hw141 : k0_chk141 v591), ∀ a x, ((![v591] : Fin 1 → IVec S16 32) a x).toNat < S32768.size a := fun v591 k0_hw141 => k0_hw141

def k0_chk142 (v595 : IVec S16 32) : Prop :=
  (∀ a x, ((![v595] : Fin 1 → IVec S16 32) a x).toNat < S32768.size a)
instance k0_chk142.dec : ∀ (v595 : IVec S16 32), Decidable (k0_chk142 v595) := fun v595 => decidable_of_iff' _ (Iff.of_eq (k0_chk142.eq_1 v595))
theorem k0_idx142_inb : ∀ (v595 : IVec S16 32) (k0_hw142 : k0_chk142 v595), ∀ a x, ((![v595] : Fin 1 → IVec S16 32) a x).toNat < S32768.size a := fun v595 k0_hw142 => k0_hw142

def k0_chk143 (v599 : IVec S16 32) : Prop :=
  (∀ a x, ((![v599] : Fin 1 → IVec S16 32) a x).toNat < S32768.size a)
instance k0_chk143.dec : ∀ (v599 : IVec S16 32), Decidable (k0_chk143 v599) := fun v599 => decidable_of_iff' _ (Iff.of_eq (k0_chk143.eq_1 v599))
theorem k0_idx143_inb : ∀ (v599 : IVec S16 32) (k0_hw143 : k0_chk143 v599), ∀ a x, ((![v599] : Fin 1 → IVec S16 32) a x).toNat < S32768.size a := fun v599 k0_hw143 => k0_hw143

def k0_chk144 (v603 : IVec S16 32) : Prop :=
  (∀ a x, ((![v603] : Fin 1 → IVec S16 32) a x).toNat < S32768.size a)
instance k0_chk144.dec : ∀ (v603 : IVec S16 32), Decidable (k0_chk144 v603) := fun v603 => decidable_of_iff' _ (Iff.of_eq (k0_chk144.eq_1 v603))
theorem k0_idx144_inb : ∀ (v603 : IVec S16 32) (k0_hw144 : k0_chk144 v603), ∀ a x, ((![v603] : Fin 1 → IVec S16 32) a x).toNat < S32768.size a := fun v603 k0_hw144 => k0_hw144

def k0_chk145 (v607 : IVec S16 32) : Prop :=
  (∀ a x, ((![v607] : Fin 1 → IVec S16 32) a x).toNat < S32768.size a)
instance k0_chk145.dec : ∀ (v607 : IVec S16 32), Decidable (k0_chk145 v607) := fun v607 => decidable_of_iff' _ (Iff.of_eq (k0_chk145.eq_1 v607))
theorem k0_idx145_inb : ∀ (v607 : IVec S16 32) (k0_hw145 : k0_chk145 v607), ∀ a x, ((![v607] : Fin 1 → IVec S16 32) a x).toNat < S32768.size a := fun v607 k0_hw145 => k0_hw145

def k0_chk146 (v611 : IVec S16 32) : Prop :=
  (∀ a x, ((![v611] : Fin 1 → IVec S16 32) a x).toNat < S32768.size a)
instance k0_chk146.dec : ∀ (v611 : IVec S16 32), Decidable (k0_chk146 v611) := fun v611 => decidable_of_iff' _ (Iff.of_eq (k0_chk146.eq_1 v611))
theorem k0_idx146_inb : ∀ (v611 : IVec S16 32) (k0_hw146 : k0_chk146 v611), ∀ a x, ((![v611] : Fin 1 → IVec S16 32) a x).toNat < S32768.size a := fun v611 k0_hw146 => k0_hw146

def k0_chk147 (v615 : IVec S16 32) : Prop :=
  (∀ a x, ((![v615] : Fin 1 → IVec S16 32) a x).toNat < S32768.size a)
instance k0_chk147.dec : ∀ (v615 : IVec S16 32), Decidable (k0_chk147 v615) := fun v615 => decidable_of_iff' _ (Iff.of_eq (k0_chk147.eq_1 v615))
theorem k0_idx147_inb : ∀ (v615 : IVec S16 32) (k0_hw147 : k0_chk147 v615), ∀ a x, ((![v615] : Fin 1 → IVec S16 32) a x).toNat < S32768.size a := fun v615 k0_hw147 => k0_hw147

def k0_chk148 (v619 : IVec S16 32) : Prop :=
  (∀ a x, ((![v619] : Fin 1 → IVec S16 32) a x).toNat < S32768.size a)
instance k0_chk148.dec : ∀ (v619 : IVec S16 32), Decidable (k0_chk148 v619) := fun v619 => decidable_of_iff' _ (Iff.of_eq (k0_chk148.eq_1 v619))
theorem k0_idx148_inb : ∀ (v619 : IVec S16 32) (k0_hw148 : k0_chk148 v619), ∀ a x, ((![v619] : Fin 1 → IVec S16 32) a x).toNat < S32768.size a := fun v619 k0_hw148 => k0_hw148

def k0_chk149 (v623 : IVec S16 32) : Prop :=
  (∀ a x, ((![v623] : Fin 1 → IVec S16 32) a x).toNat < S32768.size a)
instance k0_chk149.dec : ∀ (v623 : IVec S16 32), Decidable (k0_chk149 v623) := fun v623 => decidable_of_iff' _ (Iff.of_eq (k0_chk149.eq_1 v623))
theorem k0_idx149_inb : ∀ (v623 : IVec S16 32) (k0_hw149 : k0_chk149 v623), ∀ a x, ((![v623] : Fin 1 → IVec S16 32) a x).toNat < S32768.size a := fun v623 k0_hw149 => k0_hw149

def k0_chk150 (v627 : IVec S16 32) : Prop :=
  (∀ a x, ((![v627] : Fin 1 → IVec S16 32) a x).toNat < S32768.size a)
instance k0_chk150.dec : ∀ (v627 : IVec S16 32), Decidable (k0_chk150 v627) := fun v627 => decidable_of_iff' _ (Iff.of_eq (k0_chk150.eq_1 v627))
theorem k0_idx150_inb : ∀ (v627 : IVec S16 32) (k0_hw150 : k0_chk150 v627), ∀ a x, ((![v627] : Fin 1 → IVec S16 32) a x).toNat < S32768.size a := fun v627 k0_hw150 => k0_hw150

def k0_chk151 (v631 : IVec S16 32) : Prop :=
  (∀ a x, ((![v631] : Fin 1 → IVec S16 32) a x).toNat < S32768.size a)
instance k0_chk151.dec : ∀ (v631 : IVec S16 32), Decidable (k0_chk151 v631) := fun v631 => decidable_of_iff' _ (Iff.of_eq (k0_chk151.eq_1 v631))
theorem k0_idx151_inb : ∀ (v631 : IVec S16 32) (k0_hw151 : k0_chk151 v631), ∀ a x, ((![v631] : Fin 1 → IVec S16 32) a x).toNat < S32768.size a := fun v631 k0_hw151 => k0_hw151

def k0_chk152 (v635 : IVec S16 32) : Prop :=
  (∀ a x, ((![v635] : Fin 1 → IVec S16 32) a x).toNat < S32768.size a)
instance k0_chk152.dec : ∀ (v635 : IVec S16 32), Decidable (k0_chk152 v635) := fun v635 => decidable_of_iff' _ (Iff.of_eq (k0_chk152.eq_1 v635))
theorem k0_idx152_inb : ∀ (v635 : IVec S16 32) (k0_hw152 : k0_chk152 v635), ∀ a x, ((![v635] : Fin 1 → IVec S16 32) a x).toNat < S32768.size a := fun v635 k0_hw152 => k0_hw152

def k0_chk153 (v639 : IVec S16 32) : Prop :=
  (∀ a x, ((![v639] : Fin 1 → IVec S16 32) a x).toNat < S32768.size a)
instance k0_chk153.dec : ∀ (v639 : IVec S16 32), Decidable (k0_chk153 v639) := fun v639 => decidable_of_iff' _ (Iff.of_eq (k0_chk153.eq_1 v639))
theorem k0_idx153_inb : ∀ (v639 : IVec S16 32) (k0_hw153 : k0_chk153 v639), ∀ a x, ((![v639] : Fin 1 → IVec S16 32) a x).toNat < S32768.size a := fun v639 k0_hw153 => k0_hw153

def k0_chk154 (v643 : IVec S16 32) : Prop :=
  (∀ a x, ((![v643] : Fin 1 → IVec S16 32) a x).toNat < S32768.size a)
instance k0_chk154.dec : ∀ (v643 : IVec S16 32), Decidable (k0_chk154 v643) := fun v643 => decidable_of_iff' _ (Iff.of_eq (k0_chk154.eq_1 v643))
theorem k0_idx154_inb : ∀ (v643 : IVec S16 32) (k0_hw154 : k0_chk154 v643), ∀ a x, ((![v643] : Fin 1 → IVec S16 32) a x).toNat < S32768.size a := fun v643 k0_hw154 => k0_hw154

def k0_chk155 (v647 : IVec S16 32) : Prop :=
  (∀ a x, ((![v647] : Fin 1 → IVec S16 32) a x).toNat < S32768.size a)
instance k0_chk155.dec : ∀ (v647 : IVec S16 32), Decidable (k0_chk155 v647) := fun v647 => decidable_of_iff' _ (Iff.of_eq (k0_chk155.eq_1 v647))
theorem k0_idx155_inb : ∀ (v647 : IVec S16 32) (k0_hw155 : k0_chk155 v647), ∀ a x, ((![v647] : Fin 1 → IVec S16 32) a x).toNat < S32768.size a := fun v647 k0_hw155 => k0_hw155

def k0_chk156 (v651 : IVec S16 32) : Prop :=
  (∀ a x, ((![v651] : Fin 1 → IVec S16 32) a x).toNat < S32768.size a)
instance k0_chk156.dec : ∀ (v651 : IVec S16 32), Decidable (k0_chk156 v651) := fun v651 => decidable_of_iff' _ (Iff.of_eq (k0_chk156.eq_1 v651))
theorem k0_idx156_inb : ∀ (v651 : IVec S16 32) (k0_hw156 : k0_chk156 v651), ∀ a x, ((![v651] : Fin 1 → IVec S16 32) a x).toNat < S32768.size a := fun v651 k0_hw156 => k0_hw156

def k0_chk157 (v655 : IVec S16 32) : Prop :=
  (∀ a x, ((![v655] : Fin 1 → IVec S16 32) a x).toNat < S32768.size a)
instance k0_chk157.dec : ∀ (v655 : IVec S16 32), Decidable (k0_chk157 v655) := fun v655 => decidable_of_iff' _ (Iff.of_eq (k0_chk157.eq_1 v655))
theorem k0_idx157_inb : ∀ (v655 : IVec S16 32) (k0_hw157 : k0_chk157 v655), ∀ a x, ((![v655] : Fin 1 → IVec S16 32) a x).toNat < S32768.size a := fun v655 k0_hw157 => k0_hw157

def k0_chk158 (v659 : IVec S16 32) : Prop :=
  (∀ a x, ((![v659] : Fin 1 → IVec S16 32) a x).toNat < S32768.size a)
instance k0_chk158.dec : ∀ (v659 : IVec S16 32), Decidable (k0_chk158 v659) := fun v659 => decidable_of_iff' _ (Iff.of_eq (k0_chk158.eq_1 v659))
theorem k0_idx158_inb : ∀ (v659 : IVec S16 32) (k0_hw158 : k0_chk158 v659), ∀ a x, ((![v659] : Fin 1 → IVec S16 32) a x).toNat < S32768.size a := fun v659 k0_hw158 => k0_hw158

def k0_chk159 (v663 : IVec S16 32) : Prop :=
  (∀ a x, ((![v663] : Fin 1 → IVec S16 32) a x).toNat < S32768.size a)
instance k0_chk159.dec : ∀ (v663 : IVec S16 32), Decidable (k0_chk159 v663) := fun v663 => decidable_of_iff' _ (Iff.of_eq (k0_chk159.eq_1 v663))
theorem k0_idx159_inb : ∀ (v663 : IVec S16 32) (k0_hw159 : k0_chk159 v663), ∀ a x, ((![v663] : Fin 1 → IVec S16 32) a x).toNat < S32768.size a := fun v663 k0_hw159 => k0_hw159

def k0_chk160 (v667 : IVec S16 32) : Prop :=
  (∀ a x, ((![v667] : Fin 1 → IVec S16 32) a x).toNat < S32768.size a)
instance k0_chk160.dec : ∀ (v667 : IVec S16 32), Decidable (k0_chk160 v667) := fun v667 => decidable_of_iff' _ (Iff.of_eq (k0_chk160.eq_1 v667))
theorem k0_idx160_inb : ∀ (v667 : IVec S16 32) (k0_hw160 : k0_chk160 v667), ∀ a x, ((![v667] : Fin 1 → IVec S16 32) a x).toNat < S32768.size a := fun v667 k0_hw160 => k0_hw160

def k0_chk161 (v671 : IVec S16 32) : Prop :=
  (∀ a x, ((![v671] : Fin 1 → IVec S16 32) a x).toNat < S32768.size a)
instance k0_chk161.dec : ∀ (v671 : IVec S16 32), Decidable (k0_chk161 v671) := fun v671 => decidable_of_iff' _ (Iff.of_eq (k0_chk161.eq_1 v671))
theorem k0_idx161_inb : ∀ (v671 : IVec S16 32) (k0_hw161 : k0_chk161 v671), ∀ a x, ((![v671] : Fin 1 → IVec S16 32) a x).toNat < S32768.size a := fun v671 k0_hw161 => k0_hw161

def k0_chk162 (v675 : IVec S16 32) : Prop :=
  (∀ a x, ((![v675] : Fin 1 → IVec S16 32) a x).toNat < S32768.size a)
instance k0_chk162.dec : ∀ (v675 : IVec S16 32), Decidable (k0_chk162 v675) := fun v675 => decidable_of_iff' _ (Iff.of_eq (k0_chk162.eq_1 v675))
theorem k0_idx162_inb : ∀ (v675 : IVec S16 32) (k0_hw162 : k0_chk162 v675), ∀ a x, ((![v675] : Fin 1 → IVec S16 32) a x).toNat < S32768.size a := fun v675 k0_hw162 => k0_hw162

def k0_chk163 (v679 : IVec S16 32) : Prop :=
  (∀ a x, ((![v679] : Fin 1 → IVec S16 32) a x).toNat < S32768.size a)
instance k0_chk163.dec : ∀ (v679 : IVec S16 32), Decidable (k0_chk163 v679) := fun v679 => decidable_of_iff' _ (Iff.of_eq (k0_chk163.eq_1 v679))
theorem k0_idx163_inb : ∀ (v679 : IVec S16 32) (k0_hw163 : k0_chk163 v679), ∀ a x, ((![v679] : Fin 1 → IVec S16 32) a x).toNat < S32768.size a := fun v679 k0_hw163 => k0_hw163

def k0_chk164 (v683 : IVec S16 32) : Prop :=
  (∀ a x, ((![v683] : Fin 1 → IVec S16 32) a x).toNat < S32768.size a)
instance k0_chk164.dec : ∀ (v683 : IVec S16 32), Decidable (k0_chk164 v683) := fun v683 => decidable_of_iff' _ (Iff.of_eq (k0_chk164.eq_1 v683))
theorem k0_idx164_inb : ∀ (v683 : IVec S16 32) (k0_hw164 : k0_chk164 v683), ∀ a x, ((![v683] : Fin 1 → IVec S16 32) a x).toNat < S32768.size a := fun v683 k0_hw164 => k0_hw164

def k0_chk165 (v687 : IVec S16 32) : Prop :=
  (∀ a x, ((![v687] : Fin 1 → IVec S16 32) a x).toNat < S32768.size a)
instance k0_chk165.dec : ∀ (v687 : IVec S16 32), Decidable (k0_chk165 v687) := fun v687 => decidable_of_iff' _ (Iff.of_eq (k0_chk165.eq_1 v687))
theorem k0_idx165_inb : ∀ (v687 : IVec S16 32) (k0_hw165 : k0_chk165 v687), ∀ a x, ((![v687] : Fin 1 → IVec S16 32) a x).toNat < S32768.size a := fun v687 k0_hw165 => k0_hw165

def k0_chk166 (v691 : IVec S16 32) : Prop :=
  (∀ a x, ((![v691] : Fin 1 → IVec S16 32) a x).toNat < S32768.size a)
instance k0_chk166.dec : ∀ (v691 : IVec S16 32), Decidable (k0_chk166 v691) := fun v691 => decidable_of_iff' _ (Iff.of_eq (k0_chk166.eq_1 v691))
theorem k0_idx166_inb : ∀ (v691 : IVec S16 32) (k0_hw166 : k0_chk166 v691), ∀ a x, ((![v691] : Fin 1 → IVec S16 32) a x).toNat < S32768.size a := fun v691 k0_hw166 => k0_hw166

def k0_chk167 (v695 : IVec S16 32) : Prop :=
  (∀ a x, ((![v695] : Fin 1 → IVec S16 32) a x).toNat < S32768.size a)
instance k0_chk167.dec : ∀ (v695 : IVec S16 32), Decidable (k0_chk167 v695) := fun v695 => decidable_of_iff' _ (Iff.of_eq (k0_chk167.eq_1 v695))
theorem k0_idx167_inb : ∀ (v695 : IVec S16 32) (k0_hw167 : k0_chk167 v695), ∀ a x, ((![v695] : Fin 1 → IVec S16 32) a x).toNat < S32768.size a := fun v695 k0_hw167 => k0_hw167

def k0_chk168 (v699 : IVec S16 32) : Prop :=
  (∀ a x, ((![v699] : Fin 1 → IVec S16 32) a x).toNat < S32768.size a)
instance k0_chk168.dec : ∀ (v699 : IVec S16 32), Decidable (k0_chk168 v699) := fun v699 => decidable_of_iff' _ (Iff.of_eq (k0_chk168.eq_1 v699))
theorem k0_idx168_inb : ∀ (v699 : IVec S16 32) (k0_hw168 : k0_chk168 v699), ∀ a x, ((![v699] : Fin 1 → IVec S16 32) a x).toNat < S32768.size a := fun v699 k0_hw168 => k0_hw168

def k0_chk169 (v703 : IVec S16 32) : Prop :=
  (∀ a x, ((![v703] : Fin 1 → IVec S16 32) a x).toNat < S32768.size a)
instance k0_chk169.dec : ∀ (v703 : IVec S16 32), Decidable (k0_chk169 v703) := fun v703 => decidable_of_iff' _ (Iff.of_eq (k0_chk169.eq_1 v703))
theorem k0_idx169_inb : ∀ (v703 : IVec S16 32) (k0_hw169 : k0_chk169 v703), ∀ a x, ((![v703] : Fin 1 → IVec S16 32) a x).toNat < S32768.size a := fun v703 k0_hw169 => k0_hw169

def k0_chk170 (v707 : IVec S16 32) : Prop :=
  (∀ a x, ((![v707] : Fin 1 → IVec S16 32) a x).toNat < S32768.size a)
instance k0_chk170.dec : ∀ (v707 : IVec S16 32), Decidable (k0_chk170 v707) := fun v707 => decidable_of_iff' _ (Iff.of_eq (k0_chk170.eq_1 v707))
theorem k0_idx170_inb : ∀ (v707 : IVec S16 32) (k0_hw170 : k0_chk170 v707), ∀ a x, ((![v707] : Fin 1 → IVec S16 32) a x).toNat < S32768.size a := fun v707 k0_hw170 => k0_hw170

def k0_chk171 (v711 : IVec S16 32) : Prop :=
  (∀ a x, ((![v711] : Fin 1 → IVec S16 32) a x).toNat < S32768.size a)
instance k0_chk171.dec : ∀ (v711 : IVec S16 32), Decidable (k0_chk171 v711) := fun v711 => decidable_of_iff' _ (Iff.of_eq (k0_chk171.eq_1 v711))
theorem k0_idx171_inb : ∀ (v711 : IVec S16 32) (k0_hw171 : k0_chk171 v711), ∀ a x, ((![v711] : Fin 1 → IVec S16 32) a x).toNat < S32768.size a := fun v711 k0_hw171 => k0_hw171

def k0_chk172 (v715 : IVec S16 32) : Prop :=
  (∀ a x, ((![v715] : Fin 1 → IVec S16 32) a x).toNat < S32768.size a)
instance k0_chk172.dec : ∀ (v715 : IVec S16 32), Decidable (k0_chk172 v715) := fun v715 => decidable_of_iff' _ (Iff.of_eq (k0_chk172.eq_1 v715))
theorem k0_idx172_inb : ∀ (v715 : IVec S16 32) (k0_hw172 : k0_chk172 v715), ∀ a x, ((![v715] : Fin 1 → IVec S16 32) a x).toNat < S32768.size a := fun v715 k0_hw172 => k0_hw172

def k0_chk173 (v719 : IVec S16 32) : Prop :=
  (∀ a x, ((![v719] : Fin 1 → IVec S16 32) a x).toNat < S32768.size a)
instance k0_chk173.dec : ∀ (v719 : IVec S16 32), Decidable (k0_chk173 v719) := fun v719 => decidable_of_iff' _ (Iff.of_eq (k0_chk173.eq_1 v719))
theorem k0_idx173_inb : ∀ (v719 : IVec S16 32) (k0_hw173 : k0_chk173 v719), ∀ a x, ((![v719] : Fin 1 → IVec S16 32) a x).toNat < S32768.size a := fun v719 k0_hw173 => k0_hw173

def k0_chk174 (v723 : IVec S16 32) : Prop :=
  (∀ a x, ((![v723] : Fin 1 → IVec S16 32) a x).toNat < S32768.size a)
instance k0_chk174.dec : ∀ (v723 : IVec S16 32), Decidable (k0_chk174 v723) := fun v723 => decidable_of_iff' _ (Iff.of_eq (k0_chk174.eq_1 v723))
theorem k0_idx174_inb : ∀ (v723 : IVec S16 32) (k0_hw174 : k0_chk174 v723), ∀ a x, ((![v723] : Fin 1 → IVec S16 32) a x).toNat < S32768.size a := fun v723 k0_hw174 => k0_hw174

def k0_chk175 (v727 : IVec S16 32) : Prop :=
  (∀ a x, ((![v727] : Fin 1 → IVec S16 32) a x).toNat < S32768.size a)
instance k0_chk175.dec : ∀ (v727 : IVec S16 32), Decidable (k0_chk175 v727) := fun v727 => decidable_of_iff' _ (Iff.of_eq (k0_chk175.eq_1 v727))
theorem k0_idx175_inb : ∀ (v727 : IVec S16 32) (k0_hw175 : k0_chk175 v727), ∀ a x, ((![v727] : Fin 1 → IVec S16 32) a x).toNat < S32768.size a := fun v727 k0_hw175 => k0_hw175

def k0_chk176 (v731 : IVec S16 32) : Prop :=
  (∀ a x, ((![v731] : Fin 1 → IVec S16 32) a x).toNat < S32768.size a)
instance k0_chk176.dec : ∀ (v731 : IVec S16 32), Decidable (k0_chk176 v731) := fun v731 => decidable_of_iff' _ (Iff.of_eq (k0_chk176.eq_1 v731))
theorem k0_idx176_inb : ∀ (v731 : IVec S16 32) (k0_hw176 : k0_chk176 v731), ∀ a x, ((![v731] : Fin 1 → IVec S16 32) a x).toNat < S32768.size a := fun v731 k0_hw176 => k0_hw176

def k0_chk177 (v735 : IVec S16 32) : Prop :=
  (∀ a x, ((![v735] : Fin 1 → IVec S16 32) a x).toNat < S32768.size a)
instance k0_chk177.dec : ∀ (v735 : IVec S16 32), Decidable (k0_chk177 v735) := fun v735 => decidable_of_iff' _ (Iff.of_eq (k0_chk177.eq_1 v735))
theorem k0_idx177_inb : ∀ (v735 : IVec S16 32) (k0_hw177 : k0_chk177 v735), ∀ a x, ((![v735] : Fin 1 → IVec S16 32) a x).toNat < S32768.size a := fun v735 k0_hw177 => k0_hw177

def k0_chk178 (v739 : IVec S16 32) : Prop :=
  (∀ a x, ((![v739] : Fin 1 → IVec S16 32) a x).toNat < S32768.size a)
instance k0_chk178.dec : ∀ (v739 : IVec S16 32), Decidable (k0_chk178 v739) := fun v739 => decidable_of_iff' _ (Iff.of_eq (k0_chk178.eq_1 v739))
theorem k0_idx178_inb : ∀ (v739 : IVec S16 32) (k0_hw178 : k0_chk178 v739), ∀ a x, ((![v739] : Fin 1 → IVec S16 32) a x).toNat < S32768.size a := fun v739 k0_hw178 => k0_hw178

def k0_chk179 (v743 : IVec S16 32) : Prop :=
  (∀ a x, ((![v743] : Fin 1 → IVec S16 32) a x).toNat < S32768.size a)
instance k0_chk179.dec : ∀ (v743 : IVec S16 32), Decidable (k0_chk179 v743) := fun v743 => decidable_of_iff' _ (Iff.of_eq (k0_chk179.eq_1 v743))
theorem k0_idx179_inb : ∀ (v743 : IVec S16 32) (k0_hw179 : k0_chk179 v743), ∀ a x, ((![v743] : Fin 1 → IVec S16 32) a x).toNat < S32768.size a := fun v743 k0_hw179 => k0_hw179

def k0_chk180 (v747 : IVec S16 32) : Prop :=
  (∀ a x, ((![v747] : Fin 1 → IVec S16 32) a x).toNat < S32768.size a)
instance k0_chk180.dec : ∀ (v747 : IVec S16 32), Decidable (k0_chk180 v747) := fun v747 => decidable_of_iff' _ (Iff.of_eq (k0_chk180.eq_1 v747))
theorem k0_idx180_inb : ∀ (v747 : IVec S16 32) (k0_hw180 : k0_chk180 v747), ∀ a x, ((![v747] : Fin 1 → IVec S16 32) a x).toNat < S32768.size a := fun v747 k0_hw180 => k0_hw180

def k0_chk181 (v751 : IVec S16 32) : Prop :=
  (∀ a x, ((![v751] : Fin 1 → IVec S16 32) a x).toNat < S32768.size a)
instance k0_chk181.dec : ∀ (v751 : IVec S16 32), Decidable (k0_chk181 v751) := fun v751 => decidable_of_iff' _ (Iff.of_eq (k0_chk181.eq_1 v751))
theorem k0_idx181_inb : ∀ (v751 : IVec S16 32) (k0_hw181 : k0_chk181 v751), ∀ a x, ((![v751] : Fin 1 → IVec S16 32) a x).toNat < S32768.size a := fun v751 k0_hw181 => k0_hw181

def k0_chk182 (v755 : IVec S16 32) : Prop :=
  (∀ a x, ((![v755] : Fin 1 → IVec S16 32) a x).toNat < S32768.size a)
instance k0_chk182.dec : ∀ (v755 : IVec S16 32), Decidable (k0_chk182 v755) := fun v755 => decidable_of_iff' _ (Iff.of_eq (k0_chk182.eq_1 v755))
theorem k0_idx182_inb : ∀ (v755 : IVec S16 32) (k0_hw182 : k0_chk182 v755), ∀ a x, ((![v755] : Fin 1 → IVec S16 32) a x).toNat < S32768.size a := fun v755 k0_hw182 => k0_hw182

def k0_chk183 (v759 : IVec S16 32) : Prop :=
  (∀ a x, ((![v759] : Fin 1 → IVec S16 32) a x).toNat < S32768.size a)
instance k0_chk183.dec : ∀ (v759 : IVec S16 32), Decidable (k0_chk183 v759) := fun v759 => decidable_of_iff' _ (Iff.of_eq (k0_chk183.eq_1 v759))
theorem k0_idx183_inb : ∀ (v759 : IVec S16 32) (k0_hw183 : k0_chk183 v759), ∀ a x, ((![v759] : Fin 1 → IVec S16 32) a x).toNat < S32768.size a := fun v759 k0_hw183 => k0_hw183

def k0_chk184 (v763 : IVec S16 32) : Prop :=
  (∀ a x, ((![v763] : Fin 1 → IVec S16 32) a x).toNat < S32768.size a)
instance k0_chk184.dec : ∀ (v763 : IVec S16 32), Decidable (k0_chk184 v763) := fun v763 => decidable_of_iff' _ (Iff.of_eq (k0_chk184.eq_1 v763))
theorem k0_idx184_inb : ∀ (v763 : IVec S16 32) (k0_hw184 : k0_chk184 v763), ∀ a x, ((![v763] : Fin 1 → IVec S16 32) a x).toNat < S32768.size a := fun v763 k0_hw184 => k0_hw184

def k0_chk185 (v767 : IVec S16 32) : Prop :=
  (∀ a x, ((![v767] : Fin 1 → IVec S16 32) a x).toNat < S32768.size a)
instance k0_chk185.dec : ∀ (v767 : IVec S16 32), Decidable (k0_chk185 v767) := fun v767 => decidable_of_iff' _ (Iff.of_eq (k0_chk185.eq_1 v767))
theorem k0_idx185_inb : ∀ (v767 : IVec S16 32) (k0_hw185 : k0_chk185 v767), ∀ a x, ((![v767] : Fin 1 → IVec S16 32) a x).toNat < S32768.size a := fun v767 k0_hw185 => k0_hw185

def k0_chk186 (v771 : IVec S16 32) : Prop :=
  (∀ a x, ((![v771] : Fin 1 → IVec S16 32) a x).toNat < S32768.size a)
instance k0_chk186.dec : ∀ (v771 : IVec S16 32), Decidable (k0_chk186 v771) := fun v771 => decidable_of_iff' _ (Iff.of_eq (k0_chk186.eq_1 v771))
theorem k0_idx186_inb : ∀ (v771 : IVec S16 32) (k0_hw186 : k0_chk186 v771), ∀ a x, ((![v771] : Fin 1 → IVec S16 32) a x).toNat < S32768.size a := fun v771 k0_hw186 => k0_hw186

def k0_chk187 (v775 : IVec S16 32) : Prop :=
  (∀ a x, ((![v775] : Fin 1 → IVec S16 32) a x).toNat < S32768.size a)
instance k0_chk187.dec : ∀ (v775 : IVec S16 32), Decidable (k0_chk187 v775) := fun v775 => decidable_of_iff' _ (Iff.of_eq (k0_chk187.eq_1 v775))
theorem k0_idx187_inb : ∀ (v775 : IVec S16 32) (k0_hw187 : k0_chk187 v775), ∀ a x, ((![v775] : Fin 1 → IVec S16 32) a x).toNat < S32768.size a := fun v775 k0_hw187 => k0_hw187

def k0_chk188 (v779 : IVec S16 32) : Prop :=
  (∀ a x, ((![v779] : Fin 1 → IVec S16 32) a x).toNat < S32768.size a)
instance k0_chk188.dec : ∀ (v779 : IVec S16 32), Decidable (k0_chk188 v779) := fun v779 => decidable_of_iff' _ (Iff.of_eq (k0_chk188.eq_1 v779))
theorem k0_idx188_inb : ∀ (v779 : IVec S16 32) (k0_hw188 : k0_chk188 v779), ∀ a x, ((![v779] : Fin 1 → IVec S16 32) a x).toNat < S32768.size a := fun v779 k0_hw188 => k0_hw188

def k0_chk189 (v783 : IVec S16 32) : Prop :=
  (∀ a x, ((![v783] : Fin 1 → IVec S16 32) a x).toNat < S32768.size a)
instance k0_chk189.dec : ∀ (v783 : IVec S16 32), Decidable (k0_chk189 v783) := fun v783 => decidable_of_iff' _ (Iff.of_eq (k0_chk189.eq_1 v783))
theorem k0_idx189_inb : ∀ (v783 : IVec S16 32) (k0_hw189 : k0_chk189 v783), ∀ a x, ((![v783] : Fin 1 → IVec S16 32) a x).toNat < S32768.size a := fun v783 k0_hw189 => k0_hw189

def k0_chk190 (v787 : IVec S16 32) : Prop :=
  (∀ a x, ((![v787] : Fin 1 → IVec S16 32) a x).toNat < S32768.size a)
instance k0_chk190.dec : ∀ (v787 : IVec S16 32), Decidable (k0_chk190 v787) := fun v787 => decidable_of_iff' _ (Iff.of_eq (k0_chk190.eq_1 v787))
theorem k0_idx190_inb : ∀ (v787 : IVec S16 32) (k0_hw190 : k0_chk190 v787), ∀ a x, ((![v787] : Fin 1 → IVec S16 32) a x).toNat < S32768.size a := fun v787 k0_hw190 => k0_hw190

def k0_chk191 (v791 : IVec S16 32) : Prop :=
  (∀ a x, ((![v791] : Fin 1 → IVec S16 32) a x).toNat < S32768.size a)
instance k0_chk191.dec : ∀ (v791 : IVec S16 32), Decidable (k0_chk191 v791) := fun v791 => decidable_of_iff' _ (Iff.of_eq (k0_chk191.eq_1 v791))
theorem k0_idx191_inb : ∀ (v791 : IVec S16 32) (k0_hw191 : k0_chk191 v791), ∀ a x, ((![v791] : Fin 1 → IVec S16 32) a x).toNat < S32768.size a := fun v791 k0_hw191 => k0_hw191

def k0_chk192 (v795 : IVec S16 32) : Prop :=
  (∀ a x, ((![v795] : Fin 1 → IVec S16 32) a x).toNat < S32768.size a)
instance k0_chk192.dec : ∀ (v795 : IVec S16 32), Decidable (k0_chk192 v795) := fun v795 => decidable_of_iff' _ (Iff.of_eq (k0_chk192.eq_1 v795))
theorem k0_idx192_inb : ∀ (v795 : IVec S16 32) (k0_hw192 : k0_chk192 v795), ∀ a x, ((![v795] : Fin 1 → IVec S16 32) a x).toNat < S32768.size a := fun v795 k0_hw192 => k0_hw192

def k0_chk193 (v799 : IVec S16 32) : Prop :=
  (∀ a x, ((![v799] : Fin 1 → IVec S16 32) a x).toNat < S32768.size a)
instance k0_chk193.dec : ∀ (v799 : IVec S16 32), Decidable (k0_chk193 v799) := fun v799 => decidable_of_iff' _ (Iff.of_eq (k0_chk193.eq_1 v799))
theorem k0_idx193_inb : ∀ (v799 : IVec S16 32) (k0_hw193 : k0_chk193 v799), ∀ a x, ((![v799] : Fin 1 → IVec S16 32) a x).toNat < S32768.size a := fun v799 k0_hw193 => k0_hw193

def k0_chk194 (v803 : IVec S16 32) : Prop :=
  (∀ a x, ((![v803] : Fin 1 → IVec S16 32) a x).toNat < S32768.size a)
instance k0_chk194.dec : ∀ (v803 : IVec S16 32), Decidable (k0_chk194 v803) := fun v803 => decidable_of_iff' _ (Iff.of_eq (k0_chk194.eq_1 v803))
theorem k0_idx194_inb : ∀ (v803 : IVec S16 32) (k0_hw194 : k0_chk194 v803), ∀ a x, ((![v803] : Fin 1 → IVec S16 32) a x).toNat < S32768.size a := fun v803 k0_hw194 => k0_hw194

def k0_chk195 (v807 : IVec S16 32) : Prop :=
  (∀ a x, ((![v807] : Fin 1 → IVec S16 32) a x).toNat < S32768.size a)
instance k0_chk195.dec : ∀ (v807 : IVec S16 32), Decidable (k0_chk195 v807) := fun v807 => decidable_of_iff' _ (Iff.of_eq (k0_chk195.eq_1 v807))
theorem k0_idx195_inb : ∀ (v807 : IVec S16 32) (k0_hw195 : k0_chk195 v807), ∀ a x, ((![v807] : Fin 1 → IVec S16 32) a x).toNat < S32768.size a := fun v807 k0_hw195 => k0_hw195

def k0_chk196 (v811 : IVec S16 32) : Prop :=
  (∀ a x, ((![v811] : Fin 1 → IVec S16 32) a x).toNat < S32768.size a)
instance k0_chk196.dec : ∀ (v811 : IVec S16 32), Decidable (k0_chk196 v811) := fun v811 => decidable_of_iff' _ (Iff.of_eq (k0_chk196.eq_1 v811))
theorem k0_idx196_inb : ∀ (v811 : IVec S16 32) (k0_hw196 : k0_chk196 v811), ∀ a x, ((![v811] : Fin 1 → IVec S16 32) a x).toNat < S32768.size a := fun v811 k0_hw196 => k0_hw196

def k0_chk197 (v815 : IVec S16 32) : Prop :=
  (∀ a x, ((![v815] : Fin 1 → IVec S16 32) a x).toNat < S32768.size a)
instance k0_chk197.dec : ∀ (v815 : IVec S16 32), Decidable (k0_chk197 v815) := fun v815 => decidable_of_iff' _ (Iff.of_eq (k0_chk197.eq_1 v815))
theorem k0_idx197_inb : ∀ (v815 : IVec S16 32) (k0_hw197 : k0_chk197 v815), ∀ a x, ((![v815] : Fin 1 → IVec S16 32) a x).toNat < S32768.size a := fun v815 k0_hw197 => k0_hw197

def k0_chk198 (v819 : IVec S16 32) : Prop :=
  (∀ a x, ((![v819] : Fin 1 → IVec S16 32) a x).toNat < S32768.size a)
instance k0_chk198.dec : ∀ (v819 : IVec S16 32), Decidable (k0_chk198 v819) := fun v819 => decidable_of_iff' _ (Iff.of_eq (k0_chk198.eq_1 v819))
theorem k0_idx198_inb : ∀ (v819 : IVec S16 32) (k0_hw198 : k0_chk198 v819), ∀ a x, ((![v819] : Fin 1 → IVec S16 32) a x).toNat < S32768.size a := fun v819 k0_hw198 => k0_hw198

def k0_chk199 (v823 : IVec S16 32) : Prop :=
  (∀ a x, ((![v823] : Fin 1 → IVec S16 32) a x).toNat < S32768.size a)
instance k0_chk199.dec : ∀ (v823 : IVec S16 32), Decidable (k0_chk199 v823) := fun v823 => decidable_of_iff' _ (Iff.of_eq (k0_chk199.eq_1 v823))
theorem k0_idx199_inb : ∀ (v823 : IVec S16 32) (k0_hw199 : k0_chk199 v823), ∀ a x, ((![v823] : Fin 1 → IVec S16 32) a x).toNat < S32768.size a := fun v823 k0_hw199 => k0_hw199

def k0_chk200 (v827 : IVec S16 32) : Prop :=
  (∀ a x, ((![v827] : Fin 1 → IVec S16 32) a x).toNat < S32768.size a)
instance k0_chk200.dec : ∀ (v827 : IVec S16 32), Decidable (k0_chk200 v827) := fun v827 => decidable_of_iff' _ (Iff.of_eq (k0_chk200.eq_1 v827))
theorem k0_idx200_inb : ∀ (v827 : IVec S16 32) (k0_hw200 : k0_chk200 v827), ∀ a x, ((![v827] : Fin 1 → IVec S16 32) a x).toNat < S32768.size a := fun v827 k0_hw200 => k0_hw200

def k0_chk201 (v831 : IVec S16 32) : Prop :=
  (∀ a x, ((![v831] : Fin 1 → IVec S16 32) a x).toNat < S32768.size a)
instance k0_chk201.dec : ∀ (v831 : IVec S16 32), Decidable (k0_chk201 v831) := fun v831 => decidable_of_iff' _ (Iff.of_eq (k0_chk201.eq_1 v831))
theorem k0_idx201_inb : ∀ (v831 : IVec S16 32) (k0_hw201 : k0_chk201 v831), ∀ a x, ((![v831] : Fin 1 → IVec S16 32) a x).toNat < S32768.size a := fun v831 k0_hw201 => k0_hw201

def k0_chk202 (v835 : IVec S16 32) : Prop :=
  (∀ a x, ((![v835] : Fin 1 → IVec S16 32) a x).toNat < S32768.size a)
instance k0_chk202.dec : ∀ (v835 : IVec S16 32), Decidable (k0_chk202 v835) := fun v835 => decidable_of_iff' _ (Iff.of_eq (k0_chk202.eq_1 v835))
theorem k0_idx202_inb : ∀ (v835 : IVec S16 32) (k0_hw202 : k0_chk202 v835), ∀ a x, ((![v835] : Fin 1 → IVec S16 32) a x).toNat < S32768.size a := fun v835 k0_hw202 => k0_hw202

def k0_chk203 (v839 : IVec S16 32) : Prop :=
  (∀ a x, ((![v839] : Fin 1 → IVec S16 32) a x).toNat < S32768.size a)
instance k0_chk203.dec : ∀ (v839 : IVec S16 32), Decidable (k0_chk203 v839) := fun v839 => decidable_of_iff' _ (Iff.of_eq (k0_chk203.eq_1 v839))
theorem k0_idx203_inb : ∀ (v839 : IVec S16 32) (k0_hw203 : k0_chk203 v839), ∀ a x, ((![v839] : Fin 1 → IVec S16 32) a x).toNat < S32768.size a := fun v839 k0_hw203 => k0_hw203

def k0_chk204 (v843 : IVec S16 32) : Prop :=
  (∀ a x, ((![v843] : Fin 1 → IVec S16 32) a x).toNat < S32768.size a)
instance k0_chk204.dec : ∀ (v843 : IVec S16 32), Decidable (k0_chk204 v843) := fun v843 => decidable_of_iff' _ (Iff.of_eq (k0_chk204.eq_1 v843))
theorem k0_idx204_inb : ∀ (v843 : IVec S16 32) (k0_hw204 : k0_chk204 v843), ∀ a x, ((![v843] : Fin 1 → IVec S16 32) a x).toNat < S32768.size a := fun v843 k0_hw204 => k0_hw204

def k0_chk205 (v847 : IVec S16 32) : Prop :=
  (∀ a x, ((![v847] : Fin 1 → IVec S16 32) a x).toNat < S32768.size a)
instance k0_chk205.dec : ∀ (v847 : IVec S16 32), Decidable (k0_chk205 v847) := fun v847 => decidable_of_iff' _ (Iff.of_eq (k0_chk205.eq_1 v847))
theorem k0_idx205_inb : ∀ (v847 : IVec S16 32) (k0_hw205 : k0_chk205 v847), ∀ a x, ((![v847] : Fin 1 → IVec S16 32) a x).toNat < S32768.size a := fun v847 k0_hw205 => k0_hw205

def k0_chk206 (v851 : IVec S16 32) : Prop :=
  (∀ a x, ((![v851] : Fin 1 → IVec S16 32) a x).toNat < S32768.size a)
instance k0_chk206.dec : ∀ (v851 : IVec S16 32), Decidable (k0_chk206 v851) := fun v851 => decidable_of_iff' _ (Iff.of_eq (k0_chk206.eq_1 v851))
theorem k0_idx206_inb : ∀ (v851 : IVec S16 32) (k0_hw206 : k0_chk206 v851), ∀ a x, ((![v851] : Fin 1 → IVec S16 32) a x).toNat < S32768.size a := fun v851 k0_hw206 => k0_hw206

def k0_chk207 (v855 : IVec S16 32) : Prop :=
  (∀ a x, ((![v855] : Fin 1 → IVec S16 32) a x).toNat < S32768.size a)
instance k0_chk207.dec : ∀ (v855 : IVec S16 32), Decidable (k0_chk207 v855) := fun v855 => decidable_of_iff' _ (Iff.of_eq (k0_chk207.eq_1 v855))
theorem k0_idx207_inb : ∀ (v855 : IVec S16 32) (k0_hw207 : k0_chk207 v855), ∀ a x, ((![v855] : Fin 1 → IVec S16 32) a x).toNat < S32768.size a := fun v855 k0_hw207 => k0_hw207

def k0_chk208 (v859 : IVec S16 32) : Prop :=
  (∀ a x, ((![v859] : Fin 1 → IVec S16 32) a x).toNat < S32768.size a)
instance k0_chk208.dec : ∀ (v859 : IVec S16 32), Decidable (k0_chk208 v859) := fun v859 => decidable_of_iff' _ (Iff.of_eq (k0_chk208.eq_1 v859))
theorem k0_idx208_inb : ∀ (v859 : IVec S16 32) (k0_hw208 : k0_chk208 v859), ∀ a x, ((![v859] : Fin 1 → IVec S16 32) a x).toNat < S32768.size a := fun v859 k0_hw208 => k0_hw208

def k0_chk209 (v863 : IVec S16 32) : Prop :=
  (∀ a x, ((![v863] : Fin 1 → IVec S16 32) a x).toNat < S32768.size a)
instance k0_chk209.dec : ∀ (v863 : IVec S16 32), Decidable (k0_chk209 v863) := fun v863 => decidable_of_iff' _ (Iff.of_eq (k0_chk209.eq_1 v863))
theorem k0_idx209_inb : ∀ (v863 : IVec S16 32) (k0_hw209 : k0_chk209 v863), ∀ a x, ((![v863] : Fin 1 → IVec S16 32) a x).toNat < S32768.size a := fun v863 k0_hw209 => k0_hw209

def k0_chk210 (v867 : IVec S16 32) : Prop :=
  (∀ a x, ((![v867] : Fin 1 → IVec S16 32) a x).toNat < S32768.size a)
instance k0_chk210.dec : ∀ (v867 : IVec S16 32), Decidable (k0_chk210 v867) := fun v867 => decidable_of_iff' _ (Iff.of_eq (k0_chk210.eq_1 v867))
theorem k0_idx210_inb : ∀ (v867 : IVec S16 32) (k0_hw210 : k0_chk210 v867), ∀ a x, ((![v867] : Fin 1 → IVec S16 32) a x).toNat < S32768.size a := fun v867 k0_hw210 => k0_hw210

def k0_chk211 (v871 : IVec S16 32) : Prop :=
  (∀ a x, ((![v871] : Fin 1 → IVec S16 32) a x).toNat < S32768.size a)
instance k0_chk211.dec : ∀ (v871 : IVec S16 32), Decidable (k0_chk211 v871) := fun v871 => decidable_of_iff' _ (Iff.of_eq (k0_chk211.eq_1 v871))
theorem k0_idx211_inb : ∀ (v871 : IVec S16 32) (k0_hw211 : k0_chk211 v871), ∀ a x, ((![v871] : Fin 1 → IVec S16 32) a x).toNat < S32768.size a := fun v871 k0_hw211 => k0_hw211

def k0_chk212 (v875 : IVec S16 32) : Prop :=
  (∀ a x, ((![v875] : Fin 1 → IVec S16 32) a x).toNat < S32768.size a)
instance k0_chk212.dec : ∀ (v875 : IVec S16 32), Decidable (k0_chk212 v875) := fun v875 => decidable_of_iff' _ (Iff.of_eq (k0_chk212.eq_1 v875))
theorem k0_idx212_inb : ∀ (v875 : IVec S16 32) (k0_hw212 : k0_chk212 v875), ∀ a x, ((![v875] : Fin 1 → IVec S16 32) a x).toNat < S32768.size a := fun v875 k0_hw212 => k0_hw212

def k0_chk213 (v879 : IVec S16 32) : Prop :=
  (∀ a x, ((![v879] : Fin 1 → IVec S16 32) a x).toNat < S32768.size a)
instance k0_chk213.dec : ∀ (v879 : IVec S16 32), Decidable (k0_chk213 v879) := fun v879 => decidable_of_iff' _ (Iff.of_eq (k0_chk213.eq_1 v879))
theorem k0_idx213_inb : ∀ (v879 : IVec S16 32) (k0_hw213 : k0_chk213 v879), ∀ a x, ((![v879] : Fin 1 → IVec S16 32) a x).toNat < S32768.size a := fun v879 k0_hw213 => k0_hw213

def k0_chk214 (v883 : IVec S16 32) : Prop :=
  (∀ a x, ((![v883] : Fin 1 → IVec S16 32) a x).toNat < S32768.size a)
instance k0_chk214.dec : ∀ (v883 : IVec S16 32), Decidable (k0_chk214 v883) := fun v883 => decidable_of_iff' _ (Iff.of_eq (k0_chk214.eq_1 v883))
theorem k0_idx214_inb : ∀ (v883 : IVec S16 32) (k0_hw214 : k0_chk214 v883), ∀ a x, ((![v883] : Fin 1 → IVec S16 32) a x).toNat < S32768.size a := fun v883 k0_hw214 => k0_hw214

def k0_chk215 (v887 : IVec S16 32) : Prop :=
  (∀ a x, ((![v887] : Fin 1 → IVec S16 32) a x).toNat < S32768.size a)
instance k0_chk215.dec : ∀ (v887 : IVec S16 32), Decidable (k0_chk215 v887) := fun v887 => decidable_of_iff' _ (Iff.of_eq (k0_chk215.eq_1 v887))
theorem k0_idx215_inb : ∀ (v887 : IVec S16 32) (k0_hw215 : k0_chk215 v887), ∀ a x, ((![v887] : Fin 1 → IVec S16 32) a x).toNat < S32768.size a := fun v887 k0_hw215 => k0_hw215

def k0_chk216 (v891 : IVec S16 32) : Prop :=
  (∀ a x, ((![v891] : Fin 1 → IVec S16 32) a x).toNat < S32768.size a)
instance k0_chk216.dec : ∀ (v891 : IVec S16 32), Decidable (k0_chk216 v891) := fun v891 => decidable_of_iff' _ (Iff.of_eq (k0_chk216.eq_1 v891))
theorem k0_idx216_inb : ∀ (v891 : IVec S16 32) (k0_hw216 : k0_chk216 v891), ∀ a x, ((![v891] : Fin 1 → IVec S16 32) a x).toNat < S32768.size a := fun v891 k0_hw216 => k0_hw216

def k0_chk217 (v895 : IVec S16 32) : Prop :=
  (∀ a x, ((![v895] : Fin 1 → IVec S16 32) a x).toNat < S32768.size a)
instance k0_chk217.dec : ∀ (v895 : IVec S16 32), Decidable (k0_chk217 v895) := fun v895 => decidable_of_iff' _ (Iff.of_eq (k0_chk217.eq_1 v895))
theorem k0_idx217_inb : ∀ (v895 : IVec S16 32) (k0_hw217 : k0_chk217 v895), ∀ a x, ((![v895] : Fin 1 → IVec S16 32) a x).toNat < S32768.size a := fun v895 k0_hw217 => k0_hw217

def k0_chk218 (v899 : IVec S16 32) : Prop :=
  (∀ a x, ((![v899] : Fin 1 → IVec S16 32) a x).toNat < S32768.size a)
instance k0_chk218.dec : ∀ (v899 : IVec S16 32), Decidable (k0_chk218 v899) := fun v899 => decidable_of_iff' _ (Iff.of_eq (k0_chk218.eq_1 v899))
theorem k0_idx218_inb : ∀ (v899 : IVec S16 32) (k0_hw218 : k0_chk218 v899), ∀ a x, ((![v899] : Fin 1 → IVec S16 32) a x).toNat < S32768.size a := fun v899 k0_hw218 => k0_hw218

def k0_chk219 (v903 : IVec S16 32) : Prop :=
  (∀ a x, ((![v903] : Fin 1 → IVec S16 32) a x).toNat < S32768.size a)
instance k0_chk219.dec : ∀ (v903 : IVec S16 32), Decidable (k0_chk219 v903) := fun v903 => decidable_of_iff' _ (Iff.of_eq (k0_chk219.eq_1 v903))
theorem k0_idx219_inb : ∀ (v903 : IVec S16 32) (k0_hw219 : k0_chk219 v903), ∀ a x, ((![v903] : Fin 1 → IVec S16 32) a x).toNat < S32768.size a := fun v903 k0_hw219 => k0_hw219

def k0_chk220 (v907 : IVec S16 32) : Prop :=
  (∀ a x, ((![v907] : Fin 1 → IVec S16 32) a x).toNat < S32768.size a)
instance k0_chk220.dec : ∀ (v907 : IVec S16 32), Decidable (k0_chk220 v907) := fun v907 => decidable_of_iff' _ (Iff.of_eq (k0_chk220.eq_1 v907))
theorem k0_idx220_inb : ∀ (v907 : IVec S16 32) (k0_hw220 : k0_chk220 v907), ∀ a x, ((![v907] : Fin 1 → IVec S16 32) a x).toNat < S32768.size a := fun v907 k0_hw220 => k0_hw220

def k0_chk221 (v911 : IVec S16 32) : Prop :=
  (∀ a x, ((![v911] : Fin 1 → IVec S16 32) a x).toNat < S32768.size a)
instance k0_chk221.dec : ∀ (v911 : IVec S16 32), Decidable (k0_chk221 v911) := fun v911 => decidable_of_iff' _ (Iff.of_eq (k0_chk221.eq_1 v911))
theorem k0_idx221_inb : ∀ (v911 : IVec S16 32) (k0_hw221 : k0_chk221 v911), ∀ a x, ((![v911] : Fin 1 → IVec S16 32) a x).toNat < S32768.size a := fun v911 k0_hw221 => k0_hw221

def k0_chk222 (v915 : IVec S16 32) : Prop :=
  (∀ a x, ((![v915] : Fin 1 → IVec S16 32) a x).toNat < S32768.size a)
instance k0_chk222.dec : ∀ (v915 : IVec S16 32), Decidable (k0_chk222 v915) := fun v915 => decidable_of_iff' _ (Iff.of_eq (k0_chk222.eq_1 v915))
theorem k0_idx222_inb : ∀ (v915 : IVec S16 32) (k0_hw222 : k0_chk222 v915), ∀ a x, ((![v915] : Fin 1 → IVec S16 32) a x).toNat < S32768.size a := fun v915 k0_hw222 => k0_hw222

def k0_chk223 (v919 : IVec S16 32) : Prop :=
  (∀ a x, ((![v919] : Fin 1 → IVec S16 32) a x).toNat < S32768.size a)
instance k0_chk223.dec : ∀ (v919 : IVec S16 32), Decidable (k0_chk223 v919) := fun v919 => decidable_of_iff' _ (Iff.of_eq (k0_chk223.eq_1 v919))
theorem k0_idx223_inb : ∀ (v919 : IVec S16 32) (k0_hw223 : k0_chk223 v919), ∀ a x, ((![v919] : Fin 1 → IVec S16 32) a x).toNat < S32768.size a := fun v919 k0_hw223 => k0_hw223

def k0_chk224 (v923 : IVec S16 32) : Prop :=
  (∀ a x, ((![v923] : Fin 1 → IVec S16 32) a x).toNat < S32768.size a)
instance k0_chk224.dec : ∀ (v923 : IVec S16 32), Decidable (k0_chk224 v923) := fun v923 => decidable_of_iff' _ (Iff.of_eq (k0_chk224.eq_1 v923))
theorem k0_idx224_inb : ∀ (v923 : IVec S16 32) (k0_hw224 : k0_chk224 v923), ∀ a x, ((![v923] : Fin 1 → IVec S16 32) a x).toNat < S32768.size a := fun v923 k0_hw224 => k0_hw224

def k0_chk225 (v927 : IVec S16 32) : Prop :=
  (∀ a x, ((![v927] : Fin 1 → IVec S16 32) a x).toNat < S32768.size a)
instance k0_chk225.dec : ∀ (v927 : IVec S16 32), Decidable (k0_chk225 v927) := fun v927 => decidable_of_iff' _ (Iff.of_eq (k0_chk225.eq_1 v927))
theorem k0_idx225_inb : ∀ (v927 : IVec S16 32) (k0_hw225 : k0_chk225 v927), ∀ a x, ((![v927] : Fin 1 → IVec S16 32) a x).toNat < S32768.size a := fun v927 k0_hw225 => k0_hw225

def k0_chk226 (v931 : IVec S16 32) : Prop :=
  (∀ a x, ((![v931] : Fin 1 → IVec S16 32) a x).toNat < S32768.size a)
instance k0_chk226.dec : ∀ (v931 : IVec S16 32), Decidable (k0_chk226 v931) := fun v931 => decidable_of_iff' _ (Iff.of_eq (k0_chk226.eq_1 v931))
theorem k0_idx226_inb : ∀ (v931 : IVec S16 32) (k0_hw226 : k0_chk226 v931), ∀ a x, ((![v931] : Fin 1 → IVec S16 32) a x).toNat < S32768.size a := fun v931 k0_hw226 => k0_hw226

def k0_chk227 (v935 : IVec S16 32) : Prop :=
  (∀ a x, ((![v935] : Fin 1 → IVec S16 32) a x).toNat < S32768.size a)
instance k0_chk227.dec : ∀ (v935 : IVec S16 32), Decidable (k0_chk227 v935) := fun v935 => decidable_of_iff' _ (Iff.of_eq (k0_chk227.eq_1 v935))
theorem k0_idx227_inb : ∀ (v935 : IVec S16 32) (k0_hw227 : k0_chk227 v935), ∀ a x, ((![v935] : Fin 1 → IVec S16 32) a x).toNat < S32768.size a := fun v935 k0_hw227 => k0_hw227

def k0_chk228 (v939 : IVec S16 32) : Prop :=
  (∀ a x, ((![v939] : Fin 1 → IVec S16 32) a x).toNat < S32768.size a)
instance k0_chk228.dec : ∀ (v939 : IVec S16 32), Decidable (k0_chk228 v939) := fun v939 => decidable_of_iff' _ (Iff.of_eq (k0_chk228.eq_1 v939))
theorem k0_idx228_inb : ∀ (v939 : IVec S16 32) (k0_hw228 : k0_chk228 v939), ∀ a x, ((![v939] : Fin 1 → IVec S16 32) a x).toNat < S32768.size a := fun v939 k0_hw228 => k0_hw228

def k0_chk229 (v943 : IVec S16 32) : Prop :=
  (∀ a x, ((![v943] : Fin 1 → IVec S16 32) a x).toNat < S32768.size a)
instance k0_chk229.dec : ∀ (v943 : IVec S16 32), Decidable (k0_chk229 v943) := fun v943 => decidable_of_iff' _ (Iff.of_eq (k0_chk229.eq_1 v943))
theorem k0_idx229_inb : ∀ (v943 : IVec S16 32) (k0_hw229 : k0_chk229 v943), ∀ a x, ((![v943] : Fin 1 → IVec S16 32) a x).toNat < S32768.size a := fun v943 k0_hw229 => k0_hw229

def k0_chk230 (v947 : IVec S16 32) : Prop :=
  (∀ a x, ((![v947] : Fin 1 → IVec S16 32) a x).toNat < S32768.size a)
instance k0_chk230.dec : ∀ (v947 : IVec S16 32), Decidable (k0_chk230 v947) := fun v947 => decidable_of_iff' _ (Iff.of_eq (k0_chk230.eq_1 v947))
theorem k0_idx230_inb : ∀ (v947 : IVec S16 32) (k0_hw230 : k0_chk230 v947), ∀ a x, ((![v947] : Fin 1 → IVec S16 32) a x).toNat < S32768.size a := fun v947 k0_hw230 => k0_hw230

def k0_chk231 (v951 : IVec S16 32) : Prop :=
  (∀ a x, ((![v951] : Fin 1 → IVec S16 32) a x).toNat < S32768.size a)
instance k0_chk231.dec : ∀ (v951 : IVec S16 32), Decidable (k0_chk231 v951) := fun v951 => decidable_of_iff' _ (Iff.of_eq (k0_chk231.eq_1 v951))
theorem k0_idx231_inb : ∀ (v951 : IVec S16 32) (k0_hw231 : k0_chk231 v951), ∀ a x, ((![v951] : Fin 1 → IVec S16 32) a x).toNat < S32768.size a := fun v951 k0_hw231 => k0_hw231

def k0_chk232 (v955 : IVec S16 32) : Prop :=
  (∀ a x, ((![v955] : Fin 1 → IVec S16 32) a x).toNat < S32768.size a)
instance k0_chk232.dec : ∀ (v955 : IVec S16 32), Decidable (k0_chk232 v955) := fun v955 => decidable_of_iff' _ (Iff.of_eq (k0_chk232.eq_1 v955))
theorem k0_idx232_inb : ∀ (v955 : IVec S16 32) (k0_hw232 : k0_chk232 v955), ∀ a x, ((![v955] : Fin 1 → IVec S16 32) a x).toNat < S32768.size a := fun v955 k0_hw232 => k0_hw232

def k0_chk233 (v959 : IVec S16 32) : Prop :=
  (∀ a x, ((![v959] : Fin 1 → IVec S16 32) a x).toNat < S32768.size a)
instance k0_chk233.dec : ∀ (v959 : IVec S16 32), Decidable (k0_chk233 v959) := fun v959 => decidable_of_iff' _ (Iff.of_eq (k0_chk233.eq_1 v959))
theorem k0_idx233_inb : ∀ (v959 : IVec S16 32) (k0_hw233 : k0_chk233 v959), ∀ a x, ((![v959] : Fin 1 → IVec S16 32) a x).toNat < S32768.size a := fun v959 k0_hw233 => k0_hw233

def k0_chk234 (v963 : IVec S16 32) : Prop :=
  (∀ a x, ((![v963] : Fin 1 → IVec S16 32) a x).toNat < S32768.size a)
instance k0_chk234.dec : ∀ (v963 : IVec S16 32), Decidable (k0_chk234 v963) := fun v963 => decidable_of_iff' _ (Iff.of_eq (k0_chk234.eq_1 v963))
theorem k0_idx234_inb : ∀ (v963 : IVec S16 32) (k0_hw234 : k0_chk234 v963), ∀ a x, ((![v963] : Fin 1 → IVec S16 32) a x).toNat < S32768.size a := fun v963 k0_hw234 => k0_hw234

def k0_chk235 (v967 : IVec S16 32) : Prop :=
  (∀ a x, ((![v967] : Fin 1 → IVec S16 32) a x).toNat < S32768.size a)
instance k0_chk235.dec : ∀ (v967 : IVec S16 32), Decidable (k0_chk235 v967) := fun v967 => decidable_of_iff' _ (Iff.of_eq (k0_chk235.eq_1 v967))
theorem k0_idx235_inb : ∀ (v967 : IVec S16 32) (k0_hw235 : k0_chk235 v967), ∀ a x, ((![v967] : Fin 1 → IVec S16 32) a x).toNat < S32768.size a := fun v967 k0_hw235 => k0_hw235

def k0_chk236 (v971 : IVec S16 32) : Prop :=
  (∀ a x, ((![v971] : Fin 1 → IVec S16 32) a x).toNat < S32768.size a)
instance k0_chk236.dec : ∀ (v971 : IVec S16 32), Decidable (k0_chk236 v971) := fun v971 => decidable_of_iff' _ (Iff.of_eq (k0_chk236.eq_1 v971))
theorem k0_idx236_inb : ∀ (v971 : IVec S16 32) (k0_hw236 : k0_chk236 v971), ∀ a x, ((![v971] : Fin 1 → IVec S16 32) a x).toNat < S32768.size a := fun v971 k0_hw236 => k0_hw236

def k0_chk237 (v975 : IVec S16 32) : Prop :=
  (∀ a x, ((![v975] : Fin 1 → IVec S16 32) a x).toNat < S32768.size a)
instance k0_chk237.dec : ∀ (v975 : IVec S16 32), Decidable (k0_chk237 v975) := fun v975 => decidable_of_iff' _ (Iff.of_eq (k0_chk237.eq_1 v975))
theorem k0_idx237_inb : ∀ (v975 : IVec S16 32) (k0_hw237 : k0_chk237 v975), ∀ a x, ((![v975] : Fin 1 → IVec S16 32) a x).toNat < S32768.size a := fun v975 k0_hw237 => k0_hw237

def k0_chk238 (v979 : IVec S16 32) : Prop :=
  (∀ a x, ((![v979] : Fin 1 → IVec S16 32) a x).toNat < S32768.size a)
instance k0_chk238.dec : ∀ (v979 : IVec S16 32), Decidable (k0_chk238 v979) := fun v979 => decidable_of_iff' _ (Iff.of_eq (k0_chk238.eq_1 v979))
theorem k0_idx238_inb : ∀ (v979 : IVec S16 32) (k0_hw238 : k0_chk238 v979), ∀ a x, ((![v979] : Fin 1 → IVec S16 32) a x).toNat < S32768.size a := fun v979 k0_hw238 => k0_hw238

def k0_chk239 (v983 : IVec S16 32) : Prop :=
  (∀ a x, ((![v983] : Fin 1 → IVec S16 32) a x).toNat < S32768.size a)
instance k0_chk239.dec : ∀ (v983 : IVec S16 32), Decidable (k0_chk239 v983) := fun v983 => decidable_of_iff' _ (Iff.of_eq (k0_chk239.eq_1 v983))
theorem k0_idx239_inb : ∀ (v983 : IVec S16 32) (k0_hw239 : k0_chk239 v983), ∀ a x, ((![v983] : Fin 1 → IVec S16 32) a x).toNat < S32768.size a := fun v983 k0_hw239 => k0_hw239

def k0_chk240 (v987 : IVec S16 32) : Prop :=
  (∀ a x, ((![v987] : Fin 1 → IVec S16 32) a x).toNat < S32768.size a)
instance k0_chk240.dec : ∀ (v987 : IVec S16 32), Decidable (k0_chk240 v987) := fun v987 => decidable_of_iff' _ (Iff.of_eq (k0_chk240.eq_1 v987))
theorem k0_idx240_inb : ∀ (v987 : IVec S16 32) (k0_hw240 : k0_chk240 v987), ∀ a x, ((![v987] : Fin 1 → IVec S16 32) a x).toNat < S32768.size a := fun v987 k0_hw240 => k0_hw240

def k0_chk241 (v991 : IVec S16 32) : Prop :=
  (∀ a x, ((![v991] : Fin 1 → IVec S16 32) a x).toNat < S32768.size a)
instance k0_chk241.dec : ∀ (v991 : IVec S16 32), Decidable (k0_chk241 v991) := fun v991 => decidable_of_iff' _ (Iff.of_eq (k0_chk241.eq_1 v991))
theorem k0_idx241_inb : ∀ (v991 : IVec S16 32) (k0_hw241 : k0_chk241 v991), ∀ a x, ((![v991] : Fin 1 → IVec S16 32) a x).toNat < S32768.size a := fun v991 k0_hw241 => k0_hw241

def k0_chk242 (v995 : IVec S16 32) : Prop :=
  (∀ a x, ((![v995] : Fin 1 → IVec S16 32) a x).toNat < S32768.size a)
instance k0_chk242.dec : ∀ (v995 : IVec S16 32), Decidable (k0_chk242 v995) := fun v995 => decidable_of_iff' _ (Iff.of_eq (k0_chk242.eq_1 v995))
theorem k0_idx242_inb : ∀ (v995 : IVec S16 32) (k0_hw242 : k0_chk242 v995), ∀ a x, ((![v995] : Fin 1 → IVec S16 32) a x).toNat < S32768.size a := fun v995 k0_hw242 => k0_hw242

def k0_chk243 (v999 : IVec S16 32) : Prop :=
  (∀ a x, ((![v999] : Fin 1 → IVec S16 32) a x).toNat < S32768.size a)
instance k0_chk243.dec : ∀ (v999 : IVec S16 32), Decidable (k0_chk243 v999) := fun v999 => decidable_of_iff' _ (Iff.of_eq (k0_chk243.eq_1 v999))
theorem k0_idx243_inb : ∀ (v999 : IVec S16 32) (k0_hw243 : k0_chk243 v999), ∀ a x, ((![v999] : Fin 1 → IVec S16 32) a x).toNat < S32768.size a := fun v999 k0_hw243 => k0_hw243

def k0_chk244 (v1003 : IVec S16 32) : Prop :=
  (∀ a x, ((![v1003] : Fin 1 → IVec S16 32) a x).toNat < S32768.size a)
instance k0_chk244.dec : ∀ (v1003 : IVec S16 32), Decidable (k0_chk244 v1003) := fun v1003 => decidable_of_iff' _ (Iff.of_eq (k0_chk244.eq_1 v1003))
theorem k0_idx244_inb : ∀ (v1003 : IVec S16 32) (k0_hw244 : k0_chk244 v1003), ∀ a x, ((![v1003] : Fin 1 → IVec S16 32) a x).toNat < S32768.size a := fun v1003 k0_hw244 => k0_hw244

def k0_chk245 (v1007 : IVec S16 32) : Prop :=
  (∀ a x, ((![v1007] : Fin 1 → IVec S16 32) a x).toNat < S32768.size a)
instance k0_chk245.dec : ∀ (v1007 : IVec S16 32), Decidable (k0_chk245 v1007) := fun v1007 => decidable_of_iff' _ (Iff.of_eq (k0_chk245.eq_1 v1007))
theorem k0_idx245_inb : ∀ (v1007 : IVec S16 32) (k0_hw245 : k0_chk245 v1007), ∀ a x, ((![v1007] : Fin 1 → IVec S16 32) a x).toNat < S32768.size a := fun v1007 k0_hw245 => k0_hw245

def k0_chk246 (v1011 : IVec S16 32) : Prop :=
  (∀ a x, ((![v1011] : Fin 1 → IVec S16 32) a x).toNat < S32768.size a)
instance k0_chk246.dec : ∀ (v1011 : IVec S16 32), Decidable (k0_chk246 v1011) := fun v1011 => decidable_of_iff' _ (Iff.of_eq (k0_chk246.eq_1 v1011))
theorem k0_idx246_inb : ∀ (v1011 : IVec S16 32) (k0_hw246 : k0_chk246 v1011), ∀ a x, ((![v1011] : Fin 1 → IVec S16 32) a x).toNat < S32768.size a := fun v1011 k0_hw246 => k0_hw246

def k0_chk247 (v1015 : IVec S16 32) : Prop :=
  (∀ a x, ((![v1015] : Fin 1 → IVec S16 32) a x).toNat < S32768.size a)
instance k0_chk247.dec : ∀ (v1015 : IVec S16 32), Decidable (k0_chk247 v1015) := fun v1015 => decidable_of_iff' _ (Iff.of_eq (k0_chk247.eq_1 v1015))
theorem k0_idx247_inb : ∀ (v1015 : IVec S16 32) (k0_hw247 : k0_chk247 v1015), ∀ a x, ((![v1015] : Fin 1 → IVec S16 32) a x).toNat < S32768.size a := fun v1015 k0_hw247 => k0_hw247

def k0_chk248 (v1019 : IVec S16 32) : Prop :=
  (∀ a x, ((![v1019] : Fin 1 → IVec S16 32) a x).toNat < S32768.size a)
instance k0_chk248.dec : ∀ (v1019 : IVec S16 32), Decidable (k0_chk248 v1019) := fun v1019 => decidable_of_iff' _ (Iff.of_eq (k0_chk248.eq_1 v1019))
theorem k0_idx248_inb : ∀ (v1019 : IVec S16 32) (k0_hw248 : k0_chk248 v1019), ∀ a x, ((![v1019] : Fin 1 → IVec S16 32) a x).toNat < S32768.size a := fun v1019 k0_hw248 => k0_hw248

def k0_chk249 (v1023 : IVec S16 32) : Prop :=
  (∀ a x, ((![v1023] : Fin 1 → IVec S16 32) a x).toNat < S32768.size a)
instance k0_chk249.dec : ∀ (v1023 : IVec S16 32), Decidable (k0_chk249 v1023) := fun v1023 => decidable_of_iff' _ (Iff.of_eq (k0_chk249.eq_1 v1023))
theorem k0_idx249_inb : ∀ (v1023 : IVec S16 32) (k0_hw249 : k0_chk249 v1023), ∀ a x, ((![v1023] : Fin 1 → IVec S16 32) a x).toNat < S32768.size a := fun v1023 k0_hw249 => k0_hw249

def k0_chk250 (v1027 : IVec S16 32) : Prop :=
  (∀ a x, ((![v1027] : Fin 1 → IVec S16 32) a x).toNat < S32768.size a)
instance k0_chk250.dec : ∀ (v1027 : IVec S16 32), Decidable (k0_chk250 v1027) := fun v1027 => decidable_of_iff' _ (Iff.of_eq (k0_chk250.eq_1 v1027))
theorem k0_idx250_inb : ∀ (v1027 : IVec S16 32) (k0_hw250 : k0_chk250 v1027), ∀ a x, ((![v1027] : Fin 1 → IVec S16 32) a x).toNat < S32768.size a := fun v1027 k0_hw250 => k0_hw250

def k0_chk251 (v1031 : IVec S16 32) : Prop :=
  (∀ a x, ((![v1031] : Fin 1 → IVec S16 32) a x).toNat < S32768.size a)
instance k0_chk251.dec : ∀ (v1031 : IVec S16 32), Decidable (k0_chk251 v1031) := fun v1031 => decidable_of_iff' _ (Iff.of_eq (k0_chk251.eq_1 v1031))
theorem k0_idx251_inb : ∀ (v1031 : IVec S16 32) (k0_hw251 : k0_chk251 v1031), ∀ a x, ((![v1031] : Fin 1 → IVec S16 32) a x).toNat < S32768.size a := fun v1031 k0_hw251 => k0_hw251

def k0_chk252 (v1035 : IVec S16 32) : Prop :=
  (∀ a x, ((![v1035] : Fin 1 → IVec S16 32) a x).toNat < S32768.size a)
instance k0_chk252.dec : ∀ (v1035 : IVec S16 32), Decidable (k0_chk252 v1035) := fun v1035 => decidable_of_iff' _ (Iff.of_eq (k0_chk252.eq_1 v1035))
theorem k0_idx252_inb : ∀ (v1035 : IVec S16 32) (k0_hw252 : k0_chk252 v1035), ∀ a x, ((![v1035] : Fin 1 → IVec S16 32) a x).toNat < S32768.size a := fun v1035 k0_hw252 => k0_hw252

def k0_chk253 (v1039 : IVec S16 32) : Prop :=
  (∀ a x, ((![v1039] : Fin 1 → IVec S16 32) a x).toNat < S32768.size a)
instance k0_chk253.dec : ∀ (v1039 : IVec S16 32), Decidable (k0_chk253 v1039) := fun v1039 => decidable_of_iff' _ (Iff.of_eq (k0_chk253.eq_1 v1039))
theorem k0_idx253_inb : ∀ (v1039 : IVec S16 32) (k0_hw253 : k0_chk253 v1039), ∀ a x, ((![v1039] : Fin 1 → IVec S16 32) a x).toNat < S32768.size a := fun v1039 k0_hw253 => k0_hw253

def k0_chk254 (v1043 : IVec S16 32) : Prop :=
  (∀ a x, ((![v1043] : Fin 1 → IVec S16 32) a x).toNat < S32768.size a)
instance k0_chk254.dec : ∀ (v1043 : IVec S16 32), Decidable (k0_chk254 v1043) := fun v1043 => decidable_of_iff' _ (Iff.of_eq (k0_chk254.eq_1 v1043))
theorem k0_idx254_inb : ∀ (v1043 : IVec S16 32) (k0_hw254 : k0_chk254 v1043), ∀ a x, ((![v1043] : Fin 1 → IVec S16 32) a x).toNat < S32768.size a := fun v1043 k0_hw254 => k0_hw254

def k0_chk255 (v1047 : IVec S16 32) : Prop :=
  (∀ a x, ((![v1047] : Fin 1 → IVec S16 32) a x).toNat < S32768.size a)
instance k0_chk255.dec : ∀ (v1047 : IVec S16 32), Decidable (k0_chk255 v1047) := fun v1047 => decidable_of_iff' _ (Iff.of_eq (k0_chk255.eq_1 v1047))
theorem k0_idx255_inb : ∀ (v1047 : IVec S16 32) (k0_hw255 : k0_chk255 v1047), ∀ a x, ((![v1047] : Fin 1 → IVec S16 32) a x).toNat < S32768.size a := fun v1047 k0_hw255 => k0_hw255

def k0_chk256 (v1051 : IVec S16 32) : Prop :=
  (∀ a x, ((![v1051] : Fin 1 → IVec S16 32) a x).toNat < S32768.size a)
instance k0_chk256.dec : ∀ (v1051 : IVec S16 32), Decidable (k0_chk256 v1051) := fun v1051 => decidable_of_iff' _ (Iff.of_eq (k0_chk256.eq_1 v1051))
theorem k0_idx256_inb : ∀ (v1051 : IVec S16 32) (k0_hw256 : k0_chk256 v1051), ∀ a x, ((![v1051] : Fin 1 → IVec S16 32) a x).toNat < S32768.size a := fun v1051 k0_hw256 => k0_hw256
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v9 : BitVec 32 := Scalar.muli v1 c128_i32_0
  let c2048_i32 : BitVec 32 := 2048#32
  let v10 : BitVec 32 := Scalar.muli v9 c2048_i32
  let c0_i32_138 : BitVec 32 := 0#32
  let v1054 : BitVec 32 := Scalar.addi v10 c0_i32_138
  ![v1054.toNat]
def k0_off3 (i : grid0.Coords) (c65536_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v7 : BitVec 32 := Scalar.muli v1 c128_i32
  let c16384_i32 : BitVec 32 := 16384#32
  let v8 : BitVec 32 := Scalar.muli v7 c16384_i32
  let v1059 : BitVec 32 := Scalar.addi v8 c65536_i32
  ![v1059.toNat]

def k0_chk257 (v1072 : IVec S16 32) : Prop :=
  (∀ a x, ((![v1072] : Fin 1 → IVec S16 32) a x).toNat < S32768.size a)
instance k0_chk257.dec : ∀ (v1072 : IVec S16 32), Decidable (k0_chk257 v1072) := fun v1072 => decidable_of_iff' _ (Iff.of_eq (k0_chk257.eq_1 v1072))
theorem k0_idx257_inb : ∀ (v1072 : IVec S16 32) (k0_hw257 : k0_chk257 v1072), ∀ a x, ((![v1072] : Fin 1 → IVec S16 32) a x).toNat < S32768.size a := fun v1072 k0_hw257 => k0_hw257

def k0_chk258 (v1076 : IVec S16 32) : Prop :=
  (∀ a x, ((![v1076] : Fin 1 → IVec S16 32) a x).toNat < S32768.size a)
instance k0_chk258.dec : ∀ (v1076 : IVec S16 32), Decidable (k0_chk258 v1076) := fun v1076 => decidable_of_iff' _ (Iff.of_eq (k0_chk258.eq_1 v1076))
theorem k0_idx258_inb : ∀ (v1076 : IVec S16 32) (k0_hw258 : k0_chk258 v1076), ∀ a x, ((![v1076] : Fin 1 → IVec S16 32) a x).toNat < S32768.size a := fun v1076 k0_hw258 => k0_hw258

def k0_chk259 (v1080 : IVec S16 32) : Prop :=
  (∀ a x, ((![v1080] : Fin 1 → IVec S16 32) a x).toNat < S32768.size a)
instance k0_chk259.dec : ∀ (v1080 : IVec S16 32), Decidable (k0_chk259 v1080) := fun v1080 => decidable_of_iff' _ (Iff.of_eq (k0_chk259.eq_1 v1080))
theorem k0_idx259_inb : ∀ (v1080 : IVec S16 32) (k0_hw259 : k0_chk259 v1080), ∀ a x, ((![v1080] : Fin 1 → IVec S16 32) a x).toNat < S32768.size a := fun v1080 k0_hw259 => k0_hw259

def k0_chk260 (v1084 : IVec S16 32) : Prop :=
  (∀ a x, ((![v1084] : Fin 1 → IVec S16 32) a x).toNat < S32768.size a)
instance k0_chk260.dec : ∀ (v1084 : IVec S16 32), Decidable (k0_chk260 v1084) := fun v1084 => decidable_of_iff' _ (Iff.of_eq (k0_chk260.eq_1 v1084))
theorem k0_idx260_inb : ∀ (v1084 : IVec S16 32) (k0_hw260 : k0_chk260 v1084), ∀ a x, ((![v1084] : Fin 1 → IVec S16 32) a x).toNat < S32768.size a := fun v1084 k0_hw260 => k0_hw260

def k0_chk261 (v1088 : IVec S16 32) : Prop :=
  (∀ a x, ((![v1088] : Fin 1 → IVec S16 32) a x).toNat < S32768.size a)
instance k0_chk261.dec : ∀ (v1088 : IVec S16 32), Decidable (k0_chk261 v1088) := fun v1088 => decidable_of_iff' _ (Iff.of_eq (k0_chk261.eq_1 v1088))
theorem k0_idx261_inb : ∀ (v1088 : IVec S16 32) (k0_hw261 : k0_chk261 v1088), ∀ a x, ((![v1088] : Fin 1 → IVec S16 32) a x).toNat < S32768.size a := fun v1088 k0_hw261 => k0_hw261

def k0_chk262 (v1092 : IVec S16 32) : Prop :=
  (∀ a x, ((![v1092] : Fin 1 → IVec S16 32) a x).toNat < S32768.size a)
instance k0_chk262.dec : ∀ (v1092 : IVec S16 32), Decidable (k0_chk262 v1092) := fun v1092 => decidable_of_iff' _ (Iff.of_eq (k0_chk262.eq_1 v1092))
theorem k0_idx262_inb : ∀ (v1092 : IVec S16 32) (k0_hw262 : k0_chk262 v1092), ∀ a x, ((![v1092] : Fin 1 → IVec S16 32) a x).toNat < S32768.size a := fun v1092 k0_hw262 => k0_hw262

def k0_chk263 (v1096 : IVec S16 32) : Prop :=
  (∀ a x, ((![v1096] : Fin 1 → IVec S16 32) a x).toNat < S32768.size a)
instance k0_chk263.dec : ∀ (v1096 : IVec S16 32), Decidable (k0_chk263 v1096) := fun v1096 => decidable_of_iff' _ (Iff.of_eq (k0_chk263.eq_1 v1096))
theorem k0_idx263_inb : ∀ (v1096 : IVec S16 32) (k0_hw263 : k0_chk263 v1096), ∀ a x, ((![v1096] : Fin 1 → IVec S16 32) a x).toNat < S32768.size a := fun v1096 k0_hw263 => k0_hw263

def k0_chk264 (v1100 : IVec S16 32) : Prop :=
  (∀ a x, ((![v1100] : Fin 1 → IVec S16 32) a x).toNat < S32768.size a)
instance k0_chk264.dec : ∀ (v1100 : IVec S16 32), Decidable (k0_chk264 v1100) := fun v1100 => decidable_of_iff' _ (Iff.of_eq (k0_chk264.eq_1 v1100))
theorem k0_idx264_inb : ∀ (v1100 : IVec S16 32) (k0_hw264 : k0_chk264 v1100), ∀ a x, ((![v1100] : Fin 1 → IVec S16 32) a x).toNat < S32768.size a := fun v1100 k0_hw264 => k0_hw264

def k0_chk265 (v1104 : IVec S16 32) : Prop :=
  (∀ a x, ((![v1104] : Fin 1 → IVec S16 32) a x).toNat < S32768.size a)
instance k0_chk265.dec : ∀ (v1104 : IVec S16 32), Decidable (k0_chk265 v1104) := fun v1104 => decidable_of_iff' _ (Iff.of_eq (k0_chk265.eq_1 v1104))
theorem k0_idx265_inb : ∀ (v1104 : IVec S16 32) (k0_hw265 : k0_chk265 v1104), ∀ a x, ((![v1104] : Fin 1 → IVec S16 32) a x).toNat < S32768.size a := fun v1104 k0_hw265 => k0_hw265

def k0_chk266 (v1108 : IVec S16 32) : Prop :=
  (∀ a x, ((![v1108] : Fin 1 → IVec S16 32) a x).toNat < S32768.size a)
instance k0_chk266.dec : ∀ (v1108 : IVec S16 32), Decidable (k0_chk266 v1108) := fun v1108 => decidable_of_iff' _ (Iff.of_eq (k0_chk266.eq_1 v1108))
theorem k0_idx266_inb : ∀ (v1108 : IVec S16 32) (k0_hw266 : k0_chk266 v1108), ∀ a x, ((![v1108] : Fin 1 → IVec S16 32) a x).toNat < S32768.size a := fun v1108 k0_hw266 => k0_hw266

def k0_chk267 (v1112 : IVec S16 32) : Prop :=
  (∀ a x, ((![v1112] : Fin 1 → IVec S16 32) a x).toNat < S32768.size a)
instance k0_chk267.dec : ∀ (v1112 : IVec S16 32), Decidable (k0_chk267 v1112) := fun v1112 => decidable_of_iff' _ (Iff.of_eq (k0_chk267.eq_1 v1112))
theorem k0_idx267_inb : ∀ (v1112 : IVec S16 32) (k0_hw267 : k0_chk267 v1112), ∀ a x, ((![v1112] : Fin 1 → IVec S16 32) a x).toNat < S32768.size a := fun v1112 k0_hw267 => k0_hw267

def k0_chk268 (v1116 : IVec S16 32) : Prop :=
  (∀ a x, ((![v1116] : Fin 1 → IVec S16 32) a x).toNat < S32768.size a)
instance k0_chk268.dec : ∀ (v1116 : IVec S16 32), Decidable (k0_chk268 v1116) := fun v1116 => decidable_of_iff' _ (Iff.of_eq (k0_chk268.eq_1 v1116))
theorem k0_idx268_inb : ∀ (v1116 : IVec S16 32) (k0_hw268 : k0_chk268 v1116), ∀ a x, ((![v1116] : Fin 1 → IVec S16 32) a x).toNat < S32768.size a := fun v1116 k0_hw268 => k0_hw268

def k0_chk269 (v1120 : IVec S16 32) : Prop :=
  (∀ a x, ((![v1120] : Fin 1 → IVec S16 32) a x).toNat < S32768.size a)
instance k0_chk269.dec : ∀ (v1120 : IVec S16 32), Decidable (k0_chk269 v1120) := fun v1120 => decidable_of_iff' _ (Iff.of_eq (k0_chk269.eq_1 v1120))
theorem k0_idx269_inb : ∀ (v1120 : IVec S16 32) (k0_hw269 : k0_chk269 v1120), ∀ a x, ((![v1120] : Fin 1 → IVec S16 32) a x).toNat < S32768.size a := fun v1120 k0_hw269 => k0_hw269

def k0_chk270 (v1124 : IVec S16 32) : Prop :=
  (∀ a x, ((![v1124] : Fin 1 → IVec S16 32) a x).toNat < S32768.size a)
instance k0_chk270.dec : ∀ (v1124 : IVec S16 32), Decidable (k0_chk270 v1124) := fun v1124 => decidable_of_iff' _ (Iff.of_eq (k0_chk270.eq_1 v1124))
theorem k0_idx270_inb : ∀ (v1124 : IVec S16 32) (k0_hw270 : k0_chk270 v1124), ∀ a x, ((![v1124] : Fin 1 → IVec S16 32) a x).toNat < S32768.size a := fun v1124 k0_hw270 => k0_hw270

def k0_chk271 (v1128 : IVec S16 32) : Prop :=
  (∀ a x, ((![v1128] : Fin 1 → IVec S16 32) a x).toNat < S32768.size a)
instance k0_chk271.dec : ∀ (v1128 : IVec S16 32), Decidable (k0_chk271 v1128) := fun v1128 => decidable_of_iff' _ (Iff.of_eq (k0_chk271.eq_1 v1128))
theorem k0_idx271_inb : ∀ (v1128 : IVec S16 32) (k0_hw271 : k0_chk271 v1128), ∀ a x, ((![v1128] : Fin 1 → IVec S16 32) a x).toNat < S32768.size a := fun v1128 k0_hw271 => k0_hw271

def k0_chk272 (v1132 : IVec S16 32) : Prop :=
  (∀ a x, ((![v1132] : Fin 1 → IVec S16 32) a x).toNat < S32768.size a)
instance k0_chk272.dec : ∀ (v1132 : IVec S16 32), Decidable (k0_chk272 v1132) := fun v1132 => decidable_of_iff' _ (Iff.of_eq (k0_chk272.eq_1 v1132))
theorem k0_idx272_inb : ∀ (v1132 : IVec S16 32) (k0_hw272 : k0_chk272 v1132), ∀ a x, ((![v1132] : Fin 1 → IVec S16 32) a x).toNat < S32768.size a := fun v1132 k0_hw272 => k0_hw272

def k0_chk273 (v1136 : IVec S16 32) : Prop :=
  (∀ a x, ((![v1136] : Fin 1 → IVec S16 32) a x).toNat < S32768.size a)
instance k0_chk273.dec : ∀ (v1136 : IVec S16 32), Decidable (k0_chk273 v1136) := fun v1136 => decidable_of_iff' _ (Iff.of_eq (k0_chk273.eq_1 v1136))
theorem k0_idx273_inb : ∀ (v1136 : IVec S16 32) (k0_hw273 : k0_chk273 v1136), ∀ a x, ((![v1136] : Fin 1 → IVec S16 32) a x).toNat < S32768.size a := fun v1136 k0_hw273 => k0_hw273

def k0_chk274 (v1140 : IVec S16 32) : Prop :=
  (∀ a x, ((![v1140] : Fin 1 → IVec S16 32) a x).toNat < S32768.size a)
instance k0_chk274.dec : ∀ (v1140 : IVec S16 32), Decidable (k0_chk274 v1140) := fun v1140 => decidable_of_iff' _ (Iff.of_eq (k0_chk274.eq_1 v1140))
theorem k0_idx274_inb : ∀ (v1140 : IVec S16 32) (k0_hw274 : k0_chk274 v1140), ∀ a x, ((![v1140] : Fin 1 → IVec S16 32) a x).toNat < S32768.size a := fun v1140 k0_hw274 => k0_hw274

def k0_chk275 (v1144 : IVec S16 32) : Prop :=
  (∀ a x, ((![v1144] : Fin 1 → IVec S16 32) a x).toNat < S32768.size a)
instance k0_chk275.dec : ∀ (v1144 : IVec S16 32), Decidable (k0_chk275 v1144) := fun v1144 => decidable_of_iff' _ (Iff.of_eq (k0_chk275.eq_1 v1144))
theorem k0_idx275_inb : ∀ (v1144 : IVec S16 32) (k0_hw275 : k0_chk275 v1144), ∀ a x, ((![v1144] : Fin 1 → IVec S16 32) a x).toNat < S32768.size a := fun v1144 k0_hw275 => k0_hw275

def k0_chk276 (v1148 : IVec S16 32) : Prop :=
  (∀ a x, ((![v1148] : Fin 1 → IVec S16 32) a x).toNat < S32768.size a)
instance k0_chk276.dec : ∀ (v1148 : IVec S16 32), Decidable (k0_chk276 v1148) := fun v1148 => decidable_of_iff' _ (Iff.of_eq (k0_chk276.eq_1 v1148))
theorem k0_idx276_inb : ∀ (v1148 : IVec S16 32) (k0_hw276 : k0_chk276 v1148), ∀ a x, ((![v1148] : Fin 1 → IVec S16 32) a x).toNat < S32768.size a := fun v1148 k0_hw276 => k0_hw276

def k0_chk277 (v1152 : IVec S16 32) : Prop :=
  (∀ a x, ((![v1152] : Fin 1 → IVec S16 32) a x).toNat < S32768.size a)
instance k0_chk277.dec : ∀ (v1152 : IVec S16 32), Decidable (k0_chk277 v1152) := fun v1152 => decidable_of_iff' _ (Iff.of_eq (k0_chk277.eq_1 v1152))
theorem k0_idx277_inb : ∀ (v1152 : IVec S16 32) (k0_hw277 : k0_chk277 v1152), ∀ a x, ((![v1152] : Fin 1 → IVec S16 32) a x).toNat < S32768.size a := fun v1152 k0_hw277 => k0_hw277

def k0_chk278 (v1156 : IVec S16 32) : Prop :=
  (∀ a x, ((![v1156] : Fin 1 → IVec S16 32) a x).toNat < S32768.size a)
instance k0_chk278.dec : ∀ (v1156 : IVec S16 32), Decidable (k0_chk278 v1156) := fun v1156 => decidable_of_iff' _ (Iff.of_eq (k0_chk278.eq_1 v1156))
theorem k0_idx278_inb : ∀ (v1156 : IVec S16 32) (k0_hw278 : k0_chk278 v1156), ∀ a x, ((![v1156] : Fin 1 → IVec S16 32) a x).toNat < S32768.size a := fun v1156 k0_hw278 => k0_hw278

def k0_chk279 (v1160 : IVec S16 32) : Prop :=
  (∀ a x, ((![v1160] : Fin 1 → IVec S16 32) a x).toNat < S32768.size a)
instance k0_chk279.dec : ∀ (v1160 : IVec S16 32), Decidable (k0_chk279 v1160) := fun v1160 => decidable_of_iff' _ (Iff.of_eq (k0_chk279.eq_1 v1160))
theorem k0_idx279_inb : ∀ (v1160 : IVec S16 32) (k0_hw279 : k0_chk279 v1160), ∀ a x, ((![v1160] : Fin 1 → IVec S16 32) a x).toNat < S32768.size a := fun v1160 k0_hw279 => k0_hw279

def k0_chk280 (v1164 : IVec S16 32) : Prop :=
  (∀ a x, ((![v1164] : Fin 1 → IVec S16 32) a x).toNat < S32768.size a)
instance k0_chk280.dec : ∀ (v1164 : IVec S16 32), Decidable (k0_chk280 v1164) := fun v1164 => decidable_of_iff' _ (Iff.of_eq (k0_chk280.eq_1 v1164))
theorem k0_idx280_inb : ∀ (v1164 : IVec S16 32) (k0_hw280 : k0_chk280 v1164), ∀ a x, ((![v1164] : Fin 1 → IVec S16 32) a x).toNat < S32768.size a := fun v1164 k0_hw280 => k0_hw280

def k0_chk281 (v1168 : IVec S16 32) : Prop :=
  (∀ a x, ((![v1168] : Fin 1 → IVec S16 32) a x).toNat < S32768.size a)
instance k0_chk281.dec : ∀ (v1168 : IVec S16 32), Decidable (k0_chk281 v1168) := fun v1168 => decidable_of_iff' _ (Iff.of_eq (k0_chk281.eq_1 v1168))
theorem k0_idx281_inb : ∀ (v1168 : IVec S16 32) (k0_hw281 : k0_chk281 v1168), ∀ a x, ((![v1168] : Fin 1 → IVec S16 32) a x).toNat < S32768.size a := fun v1168 k0_hw281 => k0_hw281

def k0_chk282 (v1172 : IVec S16 32) : Prop :=
  (∀ a x, ((![v1172] : Fin 1 → IVec S16 32) a x).toNat < S32768.size a)
instance k0_chk282.dec : ∀ (v1172 : IVec S16 32), Decidable (k0_chk282 v1172) := fun v1172 => decidable_of_iff' _ (Iff.of_eq (k0_chk282.eq_1 v1172))
theorem k0_idx282_inb : ∀ (v1172 : IVec S16 32) (k0_hw282 : k0_chk282 v1172), ∀ a x, ((![v1172] : Fin 1 → IVec S16 32) a x).toNat < S32768.size a := fun v1172 k0_hw282 => k0_hw282

def k0_chk283 (v1176 : IVec S16 32) : Prop :=
  (∀ a x, ((![v1176] : Fin 1 → IVec S16 32) a x).toNat < S32768.size a)
instance k0_chk283.dec : ∀ (v1176 : IVec S16 32), Decidable (k0_chk283 v1176) := fun v1176 => decidable_of_iff' _ (Iff.of_eq (k0_chk283.eq_1 v1176))
theorem k0_idx283_inb : ∀ (v1176 : IVec S16 32) (k0_hw283 : k0_chk283 v1176), ∀ a x, ((![v1176] : Fin 1 → IVec S16 32) a x).toNat < S32768.size a := fun v1176 k0_hw283 => k0_hw283

def k0_chk284 (v1180 : IVec S16 32) : Prop :=
  (∀ a x, ((![v1180] : Fin 1 → IVec S16 32) a x).toNat < S32768.size a)
instance k0_chk284.dec : ∀ (v1180 : IVec S16 32), Decidable (k0_chk284 v1180) := fun v1180 => decidable_of_iff' _ (Iff.of_eq (k0_chk284.eq_1 v1180))
theorem k0_idx284_inb : ∀ (v1180 : IVec S16 32) (k0_hw284 : k0_chk284 v1180), ∀ a x, ((![v1180] : Fin 1 → IVec S16 32) a x).toNat < S32768.size a := fun v1180 k0_hw284 => k0_hw284

def k0_chk285 (v1184 : IVec S16 32) : Prop :=
  (∀ a x, ((![v1184] : Fin 1 → IVec S16 32) a x).toNat < S32768.size a)
instance k0_chk285.dec : ∀ (v1184 : IVec S16 32), Decidable (k0_chk285 v1184) := fun v1184 => decidable_of_iff' _ (Iff.of_eq (k0_chk285.eq_1 v1184))
theorem k0_idx285_inb : ∀ (v1184 : IVec S16 32) (k0_hw285 : k0_chk285 v1184), ∀ a x, ((![v1184] : Fin 1 → IVec S16 32) a x).toNat < S32768.size a := fun v1184 k0_hw285 => k0_hw285

def k0_chk286 (v1188 : IVec S16 32) : Prop :=
  (∀ a x, ((![v1188] : Fin 1 → IVec S16 32) a x).toNat < S32768.size a)
instance k0_chk286.dec : ∀ (v1188 : IVec S16 32), Decidable (k0_chk286 v1188) := fun v1188 => decidable_of_iff' _ (Iff.of_eq (k0_chk286.eq_1 v1188))
theorem k0_idx286_inb : ∀ (v1188 : IVec S16 32) (k0_hw286 : k0_chk286 v1188), ∀ a x, ((![v1188] : Fin 1 → IVec S16 32) a x).toNat < S32768.size a := fun v1188 k0_hw286 => k0_hw286

def k0_chk287 (v1192 : IVec S16 32) : Prop :=
  (∀ a x, ((![v1192] : Fin 1 → IVec S16 32) a x).toNat < S32768.size a)
instance k0_chk287.dec : ∀ (v1192 : IVec S16 32), Decidable (k0_chk287 v1192) := fun v1192 => decidable_of_iff' _ (Iff.of_eq (k0_chk287.eq_1 v1192))
theorem k0_idx287_inb : ∀ (v1192 : IVec S16 32) (k0_hw287 : k0_chk287 v1192), ∀ a x, ((![v1192] : Fin 1 → IVec S16 32) a x).toNat < S32768.size a := fun v1192 k0_hw287 => k0_hw287

def k0_chk288 (v1196 : IVec S16 32) : Prop :=
  (∀ a x, ((![v1196] : Fin 1 → IVec S16 32) a x).toNat < S32768.size a)
instance k0_chk288.dec : ∀ (v1196 : IVec S16 32), Decidable (k0_chk288 v1196) := fun v1196 => decidable_of_iff' _ (Iff.of_eq (k0_chk288.eq_1 v1196))
theorem k0_idx288_inb : ∀ (v1196 : IVec S16 32) (k0_hw288 : k0_chk288 v1196), ∀ a x, ((![v1196] : Fin 1 → IVec S16 32) a x).toNat < S32768.size a := fun v1196 k0_hw288 => k0_hw288

def k0_chk289 (v1200 : IVec S16 32) : Prop :=
  (∀ a x, ((![v1200] : Fin 1 → IVec S16 32) a x).toNat < S32768.size a)
instance k0_chk289.dec : ∀ (v1200 : IVec S16 32), Decidable (k0_chk289 v1200) := fun v1200 => decidable_of_iff' _ (Iff.of_eq (k0_chk289.eq_1 v1200))
theorem k0_idx289_inb : ∀ (v1200 : IVec S16 32) (k0_hw289 : k0_chk289 v1200), ∀ a x, ((![v1200] : Fin 1 → IVec S16 32) a x).toNat < S32768.size a := fun v1200 k0_hw289 => k0_hw289

def k0_chk290 (v1204 : IVec S16 32) : Prop :=
  (∀ a x, ((![v1204] : Fin 1 → IVec S16 32) a x).toNat < S32768.size a)
instance k0_chk290.dec : ∀ (v1204 : IVec S16 32), Decidable (k0_chk290 v1204) := fun v1204 => decidable_of_iff' _ (Iff.of_eq (k0_chk290.eq_1 v1204))
theorem k0_idx290_inb : ∀ (v1204 : IVec S16 32) (k0_hw290 : k0_chk290 v1204), ∀ a x, ((![v1204] : Fin 1 → IVec S16 32) a x).toNat < S32768.size a := fun v1204 k0_hw290 => k0_hw290

def k0_chk291 (v1208 : IVec S16 32) : Prop :=
  (∀ a x, ((![v1208] : Fin 1 → IVec S16 32) a x).toNat < S32768.size a)
instance k0_chk291.dec : ∀ (v1208 : IVec S16 32), Decidable (k0_chk291 v1208) := fun v1208 => decidable_of_iff' _ (Iff.of_eq (k0_chk291.eq_1 v1208))
theorem k0_idx291_inb : ∀ (v1208 : IVec S16 32) (k0_hw291 : k0_chk291 v1208), ∀ a x, ((![v1208] : Fin 1 → IVec S16 32) a x).toNat < S32768.size a := fun v1208 k0_hw291 => k0_hw291

def k0_chk292 (v1212 : IVec S16 32) : Prop :=
  (∀ a x, ((![v1212] : Fin 1 → IVec S16 32) a x).toNat < S32768.size a)
instance k0_chk292.dec : ∀ (v1212 : IVec S16 32), Decidable (k0_chk292 v1212) := fun v1212 => decidable_of_iff' _ (Iff.of_eq (k0_chk292.eq_1 v1212))
theorem k0_idx292_inb : ∀ (v1212 : IVec S16 32) (k0_hw292 : k0_chk292 v1212), ∀ a x, ((![v1212] : Fin 1 → IVec S16 32) a x).toNat < S32768.size a := fun v1212 k0_hw292 => k0_hw292

def k0_chk293 (v1216 : IVec S16 32) : Prop :=
  (∀ a x, ((![v1216] : Fin 1 → IVec S16 32) a x).toNat < S32768.size a)
instance k0_chk293.dec : ∀ (v1216 : IVec S16 32), Decidable (k0_chk293 v1216) := fun v1216 => decidable_of_iff' _ (Iff.of_eq (k0_chk293.eq_1 v1216))
theorem k0_idx293_inb : ∀ (v1216 : IVec S16 32) (k0_hw293 : k0_chk293 v1216), ∀ a x, ((![v1216] : Fin 1 → IVec S16 32) a x).toNat < S32768.size a := fun v1216 k0_hw293 => k0_hw293

def k0_chk294 (v1220 : IVec S16 32) : Prop :=
  (∀ a x, ((![v1220] : Fin 1 → IVec S16 32) a x).toNat < S32768.size a)
instance k0_chk294.dec : ∀ (v1220 : IVec S16 32), Decidable (k0_chk294 v1220) := fun v1220 => decidable_of_iff' _ (Iff.of_eq (k0_chk294.eq_1 v1220))
theorem k0_idx294_inb : ∀ (v1220 : IVec S16 32) (k0_hw294 : k0_chk294 v1220), ∀ a x, ((![v1220] : Fin 1 → IVec S16 32) a x).toNat < S32768.size a := fun v1220 k0_hw294 => k0_hw294

def k0_chk295 (v1224 : IVec S16 32) : Prop :=
  (∀ a x, ((![v1224] : Fin 1 → IVec S16 32) a x).toNat < S32768.size a)
instance k0_chk295.dec : ∀ (v1224 : IVec S16 32), Decidable (k0_chk295 v1224) := fun v1224 => decidable_of_iff' _ (Iff.of_eq (k0_chk295.eq_1 v1224))
theorem k0_idx295_inb : ∀ (v1224 : IVec S16 32) (k0_hw295 : k0_chk295 v1224), ∀ a x, ((![v1224] : Fin 1 → IVec S16 32) a x).toNat < S32768.size a := fun v1224 k0_hw295 => k0_hw295

def k0_chk296 (v1228 : IVec S16 32) : Prop :=
  (∀ a x, ((![v1228] : Fin 1 → IVec S16 32) a x).toNat < S32768.size a)
instance k0_chk296.dec : ∀ (v1228 : IVec S16 32), Decidable (k0_chk296 v1228) := fun v1228 => decidable_of_iff' _ (Iff.of_eq (k0_chk296.eq_1 v1228))
theorem k0_idx296_inb : ∀ (v1228 : IVec S16 32) (k0_hw296 : k0_chk296 v1228), ∀ a x, ((![v1228] : Fin 1 → IVec S16 32) a x).toNat < S32768.size a := fun v1228 k0_hw296 => k0_hw296

def k0_chk297 (v1232 : IVec S16 32) : Prop :=
  (∀ a x, ((![v1232] : Fin 1 → IVec S16 32) a x).toNat < S32768.size a)
instance k0_chk297.dec : ∀ (v1232 : IVec S16 32), Decidable (k0_chk297 v1232) := fun v1232 => decidable_of_iff' _ (Iff.of_eq (k0_chk297.eq_1 v1232))
theorem k0_idx297_inb : ∀ (v1232 : IVec S16 32) (k0_hw297 : k0_chk297 v1232), ∀ a x, ((![v1232] : Fin 1 → IVec S16 32) a x).toNat < S32768.size a := fun v1232 k0_hw297 => k0_hw297

def k0_chk298 (v1236 : IVec S16 32) : Prop :=
  (∀ a x, ((![v1236] : Fin 1 → IVec S16 32) a x).toNat < S32768.size a)
instance k0_chk298.dec : ∀ (v1236 : IVec S16 32), Decidable (k0_chk298 v1236) := fun v1236 => decidable_of_iff' _ (Iff.of_eq (k0_chk298.eq_1 v1236))
theorem k0_idx298_inb : ∀ (v1236 : IVec S16 32) (k0_hw298 : k0_chk298 v1236), ∀ a x, ((![v1236] : Fin 1 → IVec S16 32) a x).toNat < S32768.size a := fun v1236 k0_hw298 => k0_hw298

def k0_chk299 (v1240 : IVec S16 32) : Prop :=
  (∀ a x, ((![v1240] : Fin 1 → IVec S16 32) a x).toNat < S32768.size a)
instance k0_chk299.dec : ∀ (v1240 : IVec S16 32), Decidable (k0_chk299 v1240) := fun v1240 => decidable_of_iff' _ (Iff.of_eq (k0_chk299.eq_1 v1240))
theorem k0_idx299_inb : ∀ (v1240 : IVec S16 32) (k0_hw299 : k0_chk299 v1240), ∀ a x, ((![v1240] : Fin 1 → IVec S16 32) a x).toNat < S32768.size a := fun v1240 k0_hw299 => k0_hw299

def k0_chk300 (v1244 : IVec S16 32) : Prop :=
  (∀ a x, ((![v1244] : Fin 1 → IVec S16 32) a x).toNat < S32768.size a)
instance k0_chk300.dec : ∀ (v1244 : IVec S16 32), Decidable (k0_chk300 v1244) := fun v1244 => decidable_of_iff' _ (Iff.of_eq (k0_chk300.eq_1 v1244))
theorem k0_idx300_inb : ∀ (v1244 : IVec S16 32) (k0_hw300 : k0_chk300 v1244), ∀ a x, ((![v1244] : Fin 1 → IVec S16 32) a x).toNat < S32768.size a := fun v1244 k0_hw300 => k0_hw300

def k0_chk301 (v1248 : IVec S16 32) : Prop :=
  (∀ a x, ((![v1248] : Fin 1 → IVec S16 32) a x).toNat < S32768.size a)
instance k0_chk301.dec : ∀ (v1248 : IVec S16 32), Decidable (k0_chk301 v1248) := fun v1248 => decidable_of_iff' _ (Iff.of_eq (k0_chk301.eq_1 v1248))
theorem k0_idx301_inb : ∀ (v1248 : IVec S16 32) (k0_hw301 : k0_chk301 v1248), ∀ a x, ((![v1248] : Fin 1 → IVec S16 32) a x).toNat < S32768.size a := fun v1248 k0_hw301 => k0_hw301

def k0_chk302 (v1252 : IVec S16 32) : Prop :=
  (∀ a x, ((![v1252] : Fin 1 → IVec S16 32) a x).toNat < S32768.size a)
instance k0_chk302.dec : ∀ (v1252 : IVec S16 32), Decidable (k0_chk302 v1252) := fun v1252 => decidable_of_iff' _ (Iff.of_eq (k0_chk302.eq_1 v1252))
theorem k0_idx302_inb : ∀ (v1252 : IVec S16 32) (k0_hw302 : k0_chk302 v1252), ∀ a x, ((![v1252] : Fin 1 → IVec S16 32) a x).toNat < S32768.size a := fun v1252 k0_hw302 => k0_hw302

def k0_chk303 (v1256 : IVec S16 32) : Prop :=
  (∀ a x, ((![v1256] : Fin 1 → IVec S16 32) a x).toNat < S32768.size a)
instance k0_chk303.dec : ∀ (v1256 : IVec S16 32), Decidable (k0_chk303 v1256) := fun v1256 => decidable_of_iff' _ (Iff.of_eq (k0_chk303.eq_1 v1256))
theorem k0_idx303_inb : ∀ (v1256 : IVec S16 32) (k0_hw303 : k0_chk303 v1256), ∀ a x, ((![v1256] : Fin 1 → IVec S16 32) a x).toNat < S32768.size a := fun v1256 k0_hw303 => k0_hw303

def k0_chk304 (v1260 : IVec S16 32) : Prop :=
  (∀ a x, ((![v1260] : Fin 1 → IVec S16 32) a x).toNat < S32768.size a)
instance k0_chk304.dec : ∀ (v1260 : IVec S16 32), Decidable (k0_chk304 v1260) := fun v1260 => decidable_of_iff' _ (Iff.of_eq (k0_chk304.eq_1 v1260))
theorem k0_idx304_inb : ∀ (v1260 : IVec S16 32) (k0_hw304 : k0_chk304 v1260), ∀ a x, ((![v1260] : Fin 1 → IVec S16 32) a x).toNat < S32768.size a := fun v1260 k0_hw304 => k0_hw304

def k0_chk305 (v1264 : IVec S16 32) : Prop :=
  (∀ a x, ((![v1264] : Fin 1 → IVec S16 32) a x).toNat < S32768.size a)
instance k0_chk305.dec : ∀ (v1264 : IVec S16 32), Decidable (k0_chk305 v1264) := fun v1264 => decidable_of_iff' _ (Iff.of_eq (k0_chk305.eq_1 v1264))
theorem k0_idx305_inb : ∀ (v1264 : IVec S16 32) (k0_hw305 : k0_chk305 v1264), ∀ a x, ((![v1264] : Fin 1 → IVec S16 32) a x).toNat < S32768.size a := fun v1264 k0_hw305 => k0_hw305

def k0_chk306 (v1268 : IVec S16 32) : Prop :=
  (∀ a x, ((![v1268] : Fin 1 → IVec S16 32) a x).toNat < S32768.size a)
instance k0_chk306.dec : ∀ (v1268 : IVec S16 32), Decidable (k0_chk306 v1268) := fun v1268 => decidable_of_iff' _ (Iff.of_eq (k0_chk306.eq_1 v1268))
theorem k0_idx306_inb : ∀ (v1268 : IVec S16 32) (k0_hw306 : k0_chk306 v1268), ∀ a x, ((![v1268] : Fin 1 → IVec S16 32) a x).toNat < S32768.size a := fun v1268 k0_hw306 => k0_hw306

def k0_chk307 (v1272 : IVec S16 32) : Prop :=
  (∀ a x, ((![v1272] : Fin 1 → IVec S16 32) a x).toNat < S32768.size a)
instance k0_chk307.dec : ∀ (v1272 : IVec S16 32), Decidable (k0_chk307 v1272) := fun v1272 => decidable_of_iff' _ (Iff.of_eq (k0_chk307.eq_1 v1272))
theorem k0_idx307_inb : ∀ (v1272 : IVec S16 32) (k0_hw307 : k0_chk307 v1272), ∀ a x, ((![v1272] : Fin 1 → IVec S16 32) a x).toNat < S32768.size a := fun v1272 k0_hw307 => k0_hw307

def k0_chk308 (v1276 : IVec S16 32) : Prop :=
  (∀ a x, ((![v1276] : Fin 1 → IVec S16 32) a x).toNat < S32768.size a)
instance k0_chk308.dec : ∀ (v1276 : IVec S16 32), Decidable (k0_chk308 v1276) := fun v1276 => decidable_of_iff' _ (Iff.of_eq (k0_chk308.eq_1 v1276))
theorem k0_idx308_inb : ∀ (v1276 : IVec S16 32) (k0_hw308 : k0_chk308 v1276), ∀ a x, ((![v1276] : Fin 1 → IVec S16 32) a x).toNat < S32768.size a := fun v1276 k0_hw308 => k0_hw308

def k0_chk309 (v1280 : IVec S16 32) : Prop :=
  (∀ a x, ((![v1280] : Fin 1 → IVec S16 32) a x).toNat < S32768.size a)
instance k0_chk309.dec : ∀ (v1280 : IVec S16 32), Decidable (k0_chk309 v1280) := fun v1280 => decidable_of_iff' _ (Iff.of_eq (k0_chk309.eq_1 v1280))
theorem k0_idx309_inb : ∀ (v1280 : IVec S16 32) (k0_hw309 : k0_chk309 v1280), ∀ a x, ((![v1280] : Fin 1 → IVec S16 32) a x).toNat < S32768.size a := fun v1280 k0_hw309 => k0_hw309

def k0_chk310 (v1284 : IVec S16 32) : Prop :=
  (∀ a x, ((![v1284] : Fin 1 → IVec S16 32) a x).toNat < S32768.size a)
instance k0_chk310.dec : ∀ (v1284 : IVec S16 32), Decidable (k0_chk310 v1284) := fun v1284 => decidable_of_iff' _ (Iff.of_eq (k0_chk310.eq_1 v1284))
theorem k0_idx310_inb : ∀ (v1284 : IVec S16 32) (k0_hw310 : k0_chk310 v1284), ∀ a x, ((![v1284] : Fin 1 → IVec S16 32) a x).toNat < S32768.size a := fun v1284 k0_hw310 => k0_hw310

def k0_chk311 (v1288 : IVec S16 32) : Prop :=
  (∀ a x, ((![v1288] : Fin 1 → IVec S16 32) a x).toNat < S32768.size a)
instance k0_chk311.dec : ∀ (v1288 : IVec S16 32), Decidable (k0_chk311 v1288) := fun v1288 => decidable_of_iff' _ (Iff.of_eq (k0_chk311.eq_1 v1288))
theorem k0_idx311_inb : ∀ (v1288 : IVec S16 32) (k0_hw311 : k0_chk311 v1288), ∀ a x, ((![v1288] : Fin 1 → IVec S16 32) a x).toNat < S32768.size a := fun v1288 k0_hw311 => k0_hw311

def k0_chk312 (v1292 : IVec S16 32) : Prop :=
  (∀ a x, ((![v1292] : Fin 1 → IVec S16 32) a x).toNat < S32768.size a)
instance k0_chk312.dec : ∀ (v1292 : IVec S16 32), Decidable (k0_chk312 v1292) := fun v1292 => decidable_of_iff' _ (Iff.of_eq (k0_chk312.eq_1 v1292))
theorem k0_idx312_inb : ∀ (v1292 : IVec S16 32) (k0_hw312 : k0_chk312 v1292), ∀ a x, ((![v1292] : Fin 1 → IVec S16 32) a x).toNat < S32768.size a := fun v1292 k0_hw312 => k0_hw312

def k0_chk313 (v1296 : IVec S16 32) : Prop :=
  (∀ a x, ((![v1296] : Fin 1 → IVec S16 32) a x).toNat < S32768.size a)
instance k0_chk313.dec : ∀ (v1296 : IVec S16 32), Decidable (k0_chk313 v1296) := fun v1296 => decidable_of_iff' _ (Iff.of_eq (k0_chk313.eq_1 v1296))
theorem k0_idx313_inb : ∀ (v1296 : IVec S16 32) (k0_hw313 : k0_chk313 v1296), ∀ a x, ((![v1296] : Fin 1 → IVec S16 32) a x).toNat < S32768.size a := fun v1296 k0_hw313 => k0_hw313

def k0_chk314 (v1300 : IVec S16 32) : Prop :=
  (∀ a x, ((![v1300] : Fin 1 → IVec S16 32) a x).toNat < S32768.size a)
instance k0_chk314.dec : ∀ (v1300 : IVec S16 32), Decidable (k0_chk314 v1300) := fun v1300 => decidable_of_iff' _ (Iff.of_eq (k0_chk314.eq_1 v1300))
theorem k0_idx314_inb : ∀ (v1300 : IVec S16 32) (k0_hw314 : k0_chk314 v1300), ∀ a x, ((![v1300] : Fin 1 → IVec S16 32) a x).toNat < S32768.size a := fun v1300 k0_hw314 => k0_hw314

def k0_chk315 (v1304 : IVec S16 32) : Prop :=
  (∀ a x, ((![v1304] : Fin 1 → IVec S16 32) a x).toNat < S32768.size a)
instance k0_chk315.dec : ∀ (v1304 : IVec S16 32), Decidable (k0_chk315 v1304) := fun v1304 => decidable_of_iff' _ (Iff.of_eq (k0_chk315.eq_1 v1304))
theorem k0_idx315_inb : ∀ (v1304 : IVec S16 32) (k0_hw315 : k0_chk315 v1304), ∀ a x, ((![v1304] : Fin 1 → IVec S16 32) a x).toNat < S32768.size a := fun v1304 k0_hw315 => k0_hw315

def k0_chk316 (v1308 : IVec S16 32) : Prop :=
  (∀ a x, ((![v1308] : Fin 1 → IVec S16 32) a x).toNat < S32768.size a)
instance k0_chk316.dec : ∀ (v1308 : IVec S16 32), Decidable (k0_chk316 v1308) := fun v1308 => decidable_of_iff' _ (Iff.of_eq (k0_chk316.eq_1 v1308))
theorem k0_idx316_inb : ∀ (v1308 : IVec S16 32) (k0_hw316 : k0_chk316 v1308), ∀ a x, ((![v1308] : Fin 1 → IVec S16 32) a x).toNat < S32768.size a := fun v1308 k0_hw316 => k0_hw316

def k0_chk317 (v1312 : IVec S16 32) : Prop :=
  (∀ a x, ((![v1312] : Fin 1 → IVec S16 32) a x).toNat < S32768.size a)
instance k0_chk317.dec : ∀ (v1312 : IVec S16 32), Decidable (k0_chk317 v1312) := fun v1312 => decidable_of_iff' _ (Iff.of_eq (k0_chk317.eq_1 v1312))
theorem k0_idx317_inb : ∀ (v1312 : IVec S16 32) (k0_hw317 : k0_chk317 v1312), ∀ a x, ((![v1312] : Fin 1 → IVec S16 32) a x).toNat < S32768.size a := fun v1312 k0_hw317 => k0_hw317

def k0_chk318 (v1316 : IVec S16 32) : Prop :=
  (∀ a x, ((![v1316] : Fin 1 → IVec S16 32) a x).toNat < S32768.size a)
instance k0_chk318.dec : ∀ (v1316 : IVec S16 32), Decidable (k0_chk318 v1316) := fun v1316 => decidable_of_iff' _ (Iff.of_eq (k0_chk318.eq_1 v1316))
theorem k0_idx318_inb : ∀ (v1316 : IVec S16 32) (k0_hw318 : k0_chk318 v1316), ∀ a x, ((![v1316] : Fin 1 → IVec S16 32) a x).toNat < S32768.size a := fun v1316 k0_hw318 => k0_hw318

def k0_chk319 (v1320 : IVec S16 32) : Prop :=
  (∀ a x, ((![v1320] : Fin 1 → IVec S16 32) a x).toNat < S32768.size a)
instance k0_chk319.dec : ∀ (v1320 : IVec S16 32), Decidable (k0_chk319 v1320) := fun v1320 => decidable_of_iff' _ (Iff.of_eq (k0_chk319.eq_1 v1320))
theorem k0_idx319_inb : ∀ (v1320 : IVec S16 32) (k0_hw319 : k0_chk319 v1320), ∀ a x, ((![v1320] : Fin 1 → IVec S16 32) a x).toNat < S32768.size a := fun v1320 k0_hw319 => k0_hw319

def k0_chk320 (v1324 : IVec S16 32) : Prop :=
  (∀ a x, ((![v1324] : Fin 1 → IVec S16 32) a x).toNat < S32768.size a)
instance k0_chk320.dec : ∀ (v1324 : IVec S16 32), Decidable (k0_chk320 v1324) := fun v1324 => decidable_of_iff' _ (Iff.of_eq (k0_chk320.eq_1 v1324))
theorem k0_idx320_inb : ∀ (v1324 : IVec S16 32) (k0_hw320 : k0_chk320 v1324), ∀ a x, ((![v1324] : Fin 1 → IVec S16 32) a x).toNat < S32768.size a := fun v1324 k0_hw320 => k0_hw320

def k0_chk321 (v1328 : IVec S16 32) : Prop :=
  (∀ a x, ((![v1328] : Fin 1 → IVec S16 32) a x).toNat < S32768.size a)
instance k0_chk321.dec : ∀ (v1328 : IVec S16 32), Decidable (k0_chk321 v1328) := fun v1328 => decidable_of_iff' _ (Iff.of_eq (k0_chk321.eq_1 v1328))
theorem k0_idx321_inb : ∀ (v1328 : IVec S16 32) (k0_hw321 : k0_chk321 v1328), ∀ a x, ((![v1328] : Fin 1 → IVec S16 32) a x).toNat < S32768.size a := fun v1328 k0_hw321 => k0_hw321

def k0_chk322 (v1332 : IVec S16 32) : Prop :=
  (∀ a x, ((![v1332] : Fin 1 → IVec S16 32) a x).toNat < S32768.size a)
instance k0_chk322.dec : ∀ (v1332 : IVec S16 32), Decidable (k0_chk322 v1332) := fun v1332 => decidable_of_iff' _ (Iff.of_eq (k0_chk322.eq_1 v1332))
theorem k0_idx322_inb : ∀ (v1332 : IVec S16 32) (k0_hw322 : k0_chk322 v1332), ∀ a x, ((![v1332] : Fin 1 → IVec S16 32) a x).toNat < S32768.size a := fun v1332 k0_hw322 => k0_hw322

def k0_chk323 (v1336 : IVec S16 32) : Prop :=
  (∀ a x, ((![v1336] : Fin 1 → IVec S16 32) a x).toNat < S32768.size a)
instance k0_chk323.dec : ∀ (v1336 : IVec S16 32), Decidable (k0_chk323 v1336) := fun v1336 => decidable_of_iff' _ (Iff.of_eq (k0_chk323.eq_1 v1336))
theorem k0_idx323_inb : ∀ (v1336 : IVec S16 32) (k0_hw323 : k0_chk323 v1336), ∀ a x, ((![v1336] : Fin 1 → IVec S16 32) a x).toNat < S32768.size a := fun v1336 k0_hw323 => k0_hw323

def k0_chk324 (v1340 : IVec S16 32) : Prop :=
  (∀ a x, ((![v1340] : Fin 1 → IVec S16 32) a x).toNat < S32768.size a)
instance k0_chk324.dec : ∀ (v1340 : IVec S16 32), Decidable (k0_chk324 v1340) := fun v1340 => decidable_of_iff' _ (Iff.of_eq (k0_chk324.eq_1 v1340))
theorem k0_idx324_inb : ∀ (v1340 : IVec S16 32) (k0_hw324 : k0_chk324 v1340), ∀ a x, ((![v1340] : Fin 1 → IVec S16 32) a x).toNat < S32768.size a := fun v1340 k0_hw324 => k0_hw324

def k0_chk325 (v1344 : IVec S16 32) : Prop :=
  (∀ a x, ((![v1344] : Fin 1 → IVec S16 32) a x).toNat < S32768.size a)
instance k0_chk325.dec : ∀ (v1344 : IVec S16 32), Decidable (k0_chk325 v1344) := fun v1344 => decidable_of_iff' _ (Iff.of_eq (k0_chk325.eq_1 v1344))
theorem k0_idx325_inb : ∀ (v1344 : IVec S16 32) (k0_hw325 : k0_chk325 v1344), ∀ a x, ((![v1344] : Fin 1 → IVec S16 32) a x).toNat < S32768.size a := fun v1344 k0_hw325 => k0_hw325

def k0_chk326 (v1348 : IVec S16 32) : Prop :=
  (∀ a x, ((![v1348] : Fin 1 → IVec S16 32) a x).toNat < S32768.size a)
instance k0_chk326.dec : ∀ (v1348 : IVec S16 32), Decidable (k0_chk326 v1348) := fun v1348 => decidable_of_iff' _ (Iff.of_eq (k0_chk326.eq_1 v1348))
theorem k0_idx326_inb : ∀ (v1348 : IVec S16 32) (k0_hw326 : k0_chk326 v1348), ∀ a x, ((![v1348] : Fin 1 → IVec S16 32) a x).toNat < S32768.size a := fun v1348 k0_hw326 => k0_hw326

def k0_chk327 (v1352 : IVec S16 32) : Prop :=
  (∀ a x, ((![v1352] : Fin 1 → IVec S16 32) a x).toNat < S32768.size a)
instance k0_chk327.dec : ∀ (v1352 : IVec S16 32), Decidable (k0_chk327 v1352) := fun v1352 => decidable_of_iff' _ (Iff.of_eq (k0_chk327.eq_1 v1352))
theorem k0_idx327_inb : ∀ (v1352 : IVec S16 32) (k0_hw327 : k0_chk327 v1352), ∀ a x, ((![v1352] : Fin 1 → IVec S16 32) a x).toNat < S32768.size a := fun v1352 k0_hw327 => k0_hw327

def k0_chk328 (v1356 : IVec S16 32) : Prop :=
  (∀ a x, ((![v1356] : Fin 1 → IVec S16 32) a x).toNat < S32768.size a)
instance k0_chk328.dec : ∀ (v1356 : IVec S16 32), Decidable (k0_chk328 v1356) := fun v1356 => decidable_of_iff' _ (Iff.of_eq (k0_chk328.eq_1 v1356))
theorem k0_idx328_inb : ∀ (v1356 : IVec S16 32) (k0_hw328 : k0_chk328 v1356), ∀ a x, ((![v1356] : Fin 1 → IVec S16 32) a x).toNat < S32768.size a := fun v1356 k0_hw328 => k0_hw328

def k0_chk329 (v1360 : IVec S16 32) : Prop :=
  (∀ a x, ((![v1360] : Fin 1 → IVec S16 32) a x).toNat < S32768.size a)
instance k0_chk329.dec : ∀ (v1360 : IVec S16 32), Decidable (k0_chk329 v1360) := fun v1360 => decidable_of_iff' _ (Iff.of_eq (k0_chk329.eq_1 v1360))
theorem k0_idx329_inb : ∀ (v1360 : IVec S16 32) (k0_hw329 : k0_chk329 v1360), ∀ a x, ((![v1360] : Fin 1 → IVec S16 32) a x).toNat < S32768.size a := fun v1360 k0_hw329 => k0_hw329

def k0_chk330 (v1364 : IVec S16 32) : Prop :=
  (∀ a x, ((![v1364] : Fin 1 → IVec S16 32) a x).toNat < S32768.size a)
instance k0_chk330.dec : ∀ (v1364 : IVec S16 32), Decidable (k0_chk330 v1364) := fun v1364 => decidable_of_iff' _ (Iff.of_eq (k0_chk330.eq_1 v1364))
theorem k0_idx330_inb : ∀ (v1364 : IVec S16 32) (k0_hw330 : k0_chk330 v1364), ∀ a x, ((![v1364] : Fin 1 → IVec S16 32) a x).toNat < S32768.size a := fun v1364 k0_hw330 => k0_hw330

def k0_chk331 (v1368 : IVec S16 32) : Prop :=
  (∀ a x, ((![v1368] : Fin 1 → IVec S16 32) a x).toNat < S32768.size a)
instance k0_chk331.dec : ∀ (v1368 : IVec S16 32), Decidable (k0_chk331 v1368) := fun v1368 => decidable_of_iff' _ (Iff.of_eq (k0_chk331.eq_1 v1368))
theorem k0_idx331_inb : ∀ (v1368 : IVec S16 32) (k0_hw331 : k0_chk331 v1368), ∀ a x, ((![v1368] : Fin 1 → IVec S16 32) a x).toNat < S32768.size a := fun v1368 k0_hw331 => k0_hw331

def k0_chk332 (v1372 : IVec S16 32) : Prop :=
  (∀ a x, ((![v1372] : Fin 1 → IVec S16 32) a x).toNat < S32768.size a)
instance k0_chk332.dec : ∀ (v1372 : IVec S16 32), Decidable (k0_chk332 v1372) := fun v1372 => decidable_of_iff' _ (Iff.of_eq (k0_chk332.eq_1 v1372))
theorem k0_idx332_inb : ∀ (v1372 : IVec S16 32) (k0_hw332 : k0_chk332 v1372), ∀ a x, ((![v1372] : Fin 1 → IVec S16 32) a x).toNat < S32768.size a := fun v1372 k0_hw332 => k0_hw332

def k0_chk333 (v1376 : IVec S16 32) : Prop :=
  (∀ a x, ((![v1376] : Fin 1 → IVec S16 32) a x).toNat < S32768.size a)
instance k0_chk333.dec : ∀ (v1376 : IVec S16 32), Decidable (k0_chk333 v1376) := fun v1376 => decidable_of_iff' _ (Iff.of_eq (k0_chk333.eq_1 v1376))
theorem k0_idx333_inb : ∀ (v1376 : IVec S16 32) (k0_hw333 : k0_chk333 v1376), ∀ a x, ((![v1376] : Fin 1 → IVec S16 32) a x).toNat < S32768.size a := fun v1376 k0_hw333 => k0_hw333

def k0_chk334 (v1380 : IVec S16 32) : Prop :=
  (∀ a x, ((![v1380] : Fin 1 → IVec S16 32) a x).toNat < S32768.size a)
instance k0_chk334.dec : ∀ (v1380 : IVec S16 32), Decidable (k0_chk334 v1380) := fun v1380 => decidable_of_iff' _ (Iff.of_eq (k0_chk334.eq_1 v1380))
theorem k0_idx334_inb : ∀ (v1380 : IVec S16 32) (k0_hw334 : k0_chk334 v1380), ∀ a x, ((![v1380] : Fin 1 → IVec S16 32) a x).toNat < S32768.size a := fun v1380 k0_hw334 => k0_hw334

def k0_chk335 (v1384 : IVec S16 32) : Prop :=
  (∀ a x, ((![v1384] : Fin 1 → IVec S16 32) a x).toNat < S32768.size a)
instance k0_chk335.dec : ∀ (v1384 : IVec S16 32), Decidable (k0_chk335 v1384) := fun v1384 => decidable_of_iff' _ (Iff.of_eq (k0_chk335.eq_1 v1384))
theorem k0_idx335_inb : ∀ (v1384 : IVec S16 32) (k0_hw335 : k0_chk335 v1384), ∀ a x, ((![v1384] : Fin 1 → IVec S16 32) a x).toNat < S32768.size a := fun v1384 k0_hw335 => k0_hw335

def k0_chk336 (v1388 : IVec S16 32) : Prop :=
  (∀ a x, ((![v1388] : Fin 1 → IVec S16 32) a x).toNat < S32768.size a)
instance k0_chk336.dec : ∀ (v1388 : IVec S16 32), Decidable (k0_chk336 v1388) := fun v1388 => decidable_of_iff' _ (Iff.of_eq (k0_chk336.eq_1 v1388))
theorem k0_idx336_inb : ∀ (v1388 : IVec S16 32) (k0_hw336 : k0_chk336 v1388), ∀ a x, ((![v1388] : Fin 1 → IVec S16 32) a x).toNat < S32768.size a := fun v1388 k0_hw336 => k0_hw336

def k0_chk337 (v1392 : IVec S16 32) : Prop :=
  (∀ a x, ((![v1392] : Fin 1 → IVec S16 32) a x).toNat < S32768.size a)
instance k0_chk337.dec : ∀ (v1392 : IVec S16 32), Decidable (k0_chk337 v1392) := fun v1392 => decidable_of_iff' _ (Iff.of_eq (k0_chk337.eq_1 v1392))
theorem k0_idx337_inb : ∀ (v1392 : IVec S16 32) (k0_hw337 : k0_chk337 v1392), ∀ a x, ((![v1392] : Fin 1 → IVec S16 32) a x).toNat < S32768.size a := fun v1392 k0_hw337 => k0_hw337

def k0_chk338 (v1396 : IVec S16 32) : Prop :=
  (∀ a x, ((![v1396] : Fin 1 → IVec S16 32) a x).toNat < S32768.size a)
instance k0_chk338.dec : ∀ (v1396 : IVec S16 32), Decidable (k0_chk338 v1396) := fun v1396 => decidable_of_iff' _ (Iff.of_eq (k0_chk338.eq_1 v1396))
theorem k0_idx338_inb : ∀ (v1396 : IVec S16 32) (k0_hw338 : k0_chk338 v1396), ∀ a x, ((![v1396] : Fin 1 → IVec S16 32) a x).toNat < S32768.size a := fun v1396 k0_hw338 => k0_hw338

def k0_chk339 (v1400 : IVec S16 32) : Prop :=
  (∀ a x, ((![v1400] : Fin 1 → IVec S16 32) a x).toNat < S32768.size a)
instance k0_chk339.dec : ∀ (v1400 : IVec S16 32), Decidable (k0_chk339 v1400) := fun v1400 => decidable_of_iff' _ (Iff.of_eq (k0_chk339.eq_1 v1400))
theorem k0_idx339_inb : ∀ (v1400 : IVec S16 32) (k0_hw339 : k0_chk339 v1400), ∀ a x, ((![v1400] : Fin 1 → IVec S16 32) a x).toNat < S32768.size a := fun v1400 k0_hw339 => k0_hw339

def k0_chk340 (v1404 : IVec S16 32) : Prop :=
  (∀ a x, ((![v1404] : Fin 1 → IVec S16 32) a x).toNat < S32768.size a)
instance k0_chk340.dec : ∀ (v1404 : IVec S16 32), Decidable (k0_chk340 v1404) := fun v1404 => decidable_of_iff' _ (Iff.of_eq (k0_chk340.eq_1 v1404))
theorem k0_idx340_inb : ∀ (v1404 : IVec S16 32) (k0_hw340 : k0_chk340 v1404), ∀ a x, ((![v1404] : Fin 1 → IVec S16 32) a x).toNat < S32768.size a := fun v1404 k0_hw340 => k0_hw340

def k0_chk341 (v1408 : IVec S16 32) : Prop :=
  (∀ a x, ((![v1408] : Fin 1 → IVec S16 32) a x).toNat < S32768.size a)
instance k0_chk341.dec : ∀ (v1408 : IVec S16 32), Decidable (k0_chk341 v1408) := fun v1408 => decidable_of_iff' _ (Iff.of_eq (k0_chk341.eq_1 v1408))
theorem k0_idx341_inb : ∀ (v1408 : IVec S16 32) (k0_hw341 : k0_chk341 v1408), ∀ a x, ((![v1408] : Fin 1 → IVec S16 32) a x).toNat < S32768.size a := fun v1408 k0_hw341 => k0_hw341

def k0_chk342 (v1412 : IVec S16 32) : Prop :=
  (∀ a x, ((![v1412] : Fin 1 → IVec S16 32) a x).toNat < S32768.size a)
instance k0_chk342.dec : ∀ (v1412 : IVec S16 32), Decidable (k0_chk342 v1412) := fun v1412 => decidable_of_iff' _ (Iff.of_eq (k0_chk342.eq_1 v1412))
theorem k0_idx342_inb : ∀ (v1412 : IVec S16 32) (k0_hw342 : k0_chk342 v1412), ∀ a x, ((![v1412] : Fin 1 → IVec S16 32) a x).toNat < S32768.size a := fun v1412 k0_hw342 => k0_hw342

def k0_chk343 (v1416 : IVec S16 32) : Prop :=
  (∀ a x, ((![v1416] : Fin 1 → IVec S16 32) a x).toNat < S32768.size a)
instance k0_chk343.dec : ∀ (v1416 : IVec S16 32), Decidable (k0_chk343 v1416) := fun v1416 => decidable_of_iff' _ (Iff.of_eq (k0_chk343.eq_1 v1416))
theorem k0_idx343_inb : ∀ (v1416 : IVec S16 32) (k0_hw343 : k0_chk343 v1416), ∀ a x, ((![v1416] : Fin 1 → IVec S16 32) a x).toNat < S32768.size a := fun v1416 k0_hw343 => k0_hw343

def k0_chk344 (v1420 : IVec S16 32) : Prop :=
  (∀ a x, ((![v1420] : Fin 1 → IVec S16 32) a x).toNat < S32768.size a)
instance k0_chk344.dec : ∀ (v1420 : IVec S16 32), Decidable (k0_chk344 v1420) := fun v1420 => decidable_of_iff' _ (Iff.of_eq (k0_chk344.eq_1 v1420))
theorem k0_idx344_inb : ∀ (v1420 : IVec S16 32) (k0_hw344 : k0_chk344 v1420), ∀ a x, ((![v1420] : Fin 1 → IVec S16 32) a x).toNat < S32768.size a := fun v1420 k0_hw344 => k0_hw344

def k0_chk345 (v1424 : IVec S16 32) : Prop :=
  (∀ a x, ((![v1424] : Fin 1 → IVec S16 32) a x).toNat < S32768.size a)
instance k0_chk345.dec : ∀ (v1424 : IVec S16 32), Decidable (k0_chk345 v1424) := fun v1424 => decidable_of_iff' _ (Iff.of_eq (k0_chk345.eq_1 v1424))
theorem k0_idx345_inb : ∀ (v1424 : IVec S16 32) (k0_hw345 : k0_chk345 v1424), ∀ a x, ((![v1424] : Fin 1 → IVec S16 32) a x).toNat < S32768.size a := fun v1424 k0_hw345 => k0_hw345

def k0_chk346 (v1428 : IVec S16 32) : Prop :=
  (∀ a x, ((![v1428] : Fin 1 → IVec S16 32) a x).toNat < S32768.size a)
instance k0_chk346.dec : ∀ (v1428 : IVec S16 32), Decidable (k0_chk346 v1428) := fun v1428 => decidable_of_iff' _ (Iff.of_eq (k0_chk346.eq_1 v1428))
theorem k0_idx346_inb : ∀ (v1428 : IVec S16 32) (k0_hw346 : k0_chk346 v1428), ∀ a x, ((![v1428] : Fin 1 → IVec S16 32) a x).toNat < S32768.size a := fun v1428 k0_hw346 => k0_hw346

def k0_chk347 (v1432 : IVec S16 32) : Prop :=
  (∀ a x, ((![v1432] : Fin 1 → IVec S16 32) a x).toNat < S32768.size a)
instance k0_chk347.dec : ∀ (v1432 : IVec S16 32), Decidable (k0_chk347 v1432) := fun v1432 => decidable_of_iff' _ (Iff.of_eq (k0_chk347.eq_1 v1432))
theorem k0_idx347_inb : ∀ (v1432 : IVec S16 32) (k0_hw347 : k0_chk347 v1432), ∀ a x, ((![v1432] : Fin 1 → IVec S16 32) a x).toNat < S32768.size a := fun v1432 k0_hw347 => k0_hw347

def k0_chk348 (v1436 : IVec S16 32) : Prop :=
  (∀ a x, ((![v1436] : Fin 1 → IVec S16 32) a x).toNat < S32768.size a)
instance k0_chk348.dec : ∀ (v1436 : IVec S16 32), Decidable (k0_chk348 v1436) := fun v1436 => decidable_of_iff' _ (Iff.of_eq (k0_chk348.eq_1 v1436))
theorem k0_idx348_inb : ∀ (v1436 : IVec S16 32) (k0_hw348 : k0_chk348 v1436), ∀ a x, ((![v1436] : Fin 1 → IVec S16 32) a x).toNat < S32768.size a := fun v1436 k0_hw348 => k0_hw348

def k0_chk349 (v1440 : IVec S16 32) : Prop :=
  (∀ a x, ((![v1440] : Fin 1 → IVec S16 32) a x).toNat < S32768.size a)
instance k0_chk349.dec : ∀ (v1440 : IVec S16 32), Decidable (k0_chk349 v1440) := fun v1440 => decidable_of_iff' _ (Iff.of_eq (k0_chk349.eq_1 v1440))
theorem k0_idx349_inb : ∀ (v1440 : IVec S16 32) (k0_hw349 : k0_chk349 v1440), ∀ a x, ((![v1440] : Fin 1 → IVec S16 32) a x).toNat < S32768.size a := fun v1440 k0_hw349 => k0_hw349

def k0_chk350 (v1444 : IVec S16 32) : Prop :=
  (∀ a x, ((![v1444] : Fin 1 → IVec S16 32) a x).toNat < S32768.size a)
instance k0_chk350.dec : ∀ (v1444 : IVec S16 32), Decidable (k0_chk350 v1444) := fun v1444 => decidable_of_iff' _ (Iff.of_eq (k0_chk350.eq_1 v1444))
theorem k0_idx350_inb : ∀ (v1444 : IVec S16 32) (k0_hw350 : k0_chk350 v1444), ∀ a x, ((![v1444] : Fin 1 → IVec S16 32) a x).toNat < S32768.size a := fun v1444 k0_hw350 => k0_hw350

def k0_chk351 (v1448 : IVec S16 32) : Prop :=
  (∀ a x, ((![v1448] : Fin 1 → IVec S16 32) a x).toNat < S32768.size a)
instance k0_chk351.dec : ∀ (v1448 : IVec S16 32), Decidable (k0_chk351 v1448) := fun v1448 => decidable_of_iff' _ (Iff.of_eq (k0_chk351.eq_1 v1448))
theorem k0_idx351_inb : ∀ (v1448 : IVec S16 32) (k0_hw351 : k0_chk351 v1448), ∀ a x, ((![v1448] : Fin 1 → IVec S16 32) a x).toNat < S32768.size a := fun v1448 k0_hw351 => k0_hw351

def k0_chk352 (v1452 : IVec S16 32) : Prop :=
  (∀ a x, ((![v1452] : Fin 1 → IVec S16 32) a x).toNat < S32768.size a)
instance k0_chk352.dec : ∀ (v1452 : IVec S16 32), Decidable (k0_chk352 v1452) := fun v1452 => decidable_of_iff' _ (Iff.of_eq (k0_chk352.eq_1 v1452))
theorem k0_idx352_inb : ∀ (v1452 : IVec S16 32) (k0_hw352 : k0_chk352 v1452), ∀ a x, ((![v1452] : Fin 1 → IVec S16 32) a x).toNat < S32768.size a := fun v1452 k0_hw352 => k0_hw352

def k0_chk353 (v1456 : IVec S16 32) : Prop :=
  (∀ a x, ((![v1456] : Fin 1 → IVec S16 32) a x).toNat < S32768.size a)
instance k0_chk353.dec : ∀ (v1456 : IVec S16 32), Decidable (k0_chk353 v1456) := fun v1456 => decidable_of_iff' _ (Iff.of_eq (k0_chk353.eq_1 v1456))
theorem k0_idx353_inb : ∀ (v1456 : IVec S16 32) (k0_hw353 : k0_chk353 v1456), ∀ a x, ((![v1456] : Fin 1 → IVec S16 32) a x).toNat < S32768.size a := fun v1456 k0_hw353 => k0_hw353

def k0_chk354 (v1460 : IVec S16 32) : Prop :=
  (∀ a x, ((![v1460] : Fin 1 → IVec S16 32) a x).toNat < S32768.size a)
instance k0_chk354.dec : ∀ (v1460 : IVec S16 32), Decidable (k0_chk354 v1460) := fun v1460 => decidable_of_iff' _ (Iff.of_eq (k0_chk354.eq_1 v1460))
theorem k0_idx354_inb : ∀ (v1460 : IVec S16 32) (k0_hw354 : k0_chk354 v1460), ∀ a x, ((![v1460] : Fin 1 → IVec S16 32) a x).toNat < S32768.size a := fun v1460 k0_hw354 => k0_hw354

def k0_chk355 (v1464 : IVec S16 32) : Prop :=
  (∀ a x, ((![v1464] : Fin 1 → IVec S16 32) a x).toNat < S32768.size a)
instance k0_chk355.dec : ∀ (v1464 : IVec S16 32), Decidable (k0_chk355 v1464) := fun v1464 => decidable_of_iff' _ (Iff.of_eq (k0_chk355.eq_1 v1464))
theorem k0_idx355_inb : ∀ (v1464 : IVec S16 32) (k0_hw355 : k0_chk355 v1464), ∀ a x, ((![v1464] : Fin 1 → IVec S16 32) a x).toNat < S32768.size a := fun v1464 k0_hw355 => k0_hw355

def k0_chk356 (v1468 : IVec S16 32) : Prop :=
  (∀ a x, ((![v1468] : Fin 1 → IVec S16 32) a x).toNat < S32768.size a)
instance k0_chk356.dec : ∀ (v1468 : IVec S16 32), Decidable (k0_chk356 v1468) := fun v1468 => decidable_of_iff' _ (Iff.of_eq (k0_chk356.eq_1 v1468))
theorem k0_idx356_inb : ∀ (v1468 : IVec S16 32) (k0_hw356 : k0_chk356 v1468), ∀ a x, ((![v1468] : Fin 1 → IVec S16 32) a x).toNat < S32768.size a := fun v1468 k0_hw356 => k0_hw356

def k0_chk357 (v1472 : IVec S16 32) : Prop :=
  (∀ a x, ((![v1472] : Fin 1 → IVec S16 32) a x).toNat < S32768.size a)
instance k0_chk357.dec : ∀ (v1472 : IVec S16 32), Decidable (k0_chk357 v1472) := fun v1472 => decidable_of_iff' _ (Iff.of_eq (k0_chk357.eq_1 v1472))
theorem k0_idx357_inb : ∀ (v1472 : IVec S16 32) (k0_hw357 : k0_chk357 v1472), ∀ a x, ((![v1472] : Fin 1 → IVec S16 32) a x).toNat < S32768.size a := fun v1472 k0_hw357 => k0_hw357

def k0_chk358 (v1476 : IVec S16 32) : Prop :=
  (∀ a x, ((![v1476] : Fin 1 → IVec S16 32) a x).toNat < S32768.size a)
instance k0_chk358.dec : ∀ (v1476 : IVec S16 32), Decidable (k0_chk358 v1476) := fun v1476 => decidable_of_iff' _ (Iff.of_eq (k0_chk358.eq_1 v1476))
theorem k0_idx358_inb : ∀ (v1476 : IVec S16 32) (k0_hw358 : k0_chk358 v1476), ∀ a x, ((![v1476] : Fin 1 → IVec S16 32) a x).toNat < S32768.size a := fun v1476 k0_hw358 => k0_hw358

def k0_chk359 (v1480 : IVec S16 32) : Prop :=
  (∀ a x, ((![v1480] : Fin 1 → IVec S16 32) a x).toNat < S32768.size a)
instance k0_chk359.dec : ∀ (v1480 : IVec S16 32), Decidable (k0_chk359 v1480) := fun v1480 => decidable_of_iff' _ (Iff.of_eq (k0_chk359.eq_1 v1480))
theorem k0_idx359_inb : ∀ (v1480 : IVec S16 32) (k0_hw359 : k0_chk359 v1480), ∀ a x, ((![v1480] : Fin 1 → IVec S16 32) a x).toNat < S32768.size a := fun v1480 k0_hw359 => k0_hw359

def k0_chk360 (v1484 : IVec S16 32) : Prop :=
  (∀ a x, ((![v1484] : Fin 1 → IVec S16 32) a x).toNat < S32768.size a)
instance k0_chk360.dec : ∀ (v1484 : IVec S16 32), Decidable (k0_chk360 v1484) := fun v1484 => decidable_of_iff' _ (Iff.of_eq (k0_chk360.eq_1 v1484))
theorem k0_idx360_inb : ∀ (v1484 : IVec S16 32) (k0_hw360 : k0_chk360 v1484), ∀ a x, ((![v1484] : Fin 1 → IVec S16 32) a x).toNat < S32768.size a := fun v1484 k0_hw360 => k0_hw360

def k0_chk361 (v1488 : IVec S16 32) : Prop :=
  (∀ a x, ((![v1488] : Fin 1 → IVec S16 32) a x).toNat < S32768.size a)
instance k0_chk361.dec : ∀ (v1488 : IVec S16 32), Decidable (k0_chk361 v1488) := fun v1488 => decidable_of_iff' _ (Iff.of_eq (k0_chk361.eq_1 v1488))
theorem k0_idx361_inb : ∀ (v1488 : IVec S16 32) (k0_hw361 : k0_chk361 v1488), ∀ a x, ((![v1488] : Fin 1 → IVec S16 32) a x).toNat < S32768.size a := fun v1488 k0_hw361 => k0_hw361

def k0_chk362 (v1492 : IVec S16 32) : Prop :=
  (∀ a x, ((![v1492] : Fin 1 → IVec S16 32) a x).toNat < S32768.size a)
instance k0_chk362.dec : ∀ (v1492 : IVec S16 32), Decidable (k0_chk362 v1492) := fun v1492 => decidable_of_iff' _ (Iff.of_eq (k0_chk362.eq_1 v1492))
theorem k0_idx362_inb : ∀ (v1492 : IVec S16 32) (k0_hw362 : k0_chk362 v1492), ∀ a x, ((![v1492] : Fin 1 → IVec S16 32) a x).toNat < S32768.size a := fun v1492 k0_hw362 => k0_hw362

def k0_chk363 (v1496 : IVec S16 32) : Prop :=
  (∀ a x, ((![v1496] : Fin 1 → IVec S16 32) a x).toNat < S32768.size a)
instance k0_chk363.dec : ∀ (v1496 : IVec S16 32), Decidable (k0_chk363 v1496) := fun v1496 => decidable_of_iff' _ (Iff.of_eq (k0_chk363.eq_1 v1496))
theorem k0_idx363_inb : ∀ (v1496 : IVec S16 32) (k0_hw363 : k0_chk363 v1496), ∀ a x, ((![v1496] : Fin 1 → IVec S16 32) a x).toNat < S32768.size a := fun v1496 k0_hw363 => k0_hw363

def k0_chk364 (v1500 : IVec S16 32) : Prop :=
  (∀ a x, ((![v1500] : Fin 1 → IVec S16 32) a x).toNat < S32768.size a)
instance k0_chk364.dec : ∀ (v1500 : IVec S16 32), Decidable (k0_chk364 v1500) := fun v1500 => decidable_of_iff' _ (Iff.of_eq (k0_chk364.eq_1 v1500))
theorem k0_idx364_inb : ∀ (v1500 : IVec S16 32) (k0_hw364 : k0_chk364 v1500), ∀ a x, ((![v1500] : Fin 1 → IVec S16 32) a x).toNat < S32768.size a := fun v1500 k0_hw364 => k0_hw364

def k0_chk365 (v1504 : IVec S16 32) : Prop :=
  (∀ a x, ((![v1504] : Fin 1 → IVec S16 32) a x).toNat < S32768.size a)
instance k0_chk365.dec : ∀ (v1504 : IVec S16 32), Decidable (k0_chk365 v1504) := fun v1504 => decidable_of_iff' _ (Iff.of_eq (k0_chk365.eq_1 v1504))
theorem k0_idx365_inb : ∀ (v1504 : IVec S16 32) (k0_hw365 : k0_chk365 v1504), ∀ a x, ((![v1504] : Fin 1 → IVec S16 32) a x).toNat < S32768.size a := fun v1504 k0_hw365 => k0_hw365

def k0_chk366 (v1508 : IVec S16 32) : Prop :=
  (∀ a x, ((![v1508] : Fin 1 → IVec S16 32) a x).toNat < S32768.size a)
instance k0_chk366.dec : ∀ (v1508 : IVec S16 32), Decidable (k0_chk366 v1508) := fun v1508 => decidable_of_iff' _ (Iff.of_eq (k0_chk366.eq_1 v1508))
theorem k0_idx366_inb : ∀ (v1508 : IVec S16 32) (k0_hw366 : k0_chk366 v1508), ∀ a x, ((![v1508] : Fin 1 → IVec S16 32) a x).toNat < S32768.size a := fun v1508 k0_hw366 => k0_hw366

def k0_chk367 (v1512 : IVec S16 32) : Prop :=
  (∀ a x, ((![v1512] : Fin 1 → IVec S16 32) a x).toNat < S32768.size a)
instance k0_chk367.dec : ∀ (v1512 : IVec S16 32), Decidable (k0_chk367 v1512) := fun v1512 => decidable_of_iff' _ (Iff.of_eq (k0_chk367.eq_1 v1512))
theorem k0_idx367_inb : ∀ (v1512 : IVec S16 32) (k0_hw367 : k0_chk367 v1512), ∀ a x, ((![v1512] : Fin 1 → IVec S16 32) a x).toNat < S32768.size a := fun v1512 k0_hw367 => k0_hw367

def k0_chk368 (v1516 : IVec S16 32) : Prop :=
  (∀ a x, ((![v1516] : Fin 1 → IVec S16 32) a x).toNat < S32768.size a)
instance k0_chk368.dec : ∀ (v1516 : IVec S16 32), Decidable (k0_chk368 v1516) := fun v1516 => decidable_of_iff' _ (Iff.of_eq (k0_chk368.eq_1 v1516))
theorem k0_idx368_inb : ∀ (v1516 : IVec S16 32) (k0_hw368 : k0_chk368 v1516), ∀ a x, ((![v1516] : Fin 1 → IVec S16 32) a x).toNat < S32768.size a := fun v1516 k0_hw368 => k0_hw368

def k0_chk369 (v1520 : IVec S16 32) : Prop :=
  (∀ a x, ((![v1520] : Fin 1 → IVec S16 32) a x).toNat < S32768.size a)
instance k0_chk369.dec : ∀ (v1520 : IVec S16 32), Decidable (k0_chk369 v1520) := fun v1520 => decidable_of_iff' _ (Iff.of_eq (k0_chk369.eq_1 v1520))
theorem k0_idx369_inb : ∀ (v1520 : IVec S16 32) (k0_hw369 : k0_chk369 v1520), ∀ a x, ((![v1520] : Fin 1 → IVec S16 32) a x).toNat < S32768.size a := fun v1520 k0_hw369 => k0_hw369

def k0_chk370 (v1524 : IVec S16 32) : Prop :=
  (∀ a x, ((![v1524] : Fin 1 → IVec S16 32) a x).toNat < S32768.size a)
instance k0_chk370.dec : ∀ (v1524 : IVec S16 32), Decidable (k0_chk370 v1524) := fun v1524 => decidable_of_iff' _ (Iff.of_eq (k0_chk370.eq_1 v1524))
theorem k0_idx370_inb : ∀ (v1524 : IVec S16 32) (k0_hw370 : k0_chk370 v1524), ∀ a x, ((![v1524] : Fin 1 → IVec S16 32) a x).toNat < S32768.size a := fun v1524 k0_hw370 => k0_hw370

def k0_chk371 (v1528 : IVec S16 32) : Prop :=
  (∀ a x, ((![v1528] : Fin 1 → IVec S16 32) a x).toNat < S32768.size a)
instance k0_chk371.dec : ∀ (v1528 : IVec S16 32), Decidable (k0_chk371 v1528) := fun v1528 => decidable_of_iff' _ (Iff.of_eq (k0_chk371.eq_1 v1528))
theorem k0_idx371_inb : ∀ (v1528 : IVec S16 32) (k0_hw371 : k0_chk371 v1528), ∀ a x, ((![v1528] : Fin 1 → IVec S16 32) a x).toNat < S32768.size a := fun v1528 k0_hw371 => k0_hw371

def k0_chk372 (v1532 : IVec S16 32) : Prop :=
  (∀ a x, ((![v1532] : Fin 1 → IVec S16 32) a x).toNat < S32768.size a)
instance k0_chk372.dec : ∀ (v1532 : IVec S16 32), Decidable (k0_chk372 v1532) := fun v1532 => decidable_of_iff' _ (Iff.of_eq (k0_chk372.eq_1 v1532))
theorem k0_idx372_inb : ∀ (v1532 : IVec S16 32) (k0_hw372 : k0_chk372 v1532), ∀ a x, ((![v1532] : Fin 1 → IVec S16 32) a x).toNat < S32768.size a := fun v1532 k0_hw372 => k0_hw372

def k0_chk373 (v1536 : IVec S16 32) : Prop :=
  (∀ a x, ((![v1536] : Fin 1 → IVec S16 32) a x).toNat < S32768.size a)
instance k0_chk373.dec : ∀ (v1536 : IVec S16 32), Decidable (k0_chk373 v1536) := fun v1536 => decidable_of_iff' _ (Iff.of_eq (k0_chk373.eq_1 v1536))
theorem k0_idx373_inb : ∀ (v1536 : IVec S16 32) (k0_hw373 : k0_chk373 v1536), ∀ a x, ((![v1536] : Fin 1 → IVec S16 32) a x).toNat < S32768.size a := fun v1536 k0_hw373 => k0_hw373

def k0_chk374 (v1540 : IVec S16 32) : Prop :=
  (∀ a x, ((![v1540] : Fin 1 → IVec S16 32) a x).toNat < S32768.size a)
instance k0_chk374.dec : ∀ (v1540 : IVec S16 32), Decidable (k0_chk374 v1540) := fun v1540 => decidable_of_iff' _ (Iff.of_eq (k0_chk374.eq_1 v1540))
theorem k0_idx374_inb : ∀ (v1540 : IVec S16 32) (k0_hw374 : k0_chk374 v1540), ∀ a x, ((![v1540] : Fin 1 → IVec S16 32) a x).toNat < S32768.size a := fun v1540 k0_hw374 => k0_hw374

def k0_chk375 (v1544 : IVec S16 32) : Prop :=
  (∀ a x, ((![v1544] : Fin 1 → IVec S16 32) a x).toNat < S32768.size a)
instance k0_chk375.dec : ∀ (v1544 : IVec S16 32), Decidable (k0_chk375 v1544) := fun v1544 => decidable_of_iff' _ (Iff.of_eq (k0_chk375.eq_1 v1544))
theorem k0_idx375_inb : ∀ (v1544 : IVec S16 32) (k0_hw375 : k0_chk375 v1544), ∀ a x, ((![v1544] : Fin 1 → IVec S16 32) a x).toNat < S32768.size a := fun v1544 k0_hw375 => k0_hw375

def k0_chk376 (v1548 : IVec S16 32) : Prop :=
  (∀ a x, ((![v1548] : Fin 1 → IVec S16 32) a x).toNat < S32768.size a)
instance k0_chk376.dec : ∀ (v1548 : IVec S16 32), Decidable (k0_chk376 v1548) := fun v1548 => decidable_of_iff' _ (Iff.of_eq (k0_chk376.eq_1 v1548))
theorem k0_idx376_inb : ∀ (v1548 : IVec S16 32) (k0_hw376 : k0_chk376 v1548), ∀ a x, ((![v1548] : Fin 1 → IVec S16 32) a x).toNat < S32768.size a := fun v1548 k0_hw376 => k0_hw376

def k0_chk377 (v1552 : IVec S16 32) : Prop :=
  (∀ a x, ((![v1552] : Fin 1 → IVec S16 32) a x).toNat < S32768.size a)
instance k0_chk377.dec : ∀ (v1552 : IVec S16 32), Decidable (k0_chk377 v1552) := fun v1552 => decidable_of_iff' _ (Iff.of_eq (k0_chk377.eq_1 v1552))
theorem k0_idx377_inb : ∀ (v1552 : IVec S16 32) (k0_hw377 : k0_chk377 v1552), ∀ a x, ((![v1552] : Fin 1 → IVec S16 32) a x).toNat < S32768.size a := fun v1552 k0_hw377 => k0_hw377

def k0_chk378 (v1556 : IVec S16 32) : Prop :=
  (∀ a x, ((![v1556] : Fin 1 → IVec S16 32) a x).toNat < S32768.size a)
instance k0_chk378.dec : ∀ (v1556 : IVec S16 32), Decidable (k0_chk378 v1556) := fun v1556 => decidable_of_iff' _ (Iff.of_eq (k0_chk378.eq_1 v1556))
theorem k0_idx378_inb : ∀ (v1556 : IVec S16 32) (k0_hw378 : k0_chk378 v1556), ∀ a x, ((![v1556] : Fin 1 → IVec S16 32) a x).toNat < S32768.size a := fun v1556 k0_hw378 => k0_hw378

def k0_chk379 (v1560 : IVec S16 32) : Prop :=
  (∀ a x, ((![v1560] : Fin 1 → IVec S16 32) a x).toNat < S32768.size a)
instance k0_chk379.dec : ∀ (v1560 : IVec S16 32), Decidable (k0_chk379 v1560) := fun v1560 => decidable_of_iff' _ (Iff.of_eq (k0_chk379.eq_1 v1560))
theorem k0_idx379_inb : ∀ (v1560 : IVec S16 32) (k0_hw379 : k0_chk379 v1560), ∀ a x, ((![v1560] : Fin 1 → IVec S16 32) a x).toNat < S32768.size a := fun v1560 k0_hw379 => k0_hw379

def k0_chk380 (v1564 : IVec S16 32) : Prop :=
  (∀ a x, ((![v1564] : Fin 1 → IVec S16 32) a x).toNat < S32768.size a)
instance k0_chk380.dec : ∀ (v1564 : IVec S16 32), Decidable (k0_chk380 v1564) := fun v1564 => decidable_of_iff' _ (Iff.of_eq (k0_chk380.eq_1 v1564))
theorem k0_idx380_inb : ∀ (v1564 : IVec S16 32) (k0_hw380 : k0_chk380 v1564), ∀ a x, ((![v1564] : Fin 1 → IVec S16 32) a x).toNat < S32768.size a := fun v1564 k0_hw380 => k0_hw380

def k0_chk381 (v1568 : IVec S16 32) : Prop :=
  (∀ a x, ((![v1568] : Fin 1 → IVec S16 32) a x).toNat < S32768.size a)
instance k0_chk381.dec : ∀ (v1568 : IVec S16 32), Decidable (k0_chk381 v1568) := fun v1568 => decidable_of_iff' _ (Iff.of_eq (k0_chk381.eq_1 v1568))
theorem k0_idx381_inb : ∀ (v1568 : IVec S16 32) (k0_hw381 : k0_chk381 v1568), ∀ a x, ((![v1568] : Fin 1 → IVec S16 32) a x).toNat < S32768.size a := fun v1568 k0_hw381 => k0_hw381

def k0_chk382 (v1572 : IVec S16 32) : Prop :=
  (∀ a x, ((![v1572] : Fin 1 → IVec S16 32) a x).toNat < S32768.size a)
instance k0_chk382.dec : ∀ (v1572 : IVec S16 32), Decidable (k0_chk382 v1572) := fun v1572 => decidable_of_iff' _ (Iff.of_eq (k0_chk382.eq_1 v1572))
theorem k0_idx382_inb : ∀ (v1572 : IVec S16 32) (k0_hw382 : k0_chk382 v1572), ∀ a x, ((![v1572] : Fin 1 → IVec S16 32) a x).toNat < S32768.size a := fun v1572 k0_hw382 => k0_hw382

def k0_chk383 (v1576 : IVec S16 32) : Prop :=
  (∀ a x, ((![v1576] : Fin 1 → IVec S16 32) a x).toNat < S32768.size a)
instance k0_chk383.dec : ∀ (v1576 : IVec S16 32), Decidable (k0_chk383 v1576) := fun v1576 => decidable_of_iff' _ (Iff.of_eq (k0_chk383.eq_1 v1576))
theorem k0_idx383_inb : ∀ (v1576 : IVec S16 32) (k0_hw383 : k0_chk383 v1576), ∀ a x, ((![v1576] : Fin 1 → IVec S16 32) a x).toNat < S32768.size a := fun v1576 k0_hw383 => k0_hw383

def k0_chk384 (v1580 : IVec S16 32) : Prop :=
  (∀ a x, ((![v1580] : Fin 1 → IVec S16 32) a x).toNat < S32768.size a)
instance k0_chk384.dec : ∀ (v1580 : IVec S16 32), Decidable (k0_chk384 v1580) := fun v1580 => decidable_of_iff' _ (Iff.of_eq (k0_chk384.eq_1 v1580))
theorem k0_idx384_inb : ∀ (v1580 : IVec S16 32) (k0_hw384 : k0_chk384 v1580), ∀ a x, ((![v1580] : Fin 1 → IVec S16 32) a x).toNat < S32768.size a := fun v1580 k0_hw384 => k0_hw384

def k0_chk385 (v1586 : IVec S16 32) : Prop :=
  (∀ a x, ((![v1586] : Fin 1 → IVec S16 32) a x).toNat < S32768.size a)
instance k0_chk385.dec : ∀ (v1586 : IVec S16 32), Decidable (k0_chk385 v1586) := fun v1586 => decidable_of_iff' _ (Iff.of_eq (k0_chk385.eq_1 v1586))
theorem k0_idx385_inb : ∀ (v1586 : IVec S16 32) (k0_hw385 : k0_chk385 v1586), ∀ a x, ((![v1586] : Fin 1 → IVec S16 32) a x).toNat < S32768.size a := fun v1586 k0_hw385 => k0_hw385

def k0_chk386 (v1590 : IVec S16 32) : Prop :=
  (∀ a x, ((![v1590] : Fin 1 → IVec S16 32) a x).toNat < S32768.size a)
instance k0_chk386.dec : ∀ (v1590 : IVec S16 32), Decidable (k0_chk386 v1590) := fun v1590 => decidable_of_iff' _ (Iff.of_eq (k0_chk386.eq_1 v1590))
theorem k0_idx386_inb : ∀ (v1590 : IVec S16 32) (k0_hw386 : k0_chk386 v1590), ∀ a x, ((![v1590] : Fin 1 → IVec S16 32) a x).toNat < S32768.size a := fun v1590 k0_hw386 => k0_hw386

def k0_chk387 (v1594 : IVec S16 32) : Prop :=
  (∀ a x, ((![v1594] : Fin 1 → IVec S16 32) a x).toNat < S32768.size a)
instance k0_chk387.dec : ∀ (v1594 : IVec S16 32), Decidable (k0_chk387 v1594) := fun v1594 => decidable_of_iff' _ (Iff.of_eq (k0_chk387.eq_1 v1594))
theorem k0_idx387_inb : ∀ (v1594 : IVec S16 32) (k0_hw387 : k0_chk387 v1594), ∀ a x, ((![v1594] : Fin 1 → IVec S16 32) a x).toNat < S32768.size a := fun v1594 k0_hw387 => k0_hw387

def k0_chk388 (v1598 : IVec S16 32) : Prop :=
  (∀ a x, ((![v1598] : Fin 1 → IVec S16 32) a x).toNat < S32768.size a)
instance k0_chk388.dec : ∀ (v1598 : IVec S16 32), Decidable (k0_chk388 v1598) := fun v1598 => decidable_of_iff' _ (Iff.of_eq (k0_chk388.eq_1 v1598))
theorem k0_idx388_inb : ∀ (v1598 : IVec S16 32) (k0_hw388 : k0_chk388 v1598), ∀ a x, ((![v1598] : Fin 1 → IVec S16 32) a x).toNat < S32768.size a := fun v1598 k0_hw388 => k0_hw388

def k0_chk389 (v1602 : IVec S16 32) : Prop :=
  (∀ a x, ((![v1602] : Fin 1 → IVec S16 32) a x).toNat < S32768.size a)
instance k0_chk389.dec : ∀ (v1602 : IVec S16 32), Decidable (k0_chk389 v1602) := fun v1602 => decidable_of_iff' _ (Iff.of_eq (k0_chk389.eq_1 v1602))
theorem k0_idx389_inb : ∀ (v1602 : IVec S16 32) (k0_hw389 : k0_chk389 v1602), ∀ a x, ((![v1602] : Fin 1 → IVec S16 32) a x).toNat < S32768.size a := fun v1602 k0_hw389 => k0_hw389

def k0_chk390 (v1606 : IVec S16 32) : Prop :=
  (∀ a x, ((![v1606] : Fin 1 → IVec S16 32) a x).toNat < S32768.size a)
instance k0_chk390.dec : ∀ (v1606 : IVec S16 32), Decidable (k0_chk390 v1606) := fun v1606 => decidable_of_iff' _ (Iff.of_eq (k0_chk390.eq_1 v1606))
theorem k0_idx390_inb : ∀ (v1606 : IVec S16 32) (k0_hw390 : k0_chk390 v1606), ∀ a x, ((![v1606] : Fin 1 → IVec S16 32) a x).toNat < S32768.size a := fun v1606 k0_hw390 => k0_hw390

def k0_chk391 (v1610 : IVec S16 32) : Prop :=
  (∀ a x, ((![v1610] : Fin 1 → IVec S16 32) a x).toNat < S32768.size a)
instance k0_chk391.dec : ∀ (v1610 : IVec S16 32), Decidable (k0_chk391 v1610) := fun v1610 => decidable_of_iff' _ (Iff.of_eq (k0_chk391.eq_1 v1610))
theorem k0_idx391_inb : ∀ (v1610 : IVec S16 32) (k0_hw391 : k0_chk391 v1610), ∀ a x, ((![v1610] : Fin 1 → IVec S16 32) a x).toNat < S32768.size a := fun v1610 k0_hw391 => k0_hw391

def k0_chk392 (v1614 : IVec S16 32) : Prop :=
  (∀ a x, ((![v1614] : Fin 1 → IVec S16 32) a x).toNat < S32768.size a)
instance k0_chk392.dec : ∀ (v1614 : IVec S16 32), Decidable (k0_chk392 v1614) := fun v1614 => decidable_of_iff' _ (Iff.of_eq (k0_chk392.eq_1 v1614))
theorem k0_idx392_inb : ∀ (v1614 : IVec S16 32) (k0_hw392 : k0_chk392 v1614), ∀ a x, ((![v1614] : Fin 1 → IVec S16 32) a x).toNat < S32768.size a := fun v1614 k0_hw392 => k0_hw392

def k0_chk393 (v1618 : IVec S16 32) : Prop :=
  (∀ a x, ((![v1618] : Fin 1 → IVec S16 32) a x).toNat < S32768.size a)
instance k0_chk393.dec : ∀ (v1618 : IVec S16 32), Decidable (k0_chk393 v1618) := fun v1618 => decidable_of_iff' _ (Iff.of_eq (k0_chk393.eq_1 v1618))
theorem k0_idx393_inb : ∀ (v1618 : IVec S16 32) (k0_hw393 : k0_chk393 v1618), ∀ a x, ((![v1618] : Fin 1 → IVec S16 32) a x).toNat < S32768.size a := fun v1618 k0_hw393 => k0_hw393

def k0_chk394 (v1622 : IVec S16 32) : Prop :=
  (∀ a x, ((![v1622] : Fin 1 → IVec S16 32) a x).toNat < S32768.size a)
instance k0_chk394.dec : ∀ (v1622 : IVec S16 32), Decidable (k0_chk394 v1622) := fun v1622 => decidable_of_iff' _ (Iff.of_eq (k0_chk394.eq_1 v1622))
theorem k0_idx394_inb : ∀ (v1622 : IVec S16 32) (k0_hw394 : k0_chk394 v1622), ∀ a x, ((![v1622] : Fin 1 → IVec S16 32) a x).toNat < S32768.size a := fun v1622 k0_hw394 => k0_hw394

def k0_chk395 (v1626 : IVec S16 32) : Prop :=
  (∀ a x, ((![v1626] : Fin 1 → IVec S16 32) a x).toNat < S32768.size a)
instance k0_chk395.dec : ∀ (v1626 : IVec S16 32), Decidable (k0_chk395 v1626) := fun v1626 => decidable_of_iff' _ (Iff.of_eq (k0_chk395.eq_1 v1626))
theorem k0_idx395_inb : ∀ (v1626 : IVec S16 32) (k0_hw395 : k0_chk395 v1626), ∀ a x, ((![v1626] : Fin 1 → IVec S16 32) a x).toNat < S32768.size a := fun v1626 k0_hw395 => k0_hw395

def k0_chk396 (v1630 : IVec S16 32) : Prop :=
  (∀ a x, ((![v1630] : Fin 1 → IVec S16 32) a x).toNat < S32768.size a)
instance k0_chk396.dec : ∀ (v1630 : IVec S16 32), Decidable (k0_chk396 v1630) := fun v1630 => decidable_of_iff' _ (Iff.of_eq (k0_chk396.eq_1 v1630))
theorem k0_idx396_inb : ∀ (v1630 : IVec S16 32) (k0_hw396 : k0_chk396 v1630), ∀ a x, ((![v1630] : Fin 1 → IVec S16 32) a x).toNat < S32768.size a := fun v1630 k0_hw396 => k0_hw396

def k0_chk397 (v1634 : IVec S16 32) : Prop :=
  (∀ a x, ((![v1634] : Fin 1 → IVec S16 32) a x).toNat < S32768.size a)
instance k0_chk397.dec : ∀ (v1634 : IVec S16 32), Decidable (k0_chk397 v1634) := fun v1634 => decidable_of_iff' _ (Iff.of_eq (k0_chk397.eq_1 v1634))
theorem k0_idx397_inb : ∀ (v1634 : IVec S16 32) (k0_hw397 : k0_chk397 v1634), ∀ a x, ((![v1634] : Fin 1 → IVec S16 32) a x).toNat < S32768.size a := fun v1634 k0_hw397 => k0_hw397

def k0_chk398 (v1638 : IVec S16 32) : Prop :=
  (∀ a x, ((![v1638] : Fin 1 → IVec S16 32) a x).toNat < S32768.size a)
instance k0_chk398.dec : ∀ (v1638 : IVec S16 32), Decidable (k0_chk398 v1638) := fun v1638 => decidable_of_iff' _ (Iff.of_eq (k0_chk398.eq_1 v1638))
theorem k0_idx398_inb : ∀ (v1638 : IVec S16 32) (k0_hw398 : k0_chk398 v1638), ∀ a x, ((![v1638] : Fin 1 → IVec S16 32) a x).toNat < S32768.size a := fun v1638 k0_hw398 => k0_hw398

def k0_chk399 (v1642 : IVec S16 32) : Prop :=
  (∀ a x, ((![v1642] : Fin 1 → IVec S16 32) a x).toNat < S32768.size a)
instance k0_chk399.dec : ∀ (v1642 : IVec S16 32), Decidable (k0_chk399 v1642) := fun v1642 => decidable_of_iff' _ (Iff.of_eq (k0_chk399.eq_1 v1642))
theorem k0_idx399_inb : ∀ (v1642 : IVec S16 32) (k0_hw399 : k0_chk399 v1642), ∀ a x, ((![v1642] : Fin 1 → IVec S16 32) a x).toNat < S32768.size a := fun v1642 k0_hw399 => k0_hw399

def k0_chk400 (v1646 : IVec S16 32) : Prop :=
  (∀ a x, ((![v1646] : Fin 1 → IVec S16 32) a x).toNat < S32768.size a)
instance k0_chk400.dec : ∀ (v1646 : IVec S16 32), Decidable (k0_chk400 v1646) := fun v1646 => decidable_of_iff' _ (Iff.of_eq (k0_chk400.eq_1 v1646))
theorem k0_idx400_inb : ∀ (v1646 : IVec S16 32) (k0_hw400 : k0_chk400 v1646), ∀ a x, ((![v1646] : Fin 1 → IVec S16 32) a x).toNat < S32768.size a := fun v1646 k0_hw400 => k0_hw400

def k0_chk401 (v1650 : IVec S16 32) : Prop :=
  (∀ a x, ((![v1650] : Fin 1 → IVec S16 32) a x).toNat < S32768.size a)
instance k0_chk401.dec : ∀ (v1650 : IVec S16 32), Decidable (k0_chk401 v1650) := fun v1650 => decidable_of_iff' _ (Iff.of_eq (k0_chk401.eq_1 v1650))
theorem k0_idx401_inb : ∀ (v1650 : IVec S16 32) (k0_hw401 : k0_chk401 v1650), ∀ a x, ((![v1650] : Fin 1 → IVec S16 32) a x).toNat < S32768.size a := fun v1650 k0_hw401 => k0_hw401

def k0_chk402 (v1654 : IVec S16 32) : Prop :=
  (∀ a x, ((![v1654] : Fin 1 → IVec S16 32) a x).toNat < S32768.size a)
instance k0_chk402.dec : ∀ (v1654 : IVec S16 32), Decidable (k0_chk402 v1654) := fun v1654 => decidable_of_iff' _ (Iff.of_eq (k0_chk402.eq_1 v1654))
theorem k0_idx402_inb : ∀ (v1654 : IVec S16 32) (k0_hw402 : k0_chk402 v1654), ∀ a x, ((![v1654] : Fin 1 → IVec S16 32) a x).toNat < S32768.size a := fun v1654 k0_hw402 => k0_hw402

def k0_chk403 (v1658 : IVec S16 32) : Prop :=
  (∀ a x, ((![v1658] : Fin 1 → IVec S16 32) a x).toNat < S32768.size a)
instance k0_chk403.dec : ∀ (v1658 : IVec S16 32), Decidable (k0_chk403 v1658) := fun v1658 => decidable_of_iff' _ (Iff.of_eq (k0_chk403.eq_1 v1658))
theorem k0_idx403_inb : ∀ (v1658 : IVec S16 32) (k0_hw403 : k0_chk403 v1658), ∀ a x, ((![v1658] : Fin 1 → IVec S16 32) a x).toNat < S32768.size a := fun v1658 k0_hw403 => k0_hw403

def k0_chk404 (v1662 : IVec S16 32) : Prop :=
  (∀ a x, ((![v1662] : Fin 1 → IVec S16 32) a x).toNat < S32768.size a)
instance k0_chk404.dec : ∀ (v1662 : IVec S16 32), Decidable (k0_chk404 v1662) := fun v1662 => decidable_of_iff' _ (Iff.of_eq (k0_chk404.eq_1 v1662))
theorem k0_idx404_inb : ∀ (v1662 : IVec S16 32) (k0_hw404 : k0_chk404 v1662), ∀ a x, ((![v1662] : Fin 1 → IVec S16 32) a x).toNat < S32768.size a := fun v1662 k0_hw404 => k0_hw404

def k0_chk405 (v1666 : IVec S16 32) : Prop :=
  (∀ a x, ((![v1666] : Fin 1 → IVec S16 32) a x).toNat < S32768.size a)
instance k0_chk405.dec : ∀ (v1666 : IVec S16 32), Decidable (k0_chk405 v1666) := fun v1666 => decidable_of_iff' _ (Iff.of_eq (k0_chk405.eq_1 v1666))
theorem k0_idx405_inb : ∀ (v1666 : IVec S16 32) (k0_hw405 : k0_chk405 v1666), ∀ a x, ((![v1666] : Fin 1 → IVec S16 32) a x).toNat < S32768.size a := fun v1666 k0_hw405 => k0_hw405

def k0_chk406 (v1670 : IVec S16 32) : Prop :=
  (∀ a x, ((![v1670] : Fin 1 → IVec S16 32) a x).toNat < S32768.size a)
instance k0_chk406.dec : ∀ (v1670 : IVec S16 32), Decidable (k0_chk406 v1670) := fun v1670 => decidable_of_iff' _ (Iff.of_eq (k0_chk406.eq_1 v1670))
theorem k0_idx406_inb : ∀ (v1670 : IVec S16 32) (k0_hw406 : k0_chk406 v1670), ∀ a x, ((![v1670] : Fin 1 → IVec S16 32) a x).toNat < S32768.size a := fun v1670 k0_hw406 => k0_hw406

def k0_chk407 (v1674 : IVec S16 32) : Prop :=
  (∀ a x, ((![v1674] : Fin 1 → IVec S16 32) a x).toNat < S32768.size a)
instance k0_chk407.dec : ∀ (v1674 : IVec S16 32), Decidable (k0_chk407 v1674) := fun v1674 => decidable_of_iff' _ (Iff.of_eq (k0_chk407.eq_1 v1674))
theorem k0_idx407_inb : ∀ (v1674 : IVec S16 32) (k0_hw407 : k0_chk407 v1674), ∀ a x, ((![v1674] : Fin 1 → IVec S16 32) a x).toNat < S32768.size a := fun v1674 k0_hw407 => k0_hw407

def k0_chk408 (v1678 : IVec S16 32) : Prop :=
  (∀ a x, ((![v1678] : Fin 1 → IVec S16 32) a x).toNat < S32768.size a)
instance k0_chk408.dec : ∀ (v1678 : IVec S16 32), Decidable (k0_chk408 v1678) := fun v1678 => decidable_of_iff' _ (Iff.of_eq (k0_chk408.eq_1 v1678))
theorem k0_idx408_inb : ∀ (v1678 : IVec S16 32) (k0_hw408 : k0_chk408 v1678), ∀ a x, ((![v1678] : Fin 1 → IVec S16 32) a x).toNat < S32768.size a := fun v1678 k0_hw408 => k0_hw408

def k0_chk409 (v1682 : IVec S16 32) : Prop :=
  (∀ a x, ((![v1682] : Fin 1 → IVec S16 32) a x).toNat < S32768.size a)
instance k0_chk409.dec : ∀ (v1682 : IVec S16 32), Decidable (k0_chk409 v1682) := fun v1682 => decidable_of_iff' _ (Iff.of_eq (k0_chk409.eq_1 v1682))
theorem k0_idx409_inb : ∀ (v1682 : IVec S16 32) (k0_hw409 : k0_chk409 v1682), ∀ a x, ((![v1682] : Fin 1 → IVec S16 32) a x).toNat < S32768.size a := fun v1682 k0_hw409 => k0_hw409

def k0_chk410 (v1686 : IVec S16 32) : Prop :=
  (∀ a x, ((![v1686] : Fin 1 → IVec S16 32) a x).toNat < S32768.size a)
instance k0_chk410.dec : ∀ (v1686 : IVec S16 32), Decidable (k0_chk410 v1686) := fun v1686 => decidable_of_iff' _ (Iff.of_eq (k0_chk410.eq_1 v1686))
theorem k0_idx410_inb : ∀ (v1686 : IVec S16 32) (k0_hw410 : k0_chk410 v1686), ∀ a x, ((![v1686] : Fin 1 → IVec S16 32) a x).toNat < S32768.size a := fun v1686 k0_hw410 => k0_hw410

def k0_chk411 (v1690 : IVec S16 32) : Prop :=
  (∀ a x, ((![v1690] : Fin 1 → IVec S16 32) a x).toNat < S32768.size a)
instance k0_chk411.dec : ∀ (v1690 : IVec S16 32), Decidable (k0_chk411 v1690) := fun v1690 => decidable_of_iff' _ (Iff.of_eq (k0_chk411.eq_1 v1690))
theorem k0_idx411_inb : ∀ (v1690 : IVec S16 32) (k0_hw411 : k0_chk411 v1690), ∀ a x, ((![v1690] : Fin 1 → IVec S16 32) a x).toNat < S32768.size a := fun v1690 k0_hw411 => k0_hw411

def k0_chk412 (v1694 : IVec S16 32) : Prop :=
  (∀ a x, ((![v1694] : Fin 1 → IVec S16 32) a x).toNat < S32768.size a)
instance k0_chk412.dec : ∀ (v1694 : IVec S16 32), Decidable (k0_chk412 v1694) := fun v1694 => decidable_of_iff' _ (Iff.of_eq (k0_chk412.eq_1 v1694))
theorem k0_idx412_inb : ∀ (v1694 : IVec S16 32) (k0_hw412 : k0_chk412 v1694), ∀ a x, ((![v1694] : Fin 1 → IVec S16 32) a x).toNat < S32768.size a := fun v1694 k0_hw412 => k0_hw412

def k0_chk413 (v1698 : IVec S16 32) : Prop :=
  (∀ a x, ((![v1698] : Fin 1 → IVec S16 32) a x).toNat < S32768.size a)
instance k0_chk413.dec : ∀ (v1698 : IVec S16 32), Decidable (k0_chk413 v1698) := fun v1698 => decidable_of_iff' _ (Iff.of_eq (k0_chk413.eq_1 v1698))
theorem k0_idx413_inb : ∀ (v1698 : IVec S16 32) (k0_hw413 : k0_chk413 v1698), ∀ a x, ((![v1698] : Fin 1 → IVec S16 32) a x).toNat < S32768.size a := fun v1698 k0_hw413 => k0_hw413

def k0_chk414 (v1702 : IVec S16 32) : Prop :=
  (∀ a x, ((![v1702] : Fin 1 → IVec S16 32) a x).toNat < S32768.size a)
instance k0_chk414.dec : ∀ (v1702 : IVec S16 32), Decidable (k0_chk414 v1702) := fun v1702 => decidable_of_iff' _ (Iff.of_eq (k0_chk414.eq_1 v1702))
theorem k0_idx414_inb : ∀ (v1702 : IVec S16 32) (k0_hw414 : k0_chk414 v1702), ∀ a x, ((![v1702] : Fin 1 → IVec S16 32) a x).toNat < S32768.size a := fun v1702 k0_hw414 => k0_hw414

def k0_chk415 (v1706 : IVec S16 32) : Prop :=
  (∀ a x, ((![v1706] : Fin 1 → IVec S16 32) a x).toNat < S32768.size a)
instance k0_chk415.dec : ∀ (v1706 : IVec S16 32), Decidable (k0_chk415 v1706) := fun v1706 => decidable_of_iff' _ (Iff.of_eq (k0_chk415.eq_1 v1706))
theorem k0_idx415_inb : ∀ (v1706 : IVec S16 32) (k0_hw415 : k0_chk415 v1706), ∀ a x, ((![v1706] : Fin 1 → IVec S16 32) a x).toNat < S32768.size a := fun v1706 k0_hw415 => k0_hw415

def k0_chk416 (v1710 : IVec S16 32) : Prop :=
  (∀ a x, ((![v1710] : Fin 1 → IVec S16 32) a x).toNat < S32768.size a)
instance k0_chk416.dec : ∀ (v1710 : IVec S16 32), Decidable (k0_chk416 v1710) := fun v1710 => decidable_of_iff' _ (Iff.of_eq (k0_chk416.eq_1 v1710))
theorem k0_idx416_inb : ∀ (v1710 : IVec S16 32) (k0_hw416 : k0_chk416 v1710), ∀ a x, ((![v1710] : Fin 1 → IVec S16 32) a x).toNat < S32768.size a := fun v1710 k0_hw416 => k0_hw416

def k0_chk417 (v1714 : IVec S16 32) : Prop :=
  (∀ a x, ((![v1714] : Fin 1 → IVec S16 32) a x).toNat < S32768.size a)
instance k0_chk417.dec : ∀ (v1714 : IVec S16 32), Decidable (k0_chk417 v1714) := fun v1714 => decidable_of_iff' _ (Iff.of_eq (k0_chk417.eq_1 v1714))
theorem k0_idx417_inb : ∀ (v1714 : IVec S16 32) (k0_hw417 : k0_chk417 v1714), ∀ a x, ((![v1714] : Fin 1 → IVec S16 32) a x).toNat < S32768.size a := fun v1714 k0_hw417 => k0_hw417

def k0_chk418 (v1718 : IVec S16 32) : Prop :=
  (∀ a x, ((![v1718] : Fin 1 → IVec S16 32) a x).toNat < S32768.size a)
instance k0_chk418.dec : ∀ (v1718 : IVec S16 32), Decidable (k0_chk418 v1718) := fun v1718 => decidable_of_iff' _ (Iff.of_eq (k0_chk418.eq_1 v1718))
theorem k0_idx418_inb : ∀ (v1718 : IVec S16 32) (k0_hw418 : k0_chk418 v1718), ∀ a x, ((![v1718] : Fin 1 → IVec S16 32) a x).toNat < S32768.size a := fun v1718 k0_hw418 => k0_hw418

def k0_chk419 (v1722 : IVec S16 32) : Prop :=
  (∀ a x, ((![v1722] : Fin 1 → IVec S16 32) a x).toNat < S32768.size a)
instance k0_chk419.dec : ∀ (v1722 : IVec S16 32), Decidable (k0_chk419 v1722) := fun v1722 => decidable_of_iff' _ (Iff.of_eq (k0_chk419.eq_1 v1722))
theorem k0_idx419_inb : ∀ (v1722 : IVec S16 32) (k0_hw419 : k0_chk419 v1722), ∀ a x, ((![v1722] : Fin 1 → IVec S16 32) a x).toNat < S32768.size a := fun v1722 k0_hw419 => k0_hw419

def k0_chk420 (v1726 : IVec S16 32) : Prop :=
  (∀ a x, ((![v1726] : Fin 1 → IVec S16 32) a x).toNat < S32768.size a)
instance k0_chk420.dec : ∀ (v1726 : IVec S16 32), Decidable (k0_chk420 v1726) := fun v1726 => decidable_of_iff' _ (Iff.of_eq (k0_chk420.eq_1 v1726))
theorem k0_idx420_inb : ∀ (v1726 : IVec S16 32) (k0_hw420 : k0_chk420 v1726), ∀ a x, ((![v1726] : Fin 1 → IVec S16 32) a x).toNat < S32768.size a := fun v1726 k0_hw420 => k0_hw420

def k0_chk421 (v1730 : IVec S16 32) : Prop :=
  (∀ a x, ((![v1730] : Fin 1 → IVec S16 32) a x).toNat < S32768.size a)
instance k0_chk421.dec : ∀ (v1730 : IVec S16 32), Decidable (k0_chk421 v1730) := fun v1730 => decidable_of_iff' _ (Iff.of_eq (k0_chk421.eq_1 v1730))
theorem k0_idx421_inb : ∀ (v1730 : IVec S16 32) (k0_hw421 : k0_chk421 v1730), ∀ a x, ((![v1730] : Fin 1 → IVec S16 32) a x).toNat < S32768.size a := fun v1730 k0_hw421 => k0_hw421

def k0_chk422 (v1734 : IVec S16 32) : Prop :=
  (∀ a x, ((![v1734] : Fin 1 → IVec S16 32) a x).toNat < S32768.size a)
instance k0_chk422.dec : ∀ (v1734 : IVec S16 32), Decidable (k0_chk422 v1734) := fun v1734 => decidable_of_iff' _ (Iff.of_eq (k0_chk422.eq_1 v1734))
theorem k0_idx422_inb : ∀ (v1734 : IVec S16 32) (k0_hw422 : k0_chk422 v1734), ∀ a x, ((![v1734] : Fin 1 → IVec S16 32) a x).toNat < S32768.size a := fun v1734 k0_hw422 => k0_hw422

def k0_chk423 (v1738 : IVec S16 32) : Prop :=
  (∀ a x, ((![v1738] : Fin 1 → IVec S16 32) a x).toNat < S32768.size a)
instance k0_chk423.dec : ∀ (v1738 : IVec S16 32), Decidable (k0_chk423 v1738) := fun v1738 => decidable_of_iff' _ (Iff.of_eq (k0_chk423.eq_1 v1738))
theorem k0_idx423_inb : ∀ (v1738 : IVec S16 32) (k0_hw423 : k0_chk423 v1738), ∀ a x, ((![v1738] : Fin 1 → IVec S16 32) a x).toNat < S32768.size a := fun v1738 k0_hw423 => k0_hw423

def k0_chk424 (v1742 : IVec S16 32) : Prop :=
  (∀ a x, ((![v1742] : Fin 1 → IVec S16 32) a x).toNat < S32768.size a)
instance k0_chk424.dec : ∀ (v1742 : IVec S16 32), Decidable (k0_chk424 v1742) := fun v1742 => decidable_of_iff' _ (Iff.of_eq (k0_chk424.eq_1 v1742))
theorem k0_idx424_inb : ∀ (v1742 : IVec S16 32) (k0_hw424 : k0_chk424 v1742), ∀ a x, ((![v1742] : Fin 1 → IVec S16 32) a x).toNat < S32768.size a := fun v1742 k0_hw424 => k0_hw424

def k0_chk425 (v1746 : IVec S16 32) : Prop :=
  (∀ a x, ((![v1746] : Fin 1 → IVec S16 32) a x).toNat < S32768.size a)
instance k0_chk425.dec : ∀ (v1746 : IVec S16 32), Decidable (k0_chk425 v1746) := fun v1746 => decidable_of_iff' _ (Iff.of_eq (k0_chk425.eq_1 v1746))
theorem k0_idx425_inb : ∀ (v1746 : IVec S16 32) (k0_hw425 : k0_chk425 v1746), ∀ a x, ((![v1746] : Fin 1 → IVec S16 32) a x).toNat < S32768.size a := fun v1746 k0_hw425 => k0_hw425

def k0_chk426 (v1750 : IVec S16 32) : Prop :=
  (∀ a x, ((![v1750] : Fin 1 → IVec S16 32) a x).toNat < S32768.size a)
instance k0_chk426.dec : ∀ (v1750 : IVec S16 32), Decidable (k0_chk426 v1750) := fun v1750 => decidable_of_iff' _ (Iff.of_eq (k0_chk426.eq_1 v1750))
theorem k0_idx426_inb : ∀ (v1750 : IVec S16 32) (k0_hw426 : k0_chk426 v1750), ∀ a x, ((![v1750] : Fin 1 → IVec S16 32) a x).toNat < S32768.size a := fun v1750 k0_hw426 => k0_hw426

def k0_chk427 (v1754 : IVec S16 32) : Prop :=
  (∀ a x, ((![v1754] : Fin 1 → IVec S16 32) a x).toNat < S32768.size a)
instance k0_chk427.dec : ∀ (v1754 : IVec S16 32), Decidable (k0_chk427 v1754) := fun v1754 => decidable_of_iff' _ (Iff.of_eq (k0_chk427.eq_1 v1754))
theorem k0_idx427_inb : ∀ (v1754 : IVec S16 32) (k0_hw427 : k0_chk427 v1754), ∀ a x, ((![v1754] : Fin 1 → IVec S16 32) a x).toNat < S32768.size a := fun v1754 k0_hw427 => k0_hw427

def k0_chk428 (v1758 : IVec S16 32) : Prop :=
  (∀ a x, ((![v1758] : Fin 1 → IVec S16 32) a x).toNat < S32768.size a)
instance k0_chk428.dec : ∀ (v1758 : IVec S16 32), Decidable (k0_chk428 v1758) := fun v1758 => decidable_of_iff' _ (Iff.of_eq (k0_chk428.eq_1 v1758))
theorem k0_idx428_inb : ∀ (v1758 : IVec S16 32) (k0_hw428 : k0_chk428 v1758), ∀ a x, ((![v1758] : Fin 1 → IVec S16 32) a x).toNat < S32768.size a := fun v1758 k0_hw428 => k0_hw428

def k0_chk429 (v1762 : IVec S16 32) : Prop :=
  (∀ a x, ((![v1762] : Fin 1 → IVec S16 32) a x).toNat < S32768.size a)
instance k0_chk429.dec : ∀ (v1762 : IVec S16 32), Decidable (k0_chk429 v1762) := fun v1762 => decidable_of_iff' _ (Iff.of_eq (k0_chk429.eq_1 v1762))
theorem k0_idx429_inb : ∀ (v1762 : IVec S16 32) (k0_hw429 : k0_chk429 v1762), ∀ a x, ((![v1762] : Fin 1 → IVec S16 32) a x).toNat < S32768.size a := fun v1762 k0_hw429 => k0_hw429

def k0_chk430 (v1766 : IVec S16 32) : Prop :=
  (∀ a x, ((![v1766] : Fin 1 → IVec S16 32) a x).toNat < S32768.size a)
instance k0_chk430.dec : ∀ (v1766 : IVec S16 32), Decidable (k0_chk430 v1766) := fun v1766 => decidable_of_iff' _ (Iff.of_eq (k0_chk430.eq_1 v1766))
theorem k0_idx430_inb : ∀ (v1766 : IVec S16 32) (k0_hw430 : k0_chk430 v1766), ∀ a x, ((![v1766] : Fin 1 → IVec S16 32) a x).toNat < S32768.size a := fun v1766 k0_hw430 => k0_hw430

def k0_chk431 (v1770 : IVec S16 32) : Prop :=
  (∀ a x, ((![v1770] : Fin 1 → IVec S16 32) a x).toNat < S32768.size a)
instance k0_chk431.dec : ∀ (v1770 : IVec S16 32), Decidable (k0_chk431 v1770) := fun v1770 => decidable_of_iff' _ (Iff.of_eq (k0_chk431.eq_1 v1770))
theorem k0_idx431_inb : ∀ (v1770 : IVec S16 32) (k0_hw431 : k0_chk431 v1770), ∀ a x, ((![v1770] : Fin 1 → IVec S16 32) a x).toNat < S32768.size a := fun v1770 k0_hw431 => k0_hw431

def k0_chk432 (v1774 : IVec S16 32) : Prop :=
  (∀ a x, ((![v1774] : Fin 1 → IVec S16 32) a x).toNat < S32768.size a)
instance k0_chk432.dec : ∀ (v1774 : IVec S16 32), Decidable (k0_chk432 v1774) := fun v1774 => decidable_of_iff' _ (Iff.of_eq (k0_chk432.eq_1 v1774))
theorem k0_idx432_inb : ∀ (v1774 : IVec S16 32) (k0_hw432 : k0_chk432 v1774), ∀ a x, ((![v1774] : Fin 1 → IVec S16 32) a x).toNat < S32768.size a := fun v1774 k0_hw432 => k0_hw432

def k0_chk433 (v1778 : IVec S16 32) : Prop :=
  (∀ a x, ((![v1778] : Fin 1 → IVec S16 32) a x).toNat < S32768.size a)
instance k0_chk433.dec : ∀ (v1778 : IVec S16 32), Decidable (k0_chk433 v1778) := fun v1778 => decidable_of_iff' _ (Iff.of_eq (k0_chk433.eq_1 v1778))
theorem k0_idx433_inb : ∀ (v1778 : IVec S16 32) (k0_hw433 : k0_chk433 v1778), ∀ a x, ((![v1778] : Fin 1 → IVec S16 32) a x).toNat < S32768.size a := fun v1778 k0_hw433 => k0_hw433

def k0_chk434 (v1782 : IVec S16 32) : Prop :=
  (∀ a x, ((![v1782] : Fin 1 → IVec S16 32) a x).toNat < S32768.size a)
instance k0_chk434.dec : ∀ (v1782 : IVec S16 32), Decidable (k0_chk434 v1782) := fun v1782 => decidable_of_iff' _ (Iff.of_eq (k0_chk434.eq_1 v1782))
theorem k0_idx434_inb : ∀ (v1782 : IVec S16 32) (k0_hw434 : k0_chk434 v1782), ∀ a x, ((![v1782] : Fin 1 → IVec S16 32) a x).toNat < S32768.size a := fun v1782 k0_hw434 => k0_hw434

def k0_chk435 (v1786 : IVec S16 32) : Prop :=
  (∀ a x, ((![v1786] : Fin 1 → IVec S16 32) a x).toNat < S32768.size a)
instance k0_chk435.dec : ∀ (v1786 : IVec S16 32), Decidable (k0_chk435 v1786) := fun v1786 => decidable_of_iff' _ (Iff.of_eq (k0_chk435.eq_1 v1786))
theorem k0_idx435_inb : ∀ (v1786 : IVec S16 32) (k0_hw435 : k0_chk435 v1786), ∀ a x, ((![v1786] : Fin 1 → IVec S16 32) a x).toNat < S32768.size a := fun v1786 k0_hw435 => k0_hw435

def k0_chk436 (v1790 : IVec S16 32) : Prop :=
  (∀ a x, ((![v1790] : Fin 1 → IVec S16 32) a x).toNat < S32768.size a)
instance k0_chk436.dec : ∀ (v1790 : IVec S16 32), Decidable (k0_chk436 v1790) := fun v1790 => decidable_of_iff' _ (Iff.of_eq (k0_chk436.eq_1 v1790))
theorem k0_idx436_inb : ∀ (v1790 : IVec S16 32) (k0_hw436 : k0_chk436 v1790), ∀ a x, ((![v1790] : Fin 1 → IVec S16 32) a x).toNat < S32768.size a := fun v1790 k0_hw436 => k0_hw436

def k0_chk437 (v1794 : IVec S16 32) : Prop :=
  (∀ a x, ((![v1794] : Fin 1 → IVec S16 32) a x).toNat < S32768.size a)
instance k0_chk437.dec : ∀ (v1794 : IVec S16 32), Decidable (k0_chk437 v1794) := fun v1794 => decidable_of_iff' _ (Iff.of_eq (k0_chk437.eq_1 v1794))
theorem k0_idx437_inb : ∀ (v1794 : IVec S16 32) (k0_hw437 : k0_chk437 v1794), ∀ a x, ((![v1794] : Fin 1 → IVec S16 32) a x).toNat < S32768.size a := fun v1794 k0_hw437 => k0_hw437

def k0_chk438 (v1798 : IVec S16 32) : Prop :=
  (∀ a x, ((![v1798] : Fin 1 → IVec S16 32) a x).toNat < S32768.size a)
instance k0_chk438.dec : ∀ (v1798 : IVec S16 32), Decidable (k0_chk438 v1798) := fun v1798 => decidable_of_iff' _ (Iff.of_eq (k0_chk438.eq_1 v1798))
theorem k0_idx438_inb : ∀ (v1798 : IVec S16 32) (k0_hw438 : k0_chk438 v1798), ∀ a x, ((![v1798] : Fin 1 → IVec S16 32) a x).toNat < S32768.size a := fun v1798 k0_hw438 => k0_hw438

def k0_chk439 (v1802 : IVec S16 32) : Prop :=
  (∀ a x, ((![v1802] : Fin 1 → IVec S16 32) a x).toNat < S32768.size a)
instance k0_chk439.dec : ∀ (v1802 : IVec S16 32), Decidable (k0_chk439 v1802) := fun v1802 => decidable_of_iff' _ (Iff.of_eq (k0_chk439.eq_1 v1802))
theorem k0_idx439_inb : ∀ (v1802 : IVec S16 32) (k0_hw439 : k0_chk439 v1802), ∀ a x, ((![v1802] : Fin 1 → IVec S16 32) a x).toNat < S32768.size a := fun v1802 k0_hw439 => k0_hw439

def k0_chk440 (v1806 : IVec S16 32) : Prop :=
  (∀ a x, ((![v1806] : Fin 1 → IVec S16 32) a x).toNat < S32768.size a)
instance k0_chk440.dec : ∀ (v1806 : IVec S16 32), Decidable (k0_chk440 v1806) := fun v1806 => decidable_of_iff' _ (Iff.of_eq (k0_chk440.eq_1 v1806))
theorem k0_idx440_inb : ∀ (v1806 : IVec S16 32) (k0_hw440 : k0_chk440 v1806), ∀ a x, ((![v1806] : Fin 1 → IVec S16 32) a x).toNat < S32768.size a := fun v1806 k0_hw440 => k0_hw440

def k0_chk441 (v1810 : IVec S16 32) : Prop :=
  (∀ a x, ((![v1810] : Fin 1 → IVec S16 32) a x).toNat < S32768.size a)
instance k0_chk441.dec : ∀ (v1810 : IVec S16 32), Decidable (k0_chk441 v1810) := fun v1810 => decidable_of_iff' _ (Iff.of_eq (k0_chk441.eq_1 v1810))
theorem k0_idx441_inb : ∀ (v1810 : IVec S16 32) (k0_hw441 : k0_chk441 v1810), ∀ a x, ((![v1810] : Fin 1 → IVec S16 32) a x).toNat < S32768.size a := fun v1810 k0_hw441 => k0_hw441

def k0_chk442 (v1814 : IVec S16 32) : Prop :=
  (∀ a x, ((![v1814] : Fin 1 → IVec S16 32) a x).toNat < S32768.size a)
instance k0_chk442.dec : ∀ (v1814 : IVec S16 32), Decidable (k0_chk442 v1814) := fun v1814 => decidable_of_iff' _ (Iff.of_eq (k0_chk442.eq_1 v1814))
theorem k0_idx442_inb : ∀ (v1814 : IVec S16 32) (k0_hw442 : k0_chk442 v1814), ∀ a x, ((![v1814] : Fin 1 → IVec S16 32) a x).toNat < S32768.size a := fun v1814 k0_hw442 => k0_hw442

def k0_chk443 (v1818 : IVec S16 32) : Prop :=
  (∀ a x, ((![v1818] : Fin 1 → IVec S16 32) a x).toNat < S32768.size a)
instance k0_chk443.dec : ∀ (v1818 : IVec S16 32), Decidable (k0_chk443 v1818) := fun v1818 => decidable_of_iff' _ (Iff.of_eq (k0_chk443.eq_1 v1818))
theorem k0_idx443_inb : ∀ (v1818 : IVec S16 32) (k0_hw443 : k0_chk443 v1818), ∀ a x, ((![v1818] : Fin 1 → IVec S16 32) a x).toNat < S32768.size a := fun v1818 k0_hw443 => k0_hw443

def k0_chk444 (v1822 : IVec S16 32) : Prop :=
  (∀ a x, ((![v1822] : Fin 1 → IVec S16 32) a x).toNat < S32768.size a)
instance k0_chk444.dec : ∀ (v1822 : IVec S16 32), Decidable (k0_chk444 v1822) := fun v1822 => decidable_of_iff' _ (Iff.of_eq (k0_chk444.eq_1 v1822))
theorem k0_idx444_inb : ∀ (v1822 : IVec S16 32) (k0_hw444 : k0_chk444 v1822), ∀ a x, ((![v1822] : Fin 1 → IVec S16 32) a x).toNat < S32768.size a := fun v1822 k0_hw444 => k0_hw444

def k0_chk445 (v1826 : IVec S16 32) : Prop :=
  (∀ a x, ((![v1826] : Fin 1 → IVec S16 32) a x).toNat < S32768.size a)
instance k0_chk445.dec : ∀ (v1826 : IVec S16 32), Decidable (k0_chk445 v1826) := fun v1826 => decidable_of_iff' _ (Iff.of_eq (k0_chk445.eq_1 v1826))
theorem k0_idx445_inb : ∀ (v1826 : IVec S16 32) (k0_hw445 : k0_chk445 v1826), ∀ a x, ((![v1826] : Fin 1 → IVec S16 32) a x).toNat < S32768.size a := fun v1826 k0_hw445 => k0_hw445

def k0_chk446 (v1830 : IVec S16 32) : Prop :=
  (∀ a x, ((![v1830] : Fin 1 → IVec S16 32) a x).toNat < S32768.size a)
instance k0_chk446.dec : ∀ (v1830 : IVec S16 32), Decidable (k0_chk446 v1830) := fun v1830 => decidable_of_iff' _ (Iff.of_eq (k0_chk446.eq_1 v1830))
theorem k0_idx446_inb : ∀ (v1830 : IVec S16 32) (k0_hw446 : k0_chk446 v1830), ∀ a x, ((![v1830] : Fin 1 → IVec S16 32) a x).toNat < S32768.size a := fun v1830 k0_hw446 => k0_hw446

def k0_chk447 (v1834 : IVec S16 32) : Prop :=
  (∀ a x, ((![v1834] : Fin 1 → IVec S16 32) a x).toNat < S32768.size a)
instance k0_chk447.dec : ∀ (v1834 : IVec S16 32), Decidable (k0_chk447 v1834) := fun v1834 => decidable_of_iff' _ (Iff.of_eq (k0_chk447.eq_1 v1834))
theorem k0_idx447_inb : ∀ (v1834 : IVec S16 32) (k0_hw447 : k0_chk447 v1834), ∀ a x, ((![v1834] : Fin 1 → IVec S16 32) a x).toNat < S32768.size a := fun v1834 k0_hw447 => k0_hw447

def k0_chk448 (v1838 : IVec S16 32) : Prop :=
  (∀ a x, ((![v1838] : Fin 1 → IVec S16 32) a x).toNat < S32768.size a)
instance k0_chk448.dec : ∀ (v1838 : IVec S16 32), Decidable (k0_chk448 v1838) := fun v1838 => decidable_of_iff' _ (Iff.of_eq (k0_chk448.eq_1 v1838))
theorem k0_idx448_inb : ∀ (v1838 : IVec S16 32) (k0_hw448 : k0_chk448 v1838), ∀ a x, ((![v1838] : Fin 1 → IVec S16 32) a x).toNat < S32768.size a := fun v1838 k0_hw448 => k0_hw448

def k0_chk449 (v1842 : IVec S16 32) : Prop :=
  (∀ a x, ((![v1842] : Fin 1 → IVec S16 32) a x).toNat < S32768.size a)
instance k0_chk449.dec : ∀ (v1842 : IVec S16 32), Decidable (k0_chk449 v1842) := fun v1842 => decidable_of_iff' _ (Iff.of_eq (k0_chk449.eq_1 v1842))
theorem k0_idx449_inb : ∀ (v1842 : IVec S16 32) (k0_hw449 : k0_chk449 v1842), ∀ a x, ((![v1842] : Fin 1 → IVec S16 32) a x).toNat < S32768.size a := fun v1842 k0_hw449 => k0_hw449

def k0_chk450 (v1846 : IVec S16 32) : Prop :=
  (∀ a x, ((![v1846] : Fin 1 → IVec S16 32) a x).toNat < S32768.size a)
instance k0_chk450.dec : ∀ (v1846 : IVec S16 32), Decidable (k0_chk450 v1846) := fun v1846 => decidable_of_iff' _ (Iff.of_eq (k0_chk450.eq_1 v1846))
theorem k0_idx450_inb : ∀ (v1846 : IVec S16 32) (k0_hw450 : k0_chk450 v1846), ∀ a x, ((![v1846] : Fin 1 → IVec S16 32) a x).toNat < S32768.size a := fun v1846 k0_hw450 => k0_hw450

def k0_chk451 (v1850 : IVec S16 32) : Prop :=
  (∀ a x, ((![v1850] : Fin 1 → IVec S16 32) a x).toNat < S32768.size a)
instance k0_chk451.dec : ∀ (v1850 : IVec S16 32), Decidable (k0_chk451 v1850) := fun v1850 => decidable_of_iff' _ (Iff.of_eq (k0_chk451.eq_1 v1850))
theorem k0_idx451_inb : ∀ (v1850 : IVec S16 32) (k0_hw451 : k0_chk451 v1850), ∀ a x, ((![v1850] : Fin 1 → IVec S16 32) a x).toNat < S32768.size a := fun v1850 k0_hw451 => k0_hw451

def k0_chk452 (v1854 : IVec S16 32) : Prop :=
  (∀ a x, ((![v1854] : Fin 1 → IVec S16 32) a x).toNat < S32768.size a)
instance k0_chk452.dec : ∀ (v1854 : IVec S16 32), Decidable (k0_chk452 v1854) := fun v1854 => decidable_of_iff' _ (Iff.of_eq (k0_chk452.eq_1 v1854))
theorem k0_idx452_inb : ∀ (v1854 : IVec S16 32) (k0_hw452 : k0_chk452 v1854), ∀ a x, ((![v1854] : Fin 1 → IVec S16 32) a x).toNat < S32768.size a := fun v1854 k0_hw452 => k0_hw452

def k0_chk453 (v1858 : IVec S16 32) : Prop :=
  (∀ a x, ((![v1858] : Fin 1 → IVec S16 32) a x).toNat < S32768.size a)
instance k0_chk453.dec : ∀ (v1858 : IVec S16 32), Decidable (k0_chk453 v1858) := fun v1858 => decidable_of_iff' _ (Iff.of_eq (k0_chk453.eq_1 v1858))
theorem k0_idx453_inb : ∀ (v1858 : IVec S16 32) (k0_hw453 : k0_chk453 v1858), ∀ a x, ((![v1858] : Fin 1 → IVec S16 32) a x).toNat < S32768.size a := fun v1858 k0_hw453 => k0_hw453

def k0_chk454 (v1862 : IVec S16 32) : Prop :=
  (∀ a x, ((![v1862] : Fin 1 → IVec S16 32) a x).toNat < S32768.size a)
instance k0_chk454.dec : ∀ (v1862 : IVec S16 32), Decidable (k0_chk454 v1862) := fun v1862 => decidable_of_iff' _ (Iff.of_eq (k0_chk454.eq_1 v1862))
theorem k0_idx454_inb : ∀ (v1862 : IVec S16 32) (k0_hw454 : k0_chk454 v1862), ∀ a x, ((![v1862] : Fin 1 → IVec S16 32) a x).toNat < S32768.size a := fun v1862 k0_hw454 => k0_hw454

def k0_chk455 (v1866 : IVec S16 32) : Prop :=
  (∀ a x, ((![v1866] : Fin 1 → IVec S16 32) a x).toNat < S32768.size a)
instance k0_chk455.dec : ∀ (v1866 : IVec S16 32), Decidable (k0_chk455 v1866) := fun v1866 => decidable_of_iff' _ (Iff.of_eq (k0_chk455.eq_1 v1866))
theorem k0_idx455_inb : ∀ (v1866 : IVec S16 32) (k0_hw455 : k0_chk455 v1866), ∀ a x, ((![v1866] : Fin 1 → IVec S16 32) a x).toNat < S32768.size a := fun v1866 k0_hw455 => k0_hw455

def k0_chk456 (v1870 : IVec S16 32) : Prop :=
  (∀ a x, ((![v1870] : Fin 1 → IVec S16 32) a x).toNat < S32768.size a)
instance k0_chk456.dec : ∀ (v1870 : IVec S16 32), Decidable (k0_chk456 v1870) := fun v1870 => decidable_of_iff' _ (Iff.of_eq (k0_chk456.eq_1 v1870))
theorem k0_idx456_inb : ∀ (v1870 : IVec S16 32) (k0_hw456 : k0_chk456 v1870), ∀ a x, ((![v1870] : Fin 1 → IVec S16 32) a x).toNat < S32768.size a := fun v1870 k0_hw456 => k0_hw456

def k0_chk457 (v1874 : IVec S16 32) : Prop :=
  (∀ a x, ((![v1874] : Fin 1 → IVec S16 32) a x).toNat < S32768.size a)
instance k0_chk457.dec : ∀ (v1874 : IVec S16 32), Decidable (k0_chk457 v1874) := fun v1874 => decidable_of_iff' _ (Iff.of_eq (k0_chk457.eq_1 v1874))
theorem k0_idx457_inb : ∀ (v1874 : IVec S16 32) (k0_hw457 : k0_chk457 v1874), ∀ a x, ((![v1874] : Fin 1 → IVec S16 32) a x).toNat < S32768.size a := fun v1874 k0_hw457 => k0_hw457

def k0_chk458 (v1878 : IVec S16 32) : Prop :=
  (∀ a x, ((![v1878] : Fin 1 → IVec S16 32) a x).toNat < S32768.size a)
instance k0_chk458.dec : ∀ (v1878 : IVec S16 32), Decidable (k0_chk458 v1878) := fun v1878 => decidable_of_iff' _ (Iff.of_eq (k0_chk458.eq_1 v1878))
theorem k0_idx458_inb : ∀ (v1878 : IVec S16 32) (k0_hw458 : k0_chk458 v1878), ∀ a x, ((![v1878] : Fin 1 → IVec S16 32) a x).toNat < S32768.size a := fun v1878 k0_hw458 => k0_hw458

def k0_chk459 (v1882 : IVec S16 32) : Prop :=
  (∀ a x, ((![v1882] : Fin 1 → IVec S16 32) a x).toNat < S32768.size a)
instance k0_chk459.dec : ∀ (v1882 : IVec S16 32), Decidable (k0_chk459 v1882) := fun v1882 => decidable_of_iff' _ (Iff.of_eq (k0_chk459.eq_1 v1882))
theorem k0_idx459_inb : ∀ (v1882 : IVec S16 32) (k0_hw459 : k0_chk459 v1882), ∀ a x, ((![v1882] : Fin 1 → IVec S16 32) a x).toNat < S32768.size a := fun v1882 k0_hw459 => k0_hw459

def k0_chk460 (v1886 : IVec S16 32) : Prop :=
  (∀ a x, ((![v1886] : Fin 1 → IVec S16 32) a x).toNat < S32768.size a)
instance k0_chk460.dec : ∀ (v1886 : IVec S16 32), Decidable (k0_chk460 v1886) := fun v1886 => decidable_of_iff' _ (Iff.of_eq (k0_chk460.eq_1 v1886))
theorem k0_idx460_inb : ∀ (v1886 : IVec S16 32) (k0_hw460 : k0_chk460 v1886), ∀ a x, ((![v1886] : Fin 1 → IVec S16 32) a x).toNat < S32768.size a := fun v1886 k0_hw460 => k0_hw460

def k0_chk461 (v1890 : IVec S16 32) : Prop :=
  (∀ a x, ((![v1890] : Fin 1 → IVec S16 32) a x).toNat < S32768.size a)
instance k0_chk461.dec : ∀ (v1890 : IVec S16 32), Decidable (k0_chk461 v1890) := fun v1890 => decidable_of_iff' _ (Iff.of_eq (k0_chk461.eq_1 v1890))
theorem k0_idx461_inb : ∀ (v1890 : IVec S16 32) (k0_hw461 : k0_chk461 v1890), ∀ a x, ((![v1890] : Fin 1 → IVec S16 32) a x).toNat < S32768.size a := fun v1890 k0_hw461 => k0_hw461

def k0_chk462 (v1894 : IVec S16 32) : Prop :=
  (∀ a x, ((![v1894] : Fin 1 → IVec S16 32) a x).toNat < S32768.size a)
instance k0_chk462.dec : ∀ (v1894 : IVec S16 32), Decidable (k0_chk462 v1894) := fun v1894 => decidable_of_iff' _ (Iff.of_eq (k0_chk462.eq_1 v1894))
theorem k0_idx462_inb : ∀ (v1894 : IVec S16 32) (k0_hw462 : k0_chk462 v1894), ∀ a x, ((![v1894] : Fin 1 → IVec S16 32) a x).toNat < S32768.size a := fun v1894 k0_hw462 => k0_hw462

def k0_chk463 (v1898 : IVec S16 32) : Prop :=
  (∀ a x, ((![v1898] : Fin 1 → IVec S16 32) a x).toNat < S32768.size a)
instance k0_chk463.dec : ∀ (v1898 : IVec S16 32), Decidable (k0_chk463 v1898) := fun v1898 => decidable_of_iff' _ (Iff.of_eq (k0_chk463.eq_1 v1898))
theorem k0_idx463_inb : ∀ (v1898 : IVec S16 32) (k0_hw463 : k0_chk463 v1898), ∀ a x, ((![v1898] : Fin 1 → IVec S16 32) a x).toNat < S32768.size a := fun v1898 k0_hw463 => k0_hw463

def k0_chk464 (v1902 : IVec S16 32) : Prop :=
  (∀ a x, ((![v1902] : Fin 1 → IVec S16 32) a x).toNat < S32768.size a)
instance k0_chk464.dec : ∀ (v1902 : IVec S16 32), Decidable (k0_chk464 v1902) := fun v1902 => decidable_of_iff' _ (Iff.of_eq (k0_chk464.eq_1 v1902))
theorem k0_idx464_inb : ∀ (v1902 : IVec S16 32) (k0_hw464 : k0_chk464 v1902), ∀ a x, ((![v1902] : Fin 1 → IVec S16 32) a x).toNat < S32768.size a := fun v1902 k0_hw464 => k0_hw464

def k0_chk465 (v1906 : IVec S16 32) : Prop :=
  (∀ a x, ((![v1906] : Fin 1 → IVec S16 32) a x).toNat < S32768.size a)
instance k0_chk465.dec : ∀ (v1906 : IVec S16 32), Decidable (k0_chk465 v1906) := fun v1906 => decidable_of_iff' _ (Iff.of_eq (k0_chk465.eq_1 v1906))
theorem k0_idx465_inb : ∀ (v1906 : IVec S16 32) (k0_hw465 : k0_chk465 v1906), ∀ a x, ((![v1906] : Fin 1 → IVec S16 32) a x).toNat < S32768.size a := fun v1906 k0_hw465 => k0_hw465

def k0_chk466 (v1910 : IVec S16 32) : Prop :=
  (∀ a x, ((![v1910] : Fin 1 → IVec S16 32) a x).toNat < S32768.size a)
instance k0_chk466.dec : ∀ (v1910 : IVec S16 32), Decidable (k0_chk466 v1910) := fun v1910 => decidable_of_iff' _ (Iff.of_eq (k0_chk466.eq_1 v1910))
theorem k0_idx466_inb : ∀ (v1910 : IVec S16 32) (k0_hw466 : k0_chk466 v1910), ∀ a x, ((![v1910] : Fin 1 → IVec S16 32) a x).toNat < S32768.size a := fun v1910 k0_hw466 => k0_hw466

def k0_chk467 (v1914 : IVec S16 32) : Prop :=
  (∀ a x, ((![v1914] : Fin 1 → IVec S16 32) a x).toNat < S32768.size a)
instance k0_chk467.dec : ∀ (v1914 : IVec S16 32), Decidable (k0_chk467 v1914) := fun v1914 => decidable_of_iff' _ (Iff.of_eq (k0_chk467.eq_1 v1914))
theorem k0_idx467_inb : ∀ (v1914 : IVec S16 32) (k0_hw467 : k0_chk467 v1914), ∀ a x, ((![v1914] : Fin 1 → IVec S16 32) a x).toNat < S32768.size a := fun v1914 k0_hw467 => k0_hw467

def k0_chk468 (v1918 : IVec S16 32) : Prop :=
  (∀ a x, ((![v1918] : Fin 1 → IVec S16 32) a x).toNat < S32768.size a)
instance k0_chk468.dec : ∀ (v1918 : IVec S16 32), Decidable (k0_chk468 v1918) := fun v1918 => decidable_of_iff' _ (Iff.of_eq (k0_chk468.eq_1 v1918))
theorem k0_idx468_inb : ∀ (v1918 : IVec S16 32) (k0_hw468 : k0_chk468 v1918), ∀ a x, ((![v1918] : Fin 1 → IVec S16 32) a x).toNat < S32768.size a := fun v1918 k0_hw468 => k0_hw468

def k0_chk469 (v1922 : IVec S16 32) : Prop :=
  (∀ a x, ((![v1922] : Fin 1 → IVec S16 32) a x).toNat < S32768.size a)
instance k0_chk469.dec : ∀ (v1922 : IVec S16 32), Decidable (k0_chk469 v1922) := fun v1922 => decidable_of_iff' _ (Iff.of_eq (k0_chk469.eq_1 v1922))
theorem k0_idx469_inb : ∀ (v1922 : IVec S16 32) (k0_hw469 : k0_chk469 v1922), ∀ a x, ((![v1922] : Fin 1 → IVec S16 32) a x).toNat < S32768.size a := fun v1922 k0_hw469 => k0_hw469

def k0_chk470 (v1926 : IVec S16 32) : Prop :=
  (∀ a x, ((![v1926] : Fin 1 → IVec S16 32) a x).toNat < S32768.size a)
instance k0_chk470.dec : ∀ (v1926 : IVec S16 32), Decidable (k0_chk470 v1926) := fun v1926 => decidable_of_iff' _ (Iff.of_eq (k0_chk470.eq_1 v1926))
theorem k0_idx470_inb : ∀ (v1926 : IVec S16 32) (k0_hw470 : k0_chk470 v1926), ∀ a x, ((![v1926] : Fin 1 → IVec S16 32) a x).toNat < S32768.size a := fun v1926 k0_hw470 => k0_hw470

def k0_chk471 (v1930 : IVec S16 32) : Prop :=
  (∀ a x, ((![v1930] : Fin 1 → IVec S16 32) a x).toNat < S32768.size a)
instance k0_chk471.dec : ∀ (v1930 : IVec S16 32), Decidable (k0_chk471 v1930) := fun v1930 => decidable_of_iff' _ (Iff.of_eq (k0_chk471.eq_1 v1930))
theorem k0_idx471_inb : ∀ (v1930 : IVec S16 32) (k0_hw471 : k0_chk471 v1930), ∀ a x, ((![v1930] : Fin 1 → IVec S16 32) a x).toNat < S32768.size a := fun v1930 k0_hw471 => k0_hw471

def k0_chk472 (v1934 : IVec S16 32) : Prop :=
  (∀ a x, ((![v1934] : Fin 1 → IVec S16 32) a x).toNat < S32768.size a)
instance k0_chk472.dec : ∀ (v1934 : IVec S16 32), Decidable (k0_chk472 v1934) := fun v1934 => decidable_of_iff' _ (Iff.of_eq (k0_chk472.eq_1 v1934))
theorem k0_idx472_inb : ∀ (v1934 : IVec S16 32) (k0_hw472 : k0_chk472 v1934), ∀ a x, ((![v1934] : Fin 1 → IVec S16 32) a x).toNat < S32768.size a := fun v1934 k0_hw472 => k0_hw472

def k0_chk473 (v1938 : IVec S16 32) : Prop :=
  (∀ a x, ((![v1938] : Fin 1 → IVec S16 32) a x).toNat < S32768.size a)
instance k0_chk473.dec : ∀ (v1938 : IVec S16 32), Decidable (k0_chk473 v1938) := fun v1938 => decidable_of_iff' _ (Iff.of_eq (k0_chk473.eq_1 v1938))
theorem k0_idx473_inb : ∀ (v1938 : IVec S16 32) (k0_hw473 : k0_chk473 v1938), ∀ a x, ((![v1938] : Fin 1 → IVec S16 32) a x).toNat < S32768.size a := fun v1938 k0_hw473 => k0_hw473

def k0_chk474 (v1942 : IVec S16 32) : Prop :=
  (∀ a x, ((![v1942] : Fin 1 → IVec S16 32) a x).toNat < S32768.size a)
instance k0_chk474.dec : ∀ (v1942 : IVec S16 32), Decidable (k0_chk474 v1942) := fun v1942 => decidable_of_iff' _ (Iff.of_eq (k0_chk474.eq_1 v1942))
theorem k0_idx474_inb : ∀ (v1942 : IVec S16 32) (k0_hw474 : k0_chk474 v1942), ∀ a x, ((![v1942] : Fin 1 → IVec S16 32) a x).toNat < S32768.size a := fun v1942 k0_hw474 => k0_hw474

def k0_chk475 (v1946 : IVec S16 32) : Prop :=
  (∀ a x, ((![v1946] : Fin 1 → IVec S16 32) a x).toNat < S32768.size a)
instance k0_chk475.dec : ∀ (v1946 : IVec S16 32), Decidable (k0_chk475 v1946) := fun v1946 => decidable_of_iff' _ (Iff.of_eq (k0_chk475.eq_1 v1946))
theorem k0_idx475_inb : ∀ (v1946 : IVec S16 32) (k0_hw475 : k0_chk475 v1946), ∀ a x, ((![v1946] : Fin 1 → IVec S16 32) a x).toNat < S32768.size a := fun v1946 k0_hw475 => k0_hw475

def k0_chk476 (v1950 : IVec S16 32) : Prop :=
  (∀ a x, ((![v1950] : Fin 1 → IVec S16 32) a x).toNat < S32768.size a)
instance k0_chk476.dec : ∀ (v1950 : IVec S16 32), Decidable (k0_chk476 v1950) := fun v1950 => decidable_of_iff' _ (Iff.of_eq (k0_chk476.eq_1 v1950))
theorem k0_idx476_inb : ∀ (v1950 : IVec S16 32) (k0_hw476 : k0_chk476 v1950), ∀ a x, ((![v1950] : Fin 1 → IVec S16 32) a x).toNat < S32768.size a := fun v1950 k0_hw476 => k0_hw476

def k0_chk477 (v1954 : IVec S16 32) : Prop :=
  (∀ a x, ((![v1954] : Fin 1 → IVec S16 32) a x).toNat < S32768.size a)
instance k0_chk477.dec : ∀ (v1954 : IVec S16 32), Decidable (k0_chk477 v1954) := fun v1954 => decidable_of_iff' _ (Iff.of_eq (k0_chk477.eq_1 v1954))
theorem k0_idx477_inb : ∀ (v1954 : IVec S16 32) (k0_hw477 : k0_chk477 v1954), ∀ a x, ((![v1954] : Fin 1 → IVec S16 32) a x).toNat < S32768.size a := fun v1954 k0_hw477 => k0_hw477

def k0_chk478 (v1958 : IVec S16 32) : Prop :=
  (∀ a x, ((![v1958] : Fin 1 → IVec S16 32) a x).toNat < S32768.size a)
instance k0_chk478.dec : ∀ (v1958 : IVec S16 32), Decidable (k0_chk478 v1958) := fun v1958 => decidable_of_iff' _ (Iff.of_eq (k0_chk478.eq_1 v1958))
theorem k0_idx478_inb : ∀ (v1958 : IVec S16 32) (k0_hw478 : k0_chk478 v1958), ∀ a x, ((![v1958] : Fin 1 → IVec S16 32) a x).toNat < S32768.size a := fun v1958 k0_hw478 => k0_hw478

def k0_chk479 (v1962 : IVec S16 32) : Prop :=
  (∀ a x, ((![v1962] : Fin 1 → IVec S16 32) a x).toNat < S32768.size a)
instance k0_chk479.dec : ∀ (v1962 : IVec S16 32), Decidable (k0_chk479 v1962) := fun v1962 => decidable_of_iff' _ (Iff.of_eq (k0_chk479.eq_1 v1962))
theorem k0_idx479_inb : ∀ (v1962 : IVec S16 32) (k0_hw479 : k0_chk479 v1962), ∀ a x, ((![v1962] : Fin 1 → IVec S16 32) a x).toNat < S32768.size a := fun v1962 k0_hw479 => k0_hw479

def k0_chk480 (v1966 : IVec S16 32) : Prop :=
  (∀ a x, ((![v1966] : Fin 1 → IVec S16 32) a x).toNat < S32768.size a)
instance k0_chk480.dec : ∀ (v1966 : IVec S16 32), Decidable (k0_chk480 v1966) := fun v1966 => decidable_of_iff' _ (Iff.of_eq (k0_chk480.eq_1 v1966))
theorem k0_idx480_inb : ∀ (v1966 : IVec S16 32) (k0_hw480 : k0_chk480 v1966), ∀ a x, ((![v1966] : Fin 1 → IVec S16 32) a x).toNat < S32768.size a := fun v1966 k0_hw480 => k0_hw480

def k0_chk481 (v1970 : IVec S16 32) : Prop :=
  (∀ a x, ((![v1970] : Fin 1 → IVec S16 32) a x).toNat < S32768.size a)
instance k0_chk481.dec : ∀ (v1970 : IVec S16 32), Decidable (k0_chk481 v1970) := fun v1970 => decidable_of_iff' _ (Iff.of_eq (k0_chk481.eq_1 v1970))
theorem k0_idx481_inb : ∀ (v1970 : IVec S16 32) (k0_hw481 : k0_chk481 v1970), ∀ a x, ((![v1970] : Fin 1 → IVec S16 32) a x).toNat < S32768.size a := fun v1970 k0_hw481 => k0_hw481

def k0_chk482 (v1974 : IVec S16 32) : Prop :=
  (∀ a x, ((![v1974] : Fin 1 → IVec S16 32) a x).toNat < S32768.size a)
instance k0_chk482.dec : ∀ (v1974 : IVec S16 32), Decidable (k0_chk482 v1974) := fun v1974 => decidable_of_iff' _ (Iff.of_eq (k0_chk482.eq_1 v1974))
theorem k0_idx482_inb : ∀ (v1974 : IVec S16 32) (k0_hw482 : k0_chk482 v1974), ∀ a x, ((![v1974] : Fin 1 → IVec S16 32) a x).toNat < S32768.size a := fun v1974 k0_hw482 => k0_hw482

def k0_chk483 (v1978 : IVec S16 32) : Prop :=
  (∀ a x, ((![v1978] : Fin 1 → IVec S16 32) a x).toNat < S32768.size a)
instance k0_chk483.dec : ∀ (v1978 : IVec S16 32), Decidable (k0_chk483 v1978) := fun v1978 => decidable_of_iff' _ (Iff.of_eq (k0_chk483.eq_1 v1978))
theorem k0_idx483_inb : ∀ (v1978 : IVec S16 32) (k0_hw483 : k0_chk483 v1978), ∀ a x, ((![v1978] : Fin 1 → IVec S16 32) a x).toNat < S32768.size a := fun v1978 k0_hw483 => k0_hw483

def k0_chk484 (v1982 : IVec S16 32) : Prop :=
  (∀ a x, ((![v1982] : Fin 1 → IVec S16 32) a x).toNat < S32768.size a)
instance k0_chk484.dec : ∀ (v1982 : IVec S16 32), Decidable (k0_chk484 v1982) := fun v1982 => decidable_of_iff' _ (Iff.of_eq (k0_chk484.eq_1 v1982))
theorem k0_idx484_inb : ∀ (v1982 : IVec S16 32) (k0_hw484 : k0_chk484 v1982), ∀ a x, ((![v1982] : Fin 1 → IVec S16 32) a x).toNat < S32768.size a := fun v1982 k0_hw484 => k0_hw484

def k0_chk485 (v1986 : IVec S16 32) : Prop :=
  (∀ a x, ((![v1986] : Fin 1 → IVec S16 32) a x).toNat < S32768.size a)
instance k0_chk485.dec : ∀ (v1986 : IVec S16 32), Decidable (k0_chk485 v1986) := fun v1986 => decidable_of_iff' _ (Iff.of_eq (k0_chk485.eq_1 v1986))
theorem k0_idx485_inb : ∀ (v1986 : IVec S16 32) (k0_hw485 : k0_chk485 v1986), ∀ a x, ((![v1986] : Fin 1 → IVec S16 32) a x).toNat < S32768.size a := fun v1986 k0_hw485 => k0_hw485

def k0_chk486 (v1990 : IVec S16 32) : Prop :=
  (∀ a x, ((![v1990] : Fin 1 → IVec S16 32) a x).toNat < S32768.size a)
instance k0_chk486.dec : ∀ (v1990 : IVec S16 32), Decidable (k0_chk486 v1990) := fun v1990 => decidable_of_iff' _ (Iff.of_eq (k0_chk486.eq_1 v1990))
theorem k0_idx486_inb : ∀ (v1990 : IVec S16 32) (k0_hw486 : k0_chk486 v1990), ∀ a x, ((![v1990] : Fin 1 → IVec S16 32) a x).toNat < S32768.size a := fun v1990 k0_hw486 => k0_hw486

def k0_chk487 (v1994 : IVec S16 32) : Prop :=
  (∀ a x, ((![v1994] : Fin 1 → IVec S16 32) a x).toNat < S32768.size a)
instance k0_chk487.dec : ∀ (v1994 : IVec S16 32), Decidable (k0_chk487 v1994) := fun v1994 => decidable_of_iff' _ (Iff.of_eq (k0_chk487.eq_1 v1994))
theorem k0_idx487_inb : ∀ (v1994 : IVec S16 32) (k0_hw487 : k0_chk487 v1994), ∀ a x, ((![v1994] : Fin 1 → IVec S16 32) a x).toNat < S32768.size a := fun v1994 k0_hw487 => k0_hw487

def k0_chk488 (v1998 : IVec S16 32) : Prop :=
  (∀ a x, ((![v1998] : Fin 1 → IVec S16 32) a x).toNat < S32768.size a)
instance k0_chk488.dec : ∀ (v1998 : IVec S16 32), Decidable (k0_chk488 v1998) := fun v1998 => decidable_of_iff' _ (Iff.of_eq (k0_chk488.eq_1 v1998))
theorem k0_idx488_inb : ∀ (v1998 : IVec S16 32) (k0_hw488 : k0_chk488 v1998), ∀ a x, ((![v1998] : Fin 1 → IVec S16 32) a x).toNat < S32768.size a := fun v1998 k0_hw488 => k0_hw488

def k0_chk489 (v2002 : IVec S16 32) : Prop :=
  (∀ a x, ((![v2002] : Fin 1 → IVec S16 32) a x).toNat < S32768.size a)
instance k0_chk489.dec : ∀ (v2002 : IVec S16 32), Decidable (k0_chk489 v2002) := fun v2002 => decidable_of_iff' _ (Iff.of_eq (k0_chk489.eq_1 v2002))
theorem k0_idx489_inb : ∀ (v2002 : IVec S16 32) (k0_hw489 : k0_chk489 v2002), ∀ a x, ((![v2002] : Fin 1 → IVec S16 32) a x).toNat < S32768.size a := fun v2002 k0_hw489 => k0_hw489

def k0_chk490 (v2006 : IVec S16 32) : Prop :=
  (∀ a x, ((![v2006] : Fin 1 → IVec S16 32) a x).toNat < S32768.size a)
instance k0_chk490.dec : ∀ (v2006 : IVec S16 32), Decidable (k0_chk490 v2006) := fun v2006 => decidable_of_iff' _ (Iff.of_eq (k0_chk490.eq_1 v2006))
theorem k0_idx490_inb : ∀ (v2006 : IVec S16 32) (k0_hw490 : k0_chk490 v2006), ∀ a x, ((![v2006] : Fin 1 → IVec S16 32) a x).toNat < S32768.size a := fun v2006 k0_hw490 => k0_hw490

def k0_chk491 (v2010 : IVec S16 32) : Prop :=
  (∀ a x, ((![v2010] : Fin 1 → IVec S16 32) a x).toNat < S32768.size a)
instance k0_chk491.dec : ∀ (v2010 : IVec S16 32), Decidable (k0_chk491 v2010) := fun v2010 => decidable_of_iff' _ (Iff.of_eq (k0_chk491.eq_1 v2010))
theorem k0_idx491_inb : ∀ (v2010 : IVec S16 32) (k0_hw491 : k0_chk491 v2010), ∀ a x, ((![v2010] : Fin 1 → IVec S16 32) a x).toNat < S32768.size a := fun v2010 k0_hw491 => k0_hw491

def k0_chk492 (v2014 : IVec S16 32) : Prop :=
  (∀ a x, ((![v2014] : Fin 1 → IVec S16 32) a x).toNat < S32768.size a)
instance k0_chk492.dec : ∀ (v2014 : IVec S16 32), Decidable (k0_chk492 v2014) := fun v2014 => decidable_of_iff' _ (Iff.of_eq (k0_chk492.eq_1 v2014))
theorem k0_idx492_inb : ∀ (v2014 : IVec S16 32) (k0_hw492 : k0_chk492 v2014), ∀ a x, ((![v2014] : Fin 1 → IVec S16 32) a x).toNat < S32768.size a := fun v2014 k0_hw492 => k0_hw492

def k0_chk493 (v2018 : IVec S16 32) : Prop :=
  (∀ a x, ((![v2018] : Fin 1 → IVec S16 32) a x).toNat < S32768.size a)
instance k0_chk493.dec : ∀ (v2018 : IVec S16 32), Decidable (k0_chk493 v2018) := fun v2018 => decidable_of_iff' _ (Iff.of_eq (k0_chk493.eq_1 v2018))
theorem k0_idx493_inb : ∀ (v2018 : IVec S16 32) (k0_hw493 : k0_chk493 v2018), ∀ a x, ((![v2018] : Fin 1 → IVec S16 32) a x).toNat < S32768.size a := fun v2018 k0_hw493 => k0_hw493

def k0_chk494 (v2022 : IVec S16 32) : Prop :=
  (∀ a x, ((![v2022] : Fin 1 → IVec S16 32) a x).toNat < S32768.size a)
instance k0_chk494.dec : ∀ (v2022 : IVec S16 32), Decidable (k0_chk494 v2022) := fun v2022 => decidable_of_iff' _ (Iff.of_eq (k0_chk494.eq_1 v2022))
theorem k0_idx494_inb : ∀ (v2022 : IVec S16 32) (k0_hw494 : k0_chk494 v2022), ∀ a x, ((![v2022] : Fin 1 → IVec S16 32) a x).toNat < S32768.size a := fun v2022 k0_hw494 => k0_hw494

def k0_chk495 (v2026 : IVec S16 32) : Prop :=
  (∀ a x, ((![v2026] : Fin 1 → IVec S16 32) a x).toNat < S32768.size a)
instance k0_chk495.dec : ∀ (v2026 : IVec S16 32), Decidable (k0_chk495 v2026) := fun v2026 => decidable_of_iff' _ (Iff.of_eq (k0_chk495.eq_1 v2026))
theorem k0_idx495_inb : ∀ (v2026 : IVec S16 32) (k0_hw495 : k0_chk495 v2026), ∀ a x, ((![v2026] : Fin 1 → IVec S16 32) a x).toNat < S32768.size a := fun v2026 k0_hw495 => k0_hw495

def k0_chk496 (v2030 : IVec S16 32) : Prop :=
  (∀ a x, ((![v2030] : Fin 1 → IVec S16 32) a x).toNat < S32768.size a)
instance k0_chk496.dec : ∀ (v2030 : IVec S16 32), Decidable (k0_chk496 v2030) := fun v2030 => decidable_of_iff' _ (Iff.of_eq (k0_chk496.eq_1 v2030))
theorem k0_idx496_inb : ∀ (v2030 : IVec S16 32) (k0_hw496 : k0_chk496 v2030), ∀ a x, ((![v2030] : Fin 1 → IVec S16 32) a x).toNat < S32768.size a := fun v2030 k0_hw496 => k0_hw496

def k0_chk497 (v2034 : IVec S16 32) : Prop :=
  (∀ a x, ((![v2034] : Fin 1 → IVec S16 32) a x).toNat < S32768.size a)
instance k0_chk497.dec : ∀ (v2034 : IVec S16 32), Decidable (k0_chk497 v2034) := fun v2034 => decidable_of_iff' _ (Iff.of_eq (k0_chk497.eq_1 v2034))
theorem k0_idx497_inb : ∀ (v2034 : IVec S16 32) (k0_hw497 : k0_chk497 v2034), ∀ a x, ((![v2034] : Fin 1 → IVec S16 32) a x).toNat < S32768.size a := fun v2034 k0_hw497 => k0_hw497

def k0_chk498 (v2038 : IVec S16 32) : Prop :=
  (∀ a x, ((![v2038] : Fin 1 → IVec S16 32) a x).toNat < S32768.size a)
instance k0_chk498.dec : ∀ (v2038 : IVec S16 32), Decidable (k0_chk498 v2038) := fun v2038 => decidable_of_iff' _ (Iff.of_eq (k0_chk498.eq_1 v2038))
theorem k0_idx498_inb : ∀ (v2038 : IVec S16 32) (k0_hw498 : k0_chk498 v2038), ∀ a x, ((![v2038] : Fin 1 → IVec S16 32) a x).toNat < S32768.size a := fun v2038 k0_hw498 => k0_hw498

def k0_chk499 (v2042 : IVec S16 32) : Prop :=
  (∀ a x, ((![v2042] : Fin 1 → IVec S16 32) a x).toNat < S32768.size a)
instance k0_chk499.dec : ∀ (v2042 : IVec S16 32), Decidable (k0_chk499 v2042) := fun v2042 => decidable_of_iff' _ (Iff.of_eq (k0_chk499.eq_1 v2042))
theorem k0_idx499_inb : ∀ (v2042 : IVec S16 32) (k0_hw499 : k0_chk499 v2042), ∀ a x, ((![v2042] : Fin 1 → IVec S16 32) a x).toNat < S32768.size a := fun v2042 k0_hw499 => k0_hw499

def k0_chk500 (v2046 : IVec S16 32) : Prop :=
  (∀ a x, ((![v2046] : Fin 1 → IVec S16 32) a x).toNat < S32768.size a)
instance k0_chk500.dec : ∀ (v2046 : IVec S16 32), Decidable (k0_chk500 v2046) := fun v2046 => decidable_of_iff' _ (Iff.of_eq (k0_chk500.eq_1 v2046))
theorem k0_idx500_inb : ∀ (v2046 : IVec S16 32) (k0_hw500 : k0_chk500 v2046), ∀ a x, ((![v2046] : Fin 1 → IVec S16 32) a x).toNat < S32768.size a := fun v2046 k0_hw500 => k0_hw500

def k0_chk501 (v2050 : IVec S16 32) : Prop :=
  (∀ a x, ((![v2050] : Fin 1 → IVec S16 32) a x).toNat < S32768.size a)
instance k0_chk501.dec : ∀ (v2050 : IVec S16 32), Decidable (k0_chk501 v2050) := fun v2050 => decidable_of_iff' _ (Iff.of_eq (k0_chk501.eq_1 v2050))
theorem k0_idx501_inb : ∀ (v2050 : IVec S16 32) (k0_hw501 : k0_chk501 v2050), ∀ a x, ((![v2050] : Fin 1 → IVec S16 32) a x).toNat < S32768.size a := fun v2050 k0_hw501 => k0_hw501

def k0_chk502 (v2054 : IVec S16 32) : Prop :=
  (∀ a x, ((![v2054] : Fin 1 → IVec S16 32) a x).toNat < S32768.size a)
instance k0_chk502.dec : ∀ (v2054 : IVec S16 32), Decidable (k0_chk502 v2054) := fun v2054 => decidable_of_iff' _ (Iff.of_eq (k0_chk502.eq_1 v2054))
theorem k0_idx502_inb : ∀ (v2054 : IVec S16 32) (k0_hw502 : k0_chk502 v2054), ∀ a x, ((![v2054] : Fin 1 → IVec S16 32) a x).toNat < S32768.size a := fun v2054 k0_hw502 => k0_hw502

def k0_chk503 (v2058 : IVec S16 32) : Prop :=
  (∀ a x, ((![v2058] : Fin 1 → IVec S16 32) a x).toNat < S32768.size a)
instance k0_chk503.dec : ∀ (v2058 : IVec S16 32), Decidable (k0_chk503 v2058) := fun v2058 => decidable_of_iff' _ (Iff.of_eq (k0_chk503.eq_1 v2058))
theorem k0_idx503_inb : ∀ (v2058 : IVec S16 32) (k0_hw503 : k0_chk503 v2058), ∀ a x, ((![v2058] : Fin 1 → IVec S16 32) a x).toNat < S32768.size a := fun v2058 k0_hw503 => k0_hw503

def k0_chk504 (v2062 : IVec S16 32) : Prop :=
  (∀ a x, ((![v2062] : Fin 1 → IVec S16 32) a x).toNat < S32768.size a)
instance k0_chk504.dec : ∀ (v2062 : IVec S16 32), Decidable (k0_chk504 v2062) := fun v2062 => decidable_of_iff' _ (Iff.of_eq (k0_chk504.eq_1 v2062))
theorem k0_idx504_inb : ∀ (v2062 : IVec S16 32) (k0_hw504 : k0_chk504 v2062), ∀ a x, ((![v2062] : Fin 1 → IVec S16 32) a x).toNat < S32768.size a := fun v2062 k0_hw504 => k0_hw504

def k0_chk505 (v2066 : IVec S16 32) : Prop :=
  (∀ a x, ((![v2066] : Fin 1 → IVec S16 32) a x).toNat < S32768.size a)
instance k0_chk505.dec : ∀ (v2066 : IVec S16 32), Decidable (k0_chk505 v2066) := fun v2066 => decidable_of_iff' _ (Iff.of_eq (k0_chk505.eq_1 v2066))
theorem k0_idx505_inb : ∀ (v2066 : IVec S16 32) (k0_hw505 : k0_chk505 v2066), ∀ a x, ((![v2066] : Fin 1 → IVec S16 32) a x).toNat < S32768.size a := fun v2066 k0_hw505 => k0_hw505

def k0_chk506 (v2070 : IVec S16 32) : Prop :=
  (∀ a x, ((![v2070] : Fin 1 → IVec S16 32) a x).toNat < S32768.size a)
instance k0_chk506.dec : ∀ (v2070 : IVec S16 32), Decidable (k0_chk506 v2070) := fun v2070 => decidable_of_iff' _ (Iff.of_eq (k0_chk506.eq_1 v2070))
theorem k0_idx506_inb : ∀ (v2070 : IVec S16 32) (k0_hw506 : k0_chk506 v2070), ∀ a x, ((![v2070] : Fin 1 → IVec S16 32) a x).toNat < S32768.size a := fun v2070 k0_hw506 => k0_hw506

def k0_chk507 (v2074 : IVec S16 32) : Prop :=
  (∀ a x, ((![v2074] : Fin 1 → IVec S16 32) a x).toNat < S32768.size a)
instance k0_chk507.dec : ∀ (v2074 : IVec S16 32), Decidable (k0_chk507 v2074) := fun v2074 => decidable_of_iff' _ (Iff.of_eq (k0_chk507.eq_1 v2074))
theorem k0_idx507_inb : ∀ (v2074 : IVec S16 32) (k0_hw507 : k0_chk507 v2074), ∀ a x, ((![v2074] : Fin 1 → IVec S16 32) a x).toNat < S32768.size a := fun v2074 k0_hw507 => k0_hw507

def k0_chk508 (v2078 : IVec S16 32) : Prop :=
  (∀ a x, ((![v2078] : Fin 1 → IVec S16 32) a x).toNat < S32768.size a)
instance k0_chk508.dec : ∀ (v2078 : IVec S16 32), Decidable (k0_chk508 v2078) := fun v2078 => decidable_of_iff' _ (Iff.of_eq (k0_chk508.eq_1 v2078))
theorem k0_idx508_inb : ∀ (v2078 : IVec S16 32) (k0_hw508 : k0_chk508 v2078), ∀ a x, ((![v2078] : Fin 1 → IVec S16 32) a x).toNat < S32768.size a := fun v2078 k0_hw508 => k0_hw508

def k0_chk509 (v2082 : IVec S16 32) : Prop :=
  (∀ a x, ((![v2082] : Fin 1 → IVec S16 32) a x).toNat < S32768.size a)
instance k0_chk509.dec : ∀ (v2082 : IVec S16 32), Decidable (k0_chk509 v2082) := fun v2082 => decidable_of_iff' _ (Iff.of_eq (k0_chk509.eq_1 v2082))
theorem k0_idx509_inb : ∀ (v2082 : IVec S16 32) (k0_hw509 : k0_chk509 v2082), ∀ a x, ((![v2082] : Fin 1 → IVec S16 32) a x).toNat < S32768.size a := fun v2082 k0_hw509 => k0_hw509

def k0_chk510 (v2086 : IVec S16 32) : Prop :=
  (∀ a x, ((![v2086] : Fin 1 → IVec S16 32) a x).toNat < S32768.size a)
instance k0_chk510.dec : ∀ (v2086 : IVec S16 32), Decidable (k0_chk510 v2086) := fun v2086 => decidable_of_iff' _ (Iff.of_eq (k0_chk510.eq_1 v2086))
theorem k0_idx510_inb : ∀ (v2086 : IVec S16 32) (k0_hw510 : k0_chk510 v2086), ∀ a x, ((![v2086] : Fin 1 → IVec S16 32) a x).toNat < S32768.size a := fun v2086 k0_hw510 => k0_hw510

def k0_chk511 (v2090 : IVec S16 32) : Prop :=
  (∀ a x, ((![v2090] : Fin 1 → IVec S16 32) a x).toNat < S32768.size a)
instance k0_chk511.dec : ∀ (v2090 : IVec S16 32), Decidable (k0_chk511 v2090) := fun v2090 => decidable_of_iff' _ (Iff.of_eq (k0_chk511.eq_1 v2090))
theorem k0_idx511_inb : ∀ (v2090 : IVec S16 32) (k0_hw511 : k0_chk511 v2090), ∀ a x, ((![v2090] : Fin 1 → IVec S16 32) a x).toNat < S32768.size a := fun v2090 k0_hw511 => k0_hw511

def k0_chk512 (v2094 : IVec S16 32) : Prop :=
  (∀ a x, ((![v2094] : Fin 1 → IVec S16 32) a x).toNat < S32768.size a)
instance k0_chk512.dec : ∀ (v2094 : IVec S16 32), Decidable (k0_chk512 v2094) := fun v2094 => decidable_of_iff' _ (Iff.of_eq (k0_chk512.eq_1 v2094))
theorem k0_idx512_inb : ∀ (v2094 : IVec S16 32) (k0_hw512 : k0_chk512 v2094), ∀ a x, ((![v2094] : Fin 1 → IVec S16 32) a x).toNat < S32768.size a := fun v2094 k0_hw512 => k0_hw512
def k0_off4 (i : grid0.Coords) (c4096_i32_657 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v9 : BitVec 32 := Scalar.muli v1 c128_i32_0
  let c2048_i32 : BitVec 32 := 2048#32
  let v10 : BitVec 32 := Scalar.muli v9 c2048_i32
  let v2097 : BitVec 32 := Scalar.addi v10 c4096_i32_657
  ![v2097.toNat]
def k0_off5 (i : grid0.Coords) (c98304_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v7 : BitVec 32 := Scalar.muli v1 c128_i32
  let c16384_i32 : BitVec 32 := 16384#32
  let v8 : BitVec 32 := Scalar.muli v7 c16384_i32
  let v2102 : BitVec 32 := Scalar.addi v8 c98304_i32
  ![v2102.toNat]
@[reducible] def k0_t1_loop : Scf.Loop 32 :=
  let c1_i32_661 : BitVec 32 := 1#32
  let c30_i32 : BitVec 32 := 30#32
  let v2107 : BitVec 32 := Scalar.addi c1_i32_661 c30_i32
  let c1_i32_662 : BitVec 32 := 1#32
  ⟨c1_i32_661, v2107, c1_i32_662⟩
def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v7 : BitVec 32 := Scalar.muli v1 c128_i32
  let c16384_i32 : BitVec 32 := 16384#32
  let v8 : BitVec 32 := Scalar.muli v7 c16384_i32
  let c1_i32_661 : BitVec 32 := 1#32
  let c1_i32_662 : BitVec 32 := 1#32
  let arg12 : BitVec 32 := Scf.iv c1_i32_661 c1_i32_662 k0_t1
  let c2_i32_1702 : BitVec 32 := 2#32
  let v4205 : BitVec 32 := Scalar.muli arg12 c2_i32_1702
  let c0_i32_1703 : BitVec 32 := 0#32
  let v4206 : BitVec 32 := Scalar.addi v4205 c0_i32_1703
  let c32768_i32_1704 : BitVec 32 := 32768#32
  let v4207 : BitVec 32 := Scalar.muli v4206 c32768_i32_1704
  let v4208 : BitVec 32 := Scalar.addi v8 v4207
  ![v4208.toNat]
def k0_off7 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v9 : BitVec 32 := Scalar.muli v1 c128_i32_0
  let c2048_i32 : BitVec 32 := 2048#32
  let v10 : BitVec 32 := Scalar.muli v9 c2048_i32
  let c1_i32_661 : BitVec 32 := 1#32
  let c1_i32_662 : BitVec 32 := 1#32
  let arg12 : BitVec 32 := Scf.iv c1_i32_661 c1_i32_662 k0_t1
  let c2_i32_1702 : BitVec 32 := 2#32
  let v4205 : BitVec 32 := Scalar.muli arg12 c2_i32_1702
  let c0_i32_1703 : BitVec 32 := 0#32
  let v4206 : BitVec 32 := Scalar.addi v4205 c0_i32_1703
  let c2_i32_1706 : BitVec 32 := 2#32
  let v4213 : BitVec 32 := Scalar.subi v4206 c2_i32_1706
  let c4096_i32_1707 : BitVec 32 := 4096#32
  let v4214 : BitVec 32 := Scalar.muli v4213 c4096_i32_1707
  let v4215 : BitVec 32 := Scalar.addi v10 v4214
  ![v4215.toNat]

def k0_chk513 (v4223 : IVec S16 32) : Prop :=
  (∀ a x, ((![v4223] : Fin 1 → IVec S16 32) a x).toNat < S32768.size a)
instance k0_chk513.dec : ∀ (v4223 : IVec S16 32), Decidable (k0_chk513 v4223) := fun v4223 => decidable_of_iff' _ (Iff.of_eq (k0_chk513.eq_1 v4223))
theorem k0_idx513_inb : ∀ (v4223 : IVec S16 32) (k0_hw513 : k0_chk513 v4223), ∀ a x, ((![v4223] : Fin 1 → IVec S16 32) a x).toNat < S32768.size a := fun v4223 k0_hw513 => k0_hw513

def k0_chk514 (v4227 : IVec S16 32) : Prop :=
  (∀ a x, ((![v4227] : Fin 1 → IVec S16 32) a x).toNat < S32768.size a)
instance k0_chk514.dec : ∀ (v4227 : IVec S16 32), Decidable (k0_chk514 v4227) := fun v4227 => decidable_of_iff' _ (Iff.of_eq (k0_chk514.eq_1 v4227))
theorem k0_idx514_inb : ∀ (v4227 : IVec S16 32) (k0_hw514 : k0_chk514 v4227), ∀ a x, ((![v4227] : Fin 1 → IVec S16 32) a x).toNat < S32768.size a := fun v4227 k0_hw514 => k0_hw514

def k0_chk515 (v4231 : IVec S16 32) : Prop :=
  (∀ a x, ((![v4231] : Fin 1 → IVec S16 32) a x).toNat < S32768.size a)
instance k0_chk515.dec : ∀ (v4231 : IVec S16 32), Decidable (k0_chk515 v4231) := fun v4231 => decidable_of_iff' _ (Iff.of_eq (k0_chk515.eq_1 v4231))
theorem k0_idx515_inb : ∀ (v4231 : IVec S16 32) (k0_hw515 : k0_chk515 v4231), ∀ a x, ((![v4231] : Fin 1 → IVec S16 32) a x).toNat < S32768.size a := fun v4231 k0_hw515 => k0_hw515

def k0_chk516 (v4235 : IVec S16 32) : Prop :=
  (∀ a x, ((![v4235] : Fin 1 → IVec S16 32) a x).toNat < S32768.size a)
instance k0_chk516.dec : ∀ (v4235 : IVec S16 32), Decidable (k0_chk516 v4235) := fun v4235 => decidable_of_iff' _ (Iff.of_eq (k0_chk516.eq_1 v4235))
theorem k0_idx516_inb : ∀ (v4235 : IVec S16 32) (k0_hw516 : k0_chk516 v4235), ∀ a x, ((![v4235] : Fin 1 → IVec S16 32) a x).toNat < S32768.size a := fun v4235 k0_hw516 => k0_hw516

def k0_chk517 (v4239 : IVec S16 32) : Prop :=
  (∀ a x, ((![v4239] : Fin 1 → IVec S16 32) a x).toNat < S32768.size a)
instance k0_chk517.dec : ∀ (v4239 : IVec S16 32), Decidable (k0_chk517 v4239) := fun v4239 => decidable_of_iff' _ (Iff.of_eq (k0_chk517.eq_1 v4239))
theorem k0_idx517_inb : ∀ (v4239 : IVec S16 32) (k0_hw517 : k0_chk517 v4239), ∀ a x, ((![v4239] : Fin 1 → IVec S16 32) a x).toNat < S32768.size a := fun v4239 k0_hw517 => k0_hw517

def k0_chk518 (v4243 : IVec S16 32) : Prop :=
  (∀ a x, ((![v4243] : Fin 1 → IVec S16 32) a x).toNat < S32768.size a)
instance k0_chk518.dec : ∀ (v4243 : IVec S16 32), Decidable (k0_chk518 v4243) := fun v4243 => decidable_of_iff' _ (Iff.of_eq (k0_chk518.eq_1 v4243))
theorem k0_idx518_inb : ∀ (v4243 : IVec S16 32) (k0_hw518 : k0_chk518 v4243), ∀ a x, ((![v4243] : Fin 1 → IVec S16 32) a x).toNat < S32768.size a := fun v4243 k0_hw518 => k0_hw518

def k0_chk519 (v4247 : IVec S16 32) : Prop :=
  (∀ a x, ((![v4247] : Fin 1 → IVec S16 32) a x).toNat < S32768.size a)
instance k0_chk519.dec : ∀ (v4247 : IVec S16 32), Decidable (k0_chk519 v4247) := fun v4247 => decidable_of_iff' _ (Iff.of_eq (k0_chk519.eq_1 v4247))
theorem k0_idx519_inb : ∀ (v4247 : IVec S16 32) (k0_hw519 : k0_chk519 v4247), ∀ a x, ((![v4247] : Fin 1 → IVec S16 32) a x).toNat < S32768.size a := fun v4247 k0_hw519 => k0_hw519

def k0_chk520 (v4251 : IVec S16 32) : Prop :=
  (∀ a x, ((![v4251] : Fin 1 → IVec S16 32) a x).toNat < S32768.size a)
instance k0_chk520.dec : ∀ (v4251 : IVec S16 32), Decidable (k0_chk520 v4251) := fun v4251 => decidable_of_iff' _ (Iff.of_eq (k0_chk520.eq_1 v4251))
theorem k0_idx520_inb : ∀ (v4251 : IVec S16 32) (k0_hw520 : k0_chk520 v4251), ∀ a x, ((![v4251] : Fin 1 → IVec S16 32) a x).toNat < S32768.size a := fun v4251 k0_hw520 => k0_hw520

def k0_chk521 (v4255 : IVec S16 32) : Prop :=
  (∀ a x, ((![v4255] : Fin 1 → IVec S16 32) a x).toNat < S32768.size a)
instance k0_chk521.dec : ∀ (v4255 : IVec S16 32), Decidable (k0_chk521 v4255) := fun v4255 => decidable_of_iff' _ (Iff.of_eq (k0_chk521.eq_1 v4255))
theorem k0_idx521_inb : ∀ (v4255 : IVec S16 32) (k0_hw521 : k0_chk521 v4255), ∀ a x, ((![v4255] : Fin 1 → IVec S16 32) a x).toNat < S32768.size a := fun v4255 k0_hw521 => k0_hw521

def k0_chk522 (v4259 : IVec S16 32) : Prop :=
  (∀ a x, ((![v4259] : Fin 1 → IVec S16 32) a x).toNat < S32768.size a)
instance k0_chk522.dec : ∀ (v4259 : IVec S16 32), Decidable (k0_chk522 v4259) := fun v4259 => decidable_of_iff' _ (Iff.of_eq (k0_chk522.eq_1 v4259))
theorem k0_idx522_inb : ∀ (v4259 : IVec S16 32) (k0_hw522 : k0_chk522 v4259), ∀ a x, ((![v4259] : Fin 1 → IVec S16 32) a x).toNat < S32768.size a := fun v4259 k0_hw522 => k0_hw522

def k0_chk523 (v4263 : IVec S16 32) : Prop :=
  (∀ a x, ((![v4263] : Fin 1 → IVec S16 32) a x).toNat < S32768.size a)
instance k0_chk523.dec : ∀ (v4263 : IVec S16 32), Decidable (k0_chk523 v4263) := fun v4263 => decidable_of_iff' _ (Iff.of_eq (k0_chk523.eq_1 v4263))
theorem k0_idx523_inb : ∀ (v4263 : IVec S16 32) (k0_hw523 : k0_chk523 v4263), ∀ a x, ((![v4263] : Fin 1 → IVec S16 32) a x).toNat < S32768.size a := fun v4263 k0_hw523 => k0_hw523

def k0_chk524 (v4267 : IVec S16 32) : Prop :=
  (∀ a x, ((![v4267] : Fin 1 → IVec S16 32) a x).toNat < S32768.size a)
instance k0_chk524.dec : ∀ (v4267 : IVec S16 32), Decidable (k0_chk524 v4267) := fun v4267 => decidable_of_iff' _ (Iff.of_eq (k0_chk524.eq_1 v4267))
theorem k0_idx524_inb : ∀ (v4267 : IVec S16 32) (k0_hw524 : k0_chk524 v4267), ∀ a x, ((![v4267] : Fin 1 → IVec S16 32) a x).toNat < S32768.size a := fun v4267 k0_hw524 => k0_hw524

def k0_chk525 (v4271 : IVec S16 32) : Prop :=
  (∀ a x, ((![v4271] : Fin 1 → IVec S16 32) a x).toNat < S32768.size a)
instance k0_chk525.dec : ∀ (v4271 : IVec S16 32), Decidable (k0_chk525 v4271) := fun v4271 => decidable_of_iff' _ (Iff.of_eq (k0_chk525.eq_1 v4271))
theorem k0_idx525_inb : ∀ (v4271 : IVec S16 32) (k0_hw525 : k0_chk525 v4271), ∀ a x, ((![v4271] : Fin 1 → IVec S16 32) a x).toNat < S32768.size a := fun v4271 k0_hw525 => k0_hw525

def k0_chk526 (v4275 : IVec S16 32) : Prop :=
  (∀ a x, ((![v4275] : Fin 1 → IVec S16 32) a x).toNat < S32768.size a)
instance k0_chk526.dec : ∀ (v4275 : IVec S16 32), Decidable (k0_chk526 v4275) := fun v4275 => decidable_of_iff' _ (Iff.of_eq (k0_chk526.eq_1 v4275))
theorem k0_idx526_inb : ∀ (v4275 : IVec S16 32) (k0_hw526 : k0_chk526 v4275), ∀ a x, ((![v4275] : Fin 1 → IVec S16 32) a x).toNat < S32768.size a := fun v4275 k0_hw526 => k0_hw526

def k0_chk527 (v4279 : IVec S16 32) : Prop :=
  (∀ a x, ((![v4279] : Fin 1 → IVec S16 32) a x).toNat < S32768.size a)
instance k0_chk527.dec : ∀ (v4279 : IVec S16 32), Decidable (k0_chk527 v4279) := fun v4279 => decidable_of_iff' _ (Iff.of_eq (k0_chk527.eq_1 v4279))
theorem k0_idx527_inb : ∀ (v4279 : IVec S16 32) (k0_hw527 : k0_chk527 v4279), ∀ a x, ((![v4279] : Fin 1 → IVec S16 32) a x).toNat < S32768.size a := fun v4279 k0_hw527 => k0_hw527

def k0_chk528 (v4283 : IVec S16 32) : Prop :=
  (∀ a x, ((![v4283] : Fin 1 → IVec S16 32) a x).toNat < S32768.size a)
instance k0_chk528.dec : ∀ (v4283 : IVec S16 32), Decidable (k0_chk528 v4283) := fun v4283 => decidable_of_iff' _ (Iff.of_eq (k0_chk528.eq_1 v4283))
theorem k0_idx528_inb : ∀ (v4283 : IVec S16 32) (k0_hw528 : k0_chk528 v4283), ∀ a x, ((![v4283] : Fin 1 → IVec S16 32) a x).toNat < S32768.size a := fun v4283 k0_hw528 => k0_hw528

def k0_chk529 (v4287 : IVec S16 32) : Prop :=
  (∀ a x, ((![v4287] : Fin 1 → IVec S16 32) a x).toNat < S32768.size a)
instance k0_chk529.dec : ∀ (v4287 : IVec S16 32), Decidable (k0_chk529 v4287) := fun v4287 => decidable_of_iff' _ (Iff.of_eq (k0_chk529.eq_1 v4287))
theorem k0_idx529_inb : ∀ (v4287 : IVec S16 32) (k0_hw529 : k0_chk529 v4287), ∀ a x, ((![v4287] : Fin 1 → IVec S16 32) a x).toNat < S32768.size a := fun v4287 k0_hw529 => k0_hw529

def k0_chk530 (v4291 : IVec S16 32) : Prop :=
  (∀ a x, ((![v4291] : Fin 1 → IVec S16 32) a x).toNat < S32768.size a)
instance k0_chk530.dec : ∀ (v4291 : IVec S16 32), Decidable (k0_chk530 v4291) := fun v4291 => decidable_of_iff' _ (Iff.of_eq (k0_chk530.eq_1 v4291))
theorem k0_idx530_inb : ∀ (v4291 : IVec S16 32) (k0_hw530 : k0_chk530 v4291), ∀ a x, ((![v4291] : Fin 1 → IVec S16 32) a x).toNat < S32768.size a := fun v4291 k0_hw530 => k0_hw530

def k0_chk531 (v4295 : IVec S16 32) : Prop :=
  (∀ a x, ((![v4295] : Fin 1 → IVec S16 32) a x).toNat < S32768.size a)
instance k0_chk531.dec : ∀ (v4295 : IVec S16 32), Decidable (k0_chk531 v4295) := fun v4295 => decidable_of_iff' _ (Iff.of_eq (k0_chk531.eq_1 v4295))
theorem k0_idx531_inb : ∀ (v4295 : IVec S16 32) (k0_hw531 : k0_chk531 v4295), ∀ a x, ((![v4295] : Fin 1 → IVec S16 32) a x).toNat < S32768.size a := fun v4295 k0_hw531 => k0_hw531

def k0_chk532 (v4299 : IVec S16 32) : Prop :=
  (∀ a x, ((![v4299] : Fin 1 → IVec S16 32) a x).toNat < S32768.size a)
instance k0_chk532.dec : ∀ (v4299 : IVec S16 32), Decidable (k0_chk532 v4299) := fun v4299 => decidable_of_iff' _ (Iff.of_eq (k0_chk532.eq_1 v4299))
theorem k0_idx532_inb : ∀ (v4299 : IVec S16 32) (k0_hw532 : k0_chk532 v4299), ∀ a x, ((![v4299] : Fin 1 → IVec S16 32) a x).toNat < S32768.size a := fun v4299 k0_hw532 => k0_hw532

def k0_chk533 (v4303 : IVec S16 32) : Prop :=
  (∀ a x, ((![v4303] : Fin 1 → IVec S16 32) a x).toNat < S32768.size a)
instance k0_chk533.dec : ∀ (v4303 : IVec S16 32), Decidable (k0_chk533 v4303) := fun v4303 => decidable_of_iff' _ (Iff.of_eq (k0_chk533.eq_1 v4303))
theorem k0_idx533_inb : ∀ (v4303 : IVec S16 32) (k0_hw533 : k0_chk533 v4303), ∀ a x, ((![v4303] : Fin 1 → IVec S16 32) a x).toNat < S32768.size a := fun v4303 k0_hw533 => k0_hw533

def k0_chk534 (v4307 : IVec S16 32) : Prop :=
  (∀ a x, ((![v4307] : Fin 1 → IVec S16 32) a x).toNat < S32768.size a)
instance k0_chk534.dec : ∀ (v4307 : IVec S16 32), Decidable (k0_chk534 v4307) := fun v4307 => decidable_of_iff' _ (Iff.of_eq (k0_chk534.eq_1 v4307))
theorem k0_idx534_inb : ∀ (v4307 : IVec S16 32) (k0_hw534 : k0_chk534 v4307), ∀ a x, ((![v4307] : Fin 1 → IVec S16 32) a x).toNat < S32768.size a := fun v4307 k0_hw534 => k0_hw534

def k0_chk535 (v4311 : IVec S16 32) : Prop :=
  (∀ a x, ((![v4311] : Fin 1 → IVec S16 32) a x).toNat < S32768.size a)
instance k0_chk535.dec : ∀ (v4311 : IVec S16 32), Decidable (k0_chk535 v4311) := fun v4311 => decidable_of_iff' _ (Iff.of_eq (k0_chk535.eq_1 v4311))
theorem k0_idx535_inb : ∀ (v4311 : IVec S16 32) (k0_hw535 : k0_chk535 v4311), ∀ a x, ((![v4311] : Fin 1 → IVec S16 32) a x).toNat < S32768.size a := fun v4311 k0_hw535 => k0_hw535

def k0_chk536 (v4315 : IVec S16 32) : Prop :=
  (∀ a x, ((![v4315] : Fin 1 → IVec S16 32) a x).toNat < S32768.size a)
instance k0_chk536.dec : ∀ (v4315 : IVec S16 32), Decidable (k0_chk536 v4315) := fun v4315 => decidable_of_iff' _ (Iff.of_eq (k0_chk536.eq_1 v4315))
theorem k0_idx536_inb : ∀ (v4315 : IVec S16 32) (k0_hw536 : k0_chk536 v4315), ∀ a x, ((![v4315] : Fin 1 → IVec S16 32) a x).toNat < S32768.size a := fun v4315 k0_hw536 => k0_hw536

def k0_chk537 (v4319 : IVec S16 32) : Prop :=
  (∀ a x, ((![v4319] : Fin 1 → IVec S16 32) a x).toNat < S32768.size a)
instance k0_chk537.dec : ∀ (v4319 : IVec S16 32), Decidable (k0_chk537 v4319) := fun v4319 => decidable_of_iff' _ (Iff.of_eq (k0_chk537.eq_1 v4319))
theorem k0_idx537_inb : ∀ (v4319 : IVec S16 32) (k0_hw537 : k0_chk537 v4319), ∀ a x, ((![v4319] : Fin 1 → IVec S16 32) a x).toNat < S32768.size a := fun v4319 k0_hw537 => k0_hw537

def k0_chk538 (v4323 : IVec S16 32) : Prop :=
  (∀ a x, ((![v4323] : Fin 1 → IVec S16 32) a x).toNat < S32768.size a)
instance k0_chk538.dec : ∀ (v4323 : IVec S16 32), Decidable (k0_chk538 v4323) := fun v4323 => decidable_of_iff' _ (Iff.of_eq (k0_chk538.eq_1 v4323))
theorem k0_idx538_inb : ∀ (v4323 : IVec S16 32) (k0_hw538 : k0_chk538 v4323), ∀ a x, ((![v4323] : Fin 1 → IVec S16 32) a x).toNat < S32768.size a := fun v4323 k0_hw538 => k0_hw538

def k0_chk539 (v4327 : IVec S16 32) : Prop :=
  (∀ a x, ((![v4327] : Fin 1 → IVec S16 32) a x).toNat < S32768.size a)
instance k0_chk539.dec : ∀ (v4327 : IVec S16 32), Decidable (k0_chk539 v4327) := fun v4327 => decidable_of_iff' _ (Iff.of_eq (k0_chk539.eq_1 v4327))
theorem k0_idx539_inb : ∀ (v4327 : IVec S16 32) (k0_hw539 : k0_chk539 v4327), ∀ a x, ((![v4327] : Fin 1 → IVec S16 32) a x).toNat < S32768.size a := fun v4327 k0_hw539 => k0_hw539

def k0_chk540 (v4331 : IVec S16 32) : Prop :=
  (∀ a x, ((![v4331] : Fin 1 → IVec S16 32) a x).toNat < S32768.size a)
instance k0_chk540.dec : ∀ (v4331 : IVec S16 32), Decidable (k0_chk540 v4331) := fun v4331 => decidable_of_iff' _ (Iff.of_eq (k0_chk540.eq_1 v4331))
theorem k0_idx540_inb : ∀ (v4331 : IVec S16 32) (k0_hw540 : k0_chk540 v4331), ∀ a x, ((![v4331] : Fin 1 → IVec S16 32) a x).toNat < S32768.size a := fun v4331 k0_hw540 => k0_hw540

def k0_chk541 (v4335 : IVec S16 32) : Prop :=
  (∀ a x, ((![v4335] : Fin 1 → IVec S16 32) a x).toNat < S32768.size a)
instance k0_chk541.dec : ∀ (v4335 : IVec S16 32), Decidable (k0_chk541 v4335) := fun v4335 => decidable_of_iff' _ (Iff.of_eq (k0_chk541.eq_1 v4335))
theorem k0_idx541_inb : ∀ (v4335 : IVec S16 32) (k0_hw541 : k0_chk541 v4335), ∀ a x, ((![v4335] : Fin 1 → IVec S16 32) a x).toNat < S32768.size a := fun v4335 k0_hw541 => k0_hw541

def k0_chk542 (v4339 : IVec S16 32) : Prop :=
  (∀ a x, ((![v4339] : Fin 1 → IVec S16 32) a x).toNat < S32768.size a)
instance k0_chk542.dec : ∀ (v4339 : IVec S16 32), Decidable (k0_chk542 v4339) := fun v4339 => decidable_of_iff' _ (Iff.of_eq (k0_chk542.eq_1 v4339))
theorem k0_idx542_inb : ∀ (v4339 : IVec S16 32) (k0_hw542 : k0_chk542 v4339), ∀ a x, ((![v4339] : Fin 1 → IVec S16 32) a x).toNat < S32768.size a := fun v4339 k0_hw542 => k0_hw542

def k0_chk543 (v4343 : IVec S16 32) : Prop :=
  (∀ a x, ((![v4343] : Fin 1 → IVec S16 32) a x).toNat < S32768.size a)
instance k0_chk543.dec : ∀ (v4343 : IVec S16 32), Decidable (k0_chk543 v4343) := fun v4343 => decidable_of_iff' _ (Iff.of_eq (k0_chk543.eq_1 v4343))
theorem k0_idx543_inb : ∀ (v4343 : IVec S16 32) (k0_hw543 : k0_chk543 v4343), ∀ a x, ((![v4343] : Fin 1 → IVec S16 32) a x).toNat < S32768.size a := fun v4343 k0_hw543 => k0_hw543

def k0_chk544 (v4347 : IVec S16 32) : Prop :=
  (∀ a x, ((![v4347] : Fin 1 → IVec S16 32) a x).toNat < S32768.size a)
instance k0_chk544.dec : ∀ (v4347 : IVec S16 32), Decidable (k0_chk544 v4347) := fun v4347 => decidable_of_iff' _ (Iff.of_eq (k0_chk544.eq_1 v4347))
theorem k0_idx544_inb : ∀ (v4347 : IVec S16 32) (k0_hw544 : k0_chk544 v4347), ∀ a x, ((![v4347] : Fin 1 → IVec S16 32) a x).toNat < S32768.size a := fun v4347 k0_hw544 => k0_hw544

def k0_chk545 (v4351 : IVec S16 32) : Prop :=
  (∀ a x, ((![v4351] : Fin 1 → IVec S16 32) a x).toNat < S32768.size a)
instance k0_chk545.dec : ∀ (v4351 : IVec S16 32), Decidable (k0_chk545 v4351) := fun v4351 => decidable_of_iff' _ (Iff.of_eq (k0_chk545.eq_1 v4351))
theorem k0_idx545_inb : ∀ (v4351 : IVec S16 32) (k0_hw545 : k0_chk545 v4351), ∀ a x, ((![v4351] : Fin 1 → IVec S16 32) a x).toNat < S32768.size a := fun v4351 k0_hw545 => k0_hw545

def k0_chk546 (v4355 : IVec S16 32) : Prop :=
  (∀ a x, ((![v4355] : Fin 1 → IVec S16 32) a x).toNat < S32768.size a)
instance k0_chk546.dec : ∀ (v4355 : IVec S16 32), Decidable (k0_chk546 v4355) := fun v4355 => decidable_of_iff' _ (Iff.of_eq (k0_chk546.eq_1 v4355))
theorem k0_idx546_inb : ∀ (v4355 : IVec S16 32) (k0_hw546 : k0_chk546 v4355), ∀ a x, ((![v4355] : Fin 1 → IVec S16 32) a x).toNat < S32768.size a := fun v4355 k0_hw546 => k0_hw546

def k0_chk547 (v4359 : IVec S16 32) : Prop :=
  (∀ a x, ((![v4359] : Fin 1 → IVec S16 32) a x).toNat < S32768.size a)
instance k0_chk547.dec : ∀ (v4359 : IVec S16 32), Decidable (k0_chk547 v4359) := fun v4359 => decidable_of_iff' _ (Iff.of_eq (k0_chk547.eq_1 v4359))
theorem k0_idx547_inb : ∀ (v4359 : IVec S16 32) (k0_hw547 : k0_chk547 v4359), ∀ a x, ((![v4359] : Fin 1 → IVec S16 32) a x).toNat < S32768.size a := fun v4359 k0_hw547 => k0_hw547

def k0_chk548 (v4363 : IVec S16 32) : Prop :=
  (∀ a x, ((![v4363] : Fin 1 → IVec S16 32) a x).toNat < S32768.size a)
instance k0_chk548.dec : ∀ (v4363 : IVec S16 32), Decidable (k0_chk548 v4363) := fun v4363 => decidable_of_iff' _ (Iff.of_eq (k0_chk548.eq_1 v4363))
theorem k0_idx548_inb : ∀ (v4363 : IVec S16 32) (k0_hw548 : k0_chk548 v4363), ∀ a x, ((![v4363] : Fin 1 → IVec S16 32) a x).toNat < S32768.size a := fun v4363 k0_hw548 => k0_hw548

def k0_chk549 (v4367 : IVec S16 32) : Prop :=
  (∀ a x, ((![v4367] : Fin 1 → IVec S16 32) a x).toNat < S32768.size a)
instance k0_chk549.dec : ∀ (v4367 : IVec S16 32), Decidable (k0_chk549 v4367) := fun v4367 => decidable_of_iff' _ (Iff.of_eq (k0_chk549.eq_1 v4367))
theorem k0_idx549_inb : ∀ (v4367 : IVec S16 32) (k0_hw549 : k0_chk549 v4367), ∀ a x, ((![v4367] : Fin 1 → IVec S16 32) a x).toNat < S32768.size a := fun v4367 k0_hw549 => k0_hw549

def k0_chk550 (v4371 : IVec S16 32) : Prop :=
  (∀ a x, ((![v4371] : Fin 1 → IVec S16 32) a x).toNat < S32768.size a)
instance k0_chk550.dec : ∀ (v4371 : IVec S16 32), Decidable (k0_chk550 v4371) := fun v4371 => decidable_of_iff' _ (Iff.of_eq (k0_chk550.eq_1 v4371))
theorem k0_idx550_inb : ∀ (v4371 : IVec S16 32) (k0_hw550 : k0_chk550 v4371), ∀ a x, ((![v4371] : Fin 1 → IVec S16 32) a x).toNat < S32768.size a := fun v4371 k0_hw550 => k0_hw550

def k0_chk551 (v4375 : IVec S16 32) : Prop :=
  (∀ a x, ((![v4375] : Fin 1 → IVec S16 32) a x).toNat < S32768.size a)
instance k0_chk551.dec : ∀ (v4375 : IVec S16 32), Decidable (k0_chk551 v4375) := fun v4375 => decidable_of_iff' _ (Iff.of_eq (k0_chk551.eq_1 v4375))
theorem k0_idx551_inb : ∀ (v4375 : IVec S16 32) (k0_hw551 : k0_chk551 v4375), ∀ a x, ((![v4375] : Fin 1 → IVec S16 32) a x).toNat < S32768.size a := fun v4375 k0_hw551 => k0_hw551

def k0_chk552 (v4379 : IVec S16 32) : Prop :=
  (∀ a x, ((![v4379] : Fin 1 → IVec S16 32) a x).toNat < S32768.size a)
instance k0_chk552.dec : ∀ (v4379 : IVec S16 32), Decidable (k0_chk552 v4379) := fun v4379 => decidable_of_iff' _ (Iff.of_eq (k0_chk552.eq_1 v4379))
theorem k0_idx552_inb : ∀ (v4379 : IVec S16 32) (k0_hw552 : k0_chk552 v4379), ∀ a x, ((![v4379] : Fin 1 → IVec S16 32) a x).toNat < S32768.size a := fun v4379 k0_hw552 => k0_hw552

def k0_chk553 (v4383 : IVec S16 32) : Prop :=
  (∀ a x, ((![v4383] : Fin 1 → IVec S16 32) a x).toNat < S32768.size a)
instance k0_chk553.dec : ∀ (v4383 : IVec S16 32), Decidable (k0_chk553 v4383) := fun v4383 => decidable_of_iff' _ (Iff.of_eq (k0_chk553.eq_1 v4383))
theorem k0_idx553_inb : ∀ (v4383 : IVec S16 32) (k0_hw553 : k0_chk553 v4383), ∀ a x, ((![v4383] : Fin 1 → IVec S16 32) a x).toNat < S32768.size a := fun v4383 k0_hw553 => k0_hw553

def k0_chk554 (v4387 : IVec S16 32) : Prop :=
  (∀ a x, ((![v4387] : Fin 1 → IVec S16 32) a x).toNat < S32768.size a)
instance k0_chk554.dec : ∀ (v4387 : IVec S16 32), Decidable (k0_chk554 v4387) := fun v4387 => decidable_of_iff' _ (Iff.of_eq (k0_chk554.eq_1 v4387))
theorem k0_idx554_inb : ∀ (v4387 : IVec S16 32) (k0_hw554 : k0_chk554 v4387), ∀ a x, ((![v4387] : Fin 1 → IVec S16 32) a x).toNat < S32768.size a := fun v4387 k0_hw554 => k0_hw554

def k0_chk555 (v4391 : IVec S16 32) : Prop :=
  (∀ a x, ((![v4391] : Fin 1 → IVec S16 32) a x).toNat < S32768.size a)
instance k0_chk555.dec : ∀ (v4391 : IVec S16 32), Decidable (k0_chk555 v4391) := fun v4391 => decidable_of_iff' _ (Iff.of_eq (k0_chk555.eq_1 v4391))
theorem k0_idx555_inb : ∀ (v4391 : IVec S16 32) (k0_hw555 : k0_chk555 v4391), ∀ a x, ((![v4391] : Fin 1 → IVec S16 32) a x).toNat < S32768.size a := fun v4391 k0_hw555 => k0_hw555

def k0_chk556 (v4395 : IVec S16 32) : Prop :=
  (∀ a x, ((![v4395] : Fin 1 → IVec S16 32) a x).toNat < S32768.size a)
instance k0_chk556.dec : ∀ (v4395 : IVec S16 32), Decidable (k0_chk556 v4395) := fun v4395 => decidable_of_iff' _ (Iff.of_eq (k0_chk556.eq_1 v4395))
theorem k0_idx556_inb : ∀ (v4395 : IVec S16 32) (k0_hw556 : k0_chk556 v4395), ∀ a x, ((![v4395] : Fin 1 → IVec S16 32) a x).toNat < S32768.size a := fun v4395 k0_hw556 => k0_hw556

def k0_chk557 (v4399 : IVec S16 32) : Prop :=
  (∀ a x, ((![v4399] : Fin 1 → IVec S16 32) a x).toNat < S32768.size a)
instance k0_chk557.dec : ∀ (v4399 : IVec S16 32), Decidable (k0_chk557 v4399) := fun v4399 => decidable_of_iff' _ (Iff.of_eq (k0_chk557.eq_1 v4399))
theorem k0_idx557_inb : ∀ (v4399 : IVec S16 32) (k0_hw557 : k0_chk557 v4399), ∀ a x, ((![v4399] : Fin 1 → IVec S16 32) a x).toNat < S32768.size a := fun v4399 k0_hw557 => k0_hw557

def k0_chk558 (v4403 : IVec S16 32) : Prop :=
  (∀ a x, ((![v4403] : Fin 1 → IVec S16 32) a x).toNat < S32768.size a)
instance k0_chk558.dec : ∀ (v4403 : IVec S16 32), Decidable (k0_chk558 v4403) := fun v4403 => decidable_of_iff' _ (Iff.of_eq (k0_chk558.eq_1 v4403))
theorem k0_idx558_inb : ∀ (v4403 : IVec S16 32) (k0_hw558 : k0_chk558 v4403), ∀ a x, ((![v4403] : Fin 1 → IVec S16 32) a x).toNat < S32768.size a := fun v4403 k0_hw558 => k0_hw558

def k0_chk559 (v4407 : IVec S16 32) : Prop :=
  (∀ a x, ((![v4407] : Fin 1 → IVec S16 32) a x).toNat < S32768.size a)
instance k0_chk559.dec : ∀ (v4407 : IVec S16 32), Decidable (k0_chk559 v4407) := fun v4407 => decidable_of_iff' _ (Iff.of_eq (k0_chk559.eq_1 v4407))
theorem k0_idx559_inb : ∀ (v4407 : IVec S16 32) (k0_hw559 : k0_chk559 v4407), ∀ a x, ((![v4407] : Fin 1 → IVec S16 32) a x).toNat < S32768.size a := fun v4407 k0_hw559 => k0_hw559

def k0_chk560 (v4411 : IVec S16 32) : Prop :=
  (∀ a x, ((![v4411] : Fin 1 → IVec S16 32) a x).toNat < S32768.size a)
instance k0_chk560.dec : ∀ (v4411 : IVec S16 32), Decidable (k0_chk560 v4411) := fun v4411 => decidable_of_iff' _ (Iff.of_eq (k0_chk560.eq_1 v4411))
theorem k0_idx560_inb : ∀ (v4411 : IVec S16 32) (k0_hw560 : k0_chk560 v4411), ∀ a x, ((![v4411] : Fin 1 → IVec S16 32) a x).toNat < S32768.size a := fun v4411 k0_hw560 => k0_hw560

def k0_chk561 (v4415 : IVec S16 32) : Prop :=
  (∀ a x, ((![v4415] : Fin 1 → IVec S16 32) a x).toNat < S32768.size a)
instance k0_chk561.dec : ∀ (v4415 : IVec S16 32), Decidable (k0_chk561 v4415) := fun v4415 => decidable_of_iff' _ (Iff.of_eq (k0_chk561.eq_1 v4415))
theorem k0_idx561_inb : ∀ (v4415 : IVec S16 32) (k0_hw561 : k0_chk561 v4415), ∀ a x, ((![v4415] : Fin 1 → IVec S16 32) a x).toNat < S32768.size a := fun v4415 k0_hw561 => k0_hw561

def k0_chk562 (v4419 : IVec S16 32) : Prop :=
  (∀ a x, ((![v4419] : Fin 1 → IVec S16 32) a x).toNat < S32768.size a)
instance k0_chk562.dec : ∀ (v4419 : IVec S16 32), Decidable (k0_chk562 v4419) := fun v4419 => decidable_of_iff' _ (Iff.of_eq (k0_chk562.eq_1 v4419))
theorem k0_idx562_inb : ∀ (v4419 : IVec S16 32) (k0_hw562 : k0_chk562 v4419), ∀ a x, ((![v4419] : Fin 1 → IVec S16 32) a x).toNat < S32768.size a := fun v4419 k0_hw562 => k0_hw562

def k0_chk563 (v4423 : IVec S16 32) : Prop :=
  (∀ a x, ((![v4423] : Fin 1 → IVec S16 32) a x).toNat < S32768.size a)
instance k0_chk563.dec : ∀ (v4423 : IVec S16 32), Decidable (k0_chk563 v4423) := fun v4423 => decidable_of_iff' _ (Iff.of_eq (k0_chk563.eq_1 v4423))
theorem k0_idx563_inb : ∀ (v4423 : IVec S16 32) (k0_hw563 : k0_chk563 v4423), ∀ a x, ((![v4423] : Fin 1 → IVec S16 32) a x).toNat < S32768.size a := fun v4423 k0_hw563 => k0_hw563

def k0_chk564 (v4427 : IVec S16 32) : Prop :=
  (∀ a x, ((![v4427] : Fin 1 → IVec S16 32) a x).toNat < S32768.size a)
instance k0_chk564.dec : ∀ (v4427 : IVec S16 32), Decidable (k0_chk564 v4427) := fun v4427 => decidable_of_iff' _ (Iff.of_eq (k0_chk564.eq_1 v4427))
theorem k0_idx564_inb : ∀ (v4427 : IVec S16 32) (k0_hw564 : k0_chk564 v4427), ∀ a x, ((![v4427] : Fin 1 → IVec S16 32) a x).toNat < S32768.size a := fun v4427 k0_hw564 => k0_hw564

def k0_chk565 (v4431 : IVec S16 32) : Prop :=
  (∀ a x, ((![v4431] : Fin 1 → IVec S16 32) a x).toNat < S32768.size a)
instance k0_chk565.dec : ∀ (v4431 : IVec S16 32), Decidable (k0_chk565 v4431) := fun v4431 => decidable_of_iff' _ (Iff.of_eq (k0_chk565.eq_1 v4431))
theorem k0_idx565_inb : ∀ (v4431 : IVec S16 32) (k0_hw565 : k0_chk565 v4431), ∀ a x, ((![v4431] : Fin 1 → IVec S16 32) a x).toNat < S32768.size a := fun v4431 k0_hw565 => k0_hw565

def k0_chk566 (v4435 : IVec S16 32) : Prop :=
  (∀ a x, ((![v4435] : Fin 1 → IVec S16 32) a x).toNat < S32768.size a)
instance k0_chk566.dec : ∀ (v4435 : IVec S16 32), Decidable (k0_chk566 v4435) := fun v4435 => decidable_of_iff' _ (Iff.of_eq (k0_chk566.eq_1 v4435))
theorem k0_idx566_inb : ∀ (v4435 : IVec S16 32) (k0_hw566 : k0_chk566 v4435), ∀ a x, ((![v4435] : Fin 1 → IVec S16 32) a x).toNat < S32768.size a := fun v4435 k0_hw566 => k0_hw566

def k0_chk567 (v4439 : IVec S16 32) : Prop :=
  (∀ a x, ((![v4439] : Fin 1 → IVec S16 32) a x).toNat < S32768.size a)
instance k0_chk567.dec : ∀ (v4439 : IVec S16 32), Decidable (k0_chk567 v4439) := fun v4439 => decidable_of_iff' _ (Iff.of_eq (k0_chk567.eq_1 v4439))
theorem k0_idx567_inb : ∀ (v4439 : IVec S16 32) (k0_hw567 : k0_chk567 v4439), ∀ a x, ((![v4439] : Fin 1 → IVec S16 32) a x).toNat < S32768.size a := fun v4439 k0_hw567 => k0_hw567

def k0_chk568 (v4443 : IVec S16 32) : Prop :=
  (∀ a x, ((![v4443] : Fin 1 → IVec S16 32) a x).toNat < S32768.size a)
instance k0_chk568.dec : ∀ (v4443 : IVec S16 32), Decidable (k0_chk568 v4443) := fun v4443 => decidable_of_iff' _ (Iff.of_eq (k0_chk568.eq_1 v4443))
theorem k0_idx568_inb : ∀ (v4443 : IVec S16 32) (k0_hw568 : k0_chk568 v4443), ∀ a x, ((![v4443] : Fin 1 → IVec S16 32) a x).toNat < S32768.size a := fun v4443 k0_hw568 => k0_hw568

def k0_chk569 (v4447 : IVec S16 32) : Prop :=
  (∀ a x, ((![v4447] : Fin 1 → IVec S16 32) a x).toNat < S32768.size a)
instance k0_chk569.dec : ∀ (v4447 : IVec S16 32), Decidable (k0_chk569 v4447) := fun v4447 => decidable_of_iff' _ (Iff.of_eq (k0_chk569.eq_1 v4447))
theorem k0_idx569_inb : ∀ (v4447 : IVec S16 32) (k0_hw569 : k0_chk569 v4447), ∀ a x, ((![v4447] : Fin 1 → IVec S16 32) a x).toNat < S32768.size a := fun v4447 k0_hw569 => k0_hw569

def k0_chk570 (v4451 : IVec S16 32) : Prop :=
  (∀ a x, ((![v4451] : Fin 1 → IVec S16 32) a x).toNat < S32768.size a)
instance k0_chk570.dec : ∀ (v4451 : IVec S16 32), Decidable (k0_chk570 v4451) := fun v4451 => decidable_of_iff' _ (Iff.of_eq (k0_chk570.eq_1 v4451))
theorem k0_idx570_inb : ∀ (v4451 : IVec S16 32) (k0_hw570 : k0_chk570 v4451), ∀ a x, ((![v4451] : Fin 1 → IVec S16 32) a x).toNat < S32768.size a := fun v4451 k0_hw570 => k0_hw570

def k0_chk571 (v4455 : IVec S16 32) : Prop :=
  (∀ a x, ((![v4455] : Fin 1 → IVec S16 32) a x).toNat < S32768.size a)
instance k0_chk571.dec : ∀ (v4455 : IVec S16 32), Decidable (k0_chk571 v4455) := fun v4455 => decidable_of_iff' _ (Iff.of_eq (k0_chk571.eq_1 v4455))
theorem k0_idx571_inb : ∀ (v4455 : IVec S16 32) (k0_hw571 : k0_chk571 v4455), ∀ a x, ((![v4455] : Fin 1 → IVec S16 32) a x).toNat < S32768.size a := fun v4455 k0_hw571 => k0_hw571

def k0_chk572 (v4459 : IVec S16 32) : Prop :=
  (∀ a x, ((![v4459] : Fin 1 → IVec S16 32) a x).toNat < S32768.size a)
instance k0_chk572.dec : ∀ (v4459 : IVec S16 32), Decidable (k0_chk572 v4459) := fun v4459 => decidable_of_iff' _ (Iff.of_eq (k0_chk572.eq_1 v4459))
theorem k0_idx572_inb : ∀ (v4459 : IVec S16 32) (k0_hw572 : k0_chk572 v4459), ∀ a x, ((![v4459] : Fin 1 → IVec S16 32) a x).toNat < S32768.size a := fun v4459 k0_hw572 => k0_hw572

def k0_chk573 (v4463 : IVec S16 32) : Prop :=
  (∀ a x, ((![v4463] : Fin 1 → IVec S16 32) a x).toNat < S32768.size a)
instance k0_chk573.dec : ∀ (v4463 : IVec S16 32), Decidable (k0_chk573 v4463) := fun v4463 => decidable_of_iff' _ (Iff.of_eq (k0_chk573.eq_1 v4463))
theorem k0_idx573_inb : ∀ (v4463 : IVec S16 32) (k0_hw573 : k0_chk573 v4463), ∀ a x, ((![v4463] : Fin 1 → IVec S16 32) a x).toNat < S32768.size a := fun v4463 k0_hw573 => k0_hw573

def k0_chk574 (v4467 : IVec S16 32) : Prop :=
  (∀ a x, ((![v4467] : Fin 1 → IVec S16 32) a x).toNat < S32768.size a)
instance k0_chk574.dec : ∀ (v4467 : IVec S16 32), Decidable (k0_chk574 v4467) := fun v4467 => decidable_of_iff' _ (Iff.of_eq (k0_chk574.eq_1 v4467))
theorem k0_idx574_inb : ∀ (v4467 : IVec S16 32) (k0_hw574 : k0_chk574 v4467), ∀ a x, ((![v4467] : Fin 1 → IVec S16 32) a x).toNat < S32768.size a := fun v4467 k0_hw574 => k0_hw574

def k0_chk575 (v4471 : IVec S16 32) : Prop :=
  (∀ a x, ((![v4471] : Fin 1 → IVec S16 32) a x).toNat < S32768.size a)
instance k0_chk575.dec : ∀ (v4471 : IVec S16 32), Decidable (k0_chk575 v4471) := fun v4471 => decidable_of_iff' _ (Iff.of_eq (k0_chk575.eq_1 v4471))
theorem k0_idx575_inb : ∀ (v4471 : IVec S16 32) (k0_hw575 : k0_chk575 v4471), ∀ a x, ((![v4471] : Fin 1 → IVec S16 32) a x).toNat < S32768.size a := fun v4471 k0_hw575 => k0_hw575

def k0_chk576 (v4475 : IVec S16 32) : Prop :=
  (∀ a x, ((![v4475] : Fin 1 → IVec S16 32) a x).toNat < S32768.size a)
instance k0_chk576.dec : ∀ (v4475 : IVec S16 32), Decidable (k0_chk576 v4475) := fun v4475 => decidable_of_iff' _ (Iff.of_eq (k0_chk576.eq_1 v4475))
theorem k0_idx576_inb : ∀ (v4475 : IVec S16 32) (k0_hw576 : k0_chk576 v4475), ∀ a x, ((![v4475] : Fin 1 → IVec S16 32) a x).toNat < S32768.size a := fun v4475 k0_hw576 => k0_hw576

def k0_chk577 (v4479 : IVec S16 32) : Prop :=
  (∀ a x, ((![v4479] : Fin 1 → IVec S16 32) a x).toNat < S32768.size a)
instance k0_chk577.dec : ∀ (v4479 : IVec S16 32), Decidable (k0_chk577 v4479) := fun v4479 => decidable_of_iff' _ (Iff.of_eq (k0_chk577.eq_1 v4479))
theorem k0_idx577_inb : ∀ (v4479 : IVec S16 32) (k0_hw577 : k0_chk577 v4479), ∀ a x, ((![v4479] : Fin 1 → IVec S16 32) a x).toNat < S32768.size a := fun v4479 k0_hw577 => k0_hw577

def k0_chk578 (v4483 : IVec S16 32) : Prop :=
  (∀ a x, ((![v4483] : Fin 1 → IVec S16 32) a x).toNat < S32768.size a)
instance k0_chk578.dec : ∀ (v4483 : IVec S16 32), Decidable (k0_chk578 v4483) := fun v4483 => decidable_of_iff' _ (Iff.of_eq (k0_chk578.eq_1 v4483))
theorem k0_idx578_inb : ∀ (v4483 : IVec S16 32) (k0_hw578 : k0_chk578 v4483), ∀ a x, ((![v4483] : Fin 1 → IVec S16 32) a x).toNat < S32768.size a := fun v4483 k0_hw578 => k0_hw578

def k0_chk579 (v4487 : IVec S16 32) : Prop :=
  (∀ a x, ((![v4487] : Fin 1 → IVec S16 32) a x).toNat < S32768.size a)
instance k0_chk579.dec : ∀ (v4487 : IVec S16 32), Decidable (k0_chk579 v4487) := fun v4487 => decidable_of_iff' _ (Iff.of_eq (k0_chk579.eq_1 v4487))
theorem k0_idx579_inb : ∀ (v4487 : IVec S16 32) (k0_hw579 : k0_chk579 v4487), ∀ a x, ((![v4487] : Fin 1 → IVec S16 32) a x).toNat < S32768.size a := fun v4487 k0_hw579 => k0_hw579

def k0_chk580 (v4491 : IVec S16 32) : Prop :=
  (∀ a x, ((![v4491] : Fin 1 → IVec S16 32) a x).toNat < S32768.size a)
instance k0_chk580.dec : ∀ (v4491 : IVec S16 32), Decidable (k0_chk580 v4491) := fun v4491 => decidable_of_iff' _ (Iff.of_eq (k0_chk580.eq_1 v4491))
theorem k0_idx580_inb : ∀ (v4491 : IVec S16 32) (k0_hw580 : k0_chk580 v4491), ∀ a x, ((![v4491] : Fin 1 → IVec S16 32) a x).toNat < S32768.size a := fun v4491 k0_hw580 => k0_hw580

def k0_chk581 (v4495 : IVec S16 32) : Prop :=
  (∀ a x, ((![v4495] : Fin 1 → IVec S16 32) a x).toNat < S32768.size a)
instance k0_chk581.dec : ∀ (v4495 : IVec S16 32), Decidable (k0_chk581 v4495) := fun v4495 => decidable_of_iff' _ (Iff.of_eq (k0_chk581.eq_1 v4495))
theorem k0_idx581_inb : ∀ (v4495 : IVec S16 32) (k0_hw581 : k0_chk581 v4495), ∀ a x, ((![v4495] : Fin 1 → IVec S16 32) a x).toNat < S32768.size a := fun v4495 k0_hw581 => k0_hw581

def k0_chk582 (v4499 : IVec S16 32) : Prop :=
  (∀ a x, ((![v4499] : Fin 1 → IVec S16 32) a x).toNat < S32768.size a)
instance k0_chk582.dec : ∀ (v4499 : IVec S16 32), Decidable (k0_chk582 v4499) := fun v4499 => decidable_of_iff' _ (Iff.of_eq (k0_chk582.eq_1 v4499))
theorem k0_idx582_inb : ∀ (v4499 : IVec S16 32) (k0_hw582 : k0_chk582 v4499), ∀ a x, ((![v4499] : Fin 1 → IVec S16 32) a x).toNat < S32768.size a := fun v4499 k0_hw582 => k0_hw582

def k0_chk583 (v4503 : IVec S16 32) : Prop :=
  (∀ a x, ((![v4503] : Fin 1 → IVec S16 32) a x).toNat < S32768.size a)
instance k0_chk583.dec : ∀ (v4503 : IVec S16 32), Decidable (k0_chk583 v4503) := fun v4503 => decidable_of_iff' _ (Iff.of_eq (k0_chk583.eq_1 v4503))
theorem k0_idx583_inb : ∀ (v4503 : IVec S16 32) (k0_hw583 : k0_chk583 v4503), ∀ a x, ((![v4503] : Fin 1 → IVec S16 32) a x).toNat < S32768.size a := fun v4503 k0_hw583 => k0_hw583

def k0_chk584 (v4507 : IVec S16 32) : Prop :=
  (∀ a x, ((![v4507] : Fin 1 → IVec S16 32) a x).toNat < S32768.size a)
instance k0_chk584.dec : ∀ (v4507 : IVec S16 32), Decidable (k0_chk584 v4507) := fun v4507 => decidable_of_iff' _ (Iff.of_eq (k0_chk584.eq_1 v4507))
theorem k0_idx584_inb : ∀ (v4507 : IVec S16 32) (k0_hw584 : k0_chk584 v4507), ∀ a x, ((![v4507] : Fin 1 → IVec S16 32) a x).toNat < S32768.size a := fun v4507 k0_hw584 => k0_hw584

def k0_chk585 (v4511 : IVec S16 32) : Prop :=
  (∀ a x, ((![v4511] : Fin 1 → IVec S16 32) a x).toNat < S32768.size a)
instance k0_chk585.dec : ∀ (v4511 : IVec S16 32), Decidable (k0_chk585 v4511) := fun v4511 => decidable_of_iff' _ (Iff.of_eq (k0_chk585.eq_1 v4511))
theorem k0_idx585_inb : ∀ (v4511 : IVec S16 32) (k0_hw585 : k0_chk585 v4511), ∀ a x, ((![v4511] : Fin 1 → IVec S16 32) a x).toNat < S32768.size a := fun v4511 k0_hw585 => k0_hw585

def k0_chk586 (v4515 : IVec S16 32) : Prop :=
  (∀ a x, ((![v4515] : Fin 1 → IVec S16 32) a x).toNat < S32768.size a)
instance k0_chk586.dec : ∀ (v4515 : IVec S16 32), Decidable (k0_chk586 v4515) := fun v4515 => decidable_of_iff' _ (Iff.of_eq (k0_chk586.eq_1 v4515))
theorem k0_idx586_inb : ∀ (v4515 : IVec S16 32) (k0_hw586 : k0_chk586 v4515), ∀ a x, ((![v4515] : Fin 1 → IVec S16 32) a x).toNat < S32768.size a := fun v4515 k0_hw586 => k0_hw586

def k0_chk587 (v4519 : IVec S16 32) : Prop :=
  (∀ a x, ((![v4519] : Fin 1 → IVec S16 32) a x).toNat < S32768.size a)
instance k0_chk587.dec : ∀ (v4519 : IVec S16 32), Decidable (k0_chk587 v4519) := fun v4519 => decidable_of_iff' _ (Iff.of_eq (k0_chk587.eq_1 v4519))
theorem k0_idx587_inb : ∀ (v4519 : IVec S16 32) (k0_hw587 : k0_chk587 v4519), ∀ a x, ((![v4519] : Fin 1 → IVec S16 32) a x).toNat < S32768.size a := fun v4519 k0_hw587 => k0_hw587

def k0_chk588 (v4523 : IVec S16 32) : Prop :=
  (∀ a x, ((![v4523] : Fin 1 → IVec S16 32) a x).toNat < S32768.size a)
instance k0_chk588.dec : ∀ (v4523 : IVec S16 32), Decidable (k0_chk588 v4523) := fun v4523 => decidable_of_iff' _ (Iff.of_eq (k0_chk588.eq_1 v4523))
theorem k0_idx588_inb : ∀ (v4523 : IVec S16 32) (k0_hw588 : k0_chk588 v4523), ∀ a x, ((![v4523] : Fin 1 → IVec S16 32) a x).toNat < S32768.size a := fun v4523 k0_hw588 => k0_hw588

def k0_chk589 (v4527 : IVec S16 32) : Prop :=
  (∀ a x, ((![v4527] : Fin 1 → IVec S16 32) a x).toNat < S32768.size a)
instance k0_chk589.dec : ∀ (v4527 : IVec S16 32), Decidable (k0_chk589 v4527) := fun v4527 => decidable_of_iff' _ (Iff.of_eq (k0_chk589.eq_1 v4527))
theorem k0_idx589_inb : ∀ (v4527 : IVec S16 32) (k0_hw589 : k0_chk589 v4527), ∀ a x, ((![v4527] : Fin 1 → IVec S16 32) a x).toNat < S32768.size a := fun v4527 k0_hw589 => k0_hw589

def k0_chk590 (v4531 : IVec S16 32) : Prop :=
  (∀ a x, ((![v4531] : Fin 1 → IVec S16 32) a x).toNat < S32768.size a)
instance k0_chk590.dec : ∀ (v4531 : IVec S16 32), Decidable (k0_chk590 v4531) := fun v4531 => decidable_of_iff' _ (Iff.of_eq (k0_chk590.eq_1 v4531))
theorem k0_idx590_inb : ∀ (v4531 : IVec S16 32) (k0_hw590 : k0_chk590 v4531), ∀ a x, ((![v4531] : Fin 1 → IVec S16 32) a x).toNat < S32768.size a := fun v4531 k0_hw590 => k0_hw590

def k0_chk591 (v4535 : IVec S16 32) : Prop :=
  (∀ a x, ((![v4535] : Fin 1 → IVec S16 32) a x).toNat < S32768.size a)
instance k0_chk591.dec : ∀ (v4535 : IVec S16 32), Decidable (k0_chk591 v4535) := fun v4535 => decidable_of_iff' _ (Iff.of_eq (k0_chk591.eq_1 v4535))
theorem k0_idx591_inb : ∀ (v4535 : IVec S16 32) (k0_hw591 : k0_chk591 v4535), ∀ a x, ((![v4535] : Fin 1 → IVec S16 32) a x).toNat < S32768.size a := fun v4535 k0_hw591 => k0_hw591

def k0_chk592 (v4539 : IVec S16 32) : Prop :=
  (∀ a x, ((![v4539] : Fin 1 → IVec S16 32) a x).toNat < S32768.size a)
instance k0_chk592.dec : ∀ (v4539 : IVec S16 32), Decidable (k0_chk592 v4539) := fun v4539 => decidable_of_iff' _ (Iff.of_eq (k0_chk592.eq_1 v4539))
theorem k0_idx592_inb : ∀ (v4539 : IVec S16 32) (k0_hw592 : k0_chk592 v4539), ∀ a x, ((![v4539] : Fin 1 → IVec S16 32) a x).toNat < S32768.size a := fun v4539 k0_hw592 => k0_hw592

def k0_chk593 (v4543 : IVec S16 32) : Prop :=
  (∀ a x, ((![v4543] : Fin 1 → IVec S16 32) a x).toNat < S32768.size a)
instance k0_chk593.dec : ∀ (v4543 : IVec S16 32), Decidable (k0_chk593 v4543) := fun v4543 => decidable_of_iff' _ (Iff.of_eq (k0_chk593.eq_1 v4543))
theorem k0_idx593_inb : ∀ (v4543 : IVec S16 32) (k0_hw593 : k0_chk593 v4543), ∀ a x, ((![v4543] : Fin 1 → IVec S16 32) a x).toNat < S32768.size a := fun v4543 k0_hw593 => k0_hw593

def k0_chk594 (v4547 : IVec S16 32) : Prop :=
  (∀ a x, ((![v4547] : Fin 1 → IVec S16 32) a x).toNat < S32768.size a)
instance k0_chk594.dec : ∀ (v4547 : IVec S16 32), Decidable (k0_chk594 v4547) := fun v4547 => decidable_of_iff' _ (Iff.of_eq (k0_chk594.eq_1 v4547))
theorem k0_idx594_inb : ∀ (v4547 : IVec S16 32) (k0_hw594 : k0_chk594 v4547), ∀ a x, ((![v4547] : Fin 1 → IVec S16 32) a x).toNat < S32768.size a := fun v4547 k0_hw594 => k0_hw594

def k0_chk595 (v4551 : IVec S16 32) : Prop :=
  (∀ a x, ((![v4551] : Fin 1 → IVec S16 32) a x).toNat < S32768.size a)
instance k0_chk595.dec : ∀ (v4551 : IVec S16 32), Decidable (k0_chk595 v4551) := fun v4551 => decidable_of_iff' _ (Iff.of_eq (k0_chk595.eq_1 v4551))
theorem k0_idx595_inb : ∀ (v4551 : IVec S16 32) (k0_hw595 : k0_chk595 v4551), ∀ a x, ((![v4551] : Fin 1 → IVec S16 32) a x).toNat < S32768.size a := fun v4551 k0_hw595 => k0_hw595

def k0_chk596 (v4555 : IVec S16 32) : Prop :=
  (∀ a x, ((![v4555] : Fin 1 → IVec S16 32) a x).toNat < S32768.size a)
instance k0_chk596.dec : ∀ (v4555 : IVec S16 32), Decidable (k0_chk596 v4555) := fun v4555 => decidable_of_iff' _ (Iff.of_eq (k0_chk596.eq_1 v4555))
theorem k0_idx596_inb : ∀ (v4555 : IVec S16 32) (k0_hw596 : k0_chk596 v4555), ∀ a x, ((![v4555] : Fin 1 → IVec S16 32) a x).toNat < S32768.size a := fun v4555 k0_hw596 => k0_hw596

def k0_chk597 (v4559 : IVec S16 32) : Prop :=
  (∀ a x, ((![v4559] : Fin 1 → IVec S16 32) a x).toNat < S32768.size a)
instance k0_chk597.dec : ∀ (v4559 : IVec S16 32), Decidable (k0_chk597 v4559) := fun v4559 => decidable_of_iff' _ (Iff.of_eq (k0_chk597.eq_1 v4559))
theorem k0_idx597_inb : ∀ (v4559 : IVec S16 32) (k0_hw597 : k0_chk597 v4559), ∀ a x, ((![v4559] : Fin 1 → IVec S16 32) a x).toNat < S32768.size a := fun v4559 k0_hw597 => k0_hw597

def k0_chk598 (v4563 : IVec S16 32) : Prop :=
  (∀ a x, ((![v4563] : Fin 1 → IVec S16 32) a x).toNat < S32768.size a)
instance k0_chk598.dec : ∀ (v4563 : IVec S16 32), Decidable (k0_chk598 v4563) := fun v4563 => decidable_of_iff' _ (Iff.of_eq (k0_chk598.eq_1 v4563))
theorem k0_idx598_inb : ∀ (v4563 : IVec S16 32) (k0_hw598 : k0_chk598 v4563), ∀ a x, ((![v4563] : Fin 1 → IVec S16 32) a x).toNat < S32768.size a := fun v4563 k0_hw598 => k0_hw598

def k0_chk599 (v4567 : IVec S16 32) : Prop :=
  (∀ a x, ((![v4567] : Fin 1 → IVec S16 32) a x).toNat < S32768.size a)
instance k0_chk599.dec : ∀ (v4567 : IVec S16 32), Decidable (k0_chk599 v4567) := fun v4567 => decidable_of_iff' _ (Iff.of_eq (k0_chk599.eq_1 v4567))
theorem k0_idx599_inb : ∀ (v4567 : IVec S16 32) (k0_hw599 : k0_chk599 v4567), ∀ a x, ((![v4567] : Fin 1 → IVec S16 32) a x).toNat < S32768.size a := fun v4567 k0_hw599 => k0_hw599

def k0_chk600 (v4571 : IVec S16 32) : Prop :=
  (∀ a x, ((![v4571] : Fin 1 → IVec S16 32) a x).toNat < S32768.size a)
instance k0_chk600.dec : ∀ (v4571 : IVec S16 32), Decidable (k0_chk600 v4571) := fun v4571 => decidable_of_iff' _ (Iff.of_eq (k0_chk600.eq_1 v4571))
theorem k0_idx600_inb : ∀ (v4571 : IVec S16 32) (k0_hw600 : k0_chk600 v4571), ∀ a x, ((![v4571] : Fin 1 → IVec S16 32) a x).toNat < S32768.size a := fun v4571 k0_hw600 => k0_hw600

def k0_chk601 (v4575 : IVec S16 32) : Prop :=
  (∀ a x, ((![v4575] : Fin 1 → IVec S16 32) a x).toNat < S32768.size a)
instance k0_chk601.dec : ∀ (v4575 : IVec S16 32), Decidable (k0_chk601 v4575) := fun v4575 => decidable_of_iff' _ (Iff.of_eq (k0_chk601.eq_1 v4575))
theorem k0_idx601_inb : ∀ (v4575 : IVec S16 32) (k0_hw601 : k0_chk601 v4575), ∀ a x, ((![v4575] : Fin 1 → IVec S16 32) a x).toNat < S32768.size a := fun v4575 k0_hw601 => k0_hw601

def k0_chk602 (v4579 : IVec S16 32) : Prop :=
  (∀ a x, ((![v4579] : Fin 1 → IVec S16 32) a x).toNat < S32768.size a)
instance k0_chk602.dec : ∀ (v4579 : IVec S16 32), Decidable (k0_chk602 v4579) := fun v4579 => decidable_of_iff' _ (Iff.of_eq (k0_chk602.eq_1 v4579))
theorem k0_idx602_inb : ∀ (v4579 : IVec S16 32) (k0_hw602 : k0_chk602 v4579), ∀ a x, ((![v4579] : Fin 1 → IVec S16 32) a x).toNat < S32768.size a := fun v4579 k0_hw602 => k0_hw602

def k0_chk603 (v4583 : IVec S16 32) : Prop :=
  (∀ a x, ((![v4583] : Fin 1 → IVec S16 32) a x).toNat < S32768.size a)
instance k0_chk603.dec : ∀ (v4583 : IVec S16 32), Decidable (k0_chk603 v4583) := fun v4583 => decidable_of_iff' _ (Iff.of_eq (k0_chk603.eq_1 v4583))
theorem k0_idx603_inb : ∀ (v4583 : IVec S16 32) (k0_hw603 : k0_chk603 v4583), ∀ a x, ((![v4583] : Fin 1 → IVec S16 32) a x).toNat < S32768.size a := fun v4583 k0_hw603 => k0_hw603

def k0_chk604 (v4587 : IVec S16 32) : Prop :=
  (∀ a x, ((![v4587] : Fin 1 → IVec S16 32) a x).toNat < S32768.size a)
instance k0_chk604.dec : ∀ (v4587 : IVec S16 32), Decidable (k0_chk604 v4587) := fun v4587 => decidable_of_iff' _ (Iff.of_eq (k0_chk604.eq_1 v4587))
theorem k0_idx604_inb : ∀ (v4587 : IVec S16 32) (k0_hw604 : k0_chk604 v4587), ∀ a x, ((![v4587] : Fin 1 → IVec S16 32) a x).toNat < S32768.size a := fun v4587 k0_hw604 => k0_hw604

def k0_chk605 (v4591 : IVec S16 32) : Prop :=
  (∀ a x, ((![v4591] : Fin 1 → IVec S16 32) a x).toNat < S32768.size a)
instance k0_chk605.dec : ∀ (v4591 : IVec S16 32), Decidable (k0_chk605 v4591) := fun v4591 => decidable_of_iff' _ (Iff.of_eq (k0_chk605.eq_1 v4591))
theorem k0_idx605_inb : ∀ (v4591 : IVec S16 32) (k0_hw605 : k0_chk605 v4591), ∀ a x, ((![v4591] : Fin 1 → IVec S16 32) a x).toNat < S32768.size a := fun v4591 k0_hw605 => k0_hw605

def k0_chk606 (v4595 : IVec S16 32) : Prop :=
  (∀ a x, ((![v4595] : Fin 1 → IVec S16 32) a x).toNat < S32768.size a)
instance k0_chk606.dec : ∀ (v4595 : IVec S16 32), Decidable (k0_chk606 v4595) := fun v4595 => decidable_of_iff' _ (Iff.of_eq (k0_chk606.eq_1 v4595))
theorem k0_idx606_inb : ∀ (v4595 : IVec S16 32) (k0_hw606 : k0_chk606 v4595), ∀ a x, ((![v4595] : Fin 1 → IVec S16 32) a x).toNat < S32768.size a := fun v4595 k0_hw606 => k0_hw606

def k0_chk607 (v4599 : IVec S16 32) : Prop :=
  (∀ a x, ((![v4599] : Fin 1 → IVec S16 32) a x).toNat < S32768.size a)
instance k0_chk607.dec : ∀ (v4599 : IVec S16 32), Decidable (k0_chk607 v4599) := fun v4599 => decidable_of_iff' _ (Iff.of_eq (k0_chk607.eq_1 v4599))
theorem k0_idx607_inb : ∀ (v4599 : IVec S16 32) (k0_hw607 : k0_chk607 v4599), ∀ a x, ((![v4599] : Fin 1 → IVec S16 32) a x).toNat < S32768.size a := fun v4599 k0_hw607 => k0_hw607

def k0_chk608 (v4603 : IVec S16 32) : Prop :=
  (∀ a x, ((![v4603] : Fin 1 → IVec S16 32) a x).toNat < S32768.size a)
instance k0_chk608.dec : ∀ (v4603 : IVec S16 32), Decidable (k0_chk608 v4603) := fun v4603 => decidable_of_iff' _ (Iff.of_eq (k0_chk608.eq_1 v4603))
theorem k0_idx608_inb : ∀ (v4603 : IVec S16 32) (k0_hw608 : k0_chk608 v4603), ∀ a x, ((![v4603] : Fin 1 → IVec S16 32) a x).toNat < S32768.size a := fun v4603 k0_hw608 => k0_hw608

def k0_chk609 (v4607 : IVec S16 32) : Prop :=
  (∀ a x, ((![v4607] : Fin 1 → IVec S16 32) a x).toNat < S32768.size a)
instance k0_chk609.dec : ∀ (v4607 : IVec S16 32), Decidable (k0_chk609 v4607) := fun v4607 => decidable_of_iff' _ (Iff.of_eq (k0_chk609.eq_1 v4607))
theorem k0_idx609_inb : ∀ (v4607 : IVec S16 32) (k0_hw609 : k0_chk609 v4607), ∀ a x, ((![v4607] : Fin 1 → IVec S16 32) a x).toNat < S32768.size a := fun v4607 k0_hw609 => k0_hw609

def k0_chk610 (v4611 : IVec S16 32) : Prop :=
  (∀ a x, ((![v4611] : Fin 1 → IVec S16 32) a x).toNat < S32768.size a)
instance k0_chk610.dec : ∀ (v4611 : IVec S16 32), Decidable (k0_chk610 v4611) := fun v4611 => decidable_of_iff' _ (Iff.of_eq (k0_chk610.eq_1 v4611))
theorem k0_idx610_inb : ∀ (v4611 : IVec S16 32) (k0_hw610 : k0_chk610 v4611), ∀ a x, ((![v4611] : Fin 1 → IVec S16 32) a x).toNat < S32768.size a := fun v4611 k0_hw610 => k0_hw610

def k0_chk611 (v4615 : IVec S16 32) : Prop :=
  (∀ a x, ((![v4615] : Fin 1 → IVec S16 32) a x).toNat < S32768.size a)
instance k0_chk611.dec : ∀ (v4615 : IVec S16 32), Decidable (k0_chk611 v4615) := fun v4615 => decidable_of_iff' _ (Iff.of_eq (k0_chk611.eq_1 v4615))
theorem k0_idx611_inb : ∀ (v4615 : IVec S16 32) (k0_hw611 : k0_chk611 v4615), ∀ a x, ((![v4615] : Fin 1 → IVec S16 32) a x).toNat < S32768.size a := fun v4615 k0_hw611 => k0_hw611

def k0_chk612 (v4619 : IVec S16 32) : Prop :=
  (∀ a x, ((![v4619] : Fin 1 → IVec S16 32) a x).toNat < S32768.size a)
instance k0_chk612.dec : ∀ (v4619 : IVec S16 32), Decidable (k0_chk612 v4619) := fun v4619 => decidable_of_iff' _ (Iff.of_eq (k0_chk612.eq_1 v4619))
theorem k0_idx612_inb : ∀ (v4619 : IVec S16 32) (k0_hw612 : k0_chk612 v4619), ∀ a x, ((![v4619] : Fin 1 → IVec S16 32) a x).toNat < S32768.size a := fun v4619 k0_hw612 => k0_hw612

def k0_chk613 (v4623 : IVec S16 32) : Prop :=
  (∀ a x, ((![v4623] : Fin 1 → IVec S16 32) a x).toNat < S32768.size a)
instance k0_chk613.dec : ∀ (v4623 : IVec S16 32), Decidable (k0_chk613 v4623) := fun v4623 => decidable_of_iff' _ (Iff.of_eq (k0_chk613.eq_1 v4623))
theorem k0_idx613_inb : ∀ (v4623 : IVec S16 32) (k0_hw613 : k0_chk613 v4623), ∀ a x, ((![v4623] : Fin 1 → IVec S16 32) a x).toNat < S32768.size a := fun v4623 k0_hw613 => k0_hw613

def k0_chk614 (v4627 : IVec S16 32) : Prop :=
  (∀ a x, ((![v4627] : Fin 1 → IVec S16 32) a x).toNat < S32768.size a)
instance k0_chk614.dec : ∀ (v4627 : IVec S16 32), Decidable (k0_chk614 v4627) := fun v4627 => decidable_of_iff' _ (Iff.of_eq (k0_chk614.eq_1 v4627))
theorem k0_idx614_inb : ∀ (v4627 : IVec S16 32) (k0_hw614 : k0_chk614 v4627), ∀ a x, ((![v4627] : Fin 1 → IVec S16 32) a x).toNat < S32768.size a := fun v4627 k0_hw614 => k0_hw614

def k0_chk615 (v4631 : IVec S16 32) : Prop :=
  (∀ a x, ((![v4631] : Fin 1 → IVec S16 32) a x).toNat < S32768.size a)
instance k0_chk615.dec : ∀ (v4631 : IVec S16 32), Decidable (k0_chk615 v4631) := fun v4631 => decidable_of_iff' _ (Iff.of_eq (k0_chk615.eq_1 v4631))
theorem k0_idx615_inb : ∀ (v4631 : IVec S16 32) (k0_hw615 : k0_chk615 v4631), ∀ a x, ((![v4631] : Fin 1 → IVec S16 32) a x).toNat < S32768.size a := fun v4631 k0_hw615 => k0_hw615

def k0_chk616 (v4635 : IVec S16 32) : Prop :=
  (∀ a x, ((![v4635] : Fin 1 → IVec S16 32) a x).toNat < S32768.size a)
instance k0_chk616.dec : ∀ (v4635 : IVec S16 32), Decidable (k0_chk616 v4635) := fun v4635 => decidable_of_iff' _ (Iff.of_eq (k0_chk616.eq_1 v4635))
theorem k0_idx616_inb : ∀ (v4635 : IVec S16 32) (k0_hw616 : k0_chk616 v4635), ∀ a x, ((![v4635] : Fin 1 → IVec S16 32) a x).toNat < S32768.size a := fun v4635 k0_hw616 => k0_hw616

def k0_chk617 (v4639 : IVec S16 32) : Prop :=
  (∀ a x, ((![v4639] : Fin 1 → IVec S16 32) a x).toNat < S32768.size a)
instance k0_chk617.dec : ∀ (v4639 : IVec S16 32), Decidable (k0_chk617 v4639) := fun v4639 => decidable_of_iff' _ (Iff.of_eq (k0_chk617.eq_1 v4639))
theorem k0_idx617_inb : ∀ (v4639 : IVec S16 32) (k0_hw617 : k0_chk617 v4639), ∀ a x, ((![v4639] : Fin 1 → IVec S16 32) a x).toNat < S32768.size a := fun v4639 k0_hw617 => k0_hw617

def k0_chk618 (v4643 : IVec S16 32) : Prop :=
  (∀ a x, ((![v4643] : Fin 1 → IVec S16 32) a x).toNat < S32768.size a)
instance k0_chk618.dec : ∀ (v4643 : IVec S16 32), Decidable (k0_chk618 v4643) := fun v4643 => decidable_of_iff' _ (Iff.of_eq (k0_chk618.eq_1 v4643))
theorem k0_idx618_inb : ∀ (v4643 : IVec S16 32) (k0_hw618 : k0_chk618 v4643), ∀ a x, ((![v4643] : Fin 1 → IVec S16 32) a x).toNat < S32768.size a := fun v4643 k0_hw618 => k0_hw618

def k0_chk619 (v4647 : IVec S16 32) : Prop :=
  (∀ a x, ((![v4647] : Fin 1 → IVec S16 32) a x).toNat < S32768.size a)
instance k0_chk619.dec : ∀ (v4647 : IVec S16 32), Decidable (k0_chk619 v4647) := fun v4647 => decidable_of_iff' _ (Iff.of_eq (k0_chk619.eq_1 v4647))
theorem k0_idx619_inb : ∀ (v4647 : IVec S16 32) (k0_hw619 : k0_chk619 v4647), ∀ a x, ((![v4647] : Fin 1 → IVec S16 32) a x).toNat < S32768.size a := fun v4647 k0_hw619 => k0_hw619

def k0_chk620 (v4651 : IVec S16 32) : Prop :=
  (∀ a x, ((![v4651] : Fin 1 → IVec S16 32) a x).toNat < S32768.size a)
instance k0_chk620.dec : ∀ (v4651 : IVec S16 32), Decidable (k0_chk620 v4651) := fun v4651 => decidable_of_iff' _ (Iff.of_eq (k0_chk620.eq_1 v4651))
theorem k0_idx620_inb : ∀ (v4651 : IVec S16 32) (k0_hw620 : k0_chk620 v4651), ∀ a x, ((![v4651] : Fin 1 → IVec S16 32) a x).toNat < S32768.size a := fun v4651 k0_hw620 => k0_hw620

def k0_chk621 (v4655 : IVec S16 32) : Prop :=
  (∀ a x, ((![v4655] : Fin 1 → IVec S16 32) a x).toNat < S32768.size a)
instance k0_chk621.dec : ∀ (v4655 : IVec S16 32), Decidable (k0_chk621 v4655) := fun v4655 => decidable_of_iff' _ (Iff.of_eq (k0_chk621.eq_1 v4655))
theorem k0_idx621_inb : ∀ (v4655 : IVec S16 32) (k0_hw621 : k0_chk621 v4655), ∀ a x, ((![v4655] : Fin 1 → IVec S16 32) a x).toNat < S32768.size a := fun v4655 k0_hw621 => k0_hw621

def k0_chk622 (v4659 : IVec S16 32) : Prop :=
  (∀ a x, ((![v4659] : Fin 1 → IVec S16 32) a x).toNat < S32768.size a)
instance k0_chk622.dec : ∀ (v4659 : IVec S16 32), Decidable (k0_chk622 v4659) := fun v4659 => decidable_of_iff' _ (Iff.of_eq (k0_chk622.eq_1 v4659))
theorem k0_idx622_inb : ∀ (v4659 : IVec S16 32) (k0_hw622 : k0_chk622 v4659), ∀ a x, ((![v4659] : Fin 1 → IVec S16 32) a x).toNat < S32768.size a := fun v4659 k0_hw622 => k0_hw622

def k0_chk623 (v4663 : IVec S16 32) : Prop :=
  (∀ a x, ((![v4663] : Fin 1 → IVec S16 32) a x).toNat < S32768.size a)
instance k0_chk623.dec : ∀ (v4663 : IVec S16 32), Decidable (k0_chk623 v4663) := fun v4663 => decidable_of_iff' _ (Iff.of_eq (k0_chk623.eq_1 v4663))
theorem k0_idx623_inb : ∀ (v4663 : IVec S16 32) (k0_hw623 : k0_chk623 v4663), ∀ a x, ((![v4663] : Fin 1 → IVec S16 32) a x).toNat < S32768.size a := fun v4663 k0_hw623 => k0_hw623

def k0_chk624 (v4667 : IVec S16 32) : Prop :=
  (∀ a x, ((![v4667] : Fin 1 → IVec S16 32) a x).toNat < S32768.size a)
instance k0_chk624.dec : ∀ (v4667 : IVec S16 32), Decidable (k0_chk624 v4667) := fun v4667 => decidable_of_iff' _ (Iff.of_eq (k0_chk624.eq_1 v4667))
theorem k0_idx624_inb : ∀ (v4667 : IVec S16 32) (k0_hw624 : k0_chk624 v4667), ∀ a x, ((![v4667] : Fin 1 → IVec S16 32) a x).toNat < S32768.size a := fun v4667 k0_hw624 => k0_hw624

def k0_chk625 (v4671 : IVec S16 32) : Prop :=
  (∀ a x, ((![v4671] : Fin 1 → IVec S16 32) a x).toNat < S32768.size a)
instance k0_chk625.dec : ∀ (v4671 : IVec S16 32), Decidable (k0_chk625 v4671) := fun v4671 => decidable_of_iff' _ (Iff.of_eq (k0_chk625.eq_1 v4671))
theorem k0_idx625_inb : ∀ (v4671 : IVec S16 32) (k0_hw625 : k0_chk625 v4671), ∀ a x, ((![v4671] : Fin 1 → IVec S16 32) a x).toNat < S32768.size a := fun v4671 k0_hw625 => k0_hw625

def k0_chk626 (v4675 : IVec S16 32) : Prop :=
  (∀ a x, ((![v4675] : Fin 1 → IVec S16 32) a x).toNat < S32768.size a)
instance k0_chk626.dec : ∀ (v4675 : IVec S16 32), Decidable (k0_chk626 v4675) := fun v4675 => decidable_of_iff' _ (Iff.of_eq (k0_chk626.eq_1 v4675))
theorem k0_idx626_inb : ∀ (v4675 : IVec S16 32) (k0_hw626 : k0_chk626 v4675), ∀ a x, ((![v4675] : Fin 1 → IVec S16 32) a x).toNat < S32768.size a := fun v4675 k0_hw626 => k0_hw626

def k0_chk627 (v4679 : IVec S16 32) : Prop :=
  (∀ a x, ((![v4679] : Fin 1 → IVec S16 32) a x).toNat < S32768.size a)
instance k0_chk627.dec : ∀ (v4679 : IVec S16 32), Decidable (k0_chk627 v4679) := fun v4679 => decidable_of_iff' _ (Iff.of_eq (k0_chk627.eq_1 v4679))
theorem k0_idx627_inb : ∀ (v4679 : IVec S16 32) (k0_hw627 : k0_chk627 v4679), ∀ a x, ((![v4679] : Fin 1 → IVec S16 32) a x).toNat < S32768.size a := fun v4679 k0_hw627 => k0_hw627

def k0_chk628 (v4683 : IVec S16 32) : Prop :=
  (∀ a x, ((![v4683] : Fin 1 → IVec S16 32) a x).toNat < S32768.size a)
instance k0_chk628.dec : ∀ (v4683 : IVec S16 32), Decidable (k0_chk628 v4683) := fun v4683 => decidable_of_iff' _ (Iff.of_eq (k0_chk628.eq_1 v4683))
theorem k0_idx628_inb : ∀ (v4683 : IVec S16 32) (k0_hw628 : k0_chk628 v4683), ∀ a x, ((![v4683] : Fin 1 → IVec S16 32) a x).toNat < S32768.size a := fun v4683 k0_hw628 => k0_hw628

def k0_chk629 (v4687 : IVec S16 32) : Prop :=
  (∀ a x, ((![v4687] : Fin 1 → IVec S16 32) a x).toNat < S32768.size a)
instance k0_chk629.dec : ∀ (v4687 : IVec S16 32), Decidable (k0_chk629 v4687) := fun v4687 => decidable_of_iff' _ (Iff.of_eq (k0_chk629.eq_1 v4687))
theorem k0_idx629_inb : ∀ (v4687 : IVec S16 32) (k0_hw629 : k0_chk629 v4687), ∀ a x, ((![v4687] : Fin 1 → IVec S16 32) a x).toNat < S32768.size a := fun v4687 k0_hw629 => k0_hw629

def k0_chk630 (v4691 : IVec S16 32) : Prop :=
  (∀ a x, ((![v4691] : Fin 1 → IVec S16 32) a x).toNat < S32768.size a)
instance k0_chk630.dec : ∀ (v4691 : IVec S16 32), Decidable (k0_chk630 v4691) := fun v4691 => decidable_of_iff' _ (Iff.of_eq (k0_chk630.eq_1 v4691))
theorem k0_idx630_inb : ∀ (v4691 : IVec S16 32) (k0_hw630 : k0_chk630 v4691), ∀ a x, ((![v4691] : Fin 1 → IVec S16 32) a x).toNat < S32768.size a := fun v4691 k0_hw630 => k0_hw630

def k0_chk631 (v4695 : IVec S16 32) : Prop :=
  (∀ a x, ((![v4695] : Fin 1 → IVec S16 32) a x).toNat < S32768.size a)
instance k0_chk631.dec : ∀ (v4695 : IVec S16 32), Decidable (k0_chk631 v4695) := fun v4695 => decidable_of_iff' _ (Iff.of_eq (k0_chk631.eq_1 v4695))
theorem k0_idx631_inb : ∀ (v4695 : IVec S16 32) (k0_hw631 : k0_chk631 v4695), ∀ a x, ((![v4695] : Fin 1 → IVec S16 32) a x).toNat < S32768.size a := fun v4695 k0_hw631 => k0_hw631

def k0_chk632 (v4699 : IVec S16 32) : Prop :=
  (∀ a x, ((![v4699] : Fin 1 → IVec S16 32) a x).toNat < S32768.size a)
instance k0_chk632.dec : ∀ (v4699 : IVec S16 32), Decidable (k0_chk632 v4699) := fun v4699 => decidable_of_iff' _ (Iff.of_eq (k0_chk632.eq_1 v4699))
theorem k0_idx632_inb : ∀ (v4699 : IVec S16 32) (k0_hw632 : k0_chk632 v4699), ∀ a x, ((![v4699] : Fin 1 → IVec S16 32) a x).toNat < S32768.size a := fun v4699 k0_hw632 => k0_hw632

def k0_chk633 (v4703 : IVec S16 32) : Prop :=
  (∀ a x, ((![v4703] : Fin 1 → IVec S16 32) a x).toNat < S32768.size a)
instance k0_chk633.dec : ∀ (v4703 : IVec S16 32), Decidable (k0_chk633 v4703) := fun v4703 => decidable_of_iff' _ (Iff.of_eq (k0_chk633.eq_1 v4703))
theorem k0_idx633_inb : ∀ (v4703 : IVec S16 32) (k0_hw633 : k0_chk633 v4703), ∀ a x, ((![v4703] : Fin 1 → IVec S16 32) a x).toNat < S32768.size a := fun v4703 k0_hw633 => k0_hw633

def k0_chk634 (v4707 : IVec S16 32) : Prop :=
  (∀ a x, ((![v4707] : Fin 1 → IVec S16 32) a x).toNat < S32768.size a)
instance k0_chk634.dec : ∀ (v4707 : IVec S16 32), Decidable (k0_chk634 v4707) := fun v4707 => decidable_of_iff' _ (Iff.of_eq (k0_chk634.eq_1 v4707))
theorem k0_idx634_inb : ∀ (v4707 : IVec S16 32) (k0_hw634 : k0_chk634 v4707), ∀ a x, ((![v4707] : Fin 1 → IVec S16 32) a x).toNat < S32768.size a := fun v4707 k0_hw634 => k0_hw634

def k0_chk635 (v4711 : IVec S16 32) : Prop :=
  (∀ a x, ((![v4711] : Fin 1 → IVec S16 32) a x).toNat < S32768.size a)
instance k0_chk635.dec : ∀ (v4711 : IVec S16 32), Decidable (k0_chk635 v4711) := fun v4711 => decidable_of_iff' _ (Iff.of_eq (k0_chk635.eq_1 v4711))
theorem k0_idx635_inb : ∀ (v4711 : IVec S16 32) (k0_hw635 : k0_chk635 v4711), ∀ a x, ((![v4711] : Fin 1 → IVec S16 32) a x).toNat < S32768.size a := fun v4711 k0_hw635 => k0_hw635

def k0_chk636 (v4715 : IVec S16 32) : Prop :=
  (∀ a x, ((![v4715] : Fin 1 → IVec S16 32) a x).toNat < S32768.size a)
instance k0_chk636.dec : ∀ (v4715 : IVec S16 32), Decidable (k0_chk636 v4715) := fun v4715 => decidable_of_iff' _ (Iff.of_eq (k0_chk636.eq_1 v4715))
theorem k0_idx636_inb : ∀ (v4715 : IVec S16 32) (k0_hw636 : k0_chk636 v4715), ∀ a x, ((![v4715] : Fin 1 → IVec S16 32) a x).toNat < S32768.size a := fun v4715 k0_hw636 => k0_hw636

def k0_chk637 (v4719 : IVec S16 32) : Prop :=
  (∀ a x, ((![v4719] : Fin 1 → IVec S16 32) a x).toNat < S32768.size a)
instance k0_chk637.dec : ∀ (v4719 : IVec S16 32), Decidable (k0_chk637 v4719) := fun v4719 => decidable_of_iff' _ (Iff.of_eq (k0_chk637.eq_1 v4719))
theorem k0_idx637_inb : ∀ (v4719 : IVec S16 32) (k0_hw637 : k0_chk637 v4719), ∀ a x, ((![v4719] : Fin 1 → IVec S16 32) a x).toNat < S32768.size a := fun v4719 k0_hw637 => k0_hw637

def k0_chk638 (v4723 : IVec S16 32) : Prop :=
  (∀ a x, ((![v4723] : Fin 1 → IVec S16 32) a x).toNat < S32768.size a)
instance k0_chk638.dec : ∀ (v4723 : IVec S16 32), Decidable (k0_chk638 v4723) := fun v4723 => decidable_of_iff' _ (Iff.of_eq (k0_chk638.eq_1 v4723))
theorem k0_idx638_inb : ∀ (v4723 : IVec S16 32) (k0_hw638 : k0_chk638 v4723), ∀ a x, ((![v4723] : Fin 1 → IVec S16 32) a x).toNat < S32768.size a := fun v4723 k0_hw638 => k0_hw638

def k0_chk639 (v4727 : IVec S16 32) : Prop :=
  (∀ a x, ((![v4727] : Fin 1 → IVec S16 32) a x).toNat < S32768.size a)
instance k0_chk639.dec : ∀ (v4727 : IVec S16 32), Decidable (k0_chk639 v4727) := fun v4727 => decidable_of_iff' _ (Iff.of_eq (k0_chk639.eq_1 v4727))
theorem k0_idx639_inb : ∀ (v4727 : IVec S16 32) (k0_hw639 : k0_chk639 v4727), ∀ a x, ((![v4727] : Fin 1 → IVec S16 32) a x).toNat < S32768.size a := fun v4727 k0_hw639 => k0_hw639

def k0_chk640 (v4731 : IVec S16 32) : Prop :=
  (∀ a x, ((![v4731] : Fin 1 → IVec S16 32) a x).toNat < S32768.size a)
instance k0_chk640.dec : ∀ (v4731 : IVec S16 32), Decidable (k0_chk640 v4731) := fun v4731 => decidable_of_iff' _ (Iff.of_eq (k0_chk640.eq_1 v4731))
theorem k0_idx640_inb : ∀ (v4731 : IVec S16 32) (k0_hw640 : k0_chk640 v4731), ∀ a x, ((![v4731] : Fin 1 → IVec S16 32) a x).toNat < S32768.size a := fun v4731 k0_hw640 => k0_hw640

def k0_chk641 (v4737 : IVec S16 32) : Prop :=
  (∀ a x, ((![v4737] : Fin 1 → IVec S16 32) a x).toNat < S32768.size a)
instance k0_chk641.dec : ∀ (v4737 : IVec S16 32), Decidable (k0_chk641 v4737) := fun v4737 => decidable_of_iff' _ (Iff.of_eq (k0_chk641.eq_1 v4737))
theorem k0_idx641_inb : ∀ (v4737 : IVec S16 32) (k0_hw641 : k0_chk641 v4737), ∀ a x, ((![v4737] : Fin 1 → IVec S16 32) a x).toNat < S32768.size a := fun v4737 k0_hw641 => k0_hw641

def k0_chk642 (v4741 : IVec S16 32) : Prop :=
  (∀ a x, ((![v4741] : Fin 1 → IVec S16 32) a x).toNat < S32768.size a)
instance k0_chk642.dec : ∀ (v4741 : IVec S16 32), Decidable (k0_chk642 v4741) := fun v4741 => decidable_of_iff' _ (Iff.of_eq (k0_chk642.eq_1 v4741))
theorem k0_idx642_inb : ∀ (v4741 : IVec S16 32) (k0_hw642 : k0_chk642 v4741), ∀ a x, ((![v4741] : Fin 1 → IVec S16 32) a x).toNat < S32768.size a := fun v4741 k0_hw642 => k0_hw642

def k0_chk643 (v4745 : IVec S16 32) : Prop :=
  (∀ a x, ((![v4745] : Fin 1 → IVec S16 32) a x).toNat < S32768.size a)
instance k0_chk643.dec : ∀ (v4745 : IVec S16 32), Decidable (k0_chk643 v4745) := fun v4745 => decidable_of_iff' _ (Iff.of_eq (k0_chk643.eq_1 v4745))
theorem k0_idx643_inb : ∀ (v4745 : IVec S16 32) (k0_hw643 : k0_chk643 v4745), ∀ a x, ((![v4745] : Fin 1 → IVec S16 32) a x).toNat < S32768.size a := fun v4745 k0_hw643 => k0_hw643

def k0_chk644 (v4749 : IVec S16 32) : Prop :=
  (∀ a x, ((![v4749] : Fin 1 → IVec S16 32) a x).toNat < S32768.size a)
instance k0_chk644.dec : ∀ (v4749 : IVec S16 32), Decidable (k0_chk644 v4749) := fun v4749 => decidable_of_iff' _ (Iff.of_eq (k0_chk644.eq_1 v4749))
theorem k0_idx644_inb : ∀ (v4749 : IVec S16 32) (k0_hw644 : k0_chk644 v4749), ∀ a x, ((![v4749] : Fin 1 → IVec S16 32) a x).toNat < S32768.size a := fun v4749 k0_hw644 => k0_hw644

def k0_chk645 (v4753 : IVec S16 32) : Prop :=
  (∀ a x, ((![v4753] : Fin 1 → IVec S16 32) a x).toNat < S32768.size a)
instance k0_chk645.dec : ∀ (v4753 : IVec S16 32), Decidable (k0_chk645 v4753) := fun v4753 => decidable_of_iff' _ (Iff.of_eq (k0_chk645.eq_1 v4753))
theorem k0_idx645_inb : ∀ (v4753 : IVec S16 32) (k0_hw645 : k0_chk645 v4753), ∀ a x, ((![v4753] : Fin 1 → IVec S16 32) a x).toNat < S32768.size a := fun v4753 k0_hw645 => k0_hw645

def k0_chk646 (v4757 : IVec S16 32) : Prop :=
  (∀ a x, ((![v4757] : Fin 1 → IVec S16 32) a x).toNat < S32768.size a)
instance k0_chk646.dec : ∀ (v4757 : IVec S16 32), Decidable (k0_chk646 v4757) := fun v4757 => decidable_of_iff' _ (Iff.of_eq (k0_chk646.eq_1 v4757))
theorem k0_idx646_inb : ∀ (v4757 : IVec S16 32) (k0_hw646 : k0_chk646 v4757), ∀ a x, ((![v4757] : Fin 1 → IVec S16 32) a x).toNat < S32768.size a := fun v4757 k0_hw646 => k0_hw646

def k0_chk647 (v4761 : IVec S16 32) : Prop :=
  (∀ a x, ((![v4761] : Fin 1 → IVec S16 32) a x).toNat < S32768.size a)
instance k0_chk647.dec : ∀ (v4761 : IVec S16 32), Decidable (k0_chk647 v4761) := fun v4761 => decidable_of_iff' _ (Iff.of_eq (k0_chk647.eq_1 v4761))
theorem k0_idx647_inb : ∀ (v4761 : IVec S16 32) (k0_hw647 : k0_chk647 v4761), ∀ a x, ((![v4761] : Fin 1 → IVec S16 32) a x).toNat < S32768.size a := fun v4761 k0_hw647 => k0_hw647

def k0_chk648 (v4765 : IVec S16 32) : Prop :=
  (∀ a x, ((![v4765] : Fin 1 → IVec S16 32) a x).toNat < S32768.size a)
instance k0_chk648.dec : ∀ (v4765 : IVec S16 32), Decidable (k0_chk648 v4765) := fun v4765 => decidable_of_iff' _ (Iff.of_eq (k0_chk648.eq_1 v4765))
theorem k0_idx648_inb : ∀ (v4765 : IVec S16 32) (k0_hw648 : k0_chk648 v4765), ∀ a x, ((![v4765] : Fin 1 → IVec S16 32) a x).toNat < S32768.size a := fun v4765 k0_hw648 => k0_hw648

def k0_chk649 (v4769 : IVec S16 32) : Prop :=
  (∀ a x, ((![v4769] : Fin 1 → IVec S16 32) a x).toNat < S32768.size a)
instance k0_chk649.dec : ∀ (v4769 : IVec S16 32), Decidable (k0_chk649 v4769) := fun v4769 => decidable_of_iff' _ (Iff.of_eq (k0_chk649.eq_1 v4769))
theorem k0_idx649_inb : ∀ (v4769 : IVec S16 32) (k0_hw649 : k0_chk649 v4769), ∀ a x, ((![v4769] : Fin 1 → IVec S16 32) a x).toNat < S32768.size a := fun v4769 k0_hw649 => k0_hw649

def k0_chk650 (v4773 : IVec S16 32) : Prop :=
  (∀ a x, ((![v4773] : Fin 1 → IVec S16 32) a x).toNat < S32768.size a)
instance k0_chk650.dec : ∀ (v4773 : IVec S16 32), Decidable (k0_chk650 v4773) := fun v4773 => decidable_of_iff' _ (Iff.of_eq (k0_chk650.eq_1 v4773))
theorem k0_idx650_inb : ∀ (v4773 : IVec S16 32) (k0_hw650 : k0_chk650 v4773), ∀ a x, ((![v4773] : Fin 1 → IVec S16 32) a x).toNat < S32768.size a := fun v4773 k0_hw650 => k0_hw650

def k0_chk651 (v4777 : IVec S16 32) : Prop :=
  (∀ a x, ((![v4777] : Fin 1 → IVec S16 32) a x).toNat < S32768.size a)
instance k0_chk651.dec : ∀ (v4777 : IVec S16 32), Decidable (k0_chk651 v4777) := fun v4777 => decidable_of_iff' _ (Iff.of_eq (k0_chk651.eq_1 v4777))
theorem k0_idx651_inb : ∀ (v4777 : IVec S16 32) (k0_hw651 : k0_chk651 v4777), ∀ a x, ((![v4777] : Fin 1 → IVec S16 32) a x).toNat < S32768.size a := fun v4777 k0_hw651 => k0_hw651

def k0_chk652 (v4781 : IVec S16 32) : Prop :=
  (∀ a x, ((![v4781] : Fin 1 → IVec S16 32) a x).toNat < S32768.size a)
instance k0_chk652.dec : ∀ (v4781 : IVec S16 32), Decidable (k0_chk652 v4781) := fun v4781 => decidable_of_iff' _ (Iff.of_eq (k0_chk652.eq_1 v4781))
theorem k0_idx652_inb : ∀ (v4781 : IVec S16 32) (k0_hw652 : k0_chk652 v4781), ∀ a x, ((![v4781] : Fin 1 → IVec S16 32) a x).toNat < S32768.size a := fun v4781 k0_hw652 => k0_hw652

def k0_chk653 (v4785 : IVec S16 32) : Prop :=
  (∀ a x, ((![v4785] : Fin 1 → IVec S16 32) a x).toNat < S32768.size a)
instance k0_chk653.dec : ∀ (v4785 : IVec S16 32), Decidable (k0_chk653 v4785) := fun v4785 => decidable_of_iff' _ (Iff.of_eq (k0_chk653.eq_1 v4785))
theorem k0_idx653_inb : ∀ (v4785 : IVec S16 32) (k0_hw653 : k0_chk653 v4785), ∀ a x, ((![v4785] : Fin 1 → IVec S16 32) a x).toNat < S32768.size a := fun v4785 k0_hw653 => k0_hw653

def k0_chk654 (v4789 : IVec S16 32) : Prop :=
  (∀ a x, ((![v4789] : Fin 1 → IVec S16 32) a x).toNat < S32768.size a)
instance k0_chk654.dec : ∀ (v4789 : IVec S16 32), Decidable (k0_chk654 v4789) := fun v4789 => decidable_of_iff' _ (Iff.of_eq (k0_chk654.eq_1 v4789))
theorem k0_idx654_inb : ∀ (v4789 : IVec S16 32) (k0_hw654 : k0_chk654 v4789), ∀ a x, ((![v4789] : Fin 1 → IVec S16 32) a x).toNat < S32768.size a := fun v4789 k0_hw654 => k0_hw654

def k0_chk655 (v4793 : IVec S16 32) : Prop :=
  (∀ a x, ((![v4793] : Fin 1 → IVec S16 32) a x).toNat < S32768.size a)
instance k0_chk655.dec : ∀ (v4793 : IVec S16 32), Decidable (k0_chk655 v4793) := fun v4793 => decidable_of_iff' _ (Iff.of_eq (k0_chk655.eq_1 v4793))
theorem k0_idx655_inb : ∀ (v4793 : IVec S16 32) (k0_hw655 : k0_chk655 v4793), ∀ a x, ((![v4793] : Fin 1 → IVec S16 32) a x).toNat < S32768.size a := fun v4793 k0_hw655 => k0_hw655

def k0_chk656 (v4797 : IVec S16 32) : Prop :=
  (∀ a x, ((![v4797] : Fin 1 → IVec S16 32) a x).toNat < S32768.size a)
instance k0_chk656.dec : ∀ (v4797 : IVec S16 32), Decidable (k0_chk656 v4797) := fun v4797 => decidable_of_iff' _ (Iff.of_eq (k0_chk656.eq_1 v4797))
theorem k0_idx656_inb : ∀ (v4797 : IVec S16 32) (k0_hw656 : k0_chk656 v4797), ∀ a x, ((![v4797] : Fin 1 → IVec S16 32) a x).toNat < S32768.size a := fun v4797 k0_hw656 => k0_hw656

def k0_chk657 (v4801 : IVec S16 32) : Prop :=
  (∀ a x, ((![v4801] : Fin 1 → IVec S16 32) a x).toNat < S32768.size a)
instance k0_chk657.dec : ∀ (v4801 : IVec S16 32), Decidable (k0_chk657 v4801) := fun v4801 => decidable_of_iff' _ (Iff.of_eq (k0_chk657.eq_1 v4801))
theorem k0_idx657_inb : ∀ (v4801 : IVec S16 32) (k0_hw657 : k0_chk657 v4801), ∀ a x, ((![v4801] : Fin 1 → IVec S16 32) a x).toNat < S32768.size a := fun v4801 k0_hw657 => k0_hw657

def k0_chk658 (v4805 : IVec S16 32) : Prop :=
  (∀ a x, ((![v4805] : Fin 1 → IVec S16 32) a x).toNat < S32768.size a)
instance k0_chk658.dec : ∀ (v4805 : IVec S16 32), Decidable (k0_chk658 v4805) := fun v4805 => decidable_of_iff' _ (Iff.of_eq (k0_chk658.eq_1 v4805))
theorem k0_idx658_inb : ∀ (v4805 : IVec S16 32) (k0_hw658 : k0_chk658 v4805), ∀ a x, ((![v4805] : Fin 1 → IVec S16 32) a x).toNat < S32768.size a := fun v4805 k0_hw658 => k0_hw658

def k0_chk659 (v4809 : IVec S16 32) : Prop :=
  (∀ a x, ((![v4809] : Fin 1 → IVec S16 32) a x).toNat < S32768.size a)
instance k0_chk659.dec : ∀ (v4809 : IVec S16 32), Decidable (k0_chk659 v4809) := fun v4809 => decidable_of_iff' _ (Iff.of_eq (k0_chk659.eq_1 v4809))
theorem k0_idx659_inb : ∀ (v4809 : IVec S16 32) (k0_hw659 : k0_chk659 v4809), ∀ a x, ((![v4809] : Fin 1 → IVec S16 32) a x).toNat < S32768.size a := fun v4809 k0_hw659 => k0_hw659

def k0_chk660 (v4813 : IVec S16 32) : Prop :=
  (∀ a x, ((![v4813] : Fin 1 → IVec S16 32) a x).toNat < S32768.size a)
instance k0_chk660.dec : ∀ (v4813 : IVec S16 32), Decidable (k0_chk660 v4813) := fun v4813 => decidable_of_iff' _ (Iff.of_eq (k0_chk660.eq_1 v4813))
theorem k0_idx660_inb : ∀ (v4813 : IVec S16 32) (k0_hw660 : k0_chk660 v4813), ∀ a x, ((![v4813] : Fin 1 → IVec S16 32) a x).toNat < S32768.size a := fun v4813 k0_hw660 => k0_hw660

def k0_chk661 (v4817 : IVec S16 32) : Prop :=
  (∀ a x, ((![v4817] : Fin 1 → IVec S16 32) a x).toNat < S32768.size a)
instance k0_chk661.dec : ∀ (v4817 : IVec S16 32), Decidable (k0_chk661 v4817) := fun v4817 => decidable_of_iff' _ (Iff.of_eq (k0_chk661.eq_1 v4817))
theorem k0_idx661_inb : ∀ (v4817 : IVec S16 32) (k0_hw661 : k0_chk661 v4817), ∀ a x, ((![v4817] : Fin 1 → IVec S16 32) a x).toNat < S32768.size a := fun v4817 k0_hw661 => k0_hw661

def k0_chk662 (v4821 : IVec S16 32) : Prop :=
  (∀ a x, ((![v4821] : Fin 1 → IVec S16 32) a x).toNat < S32768.size a)
instance k0_chk662.dec : ∀ (v4821 : IVec S16 32), Decidable (k0_chk662 v4821) := fun v4821 => decidable_of_iff' _ (Iff.of_eq (k0_chk662.eq_1 v4821))
theorem k0_idx662_inb : ∀ (v4821 : IVec S16 32) (k0_hw662 : k0_chk662 v4821), ∀ a x, ((![v4821] : Fin 1 → IVec S16 32) a x).toNat < S32768.size a := fun v4821 k0_hw662 => k0_hw662

def k0_chk663 (v4825 : IVec S16 32) : Prop :=
  (∀ a x, ((![v4825] : Fin 1 → IVec S16 32) a x).toNat < S32768.size a)
instance k0_chk663.dec : ∀ (v4825 : IVec S16 32), Decidable (k0_chk663 v4825) := fun v4825 => decidable_of_iff' _ (Iff.of_eq (k0_chk663.eq_1 v4825))
theorem k0_idx663_inb : ∀ (v4825 : IVec S16 32) (k0_hw663 : k0_chk663 v4825), ∀ a x, ((![v4825] : Fin 1 → IVec S16 32) a x).toNat < S32768.size a := fun v4825 k0_hw663 => k0_hw663

def k0_chk664 (v4829 : IVec S16 32) : Prop :=
  (∀ a x, ((![v4829] : Fin 1 → IVec S16 32) a x).toNat < S32768.size a)
instance k0_chk664.dec : ∀ (v4829 : IVec S16 32), Decidable (k0_chk664 v4829) := fun v4829 => decidable_of_iff' _ (Iff.of_eq (k0_chk664.eq_1 v4829))
theorem k0_idx664_inb : ∀ (v4829 : IVec S16 32) (k0_hw664 : k0_chk664 v4829), ∀ a x, ((![v4829] : Fin 1 → IVec S16 32) a x).toNat < S32768.size a := fun v4829 k0_hw664 => k0_hw664

def k0_chk665 (v4833 : IVec S16 32) : Prop :=
  (∀ a x, ((![v4833] : Fin 1 → IVec S16 32) a x).toNat < S32768.size a)
instance k0_chk665.dec : ∀ (v4833 : IVec S16 32), Decidable (k0_chk665 v4833) := fun v4833 => decidable_of_iff' _ (Iff.of_eq (k0_chk665.eq_1 v4833))
theorem k0_idx665_inb : ∀ (v4833 : IVec S16 32) (k0_hw665 : k0_chk665 v4833), ∀ a x, ((![v4833] : Fin 1 → IVec S16 32) a x).toNat < S32768.size a := fun v4833 k0_hw665 => k0_hw665

def k0_chk666 (v4837 : IVec S16 32) : Prop :=
  (∀ a x, ((![v4837] : Fin 1 → IVec S16 32) a x).toNat < S32768.size a)
instance k0_chk666.dec : ∀ (v4837 : IVec S16 32), Decidable (k0_chk666 v4837) := fun v4837 => decidable_of_iff' _ (Iff.of_eq (k0_chk666.eq_1 v4837))
theorem k0_idx666_inb : ∀ (v4837 : IVec S16 32) (k0_hw666 : k0_chk666 v4837), ∀ a x, ((![v4837] : Fin 1 → IVec S16 32) a x).toNat < S32768.size a := fun v4837 k0_hw666 => k0_hw666

def k0_chk667 (v4841 : IVec S16 32) : Prop :=
  (∀ a x, ((![v4841] : Fin 1 → IVec S16 32) a x).toNat < S32768.size a)
instance k0_chk667.dec : ∀ (v4841 : IVec S16 32), Decidable (k0_chk667 v4841) := fun v4841 => decidable_of_iff' _ (Iff.of_eq (k0_chk667.eq_1 v4841))
theorem k0_idx667_inb : ∀ (v4841 : IVec S16 32) (k0_hw667 : k0_chk667 v4841), ∀ a x, ((![v4841] : Fin 1 → IVec S16 32) a x).toNat < S32768.size a := fun v4841 k0_hw667 => k0_hw667

def k0_chk668 (v4845 : IVec S16 32) : Prop :=
  (∀ a x, ((![v4845] : Fin 1 → IVec S16 32) a x).toNat < S32768.size a)
instance k0_chk668.dec : ∀ (v4845 : IVec S16 32), Decidable (k0_chk668 v4845) := fun v4845 => decidable_of_iff' _ (Iff.of_eq (k0_chk668.eq_1 v4845))
theorem k0_idx668_inb : ∀ (v4845 : IVec S16 32) (k0_hw668 : k0_chk668 v4845), ∀ a x, ((![v4845] : Fin 1 → IVec S16 32) a x).toNat < S32768.size a := fun v4845 k0_hw668 => k0_hw668

def k0_chk669 (v4849 : IVec S16 32) : Prop :=
  (∀ a x, ((![v4849] : Fin 1 → IVec S16 32) a x).toNat < S32768.size a)
instance k0_chk669.dec : ∀ (v4849 : IVec S16 32), Decidable (k0_chk669 v4849) := fun v4849 => decidable_of_iff' _ (Iff.of_eq (k0_chk669.eq_1 v4849))
theorem k0_idx669_inb : ∀ (v4849 : IVec S16 32) (k0_hw669 : k0_chk669 v4849), ∀ a x, ((![v4849] : Fin 1 → IVec S16 32) a x).toNat < S32768.size a := fun v4849 k0_hw669 => k0_hw669

def k0_chk670 (v4853 : IVec S16 32) : Prop :=
  (∀ a x, ((![v4853] : Fin 1 → IVec S16 32) a x).toNat < S32768.size a)
instance k0_chk670.dec : ∀ (v4853 : IVec S16 32), Decidable (k0_chk670 v4853) := fun v4853 => decidable_of_iff' _ (Iff.of_eq (k0_chk670.eq_1 v4853))
theorem k0_idx670_inb : ∀ (v4853 : IVec S16 32) (k0_hw670 : k0_chk670 v4853), ∀ a x, ((![v4853] : Fin 1 → IVec S16 32) a x).toNat < S32768.size a := fun v4853 k0_hw670 => k0_hw670

def k0_chk671 (v4857 : IVec S16 32) : Prop :=
  (∀ a x, ((![v4857] : Fin 1 → IVec S16 32) a x).toNat < S32768.size a)
instance k0_chk671.dec : ∀ (v4857 : IVec S16 32), Decidable (k0_chk671 v4857) := fun v4857 => decidable_of_iff' _ (Iff.of_eq (k0_chk671.eq_1 v4857))
theorem k0_idx671_inb : ∀ (v4857 : IVec S16 32) (k0_hw671 : k0_chk671 v4857), ∀ a x, ((![v4857] : Fin 1 → IVec S16 32) a x).toNat < S32768.size a := fun v4857 k0_hw671 => k0_hw671

def k0_chk672 (v4861 : IVec S16 32) : Prop :=
  (∀ a x, ((![v4861] : Fin 1 → IVec S16 32) a x).toNat < S32768.size a)
instance k0_chk672.dec : ∀ (v4861 : IVec S16 32), Decidable (k0_chk672 v4861) := fun v4861 => decidable_of_iff' _ (Iff.of_eq (k0_chk672.eq_1 v4861))
theorem k0_idx672_inb : ∀ (v4861 : IVec S16 32) (k0_hw672 : k0_chk672 v4861), ∀ a x, ((![v4861] : Fin 1 → IVec S16 32) a x).toNat < S32768.size a := fun v4861 k0_hw672 => k0_hw672

def k0_chk673 (v4865 : IVec S16 32) : Prop :=
  (∀ a x, ((![v4865] : Fin 1 → IVec S16 32) a x).toNat < S32768.size a)
instance k0_chk673.dec : ∀ (v4865 : IVec S16 32), Decidable (k0_chk673 v4865) := fun v4865 => decidable_of_iff' _ (Iff.of_eq (k0_chk673.eq_1 v4865))
theorem k0_idx673_inb : ∀ (v4865 : IVec S16 32) (k0_hw673 : k0_chk673 v4865), ∀ a x, ((![v4865] : Fin 1 → IVec S16 32) a x).toNat < S32768.size a := fun v4865 k0_hw673 => k0_hw673

def k0_chk674 (v4869 : IVec S16 32) : Prop :=
  (∀ a x, ((![v4869] : Fin 1 → IVec S16 32) a x).toNat < S32768.size a)
instance k0_chk674.dec : ∀ (v4869 : IVec S16 32), Decidable (k0_chk674 v4869) := fun v4869 => decidable_of_iff' _ (Iff.of_eq (k0_chk674.eq_1 v4869))
theorem k0_idx674_inb : ∀ (v4869 : IVec S16 32) (k0_hw674 : k0_chk674 v4869), ∀ a x, ((![v4869] : Fin 1 → IVec S16 32) a x).toNat < S32768.size a := fun v4869 k0_hw674 => k0_hw674

def k0_chk675 (v4873 : IVec S16 32) : Prop :=
  (∀ a x, ((![v4873] : Fin 1 → IVec S16 32) a x).toNat < S32768.size a)
instance k0_chk675.dec : ∀ (v4873 : IVec S16 32), Decidable (k0_chk675 v4873) := fun v4873 => decidable_of_iff' _ (Iff.of_eq (k0_chk675.eq_1 v4873))
theorem k0_idx675_inb : ∀ (v4873 : IVec S16 32) (k0_hw675 : k0_chk675 v4873), ∀ a x, ((![v4873] : Fin 1 → IVec S16 32) a x).toNat < S32768.size a := fun v4873 k0_hw675 => k0_hw675

def k0_chk676 (v4877 : IVec S16 32) : Prop :=
  (∀ a x, ((![v4877] : Fin 1 → IVec S16 32) a x).toNat < S32768.size a)
instance k0_chk676.dec : ∀ (v4877 : IVec S16 32), Decidable (k0_chk676 v4877) := fun v4877 => decidable_of_iff' _ (Iff.of_eq (k0_chk676.eq_1 v4877))
theorem k0_idx676_inb : ∀ (v4877 : IVec S16 32) (k0_hw676 : k0_chk676 v4877), ∀ a x, ((![v4877] : Fin 1 → IVec S16 32) a x).toNat < S32768.size a := fun v4877 k0_hw676 => k0_hw676

def k0_chk677 (v4881 : IVec S16 32) : Prop :=
  (∀ a x, ((![v4881] : Fin 1 → IVec S16 32) a x).toNat < S32768.size a)
instance k0_chk677.dec : ∀ (v4881 : IVec S16 32), Decidable (k0_chk677 v4881) := fun v4881 => decidable_of_iff' _ (Iff.of_eq (k0_chk677.eq_1 v4881))
theorem k0_idx677_inb : ∀ (v4881 : IVec S16 32) (k0_hw677 : k0_chk677 v4881), ∀ a x, ((![v4881] : Fin 1 → IVec S16 32) a x).toNat < S32768.size a := fun v4881 k0_hw677 => k0_hw677

def k0_chk678 (v4885 : IVec S16 32) : Prop :=
  (∀ a x, ((![v4885] : Fin 1 → IVec S16 32) a x).toNat < S32768.size a)
instance k0_chk678.dec : ∀ (v4885 : IVec S16 32), Decidable (k0_chk678 v4885) := fun v4885 => decidable_of_iff' _ (Iff.of_eq (k0_chk678.eq_1 v4885))
theorem k0_idx678_inb : ∀ (v4885 : IVec S16 32) (k0_hw678 : k0_chk678 v4885), ∀ a x, ((![v4885] : Fin 1 → IVec S16 32) a x).toNat < S32768.size a := fun v4885 k0_hw678 => k0_hw678

def k0_chk679 (v4889 : IVec S16 32) : Prop :=
  (∀ a x, ((![v4889] : Fin 1 → IVec S16 32) a x).toNat < S32768.size a)
instance k0_chk679.dec : ∀ (v4889 : IVec S16 32), Decidable (k0_chk679 v4889) := fun v4889 => decidable_of_iff' _ (Iff.of_eq (k0_chk679.eq_1 v4889))
theorem k0_idx679_inb : ∀ (v4889 : IVec S16 32) (k0_hw679 : k0_chk679 v4889), ∀ a x, ((![v4889] : Fin 1 → IVec S16 32) a x).toNat < S32768.size a := fun v4889 k0_hw679 => k0_hw679

def k0_chk680 (v4893 : IVec S16 32) : Prop :=
  (∀ a x, ((![v4893] : Fin 1 → IVec S16 32) a x).toNat < S32768.size a)
instance k0_chk680.dec : ∀ (v4893 : IVec S16 32), Decidable (k0_chk680 v4893) := fun v4893 => decidable_of_iff' _ (Iff.of_eq (k0_chk680.eq_1 v4893))
theorem k0_idx680_inb : ∀ (v4893 : IVec S16 32) (k0_hw680 : k0_chk680 v4893), ∀ a x, ((![v4893] : Fin 1 → IVec S16 32) a x).toNat < S32768.size a := fun v4893 k0_hw680 => k0_hw680

def k0_chk681 (v4897 : IVec S16 32) : Prop :=
  (∀ a x, ((![v4897] : Fin 1 → IVec S16 32) a x).toNat < S32768.size a)
instance k0_chk681.dec : ∀ (v4897 : IVec S16 32), Decidable (k0_chk681 v4897) := fun v4897 => decidable_of_iff' _ (Iff.of_eq (k0_chk681.eq_1 v4897))
theorem k0_idx681_inb : ∀ (v4897 : IVec S16 32) (k0_hw681 : k0_chk681 v4897), ∀ a x, ((![v4897] : Fin 1 → IVec S16 32) a x).toNat < S32768.size a := fun v4897 k0_hw681 => k0_hw681

def k0_chk682 (v4901 : IVec S16 32) : Prop :=
  (∀ a x, ((![v4901] : Fin 1 → IVec S16 32) a x).toNat < S32768.size a)
instance k0_chk682.dec : ∀ (v4901 : IVec S16 32), Decidable (k0_chk682 v4901) := fun v4901 => decidable_of_iff' _ (Iff.of_eq (k0_chk682.eq_1 v4901))
theorem k0_idx682_inb : ∀ (v4901 : IVec S16 32) (k0_hw682 : k0_chk682 v4901), ∀ a x, ((![v4901] : Fin 1 → IVec S16 32) a x).toNat < S32768.size a := fun v4901 k0_hw682 => k0_hw682

def k0_chk683 (v4905 : IVec S16 32) : Prop :=
  (∀ a x, ((![v4905] : Fin 1 → IVec S16 32) a x).toNat < S32768.size a)
instance k0_chk683.dec : ∀ (v4905 : IVec S16 32), Decidable (k0_chk683 v4905) := fun v4905 => decidable_of_iff' _ (Iff.of_eq (k0_chk683.eq_1 v4905))
theorem k0_idx683_inb : ∀ (v4905 : IVec S16 32) (k0_hw683 : k0_chk683 v4905), ∀ a x, ((![v4905] : Fin 1 → IVec S16 32) a x).toNat < S32768.size a := fun v4905 k0_hw683 => k0_hw683

def k0_chk684 (v4909 : IVec S16 32) : Prop :=
  (∀ a x, ((![v4909] : Fin 1 → IVec S16 32) a x).toNat < S32768.size a)
instance k0_chk684.dec : ∀ (v4909 : IVec S16 32), Decidable (k0_chk684 v4909) := fun v4909 => decidable_of_iff' _ (Iff.of_eq (k0_chk684.eq_1 v4909))
theorem k0_idx684_inb : ∀ (v4909 : IVec S16 32) (k0_hw684 : k0_chk684 v4909), ∀ a x, ((![v4909] : Fin 1 → IVec S16 32) a x).toNat < S32768.size a := fun v4909 k0_hw684 => k0_hw684

def k0_chk685 (v4913 : IVec S16 32) : Prop :=
  (∀ a x, ((![v4913] : Fin 1 → IVec S16 32) a x).toNat < S32768.size a)
instance k0_chk685.dec : ∀ (v4913 : IVec S16 32), Decidable (k0_chk685 v4913) := fun v4913 => decidable_of_iff' _ (Iff.of_eq (k0_chk685.eq_1 v4913))
theorem k0_idx685_inb : ∀ (v4913 : IVec S16 32) (k0_hw685 : k0_chk685 v4913), ∀ a x, ((![v4913] : Fin 1 → IVec S16 32) a x).toNat < S32768.size a := fun v4913 k0_hw685 => k0_hw685

def k0_chk686 (v4917 : IVec S16 32) : Prop :=
  (∀ a x, ((![v4917] : Fin 1 → IVec S16 32) a x).toNat < S32768.size a)
instance k0_chk686.dec : ∀ (v4917 : IVec S16 32), Decidable (k0_chk686 v4917) := fun v4917 => decidable_of_iff' _ (Iff.of_eq (k0_chk686.eq_1 v4917))
theorem k0_idx686_inb : ∀ (v4917 : IVec S16 32) (k0_hw686 : k0_chk686 v4917), ∀ a x, ((![v4917] : Fin 1 → IVec S16 32) a x).toNat < S32768.size a := fun v4917 k0_hw686 => k0_hw686

def k0_chk687 (v4921 : IVec S16 32) : Prop :=
  (∀ a x, ((![v4921] : Fin 1 → IVec S16 32) a x).toNat < S32768.size a)
instance k0_chk687.dec : ∀ (v4921 : IVec S16 32), Decidable (k0_chk687 v4921) := fun v4921 => decidable_of_iff' _ (Iff.of_eq (k0_chk687.eq_1 v4921))
theorem k0_idx687_inb : ∀ (v4921 : IVec S16 32) (k0_hw687 : k0_chk687 v4921), ∀ a x, ((![v4921] : Fin 1 → IVec S16 32) a x).toNat < S32768.size a := fun v4921 k0_hw687 => k0_hw687

def k0_chk688 (v4925 : IVec S16 32) : Prop :=
  (∀ a x, ((![v4925] : Fin 1 → IVec S16 32) a x).toNat < S32768.size a)
instance k0_chk688.dec : ∀ (v4925 : IVec S16 32), Decidable (k0_chk688 v4925) := fun v4925 => decidable_of_iff' _ (Iff.of_eq (k0_chk688.eq_1 v4925))
theorem k0_idx688_inb : ∀ (v4925 : IVec S16 32) (k0_hw688 : k0_chk688 v4925), ∀ a x, ((![v4925] : Fin 1 → IVec S16 32) a x).toNat < S32768.size a := fun v4925 k0_hw688 => k0_hw688

def k0_chk689 (v4929 : IVec S16 32) : Prop :=
  (∀ a x, ((![v4929] : Fin 1 → IVec S16 32) a x).toNat < S32768.size a)
instance k0_chk689.dec : ∀ (v4929 : IVec S16 32), Decidable (k0_chk689 v4929) := fun v4929 => decidable_of_iff' _ (Iff.of_eq (k0_chk689.eq_1 v4929))
theorem k0_idx689_inb : ∀ (v4929 : IVec S16 32) (k0_hw689 : k0_chk689 v4929), ∀ a x, ((![v4929] : Fin 1 → IVec S16 32) a x).toNat < S32768.size a := fun v4929 k0_hw689 => k0_hw689

def k0_chk690 (v4933 : IVec S16 32) : Prop :=
  (∀ a x, ((![v4933] : Fin 1 → IVec S16 32) a x).toNat < S32768.size a)
instance k0_chk690.dec : ∀ (v4933 : IVec S16 32), Decidable (k0_chk690 v4933) := fun v4933 => decidable_of_iff' _ (Iff.of_eq (k0_chk690.eq_1 v4933))
theorem k0_idx690_inb : ∀ (v4933 : IVec S16 32) (k0_hw690 : k0_chk690 v4933), ∀ a x, ((![v4933] : Fin 1 → IVec S16 32) a x).toNat < S32768.size a := fun v4933 k0_hw690 => k0_hw690

def k0_chk691 (v4937 : IVec S16 32) : Prop :=
  (∀ a x, ((![v4937] : Fin 1 → IVec S16 32) a x).toNat < S32768.size a)
instance k0_chk691.dec : ∀ (v4937 : IVec S16 32), Decidable (k0_chk691 v4937) := fun v4937 => decidable_of_iff' _ (Iff.of_eq (k0_chk691.eq_1 v4937))
theorem k0_idx691_inb : ∀ (v4937 : IVec S16 32) (k0_hw691 : k0_chk691 v4937), ∀ a x, ((![v4937] : Fin 1 → IVec S16 32) a x).toNat < S32768.size a := fun v4937 k0_hw691 => k0_hw691

def k0_chk692 (v4941 : IVec S16 32) : Prop :=
  (∀ a x, ((![v4941] : Fin 1 → IVec S16 32) a x).toNat < S32768.size a)
instance k0_chk692.dec : ∀ (v4941 : IVec S16 32), Decidable (k0_chk692 v4941) := fun v4941 => decidable_of_iff' _ (Iff.of_eq (k0_chk692.eq_1 v4941))
theorem k0_idx692_inb : ∀ (v4941 : IVec S16 32) (k0_hw692 : k0_chk692 v4941), ∀ a x, ((![v4941] : Fin 1 → IVec S16 32) a x).toNat < S32768.size a := fun v4941 k0_hw692 => k0_hw692

def k0_chk693 (v4945 : IVec S16 32) : Prop :=
  (∀ a x, ((![v4945] : Fin 1 → IVec S16 32) a x).toNat < S32768.size a)
instance k0_chk693.dec : ∀ (v4945 : IVec S16 32), Decidable (k0_chk693 v4945) := fun v4945 => decidable_of_iff' _ (Iff.of_eq (k0_chk693.eq_1 v4945))
theorem k0_idx693_inb : ∀ (v4945 : IVec S16 32) (k0_hw693 : k0_chk693 v4945), ∀ a x, ((![v4945] : Fin 1 → IVec S16 32) a x).toNat < S32768.size a := fun v4945 k0_hw693 => k0_hw693

def k0_chk694 (v4949 : IVec S16 32) : Prop :=
  (∀ a x, ((![v4949] : Fin 1 → IVec S16 32) a x).toNat < S32768.size a)
instance k0_chk694.dec : ∀ (v4949 : IVec S16 32), Decidable (k0_chk694 v4949) := fun v4949 => decidable_of_iff' _ (Iff.of_eq (k0_chk694.eq_1 v4949))
theorem k0_idx694_inb : ∀ (v4949 : IVec S16 32) (k0_hw694 : k0_chk694 v4949), ∀ a x, ((![v4949] : Fin 1 → IVec S16 32) a x).toNat < S32768.size a := fun v4949 k0_hw694 => k0_hw694

def k0_chk695 (v4953 : IVec S16 32) : Prop :=
  (∀ a x, ((![v4953] : Fin 1 → IVec S16 32) a x).toNat < S32768.size a)
instance k0_chk695.dec : ∀ (v4953 : IVec S16 32), Decidable (k0_chk695 v4953) := fun v4953 => decidable_of_iff' _ (Iff.of_eq (k0_chk695.eq_1 v4953))
theorem k0_idx695_inb : ∀ (v4953 : IVec S16 32) (k0_hw695 : k0_chk695 v4953), ∀ a x, ((![v4953] : Fin 1 → IVec S16 32) a x).toNat < S32768.size a := fun v4953 k0_hw695 => k0_hw695

def k0_chk696 (v4957 : IVec S16 32) : Prop :=
  (∀ a x, ((![v4957] : Fin 1 → IVec S16 32) a x).toNat < S32768.size a)
instance k0_chk696.dec : ∀ (v4957 : IVec S16 32), Decidable (k0_chk696 v4957) := fun v4957 => decidable_of_iff' _ (Iff.of_eq (k0_chk696.eq_1 v4957))
theorem k0_idx696_inb : ∀ (v4957 : IVec S16 32) (k0_hw696 : k0_chk696 v4957), ∀ a x, ((![v4957] : Fin 1 → IVec S16 32) a x).toNat < S32768.size a := fun v4957 k0_hw696 => k0_hw696

def k0_chk697 (v4961 : IVec S16 32) : Prop :=
  (∀ a x, ((![v4961] : Fin 1 → IVec S16 32) a x).toNat < S32768.size a)
instance k0_chk697.dec : ∀ (v4961 : IVec S16 32), Decidable (k0_chk697 v4961) := fun v4961 => decidable_of_iff' _ (Iff.of_eq (k0_chk697.eq_1 v4961))
theorem k0_idx697_inb : ∀ (v4961 : IVec S16 32) (k0_hw697 : k0_chk697 v4961), ∀ a x, ((![v4961] : Fin 1 → IVec S16 32) a x).toNat < S32768.size a := fun v4961 k0_hw697 => k0_hw697

def k0_chk698 (v4965 : IVec S16 32) : Prop :=
  (∀ a x, ((![v4965] : Fin 1 → IVec S16 32) a x).toNat < S32768.size a)
instance k0_chk698.dec : ∀ (v4965 : IVec S16 32), Decidable (k0_chk698 v4965) := fun v4965 => decidable_of_iff' _ (Iff.of_eq (k0_chk698.eq_1 v4965))
theorem k0_idx698_inb : ∀ (v4965 : IVec S16 32) (k0_hw698 : k0_chk698 v4965), ∀ a x, ((![v4965] : Fin 1 → IVec S16 32) a x).toNat < S32768.size a := fun v4965 k0_hw698 => k0_hw698

def k0_chk699 (v4969 : IVec S16 32) : Prop :=
  (∀ a x, ((![v4969] : Fin 1 → IVec S16 32) a x).toNat < S32768.size a)
instance k0_chk699.dec : ∀ (v4969 : IVec S16 32), Decidable (k0_chk699 v4969) := fun v4969 => decidable_of_iff' _ (Iff.of_eq (k0_chk699.eq_1 v4969))
theorem k0_idx699_inb : ∀ (v4969 : IVec S16 32) (k0_hw699 : k0_chk699 v4969), ∀ a x, ((![v4969] : Fin 1 → IVec S16 32) a x).toNat < S32768.size a := fun v4969 k0_hw699 => k0_hw699

def k0_chk700 (v4973 : IVec S16 32) : Prop :=
  (∀ a x, ((![v4973] : Fin 1 → IVec S16 32) a x).toNat < S32768.size a)
instance k0_chk700.dec : ∀ (v4973 : IVec S16 32), Decidable (k0_chk700 v4973) := fun v4973 => decidable_of_iff' _ (Iff.of_eq (k0_chk700.eq_1 v4973))
theorem k0_idx700_inb : ∀ (v4973 : IVec S16 32) (k0_hw700 : k0_chk700 v4973), ∀ a x, ((![v4973] : Fin 1 → IVec S16 32) a x).toNat < S32768.size a := fun v4973 k0_hw700 => k0_hw700

def k0_chk701 (v4977 : IVec S16 32) : Prop :=
  (∀ a x, ((![v4977] : Fin 1 → IVec S16 32) a x).toNat < S32768.size a)
instance k0_chk701.dec : ∀ (v4977 : IVec S16 32), Decidable (k0_chk701 v4977) := fun v4977 => decidable_of_iff' _ (Iff.of_eq (k0_chk701.eq_1 v4977))
theorem k0_idx701_inb : ∀ (v4977 : IVec S16 32) (k0_hw701 : k0_chk701 v4977), ∀ a x, ((![v4977] : Fin 1 → IVec S16 32) a x).toNat < S32768.size a := fun v4977 k0_hw701 => k0_hw701

def k0_chk702 (v4981 : IVec S16 32) : Prop :=
  (∀ a x, ((![v4981] : Fin 1 → IVec S16 32) a x).toNat < S32768.size a)
instance k0_chk702.dec : ∀ (v4981 : IVec S16 32), Decidable (k0_chk702 v4981) := fun v4981 => decidable_of_iff' _ (Iff.of_eq (k0_chk702.eq_1 v4981))
theorem k0_idx702_inb : ∀ (v4981 : IVec S16 32) (k0_hw702 : k0_chk702 v4981), ∀ a x, ((![v4981] : Fin 1 → IVec S16 32) a x).toNat < S32768.size a := fun v4981 k0_hw702 => k0_hw702

def k0_chk703 (v4985 : IVec S16 32) : Prop :=
  (∀ a x, ((![v4985] : Fin 1 → IVec S16 32) a x).toNat < S32768.size a)
instance k0_chk703.dec : ∀ (v4985 : IVec S16 32), Decidable (k0_chk703 v4985) := fun v4985 => decidable_of_iff' _ (Iff.of_eq (k0_chk703.eq_1 v4985))
theorem k0_idx703_inb : ∀ (v4985 : IVec S16 32) (k0_hw703 : k0_chk703 v4985), ∀ a x, ((![v4985] : Fin 1 → IVec S16 32) a x).toNat < S32768.size a := fun v4985 k0_hw703 => k0_hw703

def k0_chk704 (v4989 : IVec S16 32) : Prop :=
  (∀ a x, ((![v4989] : Fin 1 → IVec S16 32) a x).toNat < S32768.size a)
instance k0_chk704.dec : ∀ (v4989 : IVec S16 32), Decidable (k0_chk704 v4989) := fun v4989 => decidable_of_iff' _ (Iff.of_eq (k0_chk704.eq_1 v4989))
theorem k0_idx704_inb : ∀ (v4989 : IVec S16 32) (k0_hw704 : k0_chk704 v4989), ∀ a x, ((![v4989] : Fin 1 → IVec S16 32) a x).toNat < S32768.size a := fun v4989 k0_hw704 => k0_hw704

def k0_chk705 (v4993 : IVec S16 32) : Prop :=
  (∀ a x, ((![v4993] : Fin 1 → IVec S16 32) a x).toNat < S32768.size a)
instance k0_chk705.dec : ∀ (v4993 : IVec S16 32), Decidable (k0_chk705 v4993) := fun v4993 => decidable_of_iff' _ (Iff.of_eq (k0_chk705.eq_1 v4993))
theorem k0_idx705_inb : ∀ (v4993 : IVec S16 32) (k0_hw705 : k0_chk705 v4993), ∀ a x, ((![v4993] : Fin 1 → IVec S16 32) a x).toNat < S32768.size a := fun v4993 k0_hw705 => k0_hw705

def k0_chk706 (v4997 : IVec S16 32) : Prop :=
  (∀ a x, ((![v4997] : Fin 1 → IVec S16 32) a x).toNat < S32768.size a)
instance k0_chk706.dec : ∀ (v4997 : IVec S16 32), Decidable (k0_chk706 v4997) := fun v4997 => decidable_of_iff' _ (Iff.of_eq (k0_chk706.eq_1 v4997))
theorem k0_idx706_inb : ∀ (v4997 : IVec S16 32) (k0_hw706 : k0_chk706 v4997), ∀ a x, ((![v4997] : Fin 1 → IVec S16 32) a x).toNat < S32768.size a := fun v4997 k0_hw706 => k0_hw706

def k0_chk707 (v5001 : IVec S16 32) : Prop :=
  (∀ a x, ((![v5001] : Fin 1 → IVec S16 32) a x).toNat < S32768.size a)
instance k0_chk707.dec : ∀ (v5001 : IVec S16 32), Decidable (k0_chk707 v5001) := fun v5001 => decidable_of_iff' _ (Iff.of_eq (k0_chk707.eq_1 v5001))
theorem k0_idx707_inb : ∀ (v5001 : IVec S16 32) (k0_hw707 : k0_chk707 v5001), ∀ a x, ((![v5001] : Fin 1 → IVec S16 32) a x).toNat < S32768.size a := fun v5001 k0_hw707 => k0_hw707

def k0_chk708 (v5005 : IVec S16 32) : Prop :=
  (∀ a x, ((![v5005] : Fin 1 → IVec S16 32) a x).toNat < S32768.size a)
instance k0_chk708.dec : ∀ (v5005 : IVec S16 32), Decidable (k0_chk708 v5005) := fun v5005 => decidable_of_iff' _ (Iff.of_eq (k0_chk708.eq_1 v5005))
theorem k0_idx708_inb : ∀ (v5005 : IVec S16 32) (k0_hw708 : k0_chk708 v5005), ∀ a x, ((![v5005] : Fin 1 → IVec S16 32) a x).toNat < S32768.size a := fun v5005 k0_hw708 => k0_hw708

def k0_chk709 (v5009 : IVec S16 32) : Prop :=
  (∀ a x, ((![v5009] : Fin 1 → IVec S16 32) a x).toNat < S32768.size a)
instance k0_chk709.dec : ∀ (v5009 : IVec S16 32), Decidable (k0_chk709 v5009) := fun v5009 => decidable_of_iff' _ (Iff.of_eq (k0_chk709.eq_1 v5009))
theorem k0_idx709_inb : ∀ (v5009 : IVec S16 32) (k0_hw709 : k0_chk709 v5009), ∀ a x, ((![v5009] : Fin 1 → IVec S16 32) a x).toNat < S32768.size a := fun v5009 k0_hw709 => k0_hw709

def k0_chk710 (v5013 : IVec S16 32) : Prop :=
  (∀ a x, ((![v5013] : Fin 1 → IVec S16 32) a x).toNat < S32768.size a)
instance k0_chk710.dec : ∀ (v5013 : IVec S16 32), Decidable (k0_chk710 v5013) := fun v5013 => decidable_of_iff' _ (Iff.of_eq (k0_chk710.eq_1 v5013))
theorem k0_idx710_inb : ∀ (v5013 : IVec S16 32) (k0_hw710 : k0_chk710 v5013), ∀ a x, ((![v5013] : Fin 1 → IVec S16 32) a x).toNat < S32768.size a := fun v5013 k0_hw710 => k0_hw710

def k0_chk711 (v5017 : IVec S16 32) : Prop :=
  (∀ a x, ((![v5017] : Fin 1 → IVec S16 32) a x).toNat < S32768.size a)
instance k0_chk711.dec : ∀ (v5017 : IVec S16 32), Decidable (k0_chk711 v5017) := fun v5017 => decidable_of_iff' _ (Iff.of_eq (k0_chk711.eq_1 v5017))
theorem k0_idx711_inb : ∀ (v5017 : IVec S16 32) (k0_hw711 : k0_chk711 v5017), ∀ a x, ((![v5017] : Fin 1 → IVec S16 32) a x).toNat < S32768.size a := fun v5017 k0_hw711 => k0_hw711

def k0_chk712 (v5021 : IVec S16 32) : Prop :=
  (∀ a x, ((![v5021] : Fin 1 → IVec S16 32) a x).toNat < S32768.size a)
instance k0_chk712.dec : ∀ (v5021 : IVec S16 32), Decidable (k0_chk712 v5021) := fun v5021 => decidable_of_iff' _ (Iff.of_eq (k0_chk712.eq_1 v5021))
theorem k0_idx712_inb : ∀ (v5021 : IVec S16 32) (k0_hw712 : k0_chk712 v5021), ∀ a x, ((![v5021] : Fin 1 → IVec S16 32) a x).toNat < S32768.size a := fun v5021 k0_hw712 => k0_hw712

def k0_chk713 (v5025 : IVec S16 32) : Prop :=
  (∀ a x, ((![v5025] : Fin 1 → IVec S16 32) a x).toNat < S32768.size a)
instance k0_chk713.dec : ∀ (v5025 : IVec S16 32), Decidable (k0_chk713 v5025) := fun v5025 => decidable_of_iff' _ (Iff.of_eq (k0_chk713.eq_1 v5025))
theorem k0_idx713_inb : ∀ (v5025 : IVec S16 32) (k0_hw713 : k0_chk713 v5025), ∀ a x, ((![v5025] : Fin 1 → IVec S16 32) a x).toNat < S32768.size a := fun v5025 k0_hw713 => k0_hw713

def k0_chk714 (v5029 : IVec S16 32) : Prop :=
  (∀ a x, ((![v5029] : Fin 1 → IVec S16 32) a x).toNat < S32768.size a)
instance k0_chk714.dec : ∀ (v5029 : IVec S16 32), Decidable (k0_chk714 v5029) := fun v5029 => decidable_of_iff' _ (Iff.of_eq (k0_chk714.eq_1 v5029))
theorem k0_idx714_inb : ∀ (v5029 : IVec S16 32) (k0_hw714 : k0_chk714 v5029), ∀ a x, ((![v5029] : Fin 1 → IVec S16 32) a x).toNat < S32768.size a := fun v5029 k0_hw714 => k0_hw714

def k0_chk715 (v5033 : IVec S16 32) : Prop :=
  (∀ a x, ((![v5033] : Fin 1 → IVec S16 32) a x).toNat < S32768.size a)
instance k0_chk715.dec : ∀ (v5033 : IVec S16 32), Decidable (k0_chk715 v5033) := fun v5033 => decidable_of_iff' _ (Iff.of_eq (k0_chk715.eq_1 v5033))
theorem k0_idx715_inb : ∀ (v5033 : IVec S16 32) (k0_hw715 : k0_chk715 v5033), ∀ a x, ((![v5033] : Fin 1 → IVec S16 32) a x).toNat < S32768.size a := fun v5033 k0_hw715 => k0_hw715

def k0_chk716 (v5037 : IVec S16 32) : Prop :=
  (∀ a x, ((![v5037] : Fin 1 → IVec S16 32) a x).toNat < S32768.size a)
instance k0_chk716.dec : ∀ (v5037 : IVec S16 32), Decidable (k0_chk716 v5037) := fun v5037 => decidable_of_iff' _ (Iff.of_eq (k0_chk716.eq_1 v5037))
theorem k0_idx716_inb : ∀ (v5037 : IVec S16 32) (k0_hw716 : k0_chk716 v5037), ∀ a x, ((![v5037] : Fin 1 → IVec S16 32) a x).toNat < S32768.size a := fun v5037 k0_hw716 => k0_hw716

def k0_chk717 (v5041 : IVec S16 32) : Prop :=
  (∀ a x, ((![v5041] : Fin 1 → IVec S16 32) a x).toNat < S32768.size a)
instance k0_chk717.dec : ∀ (v5041 : IVec S16 32), Decidable (k0_chk717 v5041) := fun v5041 => decidable_of_iff' _ (Iff.of_eq (k0_chk717.eq_1 v5041))
theorem k0_idx717_inb : ∀ (v5041 : IVec S16 32) (k0_hw717 : k0_chk717 v5041), ∀ a x, ((![v5041] : Fin 1 → IVec S16 32) a x).toNat < S32768.size a := fun v5041 k0_hw717 => k0_hw717

def k0_chk718 (v5045 : IVec S16 32) : Prop :=
  (∀ a x, ((![v5045] : Fin 1 → IVec S16 32) a x).toNat < S32768.size a)
instance k0_chk718.dec : ∀ (v5045 : IVec S16 32), Decidable (k0_chk718 v5045) := fun v5045 => decidable_of_iff' _ (Iff.of_eq (k0_chk718.eq_1 v5045))
theorem k0_idx718_inb : ∀ (v5045 : IVec S16 32) (k0_hw718 : k0_chk718 v5045), ∀ a x, ((![v5045] : Fin 1 → IVec S16 32) a x).toNat < S32768.size a := fun v5045 k0_hw718 => k0_hw718

def k0_chk719 (v5049 : IVec S16 32) : Prop :=
  (∀ a x, ((![v5049] : Fin 1 → IVec S16 32) a x).toNat < S32768.size a)
instance k0_chk719.dec : ∀ (v5049 : IVec S16 32), Decidable (k0_chk719 v5049) := fun v5049 => decidable_of_iff' _ (Iff.of_eq (k0_chk719.eq_1 v5049))
theorem k0_idx719_inb : ∀ (v5049 : IVec S16 32) (k0_hw719 : k0_chk719 v5049), ∀ a x, ((![v5049] : Fin 1 → IVec S16 32) a x).toNat < S32768.size a := fun v5049 k0_hw719 => k0_hw719

def k0_chk720 (v5053 : IVec S16 32) : Prop :=
  (∀ a x, ((![v5053] : Fin 1 → IVec S16 32) a x).toNat < S32768.size a)
instance k0_chk720.dec : ∀ (v5053 : IVec S16 32), Decidable (k0_chk720 v5053) := fun v5053 => decidable_of_iff' _ (Iff.of_eq (k0_chk720.eq_1 v5053))
theorem k0_idx720_inb : ∀ (v5053 : IVec S16 32) (k0_hw720 : k0_chk720 v5053), ∀ a x, ((![v5053] : Fin 1 → IVec S16 32) a x).toNat < S32768.size a := fun v5053 k0_hw720 => k0_hw720

def k0_chk721 (v5057 : IVec S16 32) : Prop :=
  (∀ a x, ((![v5057] : Fin 1 → IVec S16 32) a x).toNat < S32768.size a)
instance k0_chk721.dec : ∀ (v5057 : IVec S16 32), Decidable (k0_chk721 v5057) := fun v5057 => decidable_of_iff' _ (Iff.of_eq (k0_chk721.eq_1 v5057))
theorem k0_idx721_inb : ∀ (v5057 : IVec S16 32) (k0_hw721 : k0_chk721 v5057), ∀ a x, ((![v5057] : Fin 1 → IVec S16 32) a x).toNat < S32768.size a := fun v5057 k0_hw721 => k0_hw721

def k0_chk722 (v5061 : IVec S16 32) : Prop :=
  (∀ a x, ((![v5061] : Fin 1 → IVec S16 32) a x).toNat < S32768.size a)
instance k0_chk722.dec : ∀ (v5061 : IVec S16 32), Decidable (k0_chk722 v5061) := fun v5061 => decidable_of_iff' _ (Iff.of_eq (k0_chk722.eq_1 v5061))
theorem k0_idx722_inb : ∀ (v5061 : IVec S16 32) (k0_hw722 : k0_chk722 v5061), ∀ a x, ((![v5061] : Fin 1 → IVec S16 32) a x).toNat < S32768.size a := fun v5061 k0_hw722 => k0_hw722

def k0_chk723 (v5065 : IVec S16 32) : Prop :=
  (∀ a x, ((![v5065] : Fin 1 → IVec S16 32) a x).toNat < S32768.size a)
instance k0_chk723.dec : ∀ (v5065 : IVec S16 32), Decidable (k0_chk723 v5065) := fun v5065 => decidable_of_iff' _ (Iff.of_eq (k0_chk723.eq_1 v5065))
theorem k0_idx723_inb : ∀ (v5065 : IVec S16 32) (k0_hw723 : k0_chk723 v5065), ∀ a x, ((![v5065] : Fin 1 → IVec S16 32) a x).toNat < S32768.size a := fun v5065 k0_hw723 => k0_hw723

def k0_chk724 (v5069 : IVec S16 32) : Prop :=
  (∀ a x, ((![v5069] : Fin 1 → IVec S16 32) a x).toNat < S32768.size a)
instance k0_chk724.dec : ∀ (v5069 : IVec S16 32), Decidable (k0_chk724 v5069) := fun v5069 => decidable_of_iff' _ (Iff.of_eq (k0_chk724.eq_1 v5069))
theorem k0_idx724_inb : ∀ (v5069 : IVec S16 32) (k0_hw724 : k0_chk724 v5069), ∀ a x, ((![v5069] : Fin 1 → IVec S16 32) a x).toNat < S32768.size a := fun v5069 k0_hw724 => k0_hw724

def k0_chk725 (v5073 : IVec S16 32) : Prop :=
  (∀ a x, ((![v5073] : Fin 1 → IVec S16 32) a x).toNat < S32768.size a)
instance k0_chk725.dec : ∀ (v5073 : IVec S16 32), Decidable (k0_chk725 v5073) := fun v5073 => decidable_of_iff' _ (Iff.of_eq (k0_chk725.eq_1 v5073))
theorem k0_idx725_inb : ∀ (v5073 : IVec S16 32) (k0_hw725 : k0_chk725 v5073), ∀ a x, ((![v5073] : Fin 1 → IVec S16 32) a x).toNat < S32768.size a := fun v5073 k0_hw725 => k0_hw725

def k0_chk726 (v5077 : IVec S16 32) : Prop :=
  (∀ a x, ((![v5077] : Fin 1 → IVec S16 32) a x).toNat < S32768.size a)
instance k0_chk726.dec : ∀ (v5077 : IVec S16 32), Decidable (k0_chk726 v5077) := fun v5077 => decidable_of_iff' _ (Iff.of_eq (k0_chk726.eq_1 v5077))
theorem k0_idx726_inb : ∀ (v5077 : IVec S16 32) (k0_hw726 : k0_chk726 v5077), ∀ a x, ((![v5077] : Fin 1 → IVec S16 32) a x).toNat < S32768.size a := fun v5077 k0_hw726 => k0_hw726

def k0_chk727 (v5081 : IVec S16 32) : Prop :=
  (∀ a x, ((![v5081] : Fin 1 → IVec S16 32) a x).toNat < S32768.size a)
instance k0_chk727.dec : ∀ (v5081 : IVec S16 32), Decidable (k0_chk727 v5081) := fun v5081 => decidable_of_iff' _ (Iff.of_eq (k0_chk727.eq_1 v5081))
theorem k0_idx727_inb : ∀ (v5081 : IVec S16 32) (k0_hw727 : k0_chk727 v5081), ∀ a x, ((![v5081] : Fin 1 → IVec S16 32) a x).toNat < S32768.size a := fun v5081 k0_hw727 => k0_hw727

def k0_chk728 (v5085 : IVec S16 32) : Prop :=
  (∀ a x, ((![v5085] : Fin 1 → IVec S16 32) a x).toNat < S32768.size a)
instance k0_chk728.dec : ∀ (v5085 : IVec S16 32), Decidable (k0_chk728 v5085) := fun v5085 => decidable_of_iff' _ (Iff.of_eq (k0_chk728.eq_1 v5085))
theorem k0_idx728_inb : ∀ (v5085 : IVec S16 32) (k0_hw728 : k0_chk728 v5085), ∀ a x, ((![v5085] : Fin 1 → IVec S16 32) a x).toNat < S32768.size a := fun v5085 k0_hw728 => k0_hw728

def k0_chk729 (v5089 : IVec S16 32) : Prop :=
  (∀ a x, ((![v5089] : Fin 1 → IVec S16 32) a x).toNat < S32768.size a)
instance k0_chk729.dec : ∀ (v5089 : IVec S16 32), Decidable (k0_chk729 v5089) := fun v5089 => decidable_of_iff' _ (Iff.of_eq (k0_chk729.eq_1 v5089))
theorem k0_idx729_inb : ∀ (v5089 : IVec S16 32) (k0_hw729 : k0_chk729 v5089), ∀ a x, ((![v5089] : Fin 1 → IVec S16 32) a x).toNat < S32768.size a := fun v5089 k0_hw729 => k0_hw729

def k0_chk730 (v5093 : IVec S16 32) : Prop :=
  (∀ a x, ((![v5093] : Fin 1 → IVec S16 32) a x).toNat < S32768.size a)
instance k0_chk730.dec : ∀ (v5093 : IVec S16 32), Decidable (k0_chk730 v5093) := fun v5093 => decidable_of_iff' _ (Iff.of_eq (k0_chk730.eq_1 v5093))
theorem k0_idx730_inb : ∀ (v5093 : IVec S16 32) (k0_hw730 : k0_chk730 v5093), ∀ a x, ((![v5093] : Fin 1 → IVec S16 32) a x).toNat < S32768.size a := fun v5093 k0_hw730 => k0_hw730

def k0_chk731 (v5097 : IVec S16 32) : Prop :=
  (∀ a x, ((![v5097] : Fin 1 → IVec S16 32) a x).toNat < S32768.size a)
instance k0_chk731.dec : ∀ (v5097 : IVec S16 32), Decidable (k0_chk731 v5097) := fun v5097 => decidable_of_iff' _ (Iff.of_eq (k0_chk731.eq_1 v5097))
theorem k0_idx731_inb : ∀ (v5097 : IVec S16 32) (k0_hw731 : k0_chk731 v5097), ∀ a x, ((![v5097] : Fin 1 → IVec S16 32) a x).toNat < S32768.size a := fun v5097 k0_hw731 => k0_hw731

def k0_chk732 (v5101 : IVec S16 32) : Prop :=
  (∀ a x, ((![v5101] : Fin 1 → IVec S16 32) a x).toNat < S32768.size a)
instance k0_chk732.dec : ∀ (v5101 : IVec S16 32), Decidable (k0_chk732 v5101) := fun v5101 => decidable_of_iff' _ (Iff.of_eq (k0_chk732.eq_1 v5101))
theorem k0_idx732_inb : ∀ (v5101 : IVec S16 32) (k0_hw732 : k0_chk732 v5101), ∀ a x, ((![v5101] : Fin 1 → IVec S16 32) a x).toNat < S32768.size a := fun v5101 k0_hw732 => k0_hw732

def k0_chk733 (v5105 : IVec S16 32) : Prop :=
  (∀ a x, ((![v5105] : Fin 1 → IVec S16 32) a x).toNat < S32768.size a)
instance k0_chk733.dec : ∀ (v5105 : IVec S16 32), Decidable (k0_chk733 v5105) := fun v5105 => decidable_of_iff' _ (Iff.of_eq (k0_chk733.eq_1 v5105))
theorem k0_idx733_inb : ∀ (v5105 : IVec S16 32) (k0_hw733 : k0_chk733 v5105), ∀ a x, ((![v5105] : Fin 1 → IVec S16 32) a x).toNat < S32768.size a := fun v5105 k0_hw733 => k0_hw733

def k0_chk734 (v5109 : IVec S16 32) : Prop :=
  (∀ a x, ((![v5109] : Fin 1 → IVec S16 32) a x).toNat < S32768.size a)
instance k0_chk734.dec : ∀ (v5109 : IVec S16 32), Decidable (k0_chk734 v5109) := fun v5109 => decidable_of_iff' _ (Iff.of_eq (k0_chk734.eq_1 v5109))
theorem k0_idx734_inb : ∀ (v5109 : IVec S16 32) (k0_hw734 : k0_chk734 v5109), ∀ a x, ((![v5109] : Fin 1 → IVec S16 32) a x).toNat < S32768.size a := fun v5109 k0_hw734 => k0_hw734

def k0_chk735 (v5113 : IVec S16 32) : Prop :=
  (∀ a x, ((![v5113] : Fin 1 → IVec S16 32) a x).toNat < S32768.size a)
instance k0_chk735.dec : ∀ (v5113 : IVec S16 32), Decidable (k0_chk735 v5113) := fun v5113 => decidable_of_iff' _ (Iff.of_eq (k0_chk735.eq_1 v5113))
theorem k0_idx735_inb : ∀ (v5113 : IVec S16 32) (k0_hw735 : k0_chk735 v5113), ∀ a x, ((![v5113] : Fin 1 → IVec S16 32) a x).toNat < S32768.size a := fun v5113 k0_hw735 => k0_hw735

def k0_chk736 (v5117 : IVec S16 32) : Prop :=
  (∀ a x, ((![v5117] : Fin 1 → IVec S16 32) a x).toNat < S32768.size a)
instance k0_chk736.dec : ∀ (v5117 : IVec S16 32), Decidable (k0_chk736 v5117) := fun v5117 => decidable_of_iff' _ (Iff.of_eq (k0_chk736.eq_1 v5117))
theorem k0_idx736_inb : ∀ (v5117 : IVec S16 32) (k0_hw736 : k0_chk736 v5117), ∀ a x, ((![v5117] : Fin 1 → IVec S16 32) a x).toNat < S32768.size a := fun v5117 k0_hw736 => k0_hw736

def k0_chk737 (v5121 : IVec S16 32) : Prop :=
  (∀ a x, ((![v5121] : Fin 1 → IVec S16 32) a x).toNat < S32768.size a)
instance k0_chk737.dec : ∀ (v5121 : IVec S16 32), Decidable (k0_chk737 v5121) := fun v5121 => decidable_of_iff' _ (Iff.of_eq (k0_chk737.eq_1 v5121))
theorem k0_idx737_inb : ∀ (v5121 : IVec S16 32) (k0_hw737 : k0_chk737 v5121), ∀ a x, ((![v5121] : Fin 1 → IVec S16 32) a x).toNat < S32768.size a := fun v5121 k0_hw737 => k0_hw737

def k0_chk738 (v5125 : IVec S16 32) : Prop :=
  (∀ a x, ((![v5125] : Fin 1 → IVec S16 32) a x).toNat < S32768.size a)
instance k0_chk738.dec : ∀ (v5125 : IVec S16 32), Decidable (k0_chk738 v5125) := fun v5125 => decidable_of_iff' _ (Iff.of_eq (k0_chk738.eq_1 v5125))
theorem k0_idx738_inb : ∀ (v5125 : IVec S16 32) (k0_hw738 : k0_chk738 v5125), ∀ a x, ((![v5125] : Fin 1 → IVec S16 32) a x).toNat < S32768.size a := fun v5125 k0_hw738 => k0_hw738

def k0_chk739 (v5129 : IVec S16 32) : Prop :=
  (∀ a x, ((![v5129] : Fin 1 → IVec S16 32) a x).toNat < S32768.size a)
instance k0_chk739.dec : ∀ (v5129 : IVec S16 32), Decidable (k0_chk739 v5129) := fun v5129 => decidable_of_iff' _ (Iff.of_eq (k0_chk739.eq_1 v5129))
theorem k0_idx739_inb : ∀ (v5129 : IVec S16 32) (k0_hw739 : k0_chk739 v5129), ∀ a x, ((![v5129] : Fin 1 → IVec S16 32) a x).toNat < S32768.size a := fun v5129 k0_hw739 => k0_hw739

def k0_chk740 (v5133 : IVec S16 32) : Prop :=
  (∀ a x, ((![v5133] : Fin 1 → IVec S16 32) a x).toNat < S32768.size a)
instance k0_chk740.dec : ∀ (v5133 : IVec S16 32), Decidable (k0_chk740 v5133) := fun v5133 => decidable_of_iff' _ (Iff.of_eq (k0_chk740.eq_1 v5133))
theorem k0_idx740_inb : ∀ (v5133 : IVec S16 32) (k0_hw740 : k0_chk740 v5133), ∀ a x, ((![v5133] : Fin 1 → IVec S16 32) a x).toNat < S32768.size a := fun v5133 k0_hw740 => k0_hw740

def k0_chk741 (v5137 : IVec S16 32) : Prop :=
  (∀ a x, ((![v5137] : Fin 1 → IVec S16 32) a x).toNat < S32768.size a)
instance k0_chk741.dec : ∀ (v5137 : IVec S16 32), Decidable (k0_chk741 v5137) := fun v5137 => decidable_of_iff' _ (Iff.of_eq (k0_chk741.eq_1 v5137))
theorem k0_idx741_inb : ∀ (v5137 : IVec S16 32) (k0_hw741 : k0_chk741 v5137), ∀ a x, ((![v5137] : Fin 1 → IVec S16 32) a x).toNat < S32768.size a := fun v5137 k0_hw741 => k0_hw741

def k0_chk742 (v5141 : IVec S16 32) : Prop :=
  (∀ a x, ((![v5141] : Fin 1 → IVec S16 32) a x).toNat < S32768.size a)
instance k0_chk742.dec : ∀ (v5141 : IVec S16 32), Decidable (k0_chk742 v5141) := fun v5141 => decidable_of_iff' _ (Iff.of_eq (k0_chk742.eq_1 v5141))
theorem k0_idx742_inb : ∀ (v5141 : IVec S16 32) (k0_hw742 : k0_chk742 v5141), ∀ a x, ((![v5141] : Fin 1 → IVec S16 32) a x).toNat < S32768.size a := fun v5141 k0_hw742 => k0_hw742

def k0_chk743 (v5145 : IVec S16 32) : Prop :=
  (∀ a x, ((![v5145] : Fin 1 → IVec S16 32) a x).toNat < S32768.size a)
instance k0_chk743.dec : ∀ (v5145 : IVec S16 32), Decidable (k0_chk743 v5145) := fun v5145 => decidable_of_iff' _ (Iff.of_eq (k0_chk743.eq_1 v5145))
theorem k0_idx743_inb : ∀ (v5145 : IVec S16 32) (k0_hw743 : k0_chk743 v5145), ∀ a x, ((![v5145] : Fin 1 → IVec S16 32) a x).toNat < S32768.size a := fun v5145 k0_hw743 => k0_hw743

def k0_chk744 (v5149 : IVec S16 32) : Prop :=
  (∀ a x, ((![v5149] : Fin 1 → IVec S16 32) a x).toNat < S32768.size a)
instance k0_chk744.dec : ∀ (v5149 : IVec S16 32), Decidable (k0_chk744 v5149) := fun v5149 => decidable_of_iff' _ (Iff.of_eq (k0_chk744.eq_1 v5149))
theorem k0_idx744_inb : ∀ (v5149 : IVec S16 32) (k0_hw744 : k0_chk744 v5149), ∀ a x, ((![v5149] : Fin 1 → IVec S16 32) a x).toNat < S32768.size a := fun v5149 k0_hw744 => k0_hw744

def k0_chk745 (v5153 : IVec S16 32) : Prop :=
  (∀ a x, ((![v5153] : Fin 1 → IVec S16 32) a x).toNat < S32768.size a)
instance k0_chk745.dec : ∀ (v5153 : IVec S16 32), Decidable (k0_chk745 v5153) := fun v5153 => decidable_of_iff' _ (Iff.of_eq (k0_chk745.eq_1 v5153))
theorem k0_idx745_inb : ∀ (v5153 : IVec S16 32) (k0_hw745 : k0_chk745 v5153), ∀ a x, ((![v5153] : Fin 1 → IVec S16 32) a x).toNat < S32768.size a := fun v5153 k0_hw745 => k0_hw745

def k0_chk746 (v5157 : IVec S16 32) : Prop :=
  (∀ a x, ((![v5157] : Fin 1 → IVec S16 32) a x).toNat < S32768.size a)
instance k0_chk746.dec : ∀ (v5157 : IVec S16 32), Decidable (k0_chk746 v5157) := fun v5157 => decidable_of_iff' _ (Iff.of_eq (k0_chk746.eq_1 v5157))
theorem k0_idx746_inb : ∀ (v5157 : IVec S16 32) (k0_hw746 : k0_chk746 v5157), ∀ a x, ((![v5157] : Fin 1 → IVec S16 32) a x).toNat < S32768.size a := fun v5157 k0_hw746 => k0_hw746

def k0_chk747 (v5161 : IVec S16 32) : Prop :=
  (∀ a x, ((![v5161] : Fin 1 → IVec S16 32) a x).toNat < S32768.size a)
instance k0_chk747.dec : ∀ (v5161 : IVec S16 32), Decidable (k0_chk747 v5161) := fun v5161 => decidable_of_iff' _ (Iff.of_eq (k0_chk747.eq_1 v5161))
theorem k0_idx747_inb : ∀ (v5161 : IVec S16 32) (k0_hw747 : k0_chk747 v5161), ∀ a x, ((![v5161] : Fin 1 → IVec S16 32) a x).toNat < S32768.size a := fun v5161 k0_hw747 => k0_hw747

def k0_chk748 (v5165 : IVec S16 32) : Prop :=
  (∀ a x, ((![v5165] : Fin 1 → IVec S16 32) a x).toNat < S32768.size a)
instance k0_chk748.dec : ∀ (v5165 : IVec S16 32), Decidable (k0_chk748 v5165) := fun v5165 => decidable_of_iff' _ (Iff.of_eq (k0_chk748.eq_1 v5165))
theorem k0_idx748_inb : ∀ (v5165 : IVec S16 32) (k0_hw748 : k0_chk748 v5165), ∀ a x, ((![v5165] : Fin 1 → IVec S16 32) a x).toNat < S32768.size a := fun v5165 k0_hw748 => k0_hw748

def k0_chk749 (v5169 : IVec S16 32) : Prop :=
  (∀ a x, ((![v5169] : Fin 1 → IVec S16 32) a x).toNat < S32768.size a)
instance k0_chk749.dec : ∀ (v5169 : IVec S16 32), Decidable (k0_chk749 v5169) := fun v5169 => decidable_of_iff' _ (Iff.of_eq (k0_chk749.eq_1 v5169))
theorem k0_idx749_inb : ∀ (v5169 : IVec S16 32) (k0_hw749 : k0_chk749 v5169), ∀ a x, ((![v5169] : Fin 1 → IVec S16 32) a x).toNat < S32768.size a := fun v5169 k0_hw749 => k0_hw749

def k0_chk750 (v5173 : IVec S16 32) : Prop :=
  (∀ a x, ((![v5173] : Fin 1 → IVec S16 32) a x).toNat < S32768.size a)
instance k0_chk750.dec : ∀ (v5173 : IVec S16 32), Decidable (k0_chk750 v5173) := fun v5173 => decidable_of_iff' _ (Iff.of_eq (k0_chk750.eq_1 v5173))
theorem k0_idx750_inb : ∀ (v5173 : IVec S16 32) (k0_hw750 : k0_chk750 v5173), ∀ a x, ((![v5173] : Fin 1 → IVec S16 32) a x).toNat < S32768.size a := fun v5173 k0_hw750 => k0_hw750

def k0_chk751 (v5177 : IVec S16 32) : Prop :=
  (∀ a x, ((![v5177] : Fin 1 → IVec S16 32) a x).toNat < S32768.size a)
instance k0_chk751.dec : ∀ (v5177 : IVec S16 32), Decidable (k0_chk751 v5177) := fun v5177 => decidable_of_iff' _ (Iff.of_eq (k0_chk751.eq_1 v5177))
theorem k0_idx751_inb : ∀ (v5177 : IVec S16 32) (k0_hw751 : k0_chk751 v5177), ∀ a x, ((![v5177] : Fin 1 → IVec S16 32) a x).toNat < S32768.size a := fun v5177 k0_hw751 => k0_hw751

def k0_chk752 (v5181 : IVec S16 32) : Prop :=
  (∀ a x, ((![v5181] : Fin 1 → IVec S16 32) a x).toNat < S32768.size a)
instance k0_chk752.dec : ∀ (v5181 : IVec S16 32), Decidable (k0_chk752 v5181) := fun v5181 => decidable_of_iff' _ (Iff.of_eq (k0_chk752.eq_1 v5181))
theorem k0_idx752_inb : ∀ (v5181 : IVec S16 32) (k0_hw752 : k0_chk752 v5181), ∀ a x, ((![v5181] : Fin 1 → IVec S16 32) a x).toNat < S32768.size a := fun v5181 k0_hw752 => k0_hw752

def k0_chk753 (v5185 : IVec S16 32) : Prop :=
  (∀ a x, ((![v5185] : Fin 1 → IVec S16 32) a x).toNat < S32768.size a)
instance k0_chk753.dec : ∀ (v5185 : IVec S16 32), Decidable (k0_chk753 v5185) := fun v5185 => decidable_of_iff' _ (Iff.of_eq (k0_chk753.eq_1 v5185))
theorem k0_idx753_inb : ∀ (v5185 : IVec S16 32) (k0_hw753 : k0_chk753 v5185), ∀ a x, ((![v5185] : Fin 1 → IVec S16 32) a x).toNat < S32768.size a := fun v5185 k0_hw753 => k0_hw753

def k0_chk754 (v5189 : IVec S16 32) : Prop :=
  (∀ a x, ((![v5189] : Fin 1 → IVec S16 32) a x).toNat < S32768.size a)
instance k0_chk754.dec : ∀ (v5189 : IVec S16 32), Decidable (k0_chk754 v5189) := fun v5189 => decidable_of_iff' _ (Iff.of_eq (k0_chk754.eq_1 v5189))
theorem k0_idx754_inb : ∀ (v5189 : IVec S16 32) (k0_hw754 : k0_chk754 v5189), ∀ a x, ((![v5189] : Fin 1 → IVec S16 32) a x).toNat < S32768.size a := fun v5189 k0_hw754 => k0_hw754

def k0_chk755 (v5193 : IVec S16 32) : Prop :=
  (∀ a x, ((![v5193] : Fin 1 → IVec S16 32) a x).toNat < S32768.size a)
instance k0_chk755.dec : ∀ (v5193 : IVec S16 32), Decidable (k0_chk755 v5193) := fun v5193 => decidable_of_iff' _ (Iff.of_eq (k0_chk755.eq_1 v5193))
theorem k0_idx755_inb : ∀ (v5193 : IVec S16 32) (k0_hw755 : k0_chk755 v5193), ∀ a x, ((![v5193] : Fin 1 → IVec S16 32) a x).toNat < S32768.size a := fun v5193 k0_hw755 => k0_hw755

def k0_chk756 (v5197 : IVec S16 32) : Prop :=
  (∀ a x, ((![v5197] : Fin 1 → IVec S16 32) a x).toNat < S32768.size a)
instance k0_chk756.dec : ∀ (v5197 : IVec S16 32), Decidable (k0_chk756 v5197) := fun v5197 => decidable_of_iff' _ (Iff.of_eq (k0_chk756.eq_1 v5197))
theorem k0_idx756_inb : ∀ (v5197 : IVec S16 32) (k0_hw756 : k0_chk756 v5197), ∀ a x, ((![v5197] : Fin 1 → IVec S16 32) a x).toNat < S32768.size a := fun v5197 k0_hw756 => k0_hw756

def k0_chk757 (v5201 : IVec S16 32) : Prop :=
  (∀ a x, ((![v5201] : Fin 1 → IVec S16 32) a x).toNat < S32768.size a)
instance k0_chk757.dec : ∀ (v5201 : IVec S16 32), Decidable (k0_chk757 v5201) := fun v5201 => decidable_of_iff' _ (Iff.of_eq (k0_chk757.eq_1 v5201))
theorem k0_idx757_inb : ∀ (v5201 : IVec S16 32) (k0_hw757 : k0_chk757 v5201), ∀ a x, ((![v5201] : Fin 1 → IVec S16 32) a x).toNat < S32768.size a := fun v5201 k0_hw757 => k0_hw757

def k0_chk758 (v5205 : IVec S16 32) : Prop :=
  (∀ a x, ((![v5205] : Fin 1 → IVec S16 32) a x).toNat < S32768.size a)
instance k0_chk758.dec : ∀ (v5205 : IVec S16 32), Decidable (k0_chk758 v5205) := fun v5205 => decidable_of_iff' _ (Iff.of_eq (k0_chk758.eq_1 v5205))
theorem k0_idx758_inb : ∀ (v5205 : IVec S16 32) (k0_hw758 : k0_chk758 v5205), ∀ a x, ((![v5205] : Fin 1 → IVec S16 32) a x).toNat < S32768.size a := fun v5205 k0_hw758 => k0_hw758

def k0_chk759 (v5209 : IVec S16 32) : Prop :=
  (∀ a x, ((![v5209] : Fin 1 → IVec S16 32) a x).toNat < S32768.size a)
instance k0_chk759.dec : ∀ (v5209 : IVec S16 32), Decidable (k0_chk759 v5209) := fun v5209 => decidable_of_iff' _ (Iff.of_eq (k0_chk759.eq_1 v5209))
theorem k0_idx759_inb : ∀ (v5209 : IVec S16 32) (k0_hw759 : k0_chk759 v5209), ∀ a x, ((![v5209] : Fin 1 → IVec S16 32) a x).toNat < S32768.size a := fun v5209 k0_hw759 => k0_hw759

def k0_chk760 (v5213 : IVec S16 32) : Prop :=
  (∀ a x, ((![v5213] : Fin 1 → IVec S16 32) a x).toNat < S32768.size a)
instance k0_chk760.dec : ∀ (v5213 : IVec S16 32), Decidable (k0_chk760 v5213) := fun v5213 => decidable_of_iff' _ (Iff.of_eq (k0_chk760.eq_1 v5213))
theorem k0_idx760_inb : ∀ (v5213 : IVec S16 32) (k0_hw760 : k0_chk760 v5213), ∀ a x, ((![v5213] : Fin 1 → IVec S16 32) a x).toNat < S32768.size a := fun v5213 k0_hw760 => k0_hw760

def k0_chk761 (v5217 : IVec S16 32) : Prop :=
  (∀ a x, ((![v5217] : Fin 1 → IVec S16 32) a x).toNat < S32768.size a)
instance k0_chk761.dec : ∀ (v5217 : IVec S16 32), Decidable (k0_chk761 v5217) := fun v5217 => decidable_of_iff' _ (Iff.of_eq (k0_chk761.eq_1 v5217))
theorem k0_idx761_inb : ∀ (v5217 : IVec S16 32) (k0_hw761 : k0_chk761 v5217), ∀ a x, ((![v5217] : Fin 1 → IVec S16 32) a x).toNat < S32768.size a := fun v5217 k0_hw761 => k0_hw761

def k0_chk762 (v5221 : IVec S16 32) : Prop :=
  (∀ a x, ((![v5221] : Fin 1 → IVec S16 32) a x).toNat < S32768.size a)
instance k0_chk762.dec : ∀ (v5221 : IVec S16 32), Decidable (k0_chk762 v5221) := fun v5221 => decidable_of_iff' _ (Iff.of_eq (k0_chk762.eq_1 v5221))
theorem k0_idx762_inb : ∀ (v5221 : IVec S16 32) (k0_hw762 : k0_chk762 v5221), ∀ a x, ((![v5221] : Fin 1 → IVec S16 32) a x).toNat < S32768.size a := fun v5221 k0_hw762 => k0_hw762

def k0_chk763 (v5225 : IVec S16 32) : Prop :=
  (∀ a x, ((![v5225] : Fin 1 → IVec S16 32) a x).toNat < S32768.size a)
instance k0_chk763.dec : ∀ (v5225 : IVec S16 32), Decidable (k0_chk763 v5225) := fun v5225 => decidable_of_iff' _ (Iff.of_eq (k0_chk763.eq_1 v5225))
theorem k0_idx763_inb : ∀ (v5225 : IVec S16 32) (k0_hw763 : k0_chk763 v5225), ∀ a x, ((![v5225] : Fin 1 → IVec S16 32) a x).toNat < S32768.size a := fun v5225 k0_hw763 => k0_hw763

def k0_chk764 (v5229 : IVec S16 32) : Prop :=
  (∀ a x, ((![v5229] : Fin 1 → IVec S16 32) a x).toNat < S32768.size a)
instance k0_chk764.dec : ∀ (v5229 : IVec S16 32), Decidable (k0_chk764 v5229) := fun v5229 => decidable_of_iff' _ (Iff.of_eq (k0_chk764.eq_1 v5229))
theorem k0_idx764_inb : ∀ (v5229 : IVec S16 32) (k0_hw764 : k0_chk764 v5229), ∀ a x, ((![v5229] : Fin 1 → IVec S16 32) a x).toNat < S32768.size a := fun v5229 k0_hw764 => k0_hw764

def k0_chk765 (v5233 : IVec S16 32) : Prop :=
  (∀ a x, ((![v5233] : Fin 1 → IVec S16 32) a x).toNat < S32768.size a)
instance k0_chk765.dec : ∀ (v5233 : IVec S16 32), Decidable (k0_chk765 v5233) := fun v5233 => decidable_of_iff' _ (Iff.of_eq (k0_chk765.eq_1 v5233))
theorem k0_idx765_inb : ∀ (v5233 : IVec S16 32) (k0_hw765 : k0_chk765 v5233), ∀ a x, ((![v5233] : Fin 1 → IVec S16 32) a x).toNat < S32768.size a := fun v5233 k0_hw765 => k0_hw765

def k0_chk766 (v5237 : IVec S16 32) : Prop :=
  (∀ a x, ((![v5237] : Fin 1 → IVec S16 32) a x).toNat < S32768.size a)
instance k0_chk766.dec : ∀ (v5237 : IVec S16 32), Decidable (k0_chk766 v5237) := fun v5237 => decidable_of_iff' _ (Iff.of_eq (k0_chk766.eq_1 v5237))
theorem k0_idx766_inb : ∀ (v5237 : IVec S16 32) (k0_hw766 : k0_chk766 v5237), ∀ a x, ((![v5237] : Fin 1 → IVec S16 32) a x).toNat < S32768.size a := fun v5237 k0_hw766 => k0_hw766

def k0_chk767 (v5241 : IVec S16 32) : Prop :=
  (∀ a x, ((![v5241] : Fin 1 → IVec S16 32) a x).toNat < S32768.size a)
instance k0_chk767.dec : ∀ (v5241 : IVec S16 32), Decidable (k0_chk767 v5241) := fun v5241 => decidable_of_iff' _ (Iff.of_eq (k0_chk767.eq_1 v5241))
theorem k0_idx767_inb : ∀ (v5241 : IVec S16 32) (k0_hw767 : k0_chk767 v5241), ∀ a x, ((![v5241] : Fin 1 → IVec S16 32) a x).toNat < S32768.size a := fun v5241 k0_hw767 => k0_hw767

def k0_chk768 (v5245 : IVec S16 32) : Prop :=
  (∀ a x, ((![v5245] : Fin 1 → IVec S16 32) a x).toNat < S32768.size a)
instance k0_chk768.dec : ∀ (v5245 : IVec S16 32), Decidable (k0_chk768 v5245) := fun v5245 => decidable_of_iff' _ (Iff.of_eq (k0_chk768.eq_1 v5245))
theorem k0_idx768_inb : ∀ (v5245 : IVec S16 32) (k0_hw768 : k0_chk768 v5245), ∀ a x, ((![v5245] : Fin 1 → IVec S16 32) a x).toNat < S32768.size a := fun v5245 k0_hw768 => k0_hw768
def k0_off8 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v9 : BitVec 32 := Scalar.muli v1 c128_i32_0
  let c2048_i32 : BitVec 32 := 2048#32
  let v10 : BitVec 32 := Scalar.muli v9 c2048_i32
  let c1_i32_661 : BitVec 32 := 1#32
  let c1_i32_662 : BitVec 32 := 1#32
  let arg12 : BitVec 32 := Scf.iv c1_i32_661 c1_i32_662 k0_t1
  let c2_i32_1702 : BitVec 32 := 2#32
  let v4205 : BitVec 32 := Scalar.muli arg12 c2_i32_1702
  let c0_i32_1703 : BitVec 32 := 0#32
  let v4206 : BitVec 32 := Scalar.addi v4205 c0_i32_1703
  let c4096_i32_2223 : BitVec 32 := 4096#32
  let v5248 : BitVec 32 := Scalar.muli v4206 c4096_i32_2223
  let v5249 : BitVec 32 := Scalar.addi v10 v5248
  ![v5249.toNat]
def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v7 : BitVec 32 := Scalar.muli v1 c128_i32
  let c16384_i32 : BitVec 32 := 16384#32
  let v8 : BitVec 32 := Scalar.muli v7 c16384_i32
  let c1_i32_661 : BitVec 32 := 1#32
  let c1_i32_662 : BitVec 32 := 1#32
  let arg12 : BitVec 32 := Scf.iv c1_i32_661 c1_i32_662 k0_t1
  let c2_i32_1702 : BitVec 32 := 2#32
  let v4205 : BitVec 32 := Scalar.muli arg12 c2_i32_1702
  let c0_i32_1703 : BitVec 32 := 0#32
  let v4206 : BitVec 32 := Scalar.addi v4205 c0_i32_1703
  let c2_i32_2225 : BitVec 32 := 2#32
  let v5254 : BitVec 32 := Scalar.addi v4206 c2_i32_2225
  let c32768_i32_2226 : BitVec 32 := 32768#32
  let v5255 : BitVec 32 := Scalar.muli v5254 c32768_i32_2226
  let v5256 : BitVec 32 := Scalar.addi v8 v5255
  ![v5256.toNat]
def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v7 : BitVec 32 := Scalar.muli v1 c128_i32
  let c16384_i32 : BitVec 32 := 16384#32
  let v8 : BitVec 32 := Scalar.muli v7 c16384_i32
  let c1_i32_661 : BitVec 32 := 1#32
  let c1_i32_662 : BitVec 32 := 1#32
  let arg12 : BitVec 32 := Scf.iv c1_i32_661 c1_i32_662 k0_t1
  let c2_i32_2228 : BitVec 32 := 2#32
  let v5261 : BitVec 32 := Scalar.muli arg12 c2_i32_2228
  let c1_i32_2229 : BitVec 32 := 1#32
  let v5262 : BitVec 32 := Scalar.addi v5261 c1_i32_2229
  let c32768_i32_2230 : BitVec 32 := 32768#32
  let v5263 : BitVec 32 := Scalar.muli v5262 c32768_i32_2230
  let v5264 : BitVec 32 := Scalar.addi v8 v5263
  ![v5264.toNat]
def k0_off11 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v9 : BitVec 32 := Scalar.muli v1 c128_i32_0
  let c2048_i32 : BitVec 32 := 2048#32
  let v10 : BitVec 32 := Scalar.muli v9 c2048_i32
  let c1_i32_661 : BitVec 32 := 1#32
  let c1_i32_662 : BitVec 32 := 1#32
  let arg12 : BitVec 32 := Scf.iv c1_i32_661 c1_i32_662 k0_t1
  let c2_i32_2228 : BitVec 32 := 2#32
  let v5261 : BitVec 32 := Scalar.muli arg12 c2_i32_2228
  let c1_i32_2229 : BitVec 32 := 1#32
  let v5262 : BitVec 32 := Scalar.addi v5261 c1_i32_2229
  let c2_i32_2232 : BitVec 32 := 2#32
  let v5269 : BitVec 32 := Scalar.subi v5262 c2_i32_2232
  let c4096_i32_2233 : BitVec 32 := 4096#32
  let v5270 : BitVec 32 := Scalar.muli v5269 c4096_i32_2233
  let v5271 : BitVec 32 := Scalar.addi v10 v5270
  ![v5271.toNat]

def k0_chk769 (v5279 : IVec S16 32) : Prop :=
  (∀ a x, ((![v5279] : Fin 1 → IVec S16 32) a x).toNat < S32768.size a)
instance k0_chk769.dec : ∀ (v5279 : IVec S16 32), Decidable (k0_chk769 v5279) := fun v5279 => decidable_of_iff' _ (Iff.of_eq (k0_chk769.eq_1 v5279))
theorem k0_idx769_inb : ∀ (v5279 : IVec S16 32) (k0_hw769 : k0_chk769 v5279), ∀ a x, ((![v5279] : Fin 1 → IVec S16 32) a x).toNat < S32768.size a := fun v5279 k0_hw769 => k0_hw769

def k0_chk770 (v5283 : IVec S16 32) : Prop :=
  (∀ a x, ((![v5283] : Fin 1 → IVec S16 32) a x).toNat < S32768.size a)
instance k0_chk770.dec : ∀ (v5283 : IVec S16 32), Decidable (k0_chk770 v5283) := fun v5283 => decidable_of_iff' _ (Iff.of_eq (k0_chk770.eq_1 v5283))
theorem k0_idx770_inb : ∀ (v5283 : IVec S16 32) (k0_hw770 : k0_chk770 v5283), ∀ a x, ((![v5283] : Fin 1 → IVec S16 32) a x).toNat < S32768.size a := fun v5283 k0_hw770 => k0_hw770

def k0_chk771 (v5287 : IVec S16 32) : Prop :=
  (∀ a x, ((![v5287] : Fin 1 → IVec S16 32) a x).toNat < S32768.size a)
instance k0_chk771.dec : ∀ (v5287 : IVec S16 32), Decidable (k0_chk771 v5287) := fun v5287 => decidable_of_iff' _ (Iff.of_eq (k0_chk771.eq_1 v5287))
theorem k0_idx771_inb : ∀ (v5287 : IVec S16 32) (k0_hw771 : k0_chk771 v5287), ∀ a x, ((![v5287] : Fin 1 → IVec S16 32) a x).toNat < S32768.size a := fun v5287 k0_hw771 => k0_hw771

def k0_chk772 (v5291 : IVec S16 32) : Prop :=
  (∀ a x, ((![v5291] : Fin 1 → IVec S16 32) a x).toNat < S32768.size a)
instance k0_chk772.dec : ∀ (v5291 : IVec S16 32), Decidable (k0_chk772 v5291) := fun v5291 => decidable_of_iff' _ (Iff.of_eq (k0_chk772.eq_1 v5291))
theorem k0_idx772_inb : ∀ (v5291 : IVec S16 32) (k0_hw772 : k0_chk772 v5291), ∀ a x, ((![v5291] : Fin 1 → IVec S16 32) a x).toNat < S32768.size a := fun v5291 k0_hw772 => k0_hw772

def k0_chk773 (v5295 : IVec S16 32) : Prop :=
  (∀ a x, ((![v5295] : Fin 1 → IVec S16 32) a x).toNat < S32768.size a)
instance k0_chk773.dec : ∀ (v5295 : IVec S16 32), Decidable (k0_chk773 v5295) := fun v5295 => decidable_of_iff' _ (Iff.of_eq (k0_chk773.eq_1 v5295))
theorem k0_idx773_inb : ∀ (v5295 : IVec S16 32) (k0_hw773 : k0_chk773 v5295), ∀ a x, ((![v5295] : Fin 1 → IVec S16 32) a x).toNat < S32768.size a := fun v5295 k0_hw773 => k0_hw773

def k0_chk774 (v5299 : IVec S16 32) : Prop :=
  (∀ a x, ((![v5299] : Fin 1 → IVec S16 32) a x).toNat < S32768.size a)
instance k0_chk774.dec : ∀ (v5299 : IVec S16 32), Decidable (k0_chk774 v5299) := fun v5299 => decidable_of_iff' _ (Iff.of_eq (k0_chk774.eq_1 v5299))
theorem k0_idx774_inb : ∀ (v5299 : IVec S16 32) (k0_hw774 : k0_chk774 v5299), ∀ a x, ((![v5299] : Fin 1 → IVec S16 32) a x).toNat < S32768.size a := fun v5299 k0_hw774 => k0_hw774

def k0_chk775 (v5303 : IVec S16 32) : Prop :=
  (∀ a x, ((![v5303] : Fin 1 → IVec S16 32) a x).toNat < S32768.size a)
instance k0_chk775.dec : ∀ (v5303 : IVec S16 32), Decidable (k0_chk775 v5303) := fun v5303 => decidable_of_iff' _ (Iff.of_eq (k0_chk775.eq_1 v5303))
theorem k0_idx775_inb : ∀ (v5303 : IVec S16 32) (k0_hw775 : k0_chk775 v5303), ∀ a x, ((![v5303] : Fin 1 → IVec S16 32) a x).toNat < S32768.size a := fun v5303 k0_hw775 => k0_hw775

def k0_chk776 (v5307 : IVec S16 32) : Prop :=
  (∀ a x, ((![v5307] : Fin 1 → IVec S16 32) a x).toNat < S32768.size a)
instance k0_chk776.dec : ∀ (v5307 : IVec S16 32), Decidable (k0_chk776 v5307) := fun v5307 => decidable_of_iff' _ (Iff.of_eq (k0_chk776.eq_1 v5307))
theorem k0_idx776_inb : ∀ (v5307 : IVec S16 32) (k0_hw776 : k0_chk776 v5307), ∀ a x, ((![v5307] : Fin 1 → IVec S16 32) a x).toNat < S32768.size a := fun v5307 k0_hw776 => k0_hw776

def k0_chk777 (v5311 : IVec S16 32) : Prop :=
  (∀ a x, ((![v5311] : Fin 1 → IVec S16 32) a x).toNat < S32768.size a)
instance k0_chk777.dec : ∀ (v5311 : IVec S16 32), Decidable (k0_chk777 v5311) := fun v5311 => decidable_of_iff' _ (Iff.of_eq (k0_chk777.eq_1 v5311))
theorem k0_idx777_inb : ∀ (v5311 : IVec S16 32) (k0_hw777 : k0_chk777 v5311), ∀ a x, ((![v5311] : Fin 1 → IVec S16 32) a x).toNat < S32768.size a := fun v5311 k0_hw777 => k0_hw777

def k0_chk778 (v5315 : IVec S16 32) : Prop :=
  (∀ a x, ((![v5315] : Fin 1 → IVec S16 32) a x).toNat < S32768.size a)
instance k0_chk778.dec : ∀ (v5315 : IVec S16 32), Decidable (k0_chk778 v5315) := fun v5315 => decidable_of_iff' _ (Iff.of_eq (k0_chk778.eq_1 v5315))
theorem k0_idx778_inb : ∀ (v5315 : IVec S16 32) (k0_hw778 : k0_chk778 v5315), ∀ a x, ((![v5315] : Fin 1 → IVec S16 32) a x).toNat < S32768.size a := fun v5315 k0_hw778 => k0_hw778

def k0_chk779 (v5319 : IVec S16 32) : Prop :=
  (∀ a x, ((![v5319] : Fin 1 → IVec S16 32) a x).toNat < S32768.size a)
instance k0_chk779.dec : ∀ (v5319 : IVec S16 32), Decidable (k0_chk779 v5319) := fun v5319 => decidable_of_iff' _ (Iff.of_eq (k0_chk779.eq_1 v5319))
theorem k0_idx779_inb : ∀ (v5319 : IVec S16 32) (k0_hw779 : k0_chk779 v5319), ∀ a x, ((![v5319] : Fin 1 → IVec S16 32) a x).toNat < S32768.size a := fun v5319 k0_hw779 => k0_hw779

def k0_chk780 (v5323 : IVec S16 32) : Prop :=
  (∀ a x, ((![v5323] : Fin 1 → IVec S16 32) a x).toNat < S32768.size a)
instance k0_chk780.dec : ∀ (v5323 : IVec S16 32), Decidable (k0_chk780 v5323) := fun v5323 => decidable_of_iff' _ (Iff.of_eq (k0_chk780.eq_1 v5323))
theorem k0_idx780_inb : ∀ (v5323 : IVec S16 32) (k0_hw780 : k0_chk780 v5323), ∀ a x, ((![v5323] : Fin 1 → IVec S16 32) a x).toNat < S32768.size a := fun v5323 k0_hw780 => k0_hw780

def k0_chk781 (v5327 : IVec S16 32) : Prop :=
  (∀ a x, ((![v5327] : Fin 1 → IVec S16 32) a x).toNat < S32768.size a)
instance k0_chk781.dec : ∀ (v5327 : IVec S16 32), Decidable (k0_chk781 v5327) := fun v5327 => decidable_of_iff' _ (Iff.of_eq (k0_chk781.eq_1 v5327))
theorem k0_idx781_inb : ∀ (v5327 : IVec S16 32) (k0_hw781 : k0_chk781 v5327), ∀ a x, ((![v5327] : Fin 1 → IVec S16 32) a x).toNat < S32768.size a := fun v5327 k0_hw781 => k0_hw781

def k0_chk782 (v5331 : IVec S16 32) : Prop :=
  (∀ a x, ((![v5331] : Fin 1 → IVec S16 32) a x).toNat < S32768.size a)
instance k0_chk782.dec : ∀ (v5331 : IVec S16 32), Decidable (k0_chk782 v5331) := fun v5331 => decidable_of_iff' _ (Iff.of_eq (k0_chk782.eq_1 v5331))
theorem k0_idx782_inb : ∀ (v5331 : IVec S16 32) (k0_hw782 : k0_chk782 v5331), ∀ a x, ((![v5331] : Fin 1 → IVec S16 32) a x).toNat < S32768.size a := fun v5331 k0_hw782 => k0_hw782

def k0_chk783 (v5335 : IVec S16 32) : Prop :=
  (∀ a x, ((![v5335] : Fin 1 → IVec S16 32) a x).toNat < S32768.size a)
instance k0_chk783.dec : ∀ (v5335 : IVec S16 32), Decidable (k0_chk783 v5335) := fun v5335 => decidable_of_iff' _ (Iff.of_eq (k0_chk783.eq_1 v5335))
theorem k0_idx783_inb : ∀ (v5335 : IVec S16 32) (k0_hw783 : k0_chk783 v5335), ∀ a x, ((![v5335] : Fin 1 → IVec S16 32) a x).toNat < S32768.size a := fun v5335 k0_hw783 => k0_hw783

def k0_chk784 (v5339 : IVec S16 32) : Prop :=
  (∀ a x, ((![v5339] : Fin 1 → IVec S16 32) a x).toNat < S32768.size a)
instance k0_chk784.dec : ∀ (v5339 : IVec S16 32), Decidable (k0_chk784 v5339) := fun v5339 => decidable_of_iff' _ (Iff.of_eq (k0_chk784.eq_1 v5339))
theorem k0_idx784_inb : ∀ (v5339 : IVec S16 32) (k0_hw784 : k0_chk784 v5339), ∀ a x, ((![v5339] : Fin 1 → IVec S16 32) a x).toNat < S32768.size a := fun v5339 k0_hw784 => k0_hw784

def k0_chk785 (v5343 : IVec S16 32) : Prop :=
  (∀ a x, ((![v5343] : Fin 1 → IVec S16 32) a x).toNat < S32768.size a)
instance k0_chk785.dec : ∀ (v5343 : IVec S16 32), Decidable (k0_chk785 v5343) := fun v5343 => decidable_of_iff' _ (Iff.of_eq (k0_chk785.eq_1 v5343))
theorem k0_idx785_inb : ∀ (v5343 : IVec S16 32) (k0_hw785 : k0_chk785 v5343), ∀ a x, ((![v5343] : Fin 1 → IVec S16 32) a x).toNat < S32768.size a := fun v5343 k0_hw785 => k0_hw785

def k0_chk786 (v5347 : IVec S16 32) : Prop :=
  (∀ a x, ((![v5347] : Fin 1 → IVec S16 32) a x).toNat < S32768.size a)
instance k0_chk786.dec : ∀ (v5347 : IVec S16 32), Decidable (k0_chk786 v5347) := fun v5347 => decidable_of_iff' _ (Iff.of_eq (k0_chk786.eq_1 v5347))
theorem k0_idx786_inb : ∀ (v5347 : IVec S16 32) (k0_hw786 : k0_chk786 v5347), ∀ a x, ((![v5347] : Fin 1 → IVec S16 32) a x).toNat < S32768.size a := fun v5347 k0_hw786 => k0_hw786

def k0_chk787 (v5351 : IVec S16 32) : Prop :=
  (∀ a x, ((![v5351] : Fin 1 → IVec S16 32) a x).toNat < S32768.size a)
instance k0_chk787.dec : ∀ (v5351 : IVec S16 32), Decidable (k0_chk787 v5351) := fun v5351 => decidable_of_iff' _ (Iff.of_eq (k0_chk787.eq_1 v5351))
theorem k0_idx787_inb : ∀ (v5351 : IVec S16 32) (k0_hw787 : k0_chk787 v5351), ∀ a x, ((![v5351] : Fin 1 → IVec S16 32) a x).toNat < S32768.size a := fun v5351 k0_hw787 => k0_hw787

def k0_chk788 (v5355 : IVec S16 32) : Prop :=
  (∀ a x, ((![v5355] : Fin 1 → IVec S16 32) a x).toNat < S32768.size a)
instance k0_chk788.dec : ∀ (v5355 : IVec S16 32), Decidable (k0_chk788 v5355) := fun v5355 => decidable_of_iff' _ (Iff.of_eq (k0_chk788.eq_1 v5355))
theorem k0_idx788_inb : ∀ (v5355 : IVec S16 32) (k0_hw788 : k0_chk788 v5355), ∀ a x, ((![v5355] : Fin 1 → IVec S16 32) a x).toNat < S32768.size a := fun v5355 k0_hw788 => k0_hw788

def k0_chk789 (v5359 : IVec S16 32) : Prop :=
  (∀ a x, ((![v5359] : Fin 1 → IVec S16 32) a x).toNat < S32768.size a)
instance k0_chk789.dec : ∀ (v5359 : IVec S16 32), Decidable (k0_chk789 v5359) := fun v5359 => decidable_of_iff' _ (Iff.of_eq (k0_chk789.eq_1 v5359))
theorem k0_idx789_inb : ∀ (v5359 : IVec S16 32) (k0_hw789 : k0_chk789 v5359), ∀ a x, ((![v5359] : Fin 1 → IVec S16 32) a x).toNat < S32768.size a := fun v5359 k0_hw789 => k0_hw789

def k0_chk790 (v5363 : IVec S16 32) : Prop :=
  (∀ a x, ((![v5363] : Fin 1 → IVec S16 32) a x).toNat < S32768.size a)
instance k0_chk790.dec : ∀ (v5363 : IVec S16 32), Decidable (k0_chk790 v5363) := fun v5363 => decidable_of_iff' _ (Iff.of_eq (k0_chk790.eq_1 v5363))
theorem k0_idx790_inb : ∀ (v5363 : IVec S16 32) (k0_hw790 : k0_chk790 v5363), ∀ a x, ((![v5363] : Fin 1 → IVec S16 32) a x).toNat < S32768.size a := fun v5363 k0_hw790 => k0_hw790

def k0_chk791 (v5367 : IVec S16 32) : Prop :=
  (∀ a x, ((![v5367] : Fin 1 → IVec S16 32) a x).toNat < S32768.size a)
instance k0_chk791.dec : ∀ (v5367 : IVec S16 32), Decidable (k0_chk791 v5367) := fun v5367 => decidable_of_iff' _ (Iff.of_eq (k0_chk791.eq_1 v5367))
theorem k0_idx791_inb : ∀ (v5367 : IVec S16 32) (k0_hw791 : k0_chk791 v5367), ∀ a x, ((![v5367] : Fin 1 → IVec S16 32) a x).toNat < S32768.size a := fun v5367 k0_hw791 => k0_hw791

def k0_chk792 (v5371 : IVec S16 32) : Prop :=
  (∀ a x, ((![v5371] : Fin 1 → IVec S16 32) a x).toNat < S32768.size a)
instance k0_chk792.dec : ∀ (v5371 : IVec S16 32), Decidable (k0_chk792 v5371) := fun v5371 => decidable_of_iff' _ (Iff.of_eq (k0_chk792.eq_1 v5371))
theorem k0_idx792_inb : ∀ (v5371 : IVec S16 32) (k0_hw792 : k0_chk792 v5371), ∀ a x, ((![v5371] : Fin 1 → IVec S16 32) a x).toNat < S32768.size a := fun v5371 k0_hw792 => k0_hw792

def k0_chk793 (v5375 : IVec S16 32) : Prop :=
  (∀ a x, ((![v5375] : Fin 1 → IVec S16 32) a x).toNat < S32768.size a)
instance k0_chk793.dec : ∀ (v5375 : IVec S16 32), Decidable (k0_chk793 v5375) := fun v5375 => decidable_of_iff' _ (Iff.of_eq (k0_chk793.eq_1 v5375))
theorem k0_idx793_inb : ∀ (v5375 : IVec S16 32) (k0_hw793 : k0_chk793 v5375), ∀ a x, ((![v5375] : Fin 1 → IVec S16 32) a x).toNat < S32768.size a := fun v5375 k0_hw793 => k0_hw793

def k0_chk794 (v5379 : IVec S16 32) : Prop :=
  (∀ a x, ((![v5379] : Fin 1 → IVec S16 32) a x).toNat < S32768.size a)
instance k0_chk794.dec : ∀ (v5379 : IVec S16 32), Decidable (k0_chk794 v5379) := fun v5379 => decidable_of_iff' _ (Iff.of_eq (k0_chk794.eq_1 v5379))
theorem k0_idx794_inb : ∀ (v5379 : IVec S16 32) (k0_hw794 : k0_chk794 v5379), ∀ a x, ((![v5379] : Fin 1 → IVec S16 32) a x).toNat < S32768.size a := fun v5379 k0_hw794 => k0_hw794

def k0_chk795 (v5383 : IVec S16 32) : Prop :=
  (∀ a x, ((![v5383] : Fin 1 → IVec S16 32) a x).toNat < S32768.size a)
instance k0_chk795.dec : ∀ (v5383 : IVec S16 32), Decidable (k0_chk795 v5383) := fun v5383 => decidable_of_iff' _ (Iff.of_eq (k0_chk795.eq_1 v5383))
theorem k0_idx795_inb : ∀ (v5383 : IVec S16 32) (k0_hw795 : k0_chk795 v5383), ∀ a x, ((![v5383] : Fin 1 → IVec S16 32) a x).toNat < S32768.size a := fun v5383 k0_hw795 => k0_hw795

def k0_chk796 (v5387 : IVec S16 32) : Prop :=
  (∀ a x, ((![v5387] : Fin 1 → IVec S16 32) a x).toNat < S32768.size a)
instance k0_chk796.dec : ∀ (v5387 : IVec S16 32), Decidable (k0_chk796 v5387) := fun v5387 => decidable_of_iff' _ (Iff.of_eq (k0_chk796.eq_1 v5387))
theorem k0_idx796_inb : ∀ (v5387 : IVec S16 32) (k0_hw796 : k0_chk796 v5387), ∀ a x, ((![v5387] : Fin 1 → IVec S16 32) a x).toNat < S32768.size a := fun v5387 k0_hw796 => k0_hw796

def k0_chk797 (v5391 : IVec S16 32) : Prop :=
  (∀ a x, ((![v5391] : Fin 1 → IVec S16 32) a x).toNat < S32768.size a)
instance k0_chk797.dec : ∀ (v5391 : IVec S16 32), Decidable (k0_chk797 v5391) := fun v5391 => decidable_of_iff' _ (Iff.of_eq (k0_chk797.eq_1 v5391))
theorem k0_idx797_inb : ∀ (v5391 : IVec S16 32) (k0_hw797 : k0_chk797 v5391), ∀ a x, ((![v5391] : Fin 1 → IVec S16 32) a x).toNat < S32768.size a := fun v5391 k0_hw797 => k0_hw797

def k0_chk798 (v5395 : IVec S16 32) : Prop :=
  (∀ a x, ((![v5395] : Fin 1 → IVec S16 32) a x).toNat < S32768.size a)
instance k0_chk798.dec : ∀ (v5395 : IVec S16 32), Decidable (k0_chk798 v5395) := fun v5395 => decidable_of_iff' _ (Iff.of_eq (k0_chk798.eq_1 v5395))
theorem k0_idx798_inb : ∀ (v5395 : IVec S16 32) (k0_hw798 : k0_chk798 v5395), ∀ a x, ((![v5395] : Fin 1 → IVec S16 32) a x).toNat < S32768.size a := fun v5395 k0_hw798 => k0_hw798

def k0_chk799 (v5399 : IVec S16 32) : Prop :=
  (∀ a x, ((![v5399] : Fin 1 → IVec S16 32) a x).toNat < S32768.size a)
instance k0_chk799.dec : ∀ (v5399 : IVec S16 32), Decidable (k0_chk799 v5399) := fun v5399 => decidable_of_iff' _ (Iff.of_eq (k0_chk799.eq_1 v5399))
theorem k0_idx799_inb : ∀ (v5399 : IVec S16 32) (k0_hw799 : k0_chk799 v5399), ∀ a x, ((![v5399] : Fin 1 → IVec S16 32) a x).toNat < S32768.size a := fun v5399 k0_hw799 => k0_hw799

def k0_chk800 (v5403 : IVec S16 32) : Prop :=
  (∀ a x, ((![v5403] : Fin 1 → IVec S16 32) a x).toNat < S32768.size a)
instance k0_chk800.dec : ∀ (v5403 : IVec S16 32), Decidable (k0_chk800 v5403) := fun v5403 => decidable_of_iff' _ (Iff.of_eq (k0_chk800.eq_1 v5403))
theorem k0_idx800_inb : ∀ (v5403 : IVec S16 32) (k0_hw800 : k0_chk800 v5403), ∀ a x, ((![v5403] : Fin 1 → IVec S16 32) a x).toNat < S32768.size a := fun v5403 k0_hw800 => k0_hw800

def k0_chk801 (v5407 : IVec S16 32) : Prop :=
  (∀ a x, ((![v5407] : Fin 1 → IVec S16 32) a x).toNat < S32768.size a)
instance k0_chk801.dec : ∀ (v5407 : IVec S16 32), Decidable (k0_chk801 v5407) := fun v5407 => decidable_of_iff' _ (Iff.of_eq (k0_chk801.eq_1 v5407))
theorem k0_idx801_inb : ∀ (v5407 : IVec S16 32) (k0_hw801 : k0_chk801 v5407), ∀ a x, ((![v5407] : Fin 1 → IVec S16 32) a x).toNat < S32768.size a := fun v5407 k0_hw801 => k0_hw801

def k0_chk802 (v5411 : IVec S16 32) : Prop :=
  (∀ a x, ((![v5411] : Fin 1 → IVec S16 32) a x).toNat < S32768.size a)
instance k0_chk802.dec : ∀ (v5411 : IVec S16 32), Decidable (k0_chk802 v5411) := fun v5411 => decidable_of_iff' _ (Iff.of_eq (k0_chk802.eq_1 v5411))
theorem k0_idx802_inb : ∀ (v5411 : IVec S16 32) (k0_hw802 : k0_chk802 v5411), ∀ a x, ((![v5411] : Fin 1 → IVec S16 32) a x).toNat < S32768.size a := fun v5411 k0_hw802 => k0_hw802

def k0_chk803 (v5415 : IVec S16 32) : Prop :=
  (∀ a x, ((![v5415] : Fin 1 → IVec S16 32) a x).toNat < S32768.size a)
instance k0_chk803.dec : ∀ (v5415 : IVec S16 32), Decidable (k0_chk803 v5415) := fun v5415 => decidable_of_iff' _ (Iff.of_eq (k0_chk803.eq_1 v5415))
theorem k0_idx803_inb : ∀ (v5415 : IVec S16 32) (k0_hw803 : k0_chk803 v5415), ∀ a x, ((![v5415] : Fin 1 → IVec S16 32) a x).toNat < S32768.size a := fun v5415 k0_hw803 => k0_hw803

def k0_chk804 (v5419 : IVec S16 32) : Prop :=
  (∀ a x, ((![v5419] : Fin 1 → IVec S16 32) a x).toNat < S32768.size a)
instance k0_chk804.dec : ∀ (v5419 : IVec S16 32), Decidable (k0_chk804 v5419) := fun v5419 => decidable_of_iff' _ (Iff.of_eq (k0_chk804.eq_1 v5419))
theorem k0_idx804_inb : ∀ (v5419 : IVec S16 32) (k0_hw804 : k0_chk804 v5419), ∀ a x, ((![v5419] : Fin 1 → IVec S16 32) a x).toNat < S32768.size a := fun v5419 k0_hw804 => k0_hw804

def k0_chk805 (v5423 : IVec S16 32) : Prop :=
  (∀ a x, ((![v5423] : Fin 1 → IVec S16 32) a x).toNat < S32768.size a)
instance k0_chk805.dec : ∀ (v5423 : IVec S16 32), Decidable (k0_chk805 v5423) := fun v5423 => decidable_of_iff' _ (Iff.of_eq (k0_chk805.eq_1 v5423))
theorem k0_idx805_inb : ∀ (v5423 : IVec S16 32) (k0_hw805 : k0_chk805 v5423), ∀ a x, ((![v5423] : Fin 1 → IVec S16 32) a x).toNat < S32768.size a := fun v5423 k0_hw805 => k0_hw805

def k0_chk806 (v5427 : IVec S16 32) : Prop :=
  (∀ a x, ((![v5427] : Fin 1 → IVec S16 32) a x).toNat < S32768.size a)
instance k0_chk806.dec : ∀ (v5427 : IVec S16 32), Decidable (k0_chk806 v5427) := fun v5427 => decidable_of_iff' _ (Iff.of_eq (k0_chk806.eq_1 v5427))
theorem k0_idx806_inb : ∀ (v5427 : IVec S16 32) (k0_hw806 : k0_chk806 v5427), ∀ a x, ((![v5427] : Fin 1 → IVec S16 32) a x).toNat < S32768.size a := fun v5427 k0_hw806 => k0_hw806

def k0_chk807 (v5431 : IVec S16 32) : Prop :=
  (∀ a x, ((![v5431] : Fin 1 → IVec S16 32) a x).toNat < S32768.size a)
instance k0_chk807.dec : ∀ (v5431 : IVec S16 32), Decidable (k0_chk807 v5431) := fun v5431 => decidable_of_iff' _ (Iff.of_eq (k0_chk807.eq_1 v5431))
theorem k0_idx807_inb : ∀ (v5431 : IVec S16 32) (k0_hw807 : k0_chk807 v5431), ∀ a x, ((![v5431] : Fin 1 → IVec S16 32) a x).toNat < S32768.size a := fun v5431 k0_hw807 => k0_hw807

def k0_chk808 (v5435 : IVec S16 32) : Prop :=
  (∀ a x, ((![v5435] : Fin 1 → IVec S16 32) a x).toNat < S32768.size a)
instance k0_chk808.dec : ∀ (v5435 : IVec S16 32), Decidable (k0_chk808 v5435) := fun v5435 => decidable_of_iff' _ (Iff.of_eq (k0_chk808.eq_1 v5435))
theorem k0_idx808_inb : ∀ (v5435 : IVec S16 32) (k0_hw808 : k0_chk808 v5435), ∀ a x, ((![v5435] : Fin 1 → IVec S16 32) a x).toNat < S32768.size a := fun v5435 k0_hw808 => k0_hw808

def k0_chk809 (v5439 : IVec S16 32) : Prop :=
  (∀ a x, ((![v5439] : Fin 1 → IVec S16 32) a x).toNat < S32768.size a)
instance k0_chk809.dec : ∀ (v5439 : IVec S16 32), Decidable (k0_chk809 v5439) := fun v5439 => decidable_of_iff' _ (Iff.of_eq (k0_chk809.eq_1 v5439))
theorem k0_idx809_inb : ∀ (v5439 : IVec S16 32) (k0_hw809 : k0_chk809 v5439), ∀ a x, ((![v5439] : Fin 1 → IVec S16 32) a x).toNat < S32768.size a := fun v5439 k0_hw809 => k0_hw809

def k0_chk810 (v5443 : IVec S16 32) : Prop :=
  (∀ a x, ((![v5443] : Fin 1 → IVec S16 32) a x).toNat < S32768.size a)
instance k0_chk810.dec : ∀ (v5443 : IVec S16 32), Decidable (k0_chk810 v5443) := fun v5443 => decidable_of_iff' _ (Iff.of_eq (k0_chk810.eq_1 v5443))
theorem k0_idx810_inb : ∀ (v5443 : IVec S16 32) (k0_hw810 : k0_chk810 v5443), ∀ a x, ((![v5443] : Fin 1 → IVec S16 32) a x).toNat < S32768.size a := fun v5443 k0_hw810 => k0_hw810

def k0_chk811 (v5447 : IVec S16 32) : Prop :=
  (∀ a x, ((![v5447] : Fin 1 → IVec S16 32) a x).toNat < S32768.size a)
instance k0_chk811.dec : ∀ (v5447 : IVec S16 32), Decidable (k0_chk811 v5447) := fun v5447 => decidable_of_iff' _ (Iff.of_eq (k0_chk811.eq_1 v5447))
theorem k0_idx811_inb : ∀ (v5447 : IVec S16 32) (k0_hw811 : k0_chk811 v5447), ∀ a x, ((![v5447] : Fin 1 → IVec S16 32) a x).toNat < S32768.size a := fun v5447 k0_hw811 => k0_hw811

def k0_chk812 (v5451 : IVec S16 32) : Prop :=
  (∀ a x, ((![v5451] : Fin 1 → IVec S16 32) a x).toNat < S32768.size a)
instance k0_chk812.dec : ∀ (v5451 : IVec S16 32), Decidable (k0_chk812 v5451) := fun v5451 => decidable_of_iff' _ (Iff.of_eq (k0_chk812.eq_1 v5451))
theorem k0_idx812_inb : ∀ (v5451 : IVec S16 32) (k0_hw812 : k0_chk812 v5451), ∀ a x, ((![v5451] : Fin 1 → IVec S16 32) a x).toNat < S32768.size a := fun v5451 k0_hw812 => k0_hw812

def k0_chk813 (v5455 : IVec S16 32) : Prop :=
  (∀ a x, ((![v5455] : Fin 1 → IVec S16 32) a x).toNat < S32768.size a)
instance k0_chk813.dec : ∀ (v5455 : IVec S16 32), Decidable (k0_chk813 v5455) := fun v5455 => decidable_of_iff' _ (Iff.of_eq (k0_chk813.eq_1 v5455))
theorem k0_idx813_inb : ∀ (v5455 : IVec S16 32) (k0_hw813 : k0_chk813 v5455), ∀ a x, ((![v5455] : Fin 1 → IVec S16 32) a x).toNat < S32768.size a := fun v5455 k0_hw813 => k0_hw813

def k0_chk814 (v5459 : IVec S16 32) : Prop :=
  (∀ a x, ((![v5459] : Fin 1 → IVec S16 32) a x).toNat < S32768.size a)
instance k0_chk814.dec : ∀ (v5459 : IVec S16 32), Decidable (k0_chk814 v5459) := fun v5459 => decidable_of_iff' _ (Iff.of_eq (k0_chk814.eq_1 v5459))
theorem k0_idx814_inb : ∀ (v5459 : IVec S16 32) (k0_hw814 : k0_chk814 v5459), ∀ a x, ((![v5459] : Fin 1 → IVec S16 32) a x).toNat < S32768.size a := fun v5459 k0_hw814 => k0_hw814

def k0_chk815 (v5463 : IVec S16 32) : Prop :=
  (∀ a x, ((![v5463] : Fin 1 → IVec S16 32) a x).toNat < S32768.size a)
instance k0_chk815.dec : ∀ (v5463 : IVec S16 32), Decidable (k0_chk815 v5463) := fun v5463 => decidable_of_iff' _ (Iff.of_eq (k0_chk815.eq_1 v5463))
theorem k0_idx815_inb : ∀ (v5463 : IVec S16 32) (k0_hw815 : k0_chk815 v5463), ∀ a x, ((![v5463] : Fin 1 → IVec S16 32) a x).toNat < S32768.size a := fun v5463 k0_hw815 => k0_hw815

def k0_chk816 (v5467 : IVec S16 32) : Prop :=
  (∀ a x, ((![v5467] : Fin 1 → IVec S16 32) a x).toNat < S32768.size a)
instance k0_chk816.dec : ∀ (v5467 : IVec S16 32), Decidable (k0_chk816 v5467) := fun v5467 => decidable_of_iff' _ (Iff.of_eq (k0_chk816.eq_1 v5467))
theorem k0_idx816_inb : ∀ (v5467 : IVec S16 32) (k0_hw816 : k0_chk816 v5467), ∀ a x, ((![v5467] : Fin 1 → IVec S16 32) a x).toNat < S32768.size a := fun v5467 k0_hw816 => k0_hw816

def k0_chk817 (v5471 : IVec S16 32) : Prop :=
  (∀ a x, ((![v5471] : Fin 1 → IVec S16 32) a x).toNat < S32768.size a)
instance k0_chk817.dec : ∀ (v5471 : IVec S16 32), Decidable (k0_chk817 v5471) := fun v5471 => decidable_of_iff' _ (Iff.of_eq (k0_chk817.eq_1 v5471))
theorem k0_idx817_inb : ∀ (v5471 : IVec S16 32) (k0_hw817 : k0_chk817 v5471), ∀ a x, ((![v5471] : Fin 1 → IVec S16 32) a x).toNat < S32768.size a := fun v5471 k0_hw817 => k0_hw817

def k0_chk818 (v5475 : IVec S16 32) : Prop :=
  (∀ a x, ((![v5475] : Fin 1 → IVec S16 32) a x).toNat < S32768.size a)
instance k0_chk818.dec : ∀ (v5475 : IVec S16 32), Decidable (k0_chk818 v5475) := fun v5475 => decidable_of_iff' _ (Iff.of_eq (k0_chk818.eq_1 v5475))
theorem k0_idx818_inb : ∀ (v5475 : IVec S16 32) (k0_hw818 : k0_chk818 v5475), ∀ a x, ((![v5475] : Fin 1 → IVec S16 32) a x).toNat < S32768.size a := fun v5475 k0_hw818 => k0_hw818

def k0_chk819 (v5479 : IVec S16 32) : Prop :=
  (∀ a x, ((![v5479] : Fin 1 → IVec S16 32) a x).toNat < S32768.size a)
instance k0_chk819.dec : ∀ (v5479 : IVec S16 32), Decidable (k0_chk819 v5479) := fun v5479 => decidable_of_iff' _ (Iff.of_eq (k0_chk819.eq_1 v5479))
theorem k0_idx819_inb : ∀ (v5479 : IVec S16 32) (k0_hw819 : k0_chk819 v5479), ∀ a x, ((![v5479] : Fin 1 → IVec S16 32) a x).toNat < S32768.size a := fun v5479 k0_hw819 => k0_hw819

def k0_chk820 (v5483 : IVec S16 32) : Prop :=
  (∀ a x, ((![v5483] : Fin 1 → IVec S16 32) a x).toNat < S32768.size a)
instance k0_chk820.dec : ∀ (v5483 : IVec S16 32), Decidable (k0_chk820 v5483) := fun v5483 => decidable_of_iff' _ (Iff.of_eq (k0_chk820.eq_1 v5483))
theorem k0_idx820_inb : ∀ (v5483 : IVec S16 32) (k0_hw820 : k0_chk820 v5483), ∀ a x, ((![v5483] : Fin 1 → IVec S16 32) a x).toNat < S32768.size a := fun v5483 k0_hw820 => k0_hw820

def k0_chk821 (v5487 : IVec S16 32) : Prop :=
  (∀ a x, ((![v5487] : Fin 1 → IVec S16 32) a x).toNat < S32768.size a)
instance k0_chk821.dec : ∀ (v5487 : IVec S16 32), Decidable (k0_chk821 v5487) := fun v5487 => decidable_of_iff' _ (Iff.of_eq (k0_chk821.eq_1 v5487))
theorem k0_idx821_inb : ∀ (v5487 : IVec S16 32) (k0_hw821 : k0_chk821 v5487), ∀ a x, ((![v5487] : Fin 1 → IVec S16 32) a x).toNat < S32768.size a := fun v5487 k0_hw821 => k0_hw821

def k0_chk822 (v5491 : IVec S16 32) : Prop :=
  (∀ a x, ((![v5491] : Fin 1 → IVec S16 32) a x).toNat < S32768.size a)
instance k0_chk822.dec : ∀ (v5491 : IVec S16 32), Decidable (k0_chk822 v5491) := fun v5491 => decidable_of_iff' _ (Iff.of_eq (k0_chk822.eq_1 v5491))
theorem k0_idx822_inb : ∀ (v5491 : IVec S16 32) (k0_hw822 : k0_chk822 v5491), ∀ a x, ((![v5491] : Fin 1 → IVec S16 32) a x).toNat < S32768.size a := fun v5491 k0_hw822 => k0_hw822

def k0_chk823 (v5495 : IVec S16 32) : Prop :=
  (∀ a x, ((![v5495] : Fin 1 → IVec S16 32) a x).toNat < S32768.size a)
instance k0_chk823.dec : ∀ (v5495 : IVec S16 32), Decidable (k0_chk823 v5495) := fun v5495 => decidable_of_iff' _ (Iff.of_eq (k0_chk823.eq_1 v5495))
theorem k0_idx823_inb : ∀ (v5495 : IVec S16 32) (k0_hw823 : k0_chk823 v5495), ∀ a x, ((![v5495] : Fin 1 → IVec S16 32) a x).toNat < S32768.size a := fun v5495 k0_hw823 => k0_hw823

def k0_chk824 (v5499 : IVec S16 32) : Prop :=
  (∀ a x, ((![v5499] : Fin 1 → IVec S16 32) a x).toNat < S32768.size a)
instance k0_chk824.dec : ∀ (v5499 : IVec S16 32), Decidable (k0_chk824 v5499) := fun v5499 => decidable_of_iff' _ (Iff.of_eq (k0_chk824.eq_1 v5499))
theorem k0_idx824_inb : ∀ (v5499 : IVec S16 32) (k0_hw824 : k0_chk824 v5499), ∀ a x, ((![v5499] : Fin 1 → IVec S16 32) a x).toNat < S32768.size a := fun v5499 k0_hw824 => k0_hw824

def k0_chk825 (v5503 : IVec S16 32) : Prop :=
  (∀ a x, ((![v5503] : Fin 1 → IVec S16 32) a x).toNat < S32768.size a)
instance k0_chk825.dec : ∀ (v5503 : IVec S16 32), Decidable (k0_chk825 v5503) := fun v5503 => decidable_of_iff' _ (Iff.of_eq (k0_chk825.eq_1 v5503))
theorem k0_idx825_inb : ∀ (v5503 : IVec S16 32) (k0_hw825 : k0_chk825 v5503), ∀ a x, ((![v5503] : Fin 1 → IVec S16 32) a x).toNat < S32768.size a := fun v5503 k0_hw825 => k0_hw825

def k0_chk826 (v5507 : IVec S16 32) : Prop :=
  (∀ a x, ((![v5507] : Fin 1 → IVec S16 32) a x).toNat < S32768.size a)
instance k0_chk826.dec : ∀ (v5507 : IVec S16 32), Decidable (k0_chk826 v5507) := fun v5507 => decidable_of_iff' _ (Iff.of_eq (k0_chk826.eq_1 v5507))
theorem k0_idx826_inb : ∀ (v5507 : IVec S16 32) (k0_hw826 : k0_chk826 v5507), ∀ a x, ((![v5507] : Fin 1 → IVec S16 32) a x).toNat < S32768.size a := fun v5507 k0_hw826 => k0_hw826

def k0_chk827 (v5511 : IVec S16 32) : Prop :=
  (∀ a x, ((![v5511] : Fin 1 → IVec S16 32) a x).toNat < S32768.size a)
instance k0_chk827.dec : ∀ (v5511 : IVec S16 32), Decidable (k0_chk827 v5511) := fun v5511 => decidable_of_iff' _ (Iff.of_eq (k0_chk827.eq_1 v5511))
theorem k0_idx827_inb : ∀ (v5511 : IVec S16 32) (k0_hw827 : k0_chk827 v5511), ∀ a x, ((![v5511] : Fin 1 → IVec S16 32) a x).toNat < S32768.size a := fun v5511 k0_hw827 => k0_hw827

def k0_chk828 (v5515 : IVec S16 32) : Prop :=
  (∀ a x, ((![v5515] : Fin 1 → IVec S16 32) a x).toNat < S32768.size a)
instance k0_chk828.dec : ∀ (v5515 : IVec S16 32), Decidable (k0_chk828 v5515) := fun v5515 => decidable_of_iff' _ (Iff.of_eq (k0_chk828.eq_1 v5515))
theorem k0_idx828_inb : ∀ (v5515 : IVec S16 32) (k0_hw828 : k0_chk828 v5515), ∀ a x, ((![v5515] : Fin 1 → IVec S16 32) a x).toNat < S32768.size a := fun v5515 k0_hw828 => k0_hw828

def k0_chk829 (v5519 : IVec S16 32) : Prop :=
  (∀ a x, ((![v5519] : Fin 1 → IVec S16 32) a x).toNat < S32768.size a)
instance k0_chk829.dec : ∀ (v5519 : IVec S16 32), Decidable (k0_chk829 v5519) := fun v5519 => decidable_of_iff' _ (Iff.of_eq (k0_chk829.eq_1 v5519))
theorem k0_idx829_inb : ∀ (v5519 : IVec S16 32) (k0_hw829 : k0_chk829 v5519), ∀ a x, ((![v5519] : Fin 1 → IVec S16 32) a x).toNat < S32768.size a := fun v5519 k0_hw829 => k0_hw829

def k0_chk830 (v5523 : IVec S16 32) : Prop :=
  (∀ a x, ((![v5523] : Fin 1 → IVec S16 32) a x).toNat < S32768.size a)
instance k0_chk830.dec : ∀ (v5523 : IVec S16 32), Decidable (k0_chk830 v5523) := fun v5523 => decidable_of_iff' _ (Iff.of_eq (k0_chk830.eq_1 v5523))
theorem k0_idx830_inb : ∀ (v5523 : IVec S16 32) (k0_hw830 : k0_chk830 v5523), ∀ a x, ((![v5523] : Fin 1 → IVec S16 32) a x).toNat < S32768.size a := fun v5523 k0_hw830 => k0_hw830

def k0_chk831 (v5527 : IVec S16 32) : Prop :=
  (∀ a x, ((![v5527] : Fin 1 → IVec S16 32) a x).toNat < S32768.size a)
instance k0_chk831.dec : ∀ (v5527 : IVec S16 32), Decidable (k0_chk831 v5527) := fun v5527 => decidable_of_iff' _ (Iff.of_eq (k0_chk831.eq_1 v5527))
theorem k0_idx831_inb : ∀ (v5527 : IVec S16 32) (k0_hw831 : k0_chk831 v5527), ∀ a x, ((![v5527] : Fin 1 → IVec S16 32) a x).toNat < S32768.size a := fun v5527 k0_hw831 => k0_hw831

def k0_chk832 (v5531 : IVec S16 32) : Prop :=
  (∀ a x, ((![v5531] : Fin 1 → IVec S16 32) a x).toNat < S32768.size a)
instance k0_chk832.dec : ∀ (v5531 : IVec S16 32), Decidable (k0_chk832 v5531) := fun v5531 => decidable_of_iff' _ (Iff.of_eq (k0_chk832.eq_1 v5531))
theorem k0_idx832_inb : ∀ (v5531 : IVec S16 32) (k0_hw832 : k0_chk832 v5531), ∀ a x, ((![v5531] : Fin 1 → IVec S16 32) a x).toNat < S32768.size a := fun v5531 k0_hw832 => k0_hw832

def k0_chk833 (v5535 : IVec S16 32) : Prop :=
  (∀ a x, ((![v5535] : Fin 1 → IVec S16 32) a x).toNat < S32768.size a)
instance k0_chk833.dec : ∀ (v5535 : IVec S16 32), Decidable (k0_chk833 v5535) := fun v5535 => decidable_of_iff' _ (Iff.of_eq (k0_chk833.eq_1 v5535))
theorem k0_idx833_inb : ∀ (v5535 : IVec S16 32) (k0_hw833 : k0_chk833 v5535), ∀ a x, ((![v5535] : Fin 1 → IVec S16 32) a x).toNat < S32768.size a := fun v5535 k0_hw833 => k0_hw833

def k0_chk834 (v5539 : IVec S16 32) : Prop :=
  (∀ a x, ((![v5539] : Fin 1 → IVec S16 32) a x).toNat < S32768.size a)
instance k0_chk834.dec : ∀ (v5539 : IVec S16 32), Decidable (k0_chk834 v5539) := fun v5539 => decidable_of_iff' _ (Iff.of_eq (k0_chk834.eq_1 v5539))
theorem k0_idx834_inb : ∀ (v5539 : IVec S16 32) (k0_hw834 : k0_chk834 v5539), ∀ a x, ((![v5539] : Fin 1 → IVec S16 32) a x).toNat < S32768.size a := fun v5539 k0_hw834 => k0_hw834

def k0_chk835 (v5543 : IVec S16 32) : Prop :=
  (∀ a x, ((![v5543] : Fin 1 → IVec S16 32) a x).toNat < S32768.size a)
instance k0_chk835.dec : ∀ (v5543 : IVec S16 32), Decidable (k0_chk835 v5543) := fun v5543 => decidable_of_iff' _ (Iff.of_eq (k0_chk835.eq_1 v5543))
theorem k0_idx835_inb : ∀ (v5543 : IVec S16 32) (k0_hw835 : k0_chk835 v5543), ∀ a x, ((![v5543] : Fin 1 → IVec S16 32) a x).toNat < S32768.size a := fun v5543 k0_hw835 => k0_hw835

def k0_chk836 (v5547 : IVec S16 32) : Prop :=
  (∀ a x, ((![v5547] : Fin 1 → IVec S16 32) a x).toNat < S32768.size a)
instance k0_chk836.dec : ∀ (v5547 : IVec S16 32), Decidable (k0_chk836 v5547) := fun v5547 => decidable_of_iff' _ (Iff.of_eq (k0_chk836.eq_1 v5547))
theorem k0_idx836_inb : ∀ (v5547 : IVec S16 32) (k0_hw836 : k0_chk836 v5547), ∀ a x, ((![v5547] : Fin 1 → IVec S16 32) a x).toNat < S32768.size a := fun v5547 k0_hw836 => k0_hw836

def k0_chk837 (v5551 : IVec S16 32) : Prop :=
  (∀ a x, ((![v5551] : Fin 1 → IVec S16 32) a x).toNat < S32768.size a)
instance k0_chk837.dec : ∀ (v5551 : IVec S16 32), Decidable (k0_chk837 v5551) := fun v5551 => decidable_of_iff' _ (Iff.of_eq (k0_chk837.eq_1 v5551))
theorem k0_idx837_inb : ∀ (v5551 : IVec S16 32) (k0_hw837 : k0_chk837 v5551), ∀ a x, ((![v5551] : Fin 1 → IVec S16 32) a x).toNat < S32768.size a := fun v5551 k0_hw837 => k0_hw837

def k0_chk838 (v5555 : IVec S16 32) : Prop :=
  (∀ a x, ((![v5555] : Fin 1 → IVec S16 32) a x).toNat < S32768.size a)
instance k0_chk838.dec : ∀ (v5555 : IVec S16 32), Decidable (k0_chk838 v5555) := fun v5555 => decidable_of_iff' _ (Iff.of_eq (k0_chk838.eq_1 v5555))
theorem k0_idx838_inb : ∀ (v5555 : IVec S16 32) (k0_hw838 : k0_chk838 v5555), ∀ a x, ((![v5555] : Fin 1 → IVec S16 32) a x).toNat < S32768.size a := fun v5555 k0_hw838 => k0_hw838

def k0_chk839 (v5559 : IVec S16 32) : Prop :=
  (∀ a x, ((![v5559] : Fin 1 → IVec S16 32) a x).toNat < S32768.size a)
instance k0_chk839.dec : ∀ (v5559 : IVec S16 32), Decidable (k0_chk839 v5559) := fun v5559 => decidable_of_iff' _ (Iff.of_eq (k0_chk839.eq_1 v5559))
theorem k0_idx839_inb : ∀ (v5559 : IVec S16 32) (k0_hw839 : k0_chk839 v5559), ∀ a x, ((![v5559] : Fin 1 → IVec S16 32) a x).toNat < S32768.size a := fun v5559 k0_hw839 => k0_hw839

def k0_chk840 (v5563 : IVec S16 32) : Prop :=
  (∀ a x, ((![v5563] : Fin 1 → IVec S16 32) a x).toNat < S32768.size a)
instance k0_chk840.dec : ∀ (v5563 : IVec S16 32), Decidable (k0_chk840 v5563) := fun v5563 => decidable_of_iff' _ (Iff.of_eq (k0_chk840.eq_1 v5563))
theorem k0_idx840_inb : ∀ (v5563 : IVec S16 32) (k0_hw840 : k0_chk840 v5563), ∀ a x, ((![v5563] : Fin 1 → IVec S16 32) a x).toNat < S32768.size a := fun v5563 k0_hw840 => k0_hw840

def k0_chk841 (v5567 : IVec S16 32) : Prop :=
  (∀ a x, ((![v5567] : Fin 1 → IVec S16 32) a x).toNat < S32768.size a)
instance k0_chk841.dec : ∀ (v5567 : IVec S16 32), Decidable (k0_chk841 v5567) := fun v5567 => decidable_of_iff' _ (Iff.of_eq (k0_chk841.eq_1 v5567))
theorem k0_idx841_inb : ∀ (v5567 : IVec S16 32) (k0_hw841 : k0_chk841 v5567), ∀ a x, ((![v5567] : Fin 1 → IVec S16 32) a x).toNat < S32768.size a := fun v5567 k0_hw841 => k0_hw841

def k0_chk842 (v5571 : IVec S16 32) : Prop :=
  (∀ a x, ((![v5571] : Fin 1 → IVec S16 32) a x).toNat < S32768.size a)
instance k0_chk842.dec : ∀ (v5571 : IVec S16 32), Decidable (k0_chk842 v5571) := fun v5571 => decidable_of_iff' _ (Iff.of_eq (k0_chk842.eq_1 v5571))
theorem k0_idx842_inb : ∀ (v5571 : IVec S16 32) (k0_hw842 : k0_chk842 v5571), ∀ a x, ((![v5571] : Fin 1 → IVec S16 32) a x).toNat < S32768.size a := fun v5571 k0_hw842 => k0_hw842

def k0_chk843 (v5575 : IVec S16 32) : Prop :=
  (∀ a x, ((![v5575] : Fin 1 → IVec S16 32) a x).toNat < S32768.size a)
instance k0_chk843.dec : ∀ (v5575 : IVec S16 32), Decidable (k0_chk843 v5575) := fun v5575 => decidable_of_iff' _ (Iff.of_eq (k0_chk843.eq_1 v5575))
theorem k0_idx843_inb : ∀ (v5575 : IVec S16 32) (k0_hw843 : k0_chk843 v5575), ∀ a x, ((![v5575] : Fin 1 → IVec S16 32) a x).toNat < S32768.size a := fun v5575 k0_hw843 => k0_hw843

def k0_chk844 (v5579 : IVec S16 32) : Prop :=
  (∀ a x, ((![v5579] : Fin 1 → IVec S16 32) a x).toNat < S32768.size a)
instance k0_chk844.dec : ∀ (v5579 : IVec S16 32), Decidable (k0_chk844 v5579) := fun v5579 => decidable_of_iff' _ (Iff.of_eq (k0_chk844.eq_1 v5579))
theorem k0_idx844_inb : ∀ (v5579 : IVec S16 32) (k0_hw844 : k0_chk844 v5579), ∀ a x, ((![v5579] : Fin 1 → IVec S16 32) a x).toNat < S32768.size a := fun v5579 k0_hw844 => k0_hw844

def k0_chk845 (v5583 : IVec S16 32) : Prop :=
  (∀ a x, ((![v5583] : Fin 1 → IVec S16 32) a x).toNat < S32768.size a)
instance k0_chk845.dec : ∀ (v5583 : IVec S16 32), Decidable (k0_chk845 v5583) := fun v5583 => decidable_of_iff' _ (Iff.of_eq (k0_chk845.eq_1 v5583))
theorem k0_idx845_inb : ∀ (v5583 : IVec S16 32) (k0_hw845 : k0_chk845 v5583), ∀ a x, ((![v5583] : Fin 1 → IVec S16 32) a x).toNat < S32768.size a := fun v5583 k0_hw845 => k0_hw845

def k0_chk846 (v5587 : IVec S16 32) : Prop :=
  (∀ a x, ((![v5587] : Fin 1 → IVec S16 32) a x).toNat < S32768.size a)
instance k0_chk846.dec : ∀ (v5587 : IVec S16 32), Decidable (k0_chk846 v5587) := fun v5587 => decidable_of_iff' _ (Iff.of_eq (k0_chk846.eq_1 v5587))
theorem k0_idx846_inb : ∀ (v5587 : IVec S16 32) (k0_hw846 : k0_chk846 v5587), ∀ a x, ((![v5587] : Fin 1 → IVec S16 32) a x).toNat < S32768.size a := fun v5587 k0_hw846 => k0_hw846

def k0_chk847 (v5591 : IVec S16 32) : Prop :=
  (∀ a x, ((![v5591] : Fin 1 → IVec S16 32) a x).toNat < S32768.size a)
instance k0_chk847.dec : ∀ (v5591 : IVec S16 32), Decidable (k0_chk847 v5591) := fun v5591 => decidable_of_iff' _ (Iff.of_eq (k0_chk847.eq_1 v5591))
theorem k0_idx847_inb : ∀ (v5591 : IVec S16 32) (k0_hw847 : k0_chk847 v5591), ∀ a x, ((![v5591] : Fin 1 → IVec S16 32) a x).toNat < S32768.size a := fun v5591 k0_hw847 => k0_hw847

def k0_chk848 (v5595 : IVec S16 32) : Prop :=
  (∀ a x, ((![v5595] : Fin 1 → IVec S16 32) a x).toNat < S32768.size a)
instance k0_chk848.dec : ∀ (v5595 : IVec S16 32), Decidable (k0_chk848 v5595) := fun v5595 => decidable_of_iff' _ (Iff.of_eq (k0_chk848.eq_1 v5595))
theorem k0_idx848_inb : ∀ (v5595 : IVec S16 32) (k0_hw848 : k0_chk848 v5595), ∀ a x, ((![v5595] : Fin 1 → IVec S16 32) a x).toNat < S32768.size a := fun v5595 k0_hw848 => k0_hw848

def k0_chk849 (v5599 : IVec S16 32) : Prop :=
  (∀ a x, ((![v5599] : Fin 1 → IVec S16 32) a x).toNat < S32768.size a)
instance k0_chk849.dec : ∀ (v5599 : IVec S16 32), Decidable (k0_chk849 v5599) := fun v5599 => decidable_of_iff' _ (Iff.of_eq (k0_chk849.eq_1 v5599))
theorem k0_idx849_inb : ∀ (v5599 : IVec S16 32) (k0_hw849 : k0_chk849 v5599), ∀ a x, ((![v5599] : Fin 1 → IVec S16 32) a x).toNat < S32768.size a := fun v5599 k0_hw849 => k0_hw849

def k0_chk850 (v5603 : IVec S16 32) : Prop :=
  (∀ a x, ((![v5603] : Fin 1 → IVec S16 32) a x).toNat < S32768.size a)
instance k0_chk850.dec : ∀ (v5603 : IVec S16 32), Decidable (k0_chk850 v5603) := fun v5603 => decidable_of_iff' _ (Iff.of_eq (k0_chk850.eq_1 v5603))
theorem k0_idx850_inb : ∀ (v5603 : IVec S16 32) (k0_hw850 : k0_chk850 v5603), ∀ a x, ((![v5603] : Fin 1 → IVec S16 32) a x).toNat < S32768.size a := fun v5603 k0_hw850 => k0_hw850

def k0_chk851 (v5607 : IVec S16 32) : Prop :=
  (∀ a x, ((![v5607] : Fin 1 → IVec S16 32) a x).toNat < S32768.size a)
instance k0_chk851.dec : ∀ (v5607 : IVec S16 32), Decidable (k0_chk851 v5607) := fun v5607 => decidable_of_iff' _ (Iff.of_eq (k0_chk851.eq_1 v5607))
theorem k0_idx851_inb : ∀ (v5607 : IVec S16 32) (k0_hw851 : k0_chk851 v5607), ∀ a x, ((![v5607] : Fin 1 → IVec S16 32) a x).toNat < S32768.size a := fun v5607 k0_hw851 => k0_hw851

def k0_chk852 (v5611 : IVec S16 32) : Prop :=
  (∀ a x, ((![v5611] : Fin 1 → IVec S16 32) a x).toNat < S32768.size a)
instance k0_chk852.dec : ∀ (v5611 : IVec S16 32), Decidable (k0_chk852 v5611) := fun v5611 => decidable_of_iff' _ (Iff.of_eq (k0_chk852.eq_1 v5611))
theorem k0_idx852_inb : ∀ (v5611 : IVec S16 32) (k0_hw852 : k0_chk852 v5611), ∀ a x, ((![v5611] : Fin 1 → IVec S16 32) a x).toNat < S32768.size a := fun v5611 k0_hw852 => k0_hw852

def k0_chk853 (v5615 : IVec S16 32) : Prop :=
  (∀ a x, ((![v5615] : Fin 1 → IVec S16 32) a x).toNat < S32768.size a)
instance k0_chk853.dec : ∀ (v5615 : IVec S16 32), Decidable (k0_chk853 v5615) := fun v5615 => decidable_of_iff' _ (Iff.of_eq (k0_chk853.eq_1 v5615))
theorem k0_idx853_inb : ∀ (v5615 : IVec S16 32) (k0_hw853 : k0_chk853 v5615), ∀ a x, ((![v5615] : Fin 1 → IVec S16 32) a x).toNat < S32768.size a := fun v5615 k0_hw853 => k0_hw853

def k0_chk854 (v5619 : IVec S16 32) : Prop :=
  (∀ a x, ((![v5619] : Fin 1 → IVec S16 32) a x).toNat < S32768.size a)
instance k0_chk854.dec : ∀ (v5619 : IVec S16 32), Decidable (k0_chk854 v5619) := fun v5619 => decidable_of_iff' _ (Iff.of_eq (k0_chk854.eq_1 v5619))
theorem k0_idx854_inb : ∀ (v5619 : IVec S16 32) (k0_hw854 : k0_chk854 v5619), ∀ a x, ((![v5619] : Fin 1 → IVec S16 32) a x).toNat < S32768.size a := fun v5619 k0_hw854 => k0_hw854

def k0_chk855 (v5623 : IVec S16 32) : Prop :=
  (∀ a x, ((![v5623] : Fin 1 → IVec S16 32) a x).toNat < S32768.size a)
instance k0_chk855.dec : ∀ (v5623 : IVec S16 32), Decidable (k0_chk855 v5623) := fun v5623 => decidable_of_iff' _ (Iff.of_eq (k0_chk855.eq_1 v5623))
theorem k0_idx855_inb : ∀ (v5623 : IVec S16 32) (k0_hw855 : k0_chk855 v5623), ∀ a x, ((![v5623] : Fin 1 → IVec S16 32) a x).toNat < S32768.size a := fun v5623 k0_hw855 => k0_hw855

def k0_chk856 (v5627 : IVec S16 32) : Prop :=
  (∀ a x, ((![v5627] : Fin 1 → IVec S16 32) a x).toNat < S32768.size a)
instance k0_chk856.dec : ∀ (v5627 : IVec S16 32), Decidable (k0_chk856 v5627) := fun v5627 => decidable_of_iff' _ (Iff.of_eq (k0_chk856.eq_1 v5627))
theorem k0_idx856_inb : ∀ (v5627 : IVec S16 32) (k0_hw856 : k0_chk856 v5627), ∀ a x, ((![v5627] : Fin 1 → IVec S16 32) a x).toNat < S32768.size a := fun v5627 k0_hw856 => k0_hw856

def k0_chk857 (v5631 : IVec S16 32) : Prop :=
  (∀ a x, ((![v5631] : Fin 1 → IVec S16 32) a x).toNat < S32768.size a)
instance k0_chk857.dec : ∀ (v5631 : IVec S16 32), Decidable (k0_chk857 v5631) := fun v5631 => decidable_of_iff' _ (Iff.of_eq (k0_chk857.eq_1 v5631))
theorem k0_idx857_inb : ∀ (v5631 : IVec S16 32) (k0_hw857 : k0_chk857 v5631), ∀ a x, ((![v5631] : Fin 1 → IVec S16 32) a x).toNat < S32768.size a := fun v5631 k0_hw857 => k0_hw857

def k0_chk858 (v5635 : IVec S16 32) : Prop :=
  (∀ a x, ((![v5635] : Fin 1 → IVec S16 32) a x).toNat < S32768.size a)
instance k0_chk858.dec : ∀ (v5635 : IVec S16 32), Decidable (k0_chk858 v5635) := fun v5635 => decidable_of_iff' _ (Iff.of_eq (k0_chk858.eq_1 v5635))
theorem k0_idx858_inb : ∀ (v5635 : IVec S16 32) (k0_hw858 : k0_chk858 v5635), ∀ a x, ((![v5635] : Fin 1 → IVec S16 32) a x).toNat < S32768.size a := fun v5635 k0_hw858 => k0_hw858

def k0_chk859 (v5639 : IVec S16 32) : Prop :=
  (∀ a x, ((![v5639] : Fin 1 → IVec S16 32) a x).toNat < S32768.size a)
instance k0_chk859.dec : ∀ (v5639 : IVec S16 32), Decidable (k0_chk859 v5639) := fun v5639 => decidable_of_iff' _ (Iff.of_eq (k0_chk859.eq_1 v5639))
theorem k0_idx859_inb : ∀ (v5639 : IVec S16 32) (k0_hw859 : k0_chk859 v5639), ∀ a x, ((![v5639] : Fin 1 → IVec S16 32) a x).toNat < S32768.size a := fun v5639 k0_hw859 => k0_hw859

def k0_chk860 (v5643 : IVec S16 32) : Prop :=
  (∀ a x, ((![v5643] : Fin 1 → IVec S16 32) a x).toNat < S32768.size a)
instance k0_chk860.dec : ∀ (v5643 : IVec S16 32), Decidable (k0_chk860 v5643) := fun v5643 => decidable_of_iff' _ (Iff.of_eq (k0_chk860.eq_1 v5643))
theorem k0_idx860_inb : ∀ (v5643 : IVec S16 32) (k0_hw860 : k0_chk860 v5643), ∀ a x, ((![v5643] : Fin 1 → IVec S16 32) a x).toNat < S32768.size a := fun v5643 k0_hw860 => k0_hw860

def k0_chk861 (v5647 : IVec S16 32) : Prop :=
  (∀ a x, ((![v5647] : Fin 1 → IVec S16 32) a x).toNat < S32768.size a)
instance k0_chk861.dec : ∀ (v5647 : IVec S16 32), Decidable (k0_chk861 v5647) := fun v5647 => decidable_of_iff' _ (Iff.of_eq (k0_chk861.eq_1 v5647))
theorem k0_idx861_inb : ∀ (v5647 : IVec S16 32) (k0_hw861 : k0_chk861 v5647), ∀ a x, ((![v5647] : Fin 1 → IVec S16 32) a x).toNat < S32768.size a := fun v5647 k0_hw861 => k0_hw861

def k0_chk862 (v5651 : IVec S16 32) : Prop :=
  (∀ a x, ((![v5651] : Fin 1 → IVec S16 32) a x).toNat < S32768.size a)
instance k0_chk862.dec : ∀ (v5651 : IVec S16 32), Decidable (k0_chk862 v5651) := fun v5651 => decidable_of_iff' _ (Iff.of_eq (k0_chk862.eq_1 v5651))
theorem k0_idx862_inb : ∀ (v5651 : IVec S16 32) (k0_hw862 : k0_chk862 v5651), ∀ a x, ((![v5651] : Fin 1 → IVec S16 32) a x).toNat < S32768.size a := fun v5651 k0_hw862 => k0_hw862

def k0_chk863 (v5655 : IVec S16 32) : Prop :=
  (∀ a x, ((![v5655] : Fin 1 → IVec S16 32) a x).toNat < S32768.size a)
instance k0_chk863.dec : ∀ (v5655 : IVec S16 32), Decidable (k0_chk863 v5655) := fun v5655 => decidable_of_iff' _ (Iff.of_eq (k0_chk863.eq_1 v5655))
theorem k0_idx863_inb : ∀ (v5655 : IVec S16 32) (k0_hw863 : k0_chk863 v5655), ∀ a x, ((![v5655] : Fin 1 → IVec S16 32) a x).toNat < S32768.size a := fun v5655 k0_hw863 => k0_hw863

def k0_chk864 (v5659 : IVec S16 32) : Prop :=
  (∀ a x, ((![v5659] : Fin 1 → IVec S16 32) a x).toNat < S32768.size a)
instance k0_chk864.dec : ∀ (v5659 : IVec S16 32), Decidable (k0_chk864 v5659) := fun v5659 => decidable_of_iff' _ (Iff.of_eq (k0_chk864.eq_1 v5659))
theorem k0_idx864_inb : ∀ (v5659 : IVec S16 32) (k0_hw864 : k0_chk864 v5659), ∀ a x, ((![v5659] : Fin 1 → IVec S16 32) a x).toNat < S32768.size a := fun v5659 k0_hw864 => k0_hw864

def k0_chk865 (v5663 : IVec S16 32) : Prop :=
  (∀ a x, ((![v5663] : Fin 1 → IVec S16 32) a x).toNat < S32768.size a)
instance k0_chk865.dec : ∀ (v5663 : IVec S16 32), Decidable (k0_chk865 v5663) := fun v5663 => decidable_of_iff' _ (Iff.of_eq (k0_chk865.eq_1 v5663))
theorem k0_idx865_inb : ∀ (v5663 : IVec S16 32) (k0_hw865 : k0_chk865 v5663), ∀ a x, ((![v5663] : Fin 1 → IVec S16 32) a x).toNat < S32768.size a := fun v5663 k0_hw865 => k0_hw865

def k0_chk866 (v5667 : IVec S16 32) : Prop :=
  (∀ a x, ((![v5667] : Fin 1 → IVec S16 32) a x).toNat < S32768.size a)
instance k0_chk866.dec : ∀ (v5667 : IVec S16 32), Decidable (k0_chk866 v5667) := fun v5667 => decidable_of_iff' _ (Iff.of_eq (k0_chk866.eq_1 v5667))
theorem k0_idx866_inb : ∀ (v5667 : IVec S16 32) (k0_hw866 : k0_chk866 v5667), ∀ a x, ((![v5667] : Fin 1 → IVec S16 32) a x).toNat < S32768.size a := fun v5667 k0_hw866 => k0_hw866

def k0_chk867 (v5671 : IVec S16 32) : Prop :=
  (∀ a x, ((![v5671] : Fin 1 → IVec S16 32) a x).toNat < S32768.size a)
instance k0_chk867.dec : ∀ (v5671 : IVec S16 32), Decidable (k0_chk867 v5671) := fun v5671 => decidable_of_iff' _ (Iff.of_eq (k0_chk867.eq_1 v5671))
theorem k0_idx867_inb : ∀ (v5671 : IVec S16 32) (k0_hw867 : k0_chk867 v5671), ∀ a x, ((![v5671] : Fin 1 → IVec S16 32) a x).toNat < S32768.size a := fun v5671 k0_hw867 => k0_hw867

def k0_chk868 (v5675 : IVec S16 32) : Prop :=
  (∀ a x, ((![v5675] : Fin 1 → IVec S16 32) a x).toNat < S32768.size a)
instance k0_chk868.dec : ∀ (v5675 : IVec S16 32), Decidable (k0_chk868 v5675) := fun v5675 => decidable_of_iff' _ (Iff.of_eq (k0_chk868.eq_1 v5675))
theorem k0_idx868_inb : ∀ (v5675 : IVec S16 32) (k0_hw868 : k0_chk868 v5675), ∀ a x, ((![v5675] : Fin 1 → IVec S16 32) a x).toNat < S32768.size a := fun v5675 k0_hw868 => k0_hw868

def k0_chk869 (v5679 : IVec S16 32) : Prop :=
  (∀ a x, ((![v5679] : Fin 1 → IVec S16 32) a x).toNat < S32768.size a)
instance k0_chk869.dec : ∀ (v5679 : IVec S16 32), Decidable (k0_chk869 v5679) := fun v5679 => decidable_of_iff' _ (Iff.of_eq (k0_chk869.eq_1 v5679))
theorem k0_idx869_inb : ∀ (v5679 : IVec S16 32) (k0_hw869 : k0_chk869 v5679), ∀ a x, ((![v5679] : Fin 1 → IVec S16 32) a x).toNat < S32768.size a := fun v5679 k0_hw869 => k0_hw869

def k0_chk870 (v5683 : IVec S16 32) : Prop :=
  (∀ a x, ((![v5683] : Fin 1 → IVec S16 32) a x).toNat < S32768.size a)
instance k0_chk870.dec : ∀ (v5683 : IVec S16 32), Decidable (k0_chk870 v5683) := fun v5683 => decidable_of_iff' _ (Iff.of_eq (k0_chk870.eq_1 v5683))
theorem k0_idx870_inb : ∀ (v5683 : IVec S16 32) (k0_hw870 : k0_chk870 v5683), ∀ a x, ((![v5683] : Fin 1 → IVec S16 32) a x).toNat < S32768.size a := fun v5683 k0_hw870 => k0_hw870

def k0_chk871 (v5687 : IVec S16 32) : Prop :=
  (∀ a x, ((![v5687] : Fin 1 → IVec S16 32) a x).toNat < S32768.size a)
instance k0_chk871.dec : ∀ (v5687 : IVec S16 32), Decidable (k0_chk871 v5687) := fun v5687 => decidable_of_iff' _ (Iff.of_eq (k0_chk871.eq_1 v5687))
theorem k0_idx871_inb : ∀ (v5687 : IVec S16 32) (k0_hw871 : k0_chk871 v5687), ∀ a x, ((![v5687] : Fin 1 → IVec S16 32) a x).toNat < S32768.size a := fun v5687 k0_hw871 => k0_hw871

def k0_chk872 (v5691 : IVec S16 32) : Prop :=
  (∀ a x, ((![v5691] : Fin 1 → IVec S16 32) a x).toNat < S32768.size a)
instance k0_chk872.dec : ∀ (v5691 : IVec S16 32), Decidable (k0_chk872 v5691) := fun v5691 => decidable_of_iff' _ (Iff.of_eq (k0_chk872.eq_1 v5691))
theorem k0_idx872_inb : ∀ (v5691 : IVec S16 32) (k0_hw872 : k0_chk872 v5691), ∀ a x, ((![v5691] : Fin 1 → IVec S16 32) a x).toNat < S32768.size a := fun v5691 k0_hw872 => k0_hw872

def k0_chk873 (v5695 : IVec S16 32) : Prop :=
  (∀ a x, ((![v5695] : Fin 1 → IVec S16 32) a x).toNat < S32768.size a)
instance k0_chk873.dec : ∀ (v5695 : IVec S16 32), Decidable (k0_chk873 v5695) := fun v5695 => decidable_of_iff' _ (Iff.of_eq (k0_chk873.eq_1 v5695))
theorem k0_idx873_inb : ∀ (v5695 : IVec S16 32) (k0_hw873 : k0_chk873 v5695), ∀ a x, ((![v5695] : Fin 1 → IVec S16 32) a x).toNat < S32768.size a := fun v5695 k0_hw873 => k0_hw873

def k0_chk874 (v5699 : IVec S16 32) : Prop :=
  (∀ a x, ((![v5699] : Fin 1 → IVec S16 32) a x).toNat < S32768.size a)
instance k0_chk874.dec : ∀ (v5699 : IVec S16 32), Decidable (k0_chk874 v5699) := fun v5699 => decidable_of_iff' _ (Iff.of_eq (k0_chk874.eq_1 v5699))
theorem k0_idx874_inb : ∀ (v5699 : IVec S16 32) (k0_hw874 : k0_chk874 v5699), ∀ a x, ((![v5699] : Fin 1 → IVec S16 32) a x).toNat < S32768.size a := fun v5699 k0_hw874 => k0_hw874

def k0_chk875 (v5703 : IVec S16 32) : Prop :=
  (∀ a x, ((![v5703] : Fin 1 → IVec S16 32) a x).toNat < S32768.size a)
instance k0_chk875.dec : ∀ (v5703 : IVec S16 32), Decidable (k0_chk875 v5703) := fun v5703 => decidable_of_iff' _ (Iff.of_eq (k0_chk875.eq_1 v5703))
theorem k0_idx875_inb : ∀ (v5703 : IVec S16 32) (k0_hw875 : k0_chk875 v5703), ∀ a x, ((![v5703] : Fin 1 → IVec S16 32) a x).toNat < S32768.size a := fun v5703 k0_hw875 => k0_hw875

def k0_chk876 (v5707 : IVec S16 32) : Prop :=
  (∀ a x, ((![v5707] : Fin 1 → IVec S16 32) a x).toNat < S32768.size a)
instance k0_chk876.dec : ∀ (v5707 : IVec S16 32), Decidable (k0_chk876 v5707) := fun v5707 => decidable_of_iff' _ (Iff.of_eq (k0_chk876.eq_1 v5707))
theorem k0_idx876_inb : ∀ (v5707 : IVec S16 32) (k0_hw876 : k0_chk876 v5707), ∀ a x, ((![v5707] : Fin 1 → IVec S16 32) a x).toNat < S32768.size a := fun v5707 k0_hw876 => k0_hw876

def k0_chk877 (v5711 : IVec S16 32) : Prop :=
  (∀ a x, ((![v5711] : Fin 1 → IVec S16 32) a x).toNat < S32768.size a)
instance k0_chk877.dec : ∀ (v5711 : IVec S16 32), Decidable (k0_chk877 v5711) := fun v5711 => decidable_of_iff' _ (Iff.of_eq (k0_chk877.eq_1 v5711))
theorem k0_idx877_inb : ∀ (v5711 : IVec S16 32) (k0_hw877 : k0_chk877 v5711), ∀ a x, ((![v5711] : Fin 1 → IVec S16 32) a x).toNat < S32768.size a := fun v5711 k0_hw877 => k0_hw877

def k0_chk878 (v5715 : IVec S16 32) : Prop :=
  (∀ a x, ((![v5715] : Fin 1 → IVec S16 32) a x).toNat < S32768.size a)
instance k0_chk878.dec : ∀ (v5715 : IVec S16 32), Decidable (k0_chk878 v5715) := fun v5715 => decidable_of_iff' _ (Iff.of_eq (k0_chk878.eq_1 v5715))
theorem k0_idx878_inb : ∀ (v5715 : IVec S16 32) (k0_hw878 : k0_chk878 v5715), ∀ a x, ((![v5715] : Fin 1 → IVec S16 32) a x).toNat < S32768.size a := fun v5715 k0_hw878 => k0_hw878

def k0_chk879 (v5719 : IVec S16 32) : Prop :=
  (∀ a x, ((![v5719] : Fin 1 → IVec S16 32) a x).toNat < S32768.size a)
instance k0_chk879.dec : ∀ (v5719 : IVec S16 32), Decidable (k0_chk879 v5719) := fun v5719 => decidable_of_iff' _ (Iff.of_eq (k0_chk879.eq_1 v5719))
theorem k0_idx879_inb : ∀ (v5719 : IVec S16 32) (k0_hw879 : k0_chk879 v5719), ∀ a x, ((![v5719] : Fin 1 → IVec S16 32) a x).toNat < S32768.size a := fun v5719 k0_hw879 => k0_hw879

def k0_chk880 (v5723 : IVec S16 32) : Prop :=
  (∀ a x, ((![v5723] : Fin 1 → IVec S16 32) a x).toNat < S32768.size a)
instance k0_chk880.dec : ∀ (v5723 : IVec S16 32), Decidable (k0_chk880 v5723) := fun v5723 => decidable_of_iff' _ (Iff.of_eq (k0_chk880.eq_1 v5723))
theorem k0_idx880_inb : ∀ (v5723 : IVec S16 32) (k0_hw880 : k0_chk880 v5723), ∀ a x, ((![v5723] : Fin 1 → IVec S16 32) a x).toNat < S32768.size a := fun v5723 k0_hw880 => k0_hw880

def k0_chk881 (v5727 : IVec S16 32) : Prop :=
  (∀ a x, ((![v5727] : Fin 1 → IVec S16 32) a x).toNat < S32768.size a)
instance k0_chk881.dec : ∀ (v5727 : IVec S16 32), Decidable (k0_chk881 v5727) := fun v5727 => decidable_of_iff' _ (Iff.of_eq (k0_chk881.eq_1 v5727))
theorem k0_idx881_inb : ∀ (v5727 : IVec S16 32) (k0_hw881 : k0_chk881 v5727), ∀ a x, ((![v5727] : Fin 1 → IVec S16 32) a x).toNat < S32768.size a := fun v5727 k0_hw881 => k0_hw881

def k0_chk882 (v5731 : IVec S16 32) : Prop :=
  (∀ a x, ((![v5731] : Fin 1 → IVec S16 32) a x).toNat < S32768.size a)
instance k0_chk882.dec : ∀ (v5731 : IVec S16 32), Decidable (k0_chk882 v5731) := fun v5731 => decidable_of_iff' _ (Iff.of_eq (k0_chk882.eq_1 v5731))
theorem k0_idx882_inb : ∀ (v5731 : IVec S16 32) (k0_hw882 : k0_chk882 v5731), ∀ a x, ((![v5731] : Fin 1 → IVec S16 32) a x).toNat < S32768.size a := fun v5731 k0_hw882 => k0_hw882

def k0_chk883 (v5735 : IVec S16 32) : Prop :=
  (∀ a x, ((![v5735] : Fin 1 → IVec S16 32) a x).toNat < S32768.size a)
instance k0_chk883.dec : ∀ (v5735 : IVec S16 32), Decidable (k0_chk883 v5735) := fun v5735 => decidable_of_iff' _ (Iff.of_eq (k0_chk883.eq_1 v5735))
theorem k0_idx883_inb : ∀ (v5735 : IVec S16 32) (k0_hw883 : k0_chk883 v5735), ∀ a x, ((![v5735] : Fin 1 → IVec S16 32) a x).toNat < S32768.size a := fun v5735 k0_hw883 => k0_hw883

def k0_chk884 (v5739 : IVec S16 32) : Prop :=
  (∀ a x, ((![v5739] : Fin 1 → IVec S16 32) a x).toNat < S32768.size a)
instance k0_chk884.dec : ∀ (v5739 : IVec S16 32), Decidable (k0_chk884 v5739) := fun v5739 => decidable_of_iff' _ (Iff.of_eq (k0_chk884.eq_1 v5739))
theorem k0_idx884_inb : ∀ (v5739 : IVec S16 32) (k0_hw884 : k0_chk884 v5739), ∀ a x, ((![v5739] : Fin 1 → IVec S16 32) a x).toNat < S32768.size a := fun v5739 k0_hw884 => k0_hw884

def k0_chk885 (v5743 : IVec S16 32) : Prop :=
  (∀ a x, ((![v5743] : Fin 1 → IVec S16 32) a x).toNat < S32768.size a)
instance k0_chk885.dec : ∀ (v5743 : IVec S16 32), Decidable (k0_chk885 v5743) := fun v5743 => decidable_of_iff' _ (Iff.of_eq (k0_chk885.eq_1 v5743))
theorem k0_idx885_inb : ∀ (v5743 : IVec S16 32) (k0_hw885 : k0_chk885 v5743), ∀ a x, ((![v5743] : Fin 1 → IVec S16 32) a x).toNat < S32768.size a := fun v5743 k0_hw885 => k0_hw885

def k0_chk886 (v5747 : IVec S16 32) : Prop :=
  (∀ a x, ((![v5747] : Fin 1 → IVec S16 32) a x).toNat < S32768.size a)
instance k0_chk886.dec : ∀ (v5747 : IVec S16 32), Decidable (k0_chk886 v5747) := fun v5747 => decidable_of_iff' _ (Iff.of_eq (k0_chk886.eq_1 v5747))
theorem k0_idx886_inb : ∀ (v5747 : IVec S16 32) (k0_hw886 : k0_chk886 v5747), ∀ a x, ((![v5747] : Fin 1 → IVec S16 32) a x).toNat < S32768.size a := fun v5747 k0_hw886 => k0_hw886

def k0_chk887 (v5751 : IVec S16 32) : Prop :=
  (∀ a x, ((![v5751] : Fin 1 → IVec S16 32) a x).toNat < S32768.size a)
instance k0_chk887.dec : ∀ (v5751 : IVec S16 32), Decidable (k0_chk887 v5751) := fun v5751 => decidable_of_iff' _ (Iff.of_eq (k0_chk887.eq_1 v5751))
theorem k0_idx887_inb : ∀ (v5751 : IVec S16 32) (k0_hw887 : k0_chk887 v5751), ∀ a x, ((![v5751] : Fin 1 → IVec S16 32) a x).toNat < S32768.size a := fun v5751 k0_hw887 => k0_hw887

def k0_chk888 (v5755 : IVec S16 32) : Prop :=
  (∀ a x, ((![v5755] : Fin 1 → IVec S16 32) a x).toNat < S32768.size a)
instance k0_chk888.dec : ∀ (v5755 : IVec S16 32), Decidable (k0_chk888 v5755) := fun v5755 => decidable_of_iff' _ (Iff.of_eq (k0_chk888.eq_1 v5755))
theorem k0_idx888_inb : ∀ (v5755 : IVec S16 32) (k0_hw888 : k0_chk888 v5755), ∀ a x, ((![v5755] : Fin 1 → IVec S16 32) a x).toNat < S32768.size a := fun v5755 k0_hw888 => k0_hw888

def k0_chk889 (v5759 : IVec S16 32) : Prop :=
  (∀ a x, ((![v5759] : Fin 1 → IVec S16 32) a x).toNat < S32768.size a)
instance k0_chk889.dec : ∀ (v5759 : IVec S16 32), Decidable (k0_chk889 v5759) := fun v5759 => decidable_of_iff' _ (Iff.of_eq (k0_chk889.eq_1 v5759))
theorem k0_idx889_inb : ∀ (v5759 : IVec S16 32) (k0_hw889 : k0_chk889 v5759), ∀ a x, ((![v5759] : Fin 1 → IVec S16 32) a x).toNat < S32768.size a := fun v5759 k0_hw889 => k0_hw889

def k0_chk890 (v5763 : IVec S16 32) : Prop :=
  (∀ a x, ((![v5763] : Fin 1 → IVec S16 32) a x).toNat < S32768.size a)
instance k0_chk890.dec : ∀ (v5763 : IVec S16 32), Decidable (k0_chk890 v5763) := fun v5763 => decidable_of_iff' _ (Iff.of_eq (k0_chk890.eq_1 v5763))
theorem k0_idx890_inb : ∀ (v5763 : IVec S16 32) (k0_hw890 : k0_chk890 v5763), ∀ a x, ((![v5763] : Fin 1 → IVec S16 32) a x).toNat < S32768.size a := fun v5763 k0_hw890 => k0_hw890

def k0_chk891 (v5767 : IVec S16 32) : Prop :=
  (∀ a x, ((![v5767] : Fin 1 → IVec S16 32) a x).toNat < S32768.size a)
instance k0_chk891.dec : ∀ (v5767 : IVec S16 32), Decidable (k0_chk891 v5767) := fun v5767 => decidable_of_iff' _ (Iff.of_eq (k0_chk891.eq_1 v5767))
theorem k0_idx891_inb : ∀ (v5767 : IVec S16 32) (k0_hw891 : k0_chk891 v5767), ∀ a x, ((![v5767] : Fin 1 → IVec S16 32) a x).toNat < S32768.size a := fun v5767 k0_hw891 => k0_hw891

def k0_chk892 (v5771 : IVec S16 32) : Prop :=
  (∀ a x, ((![v5771] : Fin 1 → IVec S16 32) a x).toNat < S32768.size a)
instance k0_chk892.dec : ∀ (v5771 : IVec S16 32), Decidable (k0_chk892 v5771) := fun v5771 => decidable_of_iff' _ (Iff.of_eq (k0_chk892.eq_1 v5771))
theorem k0_idx892_inb : ∀ (v5771 : IVec S16 32) (k0_hw892 : k0_chk892 v5771), ∀ a x, ((![v5771] : Fin 1 → IVec S16 32) a x).toNat < S32768.size a := fun v5771 k0_hw892 => k0_hw892

def k0_chk893 (v5775 : IVec S16 32) : Prop :=
  (∀ a x, ((![v5775] : Fin 1 → IVec S16 32) a x).toNat < S32768.size a)
instance k0_chk893.dec : ∀ (v5775 : IVec S16 32), Decidable (k0_chk893 v5775) := fun v5775 => decidable_of_iff' _ (Iff.of_eq (k0_chk893.eq_1 v5775))
theorem k0_idx893_inb : ∀ (v5775 : IVec S16 32) (k0_hw893 : k0_chk893 v5775), ∀ a x, ((![v5775] : Fin 1 → IVec S16 32) a x).toNat < S32768.size a := fun v5775 k0_hw893 => k0_hw893

def k0_chk894 (v5779 : IVec S16 32) : Prop :=
  (∀ a x, ((![v5779] : Fin 1 → IVec S16 32) a x).toNat < S32768.size a)
instance k0_chk894.dec : ∀ (v5779 : IVec S16 32), Decidable (k0_chk894 v5779) := fun v5779 => decidable_of_iff' _ (Iff.of_eq (k0_chk894.eq_1 v5779))
theorem k0_idx894_inb : ∀ (v5779 : IVec S16 32) (k0_hw894 : k0_chk894 v5779), ∀ a x, ((![v5779] : Fin 1 → IVec S16 32) a x).toNat < S32768.size a := fun v5779 k0_hw894 => k0_hw894

def k0_chk895 (v5783 : IVec S16 32) : Prop :=
  (∀ a x, ((![v5783] : Fin 1 → IVec S16 32) a x).toNat < S32768.size a)
instance k0_chk895.dec : ∀ (v5783 : IVec S16 32), Decidable (k0_chk895 v5783) := fun v5783 => decidable_of_iff' _ (Iff.of_eq (k0_chk895.eq_1 v5783))
theorem k0_idx895_inb : ∀ (v5783 : IVec S16 32) (k0_hw895 : k0_chk895 v5783), ∀ a x, ((![v5783] : Fin 1 → IVec S16 32) a x).toNat < S32768.size a := fun v5783 k0_hw895 => k0_hw895

def k0_chk896 (v5787 : IVec S16 32) : Prop :=
  (∀ a x, ((![v5787] : Fin 1 → IVec S16 32) a x).toNat < S32768.size a)
instance k0_chk896.dec : ∀ (v5787 : IVec S16 32), Decidable (k0_chk896 v5787) := fun v5787 => decidable_of_iff' _ (Iff.of_eq (k0_chk896.eq_1 v5787))
theorem k0_idx896_inb : ∀ (v5787 : IVec S16 32) (k0_hw896 : k0_chk896 v5787), ∀ a x, ((![v5787] : Fin 1 → IVec S16 32) a x).toNat < S32768.size a := fun v5787 k0_hw896 => k0_hw896

def k0_chk897 (v5793 : IVec S16 32) : Prop :=
  (∀ a x, ((![v5793] : Fin 1 → IVec S16 32) a x).toNat < S32768.size a)
instance k0_chk897.dec : ∀ (v5793 : IVec S16 32), Decidable (k0_chk897 v5793) := fun v5793 => decidable_of_iff' _ (Iff.of_eq (k0_chk897.eq_1 v5793))
theorem k0_idx897_inb : ∀ (v5793 : IVec S16 32) (k0_hw897 : k0_chk897 v5793), ∀ a x, ((![v5793] : Fin 1 → IVec S16 32) a x).toNat < S32768.size a := fun v5793 k0_hw897 => k0_hw897

def k0_chk898 (v5797 : IVec S16 32) : Prop :=
  (∀ a x, ((![v5797] : Fin 1 → IVec S16 32) a x).toNat < S32768.size a)
instance k0_chk898.dec : ∀ (v5797 : IVec S16 32), Decidable (k0_chk898 v5797) := fun v5797 => decidable_of_iff' _ (Iff.of_eq (k0_chk898.eq_1 v5797))
theorem k0_idx898_inb : ∀ (v5797 : IVec S16 32) (k0_hw898 : k0_chk898 v5797), ∀ a x, ((![v5797] : Fin 1 → IVec S16 32) a x).toNat < S32768.size a := fun v5797 k0_hw898 => k0_hw898

def k0_chk899 (v5801 : IVec S16 32) : Prop :=
  (∀ a x, ((![v5801] : Fin 1 → IVec S16 32) a x).toNat < S32768.size a)
instance k0_chk899.dec : ∀ (v5801 : IVec S16 32), Decidable (k0_chk899 v5801) := fun v5801 => decidable_of_iff' _ (Iff.of_eq (k0_chk899.eq_1 v5801))
theorem k0_idx899_inb : ∀ (v5801 : IVec S16 32) (k0_hw899 : k0_chk899 v5801), ∀ a x, ((![v5801] : Fin 1 → IVec S16 32) a x).toNat < S32768.size a := fun v5801 k0_hw899 => k0_hw899

def k0_chk900 (v5805 : IVec S16 32) : Prop :=
  (∀ a x, ((![v5805] : Fin 1 → IVec S16 32) a x).toNat < S32768.size a)
instance k0_chk900.dec : ∀ (v5805 : IVec S16 32), Decidable (k0_chk900 v5805) := fun v5805 => decidable_of_iff' _ (Iff.of_eq (k0_chk900.eq_1 v5805))
theorem k0_idx900_inb : ∀ (v5805 : IVec S16 32) (k0_hw900 : k0_chk900 v5805), ∀ a x, ((![v5805] : Fin 1 → IVec S16 32) a x).toNat < S32768.size a := fun v5805 k0_hw900 => k0_hw900

def k0_chk901 (v5809 : IVec S16 32) : Prop :=
  (∀ a x, ((![v5809] : Fin 1 → IVec S16 32) a x).toNat < S32768.size a)
instance k0_chk901.dec : ∀ (v5809 : IVec S16 32), Decidable (k0_chk901 v5809) := fun v5809 => decidable_of_iff' _ (Iff.of_eq (k0_chk901.eq_1 v5809))
theorem k0_idx901_inb : ∀ (v5809 : IVec S16 32) (k0_hw901 : k0_chk901 v5809), ∀ a x, ((![v5809] : Fin 1 → IVec S16 32) a x).toNat < S32768.size a := fun v5809 k0_hw901 => k0_hw901

def k0_chk902 (v5813 : IVec S16 32) : Prop :=
  (∀ a x, ((![v5813] : Fin 1 → IVec S16 32) a x).toNat < S32768.size a)
instance k0_chk902.dec : ∀ (v5813 : IVec S16 32), Decidable (k0_chk902 v5813) := fun v5813 => decidable_of_iff' _ (Iff.of_eq (k0_chk902.eq_1 v5813))
theorem k0_idx902_inb : ∀ (v5813 : IVec S16 32) (k0_hw902 : k0_chk902 v5813), ∀ a x, ((![v5813] : Fin 1 → IVec S16 32) a x).toNat < S32768.size a := fun v5813 k0_hw902 => k0_hw902

def k0_chk903 (v5817 : IVec S16 32) : Prop :=
  (∀ a x, ((![v5817] : Fin 1 → IVec S16 32) a x).toNat < S32768.size a)
instance k0_chk903.dec : ∀ (v5817 : IVec S16 32), Decidable (k0_chk903 v5817) := fun v5817 => decidable_of_iff' _ (Iff.of_eq (k0_chk903.eq_1 v5817))
theorem k0_idx903_inb : ∀ (v5817 : IVec S16 32) (k0_hw903 : k0_chk903 v5817), ∀ a x, ((![v5817] : Fin 1 → IVec S16 32) a x).toNat < S32768.size a := fun v5817 k0_hw903 => k0_hw903

def k0_chk904 (v5821 : IVec S16 32) : Prop :=
  (∀ a x, ((![v5821] : Fin 1 → IVec S16 32) a x).toNat < S32768.size a)
instance k0_chk904.dec : ∀ (v5821 : IVec S16 32), Decidable (k0_chk904 v5821) := fun v5821 => decidable_of_iff' _ (Iff.of_eq (k0_chk904.eq_1 v5821))
theorem k0_idx904_inb : ∀ (v5821 : IVec S16 32) (k0_hw904 : k0_chk904 v5821), ∀ a x, ((![v5821] : Fin 1 → IVec S16 32) a x).toNat < S32768.size a := fun v5821 k0_hw904 => k0_hw904

def k0_chk905 (v5825 : IVec S16 32) : Prop :=
  (∀ a x, ((![v5825] : Fin 1 → IVec S16 32) a x).toNat < S32768.size a)
instance k0_chk905.dec : ∀ (v5825 : IVec S16 32), Decidable (k0_chk905 v5825) := fun v5825 => decidable_of_iff' _ (Iff.of_eq (k0_chk905.eq_1 v5825))
theorem k0_idx905_inb : ∀ (v5825 : IVec S16 32) (k0_hw905 : k0_chk905 v5825), ∀ a x, ((![v5825] : Fin 1 → IVec S16 32) a x).toNat < S32768.size a := fun v5825 k0_hw905 => k0_hw905

def k0_chk906 (v5829 : IVec S16 32) : Prop :=
  (∀ a x, ((![v5829] : Fin 1 → IVec S16 32) a x).toNat < S32768.size a)
instance k0_chk906.dec : ∀ (v5829 : IVec S16 32), Decidable (k0_chk906 v5829) := fun v5829 => decidable_of_iff' _ (Iff.of_eq (k0_chk906.eq_1 v5829))
theorem k0_idx906_inb : ∀ (v5829 : IVec S16 32) (k0_hw906 : k0_chk906 v5829), ∀ a x, ((![v5829] : Fin 1 → IVec S16 32) a x).toNat < S32768.size a := fun v5829 k0_hw906 => k0_hw906

def k0_chk907 (v5833 : IVec S16 32) : Prop :=
  (∀ a x, ((![v5833] : Fin 1 → IVec S16 32) a x).toNat < S32768.size a)
instance k0_chk907.dec : ∀ (v5833 : IVec S16 32), Decidable (k0_chk907 v5833) := fun v5833 => decidable_of_iff' _ (Iff.of_eq (k0_chk907.eq_1 v5833))
theorem k0_idx907_inb : ∀ (v5833 : IVec S16 32) (k0_hw907 : k0_chk907 v5833), ∀ a x, ((![v5833] : Fin 1 → IVec S16 32) a x).toNat < S32768.size a := fun v5833 k0_hw907 => k0_hw907

def k0_chk908 (v5837 : IVec S16 32) : Prop :=
  (∀ a x, ((![v5837] : Fin 1 → IVec S16 32) a x).toNat < S32768.size a)
instance k0_chk908.dec : ∀ (v5837 : IVec S16 32), Decidable (k0_chk908 v5837) := fun v5837 => decidable_of_iff' _ (Iff.of_eq (k0_chk908.eq_1 v5837))
theorem k0_idx908_inb : ∀ (v5837 : IVec S16 32) (k0_hw908 : k0_chk908 v5837), ∀ a x, ((![v5837] : Fin 1 → IVec S16 32) a x).toNat < S32768.size a := fun v5837 k0_hw908 => k0_hw908

def k0_chk909 (v5841 : IVec S16 32) : Prop :=
  (∀ a x, ((![v5841] : Fin 1 → IVec S16 32) a x).toNat < S32768.size a)
instance k0_chk909.dec : ∀ (v5841 : IVec S16 32), Decidable (k0_chk909 v5841) := fun v5841 => decidable_of_iff' _ (Iff.of_eq (k0_chk909.eq_1 v5841))
theorem k0_idx909_inb : ∀ (v5841 : IVec S16 32) (k0_hw909 : k0_chk909 v5841), ∀ a x, ((![v5841] : Fin 1 → IVec S16 32) a x).toNat < S32768.size a := fun v5841 k0_hw909 => k0_hw909

def k0_chk910 (v5845 : IVec S16 32) : Prop :=
  (∀ a x, ((![v5845] : Fin 1 → IVec S16 32) a x).toNat < S32768.size a)
instance k0_chk910.dec : ∀ (v5845 : IVec S16 32), Decidable (k0_chk910 v5845) := fun v5845 => decidable_of_iff' _ (Iff.of_eq (k0_chk910.eq_1 v5845))
theorem k0_idx910_inb : ∀ (v5845 : IVec S16 32) (k0_hw910 : k0_chk910 v5845), ∀ a x, ((![v5845] : Fin 1 → IVec S16 32) a x).toNat < S32768.size a := fun v5845 k0_hw910 => k0_hw910

def k0_chk911 (v5849 : IVec S16 32) : Prop :=
  (∀ a x, ((![v5849] : Fin 1 → IVec S16 32) a x).toNat < S32768.size a)
instance k0_chk911.dec : ∀ (v5849 : IVec S16 32), Decidable (k0_chk911 v5849) := fun v5849 => decidable_of_iff' _ (Iff.of_eq (k0_chk911.eq_1 v5849))
theorem k0_idx911_inb : ∀ (v5849 : IVec S16 32) (k0_hw911 : k0_chk911 v5849), ∀ a x, ((![v5849] : Fin 1 → IVec S16 32) a x).toNat < S32768.size a := fun v5849 k0_hw911 => k0_hw911

def k0_chk912 (v5853 : IVec S16 32) : Prop :=
  (∀ a x, ((![v5853] : Fin 1 → IVec S16 32) a x).toNat < S32768.size a)
instance k0_chk912.dec : ∀ (v5853 : IVec S16 32), Decidable (k0_chk912 v5853) := fun v5853 => decidable_of_iff' _ (Iff.of_eq (k0_chk912.eq_1 v5853))
theorem k0_idx912_inb : ∀ (v5853 : IVec S16 32) (k0_hw912 : k0_chk912 v5853), ∀ a x, ((![v5853] : Fin 1 → IVec S16 32) a x).toNat < S32768.size a := fun v5853 k0_hw912 => k0_hw912

def k0_chk913 (v5857 : IVec S16 32) : Prop :=
  (∀ a x, ((![v5857] : Fin 1 → IVec S16 32) a x).toNat < S32768.size a)
instance k0_chk913.dec : ∀ (v5857 : IVec S16 32), Decidable (k0_chk913 v5857) := fun v5857 => decidable_of_iff' _ (Iff.of_eq (k0_chk913.eq_1 v5857))
theorem k0_idx913_inb : ∀ (v5857 : IVec S16 32) (k0_hw913 : k0_chk913 v5857), ∀ a x, ((![v5857] : Fin 1 → IVec S16 32) a x).toNat < S32768.size a := fun v5857 k0_hw913 => k0_hw913

def k0_chk914 (v5861 : IVec S16 32) : Prop :=
  (∀ a x, ((![v5861] : Fin 1 → IVec S16 32) a x).toNat < S32768.size a)
instance k0_chk914.dec : ∀ (v5861 : IVec S16 32), Decidable (k0_chk914 v5861) := fun v5861 => decidable_of_iff' _ (Iff.of_eq (k0_chk914.eq_1 v5861))
theorem k0_idx914_inb : ∀ (v5861 : IVec S16 32) (k0_hw914 : k0_chk914 v5861), ∀ a x, ((![v5861] : Fin 1 → IVec S16 32) a x).toNat < S32768.size a := fun v5861 k0_hw914 => k0_hw914

def k0_chk915 (v5865 : IVec S16 32) : Prop :=
  (∀ a x, ((![v5865] : Fin 1 → IVec S16 32) a x).toNat < S32768.size a)
instance k0_chk915.dec : ∀ (v5865 : IVec S16 32), Decidable (k0_chk915 v5865) := fun v5865 => decidable_of_iff' _ (Iff.of_eq (k0_chk915.eq_1 v5865))
theorem k0_idx915_inb : ∀ (v5865 : IVec S16 32) (k0_hw915 : k0_chk915 v5865), ∀ a x, ((![v5865] : Fin 1 → IVec S16 32) a x).toNat < S32768.size a := fun v5865 k0_hw915 => k0_hw915

def k0_chk916 (v5869 : IVec S16 32) : Prop :=
  (∀ a x, ((![v5869] : Fin 1 → IVec S16 32) a x).toNat < S32768.size a)
instance k0_chk916.dec : ∀ (v5869 : IVec S16 32), Decidable (k0_chk916 v5869) := fun v5869 => decidable_of_iff' _ (Iff.of_eq (k0_chk916.eq_1 v5869))
theorem k0_idx916_inb : ∀ (v5869 : IVec S16 32) (k0_hw916 : k0_chk916 v5869), ∀ a x, ((![v5869] : Fin 1 → IVec S16 32) a x).toNat < S32768.size a := fun v5869 k0_hw916 => k0_hw916

def k0_chk917 (v5873 : IVec S16 32) : Prop :=
  (∀ a x, ((![v5873] : Fin 1 → IVec S16 32) a x).toNat < S32768.size a)
instance k0_chk917.dec : ∀ (v5873 : IVec S16 32), Decidable (k0_chk917 v5873) := fun v5873 => decidable_of_iff' _ (Iff.of_eq (k0_chk917.eq_1 v5873))
theorem k0_idx917_inb : ∀ (v5873 : IVec S16 32) (k0_hw917 : k0_chk917 v5873), ∀ a x, ((![v5873] : Fin 1 → IVec S16 32) a x).toNat < S32768.size a := fun v5873 k0_hw917 => k0_hw917

def k0_chk918 (v5877 : IVec S16 32) : Prop :=
  (∀ a x, ((![v5877] : Fin 1 → IVec S16 32) a x).toNat < S32768.size a)
instance k0_chk918.dec : ∀ (v5877 : IVec S16 32), Decidable (k0_chk918 v5877) := fun v5877 => decidable_of_iff' _ (Iff.of_eq (k0_chk918.eq_1 v5877))
theorem k0_idx918_inb : ∀ (v5877 : IVec S16 32) (k0_hw918 : k0_chk918 v5877), ∀ a x, ((![v5877] : Fin 1 → IVec S16 32) a x).toNat < S32768.size a := fun v5877 k0_hw918 => k0_hw918

def k0_chk919 (v5881 : IVec S16 32) : Prop :=
  (∀ a x, ((![v5881] : Fin 1 → IVec S16 32) a x).toNat < S32768.size a)
instance k0_chk919.dec : ∀ (v5881 : IVec S16 32), Decidable (k0_chk919 v5881) := fun v5881 => decidable_of_iff' _ (Iff.of_eq (k0_chk919.eq_1 v5881))
theorem k0_idx919_inb : ∀ (v5881 : IVec S16 32) (k0_hw919 : k0_chk919 v5881), ∀ a x, ((![v5881] : Fin 1 → IVec S16 32) a x).toNat < S32768.size a := fun v5881 k0_hw919 => k0_hw919

def k0_chk920 (v5885 : IVec S16 32) : Prop :=
  (∀ a x, ((![v5885] : Fin 1 → IVec S16 32) a x).toNat < S32768.size a)
instance k0_chk920.dec : ∀ (v5885 : IVec S16 32), Decidable (k0_chk920 v5885) := fun v5885 => decidable_of_iff' _ (Iff.of_eq (k0_chk920.eq_1 v5885))
theorem k0_idx920_inb : ∀ (v5885 : IVec S16 32) (k0_hw920 : k0_chk920 v5885), ∀ a x, ((![v5885] : Fin 1 → IVec S16 32) a x).toNat < S32768.size a := fun v5885 k0_hw920 => k0_hw920

def k0_chk921 (v5889 : IVec S16 32) : Prop :=
  (∀ a x, ((![v5889] : Fin 1 → IVec S16 32) a x).toNat < S32768.size a)
instance k0_chk921.dec : ∀ (v5889 : IVec S16 32), Decidable (k0_chk921 v5889) := fun v5889 => decidable_of_iff' _ (Iff.of_eq (k0_chk921.eq_1 v5889))
theorem k0_idx921_inb : ∀ (v5889 : IVec S16 32) (k0_hw921 : k0_chk921 v5889), ∀ a x, ((![v5889] : Fin 1 → IVec S16 32) a x).toNat < S32768.size a := fun v5889 k0_hw921 => k0_hw921

def k0_chk922 (v5893 : IVec S16 32) : Prop :=
  (∀ a x, ((![v5893] : Fin 1 → IVec S16 32) a x).toNat < S32768.size a)
instance k0_chk922.dec : ∀ (v5893 : IVec S16 32), Decidable (k0_chk922 v5893) := fun v5893 => decidable_of_iff' _ (Iff.of_eq (k0_chk922.eq_1 v5893))
theorem k0_idx922_inb : ∀ (v5893 : IVec S16 32) (k0_hw922 : k0_chk922 v5893), ∀ a x, ((![v5893] : Fin 1 → IVec S16 32) a x).toNat < S32768.size a := fun v5893 k0_hw922 => k0_hw922

def k0_chk923 (v5897 : IVec S16 32) : Prop :=
  (∀ a x, ((![v5897] : Fin 1 → IVec S16 32) a x).toNat < S32768.size a)
instance k0_chk923.dec : ∀ (v5897 : IVec S16 32), Decidable (k0_chk923 v5897) := fun v5897 => decidable_of_iff' _ (Iff.of_eq (k0_chk923.eq_1 v5897))
theorem k0_idx923_inb : ∀ (v5897 : IVec S16 32) (k0_hw923 : k0_chk923 v5897), ∀ a x, ((![v5897] : Fin 1 → IVec S16 32) a x).toNat < S32768.size a := fun v5897 k0_hw923 => k0_hw923

def k0_chk924 (v5901 : IVec S16 32) : Prop :=
  (∀ a x, ((![v5901] : Fin 1 → IVec S16 32) a x).toNat < S32768.size a)
instance k0_chk924.dec : ∀ (v5901 : IVec S16 32), Decidable (k0_chk924 v5901) := fun v5901 => decidable_of_iff' _ (Iff.of_eq (k0_chk924.eq_1 v5901))
theorem k0_idx924_inb : ∀ (v5901 : IVec S16 32) (k0_hw924 : k0_chk924 v5901), ∀ a x, ((![v5901] : Fin 1 → IVec S16 32) a x).toNat < S32768.size a := fun v5901 k0_hw924 => k0_hw924

def k0_chk925 (v5905 : IVec S16 32) : Prop :=
  (∀ a x, ((![v5905] : Fin 1 → IVec S16 32) a x).toNat < S32768.size a)
instance k0_chk925.dec : ∀ (v5905 : IVec S16 32), Decidable (k0_chk925 v5905) := fun v5905 => decidable_of_iff' _ (Iff.of_eq (k0_chk925.eq_1 v5905))
theorem k0_idx925_inb : ∀ (v5905 : IVec S16 32) (k0_hw925 : k0_chk925 v5905), ∀ a x, ((![v5905] : Fin 1 → IVec S16 32) a x).toNat < S32768.size a := fun v5905 k0_hw925 => k0_hw925

def k0_chk926 (v5909 : IVec S16 32) : Prop :=
  (∀ a x, ((![v5909] : Fin 1 → IVec S16 32) a x).toNat < S32768.size a)
instance k0_chk926.dec : ∀ (v5909 : IVec S16 32), Decidable (k0_chk926 v5909) := fun v5909 => decidable_of_iff' _ (Iff.of_eq (k0_chk926.eq_1 v5909))
theorem k0_idx926_inb : ∀ (v5909 : IVec S16 32) (k0_hw926 : k0_chk926 v5909), ∀ a x, ((![v5909] : Fin 1 → IVec S16 32) a x).toNat < S32768.size a := fun v5909 k0_hw926 => k0_hw926

def k0_chk927 (v5913 : IVec S16 32) : Prop :=
  (∀ a x, ((![v5913] : Fin 1 → IVec S16 32) a x).toNat < S32768.size a)
instance k0_chk927.dec : ∀ (v5913 : IVec S16 32), Decidable (k0_chk927 v5913) := fun v5913 => decidable_of_iff' _ (Iff.of_eq (k0_chk927.eq_1 v5913))
theorem k0_idx927_inb : ∀ (v5913 : IVec S16 32) (k0_hw927 : k0_chk927 v5913), ∀ a x, ((![v5913] : Fin 1 → IVec S16 32) a x).toNat < S32768.size a := fun v5913 k0_hw927 => k0_hw927

def k0_chk928 (v5917 : IVec S16 32) : Prop :=
  (∀ a x, ((![v5917] : Fin 1 → IVec S16 32) a x).toNat < S32768.size a)
instance k0_chk928.dec : ∀ (v5917 : IVec S16 32), Decidable (k0_chk928 v5917) := fun v5917 => decidable_of_iff' _ (Iff.of_eq (k0_chk928.eq_1 v5917))
theorem k0_idx928_inb : ∀ (v5917 : IVec S16 32) (k0_hw928 : k0_chk928 v5917), ∀ a x, ((![v5917] : Fin 1 → IVec S16 32) a x).toNat < S32768.size a := fun v5917 k0_hw928 => k0_hw928

def k0_chk929 (v5921 : IVec S16 32) : Prop :=
  (∀ a x, ((![v5921] : Fin 1 → IVec S16 32) a x).toNat < S32768.size a)
instance k0_chk929.dec : ∀ (v5921 : IVec S16 32), Decidable (k0_chk929 v5921) := fun v5921 => decidable_of_iff' _ (Iff.of_eq (k0_chk929.eq_1 v5921))
theorem k0_idx929_inb : ∀ (v5921 : IVec S16 32) (k0_hw929 : k0_chk929 v5921), ∀ a x, ((![v5921] : Fin 1 → IVec S16 32) a x).toNat < S32768.size a := fun v5921 k0_hw929 => k0_hw929

def k0_chk930 (v5925 : IVec S16 32) : Prop :=
  (∀ a x, ((![v5925] : Fin 1 → IVec S16 32) a x).toNat < S32768.size a)
instance k0_chk930.dec : ∀ (v5925 : IVec S16 32), Decidable (k0_chk930 v5925) := fun v5925 => decidable_of_iff' _ (Iff.of_eq (k0_chk930.eq_1 v5925))
theorem k0_idx930_inb : ∀ (v5925 : IVec S16 32) (k0_hw930 : k0_chk930 v5925), ∀ a x, ((![v5925] : Fin 1 → IVec S16 32) a x).toNat < S32768.size a := fun v5925 k0_hw930 => k0_hw930

def k0_chk931 (v5929 : IVec S16 32) : Prop :=
  (∀ a x, ((![v5929] : Fin 1 → IVec S16 32) a x).toNat < S32768.size a)
instance k0_chk931.dec : ∀ (v5929 : IVec S16 32), Decidable (k0_chk931 v5929) := fun v5929 => decidable_of_iff' _ (Iff.of_eq (k0_chk931.eq_1 v5929))
theorem k0_idx931_inb : ∀ (v5929 : IVec S16 32) (k0_hw931 : k0_chk931 v5929), ∀ a x, ((![v5929] : Fin 1 → IVec S16 32) a x).toNat < S32768.size a := fun v5929 k0_hw931 => k0_hw931

def k0_chk932 (v5933 : IVec S16 32) : Prop :=
  (∀ a x, ((![v5933] : Fin 1 → IVec S16 32) a x).toNat < S32768.size a)
instance k0_chk932.dec : ∀ (v5933 : IVec S16 32), Decidable (k0_chk932 v5933) := fun v5933 => decidable_of_iff' _ (Iff.of_eq (k0_chk932.eq_1 v5933))
theorem k0_idx932_inb : ∀ (v5933 : IVec S16 32) (k0_hw932 : k0_chk932 v5933), ∀ a x, ((![v5933] : Fin 1 → IVec S16 32) a x).toNat < S32768.size a := fun v5933 k0_hw932 => k0_hw932

def k0_chk933 (v5937 : IVec S16 32) : Prop :=
  (∀ a x, ((![v5937] : Fin 1 → IVec S16 32) a x).toNat < S32768.size a)
instance k0_chk933.dec : ∀ (v5937 : IVec S16 32), Decidable (k0_chk933 v5937) := fun v5937 => decidable_of_iff' _ (Iff.of_eq (k0_chk933.eq_1 v5937))
theorem k0_idx933_inb : ∀ (v5937 : IVec S16 32) (k0_hw933 : k0_chk933 v5937), ∀ a x, ((![v5937] : Fin 1 → IVec S16 32) a x).toNat < S32768.size a := fun v5937 k0_hw933 => k0_hw933

def k0_chk934 (v5941 : IVec S16 32) : Prop :=
  (∀ a x, ((![v5941] : Fin 1 → IVec S16 32) a x).toNat < S32768.size a)
instance k0_chk934.dec : ∀ (v5941 : IVec S16 32), Decidable (k0_chk934 v5941) := fun v5941 => decidable_of_iff' _ (Iff.of_eq (k0_chk934.eq_1 v5941))
theorem k0_idx934_inb : ∀ (v5941 : IVec S16 32) (k0_hw934 : k0_chk934 v5941), ∀ a x, ((![v5941] : Fin 1 → IVec S16 32) a x).toNat < S32768.size a := fun v5941 k0_hw934 => k0_hw934

def k0_chk935 (v5945 : IVec S16 32) : Prop :=
  (∀ a x, ((![v5945] : Fin 1 → IVec S16 32) a x).toNat < S32768.size a)
instance k0_chk935.dec : ∀ (v5945 : IVec S16 32), Decidable (k0_chk935 v5945) := fun v5945 => decidable_of_iff' _ (Iff.of_eq (k0_chk935.eq_1 v5945))
theorem k0_idx935_inb : ∀ (v5945 : IVec S16 32) (k0_hw935 : k0_chk935 v5945), ∀ a x, ((![v5945] : Fin 1 → IVec S16 32) a x).toNat < S32768.size a := fun v5945 k0_hw935 => k0_hw935

def k0_chk936 (v5949 : IVec S16 32) : Prop :=
  (∀ a x, ((![v5949] : Fin 1 → IVec S16 32) a x).toNat < S32768.size a)
instance k0_chk936.dec : ∀ (v5949 : IVec S16 32), Decidable (k0_chk936 v5949) := fun v5949 => decidable_of_iff' _ (Iff.of_eq (k0_chk936.eq_1 v5949))
theorem k0_idx936_inb : ∀ (v5949 : IVec S16 32) (k0_hw936 : k0_chk936 v5949), ∀ a x, ((![v5949] : Fin 1 → IVec S16 32) a x).toNat < S32768.size a := fun v5949 k0_hw936 => k0_hw936

def k0_chk937 (v5953 : IVec S16 32) : Prop :=
  (∀ a x, ((![v5953] : Fin 1 → IVec S16 32) a x).toNat < S32768.size a)
instance k0_chk937.dec : ∀ (v5953 : IVec S16 32), Decidable (k0_chk937 v5953) := fun v5953 => decidable_of_iff' _ (Iff.of_eq (k0_chk937.eq_1 v5953))
theorem k0_idx937_inb : ∀ (v5953 : IVec S16 32) (k0_hw937 : k0_chk937 v5953), ∀ a x, ((![v5953] : Fin 1 → IVec S16 32) a x).toNat < S32768.size a := fun v5953 k0_hw937 => k0_hw937

def k0_chk938 (v5957 : IVec S16 32) : Prop :=
  (∀ a x, ((![v5957] : Fin 1 → IVec S16 32) a x).toNat < S32768.size a)
instance k0_chk938.dec : ∀ (v5957 : IVec S16 32), Decidable (k0_chk938 v5957) := fun v5957 => decidable_of_iff' _ (Iff.of_eq (k0_chk938.eq_1 v5957))
theorem k0_idx938_inb : ∀ (v5957 : IVec S16 32) (k0_hw938 : k0_chk938 v5957), ∀ a x, ((![v5957] : Fin 1 → IVec S16 32) a x).toNat < S32768.size a := fun v5957 k0_hw938 => k0_hw938

def k0_chk939 (v5961 : IVec S16 32) : Prop :=
  (∀ a x, ((![v5961] : Fin 1 → IVec S16 32) a x).toNat < S32768.size a)
instance k0_chk939.dec : ∀ (v5961 : IVec S16 32), Decidable (k0_chk939 v5961) := fun v5961 => decidable_of_iff' _ (Iff.of_eq (k0_chk939.eq_1 v5961))
theorem k0_idx939_inb : ∀ (v5961 : IVec S16 32) (k0_hw939 : k0_chk939 v5961), ∀ a x, ((![v5961] : Fin 1 → IVec S16 32) a x).toNat < S32768.size a := fun v5961 k0_hw939 => k0_hw939

def k0_chk940 (v5965 : IVec S16 32) : Prop :=
  (∀ a x, ((![v5965] : Fin 1 → IVec S16 32) a x).toNat < S32768.size a)
instance k0_chk940.dec : ∀ (v5965 : IVec S16 32), Decidable (k0_chk940 v5965) := fun v5965 => decidable_of_iff' _ (Iff.of_eq (k0_chk940.eq_1 v5965))
theorem k0_idx940_inb : ∀ (v5965 : IVec S16 32) (k0_hw940 : k0_chk940 v5965), ∀ a x, ((![v5965] : Fin 1 → IVec S16 32) a x).toNat < S32768.size a := fun v5965 k0_hw940 => k0_hw940

def k0_chk941 (v5969 : IVec S16 32) : Prop :=
  (∀ a x, ((![v5969] : Fin 1 → IVec S16 32) a x).toNat < S32768.size a)
instance k0_chk941.dec : ∀ (v5969 : IVec S16 32), Decidable (k0_chk941 v5969) := fun v5969 => decidable_of_iff' _ (Iff.of_eq (k0_chk941.eq_1 v5969))
theorem k0_idx941_inb : ∀ (v5969 : IVec S16 32) (k0_hw941 : k0_chk941 v5969), ∀ a x, ((![v5969] : Fin 1 → IVec S16 32) a x).toNat < S32768.size a := fun v5969 k0_hw941 => k0_hw941

def k0_chk942 (v5973 : IVec S16 32) : Prop :=
  (∀ a x, ((![v5973] : Fin 1 → IVec S16 32) a x).toNat < S32768.size a)
instance k0_chk942.dec : ∀ (v5973 : IVec S16 32), Decidable (k0_chk942 v5973) := fun v5973 => decidable_of_iff' _ (Iff.of_eq (k0_chk942.eq_1 v5973))
theorem k0_idx942_inb : ∀ (v5973 : IVec S16 32) (k0_hw942 : k0_chk942 v5973), ∀ a x, ((![v5973] : Fin 1 → IVec S16 32) a x).toNat < S32768.size a := fun v5973 k0_hw942 => k0_hw942

def k0_chk943 (v5977 : IVec S16 32) : Prop :=
  (∀ a x, ((![v5977] : Fin 1 → IVec S16 32) a x).toNat < S32768.size a)
instance k0_chk943.dec : ∀ (v5977 : IVec S16 32), Decidable (k0_chk943 v5977) := fun v5977 => decidable_of_iff' _ (Iff.of_eq (k0_chk943.eq_1 v5977))
theorem k0_idx943_inb : ∀ (v5977 : IVec S16 32) (k0_hw943 : k0_chk943 v5977), ∀ a x, ((![v5977] : Fin 1 → IVec S16 32) a x).toNat < S32768.size a := fun v5977 k0_hw943 => k0_hw943

def k0_chk944 (v5981 : IVec S16 32) : Prop :=
  (∀ a x, ((![v5981] : Fin 1 → IVec S16 32) a x).toNat < S32768.size a)
instance k0_chk944.dec : ∀ (v5981 : IVec S16 32), Decidable (k0_chk944 v5981) := fun v5981 => decidable_of_iff' _ (Iff.of_eq (k0_chk944.eq_1 v5981))
theorem k0_idx944_inb : ∀ (v5981 : IVec S16 32) (k0_hw944 : k0_chk944 v5981), ∀ a x, ((![v5981] : Fin 1 → IVec S16 32) a x).toNat < S32768.size a := fun v5981 k0_hw944 => k0_hw944

def k0_chk945 (v5985 : IVec S16 32) : Prop :=
  (∀ a x, ((![v5985] : Fin 1 → IVec S16 32) a x).toNat < S32768.size a)
instance k0_chk945.dec : ∀ (v5985 : IVec S16 32), Decidable (k0_chk945 v5985) := fun v5985 => decidable_of_iff' _ (Iff.of_eq (k0_chk945.eq_1 v5985))
theorem k0_idx945_inb : ∀ (v5985 : IVec S16 32) (k0_hw945 : k0_chk945 v5985), ∀ a x, ((![v5985] : Fin 1 → IVec S16 32) a x).toNat < S32768.size a := fun v5985 k0_hw945 => k0_hw945

def k0_chk946 (v5989 : IVec S16 32) : Prop :=
  (∀ a x, ((![v5989] : Fin 1 → IVec S16 32) a x).toNat < S32768.size a)
instance k0_chk946.dec : ∀ (v5989 : IVec S16 32), Decidable (k0_chk946 v5989) := fun v5989 => decidable_of_iff' _ (Iff.of_eq (k0_chk946.eq_1 v5989))
theorem k0_idx946_inb : ∀ (v5989 : IVec S16 32) (k0_hw946 : k0_chk946 v5989), ∀ a x, ((![v5989] : Fin 1 → IVec S16 32) a x).toNat < S32768.size a := fun v5989 k0_hw946 => k0_hw946

def k0_chk947 (v5993 : IVec S16 32) : Prop :=
  (∀ a x, ((![v5993] : Fin 1 → IVec S16 32) a x).toNat < S32768.size a)
instance k0_chk947.dec : ∀ (v5993 : IVec S16 32), Decidable (k0_chk947 v5993) := fun v5993 => decidable_of_iff' _ (Iff.of_eq (k0_chk947.eq_1 v5993))
theorem k0_idx947_inb : ∀ (v5993 : IVec S16 32) (k0_hw947 : k0_chk947 v5993), ∀ a x, ((![v5993] : Fin 1 → IVec S16 32) a x).toNat < S32768.size a := fun v5993 k0_hw947 => k0_hw947

def k0_chk948 (v5997 : IVec S16 32) : Prop :=
  (∀ a x, ((![v5997] : Fin 1 → IVec S16 32) a x).toNat < S32768.size a)
instance k0_chk948.dec : ∀ (v5997 : IVec S16 32), Decidable (k0_chk948 v5997) := fun v5997 => decidable_of_iff' _ (Iff.of_eq (k0_chk948.eq_1 v5997))
theorem k0_idx948_inb : ∀ (v5997 : IVec S16 32) (k0_hw948 : k0_chk948 v5997), ∀ a x, ((![v5997] : Fin 1 → IVec S16 32) a x).toNat < S32768.size a := fun v5997 k0_hw948 => k0_hw948

def k0_chk949 (v6001 : IVec S16 32) : Prop :=
  (∀ a x, ((![v6001] : Fin 1 → IVec S16 32) a x).toNat < S32768.size a)
instance k0_chk949.dec : ∀ (v6001 : IVec S16 32), Decidable (k0_chk949 v6001) := fun v6001 => decidable_of_iff' _ (Iff.of_eq (k0_chk949.eq_1 v6001))
theorem k0_idx949_inb : ∀ (v6001 : IVec S16 32) (k0_hw949 : k0_chk949 v6001), ∀ a x, ((![v6001] : Fin 1 → IVec S16 32) a x).toNat < S32768.size a := fun v6001 k0_hw949 => k0_hw949

def k0_chk950 (v6005 : IVec S16 32) : Prop :=
  (∀ a x, ((![v6005] : Fin 1 → IVec S16 32) a x).toNat < S32768.size a)
instance k0_chk950.dec : ∀ (v6005 : IVec S16 32), Decidable (k0_chk950 v6005) := fun v6005 => decidable_of_iff' _ (Iff.of_eq (k0_chk950.eq_1 v6005))
theorem k0_idx950_inb : ∀ (v6005 : IVec S16 32) (k0_hw950 : k0_chk950 v6005), ∀ a x, ((![v6005] : Fin 1 → IVec S16 32) a x).toNat < S32768.size a := fun v6005 k0_hw950 => k0_hw950

def k0_chk951 (v6009 : IVec S16 32) : Prop :=
  (∀ a x, ((![v6009] : Fin 1 → IVec S16 32) a x).toNat < S32768.size a)
instance k0_chk951.dec : ∀ (v6009 : IVec S16 32), Decidable (k0_chk951 v6009) := fun v6009 => decidable_of_iff' _ (Iff.of_eq (k0_chk951.eq_1 v6009))
theorem k0_idx951_inb : ∀ (v6009 : IVec S16 32) (k0_hw951 : k0_chk951 v6009), ∀ a x, ((![v6009] : Fin 1 → IVec S16 32) a x).toNat < S32768.size a := fun v6009 k0_hw951 => k0_hw951

def k0_chk952 (v6013 : IVec S16 32) : Prop :=
  (∀ a x, ((![v6013] : Fin 1 → IVec S16 32) a x).toNat < S32768.size a)
instance k0_chk952.dec : ∀ (v6013 : IVec S16 32), Decidable (k0_chk952 v6013) := fun v6013 => decidable_of_iff' _ (Iff.of_eq (k0_chk952.eq_1 v6013))
theorem k0_idx952_inb : ∀ (v6013 : IVec S16 32) (k0_hw952 : k0_chk952 v6013), ∀ a x, ((![v6013] : Fin 1 → IVec S16 32) a x).toNat < S32768.size a := fun v6013 k0_hw952 => k0_hw952

def k0_chk953 (v6017 : IVec S16 32) : Prop :=
  (∀ a x, ((![v6017] : Fin 1 → IVec S16 32) a x).toNat < S32768.size a)
instance k0_chk953.dec : ∀ (v6017 : IVec S16 32), Decidable (k0_chk953 v6017) := fun v6017 => decidable_of_iff' _ (Iff.of_eq (k0_chk953.eq_1 v6017))
theorem k0_idx953_inb : ∀ (v6017 : IVec S16 32) (k0_hw953 : k0_chk953 v6017), ∀ a x, ((![v6017] : Fin 1 → IVec S16 32) a x).toNat < S32768.size a := fun v6017 k0_hw953 => k0_hw953

def k0_chk954 (v6021 : IVec S16 32) : Prop :=
  (∀ a x, ((![v6021] : Fin 1 → IVec S16 32) a x).toNat < S32768.size a)
instance k0_chk954.dec : ∀ (v6021 : IVec S16 32), Decidable (k0_chk954 v6021) := fun v6021 => decidable_of_iff' _ (Iff.of_eq (k0_chk954.eq_1 v6021))
theorem k0_idx954_inb : ∀ (v6021 : IVec S16 32) (k0_hw954 : k0_chk954 v6021), ∀ a x, ((![v6021] : Fin 1 → IVec S16 32) a x).toNat < S32768.size a := fun v6021 k0_hw954 => k0_hw954

def k0_chk955 (v6025 : IVec S16 32) : Prop :=
  (∀ a x, ((![v6025] : Fin 1 → IVec S16 32) a x).toNat < S32768.size a)
instance k0_chk955.dec : ∀ (v6025 : IVec S16 32), Decidable (k0_chk955 v6025) := fun v6025 => decidable_of_iff' _ (Iff.of_eq (k0_chk955.eq_1 v6025))
theorem k0_idx955_inb : ∀ (v6025 : IVec S16 32) (k0_hw955 : k0_chk955 v6025), ∀ a x, ((![v6025] : Fin 1 → IVec S16 32) a x).toNat < S32768.size a := fun v6025 k0_hw955 => k0_hw955

def k0_chk956 (v6029 : IVec S16 32) : Prop :=
  (∀ a x, ((![v6029] : Fin 1 → IVec S16 32) a x).toNat < S32768.size a)
instance k0_chk956.dec : ∀ (v6029 : IVec S16 32), Decidable (k0_chk956 v6029) := fun v6029 => decidable_of_iff' _ (Iff.of_eq (k0_chk956.eq_1 v6029))
theorem k0_idx956_inb : ∀ (v6029 : IVec S16 32) (k0_hw956 : k0_chk956 v6029), ∀ a x, ((![v6029] : Fin 1 → IVec S16 32) a x).toNat < S32768.size a := fun v6029 k0_hw956 => k0_hw956

def k0_chk957 (v6033 : IVec S16 32) : Prop :=
  (∀ a x, ((![v6033] : Fin 1 → IVec S16 32) a x).toNat < S32768.size a)
instance k0_chk957.dec : ∀ (v6033 : IVec S16 32), Decidable (k0_chk957 v6033) := fun v6033 => decidable_of_iff' _ (Iff.of_eq (k0_chk957.eq_1 v6033))
theorem k0_idx957_inb : ∀ (v6033 : IVec S16 32) (k0_hw957 : k0_chk957 v6033), ∀ a x, ((![v6033] : Fin 1 → IVec S16 32) a x).toNat < S32768.size a := fun v6033 k0_hw957 => k0_hw957

def k0_chk958 (v6037 : IVec S16 32) : Prop :=
  (∀ a x, ((![v6037] : Fin 1 → IVec S16 32) a x).toNat < S32768.size a)
instance k0_chk958.dec : ∀ (v6037 : IVec S16 32), Decidable (k0_chk958 v6037) := fun v6037 => decidable_of_iff' _ (Iff.of_eq (k0_chk958.eq_1 v6037))
theorem k0_idx958_inb : ∀ (v6037 : IVec S16 32) (k0_hw958 : k0_chk958 v6037), ∀ a x, ((![v6037] : Fin 1 → IVec S16 32) a x).toNat < S32768.size a := fun v6037 k0_hw958 => k0_hw958

def k0_chk959 (v6041 : IVec S16 32) : Prop :=
  (∀ a x, ((![v6041] : Fin 1 → IVec S16 32) a x).toNat < S32768.size a)
instance k0_chk959.dec : ∀ (v6041 : IVec S16 32), Decidable (k0_chk959 v6041) := fun v6041 => decidable_of_iff' _ (Iff.of_eq (k0_chk959.eq_1 v6041))
theorem k0_idx959_inb : ∀ (v6041 : IVec S16 32) (k0_hw959 : k0_chk959 v6041), ∀ a x, ((![v6041] : Fin 1 → IVec S16 32) a x).toNat < S32768.size a := fun v6041 k0_hw959 => k0_hw959

def k0_chk960 (v6045 : IVec S16 32) : Prop :=
  (∀ a x, ((![v6045] : Fin 1 → IVec S16 32) a x).toNat < S32768.size a)
instance k0_chk960.dec : ∀ (v6045 : IVec S16 32), Decidable (k0_chk960 v6045) := fun v6045 => decidable_of_iff' _ (Iff.of_eq (k0_chk960.eq_1 v6045))
theorem k0_idx960_inb : ∀ (v6045 : IVec S16 32) (k0_hw960 : k0_chk960 v6045), ∀ a x, ((![v6045] : Fin 1 → IVec S16 32) a x).toNat < S32768.size a := fun v6045 k0_hw960 => k0_hw960

def k0_chk961 (v6049 : IVec S16 32) : Prop :=
  (∀ a x, ((![v6049] : Fin 1 → IVec S16 32) a x).toNat < S32768.size a)
instance k0_chk961.dec : ∀ (v6049 : IVec S16 32), Decidable (k0_chk961 v6049) := fun v6049 => decidable_of_iff' _ (Iff.of_eq (k0_chk961.eq_1 v6049))
theorem k0_idx961_inb : ∀ (v6049 : IVec S16 32) (k0_hw961 : k0_chk961 v6049), ∀ a x, ((![v6049] : Fin 1 → IVec S16 32) a x).toNat < S32768.size a := fun v6049 k0_hw961 => k0_hw961

def k0_chk962 (v6053 : IVec S16 32) : Prop :=
  (∀ a x, ((![v6053] : Fin 1 → IVec S16 32) a x).toNat < S32768.size a)
instance k0_chk962.dec : ∀ (v6053 : IVec S16 32), Decidable (k0_chk962 v6053) := fun v6053 => decidable_of_iff' _ (Iff.of_eq (k0_chk962.eq_1 v6053))
theorem k0_idx962_inb : ∀ (v6053 : IVec S16 32) (k0_hw962 : k0_chk962 v6053), ∀ a x, ((![v6053] : Fin 1 → IVec S16 32) a x).toNat < S32768.size a := fun v6053 k0_hw962 => k0_hw962

def k0_chk963 (v6057 : IVec S16 32) : Prop :=
  (∀ a x, ((![v6057] : Fin 1 → IVec S16 32) a x).toNat < S32768.size a)
instance k0_chk963.dec : ∀ (v6057 : IVec S16 32), Decidable (k0_chk963 v6057) := fun v6057 => decidable_of_iff' _ (Iff.of_eq (k0_chk963.eq_1 v6057))
theorem k0_idx963_inb : ∀ (v6057 : IVec S16 32) (k0_hw963 : k0_chk963 v6057), ∀ a x, ((![v6057] : Fin 1 → IVec S16 32) a x).toNat < S32768.size a := fun v6057 k0_hw963 => k0_hw963

def k0_chk964 (v6061 : IVec S16 32) : Prop :=
  (∀ a x, ((![v6061] : Fin 1 → IVec S16 32) a x).toNat < S32768.size a)
instance k0_chk964.dec : ∀ (v6061 : IVec S16 32), Decidable (k0_chk964 v6061) := fun v6061 => decidable_of_iff' _ (Iff.of_eq (k0_chk964.eq_1 v6061))
theorem k0_idx964_inb : ∀ (v6061 : IVec S16 32) (k0_hw964 : k0_chk964 v6061), ∀ a x, ((![v6061] : Fin 1 → IVec S16 32) a x).toNat < S32768.size a := fun v6061 k0_hw964 => k0_hw964

def k0_chk965 (v6065 : IVec S16 32) : Prop :=
  (∀ a x, ((![v6065] : Fin 1 → IVec S16 32) a x).toNat < S32768.size a)
instance k0_chk965.dec : ∀ (v6065 : IVec S16 32), Decidable (k0_chk965 v6065) := fun v6065 => decidable_of_iff' _ (Iff.of_eq (k0_chk965.eq_1 v6065))
theorem k0_idx965_inb : ∀ (v6065 : IVec S16 32) (k0_hw965 : k0_chk965 v6065), ∀ a x, ((![v6065] : Fin 1 → IVec S16 32) a x).toNat < S32768.size a := fun v6065 k0_hw965 => k0_hw965

def k0_chk966 (v6069 : IVec S16 32) : Prop :=
  (∀ a x, ((![v6069] : Fin 1 → IVec S16 32) a x).toNat < S32768.size a)
instance k0_chk966.dec : ∀ (v6069 : IVec S16 32), Decidable (k0_chk966 v6069) := fun v6069 => decidable_of_iff' _ (Iff.of_eq (k0_chk966.eq_1 v6069))
theorem k0_idx966_inb : ∀ (v6069 : IVec S16 32) (k0_hw966 : k0_chk966 v6069), ∀ a x, ((![v6069] : Fin 1 → IVec S16 32) a x).toNat < S32768.size a := fun v6069 k0_hw966 => k0_hw966

def k0_chk967 (v6073 : IVec S16 32) : Prop :=
  (∀ a x, ((![v6073] : Fin 1 → IVec S16 32) a x).toNat < S32768.size a)
instance k0_chk967.dec : ∀ (v6073 : IVec S16 32), Decidable (k0_chk967 v6073) := fun v6073 => decidable_of_iff' _ (Iff.of_eq (k0_chk967.eq_1 v6073))
theorem k0_idx967_inb : ∀ (v6073 : IVec S16 32) (k0_hw967 : k0_chk967 v6073), ∀ a x, ((![v6073] : Fin 1 → IVec S16 32) a x).toNat < S32768.size a := fun v6073 k0_hw967 => k0_hw967

def k0_chk968 (v6077 : IVec S16 32) : Prop :=
  (∀ a x, ((![v6077] : Fin 1 → IVec S16 32) a x).toNat < S32768.size a)
instance k0_chk968.dec : ∀ (v6077 : IVec S16 32), Decidable (k0_chk968 v6077) := fun v6077 => decidable_of_iff' _ (Iff.of_eq (k0_chk968.eq_1 v6077))
theorem k0_idx968_inb : ∀ (v6077 : IVec S16 32) (k0_hw968 : k0_chk968 v6077), ∀ a x, ((![v6077] : Fin 1 → IVec S16 32) a x).toNat < S32768.size a := fun v6077 k0_hw968 => k0_hw968

def k0_chk969 (v6081 : IVec S16 32) : Prop :=
  (∀ a x, ((![v6081] : Fin 1 → IVec S16 32) a x).toNat < S32768.size a)
instance k0_chk969.dec : ∀ (v6081 : IVec S16 32), Decidable (k0_chk969 v6081) := fun v6081 => decidable_of_iff' _ (Iff.of_eq (k0_chk969.eq_1 v6081))
theorem k0_idx969_inb : ∀ (v6081 : IVec S16 32) (k0_hw969 : k0_chk969 v6081), ∀ a x, ((![v6081] : Fin 1 → IVec S16 32) a x).toNat < S32768.size a := fun v6081 k0_hw969 => k0_hw969

def k0_chk970 (v6085 : IVec S16 32) : Prop :=
  (∀ a x, ((![v6085] : Fin 1 → IVec S16 32) a x).toNat < S32768.size a)
instance k0_chk970.dec : ∀ (v6085 : IVec S16 32), Decidable (k0_chk970 v6085) := fun v6085 => decidable_of_iff' _ (Iff.of_eq (k0_chk970.eq_1 v6085))
theorem k0_idx970_inb : ∀ (v6085 : IVec S16 32) (k0_hw970 : k0_chk970 v6085), ∀ a x, ((![v6085] : Fin 1 → IVec S16 32) a x).toNat < S32768.size a := fun v6085 k0_hw970 => k0_hw970

def k0_chk971 (v6089 : IVec S16 32) : Prop :=
  (∀ a x, ((![v6089] : Fin 1 → IVec S16 32) a x).toNat < S32768.size a)
instance k0_chk971.dec : ∀ (v6089 : IVec S16 32), Decidable (k0_chk971 v6089) := fun v6089 => decidable_of_iff' _ (Iff.of_eq (k0_chk971.eq_1 v6089))
theorem k0_idx971_inb : ∀ (v6089 : IVec S16 32) (k0_hw971 : k0_chk971 v6089), ∀ a x, ((![v6089] : Fin 1 → IVec S16 32) a x).toNat < S32768.size a := fun v6089 k0_hw971 => k0_hw971

def k0_chk972 (v6093 : IVec S16 32) : Prop :=
  (∀ a x, ((![v6093] : Fin 1 → IVec S16 32) a x).toNat < S32768.size a)
instance k0_chk972.dec : ∀ (v6093 : IVec S16 32), Decidable (k0_chk972 v6093) := fun v6093 => decidable_of_iff' _ (Iff.of_eq (k0_chk972.eq_1 v6093))
theorem k0_idx972_inb : ∀ (v6093 : IVec S16 32) (k0_hw972 : k0_chk972 v6093), ∀ a x, ((![v6093] : Fin 1 → IVec S16 32) a x).toNat < S32768.size a := fun v6093 k0_hw972 => k0_hw972

def k0_chk973 (v6097 : IVec S16 32) : Prop :=
  (∀ a x, ((![v6097] : Fin 1 → IVec S16 32) a x).toNat < S32768.size a)
instance k0_chk973.dec : ∀ (v6097 : IVec S16 32), Decidable (k0_chk973 v6097) := fun v6097 => decidable_of_iff' _ (Iff.of_eq (k0_chk973.eq_1 v6097))
theorem k0_idx973_inb : ∀ (v6097 : IVec S16 32) (k0_hw973 : k0_chk973 v6097), ∀ a x, ((![v6097] : Fin 1 → IVec S16 32) a x).toNat < S32768.size a := fun v6097 k0_hw973 => k0_hw973

def k0_chk974 (v6101 : IVec S16 32) : Prop :=
  (∀ a x, ((![v6101] : Fin 1 → IVec S16 32) a x).toNat < S32768.size a)
instance k0_chk974.dec : ∀ (v6101 : IVec S16 32), Decidable (k0_chk974 v6101) := fun v6101 => decidable_of_iff' _ (Iff.of_eq (k0_chk974.eq_1 v6101))
theorem k0_idx974_inb : ∀ (v6101 : IVec S16 32) (k0_hw974 : k0_chk974 v6101), ∀ a x, ((![v6101] : Fin 1 → IVec S16 32) a x).toNat < S32768.size a := fun v6101 k0_hw974 => k0_hw974

def k0_chk975 (v6105 : IVec S16 32) : Prop :=
  (∀ a x, ((![v6105] : Fin 1 → IVec S16 32) a x).toNat < S32768.size a)
instance k0_chk975.dec : ∀ (v6105 : IVec S16 32), Decidable (k0_chk975 v6105) := fun v6105 => decidable_of_iff' _ (Iff.of_eq (k0_chk975.eq_1 v6105))
theorem k0_idx975_inb : ∀ (v6105 : IVec S16 32) (k0_hw975 : k0_chk975 v6105), ∀ a x, ((![v6105] : Fin 1 → IVec S16 32) a x).toNat < S32768.size a := fun v6105 k0_hw975 => k0_hw975

def k0_chk976 (v6109 : IVec S16 32) : Prop :=
  (∀ a x, ((![v6109] : Fin 1 → IVec S16 32) a x).toNat < S32768.size a)
instance k0_chk976.dec : ∀ (v6109 : IVec S16 32), Decidable (k0_chk976 v6109) := fun v6109 => decidable_of_iff' _ (Iff.of_eq (k0_chk976.eq_1 v6109))
theorem k0_idx976_inb : ∀ (v6109 : IVec S16 32) (k0_hw976 : k0_chk976 v6109), ∀ a x, ((![v6109] : Fin 1 → IVec S16 32) a x).toNat < S32768.size a := fun v6109 k0_hw976 => k0_hw976

def k0_chk977 (v6113 : IVec S16 32) : Prop :=
  (∀ a x, ((![v6113] : Fin 1 → IVec S16 32) a x).toNat < S32768.size a)
instance k0_chk977.dec : ∀ (v6113 : IVec S16 32), Decidable (k0_chk977 v6113) := fun v6113 => decidable_of_iff' _ (Iff.of_eq (k0_chk977.eq_1 v6113))
theorem k0_idx977_inb : ∀ (v6113 : IVec S16 32) (k0_hw977 : k0_chk977 v6113), ∀ a x, ((![v6113] : Fin 1 → IVec S16 32) a x).toNat < S32768.size a := fun v6113 k0_hw977 => k0_hw977

def k0_chk978 (v6117 : IVec S16 32) : Prop :=
  (∀ a x, ((![v6117] : Fin 1 → IVec S16 32) a x).toNat < S32768.size a)
instance k0_chk978.dec : ∀ (v6117 : IVec S16 32), Decidable (k0_chk978 v6117) := fun v6117 => decidable_of_iff' _ (Iff.of_eq (k0_chk978.eq_1 v6117))
theorem k0_idx978_inb : ∀ (v6117 : IVec S16 32) (k0_hw978 : k0_chk978 v6117), ∀ a x, ((![v6117] : Fin 1 → IVec S16 32) a x).toNat < S32768.size a := fun v6117 k0_hw978 => k0_hw978

def k0_chk979 (v6121 : IVec S16 32) : Prop :=
  (∀ a x, ((![v6121] : Fin 1 → IVec S16 32) a x).toNat < S32768.size a)
instance k0_chk979.dec : ∀ (v6121 : IVec S16 32), Decidable (k0_chk979 v6121) := fun v6121 => decidable_of_iff' _ (Iff.of_eq (k0_chk979.eq_1 v6121))
theorem k0_idx979_inb : ∀ (v6121 : IVec S16 32) (k0_hw979 : k0_chk979 v6121), ∀ a x, ((![v6121] : Fin 1 → IVec S16 32) a x).toNat < S32768.size a := fun v6121 k0_hw979 => k0_hw979

def k0_chk980 (v6125 : IVec S16 32) : Prop :=
  (∀ a x, ((![v6125] : Fin 1 → IVec S16 32) a x).toNat < S32768.size a)
instance k0_chk980.dec : ∀ (v6125 : IVec S16 32), Decidable (k0_chk980 v6125) := fun v6125 => decidable_of_iff' _ (Iff.of_eq (k0_chk980.eq_1 v6125))
theorem k0_idx980_inb : ∀ (v6125 : IVec S16 32) (k0_hw980 : k0_chk980 v6125), ∀ a x, ((![v6125] : Fin 1 → IVec S16 32) a x).toNat < S32768.size a := fun v6125 k0_hw980 => k0_hw980

def k0_chk981 (v6129 : IVec S16 32) : Prop :=
  (∀ a x, ((![v6129] : Fin 1 → IVec S16 32) a x).toNat < S32768.size a)
instance k0_chk981.dec : ∀ (v6129 : IVec S16 32), Decidable (k0_chk981 v6129) := fun v6129 => decidable_of_iff' _ (Iff.of_eq (k0_chk981.eq_1 v6129))
theorem k0_idx981_inb : ∀ (v6129 : IVec S16 32) (k0_hw981 : k0_chk981 v6129), ∀ a x, ((![v6129] : Fin 1 → IVec S16 32) a x).toNat < S32768.size a := fun v6129 k0_hw981 => k0_hw981

def k0_chk982 (v6133 : IVec S16 32) : Prop :=
  (∀ a x, ((![v6133] : Fin 1 → IVec S16 32) a x).toNat < S32768.size a)
instance k0_chk982.dec : ∀ (v6133 : IVec S16 32), Decidable (k0_chk982 v6133) := fun v6133 => decidable_of_iff' _ (Iff.of_eq (k0_chk982.eq_1 v6133))
theorem k0_idx982_inb : ∀ (v6133 : IVec S16 32) (k0_hw982 : k0_chk982 v6133), ∀ a x, ((![v6133] : Fin 1 → IVec S16 32) a x).toNat < S32768.size a := fun v6133 k0_hw982 => k0_hw982

def k0_chk983 (v6137 : IVec S16 32) : Prop :=
  (∀ a x, ((![v6137] : Fin 1 → IVec S16 32) a x).toNat < S32768.size a)
instance k0_chk983.dec : ∀ (v6137 : IVec S16 32), Decidable (k0_chk983 v6137) := fun v6137 => decidable_of_iff' _ (Iff.of_eq (k0_chk983.eq_1 v6137))
theorem k0_idx983_inb : ∀ (v6137 : IVec S16 32) (k0_hw983 : k0_chk983 v6137), ∀ a x, ((![v6137] : Fin 1 → IVec S16 32) a x).toNat < S32768.size a := fun v6137 k0_hw983 => k0_hw983

def k0_chk984 (v6141 : IVec S16 32) : Prop :=
  (∀ a x, ((![v6141] : Fin 1 → IVec S16 32) a x).toNat < S32768.size a)
instance k0_chk984.dec : ∀ (v6141 : IVec S16 32), Decidable (k0_chk984 v6141) := fun v6141 => decidable_of_iff' _ (Iff.of_eq (k0_chk984.eq_1 v6141))
theorem k0_idx984_inb : ∀ (v6141 : IVec S16 32) (k0_hw984 : k0_chk984 v6141), ∀ a x, ((![v6141] : Fin 1 → IVec S16 32) a x).toNat < S32768.size a := fun v6141 k0_hw984 => k0_hw984

def k0_chk985 (v6145 : IVec S16 32) : Prop :=
  (∀ a x, ((![v6145] : Fin 1 → IVec S16 32) a x).toNat < S32768.size a)
instance k0_chk985.dec : ∀ (v6145 : IVec S16 32), Decidable (k0_chk985 v6145) := fun v6145 => decidable_of_iff' _ (Iff.of_eq (k0_chk985.eq_1 v6145))
theorem k0_idx985_inb : ∀ (v6145 : IVec S16 32) (k0_hw985 : k0_chk985 v6145), ∀ a x, ((![v6145] : Fin 1 → IVec S16 32) a x).toNat < S32768.size a := fun v6145 k0_hw985 => k0_hw985

def k0_chk986 (v6149 : IVec S16 32) : Prop :=
  (∀ a x, ((![v6149] : Fin 1 → IVec S16 32) a x).toNat < S32768.size a)
instance k0_chk986.dec : ∀ (v6149 : IVec S16 32), Decidable (k0_chk986 v6149) := fun v6149 => decidable_of_iff' _ (Iff.of_eq (k0_chk986.eq_1 v6149))
theorem k0_idx986_inb : ∀ (v6149 : IVec S16 32) (k0_hw986 : k0_chk986 v6149), ∀ a x, ((![v6149] : Fin 1 → IVec S16 32) a x).toNat < S32768.size a := fun v6149 k0_hw986 => k0_hw986

def k0_chk987 (v6153 : IVec S16 32) : Prop :=
  (∀ a x, ((![v6153] : Fin 1 → IVec S16 32) a x).toNat < S32768.size a)
instance k0_chk987.dec : ∀ (v6153 : IVec S16 32), Decidable (k0_chk987 v6153) := fun v6153 => decidable_of_iff' _ (Iff.of_eq (k0_chk987.eq_1 v6153))
theorem k0_idx987_inb : ∀ (v6153 : IVec S16 32) (k0_hw987 : k0_chk987 v6153), ∀ a x, ((![v6153] : Fin 1 → IVec S16 32) a x).toNat < S32768.size a := fun v6153 k0_hw987 => k0_hw987

def k0_chk988 (v6157 : IVec S16 32) : Prop :=
  (∀ a x, ((![v6157] : Fin 1 → IVec S16 32) a x).toNat < S32768.size a)
instance k0_chk988.dec : ∀ (v6157 : IVec S16 32), Decidable (k0_chk988 v6157) := fun v6157 => decidable_of_iff' _ (Iff.of_eq (k0_chk988.eq_1 v6157))
theorem k0_idx988_inb : ∀ (v6157 : IVec S16 32) (k0_hw988 : k0_chk988 v6157), ∀ a x, ((![v6157] : Fin 1 → IVec S16 32) a x).toNat < S32768.size a := fun v6157 k0_hw988 => k0_hw988

def k0_chk989 (v6161 : IVec S16 32) : Prop :=
  (∀ a x, ((![v6161] : Fin 1 → IVec S16 32) a x).toNat < S32768.size a)
instance k0_chk989.dec : ∀ (v6161 : IVec S16 32), Decidable (k0_chk989 v6161) := fun v6161 => decidable_of_iff' _ (Iff.of_eq (k0_chk989.eq_1 v6161))
theorem k0_idx989_inb : ∀ (v6161 : IVec S16 32) (k0_hw989 : k0_chk989 v6161), ∀ a x, ((![v6161] : Fin 1 → IVec S16 32) a x).toNat < S32768.size a := fun v6161 k0_hw989 => k0_hw989

def k0_chk990 (v6165 : IVec S16 32) : Prop :=
  (∀ a x, ((![v6165] : Fin 1 → IVec S16 32) a x).toNat < S32768.size a)
instance k0_chk990.dec : ∀ (v6165 : IVec S16 32), Decidable (k0_chk990 v6165) := fun v6165 => decidable_of_iff' _ (Iff.of_eq (k0_chk990.eq_1 v6165))
theorem k0_idx990_inb : ∀ (v6165 : IVec S16 32) (k0_hw990 : k0_chk990 v6165), ∀ a x, ((![v6165] : Fin 1 → IVec S16 32) a x).toNat < S32768.size a := fun v6165 k0_hw990 => k0_hw990

def k0_chk991 (v6169 : IVec S16 32) : Prop :=
  (∀ a x, ((![v6169] : Fin 1 → IVec S16 32) a x).toNat < S32768.size a)
instance k0_chk991.dec : ∀ (v6169 : IVec S16 32), Decidable (k0_chk991 v6169) := fun v6169 => decidable_of_iff' _ (Iff.of_eq (k0_chk991.eq_1 v6169))
theorem k0_idx991_inb : ∀ (v6169 : IVec S16 32) (k0_hw991 : k0_chk991 v6169), ∀ a x, ((![v6169] : Fin 1 → IVec S16 32) a x).toNat < S32768.size a := fun v6169 k0_hw991 => k0_hw991

def k0_chk992 (v6173 : IVec S16 32) : Prop :=
  (∀ a x, ((![v6173] : Fin 1 → IVec S16 32) a x).toNat < S32768.size a)
instance k0_chk992.dec : ∀ (v6173 : IVec S16 32), Decidable (k0_chk992 v6173) := fun v6173 => decidable_of_iff' _ (Iff.of_eq (k0_chk992.eq_1 v6173))
theorem k0_idx992_inb : ∀ (v6173 : IVec S16 32) (k0_hw992 : k0_chk992 v6173), ∀ a x, ((![v6173] : Fin 1 → IVec S16 32) a x).toNat < S32768.size a := fun v6173 k0_hw992 => k0_hw992

def k0_chk993 (v6177 : IVec S16 32) : Prop :=
  (∀ a x, ((![v6177] : Fin 1 → IVec S16 32) a x).toNat < S32768.size a)
instance k0_chk993.dec : ∀ (v6177 : IVec S16 32), Decidable (k0_chk993 v6177) := fun v6177 => decidable_of_iff' _ (Iff.of_eq (k0_chk993.eq_1 v6177))
theorem k0_idx993_inb : ∀ (v6177 : IVec S16 32) (k0_hw993 : k0_chk993 v6177), ∀ a x, ((![v6177] : Fin 1 → IVec S16 32) a x).toNat < S32768.size a := fun v6177 k0_hw993 => k0_hw993

def k0_chk994 (v6181 : IVec S16 32) : Prop :=
  (∀ a x, ((![v6181] : Fin 1 → IVec S16 32) a x).toNat < S32768.size a)
instance k0_chk994.dec : ∀ (v6181 : IVec S16 32), Decidable (k0_chk994 v6181) := fun v6181 => decidable_of_iff' _ (Iff.of_eq (k0_chk994.eq_1 v6181))
theorem k0_idx994_inb : ∀ (v6181 : IVec S16 32) (k0_hw994 : k0_chk994 v6181), ∀ a x, ((![v6181] : Fin 1 → IVec S16 32) a x).toNat < S32768.size a := fun v6181 k0_hw994 => k0_hw994

def k0_chk995 (v6185 : IVec S16 32) : Prop :=
  (∀ a x, ((![v6185] : Fin 1 → IVec S16 32) a x).toNat < S32768.size a)
instance k0_chk995.dec : ∀ (v6185 : IVec S16 32), Decidable (k0_chk995 v6185) := fun v6185 => decidable_of_iff' _ (Iff.of_eq (k0_chk995.eq_1 v6185))
theorem k0_idx995_inb : ∀ (v6185 : IVec S16 32) (k0_hw995 : k0_chk995 v6185), ∀ a x, ((![v6185] : Fin 1 → IVec S16 32) a x).toNat < S32768.size a := fun v6185 k0_hw995 => k0_hw995

def k0_chk996 (v6189 : IVec S16 32) : Prop :=
  (∀ a x, ((![v6189] : Fin 1 → IVec S16 32) a x).toNat < S32768.size a)
instance k0_chk996.dec : ∀ (v6189 : IVec S16 32), Decidable (k0_chk996 v6189) := fun v6189 => decidable_of_iff' _ (Iff.of_eq (k0_chk996.eq_1 v6189))
theorem k0_idx996_inb : ∀ (v6189 : IVec S16 32) (k0_hw996 : k0_chk996 v6189), ∀ a x, ((![v6189] : Fin 1 → IVec S16 32) a x).toNat < S32768.size a := fun v6189 k0_hw996 => k0_hw996

def k0_chk997 (v6193 : IVec S16 32) : Prop :=
  (∀ a x, ((![v6193] : Fin 1 → IVec S16 32) a x).toNat < S32768.size a)
instance k0_chk997.dec : ∀ (v6193 : IVec S16 32), Decidable (k0_chk997 v6193) := fun v6193 => decidable_of_iff' _ (Iff.of_eq (k0_chk997.eq_1 v6193))
theorem k0_idx997_inb : ∀ (v6193 : IVec S16 32) (k0_hw997 : k0_chk997 v6193), ∀ a x, ((![v6193] : Fin 1 → IVec S16 32) a x).toNat < S32768.size a := fun v6193 k0_hw997 => k0_hw997

def k0_chk998 (v6197 : IVec S16 32) : Prop :=
  (∀ a x, ((![v6197] : Fin 1 → IVec S16 32) a x).toNat < S32768.size a)
instance k0_chk998.dec : ∀ (v6197 : IVec S16 32), Decidable (k0_chk998 v6197) := fun v6197 => decidable_of_iff' _ (Iff.of_eq (k0_chk998.eq_1 v6197))
theorem k0_idx998_inb : ∀ (v6197 : IVec S16 32) (k0_hw998 : k0_chk998 v6197), ∀ a x, ((![v6197] : Fin 1 → IVec S16 32) a x).toNat < S32768.size a := fun v6197 k0_hw998 => k0_hw998

def k0_chk999 (v6201 : IVec S16 32) : Prop :=
  (∀ a x, ((![v6201] : Fin 1 → IVec S16 32) a x).toNat < S32768.size a)
instance k0_chk999.dec : ∀ (v6201 : IVec S16 32), Decidable (k0_chk999 v6201) := fun v6201 => decidable_of_iff' _ (Iff.of_eq (k0_chk999.eq_1 v6201))
theorem k0_idx999_inb : ∀ (v6201 : IVec S16 32) (k0_hw999 : k0_chk999 v6201), ∀ a x, ((![v6201] : Fin 1 → IVec S16 32) a x).toNat < S32768.size a := fun v6201 k0_hw999 => k0_hw999

def k0_chk1000 (v6205 : IVec S16 32) : Prop :=
  (∀ a x, ((![v6205] : Fin 1 → IVec S16 32) a x).toNat < S32768.size a)
instance k0_chk1000.dec : ∀ (v6205 : IVec S16 32), Decidable (k0_chk1000 v6205) := fun v6205 => decidable_of_iff' _ (Iff.of_eq (k0_chk1000.eq_1 v6205))
theorem k0_idx1000_inb : ∀ (v6205 : IVec S16 32) (k0_hw1000 : k0_chk1000 v6205), ∀ a x, ((![v6205] : Fin 1 → IVec S16 32) a x).toNat < S32768.size a := fun v6205 k0_hw1000 => k0_hw1000

def k0_chk1001 (v6209 : IVec S16 32) : Prop :=
  (∀ a x, ((![v6209] : Fin 1 → IVec S16 32) a x).toNat < S32768.size a)
instance k0_chk1001.dec : ∀ (v6209 : IVec S16 32), Decidable (k0_chk1001 v6209) := fun v6209 => decidable_of_iff' _ (Iff.of_eq (k0_chk1001.eq_1 v6209))
theorem k0_idx1001_inb : ∀ (v6209 : IVec S16 32) (k0_hw1001 : k0_chk1001 v6209), ∀ a x, ((![v6209] : Fin 1 → IVec S16 32) a x).toNat < S32768.size a := fun v6209 k0_hw1001 => k0_hw1001

def k0_chk1002 (v6213 : IVec S16 32) : Prop :=
  (∀ a x, ((![v6213] : Fin 1 → IVec S16 32) a x).toNat < S32768.size a)
instance k0_chk1002.dec : ∀ (v6213 : IVec S16 32), Decidable (k0_chk1002 v6213) := fun v6213 => decidable_of_iff' _ (Iff.of_eq (k0_chk1002.eq_1 v6213))
theorem k0_idx1002_inb : ∀ (v6213 : IVec S16 32) (k0_hw1002 : k0_chk1002 v6213), ∀ a x, ((![v6213] : Fin 1 → IVec S16 32) a x).toNat < S32768.size a := fun v6213 k0_hw1002 => k0_hw1002

def k0_chk1003 (v6217 : IVec S16 32) : Prop :=
  (∀ a x, ((![v6217] : Fin 1 → IVec S16 32) a x).toNat < S32768.size a)
instance k0_chk1003.dec : ∀ (v6217 : IVec S16 32), Decidable (k0_chk1003 v6217) := fun v6217 => decidable_of_iff' _ (Iff.of_eq (k0_chk1003.eq_1 v6217))
theorem k0_idx1003_inb : ∀ (v6217 : IVec S16 32) (k0_hw1003 : k0_chk1003 v6217), ∀ a x, ((![v6217] : Fin 1 → IVec S16 32) a x).toNat < S32768.size a := fun v6217 k0_hw1003 => k0_hw1003

def k0_chk1004 (v6221 : IVec S16 32) : Prop :=
  (∀ a x, ((![v6221] : Fin 1 → IVec S16 32) a x).toNat < S32768.size a)
instance k0_chk1004.dec : ∀ (v6221 : IVec S16 32), Decidable (k0_chk1004 v6221) := fun v6221 => decidable_of_iff' _ (Iff.of_eq (k0_chk1004.eq_1 v6221))
theorem k0_idx1004_inb : ∀ (v6221 : IVec S16 32) (k0_hw1004 : k0_chk1004 v6221), ∀ a x, ((![v6221] : Fin 1 → IVec S16 32) a x).toNat < S32768.size a := fun v6221 k0_hw1004 => k0_hw1004

def k0_chk1005 (v6225 : IVec S16 32) : Prop :=
  (∀ a x, ((![v6225] : Fin 1 → IVec S16 32) a x).toNat < S32768.size a)
instance k0_chk1005.dec : ∀ (v6225 : IVec S16 32), Decidable (k0_chk1005 v6225) := fun v6225 => decidable_of_iff' _ (Iff.of_eq (k0_chk1005.eq_1 v6225))
theorem k0_idx1005_inb : ∀ (v6225 : IVec S16 32) (k0_hw1005 : k0_chk1005 v6225), ∀ a x, ((![v6225] : Fin 1 → IVec S16 32) a x).toNat < S32768.size a := fun v6225 k0_hw1005 => k0_hw1005

def k0_chk1006 (v6229 : IVec S16 32) : Prop :=
  (∀ a x, ((![v6229] : Fin 1 → IVec S16 32) a x).toNat < S32768.size a)
instance k0_chk1006.dec : ∀ (v6229 : IVec S16 32), Decidable (k0_chk1006 v6229) := fun v6229 => decidable_of_iff' _ (Iff.of_eq (k0_chk1006.eq_1 v6229))
theorem k0_idx1006_inb : ∀ (v6229 : IVec S16 32) (k0_hw1006 : k0_chk1006 v6229), ∀ a x, ((![v6229] : Fin 1 → IVec S16 32) a x).toNat < S32768.size a := fun v6229 k0_hw1006 => k0_hw1006

def k0_chk1007 (v6233 : IVec S16 32) : Prop :=
  (∀ a x, ((![v6233] : Fin 1 → IVec S16 32) a x).toNat < S32768.size a)
instance k0_chk1007.dec : ∀ (v6233 : IVec S16 32), Decidable (k0_chk1007 v6233) := fun v6233 => decidable_of_iff' _ (Iff.of_eq (k0_chk1007.eq_1 v6233))
theorem k0_idx1007_inb : ∀ (v6233 : IVec S16 32) (k0_hw1007 : k0_chk1007 v6233), ∀ a x, ((![v6233] : Fin 1 → IVec S16 32) a x).toNat < S32768.size a := fun v6233 k0_hw1007 => k0_hw1007

def k0_chk1008 (v6237 : IVec S16 32) : Prop :=
  (∀ a x, ((![v6237] : Fin 1 → IVec S16 32) a x).toNat < S32768.size a)
instance k0_chk1008.dec : ∀ (v6237 : IVec S16 32), Decidable (k0_chk1008 v6237) := fun v6237 => decidable_of_iff' _ (Iff.of_eq (k0_chk1008.eq_1 v6237))
theorem k0_idx1008_inb : ∀ (v6237 : IVec S16 32) (k0_hw1008 : k0_chk1008 v6237), ∀ a x, ((![v6237] : Fin 1 → IVec S16 32) a x).toNat < S32768.size a := fun v6237 k0_hw1008 => k0_hw1008

def k0_chk1009 (v6241 : IVec S16 32) : Prop :=
  (∀ a x, ((![v6241] : Fin 1 → IVec S16 32) a x).toNat < S32768.size a)
instance k0_chk1009.dec : ∀ (v6241 : IVec S16 32), Decidable (k0_chk1009 v6241) := fun v6241 => decidable_of_iff' _ (Iff.of_eq (k0_chk1009.eq_1 v6241))
theorem k0_idx1009_inb : ∀ (v6241 : IVec S16 32) (k0_hw1009 : k0_chk1009 v6241), ∀ a x, ((![v6241] : Fin 1 → IVec S16 32) a x).toNat < S32768.size a := fun v6241 k0_hw1009 => k0_hw1009

def k0_chk1010 (v6245 : IVec S16 32) : Prop :=
  (∀ a x, ((![v6245] : Fin 1 → IVec S16 32) a x).toNat < S32768.size a)
instance k0_chk1010.dec : ∀ (v6245 : IVec S16 32), Decidable (k0_chk1010 v6245) := fun v6245 => decidable_of_iff' _ (Iff.of_eq (k0_chk1010.eq_1 v6245))
theorem k0_idx1010_inb : ∀ (v6245 : IVec S16 32) (k0_hw1010 : k0_chk1010 v6245), ∀ a x, ((![v6245] : Fin 1 → IVec S16 32) a x).toNat < S32768.size a := fun v6245 k0_hw1010 => k0_hw1010

def k0_chk1011 (v6249 : IVec S16 32) : Prop :=
  (∀ a x, ((![v6249] : Fin 1 → IVec S16 32) a x).toNat < S32768.size a)
instance k0_chk1011.dec : ∀ (v6249 : IVec S16 32), Decidable (k0_chk1011 v6249) := fun v6249 => decidable_of_iff' _ (Iff.of_eq (k0_chk1011.eq_1 v6249))
theorem k0_idx1011_inb : ∀ (v6249 : IVec S16 32) (k0_hw1011 : k0_chk1011 v6249), ∀ a x, ((![v6249] : Fin 1 → IVec S16 32) a x).toNat < S32768.size a := fun v6249 k0_hw1011 => k0_hw1011

def k0_chk1012 (v6253 : IVec S16 32) : Prop :=
  (∀ a x, ((![v6253] : Fin 1 → IVec S16 32) a x).toNat < S32768.size a)
instance k0_chk1012.dec : ∀ (v6253 : IVec S16 32), Decidable (k0_chk1012 v6253) := fun v6253 => decidable_of_iff' _ (Iff.of_eq (k0_chk1012.eq_1 v6253))
theorem k0_idx1012_inb : ∀ (v6253 : IVec S16 32) (k0_hw1012 : k0_chk1012 v6253), ∀ a x, ((![v6253] : Fin 1 → IVec S16 32) a x).toNat < S32768.size a := fun v6253 k0_hw1012 => k0_hw1012

def k0_chk1013 (v6257 : IVec S16 32) : Prop :=
  (∀ a x, ((![v6257] : Fin 1 → IVec S16 32) a x).toNat < S32768.size a)
instance k0_chk1013.dec : ∀ (v6257 : IVec S16 32), Decidable (k0_chk1013 v6257) := fun v6257 => decidable_of_iff' _ (Iff.of_eq (k0_chk1013.eq_1 v6257))
theorem k0_idx1013_inb : ∀ (v6257 : IVec S16 32) (k0_hw1013 : k0_chk1013 v6257), ∀ a x, ((![v6257] : Fin 1 → IVec S16 32) a x).toNat < S32768.size a := fun v6257 k0_hw1013 => k0_hw1013

def k0_chk1014 (v6261 : IVec S16 32) : Prop :=
  (∀ a x, ((![v6261] : Fin 1 → IVec S16 32) a x).toNat < S32768.size a)
instance k0_chk1014.dec : ∀ (v6261 : IVec S16 32), Decidable (k0_chk1014 v6261) := fun v6261 => decidable_of_iff' _ (Iff.of_eq (k0_chk1014.eq_1 v6261))
theorem k0_idx1014_inb : ∀ (v6261 : IVec S16 32) (k0_hw1014 : k0_chk1014 v6261), ∀ a x, ((![v6261] : Fin 1 → IVec S16 32) a x).toNat < S32768.size a := fun v6261 k0_hw1014 => k0_hw1014

def k0_chk1015 (v6265 : IVec S16 32) : Prop :=
  (∀ a x, ((![v6265] : Fin 1 → IVec S16 32) a x).toNat < S32768.size a)
instance k0_chk1015.dec : ∀ (v6265 : IVec S16 32), Decidable (k0_chk1015 v6265) := fun v6265 => decidable_of_iff' _ (Iff.of_eq (k0_chk1015.eq_1 v6265))
theorem k0_idx1015_inb : ∀ (v6265 : IVec S16 32) (k0_hw1015 : k0_chk1015 v6265), ∀ a x, ((![v6265] : Fin 1 → IVec S16 32) a x).toNat < S32768.size a := fun v6265 k0_hw1015 => k0_hw1015

def k0_chk1016 (v6269 : IVec S16 32) : Prop :=
  (∀ a x, ((![v6269] : Fin 1 → IVec S16 32) a x).toNat < S32768.size a)
instance k0_chk1016.dec : ∀ (v6269 : IVec S16 32), Decidable (k0_chk1016 v6269) := fun v6269 => decidable_of_iff' _ (Iff.of_eq (k0_chk1016.eq_1 v6269))
theorem k0_idx1016_inb : ∀ (v6269 : IVec S16 32) (k0_hw1016 : k0_chk1016 v6269), ∀ a x, ((![v6269] : Fin 1 → IVec S16 32) a x).toNat < S32768.size a := fun v6269 k0_hw1016 => k0_hw1016

def k0_chk1017 (v6273 : IVec S16 32) : Prop :=
  (∀ a x, ((![v6273] : Fin 1 → IVec S16 32) a x).toNat < S32768.size a)
instance k0_chk1017.dec : ∀ (v6273 : IVec S16 32), Decidable (k0_chk1017 v6273) := fun v6273 => decidable_of_iff' _ (Iff.of_eq (k0_chk1017.eq_1 v6273))
theorem k0_idx1017_inb : ∀ (v6273 : IVec S16 32) (k0_hw1017 : k0_chk1017 v6273), ∀ a x, ((![v6273] : Fin 1 → IVec S16 32) a x).toNat < S32768.size a := fun v6273 k0_hw1017 => k0_hw1017

def k0_chk1018 (v6277 : IVec S16 32) : Prop :=
  (∀ a x, ((![v6277] : Fin 1 → IVec S16 32) a x).toNat < S32768.size a)
instance k0_chk1018.dec : ∀ (v6277 : IVec S16 32), Decidable (k0_chk1018 v6277) := fun v6277 => decidable_of_iff' _ (Iff.of_eq (k0_chk1018.eq_1 v6277))
theorem k0_idx1018_inb : ∀ (v6277 : IVec S16 32) (k0_hw1018 : k0_chk1018 v6277), ∀ a x, ((![v6277] : Fin 1 → IVec S16 32) a x).toNat < S32768.size a := fun v6277 k0_hw1018 => k0_hw1018

def k0_chk1019 (v6281 : IVec S16 32) : Prop :=
  (∀ a x, ((![v6281] : Fin 1 → IVec S16 32) a x).toNat < S32768.size a)
instance k0_chk1019.dec : ∀ (v6281 : IVec S16 32), Decidable (k0_chk1019 v6281) := fun v6281 => decidable_of_iff' _ (Iff.of_eq (k0_chk1019.eq_1 v6281))
theorem k0_idx1019_inb : ∀ (v6281 : IVec S16 32) (k0_hw1019 : k0_chk1019 v6281), ∀ a x, ((![v6281] : Fin 1 → IVec S16 32) a x).toNat < S32768.size a := fun v6281 k0_hw1019 => k0_hw1019

def k0_chk1020 (v6285 : IVec S16 32) : Prop :=
  (∀ a x, ((![v6285] : Fin 1 → IVec S16 32) a x).toNat < S32768.size a)
instance k0_chk1020.dec : ∀ (v6285 : IVec S16 32), Decidable (k0_chk1020 v6285) := fun v6285 => decidable_of_iff' _ (Iff.of_eq (k0_chk1020.eq_1 v6285))
theorem k0_idx1020_inb : ∀ (v6285 : IVec S16 32) (k0_hw1020 : k0_chk1020 v6285), ∀ a x, ((![v6285] : Fin 1 → IVec S16 32) a x).toNat < S32768.size a := fun v6285 k0_hw1020 => k0_hw1020

def k0_chk1021 (v6289 : IVec S16 32) : Prop :=
  (∀ a x, ((![v6289] : Fin 1 → IVec S16 32) a x).toNat < S32768.size a)
instance k0_chk1021.dec : ∀ (v6289 : IVec S16 32), Decidable (k0_chk1021 v6289) := fun v6289 => decidable_of_iff' _ (Iff.of_eq (k0_chk1021.eq_1 v6289))
theorem k0_idx1021_inb : ∀ (v6289 : IVec S16 32) (k0_hw1021 : k0_chk1021 v6289), ∀ a x, ((![v6289] : Fin 1 → IVec S16 32) a x).toNat < S32768.size a := fun v6289 k0_hw1021 => k0_hw1021

def k0_chk1022 (v6293 : IVec S16 32) : Prop :=
  (∀ a x, ((![v6293] : Fin 1 → IVec S16 32) a x).toNat < S32768.size a)
instance k0_chk1022.dec : ∀ (v6293 : IVec S16 32), Decidable (k0_chk1022 v6293) := fun v6293 => decidable_of_iff' _ (Iff.of_eq (k0_chk1022.eq_1 v6293))
theorem k0_idx1022_inb : ∀ (v6293 : IVec S16 32) (k0_hw1022 : k0_chk1022 v6293), ∀ a x, ((![v6293] : Fin 1 → IVec S16 32) a x).toNat < S32768.size a := fun v6293 k0_hw1022 => k0_hw1022

def k0_chk1023 (v6297 : IVec S16 32) : Prop :=
  (∀ a x, ((![v6297] : Fin 1 → IVec S16 32) a x).toNat < S32768.size a)
instance k0_chk1023.dec : ∀ (v6297 : IVec S16 32), Decidable (k0_chk1023 v6297) := fun v6297 => decidable_of_iff' _ (Iff.of_eq (k0_chk1023.eq_1 v6297))
theorem k0_idx1023_inb : ∀ (v6297 : IVec S16 32) (k0_hw1023 : k0_chk1023 v6297), ∀ a x, ((![v6297] : Fin 1 → IVec S16 32) a x).toNat < S32768.size a := fun v6297 k0_hw1023 => k0_hw1023

def k0_chk1024 (v6301 : IVec S16 32) : Prop :=
  (∀ a x, ((![v6301] : Fin 1 → IVec S16 32) a x).toNat < S32768.size a)
instance k0_chk1024.dec : ∀ (v6301 : IVec S16 32), Decidable (k0_chk1024 v6301) := fun v6301 => decidable_of_iff' _ (Iff.of_eq (k0_chk1024.eq_1 v6301))
theorem k0_idx1024_inb : ∀ (v6301 : IVec S16 32) (k0_hw1024 : k0_chk1024 v6301), ∀ a x, ((![v6301] : Fin 1 → IVec S16 32) a x).toNat < S32768.size a := fun v6301 k0_hw1024 => k0_hw1024
def k0_off12 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v9 : BitVec 32 := Scalar.muli v1 c128_i32_0
  let c2048_i32 : BitVec 32 := 2048#32
  let v10 : BitVec 32 := Scalar.muli v9 c2048_i32
  let c1_i32_661 : BitVec 32 := 1#32
  let c1_i32_662 : BitVec 32 := 1#32
  let arg12 : BitVec 32 := Scf.iv c1_i32_661 c1_i32_662 k0_t1
  let c2_i32_2228 : BitVec 32 := 2#32
  let v5261 : BitVec 32 := Scalar.muli arg12 c2_i32_2228
  let c1_i32_2229 : BitVec 32 := 1#32
  let v5262 : BitVec 32 := Scalar.addi v5261 c1_i32_2229
  let c4096_i32_2749 : BitVec 32 := 4096#32
  let v6304 : BitVec 32 := Scalar.muli v5262 c4096_i32_2749
  let v6305 : BitVec 32 := Scalar.addi v10 v6304
  ![v6305.toNat]
def k0_off13 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v7 : BitVec 32 := Scalar.muli v1 c128_i32
  let c16384_i32 : BitVec 32 := 16384#32
  let v8 : BitVec 32 := Scalar.muli v7 c16384_i32
  let c1_i32_661 : BitVec 32 := 1#32
  let c1_i32_662 : BitVec 32 := 1#32
  let arg12 : BitVec 32 := Scf.iv c1_i32_661 c1_i32_662 k0_t1
  let c2_i32_2228 : BitVec 32 := 2#32
  let v5261 : BitVec 32 := Scalar.muli arg12 c2_i32_2228
  let c1_i32_2229 : BitVec 32 := 1#32
  let v5262 : BitVec 32 := Scalar.addi v5261 c1_i32_2229
  let c2_i32_2751 : BitVec 32 := 2#32
  let v6310 : BitVec 32 := Scalar.addi v5262 c2_i32_2751
  let c32768_i32_2752 : BitVec 32 := 32768#32
  let v6311 : BitVec 32 := Scalar.muli v6310 c32768_i32_2752
  let v6312 : BitVec 32 := Scalar.addi v8 v6311
  ![v6312.toNat]

def k0_chk1025 (v2122 : IVec S16 32) : Prop :=
  (∀ a x, ((![v2122] : Fin 1 → IVec S16 32) a x).toNat < S32768.size a)
instance k0_chk1025.dec : ∀ (v2122 : IVec S16 32), Decidable (k0_chk1025 v2122) := fun v2122 => decidable_of_iff' _ (Iff.of_eq (k0_chk1025.eq_1 v2122))
theorem k0_idx1025_inb : ∀ (v2122 : IVec S16 32) (k0_hw1025 : k0_chk1025 v2122), ∀ a x, ((![v2122] : Fin 1 → IVec S16 32) a x).toNat < S32768.size a := fun v2122 k0_hw1025 => k0_hw1025

def k0_chk1026 (v2126 : IVec S16 32) : Prop :=
  (∀ a x, ((![v2126] : Fin 1 → IVec S16 32) a x).toNat < S32768.size a)
instance k0_chk1026.dec : ∀ (v2126 : IVec S16 32), Decidable (k0_chk1026 v2126) := fun v2126 => decidable_of_iff' _ (Iff.of_eq (k0_chk1026.eq_1 v2126))
theorem k0_idx1026_inb : ∀ (v2126 : IVec S16 32) (k0_hw1026 : k0_chk1026 v2126), ∀ a x, ((![v2126] : Fin 1 → IVec S16 32) a x).toNat < S32768.size a := fun v2126 k0_hw1026 => k0_hw1026

def k0_chk1027 (v2130 : IVec S16 32) : Prop :=
  (∀ a x, ((![v2130] : Fin 1 → IVec S16 32) a x).toNat < S32768.size a)
instance k0_chk1027.dec : ∀ (v2130 : IVec S16 32), Decidable (k0_chk1027 v2130) := fun v2130 => decidable_of_iff' _ (Iff.of_eq (k0_chk1027.eq_1 v2130))
theorem k0_idx1027_inb : ∀ (v2130 : IVec S16 32) (k0_hw1027 : k0_chk1027 v2130), ∀ a x, ((![v2130] : Fin 1 → IVec S16 32) a x).toNat < S32768.size a := fun v2130 k0_hw1027 => k0_hw1027

def k0_chk1028 (v2134 : IVec S16 32) : Prop :=
  (∀ a x, ((![v2134] : Fin 1 → IVec S16 32) a x).toNat < S32768.size a)
instance k0_chk1028.dec : ∀ (v2134 : IVec S16 32), Decidable (k0_chk1028 v2134) := fun v2134 => decidable_of_iff' _ (Iff.of_eq (k0_chk1028.eq_1 v2134))
theorem k0_idx1028_inb : ∀ (v2134 : IVec S16 32) (k0_hw1028 : k0_chk1028 v2134), ∀ a x, ((![v2134] : Fin 1 → IVec S16 32) a x).toNat < S32768.size a := fun v2134 k0_hw1028 => k0_hw1028

def k0_chk1029 (v2138 : IVec S16 32) : Prop :=
  (∀ a x, ((![v2138] : Fin 1 → IVec S16 32) a x).toNat < S32768.size a)
instance k0_chk1029.dec : ∀ (v2138 : IVec S16 32), Decidable (k0_chk1029 v2138) := fun v2138 => decidable_of_iff' _ (Iff.of_eq (k0_chk1029.eq_1 v2138))
theorem k0_idx1029_inb : ∀ (v2138 : IVec S16 32) (k0_hw1029 : k0_chk1029 v2138), ∀ a x, ((![v2138] : Fin 1 → IVec S16 32) a x).toNat < S32768.size a := fun v2138 k0_hw1029 => k0_hw1029

def k0_chk1030 (v2142 : IVec S16 32) : Prop :=
  (∀ a x, ((![v2142] : Fin 1 → IVec S16 32) a x).toNat < S32768.size a)
instance k0_chk1030.dec : ∀ (v2142 : IVec S16 32), Decidable (k0_chk1030 v2142) := fun v2142 => decidable_of_iff' _ (Iff.of_eq (k0_chk1030.eq_1 v2142))
theorem k0_idx1030_inb : ∀ (v2142 : IVec S16 32) (k0_hw1030 : k0_chk1030 v2142), ∀ a x, ((![v2142] : Fin 1 → IVec S16 32) a x).toNat < S32768.size a := fun v2142 k0_hw1030 => k0_hw1030

def k0_chk1031 (v2146 : IVec S16 32) : Prop :=
  (∀ a x, ((![v2146] : Fin 1 → IVec S16 32) a x).toNat < S32768.size a)
instance k0_chk1031.dec : ∀ (v2146 : IVec S16 32), Decidable (k0_chk1031 v2146) := fun v2146 => decidable_of_iff' _ (Iff.of_eq (k0_chk1031.eq_1 v2146))
theorem k0_idx1031_inb : ∀ (v2146 : IVec S16 32) (k0_hw1031 : k0_chk1031 v2146), ∀ a x, ((![v2146] : Fin 1 → IVec S16 32) a x).toNat < S32768.size a := fun v2146 k0_hw1031 => k0_hw1031

def k0_chk1032 (v2150 : IVec S16 32) : Prop :=
  (∀ a x, ((![v2150] : Fin 1 → IVec S16 32) a x).toNat < S32768.size a)
instance k0_chk1032.dec : ∀ (v2150 : IVec S16 32), Decidable (k0_chk1032 v2150) := fun v2150 => decidable_of_iff' _ (Iff.of_eq (k0_chk1032.eq_1 v2150))
theorem k0_idx1032_inb : ∀ (v2150 : IVec S16 32) (k0_hw1032 : k0_chk1032 v2150), ∀ a x, ((![v2150] : Fin 1 → IVec S16 32) a x).toNat < S32768.size a := fun v2150 k0_hw1032 => k0_hw1032

def k0_chk1033 (v2154 : IVec S16 32) : Prop :=
  (∀ a x, ((![v2154] : Fin 1 → IVec S16 32) a x).toNat < S32768.size a)
instance k0_chk1033.dec : ∀ (v2154 : IVec S16 32), Decidable (k0_chk1033 v2154) := fun v2154 => decidable_of_iff' _ (Iff.of_eq (k0_chk1033.eq_1 v2154))
theorem k0_idx1033_inb : ∀ (v2154 : IVec S16 32) (k0_hw1033 : k0_chk1033 v2154), ∀ a x, ((![v2154] : Fin 1 → IVec S16 32) a x).toNat < S32768.size a := fun v2154 k0_hw1033 => k0_hw1033

def k0_chk1034 (v2158 : IVec S16 32) : Prop :=
  (∀ a x, ((![v2158] : Fin 1 → IVec S16 32) a x).toNat < S32768.size a)
instance k0_chk1034.dec : ∀ (v2158 : IVec S16 32), Decidable (k0_chk1034 v2158) := fun v2158 => decidable_of_iff' _ (Iff.of_eq (k0_chk1034.eq_1 v2158))
theorem k0_idx1034_inb : ∀ (v2158 : IVec S16 32) (k0_hw1034 : k0_chk1034 v2158), ∀ a x, ((![v2158] : Fin 1 → IVec S16 32) a x).toNat < S32768.size a := fun v2158 k0_hw1034 => k0_hw1034

def k0_chk1035 (v2162 : IVec S16 32) : Prop :=
  (∀ a x, ((![v2162] : Fin 1 → IVec S16 32) a x).toNat < S32768.size a)
instance k0_chk1035.dec : ∀ (v2162 : IVec S16 32), Decidable (k0_chk1035 v2162) := fun v2162 => decidable_of_iff' _ (Iff.of_eq (k0_chk1035.eq_1 v2162))
theorem k0_idx1035_inb : ∀ (v2162 : IVec S16 32) (k0_hw1035 : k0_chk1035 v2162), ∀ a x, ((![v2162] : Fin 1 → IVec S16 32) a x).toNat < S32768.size a := fun v2162 k0_hw1035 => k0_hw1035

def k0_chk1036 (v2166 : IVec S16 32) : Prop :=
  (∀ a x, ((![v2166] : Fin 1 → IVec S16 32) a x).toNat < S32768.size a)
instance k0_chk1036.dec : ∀ (v2166 : IVec S16 32), Decidable (k0_chk1036 v2166) := fun v2166 => decidable_of_iff' _ (Iff.of_eq (k0_chk1036.eq_1 v2166))
theorem k0_idx1036_inb : ∀ (v2166 : IVec S16 32) (k0_hw1036 : k0_chk1036 v2166), ∀ a x, ((![v2166] : Fin 1 → IVec S16 32) a x).toNat < S32768.size a := fun v2166 k0_hw1036 => k0_hw1036

def k0_chk1037 (v2170 : IVec S16 32) : Prop :=
  (∀ a x, ((![v2170] : Fin 1 → IVec S16 32) a x).toNat < S32768.size a)
instance k0_chk1037.dec : ∀ (v2170 : IVec S16 32), Decidable (k0_chk1037 v2170) := fun v2170 => decidable_of_iff' _ (Iff.of_eq (k0_chk1037.eq_1 v2170))
theorem k0_idx1037_inb : ∀ (v2170 : IVec S16 32) (k0_hw1037 : k0_chk1037 v2170), ∀ a x, ((![v2170] : Fin 1 → IVec S16 32) a x).toNat < S32768.size a := fun v2170 k0_hw1037 => k0_hw1037

def k0_chk1038 (v2174 : IVec S16 32) : Prop :=
  (∀ a x, ((![v2174] : Fin 1 → IVec S16 32) a x).toNat < S32768.size a)
instance k0_chk1038.dec : ∀ (v2174 : IVec S16 32), Decidable (k0_chk1038 v2174) := fun v2174 => decidable_of_iff' _ (Iff.of_eq (k0_chk1038.eq_1 v2174))
theorem k0_idx1038_inb : ∀ (v2174 : IVec S16 32) (k0_hw1038 : k0_chk1038 v2174), ∀ a x, ((![v2174] : Fin 1 → IVec S16 32) a x).toNat < S32768.size a := fun v2174 k0_hw1038 => k0_hw1038

def k0_chk1039 (v2178 : IVec S16 32) : Prop :=
  (∀ a x, ((![v2178] : Fin 1 → IVec S16 32) a x).toNat < S32768.size a)
instance k0_chk1039.dec : ∀ (v2178 : IVec S16 32), Decidable (k0_chk1039 v2178) := fun v2178 => decidable_of_iff' _ (Iff.of_eq (k0_chk1039.eq_1 v2178))
theorem k0_idx1039_inb : ∀ (v2178 : IVec S16 32) (k0_hw1039 : k0_chk1039 v2178), ∀ a x, ((![v2178] : Fin 1 → IVec S16 32) a x).toNat < S32768.size a := fun v2178 k0_hw1039 => k0_hw1039

def k0_chk1040 (v2182 : IVec S16 32) : Prop :=
  (∀ a x, ((![v2182] : Fin 1 → IVec S16 32) a x).toNat < S32768.size a)
instance k0_chk1040.dec : ∀ (v2182 : IVec S16 32), Decidable (k0_chk1040 v2182) := fun v2182 => decidable_of_iff' _ (Iff.of_eq (k0_chk1040.eq_1 v2182))
theorem k0_idx1040_inb : ∀ (v2182 : IVec S16 32) (k0_hw1040 : k0_chk1040 v2182), ∀ a x, ((![v2182] : Fin 1 → IVec S16 32) a x).toNat < S32768.size a := fun v2182 k0_hw1040 => k0_hw1040

def k0_chk1041 (v2186 : IVec S16 32) : Prop :=
  (∀ a x, ((![v2186] : Fin 1 → IVec S16 32) a x).toNat < S32768.size a)
instance k0_chk1041.dec : ∀ (v2186 : IVec S16 32), Decidable (k0_chk1041 v2186) := fun v2186 => decidable_of_iff' _ (Iff.of_eq (k0_chk1041.eq_1 v2186))
theorem k0_idx1041_inb : ∀ (v2186 : IVec S16 32) (k0_hw1041 : k0_chk1041 v2186), ∀ a x, ((![v2186] : Fin 1 → IVec S16 32) a x).toNat < S32768.size a := fun v2186 k0_hw1041 => k0_hw1041

def k0_chk1042 (v2190 : IVec S16 32) : Prop :=
  (∀ a x, ((![v2190] : Fin 1 → IVec S16 32) a x).toNat < S32768.size a)
instance k0_chk1042.dec : ∀ (v2190 : IVec S16 32), Decidable (k0_chk1042 v2190) := fun v2190 => decidable_of_iff' _ (Iff.of_eq (k0_chk1042.eq_1 v2190))
theorem k0_idx1042_inb : ∀ (v2190 : IVec S16 32) (k0_hw1042 : k0_chk1042 v2190), ∀ a x, ((![v2190] : Fin 1 → IVec S16 32) a x).toNat < S32768.size a := fun v2190 k0_hw1042 => k0_hw1042

def k0_chk1043 (v2194 : IVec S16 32) : Prop :=
  (∀ a x, ((![v2194] : Fin 1 → IVec S16 32) a x).toNat < S32768.size a)
instance k0_chk1043.dec : ∀ (v2194 : IVec S16 32), Decidable (k0_chk1043 v2194) := fun v2194 => decidable_of_iff' _ (Iff.of_eq (k0_chk1043.eq_1 v2194))
theorem k0_idx1043_inb : ∀ (v2194 : IVec S16 32) (k0_hw1043 : k0_chk1043 v2194), ∀ a x, ((![v2194] : Fin 1 → IVec S16 32) a x).toNat < S32768.size a := fun v2194 k0_hw1043 => k0_hw1043

def k0_chk1044 (v2198 : IVec S16 32) : Prop :=
  (∀ a x, ((![v2198] : Fin 1 → IVec S16 32) a x).toNat < S32768.size a)
instance k0_chk1044.dec : ∀ (v2198 : IVec S16 32), Decidable (k0_chk1044 v2198) := fun v2198 => decidable_of_iff' _ (Iff.of_eq (k0_chk1044.eq_1 v2198))
theorem k0_idx1044_inb : ∀ (v2198 : IVec S16 32) (k0_hw1044 : k0_chk1044 v2198), ∀ a x, ((![v2198] : Fin 1 → IVec S16 32) a x).toNat < S32768.size a := fun v2198 k0_hw1044 => k0_hw1044

def k0_chk1045 (v2202 : IVec S16 32) : Prop :=
  (∀ a x, ((![v2202] : Fin 1 → IVec S16 32) a x).toNat < S32768.size a)
instance k0_chk1045.dec : ∀ (v2202 : IVec S16 32), Decidable (k0_chk1045 v2202) := fun v2202 => decidable_of_iff' _ (Iff.of_eq (k0_chk1045.eq_1 v2202))
theorem k0_idx1045_inb : ∀ (v2202 : IVec S16 32) (k0_hw1045 : k0_chk1045 v2202), ∀ a x, ((![v2202] : Fin 1 → IVec S16 32) a x).toNat < S32768.size a := fun v2202 k0_hw1045 => k0_hw1045

def k0_chk1046 (v2206 : IVec S16 32) : Prop :=
  (∀ a x, ((![v2206] : Fin 1 → IVec S16 32) a x).toNat < S32768.size a)
instance k0_chk1046.dec : ∀ (v2206 : IVec S16 32), Decidable (k0_chk1046 v2206) := fun v2206 => decidable_of_iff' _ (Iff.of_eq (k0_chk1046.eq_1 v2206))
theorem k0_idx1046_inb : ∀ (v2206 : IVec S16 32) (k0_hw1046 : k0_chk1046 v2206), ∀ a x, ((![v2206] : Fin 1 → IVec S16 32) a x).toNat < S32768.size a := fun v2206 k0_hw1046 => k0_hw1046

def k0_chk1047 (v2210 : IVec S16 32) : Prop :=
  (∀ a x, ((![v2210] : Fin 1 → IVec S16 32) a x).toNat < S32768.size a)
instance k0_chk1047.dec : ∀ (v2210 : IVec S16 32), Decidable (k0_chk1047 v2210) := fun v2210 => decidable_of_iff' _ (Iff.of_eq (k0_chk1047.eq_1 v2210))
theorem k0_idx1047_inb : ∀ (v2210 : IVec S16 32) (k0_hw1047 : k0_chk1047 v2210), ∀ a x, ((![v2210] : Fin 1 → IVec S16 32) a x).toNat < S32768.size a := fun v2210 k0_hw1047 => k0_hw1047

def k0_chk1048 (v2214 : IVec S16 32) : Prop :=
  (∀ a x, ((![v2214] : Fin 1 → IVec S16 32) a x).toNat < S32768.size a)
instance k0_chk1048.dec : ∀ (v2214 : IVec S16 32), Decidable (k0_chk1048 v2214) := fun v2214 => decidable_of_iff' _ (Iff.of_eq (k0_chk1048.eq_1 v2214))
theorem k0_idx1048_inb : ∀ (v2214 : IVec S16 32) (k0_hw1048 : k0_chk1048 v2214), ∀ a x, ((![v2214] : Fin 1 → IVec S16 32) a x).toNat < S32768.size a := fun v2214 k0_hw1048 => k0_hw1048

def k0_chk1049 (v2218 : IVec S16 32) : Prop :=
  (∀ a x, ((![v2218] : Fin 1 → IVec S16 32) a x).toNat < S32768.size a)
instance k0_chk1049.dec : ∀ (v2218 : IVec S16 32), Decidable (k0_chk1049 v2218) := fun v2218 => decidable_of_iff' _ (Iff.of_eq (k0_chk1049.eq_1 v2218))
theorem k0_idx1049_inb : ∀ (v2218 : IVec S16 32) (k0_hw1049 : k0_chk1049 v2218), ∀ a x, ((![v2218] : Fin 1 → IVec S16 32) a x).toNat < S32768.size a := fun v2218 k0_hw1049 => k0_hw1049

def k0_chk1050 (v2222 : IVec S16 32) : Prop :=
  (∀ a x, ((![v2222] : Fin 1 → IVec S16 32) a x).toNat < S32768.size a)
instance k0_chk1050.dec : ∀ (v2222 : IVec S16 32), Decidable (k0_chk1050 v2222) := fun v2222 => decidable_of_iff' _ (Iff.of_eq (k0_chk1050.eq_1 v2222))
theorem k0_idx1050_inb : ∀ (v2222 : IVec S16 32) (k0_hw1050 : k0_chk1050 v2222), ∀ a x, ((![v2222] : Fin 1 → IVec S16 32) a x).toNat < S32768.size a := fun v2222 k0_hw1050 => k0_hw1050

def k0_chk1051 (v2226 : IVec S16 32) : Prop :=
  (∀ a x, ((![v2226] : Fin 1 → IVec S16 32) a x).toNat < S32768.size a)
instance k0_chk1051.dec : ∀ (v2226 : IVec S16 32), Decidable (k0_chk1051 v2226) := fun v2226 => decidable_of_iff' _ (Iff.of_eq (k0_chk1051.eq_1 v2226))
theorem k0_idx1051_inb : ∀ (v2226 : IVec S16 32) (k0_hw1051 : k0_chk1051 v2226), ∀ a x, ((![v2226] : Fin 1 → IVec S16 32) a x).toNat < S32768.size a := fun v2226 k0_hw1051 => k0_hw1051

def k0_chk1052 (v2230 : IVec S16 32) : Prop :=
  (∀ a x, ((![v2230] : Fin 1 → IVec S16 32) a x).toNat < S32768.size a)
instance k0_chk1052.dec : ∀ (v2230 : IVec S16 32), Decidable (k0_chk1052 v2230) := fun v2230 => decidable_of_iff' _ (Iff.of_eq (k0_chk1052.eq_1 v2230))
theorem k0_idx1052_inb : ∀ (v2230 : IVec S16 32) (k0_hw1052 : k0_chk1052 v2230), ∀ a x, ((![v2230] : Fin 1 → IVec S16 32) a x).toNat < S32768.size a := fun v2230 k0_hw1052 => k0_hw1052

def k0_chk1053 (v2234 : IVec S16 32) : Prop :=
  (∀ a x, ((![v2234] : Fin 1 → IVec S16 32) a x).toNat < S32768.size a)
instance k0_chk1053.dec : ∀ (v2234 : IVec S16 32), Decidable (k0_chk1053 v2234) := fun v2234 => decidable_of_iff' _ (Iff.of_eq (k0_chk1053.eq_1 v2234))
theorem k0_idx1053_inb : ∀ (v2234 : IVec S16 32) (k0_hw1053 : k0_chk1053 v2234), ∀ a x, ((![v2234] : Fin 1 → IVec S16 32) a x).toNat < S32768.size a := fun v2234 k0_hw1053 => k0_hw1053

def k0_chk1054 (v2238 : IVec S16 32) : Prop :=
  (∀ a x, ((![v2238] : Fin 1 → IVec S16 32) a x).toNat < S32768.size a)
instance k0_chk1054.dec : ∀ (v2238 : IVec S16 32), Decidable (k0_chk1054 v2238) := fun v2238 => decidable_of_iff' _ (Iff.of_eq (k0_chk1054.eq_1 v2238))
theorem k0_idx1054_inb : ∀ (v2238 : IVec S16 32) (k0_hw1054 : k0_chk1054 v2238), ∀ a x, ((![v2238] : Fin 1 → IVec S16 32) a x).toNat < S32768.size a := fun v2238 k0_hw1054 => k0_hw1054

def k0_chk1055 (v2242 : IVec S16 32) : Prop :=
  (∀ a x, ((![v2242] : Fin 1 → IVec S16 32) a x).toNat < S32768.size a)
instance k0_chk1055.dec : ∀ (v2242 : IVec S16 32), Decidable (k0_chk1055 v2242) := fun v2242 => decidable_of_iff' _ (Iff.of_eq (k0_chk1055.eq_1 v2242))
theorem k0_idx1055_inb : ∀ (v2242 : IVec S16 32) (k0_hw1055 : k0_chk1055 v2242), ∀ a x, ((![v2242] : Fin 1 → IVec S16 32) a x).toNat < S32768.size a := fun v2242 k0_hw1055 => k0_hw1055

def k0_chk1056 (v2246 : IVec S16 32) : Prop :=
  (∀ a x, ((![v2246] : Fin 1 → IVec S16 32) a x).toNat < S32768.size a)
instance k0_chk1056.dec : ∀ (v2246 : IVec S16 32), Decidable (k0_chk1056 v2246) := fun v2246 => decidable_of_iff' _ (Iff.of_eq (k0_chk1056.eq_1 v2246))
theorem k0_idx1056_inb : ∀ (v2246 : IVec S16 32) (k0_hw1056 : k0_chk1056 v2246), ∀ a x, ((![v2246] : Fin 1 → IVec S16 32) a x).toNat < S32768.size a := fun v2246 k0_hw1056 => k0_hw1056

def k0_chk1057 (v2250 : IVec S16 32) : Prop :=
  (∀ a x, ((![v2250] : Fin 1 → IVec S16 32) a x).toNat < S32768.size a)
instance k0_chk1057.dec : ∀ (v2250 : IVec S16 32), Decidable (k0_chk1057 v2250) := fun v2250 => decidable_of_iff' _ (Iff.of_eq (k0_chk1057.eq_1 v2250))
theorem k0_idx1057_inb : ∀ (v2250 : IVec S16 32) (k0_hw1057 : k0_chk1057 v2250), ∀ a x, ((![v2250] : Fin 1 → IVec S16 32) a x).toNat < S32768.size a := fun v2250 k0_hw1057 => k0_hw1057

def k0_chk1058 (v2254 : IVec S16 32) : Prop :=
  (∀ a x, ((![v2254] : Fin 1 → IVec S16 32) a x).toNat < S32768.size a)
instance k0_chk1058.dec : ∀ (v2254 : IVec S16 32), Decidable (k0_chk1058 v2254) := fun v2254 => decidable_of_iff' _ (Iff.of_eq (k0_chk1058.eq_1 v2254))
theorem k0_idx1058_inb : ∀ (v2254 : IVec S16 32) (k0_hw1058 : k0_chk1058 v2254), ∀ a x, ((![v2254] : Fin 1 → IVec S16 32) a x).toNat < S32768.size a := fun v2254 k0_hw1058 => k0_hw1058

def k0_chk1059 (v2258 : IVec S16 32) : Prop :=
  (∀ a x, ((![v2258] : Fin 1 → IVec S16 32) a x).toNat < S32768.size a)
instance k0_chk1059.dec : ∀ (v2258 : IVec S16 32), Decidable (k0_chk1059 v2258) := fun v2258 => decidable_of_iff' _ (Iff.of_eq (k0_chk1059.eq_1 v2258))
theorem k0_idx1059_inb : ∀ (v2258 : IVec S16 32) (k0_hw1059 : k0_chk1059 v2258), ∀ a x, ((![v2258] : Fin 1 → IVec S16 32) a x).toNat < S32768.size a := fun v2258 k0_hw1059 => k0_hw1059

def k0_chk1060 (v2262 : IVec S16 32) : Prop :=
  (∀ a x, ((![v2262] : Fin 1 → IVec S16 32) a x).toNat < S32768.size a)
instance k0_chk1060.dec : ∀ (v2262 : IVec S16 32), Decidable (k0_chk1060 v2262) := fun v2262 => decidable_of_iff' _ (Iff.of_eq (k0_chk1060.eq_1 v2262))
theorem k0_idx1060_inb : ∀ (v2262 : IVec S16 32) (k0_hw1060 : k0_chk1060 v2262), ∀ a x, ((![v2262] : Fin 1 → IVec S16 32) a x).toNat < S32768.size a := fun v2262 k0_hw1060 => k0_hw1060

def k0_chk1061 (v2266 : IVec S16 32) : Prop :=
  (∀ a x, ((![v2266] : Fin 1 → IVec S16 32) a x).toNat < S32768.size a)
instance k0_chk1061.dec : ∀ (v2266 : IVec S16 32), Decidable (k0_chk1061 v2266) := fun v2266 => decidable_of_iff' _ (Iff.of_eq (k0_chk1061.eq_1 v2266))
theorem k0_idx1061_inb : ∀ (v2266 : IVec S16 32) (k0_hw1061 : k0_chk1061 v2266), ∀ a x, ((![v2266] : Fin 1 → IVec S16 32) a x).toNat < S32768.size a := fun v2266 k0_hw1061 => k0_hw1061

def k0_chk1062 (v2270 : IVec S16 32) : Prop :=
  (∀ a x, ((![v2270] : Fin 1 → IVec S16 32) a x).toNat < S32768.size a)
instance k0_chk1062.dec : ∀ (v2270 : IVec S16 32), Decidable (k0_chk1062 v2270) := fun v2270 => decidable_of_iff' _ (Iff.of_eq (k0_chk1062.eq_1 v2270))
theorem k0_idx1062_inb : ∀ (v2270 : IVec S16 32) (k0_hw1062 : k0_chk1062 v2270), ∀ a x, ((![v2270] : Fin 1 → IVec S16 32) a x).toNat < S32768.size a := fun v2270 k0_hw1062 => k0_hw1062

def k0_chk1063 (v2274 : IVec S16 32) : Prop :=
  (∀ a x, ((![v2274] : Fin 1 → IVec S16 32) a x).toNat < S32768.size a)
instance k0_chk1063.dec : ∀ (v2274 : IVec S16 32), Decidable (k0_chk1063 v2274) := fun v2274 => decidable_of_iff' _ (Iff.of_eq (k0_chk1063.eq_1 v2274))
theorem k0_idx1063_inb : ∀ (v2274 : IVec S16 32) (k0_hw1063 : k0_chk1063 v2274), ∀ a x, ((![v2274] : Fin 1 → IVec S16 32) a x).toNat < S32768.size a := fun v2274 k0_hw1063 => k0_hw1063

def k0_chk1064 (v2278 : IVec S16 32) : Prop :=
  (∀ a x, ((![v2278] : Fin 1 → IVec S16 32) a x).toNat < S32768.size a)
instance k0_chk1064.dec : ∀ (v2278 : IVec S16 32), Decidable (k0_chk1064 v2278) := fun v2278 => decidable_of_iff' _ (Iff.of_eq (k0_chk1064.eq_1 v2278))
theorem k0_idx1064_inb : ∀ (v2278 : IVec S16 32) (k0_hw1064 : k0_chk1064 v2278), ∀ a x, ((![v2278] : Fin 1 → IVec S16 32) a x).toNat < S32768.size a := fun v2278 k0_hw1064 => k0_hw1064

def k0_chk1065 (v2282 : IVec S16 32) : Prop :=
  (∀ a x, ((![v2282] : Fin 1 → IVec S16 32) a x).toNat < S32768.size a)
instance k0_chk1065.dec : ∀ (v2282 : IVec S16 32), Decidable (k0_chk1065 v2282) := fun v2282 => decidable_of_iff' _ (Iff.of_eq (k0_chk1065.eq_1 v2282))
theorem k0_idx1065_inb : ∀ (v2282 : IVec S16 32) (k0_hw1065 : k0_chk1065 v2282), ∀ a x, ((![v2282] : Fin 1 → IVec S16 32) a x).toNat < S32768.size a := fun v2282 k0_hw1065 => k0_hw1065

def k0_chk1066 (v2286 : IVec S16 32) : Prop :=
  (∀ a x, ((![v2286] : Fin 1 → IVec S16 32) a x).toNat < S32768.size a)
instance k0_chk1066.dec : ∀ (v2286 : IVec S16 32), Decidable (k0_chk1066 v2286) := fun v2286 => decidable_of_iff' _ (Iff.of_eq (k0_chk1066.eq_1 v2286))
theorem k0_idx1066_inb : ∀ (v2286 : IVec S16 32) (k0_hw1066 : k0_chk1066 v2286), ∀ a x, ((![v2286] : Fin 1 → IVec S16 32) a x).toNat < S32768.size a := fun v2286 k0_hw1066 => k0_hw1066

def k0_chk1067 (v2290 : IVec S16 32) : Prop :=
  (∀ a x, ((![v2290] : Fin 1 → IVec S16 32) a x).toNat < S32768.size a)
instance k0_chk1067.dec : ∀ (v2290 : IVec S16 32), Decidable (k0_chk1067 v2290) := fun v2290 => decidable_of_iff' _ (Iff.of_eq (k0_chk1067.eq_1 v2290))
theorem k0_idx1067_inb : ∀ (v2290 : IVec S16 32) (k0_hw1067 : k0_chk1067 v2290), ∀ a x, ((![v2290] : Fin 1 → IVec S16 32) a x).toNat < S32768.size a := fun v2290 k0_hw1067 => k0_hw1067

def k0_chk1068 (v2294 : IVec S16 32) : Prop :=
  (∀ a x, ((![v2294] : Fin 1 → IVec S16 32) a x).toNat < S32768.size a)
instance k0_chk1068.dec : ∀ (v2294 : IVec S16 32), Decidable (k0_chk1068 v2294) := fun v2294 => decidable_of_iff' _ (Iff.of_eq (k0_chk1068.eq_1 v2294))
theorem k0_idx1068_inb : ∀ (v2294 : IVec S16 32) (k0_hw1068 : k0_chk1068 v2294), ∀ a x, ((![v2294] : Fin 1 → IVec S16 32) a x).toNat < S32768.size a := fun v2294 k0_hw1068 => k0_hw1068

def k0_chk1069 (v2298 : IVec S16 32) : Prop :=
  (∀ a x, ((![v2298] : Fin 1 → IVec S16 32) a x).toNat < S32768.size a)
instance k0_chk1069.dec : ∀ (v2298 : IVec S16 32), Decidable (k0_chk1069 v2298) := fun v2298 => decidable_of_iff' _ (Iff.of_eq (k0_chk1069.eq_1 v2298))
theorem k0_idx1069_inb : ∀ (v2298 : IVec S16 32) (k0_hw1069 : k0_chk1069 v2298), ∀ a x, ((![v2298] : Fin 1 → IVec S16 32) a x).toNat < S32768.size a := fun v2298 k0_hw1069 => k0_hw1069

def k0_chk1070 (v2302 : IVec S16 32) : Prop :=
  (∀ a x, ((![v2302] : Fin 1 → IVec S16 32) a x).toNat < S32768.size a)
instance k0_chk1070.dec : ∀ (v2302 : IVec S16 32), Decidable (k0_chk1070 v2302) := fun v2302 => decidable_of_iff' _ (Iff.of_eq (k0_chk1070.eq_1 v2302))
theorem k0_idx1070_inb : ∀ (v2302 : IVec S16 32) (k0_hw1070 : k0_chk1070 v2302), ∀ a x, ((![v2302] : Fin 1 → IVec S16 32) a x).toNat < S32768.size a := fun v2302 k0_hw1070 => k0_hw1070

def k0_chk1071 (v2306 : IVec S16 32) : Prop :=
  (∀ a x, ((![v2306] : Fin 1 → IVec S16 32) a x).toNat < S32768.size a)
instance k0_chk1071.dec : ∀ (v2306 : IVec S16 32), Decidable (k0_chk1071 v2306) := fun v2306 => decidable_of_iff' _ (Iff.of_eq (k0_chk1071.eq_1 v2306))
theorem k0_idx1071_inb : ∀ (v2306 : IVec S16 32) (k0_hw1071 : k0_chk1071 v2306), ∀ a x, ((![v2306] : Fin 1 → IVec S16 32) a x).toNat < S32768.size a := fun v2306 k0_hw1071 => k0_hw1071

def k0_chk1072 (v2310 : IVec S16 32) : Prop :=
  (∀ a x, ((![v2310] : Fin 1 → IVec S16 32) a x).toNat < S32768.size a)
instance k0_chk1072.dec : ∀ (v2310 : IVec S16 32), Decidable (k0_chk1072 v2310) := fun v2310 => decidable_of_iff' _ (Iff.of_eq (k0_chk1072.eq_1 v2310))
theorem k0_idx1072_inb : ∀ (v2310 : IVec S16 32) (k0_hw1072 : k0_chk1072 v2310), ∀ a x, ((![v2310] : Fin 1 → IVec S16 32) a x).toNat < S32768.size a := fun v2310 k0_hw1072 => k0_hw1072

def k0_chk1073 (v2314 : IVec S16 32) : Prop :=
  (∀ a x, ((![v2314] : Fin 1 → IVec S16 32) a x).toNat < S32768.size a)
instance k0_chk1073.dec : ∀ (v2314 : IVec S16 32), Decidable (k0_chk1073 v2314) := fun v2314 => decidable_of_iff' _ (Iff.of_eq (k0_chk1073.eq_1 v2314))
theorem k0_idx1073_inb : ∀ (v2314 : IVec S16 32) (k0_hw1073 : k0_chk1073 v2314), ∀ a x, ((![v2314] : Fin 1 → IVec S16 32) a x).toNat < S32768.size a := fun v2314 k0_hw1073 => k0_hw1073

def k0_chk1074 (v2318 : IVec S16 32) : Prop :=
  (∀ a x, ((![v2318] : Fin 1 → IVec S16 32) a x).toNat < S32768.size a)
instance k0_chk1074.dec : ∀ (v2318 : IVec S16 32), Decidable (k0_chk1074 v2318) := fun v2318 => decidable_of_iff' _ (Iff.of_eq (k0_chk1074.eq_1 v2318))
theorem k0_idx1074_inb : ∀ (v2318 : IVec S16 32) (k0_hw1074 : k0_chk1074 v2318), ∀ a x, ((![v2318] : Fin 1 → IVec S16 32) a x).toNat < S32768.size a := fun v2318 k0_hw1074 => k0_hw1074

def k0_chk1075 (v2322 : IVec S16 32) : Prop :=
  (∀ a x, ((![v2322] : Fin 1 → IVec S16 32) a x).toNat < S32768.size a)
instance k0_chk1075.dec : ∀ (v2322 : IVec S16 32), Decidable (k0_chk1075 v2322) := fun v2322 => decidable_of_iff' _ (Iff.of_eq (k0_chk1075.eq_1 v2322))
theorem k0_idx1075_inb : ∀ (v2322 : IVec S16 32) (k0_hw1075 : k0_chk1075 v2322), ∀ a x, ((![v2322] : Fin 1 → IVec S16 32) a x).toNat < S32768.size a := fun v2322 k0_hw1075 => k0_hw1075

def k0_chk1076 (v2326 : IVec S16 32) : Prop :=
  (∀ a x, ((![v2326] : Fin 1 → IVec S16 32) a x).toNat < S32768.size a)
instance k0_chk1076.dec : ∀ (v2326 : IVec S16 32), Decidable (k0_chk1076 v2326) := fun v2326 => decidable_of_iff' _ (Iff.of_eq (k0_chk1076.eq_1 v2326))
theorem k0_idx1076_inb : ∀ (v2326 : IVec S16 32) (k0_hw1076 : k0_chk1076 v2326), ∀ a x, ((![v2326] : Fin 1 → IVec S16 32) a x).toNat < S32768.size a := fun v2326 k0_hw1076 => k0_hw1076

def k0_chk1077 (v2330 : IVec S16 32) : Prop :=
  (∀ a x, ((![v2330] : Fin 1 → IVec S16 32) a x).toNat < S32768.size a)
instance k0_chk1077.dec : ∀ (v2330 : IVec S16 32), Decidable (k0_chk1077 v2330) := fun v2330 => decidable_of_iff' _ (Iff.of_eq (k0_chk1077.eq_1 v2330))
theorem k0_idx1077_inb : ∀ (v2330 : IVec S16 32) (k0_hw1077 : k0_chk1077 v2330), ∀ a x, ((![v2330] : Fin 1 → IVec S16 32) a x).toNat < S32768.size a := fun v2330 k0_hw1077 => k0_hw1077

def k0_chk1078 (v2334 : IVec S16 32) : Prop :=
  (∀ a x, ((![v2334] : Fin 1 → IVec S16 32) a x).toNat < S32768.size a)
instance k0_chk1078.dec : ∀ (v2334 : IVec S16 32), Decidable (k0_chk1078 v2334) := fun v2334 => decidable_of_iff' _ (Iff.of_eq (k0_chk1078.eq_1 v2334))
theorem k0_idx1078_inb : ∀ (v2334 : IVec S16 32) (k0_hw1078 : k0_chk1078 v2334), ∀ a x, ((![v2334] : Fin 1 → IVec S16 32) a x).toNat < S32768.size a := fun v2334 k0_hw1078 => k0_hw1078

def k0_chk1079 (v2338 : IVec S16 32) : Prop :=
  (∀ a x, ((![v2338] : Fin 1 → IVec S16 32) a x).toNat < S32768.size a)
instance k0_chk1079.dec : ∀ (v2338 : IVec S16 32), Decidable (k0_chk1079 v2338) := fun v2338 => decidable_of_iff' _ (Iff.of_eq (k0_chk1079.eq_1 v2338))
theorem k0_idx1079_inb : ∀ (v2338 : IVec S16 32) (k0_hw1079 : k0_chk1079 v2338), ∀ a x, ((![v2338] : Fin 1 → IVec S16 32) a x).toNat < S32768.size a := fun v2338 k0_hw1079 => k0_hw1079

def k0_chk1080 (v2342 : IVec S16 32) : Prop :=
  (∀ a x, ((![v2342] : Fin 1 → IVec S16 32) a x).toNat < S32768.size a)
instance k0_chk1080.dec : ∀ (v2342 : IVec S16 32), Decidable (k0_chk1080 v2342) := fun v2342 => decidable_of_iff' _ (Iff.of_eq (k0_chk1080.eq_1 v2342))
theorem k0_idx1080_inb : ∀ (v2342 : IVec S16 32) (k0_hw1080 : k0_chk1080 v2342), ∀ a x, ((![v2342] : Fin 1 → IVec S16 32) a x).toNat < S32768.size a := fun v2342 k0_hw1080 => k0_hw1080

def k0_chk1081 (v2346 : IVec S16 32) : Prop :=
  (∀ a x, ((![v2346] : Fin 1 → IVec S16 32) a x).toNat < S32768.size a)
instance k0_chk1081.dec : ∀ (v2346 : IVec S16 32), Decidable (k0_chk1081 v2346) := fun v2346 => decidable_of_iff' _ (Iff.of_eq (k0_chk1081.eq_1 v2346))
theorem k0_idx1081_inb : ∀ (v2346 : IVec S16 32) (k0_hw1081 : k0_chk1081 v2346), ∀ a x, ((![v2346] : Fin 1 → IVec S16 32) a x).toNat < S32768.size a := fun v2346 k0_hw1081 => k0_hw1081

def k0_chk1082 (v2350 : IVec S16 32) : Prop :=
  (∀ a x, ((![v2350] : Fin 1 → IVec S16 32) a x).toNat < S32768.size a)
instance k0_chk1082.dec : ∀ (v2350 : IVec S16 32), Decidable (k0_chk1082 v2350) := fun v2350 => decidable_of_iff' _ (Iff.of_eq (k0_chk1082.eq_1 v2350))
theorem k0_idx1082_inb : ∀ (v2350 : IVec S16 32) (k0_hw1082 : k0_chk1082 v2350), ∀ a x, ((![v2350] : Fin 1 → IVec S16 32) a x).toNat < S32768.size a := fun v2350 k0_hw1082 => k0_hw1082

def k0_chk1083 (v2354 : IVec S16 32) : Prop :=
  (∀ a x, ((![v2354] : Fin 1 → IVec S16 32) a x).toNat < S32768.size a)
instance k0_chk1083.dec : ∀ (v2354 : IVec S16 32), Decidable (k0_chk1083 v2354) := fun v2354 => decidable_of_iff' _ (Iff.of_eq (k0_chk1083.eq_1 v2354))
theorem k0_idx1083_inb : ∀ (v2354 : IVec S16 32) (k0_hw1083 : k0_chk1083 v2354), ∀ a x, ((![v2354] : Fin 1 → IVec S16 32) a x).toNat < S32768.size a := fun v2354 k0_hw1083 => k0_hw1083

def k0_chk1084 (v2358 : IVec S16 32) : Prop :=
  (∀ a x, ((![v2358] : Fin 1 → IVec S16 32) a x).toNat < S32768.size a)
instance k0_chk1084.dec : ∀ (v2358 : IVec S16 32), Decidable (k0_chk1084 v2358) := fun v2358 => decidable_of_iff' _ (Iff.of_eq (k0_chk1084.eq_1 v2358))
theorem k0_idx1084_inb : ∀ (v2358 : IVec S16 32) (k0_hw1084 : k0_chk1084 v2358), ∀ a x, ((![v2358] : Fin 1 → IVec S16 32) a x).toNat < S32768.size a := fun v2358 k0_hw1084 => k0_hw1084

def k0_chk1085 (v2362 : IVec S16 32) : Prop :=
  (∀ a x, ((![v2362] : Fin 1 → IVec S16 32) a x).toNat < S32768.size a)
instance k0_chk1085.dec : ∀ (v2362 : IVec S16 32), Decidable (k0_chk1085 v2362) := fun v2362 => decidable_of_iff' _ (Iff.of_eq (k0_chk1085.eq_1 v2362))
theorem k0_idx1085_inb : ∀ (v2362 : IVec S16 32) (k0_hw1085 : k0_chk1085 v2362), ∀ a x, ((![v2362] : Fin 1 → IVec S16 32) a x).toNat < S32768.size a := fun v2362 k0_hw1085 => k0_hw1085

def k0_chk1086 (v2366 : IVec S16 32) : Prop :=
  (∀ a x, ((![v2366] : Fin 1 → IVec S16 32) a x).toNat < S32768.size a)
instance k0_chk1086.dec : ∀ (v2366 : IVec S16 32), Decidable (k0_chk1086 v2366) := fun v2366 => decidable_of_iff' _ (Iff.of_eq (k0_chk1086.eq_1 v2366))
theorem k0_idx1086_inb : ∀ (v2366 : IVec S16 32) (k0_hw1086 : k0_chk1086 v2366), ∀ a x, ((![v2366] : Fin 1 → IVec S16 32) a x).toNat < S32768.size a := fun v2366 k0_hw1086 => k0_hw1086

def k0_chk1087 (v2370 : IVec S16 32) : Prop :=
  (∀ a x, ((![v2370] : Fin 1 → IVec S16 32) a x).toNat < S32768.size a)
instance k0_chk1087.dec : ∀ (v2370 : IVec S16 32), Decidable (k0_chk1087 v2370) := fun v2370 => decidable_of_iff' _ (Iff.of_eq (k0_chk1087.eq_1 v2370))
theorem k0_idx1087_inb : ∀ (v2370 : IVec S16 32) (k0_hw1087 : k0_chk1087 v2370), ∀ a x, ((![v2370] : Fin 1 → IVec S16 32) a x).toNat < S32768.size a := fun v2370 k0_hw1087 => k0_hw1087

def k0_chk1088 (v2374 : IVec S16 32) : Prop :=
  (∀ a x, ((![v2374] : Fin 1 → IVec S16 32) a x).toNat < S32768.size a)
instance k0_chk1088.dec : ∀ (v2374 : IVec S16 32), Decidable (k0_chk1088 v2374) := fun v2374 => decidable_of_iff' _ (Iff.of_eq (k0_chk1088.eq_1 v2374))
theorem k0_idx1088_inb : ∀ (v2374 : IVec S16 32) (k0_hw1088 : k0_chk1088 v2374), ∀ a x, ((![v2374] : Fin 1 → IVec S16 32) a x).toNat < S32768.size a := fun v2374 k0_hw1088 => k0_hw1088

def k0_chk1089 (v2378 : IVec S16 32) : Prop :=
  (∀ a x, ((![v2378] : Fin 1 → IVec S16 32) a x).toNat < S32768.size a)
instance k0_chk1089.dec : ∀ (v2378 : IVec S16 32), Decidable (k0_chk1089 v2378) := fun v2378 => decidable_of_iff' _ (Iff.of_eq (k0_chk1089.eq_1 v2378))
theorem k0_idx1089_inb : ∀ (v2378 : IVec S16 32) (k0_hw1089 : k0_chk1089 v2378), ∀ a x, ((![v2378] : Fin 1 → IVec S16 32) a x).toNat < S32768.size a := fun v2378 k0_hw1089 => k0_hw1089

def k0_chk1090 (v2382 : IVec S16 32) : Prop :=
  (∀ a x, ((![v2382] : Fin 1 → IVec S16 32) a x).toNat < S32768.size a)
instance k0_chk1090.dec : ∀ (v2382 : IVec S16 32), Decidable (k0_chk1090 v2382) := fun v2382 => decidable_of_iff' _ (Iff.of_eq (k0_chk1090.eq_1 v2382))
theorem k0_idx1090_inb : ∀ (v2382 : IVec S16 32) (k0_hw1090 : k0_chk1090 v2382), ∀ a x, ((![v2382] : Fin 1 → IVec S16 32) a x).toNat < S32768.size a := fun v2382 k0_hw1090 => k0_hw1090

def k0_chk1091 (v2386 : IVec S16 32) : Prop :=
  (∀ a x, ((![v2386] : Fin 1 → IVec S16 32) a x).toNat < S32768.size a)
instance k0_chk1091.dec : ∀ (v2386 : IVec S16 32), Decidable (k0_chk1091 v2386) := fun v2386 => decidable_of_iff' _ (Iff.of_eq (k0_chk1091.eq_1 v2386))
theorem k0_idx1091_inb : ∀ (v2386 : IVec S16 32) (k0_hw1091 : k0_chk1091 v2386), ∀ a x, ((![v2386] : Fin 1 → IVec S16 32) a x).toNat < S32768.size a := fun v2386 k0_hw1091 => k0_hw1091

def k0_chk1092 (v2390 : IVec S16 32) : Prop :=
  (∀ a x, ((![v2390] : Fin 1 → IVec S16 32) a x).toNat < S32768.size a)
instance k0_chk1092.dec : ∀ (v2390 : IVec S16 32), Decidable (k0_chk1092 v2390) := fun v2390 => decidable_of_iff' _ (Iff.of_eq (k0_chk1092.eq_1 v2390))
theorem k0_idx1092_inb : ∀ (v2390 : IVec S16 32) (k0_hw1092 : k0_chk1092 v2390), ∀ a x, ((![v2390] : Fin 1 → IVec S16 32) a x).toNat < S32768.size a := fun v2390 k0_hw1092 => k0_hw1092

def k0_chk1093 (v2394 : IVec S16 32) : Prop :=
  (∀ a x, ((![v2394] : Fin 1 → IVec S16 32) a x).toNat < S32768.size a)
instance k0_chk1093.dec : ∀ (v2394 : IVec S16 32), Decidable (k0_chk1093 v2394) := fun v2394 => decidable_of_iff' _ (Iff.of_eq (k0_chk1093.eq_1 v2394))
theorem k0_idx1093_inb : ∀ (v2394 : IVec S16 32) (k0_hw1093 : k0_chk1093 v2394), ∀ a x, ((![v2394] : Fin 1 → IVec S16 32) a x).toNat < S32768.size a := fun v2394 k0_hw1093 => k0_hw1093

def k0_chk1094 (v2398 : IVec S16 32) : Prop :=
  (∀ a x, ((![v2398] : Fin 1 → IVec S16 32) a x).toNat < S32768.size a)
instance k0_chk1094.dec : ∀ (v2398 : IVec S16 32), Decidable (k0_chk1094 v2398) := fun v2398 => decidable_of_iff' _ (Iff.of_eq (k0_chk1094.eq_1 v2398))
theorem k0_idx1094_inb : ∀ (v2398 : IVec S16 32) (k0_hw1094 : k0_chk1094 v2398), ∀ a x, ((![v2398] : Fin 1 → IVec S16 32) a x).toNat < S32768.size a := fun v2398 k0_hw1094 => k0_hw1094

def k0_chk1095 (v2402 : IVec S16 32) : Prop :=
  (∀ a x, ((![v2402] : Fin 1 → IVec S16 32) a x).toNat < S32768.size a)
instance k0_chk1095.dec : ∀ (v2402 : IVec S16 32), Decidable (k0_chk1095 v2402) := fun v2402 => decidable_of_iff' _ (Iff.of_eq (k0_chk1095.eq_1 v2402))
theorem k0_idx1095_inb : ∀ (v2402 : IVec S16 32) (k0_hw1095 : k0_chk1095 v2402), ∀ a x, ((![v2402] : Fin 1 → IVec S16 32) a x).toNat < S32768.size a := fun v2402 k0_hw1095 => k0_hw1095

def k0_chk1096 (v2406 : IVec S16 32) : Prop :=
  (∀ a x, ((![v2406] : Fin 1 → IVec S16 32) a x).toNat < S32768.size a)
instance k0_chk1096.dec : ∀ (v2406 : IVec S16 32), Decidable (k0_chk1096 v2406) := fun v2406 => decidable_of_iff' _ (Iff.of_eq (k0_chk1096.eq_1 v2406))
theorem k0_idx1096_inb : ∀ (v2406 : IVec S16 32) (k0_hw1096 : k0_chk1096 v2406), ∀ a x, ((![v2406] : Fin 1 → IVec S16 32) a x).toNat < S32768.size a := fun v2406 k0_hw1096 => k0_hw1096

def k0_chk1097 (v2410 : IVec S16 32) : Prop :=
  (∀ a x, ((![v2410] : Fin 1 → IVec S16 32) a x).toNat < S32768.size a)
instance k0_chk1097.dec : ∀ (v2410 : IVec S16 32), Decidable (k0_chk1097 v2410) := fun v2410 => decidable_of_iff' _ (Iff.of_eq (k0_chk1097.eq_1 v2410))
theorem k0_idx1097_inb : ∀ (v2410 : IVec S16 32) (k0_hw1097 : k0_chk1097 v2410), ∀ a x, ((![v2410] : Fin 1 → IVec S16 32) a x).toNat < S32768.size a := fun v2410 k0_hw1097 => k0_hw1097

def k0_chk1098 (v2414 : IVec S16 32) : Prop :=
  (∀ a x, ((![v2414] : Fin 1 → IVec S16 32) a x).toNat < S32768.size a)
instance k0_chk1098.dec : ∀ (v2414 : IVec S16 32), Decidable (k0_chk1098 v2414) := fun v2414 => decidable_of_iff' _ (Iff.of_eq (k0_chk1098.eq_1 v2414))
theorem k0_idx1098_inb : ∀ (v2414 : IVec S16 32) (k0_hw1098 : k0_chk1098 v2414), ∀ a x, ((![v2414] : Fin 1 → IVec S16 32) a x).toNat < S32768.size a := fun v2414 k0_hw1098 => k0_hw1098

def k0_chk1099 (v2418 : IVec S16 32) : Prop :=
  (∀ a x, ((![v2418] : Fin 1 → IVec S16 32) a x).toNat < S32768.size a)
instance k0_chk1099.dec : ∀ (v2418 : IVec S16 32), Decidable (k0_chk1099 v2418) := fun v2418 => decidable_of_iff' _ (Iff.of_eq (k0_chk1099.eq_1 v2418))
theorem k0_idx1099_inb : ∀ (v2418 : IVec S16 32) (k0_hw1099 : k0_chk1099 v2418), ∀ a x, ((![v2418] : Fin 1 → IVec S16 32) a x).toNat < S32768.size a := fun v2418 k0_hw1099 => k0_hw1099

def k0_chk1100 (v2422 : IVec S16 32) : Prop :=
  (∀ a x, ((![v2422] : Fin 1 → IVec S16 32) a x).toNat < S32768.size a)
instance k0_chk1100.dec : ∀ (v2422 : IVec S16 32), Decidable (k0_chk1100 v2422) := fun v2422 => decidable_of_iff' _ (Iff.of_eq (k0_chk1100.eq_1 v2422))
theorem k0_idx1100_inb : ∀ (v2422 : IVec S16 32) (k0_hw1100 : k0_chk1100 v2422), ∀ a x, ((![v2422] : Fin 1 → IVec S16 32) a x).toNat < S32768.size a := fun v2422 k0_hw1100 => k0_hw1100

def k0_chk1101 (v2426 : IVec S16 32) : Prop :=
  (∀ a x, ((![v2426] : Fin 1 → IVec S16 32) a x).toNat < S32768.size a)
instance k0_chk1101.dec : ∀ (v2426 : IVec S16 32), Decidable (k0_chk1101 v2426) := fun v2426 => decidable_of_iff' _ (Iff.of_eq (k0_chk1101.eq_1 v2426))
theorem k0_idx1101_inb : ∀ (v2426 : IVec S16 32) (k0_hw1101 : k0_chk1101 v2426), ∀ a x, ((![v2426] : Fin 1 → IVec S16 32) a x).toNat < S32768.size a := fun v2426 k0_hw1101 => k0_hw1101

def k0_chk1102 (v2430 : IVec S16 32) : Prop :=
  (∀ a x, ((![v2430] : Fin 1 → IVec S16 32) a x).toNat < S32768.size a)
instance k0_chk1102.dec : ∀ (v2430 : IVec S16 32), Decidable (k0_chk1102 v2430) := fun v2430 => decidable_of_iff' _ (Iff.of_eq (k0_chk1102.eq_1 v2430))
theorem k0_idx1102_inb : ∀ (v2430 : IVec S16 32) (k0_hw1102 : k0_chk1102 v2430), ∀ a x, ((![v2430] : Fin 1 → IVec S16 32) a x).toNat < S32768.size a := fun v2430 k0_hw1102 => k0_hw1102

def k0_chk1103 (v2434 : IVec S16 32) : Prop :=
  (∀ a x, ((![v2434] : Fin 1 → IVec S16 32) a x).toNat < S32768.size a)
instance k0_chk1103.dec : ∀ (v2434 : IVec S16 32), Decidable (k0_chk1103 v2434) := fun v2434 => decidable_of_iff' _ (Iff.of_eq (k0_chk1103.eq_1 v2434))
theorem k0_idx1103_inb : ∀ (v2434 : IVec S16 32) (k0_hw1103 : k0_chk1103 v2434), ∀ a x, ((![v2434] : Fin 1 → IVec S16 32) a x).toNat < S32768.size a := fun v2434 k0_hw1103 => k0_hw1103

def k0_chk1104 (v2438 : IVec S16 32) : Prop :=
  (∀ a x, ((![v2438] : Fin 1 → IVec S16 32) a x).toNat < S32768.size a)
instance k0_chk1104.dec : ∀ (v2438 : IVec S16 32), Decidable (k0_chk1104 v2438) := fun v2438 => decidable_of_iff' _ (Iff.of_eq (k0_chk1104.eq_1 v2438))
theorem k0_idx1104_inb : ∀ (v2438 : IVec S16 32) (k0_hw1104 : k0_chk1104 v2438), ∀ a x, ((![v2438] : Fin 1 → IVec S16 32) a x).toNat < S32768.size a := fun v2438 k0_hw1104 => k0_hw1104

def k0_chk1105 (v2442 : IVec S16 32) : Prop :=
  (∀ a x, ((![v2442] : Fin 1 → IVec S16 32) a x).toNat < S32768.size a)
instance k0_chk1105.dec : ∀ (v2442 : IVec S16 32), Decidable (k0_chk1105 v2442) := fun v2442 => decidable_of_iff' _ (Iff.of_eq (k0_chk1105.eq_1 v2442))
theorem k0_idx1105_inb : ∀ (v2442 : IVec S16 32) (k0_hw1105 : k0_chk1105 v2442), ∀ a x, ((![v2442] : Fin 1 → IVec S16 32) a x).toNat < S32768.size a := fun v2442 k0_hw1105 => k0_hw1105

def k0_chk1106 (v2446 : IVec S16 32) : Prop :=
  (∀ a x, ((![v2446] : Fin 1 → IVec S16 32) a x).toNat < S32768.size a)
instance k0_chk1106.dec : ∀ (v2446 : IVec S16 32), Decidable (k0_chk1106 v2446) := fun v2446 => decidable_of_iff' _ (Iff.of_eq (k0_chk1106.eq_1 v2446))
theorem k0_idx1106_inb : ∀ (v2446 : IVec S16 32) (k0_hw1106 : k0_chk1106 v2446), ∀ a x, ((![v2446] : Fin 1 → IVec S16 32) a x).toNat < S32768.size a := fun v2446 k0_hw1106 => k0_hw1106

def k0_chk1107 (v2450 : IVec S16 32) : Prop :=
  (∀ a x, ((![v2450] : Fin 1 → IVec S16 32) a x).toNat < S32768.size a)
instance k0_chk1107.dec : ∀ (v2450 : IVec S16 32), Decidable (k0_chk1107 v2450) := fun v2450 => decidable_of_iff' _ (Iff.of_eq (k0_chk1107.eq_1 v2450))
theorem k0_idx1107_inb : ∀ (v2450 : IVec S16 32) (k0_hw1107 : k0_chk1107 v2450), ∀ a x, ((![v2450] : Fin 1 → IVec S16 32) a x).toNat < S32768.size a := fun v2450 k0_hw1107 => k0_hw1107

def k0_chk1108 (v2454 : IVec S16 32) : Prop :=
  (∀ a x, ((![v2454] : Fin 1 → IVec S16 32) a x).toNat < S32768.size a)
instance k0_chk1108.dec : ∀ (v2454 : IVec S16 32), Decidable (k0_chk1108 v2454) := fun v2454 => decidable_of_iff' _ (Iff.of_eq (k0_chk1108.eq_1 v2454))
theorem k0_idx1108_inb : ∀ (v2454 : IVec S16 32) (k0_hw1108 : k0_chk1108 v2454), ∀ a x, ((![v2454] : Fin 1 → IVec S16 32) a x).toNat < S32768.size a := fun v2454 k0_hw1108 => k0_hw1108

def k0_chk1109 (v2458 : IVec S16 32) : Prop :=
  (∀ a x, ((![v2458] : Fin 1 → IVec S16 32) a x).toNat < S32768.size a)
instance k0_chk1109.dec : ∀ (v2458 : IVec S16 32), Decidable (k0_chk1109 v2458) := fun v2458 => decidable_of_iff' _ (Iff.of_eq (k0_chk1109.eq_1 v2458))
theorem k0_idx1109_inb : ∀ (v2458 : IVec S16 32) (k0_hw1109 : k0_chk1109 v2458), ∀ a x, ((![v2458] : Fin 1 → IVec S16 32) a x).toNat < S32768.size a := fun v2458 k0_hw1109 => k0_hw1109

def k0_chk1110 (v2462 : IVec S16 32) : Prop :=
  (∀ a x, ((![v2462] : Fin 1 → IVec S16 32) a x).toNat < S32768.size a)
instance k0_chk1110.dec : ∀ (v2462 : IVec S16 32), Decidable (k0_chk1110 v2462) := fun v2462 => decidable_of_iff' _ (Iff.of_eq (k0_chk1110.eq_1 v2462))
theorem k0_idx1110_inb : ∀ (v2462 : IVec S16 32) (k0_hw1110 : k0_chk1110 v2462), ∀ a x, ((![v2462] : Fin 1 → IVec S16 32) a x).toNat < S32768.size a := fun v2462 k0_hw1110 => k0_hw1110

def k0_chk1111 (v2466 : IVec S16 32) : Prop :=
  (∀ a x, ((![v2466] : Fin 1 → IVec S16 32) a x).toNat < S32768.size a)
instance k0_chk1111.dec : ∀ (v2466 : IVec S16 32), Decidable (k0_chk1111 v2466) := fun v2466 => decidable_of_iff' _ (Iff.of_eq (k0_chk1111.eq_1 v2466))
theorem k0_idx1111_inb : ∀ (v2466 : IVec S16 32) (k0_hw1111 : k0_chk1111 v2466), ∀ a x, ((![v2466] : Fin 1 → IVec S16 32) a x).toNat < S32768.size a := fun v2466 k0_hw1111 => k0_hw1111

def k0_chk1112 (v2470 : IVec S16 32) : Prop :=
  (∀ a x, ((![v2470] : Fin 1 → IVec S16 32) a x).toNat < S32768.size a)
instance k0_chk1112.dec : ∀ (v2470 : IVec S16 32), Decidable (k0_chk1112 v2470) := fun v2470 => decidable_of_iff' _ (Iff.of_eq (k0_chk1112.eq_1 v2470))
theorem k0_idx1112_inb : ∀ (v2470 : IVec S16 32) (k0_hw1112 : k0_chk1112 v2470), ∀ a x, ((![v2470] : Fin 1 → IVec S16 32) a x).toNat < S32768.size a := fun v2470 k0_hw1112 => k0_hw1112

def k0_chk1113 (v2474 : IVec S16 32) : Prop :=
  (∀ a x, ((![v2474] : Fin 1 → IVec S16 32) a x).toNat < S32768.size a)
instance k0_chk1113.dec : ∀ (v2474 : IVec S16 32), Decidable (k0_chk1113 v2474) := fun v2474 => decidable_of_iff' _ (Iff.of_eq (k0_chk1113.eq_1 v2474))
theorem k0_idx1113_inb : ∀ (v2474 : IVec S16 32) (k0_hw1113 : k0_chk1113 v2474), ∀ a x, ((![v2474] : Fin 1 → IVec S16 32) a x).toNat < S32768.size a := fun v2474 k0_hw1113 => k0_hw1113

def k0_chk1114 (v2478 : IVec S16 32) : Prop :=
  (∀ a x, ((![v2478] : Fin 1 → IVec S16 32) a x).toNat < S32768.size a)
instance k0_chk1114.dec : ∀ (v2478 : IVec S16 32), Decidable (k0_chk1114 v2478) := fun v2478 => decidable_of_iff' _ (Iff.of_eq (k0_chk1114.eq_1 v2478))
theorem k0_idx1114_inb : ∀ (v2478 : IVec S16 32) (k0_hw1114 : k0_chk1114 v2478), ∀ a x, ((![v2478] : Fin 1 → IVec S16 32) a x).toNat < S32768.size a := fun v2478 k0_hw1114 => k0_hw1114

def k0_chk1115 (v2482 : IVec S16 32) : Prop :=
  (∀ a x, ((![v2482] : Fin 1 → IVec S16 32) a x).toNat < S32768.size a)
instance k0_chk1115.dec : ∀ (v2482 : IVec S16 32), Decidable (k0_chk1115 v2482) := fun v2482 => decidable_of_iff' _ (Iff.of_eq (k0_chk1115.eq_1 v2482))
theorem k0_idx1115_inb : ∀ (v2482 : IVec S16 32) (k0_hw1115 : k0_chk1115 v2482), ∀ a x, ((![v2482] : Fin 1 → IVec S16 32) a x).toNat < S32768.size a := fun v2482 k0_hw1115 => k0_hw1115

def k0_chk1116 (v2486 : IVec S16 32) : Prop :=
  (∀ a x, ((![v2486] : Fin 1 → IVec S16 32) a x).toNat < S32768.size a)
instance k0_chk1116.dec : ∀ (v2486 : IVec S16 32), Decidable (k0_chk1116 v2486) := fun v2486 => decidable_of_iff' _ (Iff.of_eq (k0_chk1116.eq_1 v2486))
theorem k0_idx1116_inb : ∀ (v2486 : IVec S16 32) (k0_hw1116 : k0_chk1116 v2486), ∀ a x, ((![v2486] : Fin 1 → IVec S16 32) a x).toNat < S32768.size a := fun v2486 k0_hw1116 => k0_hw1116

def k0_chk1117 (v2490 : IVec S16 32) : Prop :=
  (∀ a x, ((![v2490] : Fin 1 → IVec S16 32) a x).toNat < S32768.size a)
instance k0_chk1117.dec : ∀ (v2490 : IVec S16 32), Decidable (k0_chk1117 v2490) := fun v2490 => decidable_of_iff' _ (Iff.of_eq (k0_chk1117.eq_1 v2490))
theorem k0_idx1117_inb : ∀ (v2490 : IVec S16 32) (k0_hw1117 : k0_chk1117 v2490), ∀ a x, ((![v2490] : Fin 1 → IVec S16 32) a x).toNat < S32768.size a := fun v2490 k0_hw1117 => k0_hw1117

def k0_chk1118 (v2494 : IVec S16 32) : Prop :=
  (∀ a x, ((![v2494] : Fin 1 → IVec S16 32) a x).toNat < S32768.size a)
instance k0_chk1118.dec : ∀ (v2494 : IVec S16 32), Decidable (k0_chk1118 v2494) := fun v2494 => decidable_of_iff' _ (Iff.of_eq (k0_chk1118.eq_1 v2494))
theorem k0_idx1118_inb : ∀ (v2494 : IVec S16 32) (k0_hw1118 : k0_chk1118 v2494), ∀ a x, ((![v2494] : Fin 1 → IVec S16 32) a x).toNat < S32768.size a := fun v2494 k0_hw1118 => k0_hw1118

def k0_chk1119 (v2498 : IVec S16 32) : Prop :=
  (∀ a x, ((![v2498] : Fin 1 → IVec S16 32) a x).toNat < S32768.size a)
instance k0_chk1119.dec : ∀ (v2498 : IVec S16 32), Decidable (k0_chk1119 v2498) := fun v2498 => decidable_of_iff' _ (Iff.of_eq (k0_chk1119.eq_1 v2498))
theorem k0_idx1119_inb : ∀ (v2498 : IVec S16 32) (k0_hw1119 : k0_chk1119 v2498), ∀ a x, ((![v2498] : Fin 1 → IVec S16 32) a x).toNat < S32768.size a := fun v2498 k0_hw1119 => k0_hw1119

def k0_chk1120 (v2502 : IVec S16 32) : Prop :=
  (∀ a x, ((![v2502] : Fin 1 → IVec S16 32) a x).toNat < S32768.size a)
instance k0_chk1120.dec : ∀ (v2502 : IVec S16 32), Decidable (k0_chk1120 v2502) := fun v2502 => decidable_of_iff' _ (Iff.of_eq (k0_chk1120.eq_1 v2502))
theorem k0_idx1120_inb : ∀ (v2502 : IVec S16 32) (k0_hw1120 : k0_chk1120 v2502), ∀ a x, ((![v2502] : Fin 1 → IVec S16 32) a x).toNat < S32768.size a := fun v2502 k0_hw1120 => k0_hw1120

def k0_chk1121 (v2506 : IVec S16 32) : Prop :=
  (∀ a x, ((![v2506] : Fin 1 → IVec S16 32) a x).toNat < S32768.size a)
instance k0_chk1121.dec : ∀ (v2506 : IVec S16 32), Decidable (k0_chk1121 v2506) := fun v2506 => decidable_of_iff' _ (Iff.of_eq (k0_chk1121.eq_1 v2506))
theorem k0_idx1121_inb : ∀ (v2506 : IVec S16 32) (k0_hw1121 : k0_chk1121 v2506), ∀ a x, ((![v2506] : Fin 1 → IVec S16 32) a x).toNat < S32768.size a := fun v2506 k0_hw1121 => k0_hw1121

def k0_chk1122 (v2510 : IVec S16 32) : Prop :=
  (∀ a x, ((![v2510] : Fin 1 → IVec S16 32) a x).toNat < S32768.size a)
instance k0_chk1122.dec : ∀ (v2510 : IVec S16 32), Decidable (k0_chk1122 v2510) := fun v2510 => decidable_of_iff' _ (Iff.of_eq (k0_chk1122.eq_1 v2510))
theorem k0_idx1122_inb : ∀ (v2510 : IVec S16 32) (k0_hw1122 : k0_chk1122 v2510), ∀ a x, ((![v2510] : Fin 1 → IVec S16 32) a x).toNat < S32768.size a := fun v2510 k0_hw1122 => k0_hw1122

def k0_chk1123 (v2514 : IVec S16 32) : Prop :=
  (∀ a x, ((![v2514] : Fin 1 → IVec S16 32) a x).toNat < S32768.size a)
instance k0_chk1123.dec : ∀ (v2514 : IVec S16 32), Decidable (k0_chk1123 v2514) := fun v2514 => decidable_of_iff' _ (Iff.of_eq (k0_chk1123.eq_1 v2514))
theorem k0_idx1123_inb : ∀ (v2514 : IVec S16 32) (k0_hw1123 : k0_chk1123 v2514), ∀ a x, ((![v2514] : Fin 1 → IVec S16 32) a x).toNat < S32768.size a := fun v2514 k0_hw1123 => k0_hw1123

def k0_chk1124 (v2518 : IVec S16 32) : Prop :=
  (∀ a x, ((![v2518] : Fin 1 → IVec S16 32) a x).toNat < S32768.size a)
instance k0_chk1124.dec : ∀ (v2518 : IVec S16 32), Decidable (k0_chk1124 v2518) := fun v2518 => decidable_of_iff' _ (Iff.of_eq (k0_chk1124.eq_1 v2518))
theorem k0_idx1124_inb : ∀ (v2518 : IVec S16 32) (k0_hw1124 : k0_chk1124 v2518), ∀ a x, ((![v2518] : Fin 1 → IVec S16 32) a x).toNat < S32768.size a := fun v2518 k0_hw1124 => k0_hw1124

def k0_chk1125 (v2522 : IVec S16 32) : Prop :=
  (∀ a x, ((![v2522] : Fin 1 → IVec S16 32) a x).toNat < S32768.size a)
instance k0_chk1125.dec : ∀ (v2522 : IVec S16 32), Decidable (k0_chk1125 v2522) := fun v2522 => decidable_of_iff' _ (Iff.of_eq (k0_chk1125.eq_1 v2522))
theorem k0_idx1125_inb : ∀ (v2522 : IVec S16 32) (k0_hw1125 : k0_chk1125 v2522), ∀ a x, ((![v2522] : Fin 1 → IVec S16 32) a x).toNat < S32768.size a := fun v2522 k0_hw1125 => k0_hw1125

def k0_chk1126 (v2526 : IVec S16 32) : Prop :=
  (∀ a x, ((![v2526] : Fin 1 → IVec S16 32) a x).toNat < S32768.size a)
instance k0_chk1126.dec : ∀ (v2526 : IVec S16 32), Decidable (k0_chk1126 v2526) := fun v2526 => decidable_of_iff' _ (Iff.of_eq (k0_chk1126.eq_1 v2526))
theorem k0_idx1126_inb : ∀ (v2526 : IVec S16 32) (k0_hw1126 : k0_chk1126 v2526), ∀ a x, ((![v2526] : Fin 1 → IVec S16 32) a x).toNat < S32768.size a := fun v2526 k0_hw1126 => k0_hw1126

def k0_chk1127 (v2530 : IVec S16 32) : Prop :=
  (∀ a x, ((![v2530] : Fin 1 → IVec S16 32) a x).toNat < S32768.size a)
instance k0_chk1127.dec : ∀ (v2530 : IVec S16 32), Decidable (k0_chk1127 v2530) := fun v2530 => decidable_of_iff' _ (Iff.of_eq (k0_chk1127.eq_1 v2530))
theorem k0_idx1127_inb : ∀ (v2530 : IVec S16 32) (k0_hw1127 : k0_chk1127 v2530), ∀ a x, ((![v2530] : Fin 1 → IVec S16 32) a x).toNat < S32768.size a := fun v2530 k0_hw1127 => k0_hw1127

def k0_chk1128 (v2534 : IVec S16 32) : Prop :=
  (∀ a x, ((![v2534] : Fin 1 → IVec S16 32) a x).toNat < S32768.size a)
instance k0_chk1128.dec : ∀ (v2534 : IVec S16 32), Decidable (k0_chk1128 v2534) := fun v2534 => decidable_of_iff' _ (Iff.of_eq (k0_chk1128.eq_1 v2534))
theorem k0_idx1128_inb : ∀ (v2534 : IVec S16 32) (k0_hw1128 : k0_chk1128 v2534), ∀ a x, ((![v2534] : Fin 1 → IVec S16 32) a x).toNat < S32768.size a := fun v2534 k0_hw1128 => k0_hw1128

def k0_chk1129 (v2538 : IVec S16 32) : Prop :=
  (∀ a x, ((![v2538] : Fin 1 → IVec S16 32) a x).toNat < S32768.size a)
instance k0_chk1129.dec : ∀ (v2538 : IVec S16 32), Decidable (k0_chk1129 v2538) := fun v2538 => decidable_of_iff' _ (Iff.of_eq (k0_chk1129.eq_1 v2538))
theorem k0_idx1129_inb : ∀ (v2538 : IVec S16 32) (k0_hw1129 : k0_chk1129 v2538), ∀ a x, ((![v2538] : Fin 1 → IVec S16 32) a x).toNat < S32768.size a := fun v2538 k0_hw1129 => k0_hw1129

def k0_chk1130 (v2542 : IVec S16 32) : Prop :=
  (∀ a x, ((![v2542] : Fin 1 → IVec S16 32) a x).toNat < S32768.size a)
instance k0_chk1130.dec : ∀ (v2542 : IVec S16 32), Decidable (k0_chk1130 v2542) := fun v2542 => decidable_of_iff' _ (Iff.of_eq (k0_chk1130.eq_1 v2542))
theorem k0_idx1130_inb : ∀ (v2542 : IVec S16 32) (k0_hw1130 : k0_chk1130 v2542), ∀ a x, ((![v2542] : Fin 1 → IVec S16 32) a x).toNat < S32768.size a := fun v2542 k0_hw1130 => k0_hw1130

def k0_chk1131 (v2546 : IVec S16 32) : Prop :=
  (∀ a x, ((![v2546] : Fin 1 → IVec S16 32) a x).toNat < S32768.size a)
instance k0_chk1131.dec : ∀ (v2546 : IVec S16 32), Decidable (k0_chk1131 v2546) := fun v2546 => decidable_of_iff' _ (Iff.of_eq (k0_chk1131.eq_1 v2546))
theorem k0_idx1131_inb : ∀ (v2546 : IVec S16 32) (k0_hw1131 : k0_chk1131 v2546), ∀ a x, ((![v2546] : Fin 1 → IVec S16 32) a x).toNat < S32768.size a := fun v2546 k0_hw1131 => k0_hw1131

def k0_chk1132 (v2550 : IVec S16 32) : Prop :=
  (∀ a x, ((![v2550] : Fin 1 → IVec S16 32) a x).toNat < S32768.size a)
instance k0_chk1132.dec : ∀ (v2550 : IVec S16 32), Decidable (k0_chk1132 v2550) := fun v2550 => decidable_of_iff' _ (Iff.of_eq (k0_chk1132.eq_1 v2550))
theorem k0_idx1132_inb : ∀ (v2550 : IVec S16 32) (k0_hw1132 : k0_chk1132 v2550), ∀ a x, ((![v2550] : Fin 1 → IVec S16 32) a x).toNat < S32768.size a := fun v2550 k0_hw1132 => k0_hw1132

def k0_chk1133 (v2554 : IVec S16 32) : Prop :=
  (∀ a x, ((![v2554] : Fin 1 → IVec S16 32) a x).toNat < S32768.size a)
instance k0_chk1133.dec : ∀ (v2554 : IVec S16 32), Decidable (k0_chk1133 v2554) := fun v2554 => decidable_of_iff' _ (Iff.of_eq (k0_chk1133.eq_1 v2554))
theorem k0_idx1133_inb : ∀ (v2554 : IVec S16 32) (k0_hw1133 : k0_chk1133 v2554), ∀ a x, ((![v2554] : Fin 1 → IVec S16 32) a x).toNat < S32768.size a := fun v2554 k0_hw1133 => k0_hw1133

def k0_chk1134 (v2558 : IVec S16 32) : Prop :=
  (∀ a x, ((![v2558] : Fin 1 → IVec S16 32) a x).toNat < S32768.size a)
instance k0_chk1134.dec : ∀ (v2558 : IVec S16 32), Decidable (k0_chk1134 v2558) := fun v2558 => decidable_of_iff' _ (Iff.of_eq (k0_chk1134.eq_1 v2558))
theorem k0_idx1134_inb : ∀ (v2558 : IVec S16 32) (k0_hw1134 : k0_chk1134 v2558), ∀ a x, ((![v2558] : Fin 1 → IVec S16 32) a x).toNat < S32768.size a := fun v2558 k0_hw1134 => k0_hw1134

def k0_chk1135 (v2562 : IVec S16 32) : Prop :=
  (∀ a x, ((![v2562] : Fin 1 → IVec S16 32) a x).toNat < S32768.size a)
instance k0_chk1135.dec : ∀ (v2562 : IVec S16 32), Decidable (k0_chk1135 v2562) := fun v2562 => decidable_of_iff' _ (Iff.of_eq (k0_chk1135.eq_1 v2562))
theorem k0_idx1135_inb : ∀ (v2562 : IVec S16 32) (k0_hw1135 : k0_chk1135 v2562), ∀ a x, ((![v2562] : Fin 1 → IVec S16 32) a x).toNat < S32768.size a := fun v2562 k0_hw1135 => k0_hw1135

def k0_chk1136 (v2566 : IVec S16 32) : Prop :=
  (∀ a x, ((![v2566] : Fin 1 → IVec S16 32) a x).toNat < S32768.size a)
instance k0_chk1136.dec : ∀ (v2566 : IVec S16 32), Decidable (k0_chk1136 v2566) := fun v2566 => decidable_of_iff' _ (Iff.of_eq (k0_chk1136.eq_1 v2566))
theorem k0_idx1136_inb : ∀ (v2566 : IVec S16 32) (k0_hw1136 : k0_chk1136 v2566), ∀ a x, ((![v2566] : Fin 1 → IVec S16 32) a x).toNat < S32768.size a := fun v2566 k0_hw1136 => k0_hw1136

def k0_chk1137 (v2570 : IVec S16 32) : Prop :=
  (∀ a x, ((![v2570] : Fin 1 → IVec S16 32) a x).toNat < S32768.size a)
instance k0_chk1137.dec : ∀ (v2570 : IVec S16 32), Decidable (k0_chk1137 v2570) := fun v2570 => decidable_of_iff' _ (Iff.of_eq (k0_chk1137.eq_1 v2570))
theorem k0_idx1137_inb : ∀ (v2570 : IVec S16 32) (k0_hw1137 : k0_chk1137 v2570), ∀ a x, ((![v2570] : Fin 1 → IVec S16 32) a x).toNat < S32768.size a := fun v2570 k0_hw1137 => k0_hw1137

def k0_chk1138 (v2574 : IVec S16 32) : Prop :=
  (∀ a x, ((![v2574] : Fin 1 → IVec S16 32) a x).toNat < S32768.size a)
instance k0_chk1138.dec : ∀ (v2574 : IVec S16 32), Decidable (k0_chk1138 v2574) := fun v2574 => decidable_of_iff' _ (Iff.of_eq (k0_chk1138.eq_1 v2574))
theorem k0_idx1138_inb : ∀ (v2574 : IVec S16 32) (k0_hw1138 : k0_chk1138 v2574), ∀ a x, ((![v2574] : Fin 1 → IVec S16 32) a x).toNat < S32768.size a := fun v2574 k0_hw1138 => k0_hw1138

def k0_chk1139 (v2578 : IVec S16 32) : Prop :=
  (∀ a x, ((![v2578] : Fin 1 → IVec S16 32) a x).toNat < S32768.size a)
instance k0_chk1139.dec : ∀ (v2578 : IVec S16 32), Decidable (k0_chk1139 v2578) := fun v2578 => decidable_of_iff' _ (Iff.of_eq (k0_chk1139.eq_1 v2578))
theorem k0_idx1139_inb : ∀ (v2578 : IVec S16 32) (k0_hw1139 : k0_chk1139 v2578), ∀ a x, ((![v2578] : Fin 1 → IVec S16 32) a x).toNat < S32768.size a := fun v2578 k0_hw1139 => k0_hw1139

def k0_chk1140 (v2582 : IVec S16 32) : Prop :=
  (∀ a x, ((![v2582] : Fin 1 → IVec S16 32) a x).toNat < S32768.size a)
instance k0_chk1140.dec : ∀ (v2582 : IVec S16 32), Decidable (k0_chk1140 v2582) := fun v2582 => decidable_of_iff' _ (Iff.of_eq (k0_chk1140.eq_1 v2582))
theorem k0_idx1140_inb : ∀ (v2582 : IVec S16 32) (k0_hw1140 : k0_chk1140 v2582), ∀ a x, ((![v2582] : Fin 1 → IVec S16 32) a x).toNat < S32768.size a := fun v2582 k0_hw1140 => k0_hw1140

def k0_chk1141 (v2586 : IVec S16 32) : Prop :=
  (∀ a x, ((![v2586] : Fin 1 → IVec S16 32) a x).toNat < S32768.size a)
instance k0_chk1141.dec : ∀ (v2586 : IVec S16 32), Decidable (k0_chk1141 v2586) := fun v2586 => decidable_of_iff' _ (Iff.of_eq (k0_chk1141.eq_1 v2586))
theorem k0_idx1141_inb : ∀ (v2586 : IVec S16 32) (k0_hw1141 : k0_chk1141 v2586), ∀ a x, ((![v2586] : Fin 1 → IVec S16 32) a x).toNat < S32768.size a := fun v2586 k0_hw1141 => k0_hw1141

def k0_chk1142 (v2590 : IVec S16 32) : Prop :=
  (∀ a x, ((![v2590] : Fin 1 → IVec S16 32) a x).toNat < S32768.size a)
instance k0_chk1142.dec : ∀ (v2590 : IVec S16 32), Decidable (k0_chk1142 v2590) := fun v2590 => decidable_of_iff' _ (Iff.of_eq (k0_chk1142.eq_1 v2590))
theorem k0_idx1142_inb : ∀ (v2590 : IVec S16 32) (k0_hw1142 : k0_chk1142 v2590), ∀ a x, ((![v2590] : Fin 1 → IVec S16 32) a x).toNat < S32768.size a := fun v2590 k0_hw1142 => k0_hw1142

def k0_chk1143 (v2594 : IVec S16 32) : Prop :=
  (∀ a x, ((![v2594] : Fin 1 → IVec S16 32) a x).toNat < S32768.size a)
instance k0_chk1143.dec : ∀ (v2594 : IVec S16 32), Decidable (k0_chk1143 v2594) := fun v2594 => decidable_of_iff' _ (Iff.of_eq (k0_chk1143.eq_1 v2594))
theorem k0_idx1143_inb : ∀ (v2594 : IVec S16 32) (k0_hw1143 : k0_chk1143 v2594), ∀ a x, ((![v2594] : Fin 1 → IVec S16 32) a x).toNat < S32768.size a := fun v2594 k0_hw1143 => k0_hw1143

def k0_chk1144 (v2598 : IVec S16 32) : Prop :=
  (∀ a x, ((![v2598] : Fin 1 → IVec S16 32) a x).toNat < S32768.size a)
instance k0_chk1144.dec : ∀ (v2598 : IVec S16 32), Decidable (k0_chk1144 v2598) := fun v2598 => decidable_of_iff' _ (Iff.of_eq (k0_chk1144.eq_1 v2598))
theorem k0_idx1144_inb : ∀ (v2598 : IVec S16 32) (k0_hw1144 : k0_chk1144 v2598), ∀ a x, ((![v2598] : Fin 1 → IVec S16 32) a x).toNat < S32768.size a := fun v2598 k0_hw1144 => k0_hw1144

def k0_chk1145 (v2602 : IVec S16 32) : Prop :=
  (∀ a x, ((![v2602] : Fin 1 → IVec S16 32) a x).toNat < S32768.size a)
instance k0_chk1145.dec : ∀ (v2602 : IVec S16 32), Decidable (k0_chk1145 v2602) := fun v2602 => decidable_of_iff' _ (Iff.of_eq (k0_chk1145.eq_1 v2602))
theorem k0_idx1145_inb : ∀ (v2602 : IVec S16 32) (k0_hw1145 : k0_chk1145 v2602), ∀ a x, ((![v2602] : Fin 1 → IVec S16 32) a x).toNat < S32768.size a := fun v2602 k0_hw1145 => k0_hw1145

def k0_chk1146 (v2606 : IVec S16 32) : Prop :=
  (∀ a x, ((![v2606] : Fin 1 → IVec S16 32) a x).toNat < S32768.size a)
instance k0_chk1146.dec : ∀ (v2606 : IVec S16 32), Decidable (k0_chk1146 v2606) := fun v2606 => decidable_of_iff' _ (Iff.of_eq (k0_chk1146.eq_1 v2606))
theorem k0_idx1146_inb : ∀ (v2606 : IVec S16 32) (k0_hw1146 : k0_chk1146 v2606), ∀ a x, ((![v2606] : Fin 1 → IVec S16 32) a x).toNat < S32768.size a := fun v2606 k0_hw1146 => k0_hw1146

def k0_chk1147 (v2610 : IVec S16 32) : Prop :=
  (∀ a x, ((![v2610] : Fin 1 → IVec S16 32) a x).toNat < S32768.size a)
instance k0_chk1147.dec : ∀ (v2610 : IVec S16 32), Decidable (k0_chk1147 v2610) := fun v2610 => decidable_of_iff' _ (Iff.of_eq (k0_chk1147.eq_1 v2610))
theorem k0_idx1147_inb : ∀ (v2610 : IVec S16 32) (k0_hw1147 : k0_chk1147 v2610), ∀ a x, ((![v2610] : Fin 1 → IVec S16 32) a x).toNat < S32768.size a := fun v2610 k0_hw1147 => k0_hw1147

def k0_chk1148 (v2614 : IVec S16 32) : Prop :=
  (∀ a x, ((![v2614] : Fin 1 → IVec S16 32) a x).toNat < S32768.size a)
instance k0_chk1148.dec : ∀ (v2614 : IVec S16 32), Decidable (k0_chk1148 v2614) := fun v2614 => decidable_of_iff' _ (Iff.of_eq (k0_chk1148.eq_1 v2614))
theorem k0_idx1148_inb : ∀ (v2614 : IVec S16 32) (k0_hw1148 : k0_chk1148 v2614), ∀ a x, ((![v2614] : Fin 1 → IVec S16 32) a x).toNat < S32768.size a := fun v2614 k0_hw1148 => k0_hw1148

def k0_chk1149 (v2618 : IVec S16 32) : Prop :=
  (∀ a x, ((![v2618] : Fin 1 → IVec S16 32) a x).toNat < S32768.size a)
instance k0_chk1149.dec : ∀ (v2618 : IVec S16 32), Decidable (k0_chk1149 v2618) := fun v2618 => decidable_of_iff' _ (Iff.of_eq (k0_chk1149.eq_1 v2618))
theorem k0_idx1149_inb : ∀ (v2618 : IVec S16 32) (k0_hw1149 : k0_chk1149 v2618), ∀ a x, ((![v2618] : Fin 1 → IVec S16 32) a x).toNat < S32768.size a := fun v2618 k0_hw1149 => k0_hw1149

def k0_chk1150 (v2622 : IVec S16 32) : Prop :=
  (∀ a x, ((![v2622] : Fin 1 → IVec S16 32) a x).toNat < S32768.size a)
instance k0_chk1150.dec : ∀ (v2622 : IVec S16 32), Decidable (k0_chk1150 v2622) := fun v2622 => decidable_of_iff' _ (Iff.of_eq (k0_chk1150.eq_1 v2622))
theorem k0_idx1150_inb : ∀ (v2622 : IVec S16 32) (k0_hw1150 : k0_chk1150 v2622), ∀ a x, ((![v2622] : Fin 1 → IVec S16 32) a x).toNat < S32768.size a := fun v2622 k0_hw1150 => k0_hw1150

def k0_chk1151 (v2626 : IVec S16 32) : Prop :=
  (∀ a x, ((![v2626] : Fin 1 → IVec S16 32) a x).toNat < S32768.size a)
instance k0_chk1151.dec : ∀ (v2626 : IVec S16 32), Decidable (k0_chk1151 v2626) := fun v2626 => decidable_of_iff' _ (Iff.of_eq (k0_chk1151.eq_1 v2626))
theorem k0_idx1151_inb : ∀ (v2626 : IVec S16 32) (k0_hw1151 : k0_chk1151 v2626), ∀ a x, ((![v2626] : Fin 1 → IVec S16 32) a x).toNat < S32768.size a := fun v2626 k0_hw1151 => k0_hw1151

def k0_chk1152 (v2630 : IVec S16 32) : Prop :=
  (∀ a x, ((![v2630] : Fin 1 → IVec S16 32) a x).toNat < S32768.size a)
instance k0_chk1152.dec : ∀ (v2630 : IVec S16 32), Decidable (k0_chk1152 v2630) := fun v2630 => decidable_of_iff' _ (Iff.of_eq (k0_chk1152.eq_1 v2630))
theorem k0_idx1152_inb : ∀ (v2630 : IVec S16 32) (k0_hw1152 : k0_chk1152 v2630), ∀ a x, ((![v2630] : Fin 1 → IVec S16 32) a x).toNat < S32768.size a := fun v2630 k0_hw1152 => k0_hw1152

def k0_chk1153 (v2636 : IVec S16 32) : Prop :=
  (∀ a x, ((![v2636] : Fin 1 → IVec S16 32) a x).toNat < S32768.size a)
instance k0_chk1153.dec : ∀ (v2636 : IVec S16 32), Decidable (k0_chk1153 v2636) := fun v2636 => decidable_of_iff' _ (Iff.of_eq (k0_chk1153.eq_1 v2636))
theorem k0_idx1153_inb : ∀ (v2636 : IVec S16 32) (k0_hw1153 : k0_chk1153 v2636), ∀ a x, ((![v2636] : Fin 1 → IVec S16 32) a x).toNat < S32768.size a := fun v2636 k0_hw1153 => k0_hw1153

def k0_chk1154 (v2640 : IVec S16 32) : Prop :=
  (∀ a x, ((![v2640] : Fin 1 → IVec S16 32) a x).toNat < S32768.size a)
instance k0_chk1154.dec : ∀ (v2640 : IVec S16 32), Decidable (k0_chk1154 v2640) := fun v2640 => decidable_of_iff' _ (Iff.of_eq (k0_chk1154.eq_1 v2640))
theorem k0_idx1154_inb : ∀ (v2640 : IVec S16 32) (k0_hw1154 : k0_chk1154 v2640), ∀ a x, ((![v2640] : Fin 1 → IVec S16 32) a x).toNat < S32768.size a := fun v2640 k0_hw1154 => k0_hw1154

def k0_chk1155 (v2644 : IVec S16 32) : Prop :=
  (∀ a x, ((![v2644] : Fin 1 → IVec S16 32) a x).toNat < S32768.size a)
instance k0_chk1155.dec : ∀ (v2644 : IVec S16 32), Decidable (k0_chk1155 v2644) := fun v2644 => decidable_of_iff' _ (Iff.of_eq (k0_chk1155.eq_1 v2644))
theorem k0_idx1155_inb : ∀ (v2644 : IVec S16 32) (k0_hw1155 : k0_chk1155 v2644), ∀ a x, ((![v2644] : Fin 1 → IVec S16 32) a x).toNat < S32768.size a := fun v2644 k0_hw1155 => k0_hw1155

def k0_chk1156 (v2648 : IVec S16 32) : Prop :=
  (∀ a x, ((![v2648] : Fin 1 → IVec S16 32) a x).toNat < S32768.size a)
instance k0_chk1156.dec : ∀ (v2648 : IVec S16 32), Decidable (k0_chk1156 v2648) := fun v2648 => decidable_of_iff' _ (Iff.of_eq (k0_chk1156.eq_1 v2648))
theorem k0_idx1156_inb : ∀ (v2648 : IVec S16 32) (k0_hw1156 : k0_chk1156 v2648), ∀ a x, ((![v2648] : Fin 1 → IVec S16 32) a x).toNat < S32768.size a := fun v2648 k0_hw1156 => k0_hw1156

def k0_chk1157 (v2652 : IVec S16 32) : Prop :=
  (∀ a x, ((![v2652] : Fin 1 → IVec S16 32) a x).toNat < S32768.size a)
instance k0_chk1157.dec : ∀ (v2652 : IVec S16 32), Decidable (k0_chk1157 v2652) := fun v2652 => decidable_of_iff' _ (Iff.of_eq (k0_chk1157.eq_1 v2652))
theorem k0_idx1157_inb : ∀ (v2652 : IVec S16 32) (k0_hw1157 : k0_chk1157 v2652), ∀ a x, ((![v2652] : Fin 1 → IVec S16 32) a x).toNat < S32768.size a := fun v2652 k0_hw1157 => k0_hw1157

def k0_chk1158 (v2656 : IVec S16 32) : Prop :=
  (∀ a x, ((![v2656] : Fin 1 → IVec S16 32) a x).toNat < S32768.size a)
instance k0_chk1158.dec : ∀ (v2656 : IVec S16 32), Decidable (k0_chk1158 v2656) := fun v2656 => decidable_of_iff' _ (Iff.of_eq (k0_chk1158.eq_1 v2656))
theorem k0_idx1158_inb : ∀ (v2656 : IVec S16 32) (k0_hw1158 : k0_chk1158 v2656), ∀ a x, ((![v2656] : Fin 1 → IVec S16 32) a x).toNat < S32768.size a := fun v2656 k0_hw1158 => k0_hw1158

def k0_chk1159 (v2660 : IVec S16 32) : Prop :=
  (∀ a x, ((![v2660] : Fin 1 → IVec S16 32) a x).toNat < S32768.size a)
instance k0_chk1159.dec : ∀ (v2660 : IVec S16 32), Decidable (k0_chk1159 v2660) := fun v2660 => decidable_of_iff' _ (Iff.of_eq (k0_chk1159.eq_1 v2660))
theorem k0_idx1159_inb : ∀ (v2660 : IVec S16 32) (k0_hw1159 : k0_chk1159 v2660), ∀ a x, ((![v2660] : Fin 1 → IVec S16 32) a x).toNat < S32768.size a := fun v2660 k0_hw1159 => k0_hw1159

def k0_chk1160 (v2664 : IVec S16 32) : Prop :=
  (∀ a x, ((![v2664] : Fin 1 → IVec S16 32) a x).toNat < S32768.size a)
instance k0_chk1160.dec : ∀ (v2664 : IVec S16 32), Decidable (k0_chk1160 v2664) := fun v2664 => decidable_of_iff' _ (Iff.of_eq (k0_chk1160.eq_1 v2664))
theorem k0_idx1160_inb : ∀ (v2664 : IVec S16 32) (k0_hw1160 : k0_chk1160 v2664), ∀ a x, ((![v2664] : Fin 1 → IVec S16 32) a x).toNat < S32768.size a := fun v2664 k0_hw1160 => k0_hw1160

def k0_chk1161 (v2668 : IVec S16 32) : Prop :=
  (∀ a x, ((![v2668] : Fin 1 → IVec S16 32) a x).toNat < S32768.size a)
instance k0_chk1161.dec : ∀ (v2668 : IVec S16 32), Decidable (k0_chk1161 v2668) := fun v2668 => decidable_of_iff' _ (Iff.of_eq (k0_chk1161.eq_1 v2668))
theorem k0_idx1161_inb : ∀ (v2668 : IVec S16 32) (k0_hw1161 : k0_chk1161 v2668), ∀ a x, ((![v2668] : Fin 1 → IVec S16 32) a x).toNat < S32768.size a := fun v2668 k0_hw1161 => k0_hw1161

def k0_chk1162 (v2672 : IVec S16 32) : Prop :=
  (∀ a x, ((![v2672] : Fin 1 → IVec S16 32) a x).toNat < S32768.size a)
instance k0_chk1162.dec : ∀ (v2672 : IVec S16 32), Decidable (k0_chk1162 v2672) := fun v2672 => decidable_of_iff' _ (Iff.of_eq (k0_chk1162.eq_1 v2672))
theorem k0_idx1162_inb : ∀ (v2672 : IVec S16 32) (k0_hw1162 : k0_chk1162 v2672), ∀ a x, ((![v2672] : Fin 1 → IVec S16 32) a x).toNat < S32768.size a := fun v2672 k0_hw1162 => k0_hw1162

def k0_chk1163 (v2676 : IVec S16 32) : Prop :=
  (∀ a x, ((![v2676] : Fin 1 → IVec S16 32) a x).toNat < S32768.size a)
instance k0_chk1163.dec : ∀ (v2676 : IVec S16 32), Decidable (k0_chk1163 v2676) := fun v2676 => decidable_of_iff' _ (Iff.of_eq (k0_chk1163.eq_1 v2676))
theorem k0_idx1163_inb : ∀ (v2676 : IVec S16 32) (k0_hw1163 : k0_chk1163 v2676), ∀ a x, ((![v2676] : Fin 1 → IVec S16 32) a x).toNat < S32768.size a := fun v2676 k0_hw1163 => k0_hw1163

def k0_chk1164 (v2680 : IVec S16 32) : Prop :=
  (∀ a x, ((![v2680] : Fin 1 → IVec S16 32) a x).toNat < S32768.size a)
instance k0_chk1164.dec : ∀ (v2680 : IVec S16 32), Decidable (k0_chk1164 v2680) := fun v2680 => decidable_of_iff' _ (Iff.of_eq (k0_chk1164.eq_1 v2680))
theorem k0_idx1164_inb : ∀ (v2680 : IVec S16 32) (k0_hw1164 : k0_chk1164 v2680), ∀ a x, ((![v2680] : Fin 1 → IVec S16 32) a x).toNat < S32768.size a := fun v2680 k0_hw1164 => k0_hw1164

def k0_chk1165 (v2684 : IVec S16 32) : Prop :=
  (∀ a x, ((![v2684] : Fin 1 → IVec S16 32) a x).toNat < S32768.size a)
instance k0_chk1165.dec : ∀ (v2684 : IVec S16 32), Decidable (k0_chk1165 v2684) := fun v2684 => decidable_of_iff' _ (Iff.of_eq (k0_chk1165.eq_1 v2684))
theorem k0_idx1165_inb : ∀ (v2684 : IVec S16 32) (k0_hw1165 : k0_chk1165 v2684), ∀ a x, ((![v2684] : Fin 1 → IVec S16 32) a x).toNat < S32768.size a := fun v2684 k0_hw1165 => k0_hw1165

def k0_chk1166 (v2688 : IVec S16 32) : Prop :=
  (∀ a x, ((![v2688] : Fin 1 → IVec S16 32) a x).toNat < S32768.size a)
instance k0_chk1166.dec : ∀ (v2688 : IVec S16 32), Decidable (k0_chk1166 v2688) := fun v2688 => decidable_of_iff' _ (Iff.of_eq (k0_chk1166.eq_1 v2688))
theorem k0_idx1166_inb : ∀ (v2688 : IVec S16 32) (k0_hw1166 : k0_chk1166 v2688), ∀ a x, ((![v2688] : Fin 1 → IVec S16 32) a x).toNat < S32768.size a := fun v2688 k0_hw1166 => k0_hw1166

def k0_chk1167 (v2692 : IVec S16 32) : Prop :=
  (∀ a x, ((![v2692] : Fin 1 → IVec S16 32) a x).toNat < S32768.size a)
instance k0_chk1167.dec : ∀ (v2692 : IVec S16 32), Decidable (k0_chk1167 v2692) := fun v2692 => decidable_of_iff' _ (Iff.of_eq (k0_chk1167.eq_1 v2692))
theorem k0_idx1167_inb : ∀ (v2692 : IVec S16 32) (k0_hw1167 : k0_chk1167 v2692), ∀ a x, ((![v2692] : Fin 1 → IVec S16 32) a x).toNat < S32768.size a := fun v2692 k0_hw1167 => k0_hw1167

def k0_chk1168 (v2696 : IVec S16 32) : Prop :=
  (∀ a x, ((![v2696] : Fin 1 → IVec S16 32) a x).toNat < S32768.size a)
instance k0_chk1168.dec : ∀ (v2696 : IVec S16 32), Decidable (k0_chk1168 v2696) := fun v2696 => decidable_of_iff' _ (Iff.of_eq (k0_chk1168.eq_1 v2696))
theorem k0_idx1168_inb : ∀ (v2696 : IVec S16 32) (k0_hw1168 : k0_chk1168 v2696), ∀ a x, ((![v2696] : Fin 1 → IVec S16 32) a x).toNat < S32768.size a := fun v2696 k0_hw1168 => k0_hw1168

def k0_chk1169 (v2700 : IVec S16 32) : Prop :=
  (∀ a x, ((![v2700] : Fin 1 → IVec S16 32) a x).toNat < S32768.size a)
instance k0_chk1169.dec : ∀ (v2700 : IVec S16 32), Decidable (k0_chk1169 v2700) := fun v2700 => decidable_of_iff' _ (Iff.of_eq (k0_chk1169.eq_1 v2700))
theorem k0_idx1169_inb : ∀ (v2700 : IVec S16 32) (k0_hw1169 : k0_chk1169 v2700), ∀ a x, ((![v2700] : Fin 1 → IVec S16 32) a x).toNat < S32768.size a := fun v2700 k0_hw1169 => k0_hw1169

def k0_chk1170 (v2704 : IVec S16 32) : Prop :=
  (∀ a x, ((![v2704] : Fin 1 → IVec S16 32) a x).toNat < S32768.size a)
instance k0_chk1170.dec : ∀ (v2704 : IVec S16 32), Decidable (k0_chk1170 v2704) := fun v2704 => decidable_of_iff' _ (Iff.of_eq (k0_chk1170.eq_1 v2704))
theorem k0_idx1170_inb : ∀ (v2704 : IVec S16 32) (k0_hw1170 : k0_chk1170 v2704), ∀ a x, ((![v2704] : Fin 1 → IVec S16 32) a x).toNat < S32768.size a := fun v2704 k0_hw1170 => k0_hw1170

def k0_chk1171 (v2708 : IVec S16 32) : Prop :=
  (∀ a x, ((![v2708] : Fin 1 → IVec S16 32) a x).toNat < S32768.size a)
instance k0_chk1171.dec : ∀ (v2708 : IVec S16 32), Decidable (k0_chk1171 v2708) := fun v2708 => decidable_of_iff' _ (Iff.of_eq (k0_chk1171.eq_1 v2708))
theorem k0_idx1171_inb : ∀ (v2708 : IVec S16 32) (k0_hw1171 : k0_chk1171 v2708), ∀ a x, ((![v2708] : Fin 1 → IVec S16 32) a x).toNat < S32768.size a := fun v2708 k0_hw1171 => k0_hw1171

def k0_chk1172 (v2712 : IVec S16 32) : Prop :=
  (∀ a x, ((![v2712] : Fin 1 → IVec S16 32) a x).toNat < S32768.size a)
instance k0_chk1172.dec : ∀ (v2712 : IVec S16 32), Decidable (k0_chk1172 v2712) := fun v2712 => decidable_of_iff' _ (Iff.of_eq (k0_chk1172.eq_1 v2712))
theorem k0_idx1172_inb : ∀ (v2712 : IVec S16 32) (k0_hw1172 : k0_chk1172 v2712), ∀ a x, ((![v2712] : Fin 1 → IVec S16 32) a x).toNat < S32768.size a := fun v2712 k0_hw1172 => k0_hw1172

def k0_chk1173 (v2716 : IVec S16 32) : Prop :=
  (∀ a x, ((![v2716] : Fin 1 → IVec S16 32) a x).toNat < S32768.size a)
instance k0_chk1173.dec : ∀ (v2716 : IVec S16 32), Decidable (k0_chk1173 v2716) := fun v2716 => decidable_of_iff' _ (Iff.of_eq (k0_chk1173.eq_1 v2716))
theorem k0_idx1173_inb : ∀ (v2716 : IVec S16 32) (k0_hw1173 : k0_chk1173 v2716), ∀ a x, ((![v2716] : Fin 1 → IVec S16 32) a x).toNat < S32768.size a := fun v2716 k0_hw1173 => k0_hw1173

def k0_chk1174 (v2720 : IVec S16 32) : Prop :=
  (∀ a x, ((![v2720] : Fin 1 → IVec S16 32) a x).toNat < S32768.size a)
instance k0_chk1174.dec : ∀ (v2720 : IVec S16 32), Decidable (k0_chk1174 v2720) := fun v2720 => decidable_of_iff' _ (Iff.of_eq (k0_chk1174.eq_1 v2720))
theorem k0_idx1174_inb : ∀ (v2720 : IVec S16 32) (k0_hw1174 : k0_chk1174 v2720), ∀ a x, ((![v2720] : Fin 1 → IVec S16 32) a x).toNat < S32768.size a := fun v2720 k0_hw1174 => k0_hw1174

def k0_chk1175 (v2724 : IVec S16 32) : Prop :=
  (∀ a x, ((![v2724] : Fin 1 → IVec S16 32) a x).toNat < S32768.size a)
instance k0_chk1175.dec : ∀ (v2724 : IVec S16 32), Decidable (k0_chk1175 v2724) := fun v2724 => decidable_of_iff' _ (Iff.of_eq (k0_chk1175.eq_1 v2724))
theorem k0_idx1175_inb : ∀ (v2724 : IVec S16 32) (k0_hw1175 : k0_chk1175 v2724), ∀ a x, ((![v2724] : Fin 1 → IVec S16 32) a x).toNat < S32768.size a := fun v2724 k0_hw1175 => k0_hw1175

def k0_chk1176 (v2728 : IVec S16 32) : Prop :=
  (∀ a x, ((![v2728] : Fin 1 → IVec S16 32) a x).toNat < S32768.size a)
instance k0_chk1176.dec : ∀ (v2728 : IVec S16 32), Decidable (k0_chk1176 v2728) := fun v2728 => decidable_of_iff' _ (Iff.of_eq (k0_chk1176.eq_1 v2728))
theorem k0_idx1176_inb : ∀ (v2728 : IVec S16 32) (k0_hw1176 : k0_chk1176 v2728), ∀ a x, ((![v2728] : Fin 1 → IVec S16 32) a x).toNat < S32768.size a := fun v2728 k0_hw1176 => k0_hw1176

def k0_chk1177 (v2732 : IVec S16 32) : Prop :=
  (∀ a x, ((![v2732] : Fin 1 → IVec S16 32) a x).toNat < S32768.size a)
instance k0_chk1177.dec : ∀ (v2732 : IVec S16 32), Decidable (k0_chk1177 v2732) := fun v2732 => decidable_of_iff' _ (Iff.of_eq (k0_chk1177.eq_1 v2732))
theorem k0_idx1177_inb : ∀ (v2732 : IVec S16 32) (k0_hw1177 : k0_chk1177 v2732), ∀ a x, ((![v2732] : Fin 1 → IVec S16 32) a x).toNat < S32768.size a := fun v2732 k0_hw1177 => k0_hw1177

def k0_chk1178 (v2736 : IVec S16 32) : Prop :=
  (∀ a x, ((![v2736] : Fin 1 → IVec S16 32) a x).toNat < S32768.size a)
instance k0_chk1178.dec : ∀ (v2736 : IVec S16 32), Decidable (k0_chk1178 v2736) := fun v2736 => decidable_of_iff' _ (Iff.of_eq (k0_chk1178.eq_1 v2736))
theorem k0_idx1178_inb : ∀ (v2736 : IVec S16 32) (k0_hw1178 : k0_chk1178 v2736), ∀ a x, ((![v2736] : Fin 1 → IVec S16 32) a x).toNat < S32768.size a := fun v2736 k0_hw1178 => k0_hw1178

def k0_chk1179 (v2740 : IVec S16 32) : Prop :=
  (∀ a x, ((![v2740] : Fin 1 → IVec S16 32) a x).toNat < S32768.size a)
instance k0_chk1179.dec : ∀ (v2740 : IVec S16 32), Decidable (k0_chk1179 v2740) := fun v2740 => decidable_of_iff' _ (Iff.of_eq (k0_chk1179.eq_1 v2740))
theorem k0_idx1179_inb : ∀ (v2740 : IVec S16 32) (k0_hw1179 : k0_chk1179 v2740), ∀ a x, ((![v2740] : Fin 1 → IVec S16 32) a x).toNat < S32768.size a := fun v2740 k0_hw1179 => k0_hw1179

def k0_chk1180 (v2744 : IVec S16 32) : Prop :=
  (∀ a x, ((![v2744] : Fin 1 → IVec S16 32) a x).toNat < S32768.size a)
instance k0_chk1180.dec : ∀ (v2744 : IVec S16 32), Decidable (k0_chk1180 v2744) := fun v2744 => decidable_of_iff' _ (Iff.of_eq (k0_chk1180.eq_1 v2744))
theorem k0_idx1180_inb : ∀ (v2744 : IVec S16 32) (k0_hw1180 : k0_chk1180 v2744), ∀ a x, ((![v2744] : Fin 1 → IVec S16 32) a x).toNat < S32768.size a := fun v2744 k0_hw1180 => k0_hw1180

def k0_chk1181 (v2748 : IVec S16 32) : Prop :=
  (∀ a x, ((![v2748] : Fin 1 → IVec S16 32) a x).toNat < S32768.size a)
instance k0_chk1181.dec : ∀ (v2748 : IVec S16 32), Decidable (k0_chk1181 v2748) := fun v2748 => decidable_of_iff' _ (Iff.of_eq (k0_chk1181.eq_1 v2748))
theorem k0_idx1181_inb : ∀ (v2748 : IVec S16 32) (k0_hw1181 : k0_chk1181 v2748), ∀ a x, ((![v2748] : Fin 1 → IVec S16 32) a x).toNat < S32768.size a := fun v2748 k0_hw1181 => k0_hw1181

def k0_chk1182 (v2752 : IVec S16 32) : Prop :=
  (∀ a x, ((![v2752] : Fin 1 → IVec S16 32) a x).toNat < S32768.size a)
instance k0_chk1182.dec : ∀ (v2752 : IVec S16 32), Decidable (k0_chk1182 v2752) := fun v2752 => decidable_of_iff' _ (Iff.of_eq (k0_chk1182.eq_1 v2752))
theorem k0_idx1182_inb : ∀ (v2752 : IVec S16 32) (k0_hw1182 : k0_chk1182 v2752), ∀ a x, ((![v2752] : Fin 1 → IVec S16 32) a x).toNat < S32768.size a := fun v2752 k0_hw1182 => k0_hw1182

def k0_chk1183 (v2756 : IVec S16 32) : Prop :=
  (∀ a x, ((![v2756] : Fin 1 → IVec S16 32) a x).toNat < S32768.size a)
instance k0_chk1183.dec : ∀ (v2756 : IVec S16 32), Decidable (k0_chk1183 v2756) := fun v2756 => decidable_of_iff' _ (Iff.of_eq (k0_chk1183.eq_1 v2756))
theorem k0_idx1183_inb : ∀ (v2756 : IVec S16 32) (k0_hw1183 : k0_chk1183 v2756), ∀ a x, ((![v2756] : Fin 1 → IVec S16 32) a x).toNat < S32768.size a := fun v2756 k0_hw1183 => k0_hw1183

def k0_chk1184 (v2760 : IVec S16 32) : Prop :=
  (∀ a x, ((![v2760] : Fin 1 → IVec S16 32) a x).toNat < S32768.size a)
instance k0_chk1184.dec : ∀ (v2760 : IVec S16 32), Decidable (k0_chk1184 v2760) := fun v2760 => decidable_of_iff' _ (Iff.of_eq (k0_chk1184.eq_1 v2760))
theorem k0_idx1184_inb : ∀ (v2760 : IVec S16 32) (k0_hw1184 : k0_chk1184 v2760), ∀ a x, ((![v2760] : Fin 1 → IVec S16 32) a x).toNat < S32768.size a := fun v2760 k0_hw1184 => k0_hw1184

def k0_chk1185 (v2764 : IVec S16 32) : Prop :=
  (∀ a x, ((![v2764] : Fin 1 → IVec S16 32) a x).toNat < S32768.size a)
instance k0_chk1185.dec : ∀ (v2764 : IVec S16 32), Decidable (k0_chk1185 v2764) := fun v2764 => decidable_of_iff' _ (Iff.of_eq (k0_chk1185.eq_1 v2764))
theorem k0_idx1185_inb : ∀ (v2764 : IVec S16 32) (k0_hw1185 : k0_chk1185 v2764), ∀ a x, ((![v2764] : Fin 1 → IVec S16 32) a x).toNat < S32768.size a := fun v2764 k0_hw1185 => k0_hw1185

def k0_chk1186 (v2768 : IVec S16 32) : Prop :=
  (∀ a x, ((![v2768] : Fin 1 → IVec S16 32) a x).toNat < S32768.size a)
instance k0_chk1186.dec : ∀ (v2768 : IVec S16 32), Decidable (k0_chk1186 v2768) := fun v2768 => decidable_of_iff' _ (Iff.of_eq (k0_chk1186.eq_1 v2768))
theorem k0_idx1186_inb : ∀ (v2768 : IVec S16 32) (k0_hw1186 : k0_chk1186 v2768), ∀ a x, ((![v2768] : Fin 1 → IVec S16 32) a x).toNat < S32768.size a := fun v2768 k0_hw1186 => k0_hw1186

def k0_chk1187 (v2772 : IVec S16 32) : Prop :=
  (∀ a x, ((![v2772] : Fin 1 → IVec S16 32) a x).toNat < S32768.size a)
instance k0_chk1187.dec : ∀ (v2772 : IVec S16 32), Decidable (k0_chk1187 v2772) := fun v2772 => decidable_of_iff' _ (Iff.of_eq (k0_chk1187.eq_1 v2772))
theorem k0_idx1187_inb : ∀ (v2772 : IVec S16 32) (k0_hw1187 : k0_chk1187 v2772), ∀ a x, ((![v2772] : Fin 1 → IVec S16 32) a x).toNat < S32768.size a := fun v2772 k0_hw1187 => k0_hw1187

def k0_chk1188 (v2776 : IVec S16 32) : Prop :=
  (∀ a x, ((![v2776] : Fin 1 → IVec S16 32) a x).toNat < S32768.size a)
instance k0_chk1188.dec : ∀ (v2776 : IVec S16 32), Decidable (k0_chk1188 v2776) := fun v2776 => decidable_of_iff' _ (Iff.of_eq (k0_chk1188.eq_1 v2776))
theorem k0_idx1188_inb : ∀ (v2776 : IVec S16 32) (k0_hw1188 : k0_chk1188 v2776), ∀ a x, ((![v2776] : Fin 1 → IVec S16 32) a x).toNat < S32768.size a := fun v2776 k0_hw1188 => k0_hw1188

def k0_chk1189 (v2780 : IVec S16 32) : Prop :=
  (∀ a x, ((![v2780] : Fin 1 → IVec S16 32) a x).toNat < S32768.size a)
instance k0_chk1189.dec : ∀ (v2780 : IVec S16 32), Decidable (k0_chk1189 v2780) := fun v2780 => decidable_of_iff' _ (Iff.of_eq (k0_chk1189.eq_1 v2780))
theorem k0_idx1189_inb : ∀ (v2780 : IVec S16 32) (k0_hw1189 : k0_chk1189 v2780), ∀ a x, ((![v2780] : Fin 1 → IVec S16 32) a x).toNat < S32768.size a := fun v2780 k0_hw1189 => k0_hw1189

def k0_chk1190 (v2784 : IVec S16 32) : Prop :=
  (∀ a x, ((![v2784] : Fin 1 → IVec S16 32) a x).toNat < S32768.size a)
instance k0_chk1190.dec : ∀ (v2784 : IVec S16 32), Decidable (k0_chk1190 v2784) := fun v2784 => decidable_of_iff' _ (Iff.of_eq (k0_chk1190.eq_1 v2784))
theorem k0_idx1190_inb : ∀ (v2784 : IVec S16 32) (k0_hw1190 : k0_chk1190 v2784), ∀ a x, ((![v2784] : Fin 1 → IVec S16 32) a x).toNat < S32768.size a := fun v2784 k0_hw1190 => k0_hw1190

def k0_chk1191 (v2788 : IVec S16 32) : Prop :=
  (∀ a x, ((![v2788] : Fin 1 → IVec S16 32) a x).toNat < S32768.size a)
instance k0_chk1191.dec : ∀ (v2788 : IVec S16 32), Decidable (k0_chk1191 v2788) := fun v2788 => decidable_of_iff' _ (Iff.of_eq (k0_chk1191.eq_1 v2788))
theorem k0_idx1191_inb : ∀ (v2788 : IVec S16 32) (k0_hw1191 : k0_chk1191 v2788), ∀ a x, ((![v2788] : Fin 1 → IVec S16 32) a x).toNat < S32768.size a := fun v2788 k0_hw1191 => k0_hw1191

def k0_chk1192 (v2792 : IVec S16 32) : Prop :=
  (∀ a x, ((![v2792] : Fin 1 → IVec S16 32) a x).toNat < S32768.size a)
instance k0_chk1192.dec : ∀ (v2792 : IVec S16 32), Decidable (k0_chk1192 v2792) := fun v2792 => decidable_of_iff' _ (Iff.of_eq (k0_chk1192.eq_1 v2792))
theorem k0_idx1192_inb : ∀ (v2792 : IVec S16 32) (k0_hw1192 : k0_chk1192 v2792), ∀ a x, ((![v2792] : Fin 1 → IVec S16 32) a x).toNat < S32768.size a := fun v2792 k0_hw1192 => k0_hw1192

def k0_chk1193 (v2796 : IVec S16 32) : Prop :=
  (∀ a x, ((![v2796] : Fin 1 → IVec S16 32) a x).toNat < S32768.size a)
instance k0_chk1193.dec : ∀ (v2796 : IVec S16 32), Decidable (k0_chk1193 v2796) := fun v2796 => decidable_of_iff' _ (Iff.of_eq (k0_chk1193.eq_1 v2796))
theorem k0_idx1193_inb : ∀ (v2796 : IVec S16 32) (k0_hw1193 : k0_chk1193 v2796), ∀ a x, ((![v2796] : Fin 1 → IVec S16 32) a x).toNat < S32768.size a := fun v2796 k0_hw1193 => k0_hw1193

def k0_chk1194 (v2800 : IVec S16 32) : Prop :=
  (∀ a x, ((![v2800] : Fin 1 → IVec S16 32) a x).toNat < S32768.size a)
instance k0_chk1194.dec : ∀ (v2800 : IVec S16 32), Decidable (k0_chk1194 v2800) := fun v2800 => decidable_of_iff' _ (Iff.of_eq (k0_chk1194.eq_1 v2800))
theorem k0_idx1194_inb : ∀ (v2800 : IVec S16 32) (k0_hw1194 : k0_chk1194 v2800), ∀ a x, ((![v2800] : Fin 1 → IVec S16 32) a x).toNat < S32768.size a := fun v2800 k0_hw1194 => k0_hw1194

def k0_chk1195 (v2804 : IVec S16 32) : Prop :=
  (∀ a x, ((![v2804] : Fin 1 → IVec S16 32) a x).toNat < S32768.size a)
instance k0_chk1195.dec : ∀ (v2804 : IVec S16 32), Decidable (k0_chk1195 v2804) := fun v2804 => decidable_of_iff' _ (Iff.of_eq (k0_chk1195.eq_1 v2804))
theorem k0_idx1195_inb : ∀ (v2804 : IVec S16 32) (k0_hw1195 : k0_chk1195 v2804), ∀ a x, ((![v2804] : Fin 1 → IVec S16 32) a x).toNat < S32768.size a := fun v2804 k0_hw1195 => k0_hw1195

def k0_chk1196 (v2808 : IVec S16 32) : Prop :=
  (∀ a x, ((![v2808] : Fin 1 → IVec S16 32) a x).toNat < S32768.size a)
instance k0_chk1196.dec : ∀ (v2808 : IVec S16 32), Decidable (k0_chk1196 v2808) := fun v2808 => decidable_of_iff' _ (Iff.of_eq (k0_chk1196.eq_1 v2808))
theorem k0_idx1196_inb : ∀ (v2808 : IVec S16 32) (k0_hw1196 : k0_chk1196 v2808), ∀ a x, ((![v2808] : Fin 1 → IVec S16 32) a x).toNat < S32768.size a := fun v2808 k0_hw1196 => k0_hw1196

def k0_chk1197 (v2812 : IVec S16 32) : Prop :=
  (∀ a x, ((![v2812] : Fin 1 → IVec S16 32) a x).toNat < S32768.size a)
instance k0_chk1197.dec : ∀ (v2812 : IVec S16 32), Decidable (k0_chk1197 v2812) := fun v2812 => decidable_of_iff' _ (Iff.of_eq (k0_chk1197.eq_1 v2812))
theorem k0_idx1197_inb : ∀ (v2812 : IVec S16 32) (k0_hw1197 : k0_chk1197 v2812), ∀ a x, ((![v2812] : Fin 1 → IVec S16 32) a x).toNat < S32768.size a := fun v2812 k0_hw1197 => k0_hw1197

def k0_chk1198 (v2816 : IVec S16 32) : Prop :=
  (∀ a x, ((![v2816] : Fin 1 → IVec S16 32) a x).toNat < S32768.size a)
instance k0_chk1198.dec : ∀ (v2816 : IVec S16 32), Decidable (k0_chk1198 v2816) := fun v2816 => decidable_of_iff' _ (Iff.of_eq (k0_chk1198.eq_1 v2816))
theorem k0_idx1198_inb : ∀ (v2816 : IVec S16 32) (k0_hw1198 : k0_chk1198 v2816), ∀ a x, ((![v2816] : Fin 1 → IVec S16 32) a x).toNat < S32768.size a := fun v2816 k0_hw1198 => k0_hw1198

def k0_chk1199 (v2820 : IVec S16 32) : Prop :=
  (∀ a x, ((![v2820] : Fin 1 → IVec S16 32) a x).toNat < S32768.size a)
instance k0_chk1199.dec : ∀ (v2820 : IVec S16 32), Decidable (k0_chk1199 v2820) := fun v2820 => decidable_of_iff' _ (Iff.of_eq (k0_chk1199.eq_1 v2820))
theorem k0_idx1199_inb : ∀ (v2820 : IVec S16 32) (k0_hw1199 : k0_chk1199 v2820), ∀ a x, ((![v2820] : Fin 1 → IVec S16 32) a x).toNat < S32768.size a := fun v2820 k0_hw1199 => k0_hw1199

def k0_chk1200 (v2824 : IVec S16 32) : Prop :=
  (∀ a x, ((![v2824] : Fin 1 → IVec S16 32) a x).toNat < S32768.size a)
instance k0_chk1200.dec : ∀ (v2824 : IVec S16 32), Decidable (k0_chk1200 v2824) := fun v2824 => decidable_of_iff' _ (Iff.of_eq (k0_chk1200.eq_1 v2824))
theorem k0_idx1200_inb : ∀ (v2824 : IVec S16 32) (k0_hw1200 : k0_chk1200 v2824), ∀ a x, ((![v2824] : Fin 1 → IVec S16 32) a x).toNat < S32768.size a := fun v2824 k0_hw1200 => k0_hw1200

def k0_chk1201 (v2828 : IVec S16 32) : Prop :=
  (∀ a x, ((![v2828] : Fin 1 → IVec S16 32) a x).toNat < S32768.size a)
instance k0_chk1201.dec : ∀ (v2828 : IVec S16 32), Decidable (k0_chk1201 v2828) := fun v2828 => decidable_of_iff' _ (Iff.of_eq (k0_chk1201.eq_1 v2828))
theorem k0_idx1201_inb : ∀ (v2828 : IVec S16 32) (k0_hw1201 : k0_chk1201 v2828), ∀ a x, ((![v2828] : Fin 1 → IVec S16 32) a x).toNat < S32768.size a := fun v2828 k0_hw1201 => k0_hw1201

def k0_chk1202 (v2832 : IVec S16 32) : Prop :=
  (∀ a x, ((![v2832] : Fin 1 → IVec S16 32) a x).toNat < S32768.size a)
instance k0_chk1202.dec : ∀ (v2832 : IVec S16 32), Decidable (k0_chk1202 v2832) := fun v2832 => decidable_of_iff' _ (Iff.of_eq (k0_chk1202.eq_1 v2832))
theorem k0_idx1202_inb : ∀ (v2832 : IVec S16 32) (k0_hw1202 : k0_chk1202 v2832), ∀ a x, ((![v2832] : Fin 1 → IVec S16 32) a x).toNat < S32768.size a := fun v2832 k0_hw1202 => k0_hw1202

def k0_chk1203 (v2836 : IVec S16 32) : Prop :=
  (∀ a x, ((![v2836] : Fin 1 → IVec S16 32) a x).toNat < S32768.size a)
instance k0_chk1203.dec : ∀ (v2836 : IVec S16 32), Decidable (k0_chk1203 v2836) := fun v2836 => decidable_of_iff' _ (Iff.of_eq (k0_chk1203.eq_1 v2836))
theorem k0_idx1203_inb : ∀ (v2836 : IVec S16 32) (k0_hw1203 : k0_chk1203 v2836), ∀ a x, ((![v2836] : Fin 1 → IVec S16 32) a x).toNat < S32768.size a := fun v2836 k0_hw1203 => k0_hw1203

def k0_chk1204 (v2840 : IVec S16 32) : Prop :=
  (∀ a x, ((![v2840] : Fin 1 → IVec S16 32) a x).toNat < S32768.size a)
instance k0_chk1204.dec : ∀ (v2840 : IVec S16 32), Decidable (k0_chk1204 v2840) := fun v2840 => decidable_of_iff' _ (Iff.of_eq (k0_chk1204.eq_1 v2840))
theorem k0_idx1204_inb : ∀ (v2840 : IVec S16 32) (k0_hw1204 : k0_chk1204 v2840), ∀ a x, ((![v2840] : Fin 1 → IVec S16 32) a x).toNat < S32768.size a := fun v2840 k0_hw1204 => k0_hw1204

def k0_chk1205 (v2844 : IVec S16 32) : Prop :=
  (∀ a x, ((![v2844] : Fin 1 → IVec S16 32) a x).toNat < S32768.size a)
instance k0_chk1205.dec : ∀ (v2844 : IVec S16 32), Decidable (k0_chk1205 v2844) := fun v2844 => decidable_of_iff' _ (Iff.of_eq (k0_chk1205.eq_1 v2844))
theorem k0_idx1205_inb : ∀ (v2844 : IVec S16 32) (k0_hw1205 : k0_chk1205 v2844), ∀ a x, ((![v2844] : Fin 1 → IVec S16 32) a x).toNat < S32768.size a := fun v2844 k0_hw1205 => k0_hw1205

def k0_chk1206 (v2848 : IVec S16 32) : Prop :=
  (∀ a x, ((![v2848] : Fin 1 → IVec S16 32) a x).toNat < S32768.size a)
instance k0_chk1206.dec : ∀ (v2848 : IVec S16 32), Decidable (k0_chk1206 v2848) := fun v2848 => decidable_of_iff' _ (Iff.of_eq (k0_chk1206.eq_1 v2848))
theorem k0_idx1206_inb : ∀ (v2848 : IVec S16 32) (k0_hw1206 : k0_chk1206 v2848), ∀ a x, ((![v2848] : Fin 1 → IVec S16 32) a x).toNat < S32768.size a := fun v2848 k0_hw1206 => k0_hw1206

def k0_chk1207 (v2852 : IVec S16 32) : Prop :=
  (∀ a x, ((![v2852] : Fin 1 → IVec S16 32) a x).toNat < S32768.size a)
instance k0_chk1207.dec : ∀ (v2852 : IVec S16 32), Decidable (k0_chk1207 v2852) := fun v2852 => decidable_of_iff' _ (Iff.of_eq (k0_chk1207.eq_1 v2852))
theorem k0_idx1207_inb : ∀ (v2852 : IVec S16 32) (k0_hw1207 : k0_chk1207 v2852), ∀ a x, ((![v2852] : Fin 1 → IVec S16 32) a x).toNat < S32768.size a := fun v2852 k0_hw1207 => k0_hw1207

def k0_chk1208 (v2856 : IVec S16 32) : Prop :=
  (∀ a x, ((![v2856] : Fin 1 → IVec S16 32) a x).toNat < S32768.size a)
instance k0_chk1208.dec : ∀ (v2856 : IVec S16 32), Decidable (k0_chk1208 v2856) := fun v2856 => decidable_of_iff' _ (Iff.of_eq (k0_chk1208.eq_1 v2856))
theorem k0_idx1208_inb : ∀ (v2856 : IVec S16 32) (k0_hw1208 : k0_chk1208 v2856), ∀ a x, ((![v2856] : Fin 1 → IVec S16 32) a x).toNat < S32768.size a := fun v2856 k0_hw1208 => k0_hw1208

def k0_chk1209 (v2860 : IVec S16 32) : Prop :=
  (∀ a x, ((![v2860] : Fin 1 → IVec S16 32) a x).toNat < S32768.size a)
instance k0_chk1209.dec : ∀ (v2860 : IVec S16 32), Decidable (k0_chk1209 v2860) := fun v2860 => decidable_of_iff' _ (Iff.of_eq (k0_chk1209.eq_1 v2860))
theorem k0_idx1209_inb : ∀ (v2860 : IVec S16 32) (k0_hw1209 : k0_chk1209 v2860), ∀ a x, ((![v2860] : Fin 1 → IVec S16 32) a x).toNat < S32768.size a := fun v2860 k0_hw1209 => k0_hw1209

def k0_chk1210 (v2864 : IVec S16 32) : Prop :=
  (∀ a x, ((![v2864] : Fin 1 → IVec S16 32) a x).toNat < S32768.size a)
instance k0_chk1210.dec : ∀ (v2864 : IVec S16 32), Decidable (k0_chk1210 v2864) := fun v2864 => decidable_of_iff' _ (Iff.of_eq (k0_chk1210.eq_1 v2864))
theorem k0_idx1210_inb : ∀ (v2864 : IVec S16 32) (k0_hw1210 : k0_chk1210 v2864), ∀ a x, ((![v2864] : Fin 1 → IVec S16 32) a x).toNat < S32768.size a := fun v2864 k0_hw1210 => k0_hw1210

def k0_chk1211 (v2868 : IVec S16 32) : Prop :=
  (∀ a x, ((![v2868] : Fin 1 → IVec S16 32) a x).toNat < S32768.size a)
instance k0_chk1211.dec : ∀ (v2868 : IVec S16 32), Decidable (k0_chk1211 v2868) := fun v2868 => decidable_of_iff' _ (Iff.of_eq (k0_chk1211.eq_1 v2868))
theorem k0_idx1211_inb : ∀ (v2868 : IVec S16 32) (k0_hw1211 : k0_chk1211 v2868), ∀ a x, ((![v2868] : Fin 1 → IVec S16 32) a x).toNat < S32768.size a := fun v2868 k0_hw1211 => k0_hw1211

def k0_chk1212 (v2872 : IVec S16 32) : Prop :=
  (∀ a x, ((![v2872] : Fin 1 → IVec S16 32) a x).toNat < S32768.size a)
instance k0_chk1212.dec : ∀ (v2872 : IVec S16 32), Decidable (k0_chk1212 v2872) := fun v2872 => decidable_of_iff' _ (Iff.of_eq (k0_chk1212.eq_1 v2872))
theorem k0_idx1212_inb : ∀ (v2872 : IVec S16 32) (k0_hw1212 : k0_chk1212 v2872), ∀ a x, ((![v2872] : Fin 1 → IVec S16 32) a x).toNat < S32768.size a := fun v2872 k0_hw1212 => k0_hw1212

def k0_chk1213 (v2876 : IVec S16 32) : Prop :=
  (∀ a x, ((![v2876] : Fin 1 → IVec S16 32) a x).toNat < S32768.size a)
instance k0_chk1213.dec : ∀ (v2876 : IVec S16 32), Decidable (k0_chk1213 v2876) := fun v2876 => decidable_of_iff' _ (Iff.of_eq (k0_chk1213.eq_1 v2876))
theorem k0_idx1213_inb : ∀ (v2876 : IVec S16 32) (k0_hw1213 : k0_chk1213 v2876), ∀ a x, ((![v2876] : Fin 1 → IVec S16 32) a x).toNat < S32768.size a := fun v2876 k0_hw1213 => k0_hw1213

def k0_chk1214 (v2880 : IVec S16 32) : Prop :=
  (∀ a x, ((![v2880] : Fin 1 → IVec S16 32) a x).toNat < S32768.size a)
instance k0_chk1214.dec : ∀ (v2880 : IVec S16 32), Decidable (k0_chk1214 v2880) := fun v2880 => decidable_of_iff' _ (Iff.of_eq (k0_chk1214.eq_1 v2880))
theorem k0_idx1214_inb : ∀ (v2880 : IVec S16 32) (k0_hw1214 : k0_chk1214 v2880), ∀ a x, ((![v2880] : Fin 1 → IVec S16 32) a x).toNat < S32768.size a := fun v2880 k0_hw1214 => k0_hw1214

def k0_chk1215 (v2884 : IVec S16 32) : Prop :=
  (∀ a x, ((![v2884] : Fin 1 → IVec S16 32) a x).toNat < S32768.size a)
instance k0_chk1215.dec : ∀ (v2884 : IVec S16 32), Decidable (k0_chk1215 v2884) := fun v2884 => decidable_of_iff' _ (Iff.of_eq (k0_chk1215.eq_1 v2884))
theorem k0_idx1215_inb : ∀ (v2884 : IVec S16 32) (k0_hw1215 : k0_chk1215 v2884), ∀ a x, ((![v2884] : Fin 1 → IVec S16 32) a x).toNat < S32768.size a := fun v2884 k0_hw1215 => k0_hw1215

def k0_chk1216 (v2888 : IVec S16 32) : Prop :=
  (∀ a x, ((![v2888] : Fin 1 → IVec S16 32) a x).toNat < S32768.size a)
instance k0_chk1216.dec : ∀ (v2888 : IVec S16 32), Decidable (k0_chk1216 v2888) := fun v2888 => decidable_of_iff' _ (Iff.of_eq (k0_chk1216.eq_1 v2888))
theorem k0_idx1216_inb : ∀ (v2888 : IVec S16 32) (k0_hw1216 : k0_chk1216 v2888), ∀ a x, ((![v2888] : Fin 1 → IVec S16 32) a x).toNat < S32768.size a := fun v2888 k0_hw1216 => k0_hw1216

def k0_chk1217 (v2892 : IVec S16 32) : Prop :=
  (∀ a x, ((![v2892] : Fin 1 → IVec S16 32) a x).toNat < S32768.size a)
instance k0_chk1217.dec : ∀ (v2892 : IVec S16 32), Decidable (k0_chk1217 v2892) := fun v2892 => decidable_of_iff' _ (Iff.of_eq (k0_chk1217.eq_1 v2892))
theorem k0_idx1217_inb : ∀ (v2892 : IVec S16 32) (k0_hw1217 : k0_chk1217 v2892), ∀ a x, ((![v2892] : Fin 1 → IVec S16 32) a x).toNat < S32768.size a := fun v2892 k0_hw1217 => k0_hw1217

def k0_chk1218 (v2896 : IVec S16 32) : Prop :=
  (∀ a x, ((![v2896] : Fin 1 → IVec S16 32) a x).toNat < S32768.size a)
instance k0_chk1218.dec : ∀ (v2896 : IVec S16 32), Decidable (k0_chk1218 v2896) := fun v2896 => decidable_of_iff' _ (Iff.of_eq (k0_chk1218.eq_1 v2896))
theorem k0_idx1218_inb : ∀ (v2896 : IVec S16 32) (k0_hw1218 : k0_chk1218 v2896), ∀ a x, ((![v2896] : Fin 1 → IVec S16 32) a x).toNat < S32768.size a := fun v2896 k0_hw1218 => k0_hw1218

def k0_chk1219 (v2900 : IVec S16 32) : Prop :=
  (∀ a x, ((![v2900] : Fin 1 → IVec S16 32) a x).toNat < S32768.size a)
instance k0_chk1219.dec : ∀ (v2900 : IVec S16 32), Decidable (k0_chk1219 v2900) := fun v2900 => decidable_of_iff' _ (Iff.of_eq (k0_chk1219.eq_1 v2900))
theorem k0_idx1219_inb : ∀ (v2900 : IVec S16 32) (k0_hw1219 : k0_chk1219 v2900), ∀ a x, ((![v2900] : Fin 1 → IVec S16 32) a x).toNat < S32768.size a := fun v2900 k0_hw1219 => k0_hw1219

def k0_chk1220 (v2904 : IVec S16 32) : Prop :=
  (∀ a x, ((![v2904] : Fin 1 → IVec S16 32) a x).toNat < S32768.size a)
instance k0_chk1220.dec : ∀ (v2904 : IVec S16 32), Decidable (k0_chk1220 v2904) := fun v2904 => decidable_of_iff' _ (Iff.of_eq (k0_chk1220.eq_1 v2904))
theorem k0_idx1220_inb : ∀ (v2904 : IVec S16 32) (k0_hw1220 : k0_chk1220 v2904), ∀ a x, ((![v2904] : Fin 1 → IVec S16 32) a x).toNat < S32768.size a := fun v2904 k0_hw1220 => k0_hw1220

def k0_chk1221 (v2908 : IVec S16 32) : Prop :=
  (∀ a x, ((![v2908] : Fin 1 → IVec S16 32) a x).toNat < S32768.size a)
instance k0_chk1221.dec : ∀ (v2908 : IVec S16 32), Decidable (k0_chk1221 v2908) := fun v2908 => decidable_of_iff' _ (Iff.of_eq (k0_chk1221.eq_1 v2908))
theorem k0_idx1221_inb : ∀ (v2908 : IVec S16 32) (k0_hw1221 : k0_chk1221 v2908), ∀ a x, ((![v2908] : Fin 1 → IVec S16 32) a x).toNat < S32768.size a := fun v2908 k0_hw1221 => k0_hw1221

def k0_chk1222 (v2912 : IVec S16 32) : Prop :=
  (∀ a x, ((![v2912] : Fin 1 → IVec S16 32) a x).toNat < S32768.size a)
instance k0_chk1222.dec : ∀ (v2912 : IVec S16 32), Decidable (k0_chk1222 v2912) := fun v2912 => decidable_of_iff' _ (Iff.of_eq (k0_chk1222.eq_1 v2912))
theorem k0_idx1222_inb : ∀ (v2912 : IVec S16 32) (k0_hw1222 : k0_chk1222 v2912), ∀ a x, ((![v2912] : Fin 1 → IVec S16 32) a x).toNat < S32768.size a := fun v2912 k0_hw1222 => k0_hw1222

def k0_chk1223 (v2916 : IVec S16 32) : Prop :=
  (∀ a x, ((![v2916] : Fin 1 → IVec S16 32) a x).toNat < S32768.size a)
instance k0_chk1223.dec : ∀ (v2916 : IVec S16 32), Decidable (k0_chk1223 v2916) := fun v2916 => decidable_of_iff' _ (Iff.of_eq (k0_chk1223.eq_1 v2916))
theorem k0_idx1223_inb : ∀ (v2916 : IVec S16 32) (k0_hw1223 : k0_chk1223 v2916), ∀ a x, ((![v2916] : Fin 1 → IVec S16 32) a x).toNat < S32768.size a := fun v2916 k0_hw1223 => k0_hw1223

def k0_chk1224 (v2920 : IVec S16 32) : Prop :=
  (∀ a x, ((![v2920] : Fin 1 → IVec S16 32) a x).toNat < S32768.size a)
instance k0_chk1224.dec : ∀ (v2920 : IVec S16 32), Decidable (k0_chk1224 v2920) := fun v2920 => decidable_of_iff' _ (Iff.of_eq (k0_chk1224.eq_1 v2920))
theorem k0_idx1224_inb : ∀ (v2920 : IVec S16 32) (k0_hw1224 : k0_chk1224 v2920), ∀ a x, ((![v2920] : Fin 1 → IVec S16 32) a x).toNat < S32768.size a := fun v2920 k0_hw1224 => k0_hw1224

def k0_chk1225 (v2924 : IVec S16 32) : Prop :=
  (∀ a x, ((![v2924] : Fin 1 → IVec S16 32) a x).toNat < S32768.size a)
instance k0_chk1225.dec : ∀ (v2924 : IVec S16 32), Decidable (k0_chk1225 v2924) := fun v2924 => decidable_of_iff' _ (Iff.of_eq (k0_chk1225.eq_1 v2924))
theorem k0_idx1225_inb : ∀ (v2924 : IVec S16 32) (k0_hw1225 : k0_chk1225 v2924), ∀ a x, ((![v2924] : Fin 1 → IVec S16 32) a x).toNat < S32768.size a := fun v2924 k0_hw1225 => k0_hw1225

def k0_chk1226 (v2928 : IVec S16 32) : Prop :=
  (∀ a x, ((![v2928] : Fin 1 → IVec S16 32) a x).toNat < S32768.size a)
instance k0_chk1226.dec : ∀ (v2928 : IVec S16 32), Decidable (k0_chk1226 v2928) := fun v2928 => decidable_of_iff' _ (Iff.of_eq (k0_chk1226.eq_1 v2928))
theorem k0_idx1226_inb : ∀ (v2928 : IVec S16 32) (k0_hw1226 : k0_chk1226 v2928), ∀ a x, ((![v2928] : Fin 1 → IVec S16 32) a x).toNat < S32768.size a := fun v2928 k0_hw1226 => k0_hw1226

def k0_chk1227 (v2932 : IVec S16 32) : Prop :=
  (∀ a x, ((![v2932] : Fin 1 → IVec S16 32) a x).toNat < S32768.size a)
instance k0_chk1227.dec : ∀ (v2932 : IVec S16 32), Decidable (k0_chk1227 v2932) := fun v2932 => decidable_of_iff' _ (Iff.of_eq (k0_chk1227.eq_1 v2932))
theorem k0_idx1227_inb : ∀ (v2932 : IVec S16 32) (k0_hw1227 : k0_chk1227 v2932), ∀ a x, ((![v2932] : Fin 1 → IVec S16 32) a x).toNat < S32768.size a := fun v2932 k0_hw1227 => k0_hw1227

def k0_chk1228 (v2936 : IVec S16 32) : Prop :=
  (∀ a x, ((![v2936] : Fin 1 → IVec S16 32) a x).toNat < S32768.size a)
instance k0_chk1228.dec : ∀ (v2936 : IVec S16 32), Decidable (k0_chk1228 v2936) := fun v2936 => decidable_of_iff' _ (Iff.of_eq (k0_chk1228.eq_1 v2936))
theorem k0_idx1228_inb : ∀ (v2936 : IVec S16 32) (k0_hw1228 : k0_chk1228 v2936), ∀ a x, ((![v2936] : Fin 1 → IVec S16 32) a x).toNat < S32768.size a := fun v2936 k0_hw1228 => k0_hw1228

def k0_chk1229 (v2940 : IVec S16 32) : Prop :=
  (∀ a x, ((![v2940] : Fin 1 → IVec S16 32) a x).toNat < S32768.size a)
instance k0_chk1229.dec : ∀ (v2940 : IVec S16 32), Decidable (k0_chk1229 v2940) := fun v2940 => decidable_of_iff' _ (Iff.of_eq (k0_chk1229.eq_1 v2940))
theorem k0_idx1229_inb : ∀ (v2940 : IVec S16 32) (k0_hw1229 : k0_chk1229 v2940), ∀ a x, ((![v2940] : Fin 1 → IVec S16 32) a x).toNat < S32768.size a := fun v2940 k0_hw1229 => k0_hw1229

def k0_chk1230 (v2944 : IVec S16 32) : Prop :=
  (∀ a x, ((![v2944] : Fin 1 → IVec S16 32) a x).toNat < S32768.size a)
instance k0_chk1230.dec : ∀ (v2944 : IVec S16 32), Decidable (k0_chk1230 v2944) := fun v2944 => decidable_of_iff' _ (Iff.of_eq (k0_chk1230.eq_1 v2944))
theorem k0_idx1230_inb : ∀ (v2944 : IVec S16 32) (k0_hw1230 : k0_chk1230 v2944), ∀ a x, ((![v2944] : Fin 1 → IVec S16 32) a x).toNat < S32768.size a := fun v2944 k0_hw1230 => k0_hw1230

def k0_chk1231 (v2948 : IVec S16 32) : Prop :=
  (∀ a x, ((![v2948] : Fin 1 → IVec S16 32) a x).toNat < S32768.size a)
instance k0_chk1231.dec : ∀ (v2948 : IVec S16 32), Decidable (k0_chk1231 v2948) := fun v2948 => decidable_of_iff' _ (Iff.of_eq (k0_chk1231.eq_1 v2948))
theorem k0_idx1231_inb : ∀ (v2948 : IVec S16 32) (k0_hw1231 : k0_chk1231 v2948), ∀ a x, ((![v2948] : Fin 1 → IVec S16 32) a x).toNat < S32768.size a := fun v2948 k0_hw1231 => k0_hw1231

def k0_chk1232 (v2952 : IVec S16 32) : Prop :=
  (∀ a x, ((![v2952] : Fin 1 → IVec S16 32) a x).toNat < S32768.size a)
instance k0_chk1232.dec : ∀ (v2952 : IVec S16 32), Decidable (k0_chk1232 v2952) := fun v2952 => decidable_of_iff' _ (Iff.of_eq (k0_chk1232.eq_1 v2952))
theorem k0_idx1232_inb : ∀ (v2952 : IVec S16 32) (k0_hw1232 : k0_chk1232 v2952), ∀ a x, ((![v2952] : Fin 1 → IVec S16 32) a x).toNat < S32768.size a := fun v2952 k0_hw1232 => k0_hw1232

def k0_chk1233 (v2956 : IVec S16 32) : Prop :=
  (∀ a x, ((![v2956] : Fin 1 → IVec S16 32) a x).toNat < S32768.size a)
instance k0_chk1233.dec : ∀ (v2956 : IVec S16 32), Decidable (k0_chk1233 v2956) := fun v2956 => decidable_of_iff' _ (Iff.of_eq (k0_chk1233.eq_1 v2956))
theorem k0_idx1233_inb : ∀ (v2956 : IVec S16 32) (k0_hw1233 : k0_chk1233 v2956), ∀ a x, ((![v2956] : Fin 1 → IVec S16 32) a x).toNat < S32768.size a := fun v2956 k0_hw1233 => k0_hw1233

def k0_chk1234 (v2960 : IVec S16 32) : Prop :=
  (∀ a x, ((![v2960] : Fin 1 → IVec S16 32) a x).toNat < S32768.size a)
instance k0_chk1234.dec : ∀ (v2960 : IVec S16 32), Decidable (k0_chk1234 v2960) := fun v2960 => decidable_of_iff' _ (Iff.of_eq (k0_chk1234.eq_1 v2960))
theorem k0_idx1234_inb : ∀ (v2960 : IVec S16 32) (k0_hw1234 : k0_chk1234 v2960), ∀ a x, ((![v2960] : Fin 1 → IVec S16 32) a x).toNat < S32768.size a := fun v2960 k0_hw1234 => k0_hw1234

def k0_chk1235 (v2964 : IVec S16 32) : Prop :=
  (∀ a x, ((![v2964] : Fin 1 → IVec S16 32) a x).toNat < S32768.size a)
instance k0_chk1235.dec : ∀ (v2964 : IVec S16 32), Decidable (k0_chk1235 v2964) := fun v2964 => decidable_of_iff' _ (Iff.of_eq (k0_chk1235.eq_1 v2964))
theorem k0_idx1235_inb : ∀ (v2964 : IVec S16 32) (k0_hw1235 : k0_chk1235 v2964), ∀ a x, ((![v2964] : Fin 1 → IVec S16 32) a x).toNat < S32768.size a := fun v2964 k0_hw1235 => k0_hw1235

def k0_chk1236 (v2968 : IVec S16 32) : Prop :=
  (∀ a x, ((![v2968] : Fin 1 → IVec S16 32) a x).toNat < S32768.size a)
instance k0_chk1236.dec : ∀ (v2968 : IVec S16 32), Decidable (k0_chk1236 v2968) := fun v2968 => decidable_of_iff' _ (Iff.of_eq (k0_chk1236.eq_1 v2968))
theorem k0_idx1236_inb : ∀ (v2968 : IVec S16 32) (k0_hw1236 : k0_chk1236 v2968), ∀ a x, ((![v2968] : Fin 1 → IVec S16 32) a x).toNat < S32768.size a := fun v2968 k0_hw1236 => k0_hw1236

def k0_chk1237 (v2972 : IVec S16 32) : Prop :=
  (∀ a x, ((![v2972] : Fin 1 → IVec S16 32) a x).toNat < S32768.size a)
instance k0_chk1237.dec : ∀ (v2972 : IVec S16 32), Decidable (k0_chk1237 v2972) := fun v2972 => decidable_of_iff' _ (Iff.of_eq (k0_chk1237.eq_1 v2972))
theorem k0_idx1237_inb : ∀ (v2972 : IVec S16 32) (k0_hw1237 : k0_chk1237 v2972), ∀ a x, ((![v2972] : Fin 1 → IVec S16 32) a x).toNat < S32768.size a := fun v2972 k0_hw1237 => k0_hw1237

def k0_chk1238 (v2976 : IVec S16 32) : Prop :=
  (∀ a x, ((![v2976] : Fin 1 → IVec S16 32) a x).toNat < S32768.size a)
instance k0_chk1238.dec : ∀ (v2976 : IVec S16 32), Decidable (k0_chk1238 v2976) := fun v2976 => decidable_of_iff' _ (Iff.of_eq (k0_chk1238.eq_1 v2976))
theorem k0_idx1238_inb : ∀ (v2976 : IVec S16 32) (k0_hw1238 : k0_chk1238 v2976), ∀ a x, ((![v2976] : Fin 1 → IVec S16 32) a x).toNat < S32768.size a := fun v2976 k0_hw1238 => k0_hw1238

def k0_chk1239 (v2980 : IVec S16 32) : Prop :=
  (∀ a x, ((![v2980] : Fin 1 → IVec S16 32) a x).toNat < S32768.size a)
instance k0_chk1239.dec : ∀ (v2980 : IVec S16 32), Decidable (k0_chk1239 v2980) := fun v2980 => decidable_of_iff' _ (Iff.of_eq (k0_chk1239.eq_1 v2980))
theorem k0_idx1239_inb : ∀ (v2980 : IVec S16 32) (k0_hw1239 : k0_chk1239 v2980), ∀ a x, ((![v2980] : Fin 1 → IVec S16 32) a x).toNat < S32768.size a := fun v2980 k0_hw1239 => k0_hw1239

def k0_chk1240 (v2984 : IVec S16 32) : Prop :=
  (∀ a x, ((![v2984] : Fin 1 → IVec S16 32) a x).toNat < S32768.size a)
instance k0_chk1240.dec : ∀ (v2984 : IVec S16 32), Decidable (k0_chk1240 v2984) := fun v2984 => decidable_of_iff' _ (Iff.of_eq (k0_chk1240.eq_1 v2984))
theorem k0_idx1240_inb : ∀ (v2984 : IVec S16 32) (k0_hw1240 : k0_chk1240 v2984), ∀ a x, ((![v2984] : Fin 1 → IVec S16 32) a x).toNat < S32768.size a := fun v2984 k0_hw1240 => k0_hw1240

def k0_chk1241 (v2988 : IVec S16 32) : Prop :=
  (∀ a x, ((![v2988] : Fin 1 → IVec S16 32) a x).toNat < S32768.size a)
instance k0_chk1241.dec : ∀ (v2988 : IVec S16 32), Decidable (k0_chk1241 v2988) := fun v2988 => decidable_of_iff' _ (Iff.of_eq (k0_chk1241.eq_1 v2988))
theorem k0_idx1241_inb : ∀ (v2988 : IVec S16 32) (k0_hw1241 : k0_chk1241 v2988), ∀ a x, ((![v2988] : Fin 1 → IVec S16 32) a x).toNat < S32768.size a := fun v2988 k0_hw1241 => k0_hw1241

def k0_chk1242 (v2992 : IVec S16 32) : Prop :=
  (∀ a x, ((![v2992] : Fin 1 → IVec S16 32) a x).toNat < S32768.size a)
instance k0_chk1242.dec : ∀ (v2992 : IVec S16 32), Decidable (k0_chk1242 v2992) := fun v2992 => decidable_of_iff' _ (Iff.of_eq (k0_chk1242.eq_1 v2992))
theorem k0_idx1242_inb : ∀ (v2992 : IVec S16 32) (k0_hw1242 : k0_chk1242 v2992), ∀ a x, ((![v2992] : Fin 1 → IVec S16 32) a x).toNat < S32768.size a := fun v2992 k0_hw1242 => k0_hw1242

def k0_chk1243 (v2996 : IVec S16 32) : Prop :=
  (∀ a x, ((![v2996] : Fin 1 → IVec S16 32) a x).toNat < S32768.size a)
instance k0_chk1243.dec : ∀ (v2996 : IVec S16 32), Decidable (k0_chk1243 v2996) := fun v2996 => decidable_of_iff' _ (Iff.of_eq (k0_chk1243.eq_1 v2996))
theorem k0_idx1243_inb : ∀ (v2996 : IVec S16 32) (k0_hw1243 : k0_chk1243 v2996), ∀ a x, ((![v2996] : Fin 1 → IVec S16 32) a x).toNat < S32768.size a := fun v2996 k0_hw1243 => k0_hw1243

def k0_chk1244 (v3000 : IVec S16 32) : Prop :=
  (∀ a x, ((![v3000] : Fin 1 → IVec S16 32) a x).toNat < S32768.size a)
instance k0_chk1244.dec : ∀ (v3000 : IVec S16 32), Decidable (k0_chk1244 v3000) := fun v3000 => decidable_of_iff' _ (Iff.of_eq (k0_chk1244.eq_1 v3000))
theorem k0_idx1244_inb : ∀ (v3000 : IVec S16 32) (k0_hw1244 : k0_chk1244 v3000), ∀ a x, ((![v3000] : Fin 1 → IVec S16 32) a x).toNat < S32768.size a := fun v3000 k0_hw1244 => k0_hw1244

def k0_chk1245 (v3004 : IVec S16 32) : Prop :=
  (∀ a x, ((![v3004] : Fin 1 → IVec S16 32) a x).toNat < S32768.size a)
instance k0_chk1245.dec : ∀ (v3004 : IVec S16 32), Decidable (k0_chk1245 v3004) := fun v3004 => decidable_of_iff' _ (Iff.of_eq (k0_chk1245.eq_1 v3004))
theorem k0_idx1245_inb : ∀ (v3004 : IVec S16 32) (k0_hw1245 : k0_chk1245 v3004), ∀ a x, ((![v3004] : Fin 1 → IVec S16 32) a x).toNat < S32768.size a := fun v3004 k0_hw1245 => k0_hw1245

def k0_chk1246 (v3008 : IVec S16 32) : Prop :=
  (∀ a x, ((![v3008] : Fin 1 → IVec S16 32) a x).toNat < S32768.size a)
instance k0_chk1246.dec : ∀ (v3008 : IVec S16 32), Decidable (k0_chk1246 v3008) := fun v3008 => decidable_of_iff' _ (Iff.of_eq (k0_chk1246.eq_1 v3008))
theorem k0_idx1246_inb : ∀ (v3008 : IVec S16 32) (k0_hw1246 : k0_chk1246 v3008), ∀ a x, ((![v3008] : Fin 1 → IVec S16 32) a x).toNat < S32768.size a := fun v3008 k0_hw1246 => k0_hw1246

def k0_chk1247 (v3012 : IVec S16 32) : Prop :=
  (∀ a x, ((![v3012] : Fin 1 → IVec S16 32) a x).toNat < S32768.size a)
instance k0_chk1247.dec : ∀ (v3012 : IVec S16 32), Decidable (k0_chk1247 v3012) := fun v3012 => decidable_of_iff' _ (Iff.of_eq (k0_chk1247.eq_1 v3012))
theorem k0_idx1247_inb : ∀ (v3012 : IVec S16 32) (k0_hw1247 : k0_chk1247 v3012), ∀ a x, ((![v3012] : Fin 1 → IVec S16 32) a x).toNat < S32768.size a := fun v3012 k0_hw1247 => k0_hw1247

def k0_chk1248 (v3016 : IVec S16 32) : Prop :=
  (∀ a x, ((![v3016] : Fin 1 → IVec S16 32) a x).toNat < S32768.size a)
instance k0_chk1248.dec : ∀ (v3016 : IVec S16 32), Decidable (k0_chk1248 v3016) := fun v3016 => decidable_of_iff' _ (Iff.of_eq (k0_chk1248.eq_1 v3016))
theorem k0_idx1248_inb : ∀ (v3016 : IVec S16 32) (k0_hw1248 : k0_chk1248 v3016), ∀ a x, ((![v3016] : Fin 1 → IVec S16 32) a x).toNat < S32768.size a := fun v3016 k0_hw1248 => k0_hw1248

def k0_chk1249 (v3020 : IVec S16 32) : Prop :=
  (∀ a x, ((![v3020] : Fin 1 → IVec S16 32) a x).toNat < S32768.size a)
instance k0_chk1249.dec : ∀ (v3020 : IVec S16 32), Decidable (k0_chk1249 v3020) := fun v3020 => decidable_of_iff' _ (Iff.of_eq (k0_chk1249.eq_1 v3020))
theorem k0_idx1249_inb : ∀ (v3020 : IVec S16 32) (k0_hw1249 : k0_chk1249 v3020), ∀ a x, ((![v3020] : Fin 1 → IVec S16 32) a x).toNat < S32768.size a := fun v3020 k0_hw1249 => k0_hw1249

def k0_chk1250 (v3024 : IVec S16 32) : Prop :=
  (∀ a x, ((![v3024] : Fin 1 → IVec S16 32) a x).toNat < S32768.size a)
instance k0_chk1250.dec : ∀ (v3024 : IVec S16 32), Decidable (k0_chk1250 v3024) := fun v3024 => decidable_of_iff' _ (Iff.of_eq (k0_chk1250.eq_1 v3024))
theorem k0_idx1250_inb : ∀ (v3024 : IVec S16 32) (k0_hw1250 : k0_chk1250 v3024), ∀ a x, ((![v3024] : Fin 1 → IVec S16 32) a x).toNat < S32768.size a := fun v3024 k0_hw1250 => k0_hw1250

def k0_chk1251 (v3028 : IVec S16 32) : Prop :=
  (∀ a x, ((![v3028] : Fin 1 → IVec S16 32) a x).toNat < S32768.size a)
instance k0_chk1251.dec : ∀ (v3028 : IVec S16 32), Decidable (k0_chk1251 v3028) := fun v3028 => decidable_of_iff' _ (Iff.of_eq (k0_chk1251.eq_1 v3028))
theorem k0_idx1251_inb : ∀ (v3028 : IVec S16 32) (k0_hw1251 : k0_chk1251 v3028), ∀ a x, ((![v3028] : Fin 1 → IVec S16 32) a x).toNat < S32768.size a := fun v3028 k0_hw1251 => k0_hw1251

def k0_chk1252 (v3032 : IVec S16 32) : Prop :=
  (∀ a x, ((![v3032] : Fin 1 → IVec S16 32) a x).toNat < S32768.size a)
instance k0_chk1252.dec : ∀ (v3032 : IVec S16 32), Decidable (k0_chk1252 v3032) := fun v3032 => decidable_of_iff' _ (Iff.of_eq (k0_chk1252.eq_1 v3032))
theorem k0_idx1252_inb : ∀ (v3032 : IVec S16 32) (k0_hw1252 : k0_chk1252 v3032), ∀ a x, ((![v3032] : Fin 1 → IVec S16 32) a x).toNat < S32768.size a := fun v3032 k0_hw1252 => k0_hw1252

def k0_chk1253 (v3036 : IVec S16 32) : Prop :=
  (∀ a x, ((![v3036] : Fin 1 → IVec S16 32) a x).toNat < S32768.size a)
instance k0_chk1253.dec : ∀ (v3036 : IVec S16 32), Decidable (k0_chk1253 v3036) := fun v3036 => decidable_of_iff' _ (Iff.of_eq (k0_chk1253.eq_1 v3036))
theorem k0_idx1253_inb : ∀ (v3036 : IVec S16 32) (k0_hw1253 : k0_chk1253 v3036), ∀ a x, ((![v3036] : Fin 1 → IVec S16 32) a x).toNat < S32768.size a := fun v3036 k0_hw1253 => k0_hw1253

def k0_chk1254 (v3040 : IVec S16 32) : Prop :=
  (∀ a x, ((![v3040] : Fin 1 → IVec S16 32) a x).toNat < S32768.size a)
instance k0_chk1254.dec : ∀ (v3040 : IVec S16 32), Decidable (k0_chk1254 v3040) := fun v3040 => decidable_of_iff' _ (Iff.of_eq (k0_chk1254.eq_1 v3040))
theorem k0_idx1254_inb : ∀ (v3040 : IVec S16 32) (k0_hw1254 : k0_chk1254 v3040), ∀ a x, ((![v3040] : Fin 1 → IVec S16 32) a x).toNat < S32768.size a := fun v3040 k0_hw1254 => k0_hw1254

def k0_chk1255 (v3044 : IVec S16 32) : Prop :=
  (∀ a x, ((![v3044] : Fin 1 → IVec S16 32) a x).toNat < S32768.size a)
instance k0_chk1255.dec : ∀ (v3044 : IVec S16 32), Decidable (k0_chk1255 v3044) := fun v3044 => decidable_of_iff' _ (Iff.of_eq (k0_chk1255.eq_1 v3044))
theorem k0_idx1255_inb : ∀ (v3044 : IVec S16 32) (k0_hw1255 : k0_chk1255 v3044), ∀ a x, ((![v3044] : Fin 1 → IVec S16 32) a x).toNat < S32768.size a := fun v3044 k0_hw1255 => k0_hw1255

def k0_chk1256 (v3048 : IVec S16 32) : Prop :=
  (∀ a x, ((![v3048] : Fin 1 → IVec S16 32) a x).toNat < S32768.size a)
instance k0_chk1256.dec : ∀ (v3048 : IVec S16 32), Decidable (k0_chk1256 v3048) := fun v3048 => decidable_of_iff' _ (Iff.of_eq (k0_chk1256.eq_1 v3048))
theorem k0_idx1256_inb : ∀ (v3048 : IVec S16 32) (k0_hw1256 : k0_chk1256 v3048), ∀ a x, ((![v3048] : Fin 1 → IVec S16 32) a x).toNat < S32768.size a := fun v3048 k0_hw1256 => k0_hw1256

def k0_chk1257 (v3052 : IVec S16 32) : Prop :=
  (∀ a x, ((![v3052] : Fin 1 → IVec S16 32) a x).toNat < S32768.size a)
instance k0_chk1257.dec : ∀ (v3052 : IVec S16 32), Decidable (k0_chk1257 v3052) := fun v3052 => decidable_of_iff' _ (Iff.of_eq (k0_chk1257.eq_1 v3052))
theorem k0_idx1257_inb : ∀ (v3052 : IVec S16 32) (k0_hw1257 : k0_chk1257 v3052), ∀ a x, ((![v3052] : Fin 1 → IVec S16 32) a x).toNat < S32768.size a := fun v3052 k0_hw1257 => k0_hw1257

def k0_chk1258 (v3056 : IVec S16 32) : Prop :=
  (∀ a x, ((![v3056] : Fin 1 → IVec S16 32) a x).toNat < S32768.size a)
instance k0_chk1258.dec : ∀ (v3056 : IVec S16 32), Decidable (k0_chk1258 v3056) := fun v3056 => decidable_of_iff' _ (Iff.of_eq (k0_chk1258.eq_1 v3056))
theorem k0_idx1258_inb : ∀ (v3056 : IVec S16 32) (k0_hw1258 : k0_chk1258 v3056), ∀ a x, ((![v3056] : Fin 1 → IVec S16 32) a x).toNat < S32768.size a := fun v3056 k0_hw1258 => k0_hw1258

def k0_chk1259 (v3060 : IVec S16 32) : Prop :=
  (∀ a x, ((![v3060] : Fin 1 → IVec S16 32) a x).toNat < S32768.size a)
instance k0_chk1259.dec : ∀ (v3060 : IVec S16 32), Decidable (k0_chk1259 v3060) := fun v3060 => decidable_of_iff' _ (Iff.of_eq (k0_chk1259.eq_1 v3060))
theorem k0_idx1259_inb : ∀ (v3060 : IVec S16 32) (k0_hw1259 : k0_chk1259 v3060), ∀ a x, ((![v3060] : Fin 1 → IVec S16 32) a x).toNat < S32768.size a := fun v3060 k0_hw1259 => k0_hw1259

def k0_chk1260 (v3064 : IVec S16 32) : Prop :=
  (∀ a x, ((![v3064] : Fin 1 → IVec S16 32) a x).toNat < S32768.size a)
instance k0_chk1260.dec : ∀ (v3064 : IVec S16 32), Decidable (k0_chk1260 v3064) := fun v3064 => decidable_of_iff' _ (Iff.of_eq (k0_chk1260.eq_1 v3064))
theorem k0_idx1260_inb : ∀ (v3064 : IVec S16 32) (k0_hw1260 : k0_chk1260 v3064), ∀ a x, ((![v3064] : Fin 1 → IVec S16 32) a x).toNat < S32768.size a := fun v3064 k0_hw1260 => k0_hw1260

def k0_chk1261 (v3068 : IVec S16 32) : Prop :=
  (∀ a x, ((![v3068] : Fin 1 → IVec S16 32) a x).toNat < S32768.size a)
instance k0_chk1261.dec : ∀ (v3068 : IVec S16 32), Decidable (k0_chk1261 v3068) := fun v3068 => decidable_of_iff' _ (Iff.of_eq (k0_chk1261.eq_1 v3068))
theorem k0_idx1261_inb : ∀ (v3068 : IVec S16 32) (k0_hw1261 : k0_chk1261 v3068), ∀ a x, ((![v3068] : Fin 1 → IVec S16 32) a x).toNat < S32768.size a := fun v3068 k0_hw1261 => k0_hw1261

def k0_chk1262 (v3072 : IVec S16 32) : Prop :=
  (∀ a x, ((![v3072] : Fin 1 → IVec S16 32) a x).toNat < S32768.size a)
instance k0_chk1262.dec : ∀ (v3072 : IVec S16 32), Decidable (k0_chk1262 v3072) := fun v3072 => decidable_of_iff' _ (Iff.of_eq (k0_chk1262.eq_1 v3072))
theorem k0_idx1262_inb : ∀ (v3072 : IVec S16 32) (k0_hw1262 : k0_chk1262 v3072), ∀ a x, ((![v3072] : Fin 1 → IVec S16 32) a x).toNat < S32768.size a := fun v3072 k0_hw1262 => k0_hw1262

def k0_chk1263 (v3076 : IVec S16 32) : Prop :=
  (∀ a x, ((![v3076] : Fin 1 → IVec S16 32) a x).toNat < S32768.size a)
instance k0_chk1263.dec : ∀ (v3076 : IVec S16 32), Decidable (k0_chk1263 v3076) := fun v3076 => decidable_of_iff' _ (Iff.of_eq (k0_chk1263.eq_1 v3076))
theorem k0_idx1263_inb : ∀ (v3076 : IVec S16 32) (k0_hw1263 : k0_chk1263 v3076), ∀ a x, ((![v3076] : Fin 1 → IVec S16 32) a x).toNat < S32768.size a := fun v3076 k0_hw1263 => k0_hw1263

def k0_chk1264 (v3080 : IVec S16 32) : Prop :=
  (∀ a x, ((![v3080] : Fin 1 → IVec S16 32) a x).toNat < S32768.size a)
instance k0_chk1264.dec : ∀ (v3080 : IVec S16 32), Decidable (k0_chk1264 v3080) := fun v3080 => decidable_of_iff' _ (Iff.of_eq (k0_chk1264.eq_1 v3080))
theorem k0_idx1264_inb : ∀ (v3080 : IVec S16 32) (k0_hw1264 : k0_chk1264 v3080), ∀ a x, ((![v3080] : Fin 1 → IVec S16 32) a x).toNat < S32768.size a := fun v3080 k0_hw1264 => k0_hw1264

def k0_chk1265 (v3084 : IVec S16 32) : Prop :=
  (∀ a x, ((![v3084] : Fin 1 → IVec S16 32) a x).toNat < S32768.size a)
instance k0_chk1265.dec : ∀ (v3084 : IVec S16 32), Decidable (k0_chk1265 v3084) := fun v3084 => decidable_of_iff' _ (Iff.of_eq (k0_chk1265.eq_1 v3084))
theorem k0_idx1265_inb : ∀ (v3084 : IVec S16 32) (k0_hw1265 : k0_chk1265 v3084), ∀ a x, ((![v3084] : Fin 1 → IVec S16 32) a x).toNat < S32768.size a := fun v3084 k0_hw1265 => k0_hw1265

def k0_chk1266 (v3088 : IVec S16 32) : Prop :=
  (∀ a x, ((![v3088] : Fin 1 → IVec S16 32) a x).toNat < S32768.size a)
instance k0_chk1266.dec : ∀ (v3088 : IVec S16 32), Decidable (k0_chk1266 v3088) := fun v3088 => decidable_of_iff' _ (Iff.of_eq (k0_chk1266.eq_1 v3088))
theorem k0_idx1266_inb : ∀ (v3088 : IVec S16 32) (k0_hw1266 : k0_chk1266 v3088), ∀ a x, ((![v3088] : Fin 1 → IVec S16 32) a x).toNat < S32768.size a := fun v3088 k0_hw1266 => k0_hw1266

def k0_chk1267 (v3092 : IVec S16 32) : Prop :=
  (∀ a x, ((![v3092] : Fin 1 → IVec S16 32) a x).toNat < S32768.size a)
instance k0_chk1267.dec : ∀ (v3092 : IVec S16 32), Decidable (k0_chk1267 v3092) := fun v3092 => decidable_of_iff' _ (Iff.of_eq (k0_chk1267.eq_1 v3092))
theorem k0_idx1267_inb : ∀ (v3092 : IVec S16 32) (k0_hw1267 : k0_chk1267 v3092), ∀ a x, ((![v3092] : Fin 1 → IVec S16 32) a x).toNat < S32768.size a := fun v3092 k0_hw1267 => k0_hw1267

def k0_chk1268 (v3096 : IVec S16 32) : Prop :=
  (∀ a x, ((![v3096] : Fin 1 → IVec S16 32) a x).toNat < S32768.size a)
instance k0_chk1268.dec : ∀ (v3096 : IVec S16 32), Decidable (k0_chk1268 v3096) := fun v3096 => decidable_of_iff' _ (Iff.of_eq (k0_chk1268.eq_1 v3096))
theorem k0_idx1268_inb : ∀ (v3096 : IVec S16 32) (k0_hw1268 : k0_chk1268 v3096), ∀ a x, ((![v3096] : Fin 1 → IVec S16 32) a x).toNat < S32768.size a := fun v3096 k0_hw1268 => k0_hw1268

def k0_chk1269 (v3100 : IVec S16 32) : Prop :=
  (∀ a x, ((![v3100] : Fin 1 → IVec S16 32) a x).toNat < S32768.size a)
instance k0_chk1269.dec : ∀ (v3100 : IVec S16 32), Decidable (k0_chk1269 v3100) := fun v3100 => decidable_of_iff' _ (Iff.of_eq (k0_chk1269.eq_1 v3100))
theorem k0_idx1269_inb : ∀ (v3100 : IVec S16 32) (k0_hw1269 : k0_chk1269 v3100), ∀ a x, ((![v3100] : Fin 1 → IVec S16 32) a x).toNat < S32768.size a := fun v3100 k0_hw1269 => k0_hw1269

def k0_chk1270 (v3104 : IVec S16 32) : Prop :=
  (∀ a x, ((![v3104] : Fin 1 → IVec S16 32) a x).toNat < S32768.size a)
instance k0_chk1270.dec : ∀ (v3104 : IVec S16 32), Decidable (k0_chk1270 v3104) := fun v3104 => decidable_of_iff' _ (Iff.of_eq (k0_chk1270.eq_1 v3104))
theorem k0_idx1270_inb : ∀ (v3104 : IVec S16 32) (k0_hw1270 : k0_chk1270 v3104), ∀ a x, ((![v3104] : Fin 1 → IVec S16 32) a x).toNat < S32768.size a := fun v3104 k0_hw1270 => k0_hw1270

def k0_chk1271 (v3108 : IVec S16 32) : Prop :=
  (∀ a x, ((![v3108] : Fin 1 → IVec S16 32) a x).toNat < S32768.size a)
instance k0_chk1271.dec : ∀ (v3108 : IVec S16 32), Decidable (k0_chk1271 v3108) := fun v3108 => decidable_of_iff' _ (Iff.of_eq (k0_chk1271.eq_1 v3108))
theorem k0_idx1271_inb : ∀ (v3108 : IVec S16 32) (k0_hw1271 : k0_chk1271 v3108), ∀ a x, ((![v3108] : Fin 1 → IVec S16 32) a x).toNat < S32768.size a := fun v3108 k0_hw1271 => k0_hw1271

def k0_chk1272 (v3112 : IVec S16 32) : Prop :=
  (∀ a x, ((![v3112] : Fin 1 → IVec S16 32) a x).toNat < S32768.size a)
instance k0_chk1272.dec : ∀ (v3112 : IVec S16 32), Decidable (k0_chk1272 v3112) := fun v3112 => decidable_of_iff' _ (Iff.of_eq (k0_chk1272.eq_1 v3112))
theorem k0_idx1272_inb : ∀ (v3112 : IVec S16 32) (k0_hw1272 : k0_chk1272 v3112), ∀ a x, ((![v3112] : Fin 1 → IVec S16 32) a x).toNat < S32768.size a := fun v3112 k0_hw1272 => k0_hw1272

def k0_chk1273 (v3116 : IVec S16 32) : Prop :=
  (∀ a x, ((![v3116] : Fin 1 → IVec S16 32) a x).toNat < S32768.size a)
instance k0_chk1273.dec : ∀ (v3116 : IVec S16 32), Decidable (k0_chk1273 v3116) := fun v3116 => decidable_of_iff' _ (Iff.of_eq (k0_chk1273.eq_1 v3116))
theorem k0_idx1273_inb : ∀ (v3116 : IVec S16 32) (k0_hw1273 : k0_chk1273 v3116), ∀ a x, ((![v3116] : Fin 1 → IVec S16 32) a x).toNat < S32768.size a := fun v3116 k0_hw1273 => k0_hw1273

def k0_chk1274 (v3120 : IVec S16 32) : Prop :=
  (∀ a x, ((![v3120] : Fin 1 → IVec S16 32) a x).toNat < S32768.size a)
instance k0_chk1274.dec : ∀ (v3120 : IVec S16 32), Decidable (k0_chk1274 v3120) := fun v3120 => decidable_of_iff' _ (Iff.of_eq (k0_chk1274.eq_1 v3120))
theorem k0_idx1274_inb : ∀ (v3120 : IVec S16 32) (k0_hw1274 : k0_chk1274 v3120), ∀ a x, ((![v3120] : Fin 1 → IVec S16 32) a x).toNat < S32768.size a := fun v3120 k0_hw1274 => k0_hw1274

def k0_chk1275 (v3124 : IVec S16 32) : Prop :=
  (∀ a x, ((![v3124] : Fin 1 → IVec S16 32) a x).toNat < S32768.size a)
instance k0_chk1275.dec : ∀ (v3124 : IVec S16 32), Decidable (k0_chk1275 v3124) := fun v3124 => decidable_of_iff' _ (Iff.of_eq (k0_chk1275.eq_1 v3124))
theorem k0_idx1275_inb : ∀ (v3124 : IVec S16 32) (k0_hw1275 : k0_chk1275 v3124), ∀ a x, ((![v3124] : Fin 1 → IVec S16 32) a x).toNat < S32768.size a := fun v3124 k0_hw1275 => k0_hw1275

def k0_chk1276 (v3128 : IVec S16 32) : Prop :=
  (∀ a x, ((![v3128] : Fin 1 → IVec S16 32) a x).toNat < S32768.size a)
instance k0_chk1276.dec : ∀ (v3128 : IVec S16 32), Decidable (k0_chk1276 v3128) := fun v3128 => decidable_of_iff' _ (Iff.of_eq (k0_chk1276.eq_1 v3128))
theorem k0_idx1276_inb : ∀ (v3128 : IVec S16 32) (k0_hw1276 : k0_chk1276 v3128), ∀ a x, ((![v3128] : Fin 1 → IVec S16 32) a x).toNat < S32768.size a := fun v3128 k0_hw1276 => k0_hw1276

def k0_chk1277 (v3132 : IVec S16 32) : Prop :=
  (∀ a x, ((![v3132] : Fin 1 → IVec S16 32) a x).toNat < S32768.size a)
instance k0_chk1277.dec : ∀ (v3132 : IVec S16 32), Decidable (k0_chk1277 v3132) := fun v3132 => decidable_of_iff' _ (Iff.of_eq (k0_chk1277.eq_1 v3132))
theorem k0_idx1277_inb : ∀ (v3132 : IVec S16 32) (k0_hw1277 : k0_chk1277 v3132), ∀ a x, ((![v3132] : Fin 1 → IVec S16 32) a x).toNat < S32768.size a := fun v3132 k0_hw1277 => k0_hw1277

def k0_chk1278 (v3136 : IVec S16 32) : Prop :=
  (∀ a x, ((![v3136] : Fin 1 → IVec S16 32) a x).toNat < S32768.size a)
instance k0_chk1278.dec : ∀ (v3136 : IVec S16 32), Decidable (k0_chk1278 v3136) := fun v3136 => decidable_of_iff' _ (Iff.of_eq (k0_chk1278.eq_1 v3136))
theorem k0_idx1278_inb : ∀ (v3136 : IVec S16 32) (k0_hw1278 : k0_chk1278 v3136), ∀ a x, ((![v3136] : Fin 1 → IVec S16 32) a x).toNat < S32768.size a := fun v3136 k0_hw1278 => k0_hw1278

def k0_chk1279 (v3140 : IVec S16 32) : Prop :=
  (∀ a x, ((![v3140] : Fin 1 → IVec S16 32) a x).toNat < S32768.size a)
instance k0_chk1279.dec : ∀ (v3140 : IVec S16 32), Decidable (k0_chk1279 v3140) := fun v3140 => decidable_of_iff' _ (Iff.of_eq (k0_chk1279.eq_1 v3140))
theorem k0_idx1279_inb : ∀ (v3140 : IVec S16 32) (k0_hw1279 : k0_chk1279 v3140), ∀ a x, ((![v3140] : Fin 1 → IVec S16 32) a x).toNat < S32768.size a := fun v3140 k0_hw1279 => k0_hw1279

def k0_chk1280 (v3144 : IVec S16 32) : Prop :=
  (∀ a x, ((![v3144] : Fin 1 → IVec S16 32) a x).toNat < S32768.size a)
instance k0_chk1280.dec : ∀ (v3144 : IVec S16 32), Decidable (k0_chk1280 v3144) := fun v3144 => decidable_of_iff' _ (Iff.of_eq (k0_chk1280.eq_1 v3144))
theorem k0_idx1280_inb : ∀ (v3144 : IVec S16 32) (k0_hw1280 : k0_chk1280 v3144), ∀ a x, ((![v3144] : Fin 1 → IVec S16 32) a x).toNat < S32768.size a := fun v3144 k0_hw1280 => k0_hw1280
def k0_off14 (i : grid0.Coords) (c253952_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v9 : BitVec 32 := Scalar.muli v1 c128_i32_0
  let c2048_i32 : BitVec 32 := 2048#32
  let v10 : BitVec 32 := Scalar.muli v9 c2048_i32
  let v3147 : BitVec 32 := Scalar.addi v10 c253952_i32
  ![v3147.toNat]
def k0_off15 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v7 : BitVec 32 := Scalar.muli v1 c128_i32
  let c16384_i32 : BitVec 32 := 16384#32
  let v8 : BitVec 32 := Scalar.muli v7 c16384_i32
  let c2064384_i32 : BitVec 32 := 2064384#32
  let v3152 : BitVec 32 := Scalar.addi v8 c2064384_i32
  ![v3152.toNat]

def k0_chk1281 (v3165 : IVec S16 32) : Prop :=
  (∀ a x, ((![v3165] : Fin 1 → IVec S16 32) a x).toNat < S32768.size a)
instance k0_chk1281.dec : ∀ (v3165 : IVec S16 32), Decidable (k0_chk1281 v3165) := fun v3165 => decidable_of_iff' _ (Iff.of_eq (k0_chk1281.eq_1 v3165))
theorem k0_idx1281_inb : ∀ (v3165 : IVec S16 32) (k0_hw1281 : k0_chk1281 v3165), ∀ a x, ((![v3165] : Fin 1 → IVec S16 32) a x).toNat < S32768.size a := fun v3165 k0_hw1281 => k0_hw1281

def k0_chk1282 (v3169 : IVec S16 32) : Prop :=
  (∀ a x, ((![v3169] : Fin 1 → IVec S16 32) a x).toNat < S32768.size a)
instance k0_chk1282.dec : ∀ (v3169 : IVec S16 32), Decidable (k0_chk1282 v3169) := fun v3169 => decidable_of_iff' _ (Iff.of_eq (k0_chk1282.eq_1 v3169))
theorem k0_idx1282_inb : ∀ (v3169 : IVec S16 32) (k0_hw1282 : k0_chk1282 v3169), ∀ a x, ((![v3169] : Fin 1 → IVec S16 32) a x).toNat < S32768.size a := fun v3169 k0_hw1282 => k0_hw1282

def k0_chk1283 (v3173 : IVec S16 32) : Prop :=
  (∀ a x, ((![v3173] : Fin 1 → IVec S16 32) a x).toNat < S32768.size a)
instance k0_chk1283.dec : ∀ (v3173 : IVec S16 32), Decidable (k0_chk1283 v3173) := fun v3173 => decidable_of_iff' _ (Iff.of_eq (k0_chk1283.eq_1 v3173))
theorem k0_idx1283_inb : ∀ (v3173 : IVec S16 32) (k0_hw1283 : k0_chk1283 v3173), ∀ a x, ((![v3173] : Fin 1 → IVec S16 32) a x).toNat < S32768.size a := fun v3173 k0_hw1283 => k0_hw1283

def k0_chk1284 (v3177 : IVec S16 32) : Prop :=
  (∀ a x, ((![v3177] : Fin 1 → IVec S16 32) a x).toNat < S32768.size a)
instance k0_chk1284.dec : ∀ (v3177 : IVec S16 32), Decidable (k0_chk1284 v3177) := fun v3177 => decidable_of_iff' _ (Iff.of_eq (k0_chk1284.eq_1 v3177))
theorem k0_idx1284_inb : ∀ (v3177 : IVec S16 32) (k0_hw1284 : k0_chk1284 v3177), ∀ a x, ((![v3177] : Fin 1 → IVec S16 32) a x).toNat < S32768.size a := fun v3177 k0_hw1284 => k0_hw1284

def k0_chk1285 (v3181 : IVec S16 32) : Prop :=
  (∀ a x, ((![v3181] : Fin 1 → IVec S16 32) a x).toNat < S32768.size a)
instance k0_chk1285.dec : ∀ (v3181 : IVec S16 32), Decidable (k0_chk1285 v3181) := fun v3181 => decidable_of_iff' _ (Iff.of_eq (k0_chk1285.eq_1 v3181))
theorem k0_idx1285_inb : ∀ (v3181 : IVec S16 32) (k0_hw1285 : k0_chk1285 v3181), ∀ a x, ((![v3181] : Fin 1 → IVec S16 32) a x).toNat < S32768.size a := fun v3181 k0_hw1285 => k0_hw1285

def k0_chk1286 (v3185 : IVec S16 32) : Prop :=
  (∀ a x, ((![v3185] : Fin 1 → IVec S16 32) a x).toNat < S32768.size a)
instance k0_chk1286.dec : ∀ (v3185 : IVec S16 32), Decidable (k0_chk1286 v3185) := fun v3185 => decidable_of_iff' _ (Iff.of_eq (k0_chk1286.eq_1 v3185))
theorem k0_idx1286_inb : ∀ (v3185 : IVec S16 32) (k0_hw1286 : k0_chk1286 v3185), ∀ a x, ((![v3185] : Fin 1 → IVec S16 32) a x).toNat < S32768.size a := fun v3185 k0_hw1286 => k0_hw1286

def k0_chk1287 (v3189 : IVec S16 32) : Prop :=
  (∀ a x, ((![v3189] : Fin 1 → IVec S16 32) a x).toNat < S32768.size a)
instance k0_chk1287.dec : ∀ (v3189 : IVec S16 32), Decidable (k0_chk1287 v3189) := fun v3189 => decidable_of_iff' _ (Iff.of_eq (k0_chk1287.eq_1 v3189))
theorem k0_idx1287_inb : ∀ (v3189 : IVec S16 32) (k0_hw1287 : k0_chk1287 v3189), ∀ a x, ((![v3189] : Fin 1 → IVec S16 32) a x).toNat < S32768.size a := fun v3189 k0_hw1287 => k0_hw1287

def k0_chk1288 (v3193 : IVec S16 32) : Prop :=
  (∀ a x, ((![v3193] : Fin 1 → IVec S16 32) a x).toNat < S32768.size a)
instance k0_chk1288.dec : ∀ (v3193 : IVec S16 32), Decidable (k0_chk1288 v3193) := fun v3193 => decidable_of_iff' _ (Iff.of_eq (k0_chk1288.eq_1 v3193))
theorem k0_idx1288_inb : ∀ (v3193 : IVec S16 32) (k0_hw1288 : k0_chk1288 v3193), ∀ a x, ((![v3193] : Fin 1 → IVec S16 32) a x).toNat < S32768.size a := fun v3193 k0_hw1288 => k0_hw1288

def k0_chk1289 (v3197 : IVec S16 32) : Prop :=
  (∀ a x, ((![v3197] : Fin 1 → IVec S16 32) a x).toNat < S32768.size a)
instance k0_chk1289.dec : ∀ (v3197 : IVec S16 32), Decidable (k0_chk1289 v3197) := fun v3197 => decidable_of_iff' _ (Iff.of_eq (k0_chk1289.eq_1 v3197))
theorem k0_idx1289_inb : ∀ (v3197 : IVec S16 32) (k0_hw1289 : k0_chk1289 v3197), ∀ a x, ((![v3197] : Fin 1 → IVec S16 32) a x).toNat < S32768.size a := fun v3197 k0_hw1289 => k0_hw1289

def k0_chk1290 (v3201 : IVec S16 32) : Prop :=
  (∀ a x, ((![v3201] : Fin 1 → IVec S16 32) a x).toNat < S32768.size a)
instance k0_chk1290.dec : ∀ (v3201 : IVec S16 32), Decidable (k0_chk1290 v3201) := fun v3201 => decidable_of_iff' _ (Iff.of_eq (k0_chk1290.eq_1 v3201))
theorem k0_idx1290_inb : ∀ (v3201 : IVec S16 32) (k0_hw1290 : k0_chk1290 v3201), ∀ a x, ((![v3201] : Fin 1 → IVec S16 32) a x).toNat < S32768.size a := fun v3201 k0_hw1290 => k0_hw1290

def k0_chk1291 (v3205 : IVec S16 32) : Prop :=
  (∀ a x, ((![v3205] : Fin 1 → IVec S16 32) a x).toNat < S32768.size a)
instance k0_chk1291.dec : ∀ (v3205 : IVec S16 32), Decidable (k0_chk1291 v3205) := fun v3205 => decidable_of_iff' _ (Iff.of_eq (k0_chk1291.eq_1 v3205))
theorem k0_idx1291_inb : ∀ (v3205 : IVec S16 32) (k0_hw1291 : k0_chk1291 v3205), ∀ a x, ((![v3205] : Fin 1 → IVec S16 32) a x).toNat < S32768.size a := fun v3205 k0_hw1291 => k0_hw1291

def k0_chk1292 (v3209 : IVec S16 32) : Prop :=
  (∀ a x, ((![v3209] : Fin 1 → IVec S16 32) a x).toNat < S32768.size a)
instance k0_chk1292.dec : ∀ (v3209 : IVec S16 32), Decidable (k0_chk1292 v3209) := fun v3209 => decidable_of_iff' _ (Iff.of_eq (k0_chk1292.eq_1 v3209))
theorem k0_idx1292_inb : ∀ (v3209 : IVec S16 32) (k0_hw1292 : k0_chk1292 v3209), ∀ a x, ((![v3209] : Fin 1 → IVec S16 32) a x).toNat < S32768.size a := fun v3209 k0_hw1292 => k0_hw1292

def k0_chk1293 (v3213 : IVec S16 32) : Prop :=
  (∀ a x, ((![v3213] : Fin 1 → IVec S16 32) a x).toNat < S32768.size a)
instance k0_chk1293.dec : ∀ (v3213 : IVec S16 32), Decidable (k0_chk1293 v3213) := fun v3213 => decidable_of_iff' _ (Iff.of_eq (k0_chk1293.eq_1 v3213))
theorem k0_idx1293_inb : ∀ (v3213 : IVec S16 32) (k0_hw1293 : k0_chk1293 v3213), ∀ a x, ((![v3213] : Fin 1 → IVec S16 32) a x).toNat < S32768.size a := fun v3213 k0_hw1293 => k0_hw1293

def k0_chk1294 (v3217 : IVec S16 32) : Prop :=
  (∀ a x, ((![v3217] : Fin 1 → IVec S16 32) a x).toNat < S32768.size a)
instance k0_chk1294.dec : ∀ (v3217 : IVec S16 32), Decidable (k0_chk1294 v3217) := fun v3217 => decidable_of_iff' _ (Iff.of_eq (k0_chk1294.eq_1 v3217))
theorem k0_idx1294_inb : ∀ (v3217 : IVec S16 32) (k0_hw1294 : k0_chk1294 v3217), ∀ a x, ((![v3217] : Fin 1 → IVec S16 32) a x).toNat < S32768.size a := fun v3217 k0_hw1294 => k0_hw1294

def k0_chk1295 (v3221 : IVec S16 32) : Prop :=
  (∀ a x, ((![v3221] : Fin 1 → IVec S16 32) a x).toNat < S32768.size a)
instance k0_chk1295.dec : ∀ (v3221 : IVec S16 32), Decidable (k0_chk1295 v3221) := fun v3221 => decidable_of_iff' _ (Iff.of_eq (k0_chk1295.eq_1 v3221))
theorem k0_idx1295_inb : ∀ (v3221 : IVec S16 32) (k0_hw1295 : k0_chk1295 v3221), ∀ a x, ((![v3221] : Fin 1 → IVec S16 32) a x).toNat < S32768.size a := fun v3221 k0_hw1295 => k0_hw1295

def k0_chk1296 (v3225 : IVec S16 32) : Prop :=
  (∀ a x, ((![v3225] : Fin 1 → IVec S16 32) a x).toNat < S32768.size a)
instance k0_chk1296.dec : ∀ (v3225 : IVec S16 32), Decidable (k0_chk1296 v3225) := fun v3225 => decidable_of_iff' _ (Iff.of_eq (k0_chk1296.eq_1 v3225))
theorem k0_idx1296_inb : ∀ (v3225 : IVec S16 32) (k0_hw1296 : k0_chk1296 v3225), ∀ a x, ((![v3225] : Fin 1 → IVec S16 32) a x).toNat < S32768.size a := fun v3225 k0_hw1296 => k0_hw1296

def k0_chk1297 (v3229 : IVec S16 32) : Prop :=
  (∀ a x, ((![v3229] : Fin 1 → IVec S16 32) a x).toNat < S32768.size a)
instance k0_chk1297.dec : ∀ (v3229 : IVec S16 32), Decidable (k0_chk1297 v3229) := fun v3229 => decidable_of_iff' _ (Iff.of_eq (k0_chk1297.eq_1 v3229))
theorem k0_idx1297_inb : ∀ (v3229 : IVec S16 32) (k0_hw1297 : k0_chk1297 v3229), ∀ a x, ((![v3229] : Fin 1 → IVec S16 32) a x).toNat < S32768.size a := fun v3229 k0_hw1297 => k0_hw1297

def k0_chk1298 (v3233 : IVec S16 32) : Prop :=
  (∀ a x, ((![v3233] : Fin 1 → IVec S16 32) a x).toNat < S32768.size a)
instance k0_chk1298.dec : ∀ (v3233 : IVec S16 32), Decidable (k0_chk1298 v3233) := fun v3233 => decidable_of_iff' _ (Iff.of_eq (k0_chk1298.eq_1 v3233))
theorem k0_idx1298_inb : ∀ (v3233 : IVec S16 32) (k0_hw1298 : k0_chk1298 v3233), ∀ a x, ((![v3233] : Fin 1 → IVec S16 32) a x).toNat < S32768.size a := fun v3233 k0_hw1298 => k0_hw1298

def k0_chk1299 (v3237 : IVec S16 32) : Prop :=
  (∀ a x, ((![v3237] : Fin 1 → IVec S16 32) a x).toNat < S32768.size a)
instance k0_chk1299.dec : ∀ (v3237 : IVec S16 32), Decidable (k0_chk1299 v3237) := fun v3237 => decidable_of_iff' _ (Iff.of_eq (k0_chk1299.eq_1 v3237))
theorem k0_idx1299_inb : ∀ (v3237 : IVec S16 32) (k0_hw1299 : k0_chk1299 v3237), ∀ a x, ((![v3237] : Fin 1 → IVec S16 32) a x).toNat < S32768.size a := fun v3237 k0_hw1299 => k0_hw1299

def k0_chk1300 (v3241 : IVec S16 32) : Prop :=
  (∀ a x, ((![v3241] : Fin 1 → IVec S16 32) a x).toNat < S32768.size a)
instance k0_chk1300.dec : ∀ (v3241 : IVec S16 32), Decidable (k0_chk1300 v3241) := fun v3241 => decidable_of_iff' _ (Iff.of_eq (k0_chk1300.eq_1 v3241))
theorem k0_idx1300_inb : ∀ (v3241 : IVec S16 32) (k0_hw1300 : k0_chk1300 v3241), ∀ a x, ((![v3241] : Fin 1 → IVec S16 32) a x).toNat < S32768.size a := fun v3241 k0_hw1300 => k0_hw1300

def k0_chk1301 (v3245 : IVec S16 32) : Prop :=
  (∀ a x, ((![v3245] : Fin 1 → IVec S16 32) a x).toNat < S32768.size a)
instance k0_chk1301.dec : ∀ (v3245 : IVec S16 32), Decidable (k0_chk1301 v3245) := fun v3245 => decidable_of_iff' _ (Iff.of_eq (k0_chk1301.eq_1 v3245))
theorem k0_idx1301_inb : ∀ (v3245 : IVec S16 32) (k0_hw1301 : k0_chk1301 v3245), ∀ a x, ((![v3245] : Fin 1 → IVec S16 32) a x).toNat < S32768.size a := fun v3245 k0_hw1301 => k0_hw1301

def k0_chk1302 (v3249 : IVec S16 32) : Prop :=
  (∀ a x, ((![v3249] : Fin 1 → IVec S16 32) a x).toNat < S32768.size a)
instance k0_chk1302.dec : ∀ (v3249 : IVec S16 32), Decidable (k0_chk1302 v3249) := fun v3249 => decidable_of_iff' _ (Iff.of_eq (k0_chk1302.eq_1 v3249))
theorem k0_idx1302_inb : ∀ (v3249 : IVec S16 32) (k0_hw1302 : k0_chk1302 v3249), ∀ a x, ((![v3249] : Fin 1 → IVec S16 32) a x).toNat < S32768.size a := fun v3249 k0_hw1302 => k0_hw1302

def k0_chk1303 (v3253 : IVec S16 32) : Prop :=
  (∀ a x, ((![v3253] : Fin 1 → IVec S16 32) a x).toNat < S32768.size a)
instance k0_chk1303.dec : ∀ (v3253 : IVec S16 32), Decidable (k0_chk1303 v3253) := fun v3253 => decidable_of_iff' _ (Iff.of_eq (k0_chk1303.eq_1 v3253))
theorem k0_idx1303_inb : ∀ (v3253 : IVec S16 32) (k0_hw1303 : k0_chk1303 v3253), ∀ a x, ((![v3253] : Fin 1 → IVec S16 32) a x).toNat < S32768.size a := fun v3253 k0_hw1303 => k0_hw1303

def k0_chk1304 (v3257 : IVec S16 32) : Prop :=
  (∀ a x, ((![v3257] : Fin 1 → IVec S16 32) a x).toNat < S32768.size a)
instance k0_chk1304.dec : ∀ (v3257 : IVec S16 32), Decidable (k0_chk1304 v3257) := fun v3257 => decidable_of_iff' _ (Iff.of_eq (k0_chk1304.eq_1 v3257))
theorem k0_idx1304_inb : ∀ (v3257 : IVec S16 32) (k0_hw1304 : k0_chk1304 v3257), ∀ a x, ((![v3257] : Fin 1 → IVec S16 32) a x).toNat < S32768.size a := fun v3257 k0_hw1304 => k0_hw1304

def k0_chk1305 (v3261 : IVec S16 32) : Prop :=
  (∀ a x, ((![v3261] : Fin 1 → IVec S16 32) a x).toNat < S32768.size a)
instance k0_chk1305.dec : ∀ (v3261 : IVec S16 32), Decidable (k0_chk1305 v3261) := fun v3261 => decidable_of_iff' _ (Iff.of_eq (k0_chk1305.eq_1 v3261))
theorem k0_idx1305_inb : ∀ (v3261 : IVec S16 32) (k0_hw1305 : k0_chk1305 v3261), ∀ a x, ((![v3261] : Fin 1 → IVec S16 32) a x).toNat < S32768.size a := fun v3261 k0_hw1305 => k0_hw1305

def k0_chk1306 (v3265 : IVec S16 32) : Prop :=
  (∀ a x, ((![v3265] : Fin 1 → IVec S16 32) a x).toNat < S32768.size a)
instance k0_chk1306.dec : ∀ (v3265 : IVec S16 32), Decidable (k0_chk1306 v3265) := fun v3265 => decidable_of_iff' _ (Iff.of_eq (k0_chk1306.eq_1 v3265))
theorem k0_idx1306_inb : ∀ (v3265 : IVec S16 32) (k0_hw1306 : k0_chk1306 v3265), ∀ a x, ((![v3265] : Fin 1 → IVec S16 32) a x).toNat < S32768.size a := fun v3265 k0_hw1306 => k0_hw1306

def k0_chk1307 (v3269 : IVec S16 32) : Prop :=
  (∀ a x, ((![v3269] : Fin 1 → IVec S16 32) a x).toNat < S32768.size a)
instance k0_chk1307.dec : ∀ (v3269 : IVec S16 32), Decidable (k0_chk1307 v3269) := fun v3269 => decidable_of_iff' _ (Iff.of_eq (k0_chk1307.eq_1 v3269))
theorem k0_idx1307_inb : ∀ (v3269 : IVec S16 32) (k0_hw1307 : k0_chk1307 v3269), ∀ a x, ((![v3269] : Fin 1 → IVec S16 32) a x).toNat < S32768.size a := fun v3269 k0_hw1307 => k0_hw1307

def k0_chk1308 (v3273 : IVec S16 32) : Prop :=
  (∀ a x, ((![v3273] : Fin 1 → IVec S16 32) a x).toNat < S32768.size a)
instance k0_chk1308.dec : ∀ (v3273 : IVec S16 32), Decidable (k0_chk1308 v3273) := fun v3273 => decidable_of_iff' _ (Iff.of_eq (k0_chk1308.eq_1 v3273))
theorem k0_idx1308_inb : ∀ (v3273 : IVec S16 32) (k0_hw1308 : k0_chk1308 v3273), ∀ a x, ((![v3273] : Fin 1 → IVec S16 32) a x).toNat < S32768.size a := fun v3273 k0_hw1308 => k0_hw1308

def k0_chk1309 (v3277 : IVec S16 32) : Prop :=
  (∀ a x, ((![v3277] : Fin 1 → IVec S16 32) a x).toNat < S32768.size a)
instance k0_chk1309.dec : ∀ (v3277 : IVec S16 32), Decidable (k0_chk1309 v3277) := fun v3277 => decidable_of_iff' _ (Iff.of_eq (k0_chk1309.eq_1 v3277))
theorem k0_idx1309_inb : ∀ (v3277 : IVec S16 32) (k0_hw1309 : k0_chk1309 v3277), ∀ a x, ((![v3277] : Fin 1 → IVec S16 32) a x).toNat < S32768.size a := fun v3277 k0_hw1309 => k0_hw1309

def k0_chk1310 (v3281 : IVec S16 32) : Prop :=
  (∀ a x, ((![v3281] : Fin 1 → IVec S16 32) a x).toNat < S32768.size a)
instance k0_chk1310.dec : ∀ (v3281 : IVec S16 32), Decidable (k0_chk1310 v3281) := fun v3281 => decidable_of_iff' _ (Iff.of_eq (k0_chk1310.eq_1 v3281))
theorem k0_idx1310_inb : ∀ (v3281 : IVec S16 32) (k0_hw1310 : k0_chk1310 v3281), ∀ a x, ((![v3281] : Fin 1 → IVec S16 32) a x).toNat < S32768.size a := fun v3281 k0_hw1310 => k0_hw1310

def k0_chk1311 (v3285 : IVec S16 32) : Prop :=
  (∀ a x, ((![v3285] : Fin 1 → IVec S16 32) a x).toNat < S32768.size a)
instance k0_chk1311.dec : ∀ (v3285 : IVec S16 32), Decidable (k0_chk1311 v3285) := fun v3285 => decidable_of_iff' _ (Iff.of_eq (k0_chk1311.eq_1 v3285))
theorem k0_idx1311_inb : ∀ (v3285 : IVec S16 32) (k0_hw1311 : k0_chk1311 v3285), ∀ a x, ((![v3285] : Fin 1 → IVec S16 32) a x).toNat < S32768.size a := fun v3285 k0_hw1311 => k0_hw1311

def k0_chk1312 (v3289 : IVec S16 32) : Prop :=
  (∀ a x, ((![v3289] : Fin 1 → IVec S16 32) a x).toNat < S32768.size a)
instance k0_chk1312.dec : ∀ (v3289 : IVec S16 32), Decidable (k0_chk1312 v3289) := fun v3289 => decidable_of_iff' _ (Iff.of_eq (k0_chk1312.eq_1 v3289))
theorem k0_idx1312_inb : ∀ (v3289 : IVec S16 32) (k0_hw1312 : k0_chk1312 v3289), ∀ a x, ((![v3289] : Fin 1 → IVec S16 32) a x).toNat < S32768.size a := fun v3289 k0_hw1312 => k0_hw1312

def k0_chk1313 (v3293 : IVec S16 32) : Prop :=
  (∀ a x, ((![v3293] : Fin 1 → IVec S16 32) a x).toNat < S32768.size a)
instance k0_chk1313.dec : ∀ (v3293 : IVec S16 32), Decidable (k0_chk1313 v3293) := fun v3293 => decidable_of_iff' _ (Iff.of_eq (k0_chk1313.eq_1 v3293))
theorem k0_idx1313_inb : ∀ (v3293 : IVec S16 32) (k0_hw1313 : k0_chk1313 v3293), ∀ a x, ((![v3293] : Fin 1 → IVec S16 32) a x).toNat < S32768.size a := fun v3293 k0_hw1313 => k0_hw1313

def k0_chk1314 (v3297 : IVec S16 32) : Prop :=
  (∀ a x, ((![v3297] : Fin 1 → IVec S16 32) a x).toNat < S32768.size a)
instance k0_chk1314.dec : ∀ (v3297 : IVec S16 32), Decidable (k0_chk1314 v3297) := fun v3297 => decidable_of_iff' _ (Iff.of_eq (k0_chk1314.eq_1 v3297))
theorem k0_idx1314_inb : ∀ (v3297 : IVec S16 32) (k0_hw1314 : k0_chk1314 v3297), ∀ a x, ((![v3297] : Fin 1 → IVec S16 32) a x).toNat < S32768.size a := fun v3297 k0_hw1314 => k0_hw1314

def k0_chk1315 (v3301 : IVec S16 32) : Prop :=
  (∀ a x, ((![v3301] : Fin 1 → IVec S16 32) a x).toNat < S32768.size a)
instance k0_chk1315.dec : ∀ (v3301 : IVec S16 32), Decidable (k0_chk1315 v3301) := fun v3301 => decidable_of_iff' _ (Iff.of_eq (k0_chk1315.eq_1 v3301))
theorem k0_idx1315_inb : ∀ (v3301 : IVec S16 32) (k0_hw1315 : k0_chk1315 v3301), ∀ a x, ((![v3301] : Fin 1 → IVec S16 32) a x).toNat < S32768.size a := fun v3301 k0_hw1315 => k0_hw1315

def k0_chk1316 (v3305 : IVec S16 32) : Prop :=
  (∀ a x, ((![v3305] : Fin 1 → IVec S16 32) a x).toNat < S32768.size a)
instance k0_chk1316.dec : ∀ (v3305 : IVec S16 32), Decidable (k0_chk1316 v3305) := fun v3305 => decidable_of_iff' _ (Iff.of_eq (k0_chk1316.eq_1 v3305))
theorem k0_idx1316_inb : ∀ (v3305 : IVec S16 32) (k0_hw1316 : k0_chk1316 v3305), ∀ a x, ((![v3305] : Fin 1 → IVec S16 32) a x).toNat < S32768.size a := fun v3305 k0_hw1316 => k0_hw1316

def k0_chk1317 (v3309 : IVec S16 32) : Prop :=
  (∀ a x, ((![v3309] : Fin 1 → IVec S16 32) a x).toNat < S32768.size a)
instance k0_chk1317.dec : ∀ (v3309 : IVec S16 32), Decidable (k0_chk1317 v3309) := fun v3309 => decidable_of_iff' _ (Iff.of_eq (k0_chk1317.eq_1 v3309))
theorem k0_idx1317_inb : ∀ (v3309 : IVec S16 32) (k0_hw1317 : k0_chk1317 v3309), ∀ a x, ((![v3309] : Fin 1 → IVec S16 32) a x).toNat < S32768.size a := fun v3309 k0_hw1317 => k0_hw1317

def k0_chk1318 (v3313 : IVec S16 32) : Prop :=
  (∀ a x, ((![v3313] : Fin 1 → IVec S16 32) a x).toNat < S32768.size a)
instance k0_chk1318.dec : ∀ (v3313 : IVec S16 32), Decidable (k0_chk1318 v3313) := fun v3313 => decidable_of_iff' _ (Iff.of_eq (k0_chk1318.eq_1 v3313))
theorem k0_idx1318_inb : ∀ (v3313 : IVec S16 32) (k0_hw1318 : k0_chk1318 v3313), ∀ a x, ((![v3313] : Fin 1 → IVec S16 32) a x).toNat < S32768.size a := fun v3313 k0_hw1318 => k0_hw1318

def k0_chk1319 (v3317 : IVec S16 32) : Prop :=
  (∀ a x, ((![v3317] : Fin 1 → IVec S16 32) a x).toNat < S32768.size a)
instance k0_chk1319.dec : ∀ (v3317 : IVec S16 32), Decidable (k0_chk1319 v3317) := fun v3317 => decidable_of_iff' _ (Iff.of_eq (k0_chk1319.eq_1 v3317))
theorem k0_idx1319_inb : ∀ (v3317 : IVec S16 32) (k0_hw1319 : k0_chk1319 v3317), ∀ a x, ((![v3317] : Fin 1 → IVec S16 32) a x).toNat < S32768.size a := fun v3317 k0_hw1319 => k0_hw1319

def k0_chk1320 (v3321 : IVec S16 32) : Prop :=
  (∀ a x, ((![v3321] : Fin 1 → IVec S16 32) a x).toNat < S32768.size a)
instance k0_chk1320.dec : ∀ (v3321 : IVec S16 32), Decidable (k0_chk1320 v3321) := fun v3321 => decidable_of_iff' _ (Iff.of_eq (k0_chk1320.eq_1 v3321))
theorem k0_idx1320_inb : ∀ (v3321 : IVec S16 32) (k0_hw1320 : k0_chk1320 v3321), ∀ a x, ((![v3321] : Fin 1 → IVec S16 32) a x).toNat < S32768.size a := fun v3321 k0_hw1320 => k0_hw1320

def k0_chk1321 (v3325 : IVec S16 32) : Prop :=
  (∀ a x, ((![v3325] : Fin 1 → IVec S16 32) a x).toNat < S32768.size a)
instance k0_chk1321.dec : ∀ (v3325 : IVec S16 32), Decidable (k0_chk1321 v3325) := fun v3325 => decidable_of_iff' _ (Iff.of_eq (k0_chk1321.eq_1 v3325))
theorem k0_idx1321_inb : ∀ (v3325 : IVec S16 32) (k0_hw1321 : k0_chk1321 v3325), ∀ a x, ((![v3325] : Fin 1 → IVec S16 32) a x).toNat < S32768.size a := fun v3325 k0_hw1321 => k0_hw1321

def k0_chk1322 (v3329 : IVec S16 32) : Prop :=
  (∀ a x, ((![v3329] : Fin 1 → IVec S16 32) a x).toNat < S32768.size a)
instance k0_chk1322.dec : ∀ (v3329 : IVec S16 32), Decidable (k0_chk1322 v3329) := fun v3329 => decidable_of_iff' _ (Iff.of_eq (k0_chk1322.eq_1 v3329))
theorem k0_idx1322_inb : ∀ (v3329 : IVec S16 32) (k0_hw1322 : k0_chk1322 v3329), ∀ a x, ((![v3329] : Fin 1 → IVec S16 32) a x).toNat < S32768.size a := fun v3329 k0_hw1322 => k0_hw1322

def k0_chk1323 (v3333 : IVec S16 32) : Prop :=
  (∀ a x, ((![v3333] : Fin 1 → IVec S16 32) a x).toNat < S32768.size a)
instance k0_chk1323.dec : ∀ (v3333 : IVec S16 32), Decidable (k0_chk1323 v3333) := fun v3333 => decidable_of_iff' _ (Iff.of_eq (k0_chk1323.eq_1 v3333))
theorem k0_idx1323_inb : ∀ (v3333 : IVec S16 32) (k0_hw1323 : k0_chk1323 v3333), ∀ a x, ((![v3333] : Fin 1 → IVec S16 32) a x).toNat < S32768.size a := fun v3333 k0_hw1323 => k0_hw1323

def k0_chk1324 (v3337 : IVec S16 32) : Prop :=
  (∀ a x, ((![v3337] : Fin 1 → IVec S16 32) a x).toNat < S32768.size a)
instance k0_chk1324.dec : ∀ (v3337 : IVec S16 32), Decidable (k0_chk1324 v3337) := fun v3337 => decidable_of_iff' _ (Iff.of_eq (k0_chk1324.eq_1 v3337))
theorem k0_idx1324_inb : ∀ (v3337 : IVec S16 32) (k0_hw1324 : k0_chk1324 v3337), ∀ a x, ((![v3337] : Fin 1 → IVec S16 32) a x).toNat < S32768.size a := fun v3337 k0_hw1324 => k0_hw1324

def k0_chk1325 (v3341 : IVec S16 32) : Prop :=
  (∀ a x, ((![v3341] : Fin 1 → IVec S16 32) a x).toNat < S32768.size a)
instance k0_chk1325.dec : ∀ (v3341 : IVec S16 32), Decidable (k0_chk1325 v3341) := fun v3341 => decidable_of_iff' _ (Iff.of_eq (k0_chk1325.eq_1 v3341))
theorem k0_idx1325_inb : ∀ (v3341 : IVec S16 32) (k0_hw1325 : k0_chk1325 v3341), ∀ a x, ((![v3341] : Fin 1 → IVec S16 32) a x).toNat < S32768.size a := fun v3341 k0_hw1325 => k0_hw1325

def k0_chk1326 (v3345 : IVec S16 32) : Prop :=
  (∀ a x, ((![v3345] : Fin 1 → IVec S16 32) a x).toNat < S32768.size a)
instance k0_chk1326.dec : ∀ (v3345 : IVec S16 32), Decidable (k0_chk1326 v3345) := fun v3345 => decidable_of_iff' _ (Iff.of_eq (k0_chk1326.eq_1 v3345))
theorem k0_idx1326_inb : ∀ (v3345 : IVec S16 32) (k0_hw1326 : k0_chk1326 v3345), ∀ a x, ((![v3345] : Fin 1 → IVec S16 32) a x).toNat < S32768.size a := fun v3345 k0_hw1326 => k0_hw1326

def k0_chk1327 (v3349 : IVec S16 32) : Prop :=
  (∀ a x, ((![v3349] : Fin 1 → IVec S16 32) a x).toNat < S32768.size a)
instance k0_chk1327.dec : ∀ (v3349 : IVec S16 32), Decidable (k0_chk1327 v3349) := fun v3349 => decidable_of_iff' _ (Iff.of_eq (k0_chk1327.eq_1 v3349))
theorem k0_idx1327_inb : ∀ (v3349 : IVec S16 32) (k0_hw1327 : k0_chk1327 v3349), ∀ a x, ((![v3349] : Fin 1 → IVec S16 32) a x).toNat < S32768.size a := fun v3349 k0_hw1327 => k0_hw1327

def k0_chk1328 (v3353 : IVec S16 32) : Prop :=
  (∀ a x, ((![v3353] : Fin 1 → IVec S16 32) a x).toNat < S32768.size a)
instance k0_chk1328.dec : ∀ (v3353 : IVec S16 32), Decidable (k0_chk1328 v3353) := fun v3353 => decidable_of_iff' _ (Iff.of_eq (k0_chk1328.eq_1 v3353))
theorem k0_idx1328_inb : ∀ (v3353 : IVec S16 32) (k0_hw1328 : k0_chk1328 v3353), ∀ a x, ((![v3353] : Fin 1 → IVec S16 32) a x).toNat < S32768.size a := fun v3353 k0_hw1328 => k0_hw1328

def k0_chk1329 (v3357 : IVec S16 32) : Prop :=
  (∀ a x, ((![v3357] : Fin 1 → IVec S16 32) a x).toNat < S32768.size a)
instance k0_chk1329.dec : ∀ (v3357 : IVec S16 32), Decidable (k0_chk1329 v3357) := fun v3357 => decidable_of_iff' _ (Iff.of_eq (k0_chk1329.eq_1 v3357))
theorem k0_idx1329_inb : ∀ (v3357 : IVec S16 32) (k0_hw1329 : k0_chk1329 v3357), ∀ a x, ((![v3357] : Fin 1 → IVec S16 32) a x).toNat < S32768.size a := fun v3357 k0_hw1329 => k0_hw1329

def k0_chk1330 (v3361 : IVec S16 32) : Prop :=
  (∀ a x, ((![v3361] : Fin 1 → IVec S16 32) a x).toNat < S32768.size a)
instance k0_chk1330.dec : ∀ (v3361 : IVec S16 32), Decidable (k0_chk1330 v3361) := fun v3361 => decidable_of_iff' _ (Iff.of_eq (k0_chk1330.eq_1 v3361))
theorem k0_idx1330_inb : ∀ (v3361 : IVec S16 32) (k0_hw1330 : k0_chk1330 v3361), ∀ a x, ((![v3361] : Fin 1 → IVec S16 32) a x).toNat < S32768.size a := fun v3361 k0_hw1330 => k0_hw1330

def k0_chk1331 (v3365 : IVec S16 32) : Prop :=
  (∀ a x, ((![v3365] : Fin 1 → IVec S16 32) a x).toNat < S32768.size a)
instance k0_chk1331.dec : ∀ (v3365 : IVec S16 32), Decidable (k0_chk1331 v3365) := fun v3365 => decidable_of_iff' _ (Iff.of_eq (k0_chk1331.eq_1 v3365))
theorem k0_idx1331_inb : ∀ (v3365 : IVec S16 32) (k0_hw1331 : k0_chk1331 v3365), ∀ a x, ((![v3365] : Fin 1 → IVec S16 32) a x).toNat < S32768.size a := fun v3365 k0_hw1331 => k0_hw1331

def k0_chk1332 (v3369 : IVec S16 32) : Prop :=
  (∀ a x, ((![v3369] : Fin 1 → IVec S16 32) a x).toNat < S32768.size a)
instance k0_chk1332.dec : ∀ (v3369 : IVec S16 32), Decidable (k0_chk1332 v3369) := fun v3369 => decidable_of_iff' _ (Iff.of_eq (k0_chk1332.eq_1 v3369))
theorem k0_idx1332_inb : ∀ (v3369 : IVec S16 32) (k0_hw1332 : k0_chk1332 v3369), ∀ a x, ((![v3369] : Fin 1 → IVec S16 32) a x).toNat < S32768.size a := fun v3369 k0_hw1332 => k0_hw1332

def k0_chk1333 (v3373 : IVec S16 32) : Prop :=
  (∀ a x, ((![v3373] : Fin 1 → IVec S16 32) a x).toNat < S32768.size a)
instance k0_chk1333.dec : ∀ (v3373 : IVec S16 32), Decidable (k0_chk1333 v3373) := fun v3373 => decidable_of_iff' _ (Iff.of_eq (k0_chk1333.eq_1 v3373))
theorem k0_idx1333_inb : ∀ (v3373 : IVec S16 32) (k0_hw1333 : k0_chk1333 v3373), ∀ a x, ((![v3373] : Fin 1 → IVec S16 32) a x).toNat < S32768.size a := fun v3373 k0_hw1333 => k0_hw1333

def k0_chk1334 (v3377 : IVec S16 32) : Prop :=
  (∀ a x, ((![v3377] : Fin 1 → IVec S16 32) a x).toNat < S32768.size a)
instance k0_chk1334.dec : ∀ (v3377 : IVec S16 32), Decidable (k0_chk1334 v3377) := fun v3377 => decidable_of_iff' _ (Iff.of_eq (k0_chk1334.eq_1 v3377))
theorem k0_idx1334_inb : ∀ (v3377 : IVec S16 32) (k0_hw1334 : k0_chk1334 v3377), ∀ a x, ((![v3377] : Fin 1 → IVec S16 32) a x).toNat < S32768.size a := fun v3377 k0_hw1334 => k0_hw1334

def k0_chk1335 (v3381 : IVec S16 32) : Prop :=
  (∀ a x, ((![v3381] : Fin 1 → IVec S16 32) a x).toNat < S32768.size a)
instance k0_chk1335.dec : ∀ (v3381 : IVec S16 32), Decidable (k0_chk1335 v3381) := fun v3381 => decidable_of_iff' _ (Iff.of_eq (k0_chk1335.eq_1 v3381))
theorem k0_idx1335_inb : ∀ (v3381 : IVec S16 32) (k0_hw1335 : k0_chk1335 v3381), ∀ a x, ((![v3381] : Fin 1 → IVec S16 32) a x).toNat < S32768.size a := fun v3381 k0_hw1335 => k0_hw1335

def k0_chk1336 (v3385 : IVec S16 32) : Prop :=
  (∀ a x, ((![v3385] : Fin 1 → IVec S16 32) a x).toNat < S32768.size a)
instance k0_chk1336.dec : ∀ (v3385 : IVec S16 32), Decidable (k0_chk1336 v3385) := fun v3385 => decidable_of_iff' _ (Iff.of_eq (k0_chk1336.eq_1 v3385))
theorem k0_idx1336_inb : ∀ (v3385 : IVec S16 32) (k0_hw1336 : k0_chk1336 v3385), ∀ a x, ((![v3385] : Fin 1 → IVec S16 32) a x).toNat < S32768.size a := fun v3385 k0_hw1336 => k0_hw1336

def k0_chk1337 (v3389 : IVec S16 32) : Prop :=
  (∀ a x, ((![v3389] : Fin 1 → IVec S16 32) a x).toNat < S32768.size a)
instance k0_chk1337.dec : ∀ (v3389 : IVec S16 32), Decidable (k0_chk1337 v3389) := fun v3389 => decidable_of_iff' _ (Iff.of_eq (k0_chk1337.eq_1 v3389))
theorem k0_idx1337_inb : ∀ (v3389 : IVec S16 32) (k0_hw1337 : k0_chk1337 v3389), ∀ a x, ((![v3389] : Fin 1 → IVec S16 32) a x).toNat < S32768.size a := fun v3389 k0_hw1337 => k0_hw1337

def k0_chk1338 (v3393 : IVec S16 32) : Prop :=
  (∀ a x, ((![v3393] : Fin 1 → IVec S16 32) a x).toNat < S32768.size a)
instance k0_chk1338.dec : ∀ (v3393 : IVec S16 32), Decidable (k0_chk1338 v3393) := fun v3393 => decidable_of_iff' _ (Iff.of_eq (k0_chk1338.eq_1 v3393))
theorem k0_idx1338_inb : ∀ (v3393 : IVec S16 32) (k0_hw1338 : k0_chk1338 v3393), ∀ a x, ((![v3393] : Fin 1 → IVec S16 32) a x).toNat < S32768.size a := fun v3393 k0_hw1338 => k0_hw1338

def k0_chk1339 (v3397 : IVec S16 32) : Prop :=
  (∀ a x, ((![v3397] : Fin 1 → IVec S16 32) a x).toNat < S32768.size a)
instance k0_chk1339.dec : ∀ (v3397 : IVec S16 32), Decidable (k0_chk1339 v3397) := fun v3397 => decidable_of_iff' _ (Iff.of_eq (k0_chk1339.eq_1 v3397))
theorem k0_idx1339_inb : ∀ (v3397 : IVec S16 32) (k0_hw1339 : k0_chk1339 v3397), ∀ a x, ((![v3397] : Fin 1 → IVec S16 32) a x).toNat < S32768.size a := fun v3397 k0_hw1339 => k0_hw1339

def k0_chk1340 (v3401 : IVec S16 32) : Prop :=
  (∀ a x, ((![v3401] : Fin 1 → IVec S16 32) a x).toNat < S32768.size a)
instance k0_chk1340.dec : ∀ (v3401 : IVec S16 32), Decidable (k0_chk1340 v3401) := fun v3401 => decidable_of_iff' _ (Iff.of_eq (k0_chk1340.eq_1 v3401))
theorem k0_idx1340_inb : ∀ (v3401 : IVec S16 32) (k0_hw1340 : k0_chk1340 v3401), ∀ a x, ((![v3401] : Fin 1 → IVec S16 32) a x).toNat < S32768.size a := fun v3401 k0_hw1340 => k0_hw1340

def k0_chk1341 (v3405 : IVec S16 32) : Prop :=
  (∀ a x, ((![v3405] : Fin 1 → IVec S16 32) a x).toNat < S32768.size a)
instance k0_chk1341.dec : ∀ (v3405 : IVec S16 32), Decidable (k0_chk1341 v3405) := fun v3405 => decidable_of_iff' _ (Iff.of_eq (k0_chk1341.eq_1 v3405))
theorem k0_idx1341_inb : ∀ (v3405 : IVec S16 32) (k0_hw1341 : k0_chk1341 v3405), ∀ a x, ((![v3405] : Fin 1 → IVec S16 32) a x).toNat < S32768.size a := fun v3405 k0_hw1341 => k0_hw1341

def k0_chk1342 (v3409 : IVec S16 32) : Prop :=
  (∀ a x, ((![v3409] : Fin 1 → IVec S16 32) a x).toNat < S32768.size a)
instance k0_chk1342.dec : ∀ (v3409 : IVec S16 32), Decidable (k0_chk1342 v3409) := fun v3409 => decidable_of_iff' _ (Iff.of_eq (k0_chk1342.eq_1 v3409))
theorem k0_idx1342_inb : ∀ (v3409 : IVec S16 32) (k0_hw1342 : k0_chk1342 v3409), ∀ a x, ((![v3409] : Fin 1 → IVec S16 32) a x).toNat < S32768.size a := fun v3409 k0_hw1342 => k0_hw1342

def k0_chk1343 (v3413 : IVec S16 32) : Prop :=
  (∀ a x, ((![v3413] : Fin 1 → IVec S16 32) a x).toNat < S32768.size a)
instance k0_chk1343.dec : ∀ (v3413 : IVec S16 32), Decidable (k0_chk1343 v3413) := fun v3413 => decidable_of_iff' _ (Iff.of_eq (k0_chk1343.eq_1 v3413))
theorem k0_idx1343_inb : ∀ (v3413 : IVec S16 32) (k0_hw1343 : k0_chk1343 v3413), ∀ a x, ((![v3413] : Fin 1 → IVec S16 32) a x).toNat < S32768.size a := fun v3413 k0_hw1343 => k0_hw1343

def k0_chk1344 (v3417 : IVec S16 32) : Prop :=
  (∀ a x, ((![v3417] : Fin 1 → IVec S16 32) a x).toNat < S32768.size a)
instance k0_chk1344.dec : ∀ (v3417 : IVec S16 32), Decidable (k0_chk1344 v3417) := fun v3417 => decidable_of_iff' _ (Iff.of_eq (k0_chk1344.eq_1 v3417))
theorem k0_idx1344_inb : ∀ (v3417 : IVec S16 32) (k0_hw1344 : k0_chk1344 v3417), ∀ a x, ((![v3417] : Fin 1 → IVec S16 32) a x).toNat < S32768.size a := fun v3417 k0_hw1344 => k0_hw1344

def k0_chk1345 (v3421 : IVec S16 32) : Prop :=
  (∀ a x, ((![v3421] : Fin 1 → IVec S16 32) a x).toNat < S32768.size a)
instance k0_chk1345.dec : ∀ (v3421 : IVec S16 32), Decidable (k0_chk1345 v3421) := fun v3421 => decidable_of_iff' _ (Iff.of_eq (k0_chk1345.eq_1 v3421))
theorem k0_idx1345_inb : ∀ (v3421 : IVec S16 32) (k0_hw1345 : k0_chk1345 v3421), ∀ a x, ((![v3421] : Fin 1 → IVec S16 32) a x).toNat < S32768.size a := fun v3421 k0_hw1345 => k0_hw1345

def k0_chk1346 (v3425 : IVec S16 32) : Prop :=
  (∀ a x, ((![v3425] : Fin 1 → IVec S16 32) a x).toNat < S32768.size a)
instance k0_chk1346.dec : ∀ (v3425 : IVec S16 32), Decidable (k0_chk1346 v3425) := fun v3425 => decidable_of_iff' _ (Iff.of_eq (k0_chk1346.eq_1 v3425))
theorem k0_idx1346_inb : ∀ (v3425 : IVec S16 32) (k0_hw1346 : k0_chk1346 v3425), ∀ a x, ((![v3425] : Fin 1 → IVec S16 32) a x).toNat < S32768.size a := fun v3425 k0_hw1346 => k0_hw1346

def k0_chk1347 (v3429 : IVec S16 32) : Prop :=
  (∀ a x, ((![v3429] : Fin 1 → IVec S16 32) a x).toNat < S32768.size a)
instance k0_chk1347.dec : ∀ (v3429 : IVec S16 32), Decidable (k0_chk1347 v3429) := fun v3429 => decidable_of_iff' _ (Iff.of_eq (k0_chk1347.eq_1 v3429))
theorem k0_idx1347_inb : ∀ (v3429 : IVec S16 32) (k0_hw1347 : k0_chk1347 v3429), ∀ a x, ((![v3429] : Fin 1 → IVec S16 32) a x).toNat < S32768.size a := fun v3429 k0_hw1347 => k0_hw1347

def k0_chk1348 (v3433 : IVec S16 32) : Prop :=
  (∀ a x, ((![v3433] : Fin 1 → IVec S16 32) a x).toNat < S32768.size a)
instance k0_chk1348.dec : ∀ (v3433 : IVec S16 32), Decidable (k0_chk1348 v3433) := fun v3433 => decidable_of_iff' _ (Iff.of_eq (k0_chk1348.eq_1 v3433))
theorem k0_idx1348_inb : ∀ (v3433 : IVec S16 32) (k0_hw1348 : k0_chk1348 v3433), ∀ a x, ((![v3433] : Fin 1 → IVec S16 32) a x).toNat < S32768.size a := fun v3433 k0_hw1348 => k0_hw1348

def k0_chk1349 (v3437 : IVec S16 32) : Prop :=
  (∀ a x, ((![v3437] : Fin 1 → IVec S16 32) a x).toNat < S32768.size a)
instance k0_chk1349.dec : ∀ (v3437 : IVec S16 32), Decidable (k0_chk1349 v3437) := fun v3437 => decidable_of_iff' _ (Iff.of_eq (k0_chk1349.eq_1 v3437))
theorem k0_idx1349_inb : ∀ (v3437 : IVec S16 32) (k0_hw1349 : k0_chk1349 v3437), ∀ a x, ((![v3437] : Fin 1 → IVec S16 32) a x).toNat < S32768.size a := fun v3437 k0_hw1349 => k0_hw1349

def k0_chk1350 (v3441 : IVec S16 32) : Prop :=
  (∀ a x, ((![v3441] : Fin 1 → IVec S16 32) a x).toNat < S32768.size a)
instance k0_chk1350.dec : ∀ (v3441 : IVec S16 32), Decidable (k0_chk1350 v3441) := fun v3441 => decidable_of_iff' _ (Iff.of_eq (k0_chk1350.eq_1 v3441))
theorem k0_idx1350_inb : ∀ (v3441 : IVec S16 32) (k0_hw1350 : k0_chk1350 v3441), ∀ a x, ((![v3441] : Fin 1 → IVec S16 32) a x).toNat < S32768.size a := fun v3441 k0_hw1350 => k0_hw1350

def k0_chk1351 (v3445 : IVec S16 32) : Prop :=
  (∀ a x, ((![v3445] : Fin 1 → IVec S16 32) a x).toNat < S32768.size a)
instance k0_chk1351.dec : ∀ (v3445 : IVec S16 32), Decidable (k0_chk1351 v3445) := fun v3445 => decidable_of_iff' _ (Iff.of_eq (k0_chk1351.eq_1 v3445))
theorem k0_idx1351_inb : ∀ (v3445 : IVec S16 32) (k0_hw1351 : k0_chk1351 v3445), ∀ a x, ((![v3445] : Fin 1 → IVec S16 32) a x).toNat < S32768.size a := fun v3445 k0_hw1351 => k0_hw1351

def k0_chk1352 (v3449 : IVec S16 32) : Prop :=
  (∀ a x, ((![v3449] : Fin 1 → IVec S16 32) a x).toNat < S32768.size a)
instance k0_chk1352.dec : ∀ (v3449 : IVec S16 32), Decidable (k0_chk1352 v3449) := fun v3449 => decidable_of_iff' _ (Iff.of_eq (k0_chk1352.eq_1 v3449))
theorem k0_idx1352_inb : ∀ (v3449 : IVec S16 32) (k0_hw1352 : k0_chk1352 v3449), ∀ a x, ((![v3449] : Fin 1 → IVec S16 32) a x).toNat < S32768.size a := fun v3449 k0_hw1352 => k0_hw1352

def k0_chk1353 (v3453 : IVec S16 32) : Prop :=
  (∀ a x, ((![v3453] : Fin 1 → IVec S16 32) a x).toNat < S32768.size a)
instance k0_chk1353.dec : ∀ (v3453 : IVec S16 32), Decidable (k0_chk1353 v3453) := fun v3453 => decidable_of_iff' _ (Iff.of_eq (k0_chk1353.eq_1 v3453))
theorem k0_idx1353_inb : ∀ (v3453 : IVec S16 32) (k0_hw1353 : k0_chk1353 v3453), ∀ a x, ((![v3453] : Fin 1 → IVec S16 32) a x).toNat < S32768.size a := fun v3453 k0_hw1353 => k0_hw1353

def k0_chk1354 (v3457 : IVec S16 32) : Prop :=
  (∀ a x, ((![v3457] : Fin 1 → IVec S16 32) a x).toNat < S32768.size a)
instance k0_chk1354.dec : ∀ (v3457 : IVec S16 32), Decidable (k0_chk1354 v3457) := fun v3457 => decidable_of_iff' _ (Iff.of_eq (k0_chk1354.eq_1 v3457))
theorem k0_idx1354_inb : ∀ (v3457 : IVec S16 32) (k0_hw1354 : k0_chk1354 v3457), ∀ a x, ((![v3457] : Fin 1 → IVec S16 32) a x).toNat < S32768.size a := fun v3457 k0_hw1354 => k0_hw1354

def k0_chk1355 (v3461 : IVec S16 32) : Prop :=
  (∀ a x, ((![v3461] : Fin 1 → IVec S16 32) a x).toNat < S32768.size a)
instance k0_chk1355.dec : ∀ (v3461 : IVec S16 32), Decidable (k0_chk1355 v3461) := fun v3461 => decidable_of_iff' _ (Iff.of_eq (k0_chk1355.eq_1 v3461))
theorem k0_idx1355_inb : ∀ (v3461 : IVec S16 32) (k0_hw1355 : k0_chk1355 v3461), ∀ a x, ((![v3461] : Fin 1 → IVec S16 32) a x).toNat < S32768.size a := fun v3461 k0_hw1355 => k0_hw1355

def k0_chk1356 (v3465 : IVec S16 32) : Prop :=
  (∀ a x, ((![v3465] : Fin 1 → IVec S16 32) a x).toNat < S32768.size a)
instance k0_chk1356.dec : ∀ (v3465 : IVec S16 32), Decidable (k0_chk1356 v3465) := fun v3465 => decidable_of_iff' _ (Iff.of_eq (k0_chk1356.eq_1 v3465))
theorem k0_idx1356_inb : ∀ (v3465 : IVec S16 32) (k0_hw1356 : k0_chk1356 v3465), ∀ a x, ((![v3465] : Fin 1 → IVec S16 32) a x).toNat < S32768.size a := fun v3465 k0_hw1356 => k0_hw1356

def k0_chk1357 (v3469 : IVec S16 32) : Prop :=
  (∀ a x, ((![v3469] : Fin 1 → IVec S16 32) a x).toNat < S32768.size a)
instance k0_chk1357.dec : ∀ (v3469 : IVec S16 32), Decidable (k0_chk1357 v3469) := fun v3469 => decidable_of_iff' _ (Iff.of_eq (k0_chk1357.eq_1 v3469))
theorem k0_idx1357_inb : ∀ (v3469 : IVec S16 32) (k0_hw1357 : k0_chk1357 v3469), ∀ a x, ((![v3469] : Fin 1 → IVec S16 32) a x).toNat < S32768.size a := fun v3469 k0_hw1357 => k0_hw1357

def k0_chk1358 (v3473 : IVec S16 32) : Prop :=
  (∀ a x, ((![v3473] : Fin 1 → IVec S16 32) a x).toNat < S32768.size a)
instance k0_chk1358.dec : ∀ (v3473 : IVec S16 32), Decidable (k0_chk1358 v3473) := fun v3473 => decidable_of_iff' _ (Iff.of_eq (k0_chk1358.eq_1 v3473))
theorem k0_idx1358_inb : ∀ (v3473 : IVec S16 32) (k0_hw1358 : k0_chk1358 v3473), ∀ a x, ((![v3473] : Fin 1 → IVec S16 32) a x).toNat < S32768.size a := fun v3473 k0_hw1358 => k0_hw1358

def k0_chk1359 (v3477 : IVec S16 32) : Prop :=
  (∀ a x, ((![v3477] : Fin 1 → IVec S16 32) a x).toNat < S32768.size a)
instance k0_chk1359.dec : ∀ (v3477 : IVec S16 32), Decidable (k0_chk1359 v3477) := fun v3477 => decidable_of_iff' _ (Iff.of_eq (k0_chk1359.eq_1 v3477))
theorem k0_idx1359_inb : ∀ (v3477 : IVec S16 32) (k0_hw1359 : k0_chk1359 v3477), ∀ a x, ((![v3477] : Fin 1 → IVec S16 32) a x).toNat < S32768.size a := fun v3477 k0_hw1359 => k0_hw1359

def k0_chk1360 (v3481 : IVec S16 32) : Prop :=
  (∀ a x, ((![v3481] : Fin 1 → IVec S16 32) a x).toNat < S32768.size a)
instance k0_chk1360.dec : ∀ (v3481 : IVec S16 32), Decidable (k0_chk1360 v3481) := fun v3481 => decidable_of_iff' _ (Iff.of_eq (k0_chk1360.eq_1 v3481))
theorem k0_idx1360_inb : ∀ (v3481 : IVec S16 32) (k0_hw1360 : k0_chk1360 v3481), ∀ a x, ((![v3481] : Fin 1 → IVec S16 32) a x).toNat < S32768.size a := fun v3481 k0_hw1360 => k0_hw1360

def k0_chk1361 (v3485 : IVec S16 32) : Prop :=
  (∀ a x, ((![v3485] : Fin 1 → IVec S16 32) a x).toNat < S32768.size a)
instance k0_chk1361.dec : ∀ (v3485 : IVec S16 32), Decidable (k0_chk1361 v3485) := fun v3485 => decidable_of_iff' _ (Iff.of_eq (k0_chk1361.eq_1 v3485))
theorem k0_idx1361_inb : ∀ (v3485 : IVec S16 32) (k0_hw1361 : k0_chk1361 v3485), ∀ a x, ((![v3485] : Fin 1 → IVec S16 32) a x).toNat < S32768.size a := fun v3485 k0_hw1361 => k0_hw1361

def k0_chk1362 (v3489 : IVec S16 32) : Prop :=
  (∀ a x, ((![v3489] : Fin 1 → IVec S16 32) a x).toNat < S32768.size a)
instance k0_chk1362.dec : ∀ (v3489 : IVec S16 32), Decidable (k0_chk1362 v3489) := fun v3489 => decidable_of_iff' _ (Iff.of_eq (k0_chk1362.eq_1 v3489))
theorem k0_idx1362_inb : ∀ (v3489 : IVec S16 32) (k0_hw1362 : k0_chk1362 v3489), ∀ a x, ((![v3489] : Fin 1 → IVec S16 32) a x).toNat < S32768.size a := fun v3489 k0_hw1362 => k0_hw1362

def k0_chk1363 (v3493 : IVec S16 32) : Prop :=
  (∀ a x, ((![v3493] : Fin 1 → IVec S16 32) a x).toNat < S32768.size a)
instance k0_chk1363.dec : ∀ (v3493 : IVec S16 32), Decidable (k0_chk1363 v3493) := fun v3493 => decidable_of_iff' _ (Iff.of_eq (k0_chk1363.eq_1 v3493))
theorem k0_idx1363_inb : ∀ (v3493 : IVec S16 32) (k0_hw1363 : k0_chk1363 v3493), ∀ a x, ((![v3493] : Fin 1 → IVec S16 32) a x).toNat < S32768.size a := fun v3493 k0_hw1363 => k0_hw1363

def k0_chk1364 (v3497 : IVec S16 32) : Prop :=
  (∀ a x, ((![v3497] : Fin 1 → IVec S16 32) a x).toNat < S32768.size a)
instance k0_chk1364.dec : ∀ (v3497 : IVec S16 32), Decidable (k0_chk1364 v3497) := fun v3497 => decidable_of_iff' _ (Iff.of_eq (k0_chk1364.eq_1 v3497))
theorem k0_idx1364_inb : ∀ (v3497 : IVec S16 32) (k0_hw1364 : k0_chk1364 v3497), ∀ a x, ((![v3497] : Fin 1 → IVec S16 32) a x).toNat < S32768.size a := fun v3497 k0_hw1364 => k0_hw1364

def k0_chk1365 (v3501 : IVec S16 32) : Prop :=
  (∀ a x, ((![v3501] : Fin 1 → IVec S16 32) a x).toNat < S32768.size a)
instance k0_chk1365.dec : ∀ (v3501 : IVec S16 32), Decidable (k0_chk1365 v3501) := fun v3501 => decidable_of_iff' _ (Iff.of_eq (k0_chk1365.eq_1 v3501))
theorem k0_idx1365_inb : ∀ (v3501 : IVec S16 32) (k0_hw1365 : k0_chk1365 v3501), ∀ a x, ((![v3501] : Fin 1 → IVec S16 32) a x).toNat < S32768.size a := fun v3501 k0_hw1365 => k0_hw1365

def k0_chk1366 (v3505 : IVec S16 32) : Prop :=
  (∀ a x, ((![v3505] : Fin 1 → IVec S16 32) a x).toNat < S32768.size a)
instance k0_chk1366.dec : ∀ (v3505 : IVec S16 32), Decidable (k0_chk1366 v3505) := fun v3505 => decidable_of_iff' _ (Iff.of_eq (k0_chk1366.eq_1 v3505))
theorem k0_idx1366_inb : ∀ (v3505 : IVec S16 32) (k0_hw1366 : k0_chk1366 v3505), ∀ a x, ((![v3505] : Fin 1 → IVec S16 32) a x).toNat < S32768.size a := fun v3505 k0_hw1366 => k0_hw1366

def k0_chk1367 (v3509 : IVec S16 32) : Prop :=
  (∀ a x, ((![v3509] : Fin 1 → IVec S16 32) a x).toNat < S32768.size a)
instance k0_chk1367.dec : ∀ (v3509 : IVec S16 32), Decidable (k0_chk1367 v3509) := fun v3509 => decidable_of_iff' _ (Iff.of_eq (k0_chk1367.eq_1 v3509))
theorem k0_idx1367_inb : ∀ (v3509 : IVec S16 32) (k0_hw1367 : k0_chk1367 v3509), ∀ a x, ((![v3509] : Fin 1 → IVec S16 32) a x).toNat < S32768.size a := fun v3509 k0_hw1367 => k0_hw1367

def k0_chk1368 (v3513 : IVec S16 32) : Prop :=
  (∀ a x, ((![v3513] : Fin 1 → IVec S16 32) a x).toNat < S32768.size a)
instance k0_chk1368.dec : ∀ (v3513 : IVec S16 32), Decidable (k0_chk1368 v3513) := fun v3513 => decidable_of_iff' _ (Iff.of_eq (k0_chk1368.eq_1 v3513))
theorem k0_idx1368_inb : ∀ (v3513 : IVec S16 32) (k0_hw1368 : k0_chk1368 v3513), ∀ a x, ((![v3513] : Fin 1 → IVec S16 32) a x).toNat < S32768.size a := fun v3513 k0_hw1368 => k0_hw1368

def k0_chk1369 (v3517 : IVec S16 32) : Prop :=
  (∀ a x, ((![v3517] : Fin 1 → IVec S16 32) a x).toNat < S32768.size a)
instance k0_chk1369.dec : ∀ (v3517 : IVec S16 32), Decidable (k0_chk1369 v3517) := fun v3517 => decidable_of_iff' _ (Iff.of_eq (k0_chk1369.eq_1 v3517))
theorem k0_idx1369_inb : ∀ (v3517 : IVec S16 32) (k0_hw1369 : k0_chk1369 v3517), ∀ a x, ((![v3517] : Fin 1 → IVec S16 32) a x).toNat < S32768.size a := fun v3517 k0_hw1369 => k0_hw1369

def k0_chk1370 (v3521 : IVec S16 32) : Prop :=
  (∀ a x, ((![v3521] : Fin 1 → IVec S16 32) a x).toNat < S32768.size a)
instance k0_chk1370.dec : ∀ (v3521 : IVec S16 32), Decidable (k0_chk1370 v3521) := fun v3521 => decidable_of_iff' _ (Iff.of_eq (k0_chk1370.eq_1 v3521))
theorem k0_idx1370_inb : ∀ (v3521 : IVec S16 32) (k0_hw1370 : k0_chk1370 v3521), ∀ a x, ((![v3521] : Fin 1 → IVec S16 32) a x).toNat < S32768.size a := fun v3521 k0_hw1370 => k0_hw1370

def k0_chk1371 (v3525 : IVec S16 32) : Prop :=
  (∀ a x, ((![v3525] : Fin 1 → IVec S16 32) a x).toNat < S32768.size a)
instance k0_chk1371.dec : ∀ (v3525 : IVec S16 32), Decidable (k0_chk1371 v3525) := fun v3525 => decidable_of_iff' _ (Iff.of_eq (k0_chk1371.eq_1 v3525))
theorem k0_idx1371_inb : ∀ (v3525 : IVec S16 32) (k0_hw1371 : k0_chk1371 v3525), ∀ a x, ((![v3525] : Fin 1 → IVec S16 32) a x).toNat < S32768.size a := fun v3525 k0_hw1371 => k0_hw1371

def k0_chk1372 (v3529 : IVec S16 32) : Prop :=
  (∀ a x, ((![v3529] : Fin 1 → IVec S16 32) a x).toNat < S32768.size a)
instance k0_chk1372.dec : ∀ (v3529 : IVec S16 32), Decidable (k0_chk1372 v3529) := fun v3529 => decidable_of_iff' _ (Iff.of_eq (k0_chk1372.eq_1 v3529))
theorem k0_idx1372_inb : ∀ (v3529 : IVec S16 32) (k0_hw1372 : k0_chk1372 v3529), ∀ a x, ((![v3529] : Fin 1 → IVec S16 32) a x).toNat < S32768.size a := fun v3529 k0_hw1372 => k0_hw1372

def k0_chk1373 (v3533 : IVec S16 32) : Prop :=
  (∀ a x, ((![v3533] : Fin 1 → IVec S16 32) a x).toNat < S32768.size a)
instance k0_chk1373.dec : ∀ (v3533 : IVec S16 32), Decidable (k0_chk1373 v3533) := fun v3533 => decidable_of_iff' _ (Iff.of_eq (k0_chk1373.eq_1 v3533))
theorem k0_idx1373_inb : ∀ (v3533 : IVec S16 32) (k0_hw1373 : k0_chk1373 v3533), ∀ a x, ((![v3533] : Fin 1 → IVec S16 32) a x).toNat < S32768.size a := fun v3533 k0_hw1373 => k0_hw1373

def k0_chk1374 (v3537 : IVec S16 32) : Prop :=
  (∀ a x, ((![v3537] : Fin 1 → IVec S16 32) a x).toNat < S32768.size a)
instance k0_chk1374.dec : ∀ (v3537 : IVec S16 32), Decidable (k0_chk1374 v3537) := fun v3537 => decidable_of_iff' _ (Iff.of_eq (k0_chk1374.eq_1 v3537))
theorem k0_idx1374_inb : ∀ (v3537 : IVec S16 32) (k0_hw1374 : k0_chk1374 v3537), ∀ a x, ((![v3537] : Fin 1 → IVec S16 32) a x).toNat < S32768.size a := fun v3537 k0_hw1374 => k0_hw1374

def k0_chk1375 (v3541 : IVec S16 32) : Prop :=
  (∀ a x, ((![v3541] : Fin 1 → IVec S16 32) a x).toNat < S32768.size a)
instance k0_chk1375.dec : ∀ (v3541 : IVec S16 32), Decidable (k0_chk1375 v3541) := fun v3541 => decidable_of_iff' _ (Iff.of_eq (k0_chk1375.eq_1 v3541))
theorem k0_idx1375_inb : ∀ (v3541 : IVec S16 32) (k0_hw1375 : k0_chk1375 v3541), ∀ a x, ((![v3541] : Fin 1 → IVec S16 32) a x).toNat < S32768.size a := fun v3541 k0_hw1375 => k0_hw1375

def k0_chk1376 (v3545 : IVec S16 32) : Prop :=
  (∀ a x, ((![v3545] : Fin 1 → IVec S16 32) a x).toNat < S32768.size a)
instance k0_chk1376.dec : ∀ (v3545 : IVec S16 32), Decidable (k0_chk1376 v3545) := fun v3545 => decidable_of_iff' _ (Iff.of_eq (k0_chk1376.eq_1 v3545))
theorem k0_idx1376_inb : ∀ (v3545 : IVec S16 32) (k0_hw1376 : k0_chk1376 v3545), ∀ a x, ((![v3545] : Fin 1 → IVec S16 32) a x).toNat < S32768.size a := fun v3545 k0_hw1376 => k0_hw1376

def k0_chk1377 (v3549 : IVec S16 32) : Prop :=
  (∀ a x, ((![v3549] : Fin 1 → IVec S16 32) a x).toNat < S32768.size a)
instance k0_chk1377.dec : ∀ (v3549 : IVec S16 32), Decidable (k0_chk1377 v3549) := fun v3549 => decidable_of_iff' _ (Iff.of_eq (k0_chk1377.eq_1 v3549))
theorem k0_idx1377_inb : ∀ (v3549 : IVec S16 32) (k0_hw1377 : k0_chk1377 v3549), ∀ a x, ((![v3549] : Fin 1 → IVec S16 32) a x).toNat < S32768.size a := fun v3549 k0_hw1377 => k0_hw1377

def k0_chk1378 (v3553 : IVec S16 32) : Prop :=
  (∀ a x, ((![v3553] : Fin 1 → IVec S16 32) a x).toNat < S32768.size a)
instance k0_chk1378.dec : ∀ (v3553 : IVec S16 32), Decidable (k0_chk1378 v3553) := fun v3553 => decidable_of_iff' _ (Iff.of_eq (k0_chk1378.eq_1 v3553))
theorem k0_idx1378_inb : ∀ (v3553 : IVec S16 32) (k0_hw1378 : k0_chk1378 v3553), ∀ a x, ((![v3553] : Fin 1 → IVec S16 32) a x).toNat < S32768.size a := fun v3553 k0_hw1378 => k0_hw1378

def k0_chk1379 (v3557 : IVec S16 32) : Prop :=
  (∀ a x, ((![v3557] : Fin 1 → IVec S16 32) a x).toNat < S32768.size a)
instance k0_chk1379.dec : ∀ (v3557 : IVec S16 32), Decidable (k0_chk1379 v3557) := fun v3557 => decidable_of_iff' _ (Iff.of_eq (k0_chk1379.eq_1 v3557))
theorem k0_idx1379_inb : ∀ (v3557 : IVec S16 32) (k0_hw1379 : k0_chk1379 v3557), ∀ a x, ((![v3557] : Fin 1 → IVec S16 32) a x).toNat < S32768.size a := fun v3557 k0_hw1379 => k0_hw1379

def k0_chk1380 (v3561 : IVec S16 32) : Prop :=
  (∀ a x, ((![v3561] : Fin 1 → IVec S16 32) a x).toNat < S32768.size a)
instance k0_chk1380.dec : ∀ (v3561 : IVec S16 32), Decidable (k0_chk1380 v3561) := fun v3561 => decidable_of_iff' _ (Iff.of_eq (k0_chk1380.eq_1 v3561))
theorem k0_idx1380_inb : ∀ (v3561 : IVec S16 32) (k0_hw1380 : k0_chk1380 v3561), ∀ a x, ((![v3561] : Fin 1 → IVec S16 32) a x).toNat < S32768.size a := fun v3561 k0_hw1380 => k0_hw1380

def k0_chk1381 (v3565 : IVec S16 32) : Prop :=
  (∀ a x, ((![v3565] : Fin 1 → IVec S16 32) a x).toNat < S32768.size a)
instance k0_chk1381.dec : ∀ (v3565 : IVec S16 32), Decidable (k0_chk1381 v3565) := fun v3565 => decidable_of_iff' _ (Iff.of_eq (k0_chk1381.eq_1 v3565))
theorem k0_idx1381_inb : ∀ (v3565 : IVec S16 32) (k0_hw1381 : k0_chk1381 v3565), ∀ a x, ((![v3565] : Fin 1 → IVec S16 32) a x).toNat < S32768.size a := fun v3565 k0_hw1381 => k0_hw1381

def k0_chk1382 (v3569 : IVec S16 32) : Prop :=
  (∀ a x, ((![v3569] : Fin 1 → IVec S16 32) a x).toNat < S32768.size a)
instance k0_chk1382.dec : ∀ (v3569 : IVec S16 32), Decidable (k0_chk1382 v3569) := fun v3569 => decidable_of_iff' _ (Iff.of_eq (k0_chk1382.eq_1 v3569))
theorem k0_idx1382_inb : ∀ (v3569 : IVec S16 32) (k0_hw1382 : k0_chk1382 v3569), ∀ a x, ((![v3569] : Fin 1 → IVec S16 32) a x).toNat < S32768.size a := fun v3569 k0_hw1382 => k0_hw1382

def k0_chk1383 (v3573 : IVec S16 32) : Prop :=
  (∀ a x, ((![v3573] : Fin 1 → IVec S16 32) a x).toNat < S32768.size a)
instance k0_chk1383.dec : ∀ (v3573 : IVec S16 32), Decidable (k0_chk1383 v3573) := fun v3573 => decidable_of_iff' _ (Iff.of_eq (k0_chk1383.eq_1 v3573))
theorem k0_idx1383_inb : ∀ (v3573 : IVec S16 32) (k0_hw1383 : k0_chk1383 v3573), ∀ a x, ((![v3573] : Fin 1 → IVec S16 32) a x).toNat < S32768.size a := fun v3573 k0_hw1383 => k0_hw1383

def k0_chk1384 (v3577 : IVec S16 32) : Prop :=
  (∀ a x, ((![v3577] : Fin 1 → IVec S16 32) a x).toNat < S32768.size a)
instance k0_chk1384.dec : ∀ (v3577 : IVec S16 32), Decidable (k0_chk1384 v3577) := fun v3577 => decidable_of_iff' _ (Iff.of_eq (k0_chk1384.eq_1 v3577))
theorem k0_idx1384_inb : ∀ (v3577 : IVec S16 32) (k0_hw1384 : k0_chk1384 v3577), ∀ a x, ((![v3577] : Fin 1 → IVec S16 32) a x).toNat < S32768.size a := fun v3577 k0_hw1384 => k0_hw1384

def k0_chk1385 (v3581 : IVec S16 32) : Prop :=
  (∀ a x, ((![v3581] : Fin 1 → IVec S16 32) a x).toNat < S32768.size a)
instance k0_chk1385.dec : ∀ (v3581 : IVec S16 32), Decidable (k0_chk1385 v3581) := fun v3581 => decidable_of_iff' _ (Iff.of_eq (k0_chk1385.eq_1 v3581))
theorem k0_idx1385_inb : ∀ (v3581 : IVec S16 32) (k0_hw1385 : k0_chk1385 v3581), ∀ a x, ((![v3581] : Fin 1 → IVec S16 32) a x).toNat < S32768.size a := fun v3581 k0_hw1385 => k0_hw1385

def k0_chk1386 (v3585 : IVec S16 32) : Prop :=
  (∀ a x, ((![v3585] : Fin 1 → IVec S16 32) a x).toNat < S32768.size a)
instance k0_chk1386.dec : ∀ (v3585 : IVec S16 32), Decidable (k0_chk1386 v3585) := fun v3585 => decidable_of_iff' _ (Iff.of_eq (k0_chk1386.eq_1 v3585))
theorem k0_idx1386_inb : ∀ (v3585 : IVec S16 32) (k0_hw1386 : k0_chk1386 v3585), ∀ a x, ((![v3585] : Fin 1 → IVec S16 32) a x).toNat < S32768.size a := fun v3585 k0_hw1386 => k0_hw1386

def k0_chk1387 (v3589 : IVec S16 32) : Prop :=
  (∀ a x, ((![v3589] : Fin 1 → IVec S16 32) a x).toNat < S32768.size a)
instance k0_chk1387.dec : ∀ (v3589 : IVec S16 32), Decidable (k0_chk1387 v3589) := fun v3589 => decidable_of_iff' _ (Iff.of_eq (k0_chk1387.eq_1 v3589))
theorem k0_idx1387_inb : ∀ (v3589 : IVec S16 32) (k0_hw1387 : k0_chk1387 v3589), ∀ a x, ((![v3589] : Fin 1 → IVec S16 32) a x).toNat < S32768.size a := fun v3589 k0_hw1387 => k0_hw1387

def k0_chk1388 (v3593 : IVec S16 32) : Prop :=
  (∀ a x, ((![v3593] : Fin 1 → IVec S16 32) a x).toNat < S32768.size a)
instance k0_chk1388.dec : ∀ (v3593 : IVec S16 32), Decidable (k0_chk1388 v3593) := fun v3593 => decidable_of_iff' _ (Iff.of_eq (k0_chk1388.eq_1 v3593))
theorem k0_idx1388_inb : ∀ (v3593 : IVec S16 32) (k0_hw1388 : k0_chk1388 v3593), ∀ a x, ((![v3593] : Fin 1 → IVec S16 32) a x).toNat < S32768.size a := fun v3593 k0_hw1388 => k0_hw1388

def k0_chk1389 (v3597 : IVec S16 32) : Prop :=
  (∀ a x, ((![v3597] : Fin 1 → IVec S16 32) a x).toNat < S32768.size a)
instance k0_chk1389.dec : ∀ (v3597 : IVec S16 32), Decidable (k0_chk1389 v3597) := fun v3597 => decidable_of_iff' _ (Iff.of_eq (k0_chk1389.eq_1 v3597))
theorem k0_idx1389_inb : ∀ (v3597 : IVec S16 32) (k0_hw1389 : k0_chk1389 v3597), ∀ a x, ((![v3597] : Fin 1 → IVec S16 32) a x).toNat < S32768.size a := fun v3597 k0_hw1389 => k0_hw1389

def k0_chk1390 (v3601 : IVec S16 32) : Prop :=
  (∀ a x, ((![v3601] : Fin 1 → IVec S16 32) a x).toNat < S32768.size a)
instance k0_chk1390.dec : ∀ (v3601 : IVec S16 32), Decidable (k0_chk1390 v3601) := fun v3601 => decidable_of_iff' _ (Iff.of_eq (k0_chk1390.eq_1 v3601))
theorem k0_idx1390_inb : ∀ (v3601 : IVec S16 32) (k0_hw1390 : k0_chk1390 v3601), ∀ a x, ((![v3601] : Fin 1 → IVec S16 32) a x).toNat < S32768.size a := fun v3601 k0_hw1390 => k0_hw1390

def k0_chk1391 (v3605 : IVec S16 32) : Prop :=
  (∀ a x, ((![v3605] : Fin 1 → IVec S16 32) a x).toNat < S32768.size a)
instance k0_chk1391.dec : ∀ (v3605 : IVec S16 32), Decidable (k0_chk1391 v3605) := fun v3605 => decidable_of_iff' _ (Iff.of_eq (k0_chk1391.eq_1 v3605))
theorem k0_idx1391_inb : ∀ (v3605 : IVec S16 32) (k0_hw1391 : k0_chk1391 v3605), ∀ a x, ((![v3605] : Fin 1 → IVec S16 32) a x).toNat < S32768.size a := fun v3605 k0_hw1391 => k0_hw1391

def k0_chk1392 (v3609 : IVec S16 32) : Prop :=
  (∀ a x, ((![v3609] : Fin 1 → IVec S16 32) a x).toNat < S32768.size a)
instance k0_chk1392.dec : ∀ (v3609 : IVec S16 32), Decidable (k0_chk1392 v3609) := fun v3609 => decidable_of_iff' _ (Iff.of_eq (k0_chk1392.eq_1 v3609))
theorem k0_idx1392_inb : ∀ (v3609 : IVec S16 32) (k0_hw1392 : k0_chk1392 v3609), ∀ a x, ((![v3609] : Fin 1 → IVec S16 32) a x).toNat < S32768.size a := fun v3609 k0_hw1392 => k0_hw1392

def k0_chk1393 (v3613 : IVec S16 32) : Prop :=
  (∀ a x, ((![v3613] : Fin 1 → IVec S16 32) a x).toNat < S32768.size a)
instance k0_chk1393.dec : ∀ (v3613 : IVec S16 32), Decidable (k0_chk1393 v3613) := fun v3613 => decidable_of_iff' _ (Iff.of_eq (k0_chk1393.eq_1 v3613))
theorem k0_idx1393_inb : ∀ (v3613 : IVec S16 32) (k0_hw1393 : k0_chk1393 v3613), ∀ a x, ((![v3613] : Fin 1 → IVec S16 32) a x).toNat < S32768.size a := fun v3613 k0_hw1393 => k0_hw1393

def k0_chk1394 (v3617 : IVec S16 32) : Prop :=
  (∀ a x, ((![v3617] : Fin 1 → IVec S16 32) a x).toNat < S32768.size a)
instance k0_chk1394.dec : ∀ (v3617 : IVec S16 32), Decidable (k0_chk1394 v3617) := fun v3617 => decidable_of_iff' _ (Iff.of_eq (k0_chk1394.eq_1 v3617))
theorem k0_idx1394_inb : ∀ (v3617 : IVec S16 32) (k0_hw1394 : k0_chk1394 v3617), ∀ a x, ((![v3617] : Fin 1 → IVec S16 32) a x).toNat < S32768.size a := fun v3617 k0_hw1394 => k0_hw1394

def k0_chk1395 (v3621 : IVec S16 32) : Prop :=
  (∀ a x, ((![v3621] : Fin 1 → IVec S16 32) a x).toNat < S32768.size a)
instance k0_chk1395.dec : ∀ (v3621 : IVec S16 32), Decidable (k0_chk1395 v3621) := fun v3621 => decidable_of_iff' _ (Iff.of_eq (k0_chk1395.eq_1 v3621))
theorem k0_idx1395_inb : ∀ (v3621 : IVec S16 32) (k0_hw1395 : k0_chk1395 v3621), ∀ a x, ((![v3621] : Fin 1 → IVec S16 32) a x).toNat < S32768.size a := fun v3621 k0_hw1395 => k0_hw1395

def k0_chk1396 (v3625 : IVec S16 32) : Prop :=
  (∀ a x, ((![v3625] : Fin 1 → IVec S16 32) a x).toNat < S32768.size a)
instance k0_chk1396.dec : ∀ (v3625 : IVec S16 32), Decidable (k0_chk1396 v3625) := fun v3625 => decidable_of_iff' _ (Iff.of_eq (k0_chk1396.eq_1 v3625))
theorem k0_idx1396_inb : ∀ (v3625 : IVec S16 32) (k0_hw1396 : k0_chk1396 v3625), ∀ a x, ((![v3625] : Fin 1 → IVec S16 32) a x).toNat < S32768.size a := fun v3625 k0_hw1396 => k0_hw1396

def k0_chk1397 (v3629 : IVec S16 32) : Prop :=
  (∀ a x, ((![v3629] : Fin 1 → IVec S16 32) a x).toNat < S32768.size a)
instance k0_chk1397.dec : ∀ (v3629 : IVec S16 32), Decidable (k0_chk1397 v3629) := fun v3629 => decidable_of_iff' _ (Iff.of_eq (k0_chk1397.eq_1 v3629))
theorem k0_idx1397_inb : ∀ (v3629 : IVec S16 32) (k0_hw1397 : k0_chk1397 v3629), ∀ a x, ((![v3629] : Fin 1 → IVec S16 32) a x).toNat < S32768.size a := fun v3629 k0_hw1397 => k0_hw1397

def k0_chk1398 (v3633 : IVec S16 32) : Prop :=
  (∀ a x, ((![v3633] : Fin 1 → IVec S16 32) a x).toNat < S32768.size a)
instance k0_chk1398.dec : ∀ (v3633 : IVec S16 32), Decidable (k0_chk1398 v3633) := fun v3633 => decidable_of_iff' _ (Iff.of_eq (k0_chk1398.eq_1 v3633))
theorem k0_idx1398_inb : ∀ (v3633 : IVec S16 32) (k0_hw1398 : k0_chk1398 v3633), ∀ a x, ((![v3633] : Fin 1 → IVec S16 32) a x).toNat < S32768.size a := fun v3633 k0_hw1398 => k0_hw1398

def k0_chk1399 (v3637 : IVec S16 32) : Prop :=
  (∀ a x, ((![v3637] : Fin 1 → IVec S16 32) a x).toNat < S32768.size a)
instance k0_chk1399.dec : ∀ (v3637 : IVec S16 32), Decidable (k0_chk1399 v3637) := fun v3637 => decidable_of_iff' _ (Iff.of_eq (k0_chk1399.eq_1 v3637))
theorem k0_idx1399_inb : ∀ (v3637 : IVec S16 32) (k0_hw1399 : k0_chk1399 v3637), ∀ a x, ((![v3637] : Fin 1 → IVec S16 32) a x).toNat < S32768.size a := fun v3637 k0_hw1399 => k0_hw1399

def k0_chk1400 (v3641 : IVec S16 32) : Prop :=
  (∀ a x, ((![v3641] : Fin 1 → IVec S16 32) a x).toNat < S32768.size a)
instance k0_chk1400.dec : ∀ (v3641 : IVec S16 32), Decidable (k0_chk1400 v3641) := fun v3641 => decidable_of_iff' _ (Iff.of_eq (k0_chk1400.eq_1 v3641))
theorem k0_idx1400_inb : ∀ (v3641 : IVec S16 32) (k0_hw1400 : k0_chk1400 v3641), ∀ a x, ((![v3641] : Fin 1 → IVec S16 32) a x).toNat < S32768.size a := fun v3641 k0_hw1400 => k0_hw1400

def k0_chk1401 (v3645 : IVec S16 32) : Prop :=
  (∀ a x, ((![v3645] : Fin 1 → IVec S16 32) a x).toNat < S32768.size a)
instance k0_chk1401.dec : ∀ (v3645 : IVec S16 32), Decidable (k0_chk1401 v3645) := fun v3645 => decidable_of_iff' _ (Iff.of_eq (k0_chk1401.eq_1 v3645))
theorem k0_idx1401_inb : ∀ (v3645 : IVec S16 32) (k0_hw1401 : k0_chk1401 v3645), ∀ a x, ((![v3645] : Fin 1 → IVec S16 32) a x).toNat < S32768.size a := fun v3645 k0_hw1401 => k0_hw1401

def k0_chk1402 (v3649 : IVec S16 32) : Prop :=
  (∀ a x, ((![v3649] : Fin 1 → IVec S16 32) a x).toNat < S32768.size a)
instance k0_chk1402.dec : ∀ (v3649 : IVec S16 32), Decidable (k0_chk1402 v3649) := fun v3649 => decidable_of_iff' _ (Iff.of_eq (k0_chk1402.eq_1 v3649))
theorem k0_idx1402_inb : ∀ (v3649 : IVec S16 32) (k0_hw1402 : k0_chk1402 v3649), ∀ a x, ((![v3649] : Fin 1 → IVec S16 32) a x).toNat < S32768.size a := fun v3649 k0_hw1402 => k0_hw1402

def k0_chk1403 (v3653 : IVec S16 32) : Prop :=
  (∀ a x, ((![v3653] : Fin 1 → IVec S16 32) a x).toNat < S32768.size a)
instance k0_chk1403.dec : ∀ (v3653 : IVec S16 32), Decidable (k0_chk1403 v3653) := fun v3653 => decidable_of_iff' _ (Iff.of_eq (k0_chk1403.eq_1 v3653))
theorem k0_idx1403_inb : ∀ (v3653 : IVec S16 32) (k0_hw1403 : k0_chk1403 v3653), ∀ a x, ((![v3653] : Fin 1 → IVec S16 32) a x).toNat < S32768.size a := fun v3653 k0_hw1403 => k0_hw1403

def k0_chk1404 (v3657 : IVec S16 32) : Prop :=
  (∀ a x, ((![v3657] : Fin 1 → IVec S16 32) a x).toNat < S32768.size a)
instance k0_chk1404.dec : ∀ (v3657 : IVec S16 32), Decidable (k0_chk1404 v3657) := fun v3657 => decidable_of_iff' _ (Iff.of_eq (k0_chk1404.eq_1 v3657))
theorem k0_idx1404_inb : ∀ (v3657 : IVec S16 32) (k0_hw1404 : k0_chk1404 v3657), ∀ a x, ((![v3657] : Fin 1 → IVec S16 32) a x).toNat < S32768.size a := fun v3657 k0_hw1404 => k0_hw1404

def k0_chk1405 (v3661 : IVec S16 32) : Prop :=
  (∀ a x, ((![v3661] : Fin 1 → IVec S16 32) a x).toNat < S32768.size a)
instance k0_chk1405.dec : ∀ (v3661 : IVec S16 32), Decidable (k0_chk1405 v3661) := fun v3661 => decidable_of_iff' _ (Iff.of_eq (k0_chk1405.eq_1 v3661))
theorem k0_idx1405_inb : ∀ (v3661 : IVec S16 32) (k0_hw1405 : k0_chk1405 v3661), ∀ a x, ((![v3661] : Fin 1 → IVec S16 32) a x).toNat < S32768.size a := fun v3661 k0_hw1405 => k0_hw1405

def k0_chk1406 (v3665 : IVec S16 32) : Prop :=
  (∀ a x, ((![v3665] : Fin 1 → IVec S16 32) a x).toNat < S32768.size a)
instance k0_chk1406.dec : ∀ (v3665 : IVec S16 32), Decidable (k0_chk1406 v3665) := fun v3665 => decidable_of_iff' _ (Iff.of_eq (k0_chk1406.eq_1 v3665))
theorem k0_idx1406_inb : ∀ (v3665 : IVec S16 32) (k0_hw1406 : k0_chk1406 v3665), ∀ a x, ((![v3665] : Fin 1 → IVec S16 32) a x).toNat < S32768.size a := fun v3665 k0_hw1406 => k0_hw1406

def k0_chk1407 (v3669 : IVec S16 32) : Prop :=
  (∀ a x, ((![v3669] : Fin 1 → IVec S16 32) a x).toNat < S32768.size a)
instance k0_chk1407.dec : ∀ (v3669 : IVec S16 32), Decidable (k0_chk1407 v3669) := fun v3669 => decidable_of_iff' _ (Iff.of_eq (k0_chk1407.eq_1 v3669))
theorem k0_idx1407_inb : ∀ (v3669 : IVec S16 32) (k0_hw1407 : k0_chk1407 v3669), ∀ a x, ((![v3669] : Fin 1 → IVec S16 32) a x).toNat < S32768.size a := fun v3669 k0_hw1407 => k0_hw1407

def k0_chk1408 (v3673 : IVec S16 32) : Prop :=
  (∀ a x, ((![v3673] : Fin 1 → IVec S16 32) a x).toNat < S32768.size a)
instance k0_chk1408.dec : ∀ (v3673 : IVec S16 32), Decidable (k0_chk1408 v3673) := fun v3673 => decidable_of_iff' _ (Iff.of_eq (k0_chk1408.eq_1 v3673))
theorem k0_idx1408_inb : ∀ (v3673 : IVec S16 32) (k0_hw1408 : k0_chk1408 v3673), ∀ a x, ((![v3673] : Fin 1 → IVec S16 32) a x).toNat < S32768.size a := fun v3673 k0_hw1408 => k0_hw1408

def k0_chk1409 (v3679 : IVec S16 32) : Prop :=
  (∀ a x, ((![v3679] : Fin 1 → IVec S16 32) a x).toNat < S32768.size a)
instance k0_chk1409.dec : ∀ (v3679 : IVec S16 32), Decidable (k0_chk1409 v3679) := fun v3679 => decidable_of_iff' _ (Iff.of_eq (k0_chk1409.eq_1 v3679))
theorem k0_idx1409_inb : ∀ (v3679 : IVec S16 32) (k0_hw1409 : k0_chk1409 v3679), ∀ a x, ((![v3679] : Fin 1 → IVec S16 32) a x).toNat < S32768.size a := fun v3679 k0_hw1409 => k0_hw1409

def k0_chk1410 (v3683 : IVec S16 32) : Prop :=
  (∀ a x, ((![v3683] : Fin 1 → IVec S16 32) a x).toNat < S32768.size a)
instance k0_chk1410.dec : ∀ (v3683 : IVec S16 32), Decidable (k0_chk1410 v3683) := fun v3683 => decidable_of_iff' _ (Iff.of_eq (k0_chk1410.eq_1 v3683))
theorem k0_idx1410_inb : ∀ (v3683 : IVec S16 32) (k0_hw1410 : k0_chk1410 v3683), ∀ a x, ((![v3683] : Fin 1 → IVec S16 32) a x).toNat < S32768.size a := fun v3683 k0_hw1410 => k0_hw1410

def k0_chk1411 (v3687 : IVec S16 32) : Prop :=
  (∀ a x, ((![v3687] : Fin 1 → IVec S16 32) a x).toNat < S32768.size a)
instance k0_chk1411.dec : ∀ (v3687 : IVec S16 32), Decidable (k0_chk1411 v3687) := fun v3687 => decidable_of_iff' _ (Iff.of_eq (k0_chk1411.eq_1 v3687))
theorem k0_idx1411_inb : ∀ (v3687 : IVec S16 32) (k0_hw1411 : k0_chk1411 v3687), ∀ a x, ((![v3687] : Fin 1 → IVec S16 32) a x).toNat < S32768.size a := fun v3687 k0_hw1411 => k0_hw1411

def k0_chk1412 (v3691 : IVec S16 32) : Prop :=
  (∀ a x, ((![v3691] : Fin 1 → IVec S16 32) a x).toNat < S32768.size a)
instance k0_chk1412.dec : ∀ (v3691 : IVec S16 32), Decidable (k0_chk1412 v3691) := fun v3691 => decidable_of_iff' _ (Iff.of_eq (k0_chk1412.eq_1 v3691))
theorem k0_idx1412_inb : ∀ (v3691 : IVec S16 32) (k0_hw1412 : k0_chk1412 v3691), ∀ a x, ((![v3691] : Fin 1 → IVec S16 32) a x).toNat < S32768.size a := fun v3691 k0_hw1412 => k0_hw1412

def k0_chk1413 (v3695 : IVec S16 32) : Prop :=
  (∀ a x, ((![v3695] : Fin 1 → IVec S16 32) a x).toNat < S32768.size a)
instance k0_chk1413.dec : ∀ (v3695 : IVec S16 32), Decidable (k0_chk1413 v3695) := fun v3695 => decidable_of_iff' _ (Iff.of_eq (k0_chk1413.eq_1 v3695))
theorem k0_idx1413_inb : ∀ (v3695 : IVec S16 32) (k0_hw1413 : k0_chk1413 v3695), ∀ a x, ((![v3695] : Fin 1 → IVec S16 32) a x).toNat < S32768.size a := fun v3695 k0_hw1413 => k0_hw1413

def k0_chk1414 (v3699 : IVec S16 32) : Prop :=
  (∀ a x, ((![v3699] : Fin 1 → IVec S16 32) a x).toNat < S32768.size a)
instance k0_chk1414.dec : ∀ (v3699 : IVec S16 32), Decidable (k0_chk1414 v3699) := fun v3699 => decidable_of_iff' _ (Iff.of_eq (k0_chk1414.eq_1 v3699))
theorem k0_idx1414_inb : ∀ (v3699 : IVec S16 32) (k0_hw1414 : k0_chk1414 v3699), ∀ a x, ((![v3699] : Fin 1 → IVec S16 32) a x).toNat < S32768.size a := fun v3699 k0_hw1414 => k0_hw1414

def k0_chk1415 (v3703 : IVec S16 32) : Prop :=
  (∀ a x, ((![v3703] : Fin 1 → IVec S16 32) a x).toNat < S32768.size a)
instance k0_chk1415.dec : ∀ (v3703 : IVec S16 32), Decidable (k0_chk1415 v3703) := fun v3703 => decidable_of_iff' _ (Iff.of_eq (k0_chk1415.eq_1 v3703))
theorem k0_idx1415_inb : ∀ (v3703 : IVec S16 32) (k0_hw1415 : k0_chk1415 v3703), ∀ a x, ((![v3703] : Fin 1 → IVec S16 32) a x).toNat < S32768.size a := fun v3703 k0_hw1415 => k0_hw1415

def k0_chk1416 (v3707 : IVec S16 32) : Prop :=
  (∀ a x, ((![v3707] : Fin 1 → IVec S16 32) a x).toNat < S32768.size a)
instance k0_chk1416.dec : ∀ (v3707 : IVec S16 32), Decidable (k0_chk1416 v3707) := fun v3707 => decidable_of_iff' _ (Iff.of_eq (k0_chk1416.eq_1 v3707))
theorem k0_idx1416_inb : ∀ (v3707 : IVec S16 32) (k0_hw1416 : k0_chk1416 v3707), ∀ a x, ((![v3707] : Fin 1 → IVec S16 32) a x).toNat < S32768.size a := fun v3707 k0_hw1416 => k0_hw1416

def k0_chk1417 (v3711 : IVec S16 32) : Prop :=
  (∀ a x, ((![v3711] : Fin 1 → IVec S16 32) a x).toNat < S32768.size a)
instance k0_chk1417.dec : ∀ (v3711 : IVec S16 32), Decidable (k0_chk1417 v3711) := fun v3711 => decidable_of_iff' _ (Iff.of_eq (k0_chk1417.eq_1 v3711))
theorem k0_idx1417_inb : ∀ (v3711 : IVec S16 32) (k0_hw1417 : k0_chk1417 v3711), ∀ a x, ((![v3711] : Fin 1 → IVec S16 32) a x).toNat < S32768.size a := fun v3711 k0_hw1417 => k0_hw1417

def k0_chk1418 (v3715 : IVec S16 32) : Prop :=
  (∀ a x, ((![v3715] : Fin 1 → IVec S16 32) a x).toNat < S32768.size a)
instance k0_chk1418.dec : ∀ (v3715 : IVec S16 32), Decidable (k0_chk1418 v3715) := fun v3715 => decidable_of_iff' _ (Iff.of_eq (k0_chk1418.eq_1 v3715))
theorem k0_idx1418_inb : ∀ (v3715 : IVec S16 32) (k0_hw1418 : k0_chk1418 v3715), ∀ a x, ((![v3715] : Fin 1 → IVec S16 32) a x).toNat < S32768.size a := fun v3715 k0_hw1418 => k0_hw1418

def k0_chk1419 (v3719 : IVec S16 32) : Prop :=
  (∀ a x, ((![v3719] : Fin 1 → IVec S16 32) a x).toNat < S32768.size a)
instance k0_chk1419.dec : ∀ (v3719 : IVec S16 32), Decidable (k0_chk1419 v3719) := fun v3719 => decidable_of_iff' _ (Iff.of_eq (k0_chk1419.eq_1 v3719))
theorem k0_idx1419_inb : ∀ (v3719 : IVec S16 32) (k0_hw1419 : k0_chk1419 v3719), ∀ a x, ((![v3719] : Fin 1 → IVec S16 32) a x).toNat < S32768.size a := fun v3719 k0_hw1419 => k0_hw1419

def k0_chk1420 (v3723 : IVec S16 32) : Prop :=
  (∀ a x, ((![v3723] : Fin 1 → IVec S16 32) a x).toNat < S32768.size a)
instance k0_chk1420.dec : ∀ (v3723 : IVec S16 32), Decidable (k0_chk1420 v3723) := fun v3723 => decidable_of_iff' _ (Iff.of_eq (k0_chk1420.eq_1 v3723))
theorem k0_idx1420_inb : ∀ (v3723 : IVec S16 32) (k0_hw1420 : k0_chk1420 v3723), ∀ a x, ((![v3723] : Fin 1 → IVec S16 32) a x).toNat < S32768.size a := fun v3723 k0_hw1420 => k0_hw1420

def k0_chk1421 (v3727 : IVec S16 32) : Prop :=
  (∀ a x, ((![v3727] : Fin 1 → IVec S16 32) a x).toNat < S32768.size a)
instance k0_chk1421.dec : ∀ (v3727 : IVec S16 32), Decidable (k0_chk1421 v3727) := fun v3727 => decidable_of_iff' _ (Iff.of_eq (k0_chk1421.eq_1 v3727))
theorem k0_idx1421_inb : ∀ (v3727 : IVec S16 32) (k0_hw1421 : k0_chk1421 v3727), ∀ a x, ((![v3727] : Fin 1 → IVec S16 32) a x).toNat < S32768.size a := fun v3727 k0_hw1421 => k0_hw1421

def k0_chk1422 (v3731 : IVec S16 32) : Prop :=
  (∀ a x, ((![v3731] : Fin 1 → IVec S16 32) a x).toNat < S32768.size a)
instance k0_chk1422.dec : ∀ (v3731 : IVec S16 32), Decidable (k0_chk1422 v3731) := fun v3731 => decidable_of_iff' _ (Iff.of_eq (k0_chk1422.eq_1 v3731))
theorem k0_idx1422_inb : ∀ (v3731 : IVec S16 32) (k0_hw1422 : k0_chk1422 v3731), ∀ a x, ((![v3731] : Fin 1 → IVec S16 32) a x).toNat < S32768.size a := fun v3731 k0_hw1422 => k0_hw1422

def k0_chk1423 (v3735 : IVec S16 32) : Prop :=
  (∀ a x, ((![v3735] : Fin 1 → IVec S16 32) a x).toNat < S32768.size a)
instance k0_chk1423.dec : ∀ (v3735 : IVec S16 32), Decidable (k0_chk1423 v3735) := fun v3735 => decidable_of_iff' _ (Iff.of_eq (k0_chk1423.eq_1 v3735))
theorem k0_idx1423_inb : ∀ (v3735 : IVec S16 32) (k0_hw1423 : k0_chk1423 v3735), ∀ a x, ((![v3735] : Fin 1 → IVec S16 32) a x).toNat < S32768.size a := fun v3735 k0_hw1423 => k0_hw1423

def k0_chk1424 (v3739 : IVec S16 32) : Prop :=
  (∀ a x, ((![v3739] : Fin 1 → IVec S16 32) a x).toNat < S32768.size a)
instance k0_chk1424.dec : ∀ (v3739 : IVec S16 32), Decidable (k0_chk1424 v3739) := fun v3739 => decidable_of_iff' _ (Iff.of_eq (k0_chk1424.eq_1 v3739))
theorem k0_idx1424_inb : ∀ (v3739 : IVec S16 32) (k0_hw1424 : k0_chk1424 v3739), ∀ a x, ((![v3739] : Fin 1 → IVec S16 32) a x).toNat < S32768.size a := fun v3739 k0_hw1424 => k0_hw1424

def k0_chk1425 (v3743 : IVec S16 32) : Prop :=
  (∀ a x, ((![v3743] : Fin 1 → IVec S16 32) a x).toNat < S32768.size a)
instance k0_chk1425.dec : ∀ (v3743 : IVec S16 32), Decidable (k0_chk1425 v3743) := fun v3743 => decidable_of_iff' _ (Iff.of_eq (k0_chk1425.eq_1 v3743))
theorem k0_idx1425_inb : ∀ (v3743 : IVec S16 32) (k0_hw1425 : k0_chk1425 v3743), ∀ a x, ((![v3743] : Fin 1 → IVec S16 32) a x).toNat < S32768.size a := fun v3743 k0_hw1425 => k0_hw1425

def k0_chk1426 (v3747 : IVec S16 32) : Prop :=
  (∀ a x, ((![v3747] : Fin 1 → IVec S16 32) a x).toNat < S32768.size a)
instance k0_chk1426.dec : ∀ (v3747 : IVec S16 32), Decidable (k0_chk1426 v3747) := fun v3747 => decidable_of_iff' _ (Iff.of_eq (k0_chk1426.eq_1 v3747))
theorem k0_idx1426_inb : ∀ (v3747 : IVec S16 32) (k0_hw1426 : k0_chk1426 v3747), ∀ a x, ((![v3747] : Fin 1 → IVec S16 32) a x).toNat < S32768.size a := fun v3747 k0_hw1426 => k0_hw1426

def k0_chk1427 (v3751 : IVec S16 32) : Prop :=
  (∀ a x, ((![v3751] : Fin 1 → IVec S16 32) a x).toNat < S32768.size a)
instance k0_chk1427.dec : ∀ (v3751 : IVec S16 32), Decidable (k0_chk1427 v3751) := fun v3751 => decidable_of_iff' _ (Iff.of_eq (k0_chk1427.eq_1 v3751))
theorem k0_idx1427_inb : ∀ (v3751 : IVec S16 32) (k0_hw1427 : k0_chk1427 v3751), ∀ a x, ((![v3751] : Fin 1 → IVec S16 32) a x).toNat < S32768.size a := fun v3751 k0_hw1427 => k0_hw1427

def k0_chk1428 (v3755 : IVec S16 32) : Prop :=
  (∀ a x, ((![v3755] : Fin 1 → IVec S16 32) a x).toNat < S32768.size a)
instance k0_chk1428.dec : ∀ (v3755 : IVec S16 32), Decidable (k0_chk1428 v3755) := fun v3755 => decidable_of_iff' _ (Iff.of_eq (k0_chk1428.eq_1 v3755))
theorem k0_idx1428_inb : ∀ (v3755 : IVec S16 32) (k0_hw1428 : k0_chk1428 v3755), ∀ a x, ((![v3755] : Fin 1 → IVec S16 32) a x).toNat < S32768.size a := fun v3755 k0_hw1428 => k0_hw1428

def k0_chk1429 (v3759 : IVec S16 32) : Prop :=
  (∀ a x, ((![v3759] : Fin 1 → IVec S16 32) a x).toNat < S32768.size a)
instance k0_chk1429.dec : ∀ (v3759 : IVec S16 32), Decidable (k0_chk1429 v3759) := fun v3759 => decidable_of_iff' _ (Iff.of_eq (k0_chk1429.eq_1 v3759))
theorem k0_idx1429_inb : ∀ (v3759 : IVec S16 32) (k0_hw1429 : k0_chk1429 v3759), ∀ a x, ((![v3759] : Fin 1 → IVec S16 32) a x).toNat < S32768.size a := fun v3759 k0_hw1429 => k0_hw1429

def k0_chk1430 (v3763 : IVec S16 32) : Prop :=
  (∀ a x, ((![v3763] : Fin 1 → IVec S16 32) a x).toNat < S32768.size a)
instance k0_chk1430.dec : ∀ (v3763 : IVec S16 32), Decidable (k0_chk1430 v3763) := fun v3763 => decidable_of_iff' _ (Iff.of_eq (k0_chk1430.eq_1 v3763))
theorem k0_idx1430_inb : ∀ (v3763 : IVec S16 32) (k0_hw1430 : k0_chk1430 v3763), ∀ a x, ((![v3763] : Fin 1 → IVec S16 32) a x).toNat < S32768.size a := fun v3763 k0_hw1430 => k0_hw1430

def k0_chk1431 (v3767 : IVec S16 32) : Prop :=
  (∀ a x, ((![v3767] : Fin 1 → IVec S16 32) a x).toNat < S32768.size a)
instance k0_chk1431.dec : ∀ (v3767 : IVec S16 32), Decidable (k0_chk1431 v3767) := fun v3767 => decidable_of_iff' _ (Iff.of_eq (k0_chk1431.eq_1 v3767))
theorem k0_idx1431_inb : ∀ (v3767 : IVec S16 32) (k0_hw1431 : k0_chk1431 v3767), ∀ a x, ((![v3767] : Fin 1 → IVec S16 32) a x).toNat < S32768.size a := fun v3767 k0_hw1431 => k0_hw1431

def k0_chk1432 (v3771 : IVec S16 32) : Prop :=
  (∀ a x, ((![v3771] : Fin 1 → IVec S16 32) a x).toNat < S32768.size a)
instance k0_chk1432.dec : ∀ (v3771 : IVec S16 32), Decidable (k0_chk1432 v3771) := fun v3771 => decidable_of_iff' _ (Iff.of_eq (k0_chk1432.eq_1 v3771))
theorem k0_idx1432_inb : ∀ (v3771 : IVec S16 32) (k0_hw1432 : k0_chk1432 v3771), ∀ a x, ((![v3771] : Fin 1 → IVec S16 32) a x).toNat < S32768.size a := fun v3771 k0_hw1432 => k0_hw1432

def k0_chk1433 (v3775 : IVec S16 32) : Prop :=
  (∀ a x, ((![v3775] : Fin 1 → IVec S16 32) a x).toNat < S32768.size a)
instance k0_chk1433.dec : ∀ (v3775 : IVec S16 32), Decidable (k0_chk1433 v3775) := fun v3775 => decidable_of_iff' _ (Iff.of_eq (k0_chk1433.eq_1 v3775))
theorem k0_idx1433_inb : ∀ (v3775 : IVec S16 32) (k0_hw1433 : k0_chk1433 v3775), ∀ a x, ((![v3775] : Fin 1 → IVec S16 32) a x).toNat < S32768.size a := fun v3775 k0_hw1433 => k0_hw1433

def k0_chk1434 (v3779 : IVec S16 32) : Prop :=
  (∀ a x, ((![v3779] : Fin 1 → IVec S16 32) a x).toNat < S32768.size a)
instance k0_chk1434.dec : ∀ (v3779 : IVec S16 32), Decidable (k0_chk1434 v3779) := fun v3779 => decidable_of_iff' _ (Iff.of_eq (k0_chk1434.eq_1 v3779))
theorem k0_idx1434_inb : ∀ (v3779 : IVec S16 32) (k0_hw1434 : k0_chk1434 v3779), ∀ a x, ((![v3779] : Fin 1 → IVec S16 32) a x).toNat < S32768.size a := fun v3779 k0_hw1434 => k0_hw1434

def k0_chk1435 (v3783 : IVec S16 32) : Prop :=
  (∀ a x, ((![v3783] : Fin 1 → IVec S16 32) a x).toNat < S32768.size a)
instance k0_chk1435.dec : ∀ (v3783 : IVec S16 32), Decidable (k0_chk1435 v3783) := fun v3783 => decidable_of_iff' _ (Iff.of_eq (k0_chk1435.eq_1 v3783))
theorem k0_idx1435_inb : ∀ (v3783 : IVec S16 32) (k0_hw1435 : k0_chk1435 v3783), ∀ a x, ((![v3783] : Fin 1 → IVec S16 32) a x).toNat < S32768.size a := fun v3783 k0_hw1435 => k0_hw1435

def k0_chk1436 (v3787 : IVec S16 32) : Prop :=
  (∀ a x, ((![v3787] : Fin 1 → IVec S16 32) a x).toNat < S32768.size a)
instance k0_chk1436.dec : ∀ (v3787 : IVec S16 32), Decidable (k0_chk1436 v3787) := fun v3787 => decidable_of_iff' _ (Iff.of_eq (k0_chk1436.eq_1 v3787))
theorem k0_idx1436_inb : ∀ (v3787 : IVec S16 32) (k0_hw1436 : k0_chk1436 v3787), ∀ a x, ((![v3787] : Fin 1 → IVec S16 32) a x).toNat < S32768.size a := fun v3787 k0_hw1436 => k0_hw1436

def k0_chk1437 (v3791 : IVec S16 32) : Prop :=
  (∀ a x, ((![v3791] : Fin 1 → IVec S16 32) a x).toNat < S32768.size a)
instance k0_chk1437.dec : ∀ (v3791 : IVec S16 32), Decidable (k0_chk1437 v3791) := fun v3791 => decidable_of_iff' _ (Iff.of_eq (k0_chk1437.eq_1 v3791))
theorem k0_idx1437_inb : ∀ (v3791 : IVec S16 32) (k0_hw1437 : k0_chk1437 v3791), ∀ a x, ((![v3791] : Fin 1 → IVec S16 32) a x).toNat < S32768.size a := fun v3791 k0_hw1437 => k0_hw1437

def k0_chk1438 (v3795 : IVec S16 32) : Prop :=
  (∀ a x, ((![v3795] : Fin 1 → IVec S16 32) a x).toNat < S32768.size a)
instance k0_chk1438.dec : ∀ (v3795 : IVec S16 32), Decidable (k0_chk1438 v3795) := fun v3795 => decidable_of_iff' _ (Iff.of_eq (k0_chk1438.eq_1 v3795))
theorem k0_idx1438_inb : ∀ (v3795 : IVec S16 32) (k0_hw1438 : k0_chk1438 v3795), ∀ a x, ((![v3795] : Fin 1 → IVec S16 32) a x).toNat < S32768.size a := fun v3795 k0_hw1438 => k0_hw1438

def k0_chk1439 (v3799 : IVec S16 32) : Prop :=
  (∀ a x, ((![v3799] : Fin 1 → IVec S16 32) a x).toNat < S32768.size a)
instance k0_chk1439.dec : ∀ (v3799 : IVec S16 32), Decidable (k0_chk1439 v3799) := fun v3799 => decidable_of_iff' _ (Iff.of_eq (k0_chk1439.eq_1 v3799))
theorem k0_idx1439_inb : ∀ (v3799 : IVec S16 32) (k0_hw1439 : k0_chk1439 v3799), ∀ a x, ((![v3799] : Fin 1 → IVec S16 32) a x).toNat < S32768.size a := fun v3799 k0_hw1439 => k0_hw1439

def k0_chk1440 (v3803 : IVec S16 32) : Prop :=
  (∀ a x, ((![v3803] : Fin 1 → IVec S16 32) a x).toNat < S32768.size a)
instance k0_chk1440.dec : ∀ (v3803 : IVec S16 32), Decidable (k0_chk1440 v3803) := fun v3803 => decidable_of_iff' _ (Iff.of_eq (k0_chk1440.eq_1 v3803))
theorem k0_idx1440_inb : ∀ (v3803 : IVec S16 32) (k0_hw1440 : k0_chk1440 v3803), ∀ a x, ((![v3803] : Fin 1 → IVec S16 32) a x).toNat < S32768.size a := fun v3803 k0_hw1440 => k0_hw1440

def k0_chk1441 (v3807 : IVec S16 32) : Prop :=
  (∀ a x, ((![v3807] : Fin 1 → IVec S16 32) a x).toNat < S32768.size a)
instance k0_chk1441.dec : ∀ (v3807 : IVec S16 32), Decidable (k0_chk1441 v3807) := fun v3807 => decidable_of_iff' _ (Iff.of_eq (k0_chk1441.eq_1 v3807))
theorem k0_idx1441_inb : ∀ (v3807 : IVec S16 32) (k0_hw1441 : k0_chk1441 v3807), ∀ a x, ((![v3807] : Fin 1 → IVec S16 32) a x).toNat < S32768.size a := fun v3807 k0_hw1441 => k0_hw1441

def k0_chk1442 (v3811 : IVec S16 32) : Prop :=
  (∀ a x, ((![v3811] : Fin 1 → IVec S16 32) a x).toNat < S32768.size a)
instance k0_chk1442.dec : ∀ (v3811 : IVec S16 32), Decidable (k0_chk1442 v3811) := fun v3811 => decidable_of_iff' _ (Iff.of_eq (k0_chk1442.eq_1 v3811))
theorem k0_idx1442_inb : ∀ (v3811 : IVec S16 32) (k0_hw1442 : k0_chk1442 v3811), ∀ a x, ((![v3811] : Fin 1 → IVec S16 32) a x).toNat < S32768.size a := fun v3811 k0_hw1442 => k0_hw1442

def k0_chk1443 (v3815 : IVec S16 32) : Prop :=
  (∀ a x, ((![v3815] : Fin 1 → IVec S16 32) a x).toNat < S32768.size a)
instance k0_chk1443.dec : ∀ (v3815 : IVec S16 32), Decidable (k0_chk1443 v3815) := fun v3815 => decidable_of_iff' _ (Iff.of_eq (k0_chk1443.eq_1 v3815))
theorem k0_idx1443_inb : ∀ (v3815 : IVec S16 32) (k0_hw1443 : k0_chk1443 v3815), ∀ a x, ((![v3815] : Fin 1 → IVec S16 32) a x).toNat < S32768.size a := fun v3815 k0_hw1443 => k0_hw1443

def k0_chk1444 (v3819 : IVec S16 32) : Prop :=
  (∀ a x, ((![v3819] : Fin 1 → IVec S16 32) a x).toNat < S32768.size a)
instance k0_chk1444.dec : ∀ (v3819 : IVec S16 32), Decidable (k0_chk1444 v3819) := fun v3819 => decidable_of_iff' _ (Iff.of_eq (k0_chk1444.eq_1 v3819))
theorem k0_idx1444_inb : ∀ (v3819 : IVec S16 32) (k0_hw1444 : k0_chk1444 v3819), ∀ a x, ((![v3819] : Fin 1 → IVec S16 32) a x).toNat < S32768.size a := fun v3819 k0_hw1444 => k0_hw1444

def k0_chk1445 (v3823 : IVec S16 32) : Prop :=
  (∀ a x, ((![v3823] : Fin 1 → IVec S16 32) a x).toNat < S32768.size a)
instance k0_chk1445.dec : ∀ (v3823 : IVec S16 32), Decidable (k0_chk1445 v3823) := fun v3823 => decidable_of_iff' _ (Iff.of_eq (k0_chk1445.eq_1 v3823))
theorem k0_idx1445_inb : ∀ (v3823 : IVec S16 32) (k0_hw1445 : k0_chk1445 v3823), ∀ a x, ((![v3823] : Fin 1 → IVec S16 32) a x).toNat < S32768.size a := fun v3823 k0_hw1445 => k0_hw1445

def k0_chk1446 (v3827 : IVec S16 32) : Prop :=
  (∀ a x, ((![v3827] : Fin 1 → IVec S16 32) a x).toNat < S32768.size a)
instance k0_chk1446.dec : ∀ (v3827 : IVec S16 32), Decidable (k0_chk1446 v3827) := fun v3827 => decidable_of_iff' _ (Iff.of_eq (k0_chk1446.eq_1 v3827))
theorem k0_idx1446_inb : ∀ (v3827 : IVec S16 32) (k0_hw1446 : k0_chk1446 v3827), ∀ a x, ((![v3827] : Fin 1 → IVec S16 32) a x).toNat < S32768.size a := fun v3827 k0_hw1446 => k0_hw1446

def k0_chk1447 (v3831 : IVec S16 32) : Prop :=
  (∀ a x, ((![v3831] : Fin 1 → IVec S16 32) a x).toNat < S32768.size a)
instance k0_chk1447.dec : ∀ (v3831 : IVec S16 32), Decidable (k0_chk1447 v3831) := fun v3831 => decidable_of_iff' _ (Iff.of_eq (k0_chk1447.eq_1 v3831))
theorem k0_idx1447_inb : ∀ (v3831 : IVec S16 32) (k0_hw1447 : k0_chk1447 v3831), ∀ a x, ((![v3831] : Fin 1 → IVec S16 32) a x).toNat < S32768.size a := fun v3831 k0_hw1447 => k0_hw1447

def k0_chk1448 (v3835 : IVec S16 32) : Prop :=
  (∀ a x, ((![v3835] : Fin 1 → IVec S16 32) a x).toNat < S32768.size a)
instance k0_chk1448.dec : ∀ (v3835 : IVec S16 32), Decidable (k0_chk1448 v3835) := fun v3835 => decidable_of_iff' _ (Iff.of_eq (k0_chk1448.eq_1 v3835))
theorem k0_idx1448_inb : ∀ (v3835 : IVec S16 32) (k0_hw1448 : k0_chk1448 v3835), ∀ a x, ((![v3835] : Fin 1 → IVec S16 32) a x).toNat < S32768.size a := fun v3835 k0_hw1448 => k0_hw1448

def k0_chk1449 (v3839 : IVec S16 32) : Prop :=
  (∀ a x, ((![v3839] : Fin 1 → IVec S16 32) a x).toNat < S32768.size a)
instance k0_chk1449.dec : ∀ (v3839 : IVec S16 32), Decidable (k0_chk1449 v3839) := fun v3839 => decidable_of_iff' _ (Iff.of_eq (k0_chk1449.eq_1 v3839))
theorem k0_idx1449_inb : ∀ (v3839 : IVec S16 32) (k0_hw1449 : k0_chk1449 v3839), ∀ a x, ((![v3839] : Fin 1 → IVec S16 32) a x).toNat < S32768.size a := fun v3839 k0_hw1449 => k0_hw1449

def k0_chk1450 (v3843 : IVec S16 32) : Prop :=
  (∀ a x, ((![v3843] : Fin 1 → IVec S16 32) a x).toNat < S32768.size a)
instance k0_chk1450.dec : ∀ (v3843 : IVec S16 32), Decidable (k0_chk1450 v3843) := fun v3843 => decidable_of_iff' _ (Iff.of_eq (k0_chk1450.eq_1 v3843))
theorem k0_idx1450_inb : ∀ (v3843 : IVec S16 32) (k0_hw1450 : k0_chk1450 v3843), ∀ a x, ((![v3843] : Fin 1 → IVec S16 32) a x).toNat < S32768.size a := fun v3843 k0_hw1450 => k0_hw1450

def k0_chk1451 (v3847 : IVec S16 32) : Prop :=
  (∀ a x, ((![v3847] : Fin 1 → IVec S16 32) a x).toNat < S32768.size a)
instance k0_chk1451.dec : ∀ (v3847 : IVec S16 32), Decidable (k0_chk1451 v3847) := fun v3847 => decidable_of_iff' _ (Iff.of_eq (k0_chk1451.eq_1 v3847))
theorem k0_idx1451_inb : ∀ (v3847 : IVec S16 32) (k0_hw1451 : k0_chk1451 v3847), ∀ a x, ((![v3847] : Fin 1 → IVec S16 32) a x).toNat < S32768.size a := fun v3847 k0_hw1451 => k0_hw1451

def k0_chk1452 (v3851 : IVec S16 32) : Prop :=
  (∀ a x, ((![v3851] : Fin 1 → IVec S16 32) a x).toNat < S32768.size a)
instance k0_chk1452.dec : ∀ (v3851 : IVec S16 32), Decidable (k0_chk1452 v3851) := fun v3851 => decidable_of_iff' _ (Iff.of_eq (k0_chk1452.eq_1 v3851))
theorem k0_idx1452_inb : ∀ (v3851 : IVec S16 32) (k0_hw1452 : k0_chk1452 v3851), ∀ a x, ((![v3851] : Fin 1 → IVec S16 32) a x).toNat < S32768.size a := fun v3851 k0_hw1452 => k0_hw1452

def k0_chk1453 (v3855 : IVec S16 32) : Prop :=
  (∀ a x, ((![v3855] : Fin 1 → IVec S16 32) a x).toNat < S32768.size a)
instance k0_chk1453.dec : ∀ (v3855 : IVec S16 32), Decidable (k0_chk1453 v3855) := fun v3855 => decidable_of_iff' _ (Iff.of_eq (k0_chk1453.eq_1 v3855))
theorem k0_idx1453_inb : ∀ (v3855 : IVec S16 32) (k0_hw1453 : k0_chk1453 v3855), ∀ a x, ((![v3855] : Fin 1 → IVec S16 32) a x).toNat < S32768.size a := fun v3855 k0_hw1453 => k0_hw1453

def k0_chk1454 (v3859 : IVec S16 32) : Prop :=
  (∀ a x, ((![v3859] : Fin 1 → IVec S16 32) a x).toNat < S32768.size a)
instance k0_chk1454.dec : ∀ (v3859 : IVec S16 32), Decidable (k0_chk1454 v3859) := fun v3859 => decidable_of_iff' _ (Iff.of_eq (k0_chk1454.eq_1 v3859))
theorem k0_idx1454_inb : ∀ (v3859 : IVec S16 32) (k0_hw1454 : k0_chk1454 v3859), ∀ a x, ((![v3859] : Fin 1 → IVec S16 32) a x).toNat < S32768.size a := fun v3859 k0_hw1454 => k0_hw1454

def k0_chk1455 (v3863 : IVec S16 32) : Prop :=
  (∀ a x, ((![v3863] : Fin 1 → IVec S16 32) a x).toNat < S32768.size a)
instance k0_chk1455.dec : ∀ (v3863 : IVec S16 32), Decidable (k0_chk1455 v3863) := fun v3863 => decidable_of_iff' _ (Iff.of_eq (k0_chk1455.eq_1 v3863))
theorem k0_idx1455_inb : ∀ (v3863 : IVec S16 32) (k0_hw1455 : k0_chk1455 v3863), ∀ a x, ((![v3863] : Fin 1 → IVec S16 32) a x).toNat < S32768.size a := fun v3863 k0_hw1455 => k0_hw1455

def k0_chk1456 (v3867 : IVec S16 32) : Prop :=
  (∀ a x, ((![v3867] : Fin 1 → IVec S16 32) a x).toNat < S32768.size a)
instance k0_chk1456.dec : ∀ (v3867 : IVec S16 32), Decidable (k0_chk1456 v3867) := fun v3867 => decidable_of_iff' _ (Iff.of_eq (k0_chk1456.eq_1 v3867))
theorem k0_idx1456_inb : ∀ (v3867 : IVec S16 32) (k0_hw1456 : k0_chk1456 v3867), ∀ a x, ((![v3867] : Fin 1 → IVec S16 32) a x).toNat < S32768.size a := fun v3867 k0_hw1456 => k0_hw1456

def k0_chk1457 (v3871 : IVec S16 32) : Prop :=
  (∀ a x, ((![v3871] : Fin 1 → IVec S16 32) a x).toNat < S32768.size a)
instance k0_chk1457.dec : ∀ (v3871 : IVec S16 32), Decidable (k0_chk1457 v3871) := fun v3871 => decidable_of_iff' _ (Iff.of_eq (k0_chk1457.eq_1 v3871))
theorem k0_idx1457_inb : ∀ (v3871 : IVec S16 32) (k0_hw1457 : k0_chk1457 v3871), ∀ a x, ((![v3871] : Fin 1 → IVec S16 32) a x).toNat < S32768.size a := fun v3871 k0_hw1457 => k0_hw1457

def k0_chk1458 (v3875 : IVec S16 32) : Prop :=
  (∀ a x, ((![v3875] : Fin 1 → IVec S16 32) a x).toNat < S32768.size a)
instance k0_chk1458.dec : ∀ (v3875 : IVec S16 32), Decidable (k0_chk1458 v3875) := fun v3875 => decidable_of_iff' _ (Iff.of_eq (k0_chk1458.eq_1 v3875))
theorem k0_idx1458_inb : ∀ (v3875 : IVec S16 32) (k0_hw1458 : k0_chk1458 v3875), ∀ a x, ((![v3875] : Fin 1 → IVec S16 32) a x).toNat < S32768.size a := fun v3875 k0_hw1458 => k0_hw1458

def k0_chk1459 (v3879 : IVec S16 32) : Prop :=
  (∀ a x, ((![v3879] : Fin 1 → IVec S16 32) a x).toNat < S32768.size a)
instance k0_chk1459.dec : ∀ (v3879 : IVec S16 32), Decidable (k0_chk1459 v3879) := fun v3879 => decidable_of_iff' _ (Iff.of_eq (k0_chk1459.eq_1 v3879))
theorem k0_idx1459_inb : ∀ (v3879 : IVec S16 32) (k0_hw1459 : k0_chk1459 v3879), ∀ a x, ((![v3879] : Fin 1 → IVec S16 32) a x).toNat < S32768.size a := fun v3879 k0_hw1459 => k0_hw1459

def k0_chk1460 (v3883 : IVec S16 32) : Prop :=
  (∀ a x, ((![v3883] : Fin 1 → IVec S16 32) a x).toNat < S32768.size a)
instance k0_chk1460.dec : ∀ (v3883 : IVec S16 32), Decidable (k0_chk1460 v3883) := fun v3883 => decidable_of_iff' _ (Iff.of_eq (k0_chk1460.eq_1 v3883))
theorem k0_idx1460_inb : ∀ (v3883 : IVec S16 32) (k0_hw1460 : k0_chk1460 v3883), ∀ a x, ((![v3883] : Fin 1 → IVec S16 32) a x).toNat < S32768.size a := fun v3883 k0_hw1460 => k0_hw1460

def k0_chk1461 (v3887 : IVec S16 32) : Prop :=
  (∀ a x, ((![v3887] : Fin 1 → IVec S16 32) a x).toNat < S32768.size a)
instance k0_chk1461.dec : ∀ (v3887 : IVec S16 32), Decidable (k0_chk1461 v3887) := fun v3887 => decidable_of_iff' _ (Iff.of_eq (k0_chk1461.eq_1 v3887))
theorem k0_idx1461_inb : ∀ (v3887 : IVec S16 32) (k0_hw1461 : k0_chk1461 v3887), ∀ a x, ((![v3887] : Fin 1 → IVec S16 32) a x).toNat < S32768.size a := fun v3887 k0_hw1461 => k0_hw1461

def k0_chk1462 (v3891 : IVec S16 32) : Prop :=
  (∀ a x, ((![v3891] : Fin 1 → IVec S16 32) a x).toNat < S32768.size a)
instance k0_chk1462.dec : ∀ (v3891 : IVec S16 32), Decidable (k0_chk1462 v3891) := fun v3891 => decidable_of_iff' _ (Iff.of_eq (k0_chk1462.eq_1 v3891))
theorem k0_idx1462_inb : ∀ (v3891 : IVec S16 32) (k0_hw1462 : k0_chk1462 v3891), ∀ a x, ((![v3891] : Fin 1 → IVec S16 32) a x).toNat < S32768.size a := fun v3891 k0_hw1462 => k0_hw1462

def k0_chk1463 (v3895 : IVec S16 32) : Prop :=
  (∀ a x, ((![v3895] : Fin 1 → IVec S16 32) a x).toNat < S32768.size a)
instance k0_chk1463.dec : ∀ (v3895 : IVec S16 32), Decidable (k0_chk1463 v3895) := fun v3895 => decidable_of_iff' _ (Iff.of_eq (k0_chk1463.eq_1 v3895))
theorem k0_idx1463_inb : ∀ (v3895 : IVec S16 32) (k0_hw1463 : k0_chk1463 v3895), ∀ a x, ((![v3895] : Fin 1 → IVec S16 32) a x).toNat < S32768.size a := fun v3895 k0_hw1463 => k0_hw1463

def k0_chk1464 (v3899 : IVec S16 32) : Prop :=
  (∀ a x, ((![v3899] : Fin 1 → IVec S16 32) a x).toNat < S32768.size a)
instance k0_chk1464.dec : ∀ (v3899 : IVec S16 32), Decidable (k0_chk1464 v3899) := fun v3899 => decidable_of_iff' _ (Iff.of_eq (k0_chk1464.eq_1 v3899))
theorem k0_idx1464_inb : ∀ (v3899 : IVec S16 32) (k0_hw1464 : k0_chk1464 v3899), ∀ a x, ((![v3899] : Fin 1 → IVec S16 32) a x).toNat < S32768.size a := fun v3899 k0_hw1464 => k0_hw1464

def k0_chk1465 (v3903 : IVec S16 32) : Prop :=
  (∀ a x, ((![v3903] : Fin 1 → IVec S16 32) a x).toNat < S32768.size a)
instance k0_chk1465.dec : ∀ (v3903 : IVec S16 32), Decidable (k0_chk1465 v3903) := fun v3903 => decidable_of_iff' _ (Iff.of_eq (k0_chk1465.eq_1 v3903))
theorem k0_idx1465_inb : ∀ (v3903 : IVec S16 32) (k0_hw1465 : k0_chk1465 v3903), ∀ a x, ((![v3903] : Fin 1 → IVec S16 32) a x).toNat < S32768.size a := fun v3903 k0_hw1465 => k0_hw1465

def k0_chk1466 (v3907 : IVec S16 32) : Prop :=
  (∀ a x, ((![v3907] : Fin 1 → IVec S16 32) a x).toNat < S32768.size a)
instance k0_chk1466.dec : ∀ (v3907 : IVec S16 32), Decidable (k0_chk1466 v3907) := fun v3907 => decidable_of_iff' _ (Iff.of_eq (k0_chk1466.eq_1 v3907))
theorem k0_idx1466_inb : ∀ (v3907 : IVec S16 32) (k0_hw1466 : k0_chk1466 v3907), ∀ a x, ((![v3907] : Fin 1 → IVec S16 32) a x).toNat < S32768.size a := fun v3907 k0_hw1466 => k0_hw1466

def k0_chk1467 (v3911 : IVec S16 32) : Prop :=
  (∀ a x, ((![v3911] : Fin 1 → IVec S16 32) a x).toNat < S32768.size a)
instance k0_chk1467.dec : ∀ (v3911 : IVec S16 32), Decidable (k0_chk1467 v3911) := fun v3911 => decidable_of_iff' _ (Iff.of_eq (k0_chk1467.eq_1 v3911))
theorem k0_idx1467_inb : ∀ (v3911 : IVec S16 32) (k0_hw1467 : k0_chk1467 v3911), ∀ a x, ((![v3911] : Fin 1 → IVec S16 32) a x).toNat < S32768.size a := fun v3911 k0_hw1467 => k0_hw1467

def k0_chk1468 (v3915 : IVec S16 32) : Prop :=
  (∀ a x, ((![v3915] : Fin 1 → IVec S16 32) a x).toNat < S32768.size a)
instance k0_chk1468.dec : ∀ (v3915 : IVec S16 32), Decidable (k0_chk1468 v3915) := fun v3915 => decidable_of_iff' _ (Iff.of_eq (k0_chk1468.eq_1 v3915))
theorem k0_idx1468_inb : ∀ (v3915 : IVec S16 32) (k0_hw1468 : k0_chk1468 v3915), ∀ a x, ((![v3915] : Fin 1 → IVec S16 32) a x).toNat < S32768.size a := fun v3915 k0_hw1468 => k0_hw1468

def k0_chk1469 (v3919 : IVec S16 32) : Prop :=
  (∀ a x, ((![v3919] : Fin 1 → IVec S16 32) a x).toNat < S32768.size a)
instance k0_chk1469.dec : ∀ (v3919 : IVec S16 32), Decidable (k0_chk1469 v3919) := fun v3919 => decidable_of_iff' _ (Iff.of_eq (k0_chk1469.eq_1 v3919))
theorem k0_idx1469_inb : ∀ (v3919 : IVec S16 32) (k0_hw1469 : k0_chk1469 v3919), ∀ a x, ((![v3919] : Fin 1 → IVec S16 32) a x).toNat < S32768.size a := fun v3919 k0_hw1469 => k0_hw1469

def k0_chk1470 (v3923 : IVec S16 32) : Prop :=
  (∀ a x, ((![v3923] : Fin 1 → IVec S16 32) a x).toNat < S32768.size a)
instance k0_chk1470.dec : ∀ (v3923 : IVec S16 32), Decidable (k0_chk1470 v3923) := fun v3923 => decidable_of_iff' _ (Iff.of_eq (k0_chk1470.eq_1 v3923))
theorem k0_idx1470_inb : ∀ (v3923 : IVec S16 32) (k0_hw1470 : k0_chk1470 v3923), ∀ a x, ((![v3923] : Fin 1 → IVec S16 32) a x).toNat < S32768.size a := fun v3923 k0_hw1470 => k0_hw1470

def k0_chk1471 (v3927 : IVec S16 32) : Prop :=
  (∀ a x, ((![v3927] : Fin 1 → IVec S16 32) a x).toNat < S32768.size a)
instance k0_chk1471.dec : ∀ (v3927 : IVec S16 32), Decidable (k0_chk1471 v3927) := fun v3927 => decidable_of_iff' _ (Iff.of_eq (k0_chk1471.eq_1 v3927))
theorem k0_idx1471_inb : ∀ (v3927 : IVec S16 32) (k0_hw1471 : k0_chk1471 v3927), ∀ a x, ((![v3927] : Fin 1 → IVec S16 32) a x).toNat < S32768.size a := fun v3927 k0_hw1471 => k0_hw1471

def k0_chk1472 (v3931 : IVec S16 32) : Prop :=
  (∀ a x, ((![v3931] : Fin 1 → IVec S16 32) a x).toNat < S32768.size a)
instance k0_chk1472.dec : ∀ (v3931 : IVec S16 32), Decidable (k0_chk1472 v3931) := fun v3931 => decidable_of_iff' _ (Iff.of_eq (k0_chk1472.eq_1 v3931))
theorem k0_idx1472_inb : ∀ (v3931 : IVec S16 32) (k0_hw1472 : k0_chk1472 v3931), ∀ a x, ((![v3931] : Fin 1 → IVec S16 32) a x).toNat < S32768.size a := fun v3931 k0_hw1472 => k0_hw1472

def k0_chk1473 (v3935 : IVec S16 32) : Prop :=
  (∀ a x, ((![v3935] : Fin 1 → IVec S16 32) a x).toNat < S32768.size a)
instance k0_chk1473.dec : ∀ (v3935 : IVec S16 32), Decidable (k0_chk1473 v3935) := fun v3935 => decidable_of_iff' _ (Iff.of_eq (k0_chk1473.eq_1 v3935))
theorem k0_idx1473_inb : ∀ (v3935 : IVec S16 32) (k0_hw1473 : k0_chk1473 v3935), ∀ a x, ((![v3935] : Fin 1 → IVec S16 32) a x).toNat < S32768.size a := fun v3935 k0_hw1473 => k0_hw1473

def k0_chk1474 (v3939 : IVec S16 32) : Prop :=
  (∀ a x, ((![v3939] : Fin 1 → IVec S16 32) a x).toNat < S32768.size a)
instance k0_chk1474.dec : ∀ (v3939 : IVec S16 32), Decidable (k0_chk1474 v3939) := fun v3939 => decidable_of_iff' _ (Iff.of_eq (k0_chk1474.eq_1 v3939))
theorem k0_idx1474_inb : ∀ (v3939 : IVec S16 32) (k0_hw1474 : k0_chk1474 v3939), ∀ a x, ((![v3939] : Fin 1 → IVec S16 32) a x).toNat < S32768.size a := fun v3939 k0_hw1474 => k0_hw1474

def k0_chk1475 (v3943 : IVec S16 32) : Prop :=
  (∀ a x, ((![v3943] : Fin 1 → IVec S16 32) a x).toNat < S32768.size a)
instance k0_chk1475.dec : ∀ (v3943 : IVec S16 32), Decidable (k0_chk1475 v3943) := fun v3943 => decidable_of_iff' _ (Iff.of_eq (k0_chk1475.eq_1 v3943))
theorem k0_idx1475_inb : ∀ (v3943 : IVec S16 32) (k0_hw1475 : k0_chk1475 v3943), ∀ a x, ((![v3943] : Fin 1 → IVec S16 32) a x).toNat < S32768.size a := fun v3943 k0_hw1475 => k0_hw1475

def k0_chk1476 (v3947 : IVec S16 32) : Prop :=
  (∀ a x, ((![v3947] : Fin 1 → IVec S16 32) a x).toNat < S32768.size a)
instance k0_chk1476.dec : ∀ (v3947 : IVec S16 32), Decidable (k0_chk1476 v3947) := fun v3947 => decidable_of_iff' _ (Iff.of_eq (k0_chk1476.eq_1 v3947))
theorem k0_idx1476_inb : ∀ (v3947 : IVec S16 32) (k0_hw1476 : k0_chk1476 v3947), ∀ a x, ((![v3947] : Fin 1 → IVec S16 32) a x).toNat < S32768.size a := fun v3947 k0_hw1476 => k0_hw1476

def k0_chk1477 (v3951 : IVec S16 32) : Prop :=
  (∀ a x, ((![v3951] : Fin 1 → IVec S16 32) a x).toNat < S32768.size a)
instance k0_chk1477.dec : ∀ (v3951 : IVec S16 32), Decidable (k0_chk1477 v3951) := fun v3951 => decidable_of_iff' _ (Iff.of_eq (k0_chk1477.eq_1 v3951))
theorem k0_idx1477_inb : ∀ (v3951 : IVec S16 32) (k0_hw1477 : k0_chk1477 v3951), ∀ a x, ((![v3951] : Fin 1 → IVec S16 32) a x).toNat < S32768.size a := fun v3951 k0_hw1477 => k0_hw1477

def k0_chk1478 (v3955 : IVec S16 32) : Prop :=
  (∀ a x, ((![v3955] : Fin 1 → IVec S16 32) a x).toNat < S32768.size a)
instance k0_chk1478.dec : ∀ (v3955 : IVec S16 32), Decidable (k0_chk1478 v3955) := fun v3955 => decidable_of_iff' _ (Iff.of_eq (k0_chk1478.eq_1 v3955))
theorem k0_idx1478_inb : ∀ (v3955 : IVec S16 32) (k0_hw1478 : k0_chk1478 v3955), ∀ a x, ((![v3955] : Fin 1 → IVec S16 32) a x).toNat < S32768.size a := fun v3955 k0_hw1478 => k0_hw1478

def k0_chk1479 (v3959 : IVec S16 32) : Prop :=
  (∀ a x, ((![v3959] : Fin 1 → IVec S16 32) a x).toNat < S32768.size a)
instance k0_chk1479.dec : ∀ (v3959 : IVec S16 32), Decidable (k0_chk1479 v3959) := fun v3959 => decidable_of_iff' _ (Iff.of_eq (k0_chk1479.eq_1 v3959))
theorem k0_idx1479_inb : ∀ (v3959 : IVec S16 32) (k0_hw1479 : k0_chk1479 v3959), ∀ a x, ((![v3959] : Fin 1 → IVec S16 32) a x).toNat < S32768.size a := fun v3959 k0_hw1479 => k0_hw1479

def k0_chk1480 (v3963 : IVec S16 32) : Prop :=
  (∀ a x, ((![v3963] : Fin 1 → IVec S16 32) a x).toNat < S32768.size a)
instance k0_chk1480.dec : ∀ (v3963 : IVec S16 32), Decidable (k0_chk1480 v3963) := fun v3963 => decidable_of_iff' _ (Iff.of_eq (k0_chk1480.eq_1 v3963))
theorem k0_idx1480_inb : ∀ (v3963 : IVec S16 32) (k0_hw1480 : k0_chk1480 v3963), ∀ a x, ((![v3963] : Fin 1 → IVec S16 32) a x).toNat < S32768.size a := fun v3963 k0_hw1480 => k0_hw1480

def k0_chk1481 (v3967 : IVec S16 32) : Prop :=
  (∀ a x, ((![v3967] : Fin 1 → IVec S16 32) a x).toNat < S32768.size a)
instance k0_chk1481.dec : ∀ (v3967 : IVec S16 32), Decidable (k0_chk1481 v3967) := fun v3967 => decidable_of_iff' _ (Iff.of_eq (k0_chk1481.eq_1 v3967))
theorem k0_idx1481_inb : ∀ (v3967 : IVec S16 32) (k0_hw1481 : k0_chk1481 v3967), ∀ a x, ((![v3967] : Fin 1 → IVec S16 32) a x).toNat < S32768.size a := fun v3967 k0_hw1481 => k0_hw1481

def k0_chk1482 (v3971 : IVec S16 32) : Prop :=
  (∀ a x, ((![v3971] : Fin 1 → IVec S16 32) a x).toNat < S32768.size a)
instance k0_chk1482.dec : ∀ (v3971 : IVec S16 32), Decidable (k0_chk1482 v3971) := fun v3971 => decidable_of_iff' _ (Iff.of_eq (k0_chk1482.eq_1 v3971))
theorem k0_idx1482_inb : ∀ (v3971 : IVec S16 32) (k0_hw1482 : k0_chk1482 v3971), ∀ a x, ((![v3971] : Fin 1 → IVec S16 32) a x).toNat < S32768.size a := fun v3971 k0_hw1482 => k0_hw1482

def k0_chk1483 (v3975 : IVec S16 32) : Prop :=
  (∀ a x, ((![v3975] : Fin 1 → IVec S16 32) a x).toNat < S32768.size a)
instance k0_chk1483.dec : ∀ (v3975 : IVec S16 32), Decidable (k0_chk1483 v3975) := fun v3975 => decidable_of_iff' _ (Iff.of_eq (k0_chk1483.eq_1 v3975))
theorem k0_idx1483_inb : ∀ (v3975 : IVec S16 32) (k0_hw1483 : k0_chk1483 v3975), ∀ a x, ((![v3975] : Fin 1 → IVec S16 32) a x).toNat < S32768.size a := fun v3975 k0_hw1483 => k0_hw1483

def k0_chk1484 (v3979 : IVec S16 32) : Prop :=
  (∀ a x, ((![v3979] : Fin 1 → IVec S16 32) a x).toNat < S32768.size a)
instance k0_chk1484.dec : ∀ (v3979 : IVec S16 32), Decidable (k0_chk1484 v3979) := fun v3979 => decidable_of_iff' _ (Iff.of_eq (k0_chk1484.eq_1 v3979))
theorem k0_idx1484_inb : ∀ (v3979 : IVec S16 32) (k0_hw1484 : k0_chk1484 v3979), ∀ a x, ((![v3979] : Fin 1 → IVec S16 32) a x).toNat < S32768.size a := fun v3979 k0_hw1484 => k0_hw1484

def k0_chk1485 (v3983 : IVec S16 32) : Prop :=
  (∀ a x, ((![v3983] : Fin 1 → IVec S16 32) a x).toNat < S32768.size a)
instance k0_chk1485.dec : ∀ (v3983 : IVec S16 32), Decidable (k0_chk1485 v3983) := fun v3983 => decidable_of_iff' _ (Iff.of_eq (k0_chk1485.eq_1 v3983))
theorem k0_idx1485_inb : ∀ (v3983 : IVec S16 32) (k0_hw1485 : k0_chk1485 v3983), ∀ a x, ((![v3983] : Fin 1 → IVec S16 32) a x).toNat < S32768.size a := fun v3983 k0_hw1485 => k0_hw1485

def k0_chk1486 (v3987 : IVec S16 32) : Prop :=
  (∀ a x, ((![v3987] : Fin 1 → IVec S16 32) a x).toNat < S32768.size a)
instance k0_chk1486.dec : ∀ (v3987 : IVec S16 32), Decidable (k0_chk1486 v3987) := fun v3987 => decidable_of_iff' _ (Iff.of_eq (k0_chk1486.eq_1 v3987))
theorem k0_idx1486_inb : ∀ (v3987 : IVec S16 32) (k0_hw1486 : k0_chk1486 v3987), ∀ a x, ((![v3987] : Fin 1 → IVec S16 32) a x).toNat < S32768.size a := fun v3987 k0_hw1486 => k0_hw1486

def k0_chk1487 (v3991 : IVec S16 32) : Prop :=
  (∀ a x, ((![v3991] : Fin 1 → IVec S16 32) a x).toNat < S32768.size a)
instance k0_chk1487.dec : ∀ (v3991 : IVec S16 32), Decidable (k0_chk1487 v3991) := fun v3991 => decidable_of_iff' _ (Iff.of_eq (k0_chk1487.eq_1 v3991))
theorem k0_idx1487_inb : ∀ (v3991 : IVec S16 32) (k0_hw1487 : k0_chk1487 v3991), ∀ a x, ((![v3991] : Fin 1 → IVec S16 32) a x).toNat < S32768.size a := fun v3991 k0_hw1487 => k0_hw1487

def k0_chk1488 (v3995 : IVec S16 32) : Prop :=
  (∀ a x, ((![v3995] : Fin 1 → IVec S16 32) a x).toNat < S32768.size a)
instance k0_chk1488.dec : ∀ (v3995 : IVec S16 32), Decidable (k0_chk1488 v3995) := fun v3995 => decidable_of_iff' _ (Iff.of_eq (k0_chk1488.eq_1 v3995))
theorem k0_idx1488_inb : ∀ (v3995 : IVec S16 32) (k0_hw1488 : k0_chk1488 v3995), ∀ a x, ((![v3995] : Fin 1 → IVec S16 32) a x).toNat < S32768.size a := fun v3995 k0_hw1488 => k0_hw1488

def k0_chk1489 (v3999 : IVec S16 32) : Prop :=
  (∀ a x, ((![v3999] : Fin 1 → IVec S16 32) a x).toNat < S32768.size a)
instance k0_chk1489.dec : ∀ (v3999 : IVec S16 32), Decidable (k0_chk1489 v3999) := fun v3999 => decidable_of_iff' _ (Iff.of_eq (k0_chk1489.eq_1 v3999))
theorem k0_idx1489_inb : ∀ (v3999 : IVec S16 32) (k0_hw1489 : k0_chk1489 v3999), ∀ a x, ((![v3999] : Fin 1 → IVec S16 32) a x).toNat < S32768.size a := fun v3999 k0_hw1489 => k0_hw1489

def k0_chk1490 (v4003 : IVec S16 32) : Prop :=
  (∀ a x, ((![v4003] : Fin 1 → IVec S16 32) a x).toNat < S32768.size a)
instance k0_chk1490.dec : ∀ (v4003 : IVec S16 32), Decidable (k0_chk1490 v4003) := fun v4003 => decidable_of_iff' _ (Iff.of_eq (k0_chk1490.eq_1 v4003))
theorem k0_idx1490_inb : ∀ (v4003 : IVec S16 32) (k0_hw1490 : k0_chk1490 v4003), ∀ a x, ((![v4003] : Fin 1 → IVec S16 32) a x).toNat < S32768.size a := fun v4003 k0_hw1490 => k0_hw1490

def k0_chk1491 (v4007 : IVec S16 32) : Prop :=
  (∀ a x, ((![v4007] : Fin 1 → IVec S16 32) a x).toNat < S32768.size a)
instance k0_chk1491.dec : ∀ (v4007 : IVec S16 32), Decidable (k0_chk1491 v4007) := fun v4007 => decidable_of_iff' _ (Iff.of_eq (k0_chk1491.eq_1 v4007))
theorem k0_idx1491_inb : ∀ (v4007 : IVec S16 32) (k0_hw1491 : k0_chk1491 v4007), ∀ a x, ((![v4007] : Fin 1 → IVec S16 32) a x).toNat < S32768.size a := fun v4007 k0_hw1491 => k0_hw1491

def k0_chk1492 (v4011 : IVec S16 32) : Prop :=
  (∀ a x, ((![v4011] : Fin 1 → IVec S16 32) a x).toNat < S32768.size a)
instance k0_chk1492.dec : ∀ (v4011 : IVec S16 32), Decidable (k0_chk1492 v4011) := fun v4011 => decidable_of_iff' _ (Iff.of_eq (k0_chk1492.eq_1 v4011))
theorem k0_idx1492_inb : ∀ (v4011 : IVec S16 32) (k0_hw1492 : k0_chk1492 v4011), ∀ a x, ((![v4011] : Fin 1 → IVec S16 32) a x).toNat < S32768.size a := fun v4011 k0_hw1492 => k0_hw1492

def k0_chk1493 (v4015 : IVec S16 32) : Prop :=
  (∀ a x, ((![v4015] : Fin 1 → IVec S16 32) a x).toNat < S32768.size a)
instance k0_chk1493.dec : ∀ (v4015 : IVec S16 32), Decidable (k0_chk1493 v4015) := fun v4015 => decidable_of_iff' _ (Iff.of_eq (k0_chk1493.eq_1 v4015))
theorem k0_idx1493_inb : ∀ (v4015 : IVec S16 32) (k0_hw1493 : k0_chk1493 v4015), ∀ a x, ((![v4015] : Fin 1 → IVec S16 32) a x).toNat < S32768.size a := fun v4015 k0_hw1493 => k0_hw1493

def k0_chk1494 (v4019 : IVec S16 32) : Prop :=
  (∀ a x, ((![v4019] : Fin 1 → IVec S16 32) a x).toNat < S32768.size a)
instance k0_chk1494.dec : ∀ (v4019 : IVec S16 32), Decidable (k0_chk1494 v4019) := fun v4019 => decidable_of_iff' _ (Iff.of_eq (k0_chk1494.eq_1 v4019))
theorem k0_idx1494_inb : ∀ (v4019 : IVec S16 32) (k0_hw1494 : k0_chk1494 v4019), ∀ a x, ((![v4019] : Fin 1 → IVec S16 32) a x).toNat < S32768.size a := fun v4019 k0_hw1494 => k0_hw1494

def k0_chk1495 (v4023 : IVec S16 32) : Prop :=
  (∀ a x, ((![v4023] : Fin 1 → IVec S16 32) a x).toNat < S32768.size a)
instance k0_chk1495.dec : ∀ (v4023 : IVec S16 32), Decidable (k0_chk1495 v4023) := fun v4023 => decidable_of_iff' _ (Iff.of_eq (k0_chk1495.eq_1 v4023))
theorem k0_idx1495_inb : ∀ (v4023 : IVec S16 32) (k0_hw1495 : k0_chk1495 v4023), ∀ a x, ((![v4023] : Fin 1 → IVec S16 32) a x).toNat < S32768.size a := fun v4023 k0_hw1495 => k0_hw1495

def k0_chk1496 (v4027 : IVec S16 32) : Prop :=
  (∀ a x, ((![v4027] : Fin 1 → IVec S16 32) a x).toNat < S32768.size a)
instance k0_chk1496.dec : ∀ (v4027 : IVec S16 32), Decidable (k0_chk1496 v4027) := fun v4027 => decidable_of_iff' _ (Iff.of_eq (k0_chk1496.eq_1 v4027))
theorem k0_idx1496_inb : ∀ (v4027 : IVec S16 32) (k0_hw1496 : k0_chk1496 v4027), ∀ a x, ((![v4027] : Fin 1 → IVec S16 32) a x).toNat < S32768.size a := fun v4027 k0_hw1496 => k0_hw1496

def k0_chk1497 (v4031 : IVec S16 32) : Prop :=
  (∀ a x, ((![v4031] : Fin 1 → IVec S16 32) a x).toNat < S32768.size a)
instance k0_chk1497.dec : ∀ (v4031 : IVec S16 32), Decidable (k0_chk1497 v4031) := fun v4031 => decidable_of_iff' _ (Iff.of_eq (k0_chk1497.eq_1 v4031))
theorem k0_idx1497_inb : ∀ (v4031 : IVec S16 32) (k0_hw1497 : k0_chk1497 v4031), ∀ a x, ((![v4031] : Fin 1 → IVec S16 32) a x).toNat < S32768.size a := fun v4031 k0_hw1497 => k0_hw1497

def k0_chk1498 (v4035 : IVec S16 32) : Prop :=
  (∀ a x, ((![v4035] : Fin 1 → IVec S16 32) a x).toNat < S32768.size a)
instance k0_chk1498.dec : ∀ (v4035 : IVec S16 32), Decidable (k0_chk1498 v4035) := fun v4035 => decidable_of_iff' _ (Iff.of_eq (k0_chk1498.eq_1 v4035))
theorem k0_idx1498_inb : ∀ (v4035 : IVec S16 32) (k0_hw1498 : k0_chk1498 v4035), ∀ a x, ((![v4035] : Fin 1 → IVec S16 32) a x).toNat < S32768.size a := fun v4035 k0_hw1498 => k0_hw1498

def k0_chk1499 (v4039 : IVec S16 32) : Prop :=
  (∀ a x, ((![v4039] : Fin 1 → IVec S16 32) a x).toNat < S32768.size a)
instance k0_chk1499.dec : ∀ (v4039 : IVec S16 32), Decidable (k0_chk1499 v4039) := fun v4039 => decidable_of_iff' _ (Iff.of_eq (k0_chk1499.eq_1 v4039))
theorem k0_idx1499_inb : ∀ (v4039 : IVec S16 32) (k0_hw1499 : k0_chk1499 v4039), ∀ a x, ((![v4039] : Fin 1 → IVec S16 32) a x).toNat < S32768.size a := fun v4039 k0_hw1499 => k0_hw1499

def k0_chk1500 (v4043 : IVec S16 32) : Prop :=
  (∀ a x, ((![v4043] : Fin 1 → IVec S16 32) a x).toNat < S32768.size a)
instance k0_chk1500.dec : ∀ (v4043 : IVec S16 32), Decidable (k0_chk1500 v4043) := fun v4043 => decidable_of_iff' _ (Iff.of_eq (k0_chk1500.eq_1 v4043))
theorem k0_idx1500_inb : ∀ (v4043 : IVec S16 32) (k0_hw1500 : k0_chk1500 v4043), ∀ a x, ((![v4043] : Fin 1 → IVec S16 32) a x).toNat < S32768.size a := fun v4043 k0_hw1500 => k0_hw1500

def k0_chk1501 (v4047 : IVec S16 32) : Prop :=
  (∀ a x, ((![v4047] : Fin 1 → IVec S16 32) a x).toNat < S32768.size a)
instance k0_chk1501.dec : ∀ (v4047 : IVec S16 32), Decidable (k0_chk1501 v4047) := fun v4047 => decidable_of_iff' _ (Iff.of_eq (k0_chk1501.eq_1 v4047))
theorem k0_idx1501_inb : ∀ (v4047 : IVec S16 32) (k0_hw1501 : k0_chk1501 v4047), ∀ a x, ((![v4047] : Fin 1 → IVec S16 32) a x).toNat < S32768.size a := fun v4047 k0_hw1501 => k0_hw1501

def k0_chk1502 (v4051 : IVec S16 32) : Prop :=
  (∀ a x, ((![v4051] : Fin 1 → IVec S16 32) a x).toNat < S32768.size a)
instance k0_chk1502.dec : ∀ (v4051 : IVec S16 32), Decidable (k0_chk1502 v4051) := fun v4051 => decidable_of_iff' _ (Iff.of_eq (k0_chk1502.eq_1 v4051))
theorem k0_idx1502_inb : ∀ (v4051 : IVec S16 32) (k0_hw1502 : k0_chk1502 v4051), ∀ a x, ((![v4051] : Fin 1 → IVec S16 32) a x).toNat < S32768.size a := fun v4051 k0_hw1502 => k0_hw1502

def k0_chk1503 (v4055 : IVec S16 32) : Prop :=
  (∀ a x, ((![v4055] : Fin 1 → IVec S16 32) a x).toNat < S32768.size a)
instance k0_chk1503.dec : ∀ (v4055 : IVec S16 32), Decidable (k0_chk1503 v4055) := fun v4055 => decidable_of_iff' _ (Iff.of_eq (k0_chk1503.eq_1 v4055))
theorem k0_idx1503_inb : ∀ (v4055 : IVec S16 32) (k0_hw1503 : k0_chk1503 v4055), ∀ a x, ((![v4055] : Fin 1 → IVec S16 32) a x).toNat < S32768.size a := fun v4055 k0_hw1503 => k0_hw1503

def k0_chk1504 (v4059 : IVec S16 32) : Prop :=
  (∀ a x, ((![v4059] : Fin 1 → IVec S16 32) a x).toNat < S32768.size a)
instance k0_chk1504.dec : ∀ (v4059 : IVec S16 32), Decidable (k0_chk1504 v4059) := fun v4059 => decidable_of_iff' _ (Iff.of_eq (k0_chk1504.eq_1 v4059))
theorem k0_idx1504_inb : ∀ (v4059 : IVec S16 32) (k0_hw1504 : k0_chk1504 v4059), ∀ a x, ((![v4059] : Fin 1 → IVec S16 32) a x).toNat < S32768.size a := fun v4059 k0_hw1504 => k0_hw1504

def k0_chk1505 (v4063 : IVec S16 32) : Prop :=
  (∀ a x, ((![v4063] : Fin 1 → IVec S16 32) a x).toNat < S32768.size a)
instance k0_chk1505.dec : ∀ (v4063 : IVec S16 32), Decidable (k0_chk1505 v4063) := fun v4063 => decidable_of_iff' _ (Iff.of_eq (k0_chk1505.eq_1 v4063))
theorem k0_idx1505_inb : ∀ (v4063 : IVec S16 32) (k0_hw1505 : k0_chk1505 v4063), ∀ a x, ((![v4063] : Fin 1 → IVec S16 32) a x).toNat < S32768.size a := fun v4063 k0_hw1505 => k0_hw1505

def k0_chk1506 (v4067 : IVec S16 32) : Prop :=
  (∀ a x, ((![v4067] : Fin 1 → IVec S16 32) a x).toNat < S32768.size a)
instance k0_chk1506.dec : ∀ (v4067 : IVec S16 32), Decidable (k0_chk1506 v4067) := fun v4067 => decidable_of_iff' _ (Iff.of_eq (k0_chk1506.eq_1 v4067))
theorem k0_idx1506_inb : ∀ (v4067 : IVec S16 32) (k0_hw1506 : k0_chk1506 v4067), ∀ a x, ((![v4067] : Fin 1 → IVec S16 32) a x).toNat < S32768.size a := fun v4067 k0_hw1506 => k0_hw1506

def k0_chk1507 (v4071 : IVec S16 32) : Prop :=
  (∀ a x, ((![v4071] : Fin 1 → IVec S16 32) a x).toNat < S32768.size a)
instance k0_chk1507.dec : ∀ (v4071 : IVec S16 32), Decidable (k0_chk1507 v4071) := fun v4071 => decidable_of_iff' _ (Iff.of_eq (k0_chk1507.eq_1 v4071))
theorem k0_idx1507_inb : ∀ (v4071 : IVec S16 32) (k0_hw1507 : k0_chk1507 v4071), ∀ a x, ((![v4071] : Fin 1 → IVec S16 32) a x).toNat < S32768.size a := fun v4071 k0_hw1507 => k0_hw1507

def k0_chk1508 (v4075 : IVec S16 32) : Prop :=
  (∀ a x, ((![v4075] : Fin 1 → IVec S16 32) a x).toNat < S32768.size a)
instance k0_chk1508.dec : ∀ (v4075 : IVec S16 32), Decidable (k0_chk1508 v4075) := fun v4075 => decidable_of_iff' _ (Iff.of_eq (k0_chk1508.eq_1 v4075))
theorem k0_idx1508_inb : ∀ (v4075 : IVec S16 32) (k0_hw1508 : k0_chk1508 v4075), ∀ a x, ((![v4075] : Fin 1 → IVec S16 32) a x).toNat < S32768.size a := fun v4075 k0_hw1508 => k0_hw1508

def k0_chk1509 (v4079 : IVec S16 32) : Prop :=
  (∀ a x, ((![v4079] : Fin 1 → IVec S16 32) a x).toNat < S32768.size a)
instance k0_chk1509.dec : ∀ (v4079 : IVec S16 32), Decidable (k0_chk1509 v4079) := fun v4079 => decidable_of_iff' _ (Iff.of_eq (k0_chk1509.eq_1 v4079))
theorem k0_idx1509_inb : ∀ (v4079 : IVec S16 32) (k0_hw1509 : k0_chk1509 v4079), ∀ a x, ((![v4079] : Fin 1 → IVec S16 32) a x).toNat < S32768.size a := fun v4079 k0_hw1509 => k0_hw1509

def k0_chk1510 (v4083 : IVec S16 32) : Prop :=
  (∀ a x, ((![v4083] : Fin 1 → IVec S16 32) a x).toNat < S32768.size a)
instance k0_chk1510.dec : ∀ (v4083 : IVec S16 32), Decidable (k0_chk1510 v4083) := fun v4083 => decidable_of_iff' _ (Iff.of_eq (k0_chk1510.eq_1 v4083))
theorem k0_idx1510_inb : ∀ (v4083 : IVec S16 32) (k0_hw1510 : k0_chk1510 v4083), ∀ a x, ((![v4083] : Fin 1 → IVec S16 32) a x).toNat < S32768.size a := fun v4083 k0_hw1510 => k0_hw1510

def k0_chk1511 (v4087 : IVec S16 32) : Prop :=
  (∀ a x, ((![v4087] : Fin 1 → IVec S16 32) a x).toNat < S32768.size a)
instance k0_chk1511.dec : ∀ (v4087 : IVec S16 32), Decidable (k0_chk1511 v4087) := fun v4087 => decidable_of_iff' _ (Iff.of_eq (k0_chk1511.eq_1 v4087))
theorem k0_idx1511_inb : ∀ (v4087 : IVec S16 32) (k0_hw1511 : k0_chk1511 v4087), ∀ a x, ((![v4087] : Fin 1 → IVec S16 32) a x).toNat < S32768.size a := fun v4087 k0_hw1511 => k0_hw1511

def k0_chk1512 (v4091 : IVec S16 32) : Prop :=
  (∀ a x, ((![v4091] : Fin 1 → IVec S16 32) a x).toNat < S32768.size a)
instance k0_chk1512.dec : ∀ (v4091 : IVec S16 32), Decidable (k0_chk1512 v4091) := fun v4091 => decidable_of_iff' _ (Iff.of_eq (k0_chk1512.eq_1 v4091))
theorem k0_idx1512_inb : ∀ (v4091 : IVec S16 32) (k0_hw1512 : k0_chk1512 v4091), ∀ a x, ((![v4091] : Fin 1 → IVec S16 32) a x).toNat < S32768.size a := fun v4091 k0_hw1512 => k0_hw1512

def k0_chk1513 (v4095 : IVec S16 32) : Prop :=
  (∀ a x, ((![v4095] : Fin 1 → IVec S16 32) a x).toNat < S32768.size a)
instance k0_chk1513.dec : ∀ (v4095 : IVec S16 32), Decidable (k0_chk1513 v4095) := fun v4095 => decidable_of_iff' _ (Iff.of_eq (k0_chk1513.eq_1 v4095))
theorem k0_idx1513_inb : ∀ (v4095 : IVec S16 32) (k0_hw1513 : k0_chk1513 v4095), ∀ a x, ((![v4095] : Fin 1 → IVec S16 32) a x).toNat < S32768.size a := fun v4095 k0_hw1513 => k0_hw1513

def k0_chk1514 (v4099 : IVec S16 32) : Prop :=
  (∀ a x, ((![v4099] : Fin 1 → IVec S16 32) a x).toNat < S32768.size a)
instance k0_chk1514.dec : ∀ (v4099 : IVec S16 32), Decidable (k0_chk1514 v4099) := fun v4099 => decidable_of_iff' _ (Iff.of_eq (k0_chk1514.eq_1 v4099))
theorem k0_idx1514_inb : ∀ (v4099 : IVec S16 32) (k0_hw1514 : k0_chk1514 v4099), ∀ a x, ((![v4099] : Fin 1 → IVec S16 32) a x).toNat < S32768.size a := fun v4099 k0_hw1514 => k0_hw1514

def k0_chk1515 (v4103 : IVec S16 32) : Prop :=
  (∀ a x, ((![v4103] : Fin 1 → IVec S16 32) a x).toNat < S32768.size a)
instance k0_chk1515.dec : ∀ (v4103 : IVec S16 32), Decidable (k0_chk1515 v4103) := fun v4103 => decidable_of_iff' _ (Iff.of_eq (k0_chk1515.eq_1 v4103))
theorem k0_idx1515_inb : ∀ (v4103 : IVec S16 32) (k0_hw1515 : k0_chk1515 v4103), ∀ a x, ((![v4103] : Fin 1 → IVec S16 32) a x).toNat < S32768.size a := fun v4103 k0_hw1515 => k0_hw1515

def k0_chk1516 (v4107 : IVec S16 32) : Prop :=
  (∀ a x, ((![v4107] : Fin 1 → IVec S16 32) a x).toNat < S32768.size a)
instance k0_chk1516.dec : ∀ (v4107 : IVec S16 32), Decidable (k0_chk1516 v4107) := fun v4107 => decidable_of_iff' _ (Iff.of_eq (k0_chk1516.eq_1 v4107))
theorem k0_idx1516_inb : ∀ (v4107 : IVec S16 32) (k0_hw1516 : k0_chk1516 v4107), ∀ a x, ((![v4107] : Fin 1 → IVec S16 32) a x).toNat < S32768.size a := fun v4107 k0_hw1516 => k0_hw1516

def k0_chk1517 (v4111 : IVec S16 32) : Prop :=
  (∀ a x, ((![v4111] : Fin 1 → IVec S16 32) a x).toNat < S32768.size a)
instance k0_chk1517.dec : ∀ (v4111 : IVec S16 32), Decidable (k0_chk1517 v4111) := fun v4111 => decidable_of_iff' _ (Iff.of_eq (k0_chk1517.eq_1 v4111))
theorem k0_idx1517_inb : ∀ (v4111 : IVec S16 32) (k0_hw1517 : k0_chk1517 v4111), ∀ a x, ((![v4111] : Fin 1 → IVec S16 32) a x).toNat < S32768.size a := fun v4111 k0_hw1517 => k0_hw1517

def k0_chk1518 (v4115 : IVec S16 32) : Prop :=
  (∀ a x, ((![v4115] : Fin 1 → IVec S16 32) a x).toNat < S32768.size a)
instance k0_chk1518.dec : ∀ (v4115 : IVec S16 32), Decidable (k0_chk1518 v4115) := fun v4115 => decidable_of_iff' _ (Iff.of_eq (k0_chk1518.eq_1 v4115))
theorem k0_idx1518_inb : ∀ (v4115 : IVec S16 32) (k0_hw1518 : k0_chk1518 v4115), ∀ a x, ((![v4115] : Fin 1 → IVec S16 32) a x).toNat < S32768.size a := fun v4115 k0_hw1518 => k0_hw1518

def k0_chk1519 (v4119 : IVec S16 32) : Prop :=
  (∀ a x, ((![v4119] : Fin 1 → IVec S16 32) a x).toNat < S32768.size a)
instance k0_chk1519.dec : ∀ (v4119 : IVec S16 32), Decidable (k0_chk1519 v4119) := fun v4119 => decidable_of_iff' _ (Iff.of_eq (k0_chk1519.eq_1 v4119))
theorem k0_idx1519_inb : ∀ (v4119 : IVec S16 32) (k0_hw1519 : k0_chk1519 v4119), ∀ a x, ((![v4119] : Fin 1 → IVec S16 32) a x).toNat < S32768.size a := fun v4119 k0_hw1519 => k0_hw1519

def k0_chk1520 (v4123 : IVec S16 32) : Prop :=
  (∀ a x, ((![v4123] : Fin 1 → IVec S16 32) a x).toNat < S32768.size a)
instance k0_chk1520.dec : ∀ (v4123 : IVec S16 32), Decidable (k0_chk1520 v4123) := fun v4123 => decidable_of_iff' _ (Iff.of_eq (k0_chk1520.eq_1 v4123))
theorem k0_idx1520_inb : ∀ (v4123 : IVec S16 32) (k0_hw1520 : k0_chk1520 v4123), ∀ a x, ((![v4123] : Fin 1 → IVec S16 32) a x).toNat < S32768.size a := fun v4123 k0_hw1520 => k0_hw1520

def k0_chk1521 (v4127 : IVec S16 32) : Prop :=
  (∀ a x, ((![v4127] : Fin 1 → IVec S16 32) a x).toNat < S32768.size a)
instance k0_chk1521.dec : ∀ (v4127 : IVec S16 32), Decidable (k0_chk1521 v4127) := fun v4127 => decidable_of_iff' _ (Iff.of_eq (k0_chk1521.eq_1 v4127))
theorem k0_idx1521_inb : ∀ (v4127 : IVec S16 32) (k0_hw1521 : k0_chk1521 v4127), ∀ a x, ((![v4127] : Fin 1 → IVec S16 32) a x).toNat < S32768.size a := fun v4127 k0_hw1521 => k0_hw1521

def k0_chk1522 (v4131 : IVec S16 32) : Prop :=
  (∀ a x, ((![v4131] : Fin 1 → IVec S16 32) a x).toNat < S32768.size a)
instance k0_chk1522.dec : ∀ (v4131 : IVec S16 32), Decidable (k0_chk1522 v4131) := fun v4131 => decidable_of_iff' _ (Iff.of_eq (k0_chk1522.eq_1 v4131))
theorem k0_idx1522_inb : ∀ (v4131 : IVec S16 32) (k0_hw1522 : k0_chk1522 v4131), ∀ a x, ((![v4131] : Fin 1 → IVec S16 32) a x).toNat < S32768.size a := fun v4131 k0_hw1522 => k0_hw1522

def k0_chk1523 (v4135 : IVec S16 32) : Prop :=
  (∀ a x, ((![v4135] : Fin 1 → IVec S16 32) a x).toNat < S32768.size a)
instance k0_chk1523.dec : ∀ (v4135 : IVec S16 32), Decidable (k0_chk1523 v4135) := fun v4135 => decidable_of_iff' _ (Iff.of_eq (k0_chk1523.eq_1 v4135))
theorem k0_idx1523_inb : ∀ (v4135 : IVec S16 32) (k0_hw1523 : k0_chk1523 v4135), ∀ a x, ((![v4135] : Fin 1 → IVec S16 32) a x).toNat < S32768.size a := fun v4135 k0_hw1523 => k0_hw1523

def k0_chk1524 (v4139 : IVec S16 32) : Prop :=
  (∀ a x, ((![v4139] : Fin 1 → IVec S16 32) a x).toNat < S32768.size a)
instance k0_chk1524.dec : ∀ (v4139 : IVec S16 32), Decidable (k0_chk1524 v4139) := fun v4139 => decidable_of_iff' _ (Iff.of_eq (k0_chk1524.eq_1 v4139))
theorem k0_idx1524_inb : ∀ (v4139 : IVec S16 32) (k0_hw1524 : k0_chk1524 v4139), ∀ a x, ((![v4139] : Fin 1 → IVec S16 32) a x).toNat < S32768.size a := fun v4139 k0_hw1524 => k0_hw1524

def k0_chk1525 (v4143 : IVec S16 32) : Prop :=
  (∀ a x, ((![v4143] : Fin 1 → IVec S16 32) a x).toNat < S32768.size a)
instance k0_chk1525.dec : ∀ (v4143 : IVec S16 32), Decidable (k0_chk1525 v4143) := fun v4143 => decidable_of_iff' _ (Iff.of_eq (k0_chk1525.eq_1 v4143))
theorem k0_idx1525_inb : ∀ (v4143 : IVec S16 32) (k0_hw1525 : k0_chk1525 v4143), ∀ a x, ((![v4143] : Fin 1 → IVec S16 32) a x).toNat < S32768.size a := fun v4143 k0_hw1525 => k0_hw1525

def k0_chk1526 (v4147 : IVec S16 32) : Prop :=
  (∀ a x, ((![v4147] : Fin 1 → IVec S16 32) a x).toNat < S32768.size a)
instance k0_chk1526.dec : ∀ (v4147 : IVec S16 32), Decidable (k0_chk1526 v4147) := fun v4147 => decidable_of_iff' _ (Iff.of_eq (k0_chk1526.eq_1 v4147))
theorem k0_idx1526_inb : ∀ (v4147 : IVec S16 32) (k0_hw1526 : k0_chk1526 v4147), ∀ a x, ((![v4147] : Fin 1 → IVec S16 32) a x).toNat < S32768.size a := fun v4147 k0_hw1526 => k0_hw1526

def k0_chk1527 (v4151 : IVec S16 32) : Prop :=
  (∀ a x, ((![v4151] : Fin 1 → IVec S16 32) a x).toNat < S32768.size a)
instance k0_chk1527.dec : ∀ (v4151 : IVec S16 32), Decidable (k0_chk1527 v4151) := fun v4151 => decidable_of_iff' _ (Iff.of_eq (k0_chk1527.eq_1 v4151))
theorem k0_idx1527_inb : ∀ (v4151 : IVec S16 32) (k0_hw1527 : k0_chk1527 v4151), ∀ a x, ((![v4151] : Fin 1 → IVec S16 32) a x).toNat < S32768.size a := fun v4151 k0_hw1527 => k0_hw1527

def k0_chk1528 (v4155 : IVec S16 32) : Prop :=
  (∀ a x, ((![v4155] : Fin 1 → IVec S16 32) a x).toNat < S32768.size a)
instance k0_chk1528.dec : ∀ (v4155 : IVec S16 32), Decidable (k0_chk1528 v4155) := fun v4155 => decidable_of_iff' _ (Iff.of_eq (k0_chk1528.eq_1 v4155))
theorem k0_idx1528_inb : ∀ (v4155 : IVec S16 32) (k0_hw1528 : k0_chk1528 v4155), ∀ a x, ((![v4155] : Fin 1 → IVec S16 32) a x).toNat < S32768.size a := fun v4155 k0_hw1528 => k0_hw1528

def k0_chk1529 (v4159 : IVec S16 32) : Prop :=
  (∀ a x, ((![v4159] : Fin 1 → IVec S16 32) a x).toNat < S32768.size a)
instance k0_chk1529.dec : ∀ (v4159 : IVec S16 32), Decidable (k0_chk1529 v4159) := fun v4159 => decidable_of_iff' _ (Iff.of_eq (k0_chk1529.eq_1 v4159))
theorem k0_idx1529_inb : ∀ (v4159 : IVec S16 32) (k0_hw1529 : k0_chk1529 v4159), ∀ a x, ((![v4159] : Fin 1 → IVec S16 32) a x).toNat < S32768.size a := fun v4159 k0_hw1529 => k0_hw1529

def k0_chk1530 (v4163 : IVec S16 32) : Prop :=
  (∀ a x, ((![v4163] : Fin 1 → IVec S16 32) a x).toNat < S32768.size a)
instance k0_chk1530.dec : ∀ (v4163 : IVec S16 32), Decidable (k0_chk1530 v4163) := fun v4163 => decidable_of_iff' _ (Iff.of_eq (k0_chk1530.eq_1 v4163))
theorem k0_idx1530_inb : ∀ (v4163 : IVec S16 32) (k0_hw1530 : k0_chk1530 v4163), ∀ a x, ((![v4163] : Fin 1 → IVec S16 32) a x).toNat < S32768.size a := fun v4163 k0_hw1530 => k0_hw1530

def k0_chk1531 (v4167 : IVec S16 32) : Prop :=
  (∀ a x, ((![v4167] : Fin 1 → IVec S16 32) a x).toNat < S32768.size a)
instance k0_chk1531.dec : ∀ (v4167 : IVec S16 32), Decidable (k0_chk1531 v4167) := fun v4167 => decidable_of_iff' _ (Iff.of_eq (k0_chk1531.eq_1 v4167))
theorem k0_idx1531_inb : ∀ (v4167 : IVec S16 32) (k0_hw1531 : k0_chk1531 v4167), ∀ a x, ((![v4167] : Fin 1 → IVec S16 32) a x).toNat < S32768.size a := fun v4167 k0_hw1531 => k0_hw1531

def k0_chk1532 (v4171 : IVec S16 32) : Prop :=
  (∀ a x, ((![v4171] : Fin 1 → IVec S16 32) a x).toNat < S32768.size a)
instance k0_chk1532.dec : ∀ (v4171 : IVec S16 32), Decidable (k0_chk1532 v4171) := fun v4171 => decidable_of_iff' _ (Iff.of_eq (k0_chk1532.eq_1 v4171))
theorem k0_idx1532_inb : ∀ (v4171 : IVec S16 32) (k0_hw1532 : k0_chk1532 v4171), ∀ a x, ((![v4171] : Fin 1 → IVec S16 32) a x).toNat < S32768.size a := fun v4171 k0_hw1532 => k0_hw1532

def k0_chk1533 (v4175 : IVec S16 32) : Prop :=
  (∀ a x, ((![v4175] : Fin 1 → IVec S16 32) a x).toNat < S32768.size a)
instance k0_chk1533.dec : ∀ (v4175 : IVec S16 32), Decidable (k0_chk1533 v4175) := fun v4175 => decidable_of_iff' _ (Iff.of_eq (k0_chk1533.eq_1 v4175))
theorem k0_idx1533_inb : ∀ (v4175 : IVec S16 32) (k0_hw1533 : k0_chk1533 v4175), ∀ a x, ((![v4175] : Fin 1 → IVec S16 32) a x).toNat < S32768.size a := fun v4175 k0_hw1533 => k0_hw1533

def k0_chk1534 (v4179 : IVec S16 32) : Prop :=
  (∀ a x, ((![v4179] : Fin 1 → IVec S16 32) a x).toNat < S32768.size a)
instance k0_chk1534.dec : ∀ (v4179 : IVec S16 32), Decidable (k0_chk1534 v4179) := fun v4179 => decidable_of_iff' _ (Iff.of_eq (k0_chk1534.eq_1 v4179))
theorem k0_idx1534_inb : ∀ (v4179 : IVec S16 32) (k0_hw1534 : k0_chk1534 v4179), ∀ a x, ((![v4179] : Fin 1 → IVec S16 32) a x).toNat < S32768.size a := fun v4179 k0_hw1534 => k0_hw1534

def k0_chk1535 (v4183 : IVec S16 32) : Prop :=
  (∀ a x, ((![v4183] : Fin 1 → IVec S16 32) a x).toNat < S32768.size a)
instance k0_chk1535.dec : ∀ (v4183 : IVec S16 32), Decidable (k0_chk1535 v4183) := fun v4183 => decidable_of_iff' _ (Iff.of_eq (k0_chk1535.eq_1 v4183))
theorem k0_idx1535_inb : ∀ (v4183 : IVec S16 32) (k0_hw1535 : k0_chk1535 v4183), ∀ a x, ((![v4183] : Fin 1 → IVec S16 32) a x).toNat < S32768.size a := fun v4183 k0_hw1535 => k0_hw1535

def k0_chk1536 (v4187 : IVec S16 32) : Prop :=
  (∀ a x, ((![v4187] : Fin 1 → IVec S16 32) a x).toNat < S32768.size a)
instance k0_chk1536.dec : ∀ (v4187 : IVec S16 32), Decidable (k0_chk1536 v4187) := fun v4187 => decidable_of_iff' _ (Iff.of_eq (k0_chk1536.eq_1 v4187))
theorem k0_idx1536_inb : ∀ (v4187 : IVec S16 32) (k0_hw1536 : k0_chk1536 v4187), ∀ a x, ((![v4187] : Fin 1 → IVec S16 32) a x).toNat < S32768.size a := fun v4187 k0_hw1536 => k0_hw1536
def k0_off16 (i : grid0.Coords) (c258048_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v9 : BitVec 32 := Scalar.muli v1 c128_i32_0
  let c2048_i32 : BitVec 32 := 2048#32
  let v10 : BitVec 32 := Scalar.muli v9 c2048_i32
  let v4190 : BitVec 32 := Scalar.addi v10 c258048_i32
  ![v4190.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x2048x8_S67108864 : S4096x2048x8.ShapeCasts S67108864
  bcast_S1_S16_0 : S1.BroadcastsInDim S16 (![0] : Fin 1 → Fin S16.rank)
  inb_S16_S16_0 : ∀ a, (![0] : Fin 1 → Nat) a + S16.size a ≤ S16.size a
  h_S16 : 0 < S16.numel
  iota_S16_d0_w32_scVector : S16.Iotas .scVector 32 [0]
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  h_S32768 : 0 < S32768.numel
  inb_S4096_S16_0 : ∀ a, (![0] : Fin 1 → Nat) a + S16.size a ≤ S4096.size a
  inb_S4096_S16_16 : ∀ a, (![16] : Fin 1 → Nat) a + S16.size a ≤ S4096.size a
  inb_S4096_S16_32 : ∀ a, (![32] : Fin 1 → Nat) a + S16.size a ≤ S4096.size a
  inb_S4096_S16_48 : ∀ a, (![48] : Fin 1 → Nat) a + S16.size a ≤ S4096.size a
  inb_S4096_S16_64 : ∀ a, (![64] : Fin 1 → Nat) a + S16.size a ≤ S4096.size a
  inb_S4096_S16_80 : ∀ a, (![80] : Fin 1 → Nat) a + S16.size a ≤ S4096.size a
  inb_S4096_S16_96 : ∀ a, (![96] : Fin 1 → Nat) a + S16.size a ≤ S4096.size a
  inb_S4096_S16_112 : ∀ a, (![112] : Fin 1 → Nat) a + S16.size a ≤ S4096.size a
  inb_S4096_S16_128 : ∀ a, (![128] : Fin 1 → Nat) a + S16.size a ≤ S4096.size a
  inb_S4096_S16_144 : ∀ a, (![144] : Fin 1 → Nat) a + S16.size a ≤ S4096.size a
  inb_S4096_S16_160 : ∀ a, (![160] : Fin 1 → Nat) a + S16.size a ≤ S4096.size a
  inb_S4096_S16_176 : ∀ a, (![176] : Fin 1 → Nat) a + S16.size a ≤ S4096.size a
  inb_S4096_S16_192 : ∀ a, (![192] : Fin 1 → Nat) a + S16.size a ≤ S4096.size a
  inb_S4096_S16_208 : ∀ a, (![208] : Fin 1 → Nat) a + S16.size a ≤ S4096.size a
  inb_S4096_S16_224 : ∀ a, (![224] : Fin 1 → Nat) a + S16.size a ≤ S4096.size a
  inb_S4096_S16_240 : ∀ a, (![240] : Fin 1 → Nat) a + S16.size a ≤ S4096.size a
  inb_S4096_S16_256 : ∀ a, (![256] : Fin 1 → Nat) a + S16.size a ≤ S4096.size a
  inb_S4096_S16_272 : ∀ a, (![272] : Fin 1 → Nat) a + S16.size a ≤ S4096.size a
  inb_S4096_S16_288 : ∀ a, (![288] : Fin 1 → Nat) a + S16.size a ≤ S4096.size a
  inb_S4096_S16_304 : ∀ a, (![304] : Fin 1 → Nat) a + S16.size a ≤ S4096.size a
  inb_S4096_S16_320 : ∀ a, (![320] : Fin 1 → Nat) a + S16.size a ≤ S4096.size a
  inb_S4096_S16_336 : ∀ a, (![336] : Fin 1 → Nat) a + S16.size a ≤ S4096.size a
  inb_S4096_S16_352 : ∀ a, (![352] : Fin 1 → Nat) a + S16.size a ≤ S4096.size a
  inb_S4096_S16_368 : ∀ a, (![368] : Fin 1 → Nat) a + S16.size a ≤ S4096.size a
  inb_S4096_S16_384 : ∀ a, (![384] : Fin 1 → Nat) a + S16.size a ≤ S4096.size a
  inb_S4096_S16_400 : ∀ a, (![400] : Fin 1 → Nat) a + S16.size a ≤ S4096.size a
  inb_S4096_S16_416 : ∀ a, (![416] : Fin 1 → Nat) a + S16.size a ≤ S4096.size a
  inb_S4096_S16_432 : ∀ a, (![432] : Fin 1 → Nat) a + S16.size a ≤ S4096.size a
  inb_S4096_S16_448 : ∀ a, (![448] : Fin 1 → Nat) a + S16.size a ≤ S4096.size a
  inb_S4096_S16_464 : ∀ a, (![464] : Fin 1 → Nat) a + S16.size a ≤ S4096.size a
  inb_S4096_S16_480 : ∀ a, (![480] : Fin 1 → Nat) a + S16.size a ≤ S4096.size a
  inb_S4096_S16_496 : ∀ a, (![496] : Fin 1 → Nat) a + S16.size a ≤ S4096.size a
  inb_S4096_S16_512 : ∀ a, (![512] : Fin 1 → Nat) a + S16.size a ≤ S4096.size a
  inb_S4096_S16_528 : ∀ a, (![528] : Fin 1 → Nat) a + S16.size a ≤ S4096.size a
  inb_S4096_S16_544 : ∀ a, (![544] : Fin 1 → Nat) a + S16.size a ≤ S4096.size a
  inb_S4096_S16_560 : ∀ a, (![560] : Fin 1 → Nat) a + S16.size a ≤ S4096.size a
  inb_S4096_S16_576 : ∀ a, (![576] : Fin 1 → Nat) a + S16.size a ≤ S4096.size a
  inb_S4096_S16_592 : ∀ a, (![592] : Fin 1 → Nat) a + S16.size a ≤ S4096.size a
  inb_S4096_S16_608 : ∀ a, (![608] : Fin 1 → Nat) a + S16.size a ≤ S4096.size a
  inb_S4096_S16_624 : ∀ a, (![624] : Fin 1 → Nat) a + S16.size a ≤ S4096.size a
  inb_S4096_S16_640 : ∀ a, (![640] : Fin 1 → Nat) a + S16.size a ≤ S4096.size a
  inb_S4096_S16_656 : ∀ a, (![656] : Fin 1 → Nat) a + S16.size a ≤ S4096.size a
  inb_S4096_S16_672 : ∀ a, (![672] : Fin 1 → Nat) a + S16.size a ≤ S4096.size a
  inb_S4096_S16_688 : ∀ a, (![688] : Fin 1 → Nat) a + S16.size a ≤ S4096.size a
  inb_S4096_S16_704 : ∀ a, (![704] : Fin 1 → Nat) a + S16.size a ≤ S4096.size a
  inb_S4096_S16_720 : ∀ a, (![720] : Fin 1 → Nat) a + S16.size a ≤ S4096.size a
  inb_S4096_S16_736 : ∀ a, (![736] : Fin 1 → Nat) a + S16.size a ≤ S4096.size a
  inb_S4096_S16_752 : ∀ a, (![752] : Fin 1 → Nat) a + S16.size a ≤ S4096.size a
  inb_S4096_S16_768 : ∀ a, (![768] : Fin 1 → Nat) a + S16.size a ≤ S4096.size a
  inb_S4096_S16_784 : ∀ a, (![784] : Fin 1 → Nat) a + S16.size a ≤ S4096.size a
  inb_S4096_S16_800 : ∀ a, (![800] : Fin 1 → Nat) a + S16.size a ≤ S4096.size a
  inb_S4096_S16_816 : ∀ a, (![816] : Fin 1 → Nat) a + S16.size a ≤ S4096.size a
  inb_S4096_S16_832 : ∀ a, (![832] : Fin 1 → Nat) a + S16.size a ≤ S4096.size a
  inb_S4096_S16_848 : ∀ a, (![848] : Fin 1 → Nat) a + S16.size a ≤ S4096.size a
  inb_S4096_S16_864 : ∀ a, (![864] : Fin 1 → Nat) a + S16.size a ≤ S4096.size a
  inb_S4096_S16_880 : ∀ a, (![880] : Fin 1 → Nat) a + S16.size a ≤ S4096.size a
  inb_S4096_S16_896 : ∀ a, (![896] : Fin 1 → Nat) a + S16.size a ≤ S4096.size a
  inb_S4096_S16_912 : ∀ a, (![912] : Fin 1 → Nat) a + S16.size a ≤ S4096.size a
  inb_S4096_S16_928 : ∀ a, (![928] : Fin 1 → Nat) a + S16.size a ≤ S4096.size a
  inb_S4096_S16_944 : ∀ a, (![944] : Fin 1 → Nat) a + S16.size a ≤ S4096.size a
  inb_S4096_S16_960 : ∀ a, (![960] : Fin 1 → Nat) a + S16.size a ≤ S4096.size a
  inb_S4096_S16_976 : ∀ a, (![976] : Fin 1 → Nat) a + S16.size a ≤ S4096.size a
  inb_S4096_S16_992 : ∀ a, (![992] : Fin 1 → Nat) a + S16.size a ≤ S4096.size a
  inb_S4096_S16_1008 : ∀ a, (![1008] : Fin 1 → Nat) a + S16.size a ≤ S4096.size a
  inb_S4096_S16_1024 : ∀ a, (![1024] : Fin 1 → Nat) a + S16.size a ≤ S4096.size a
  inb_S4096_S16_1040 : ∀ a, (![1040] : Fin 1 → Nat) a + S16.size a ≤ S4096.size a
  inb_S4096_S16_1056 : ∀ a, (![1056] : Fin 1 → Nat) a + S16.size a ≤ S4096.size a
  inb_S4096_S16_1072 : ∀ a, (![1072] : Fin 1 → Nat) a + S16.size a ≤ S4096.size a
  inb_S4096_S16_1088 : ∀ a, (![1088] : Fin 1 → Nat) a + S16.size a ≤ S4096.size a
  inb_S4096_S16_1104 : ∀ a, (![1104] : Fin 1 → Nat) a + S16.size a ≤ S4096.size a
  inb_S4096_S16_1120 : ∀ a, (![1120] : Fin 1 → Nat) a + S16.size a ≤ S4096.size a
  inb_S4096_S16_1136 : ∀ a, (![1136] : Fin 1 → Nat) a + S16.size a ≤ S4096.size a
  inb_S4096_S16_1152 : ∀ a, (![1152] : Fin 1 → Nat) a + S16.size a ≤ S4096.size a
  inb_S4096_S16_1168 : ∀ a, (![1168] : Fin 1 → Nat) a + S16.size a ≤ S4096.size a
  inb_S4096_S16_1184 : ∀ a, (![1184] : Fin 1 → Nat) a + S16.size a ≤ S4096.size a
  inb_S4096_S16_1200 : ∀ a, (![1200] : Fin 1 → Nat) a + S16.size a ≤ S4096.size a
  inb_S4096_S16_1216 : ∀ a, (![1216] : Fin 1 → Nat) a + S16.size a ≤ S4096.size a
  inb_S4096_S16_1232 : ∀ a, (![1232] : Fin 1 → Nat) a + S16.size a ≤ S4096.size a
  inb_S4096_S16_1248 : ∀ a, (![1248] : Fin 1 → Nat) a + S16.size a ≤ S4096.size a
  inb_S4096_S16_1264 : ∀ a, (![1264] : Fin 1 → Nat) a + S16.size a ≤ S4096.size a
  inb_S4096_S16_1280 : ∀ a, (![1280] : Fin 1 → Nat) a + S16.size a ≤ S4096.size a
  inb_S4096_S16_1296 : ∀ a, (![1296] : Fin 1 → Nat) a + S16.size a ≤ S4096.size a
  inb_S4096_S16_1312 : ∀ a, (![1312] : Fin 1 → Nat) a + S16.size a ≤ S4096.size a
  inb_S4096_S16_1328 : ∀ a, (![1328] : Fin 1 → Nat) a + S16.size a ≤ S4096.size a
  inb_S4096_S16_1344 : ∀ a, (![1344] : Fin 1 → Nat) a + S16.size a ≤ S4096.size a
  inb_S4096_S16_1360 : ∀ a, (![1360] : Fin 1 → Nat) a + S16.size a ≤ S4096.size a
  inb_S4096_S16_1376 : ∀ a, (![1376] : Fin 1 → Nat) a + S16.size a ≤ S4096.size a
  inb_S4096_S16_1392 : ∀ a, (![1392] : Fin 1 → Nat) a + S16.size a ≤ S4096.size a
  inb_S4096_S16_1408 : ∀ a, (![1408] : Fin 1 → Nat) a + S16.size a ≤ S4096.size a
  inb_S4096_S16_1424 : ∀ a, (![1424] : Fin 1 → Nat) a + S16.size a ≤ S4096.size a
  inb_S4096_S16_1440 : ∀ a, (![1440] : Fin 1 → Nat) a + S16.size a ≤ S4096.size a
  inb_S4096_S16_1456 : ∀ a, (![1456] : Fin 1 → Nat) a + S16.size a ≤ S4096.size a
  inb_S4096_S16_1472 : ∀ a, (![1472] : Fin 1 → Nat) a + S16.size a ≤ S4096.size a
  inb_S4096_S16_1488 : ∀ a, (![1488] : Fin 1 → Nat) a + S16.size a ≤ S4096.size a
  inb_S4096_S16_1504 : ∀ a, (![1504] : Fin 1 → Nat) a + S16.size a ≤ S4096.size a
  inb_S4096_S16_1520 : ∀ a, (![1520] : Fin 1 → Nat) a + S16.size a ≤ S4096.size a
  inb_S4096_S16_1536 : ∀ a, (![1536] : Fin 1 → Nat) a + S16.size a ≤ S4096.size a
  inb_S4096_S16_1552 : ∀ a, (![1552] : Fin 1 → Nat) a + S16.size a ≤ S4096.size a
  inb_S4096_S16_1568 : ∀ a, (![1568] : Fin 1 → Nat) a + S16.size a ≤ S4096.size a
  inb_S4096_S16_1584 : ∀ a, (![1584] : Fin 1 → Nat) a + S16.size a ≤ S4096.size a
  inb_S4096_S16_1600 : ∀ a, (![1600] : Fin 1 → Nat) a + S16.size a ≤ S4096.size a
  inb_S4096_S16_1616 : ∀ a, (![1616] : Fin 1 → Nat) a + S16.size a ≤ S4096.size a
  inb_S4096_S16_1632 : ∀ a, (![1632] : Fin 1 → Nat) a + S16.size a ≤ S4096.size a
  inb_S4096_S16_1648 : ∀ a, (![1648] : Fin 1 → Nat) a + S16.size a ≤ S4096.size a
  inb_S4096_S16_1664 : ∀ a, (![1664] : Fin 1 → Nat) a + S16.size a ≤ S4096.size a
  inb_S4096_S16_1680 : ∀ a, (![1680] : Fin 1 → Nat) a + S16.size a ≤ S4096.size a
  inb_S4096_S16_1696 : ∀ a, (![1696] : Fin 1 → Nat) a + S16.size a ≤ S4096.size a
  inb_S4096_S16_1712 : ∀ a, (![1712] : Fin 1 → Nat) a + S16.size a ≤ S4096.size a
  inb_S4096_S16_1728 : ∀ a, (![1728] : Fin 1 → Nat) a + S16.size a ≤ S4096.size a
  inb_S4096_S16_1744 : ∀ a, (![1744] : Fin 1 → Nat) a + S16.size a ≤ S4096.size a
  inb_S4096_S16_1760 : ∀ a, (![1760] : Fin 1 → Nat) a + S16.size a ≤ S4096.size a
  inb_S4096_S16_1776 : ∀ a, (![1776] : Fin 1 → Nat) a + S16.size a ≤ S4096.size a
  inb_S4096_S16_1792 : ∀ a, (![1792] : Fin 1 → Nat) a + S16.size a ≤ S4096.size a
  inb_S4096_S16_1808 : ∀ a, (![1808] : Fin 1 → Nat) a + S16.size a ≤ S4096.size a
  inb_S4096_S16_1824 : ∀ a, (![1824] : Fin 1 → Nat) a + S16.size a ≤ S4096.size a
  inb_S4096_S16_1840 : ∀ a, (![1840] : Fin 1 → Nat) a + S16.size a ≤ S4096.size a
  inb_S4096_S16_1856 : ∀ a, (![1856] : Fin 1 → Nat) a + S16.size a ≤ S4096.size a
  inb_S4096_S16_1872 : ∀ a, (![1872] : Fin 1 → Nat) a + S16.size a ≤ S4096.size a
  inb_S4096_S16_1888 : ∀ a, (![1888] : Fin 1 → Nat) a + S16.size a ≤ S4096.size a
  inb_S4096_S16_1904 : ∀ a, (![1904] : Fin 1 → Nat) a + S16.size a ≤ S4096.size a
  inb_S4096_S16_1920 : ∀ a, (![1920] : Fin 1 → Nat) a + S16.size a ≤ S4096.size a
  inb_S4096_S16_1936 : ∀ a, (![1936] : Fin 1 → Nat) a + S16.size a ≤ S4096.size a
  inb_S4096_S16_1952 : ∀ a, (![1952] : Fin 1 → Nat) a + S16.size a ≤ S4096.size a
  inb_S4096_S16_1968 : ∀ a, (![1968] : Fin 1 → Nat) a + S16.size a ≤ S4096.size a
  inb_S4096_S16_1984 : ∀ a, (![1984] : Fin 1 → Nat) a + S16.size a ≤ S4096.size a
  inb_S4096_S16_2000 : ∀ a, (![2000] : Fin 1 → Nat) a + S16.size a ≤ S4096.size a
  inb_S4096_S16_2016 : ∀ a, (![2016] : Fin 1 → Nat) a + S16.size a ≤ S4096.size a
  inb_S4096_S16_2032 : ∀ a, (![2032] : Fin 1 → Nat) a + S16.size a ≤ S4096.size a
  inb_S4096_S16_2048 : ∀ a, (![2048] : Fin 1 → Nat) a + S16.size a ≤ S4096.size a
  inb_S4096_S16_2064 : ∀ a, (![2064] : Fin 1 → Nat) a + S16.size a ≤ S4096.size a
  inb_S4096_S16_2080 : ∀ a, (![2080] : Fin 1 → Nat) a + S16.size a ≤ S4096.size a
  inb_S4096_S16_2096 : ∀ a, (![2096] : Fin 1 → Nat) a + S16.size a ≤ S4096.size a
  inb_S4096_S16_2112 : ∀ a, (![2112] : Fin 1 → Nat) a + S16.size a ≤ S4096.size a
  inb_S4096_S16_2128 : ∀ a, (![2128] : Fin 1 → Nat) a + S16.size a ≤ S4096.size a
  inb_S4096_S16_2144 : ∀ a, (![2144] : Fin 1 → Nat) a + S16.size a ≤ S4096.size a
  inb_S4096_S16_2160 : ∀ a, (![2160] : Fin 1 → Nat) a + S16.size a ≤ S4096.size a
  inb_S4096_S16_2176 : ∀ a, (![2176] : Fin 1 → Nat) a + S16.size a ≤ S4096.size a
  inb_S4096_S16_2192 : ∀ a, (![2192] : Fin 1 → Nat) a + S16.size a ≤ S4096.size a
  inb_S4096_S16_2208 : ∀ a, (![2208] : Fin 1 → Nat) a + S16.size a ≤ S4096.size a
  inb_S4096_S16_2224 : ∀ a, (![2224] : Fin 1 → Nat) a + S16.size a ≤ S4096.size a
  inb_S4096_S16_2240 : ∀ a, (![2240] : Fin 1 → Nat) a + S16.size a ≤ S4096.size a
  inb_S4096_S16_2256 : ∀ a, (![2256] : Fin 1 → Nat) a + S16.size a ≤ S4096.size a
  inb_S4096_S16_2272 : ∀ a, (![2272] : Fin 1 → Nat) a + S16.size a ≤ S4096.size a
  inb_S4096_S16_2288 : ∀ a, (![2288] : Fin 1 → Nat) a + S16.size a ≤ S4096.size a
  inb_S4096_S16_2304 : ∀ a, (![2304] : Fin 1 → Nat) a + S16.size a ≤ S4096.size a
  inb_S4096_S16_2320 : ∀ a, (![2320] : Fin 1 → Nat) a + S16.size a ≤ S4096.size a
  inb_S4096_S16_2336 : ∀ a, (![2336] : Fin 1 → Nat) a + S16.size a ≤ S4096.size a
  inb_S4096_S16_2352 : ∀ a, (![2352] : Fin 1 → Nat) a + S16.size a ≤ S4096.size a
  inb_S4096_S16_2368 : ∀ a, (![2368] : Fin 1 → Nat) a + S16.size a ≤ S4096.size a
  inb_S4096_S16_2384 : ∀ a, (![2384] : Fin 1 → Nat) a + S16.size a ≤ S4096.size a
  inb_S4096_S16_2400 : ∀ a, (![2400] : Fin 1 → Nat) a + S16.size a ≤ S4096.size a
  inb_S4096_S16_2416 : ∀ a, (![2416] : Fin 1 → Nat) a + S16.size a ≤ S4096.size a
  inb_S4096_S16_2432 : ∀ a, (![2432] : Fin 1 → Nat) a + S16.size a ≤ S4096.size a
  inb_S4096_S16_2448 : ∀ a, (![2448] : Fin 1 → Nat) a + S16.size a ≤ S4096.size a
  inb_S4096_S16_2464 : ∀ a, (![2464] : Fin 1 → Nat) a + S16.size a ≤ S4096.size a
  inb_S4096_S16_2480 : ∀ a, (![2480] : Fin 1 → Nat) a + S16.size a ≤ S4096.size a
  inb_S4096_S16_2496 : ∀ a, (![2496] : Fin 1 → Nat) a + S16.size a ≤ S4096.size a
  inb_S4096_S16_2512 : ∀ a, (![2512] : Fin 1 → Nat) a + S16.size a ≤ S4096.size a
  inb_S4096_S16_2528 : ∀ a, (![2528] : Fin 1 → Nat) a + S16.size a ≤ S4096.size a
  inb_S4096_S16_2544 : ∀ a, (![2544] : Fin 1 → Nat) a + S16.size a ≤ S4096.size a
  inb_S4096_S16_2560 : ∀ a, (![2560] : Fin 1 → Nat) a + S16.size a ≤ S4096.size a
  inb_S4096_S16_2576 : ∀ a, (![2576] : Fin 1 → Nat) a + S16.size a ≤ S4096.size a
  inb_S4096_S16_2592 : ∀ a, (![2592] : Fin 1 → Nat) a + S16.size a ≤ S4096.size a
  inb_S4096_S16_2608 : ∀ a, (![2608] : Fin 1 → Nat) a + S16.size a ≤ S4096.size a
  inb_S4096_S16_2624 : ∀ a, (![2624] : Fin 1 → Nat) a + S16.size a ≤ S4096.size a
  inb_S4096_S16_2640 : ∀ a, (![2640] : Fin 1 → Nat) a + S16.size a ≤ S4096.size a
  inb_S4096_S16_2656 : ∀ a, (![2656] : Fin 1 → Nat) a + S16.size a ≤ S4096.size a
  inb_S4096_S16_2672 : ∀ a, (![2672] : Fin 1 → Nat) a + S16.size a ≤ S4096.size a
  inb_S4096_S16_2688 : ∀ a, (![2688] : Fin 1 → Nat) a + S16.size a ≤ S4096.size a
  inb_S4096_S16_2704 : ∀ a, (![2704] : Fin 1 → Nat) a + S16.size a ≤ S4096.size a
  inb_S4096_S16_2720 : ∀ a, (![2720] : Fin 1 → Nat) a + S16.size a ≤ S4096.size a
  inb_S4096_S16_2736 : ∀ a, (![2736] : Fin 1 → Nat) a + S16.size a ≤ S4096.size a
  inb_S4096_S16_2752 : ∀ a, (![2752] : Fin 1 → Nat) a + S16.size a ≤ S4096.size a
  inb_S4096_S16_2768 : ∀ a, (![2768] : Fin 1 → Nat) a + S16.size a ≤ S4096.size a
  inb_S4096_S16_2784 : ∀ a, (![2784] : Fin 1 → Nat) a + S16.size a ≤ S4096.size a
  inb_S4096_S16_2800 : ∀ a, (![2800] : Fin 1 → Nat) a + S16.size a ≤ S4096.size a
  inb_S4096_S16_2816 : ∀ a, (![2816] : Fin 1 → Nat) a + S16.size a ≤ S4096.size a
  inb_S4096_S16_2832 : ∀ a, (![2832] : Fin 1 → Nat) a + S16.size a ≤ S4096.size a
  inb_S4096_S16_2848 : ∀ a, (![2848] : Fin 1 → Nat) a + S16.size a ≤ S4096.size a
  inb_S4096_S16_2864 : ∀ a, (![2864] : Fin 1 → Nat) a + S16.size a ≤ S4096.size a
  inb_S4096_S16_2880 : ∀ a, (![2880] : Fin 1 → Nat) a + S16.size a ≤ S4096.size a
  inb_S4096_S16_2896 : ∀ a, (![2896] : Fin 1 → Nat) a + S16.size a ≤ S4096.size a
  inb_S4096_S16_2912 : ∀ a, (![2912] : Fin 1 → Nat) a + S16.size a ≤ S4096.size a
  inb_S4096_S16_2928 : ∀ a, (![2928] : Fin 1 → Nat) a + S16.size a ≤ S4096.size a
  inb_S4096_S16_2944 : ∀ a, (![2944] : Fin 1 → Nat) a + S16.size a ≤ S4096.size a
  inb_S4096_S16_2960 : ∀ a, (![2960] : Fin 1 → Nat) a + S16.size a ≤ S4096.size a
  inb_S4096_S16_2976 : ∀ a, (![2976] : Fin 1 → Nat) a + S16.size a ≤ S4096.size a
  inb_S4096_S16_2992 : ∀ a, (![2992] : Fin 1 → Nat) a + S16.size a ≤ S4096.size a
  inb_S4096_S16_3008 : ∀ a, (![3008] : Fin 1 → Nat) a + S16.size a ≤ S4096.size a
  inb_S4096_S16_3024 : ∀ a, (![3024] : Fin 1 → Nat) a + S16.size a ≤ S4096.size a
  inb_S4096_S16_3040 : ∀ a, (![3040] : Fin 1 → Nat) a + S16.size a ≤ S4096.size a
  inb_S4096_S16_3056 : ∀ a, (![3056] : Fin 1 → Nat) a + S16.size a ≤ S4096.size a
  inb_S4096_S16_3072 : ∀ a, (![3072] : Fin 1 → Nat) a + S16.size a ≤ S4096.size a
  inb_S4096_S16_3088 : ∀ a, (![3088] : Fin 1 → Nat) a + S16.size a ≤ S4096.size a
  inb_S4096_S16_3104 : ∀ a, (![3104] : Fin 1 → Nat) a + S16.size a ≤ S4096.size a
  inb_S4096_S16_3120 : ∀ a, (![3120] : Fin 1 → Nat) a + S16.size a ≤ S4096.size a
  inb_S4096_S16_3136 : ∀ a, (![3136] : Fin 1 → Nat) a + S16.size a ≤ S4096.size a
  inb_S4096_S16_3152 : ∀ a, (![3152] : Fin 1 → Nat) a + S16.size a ≤ S4096.size a
  inb_S4096_S16_3168 : ∀ a, (![3168] : Fin 1 → Nat) a + S16.size a ≤ S4096.size a
  inb_S4096_S16_3184 : ∀ a, (![3184] : Fin 1 → Nat) a + S16.size a ≤ S4096.size a
  inb_S4096_S16_3200 : ∀ a, (![3200] : Fin 1 → Nat) a + S16.size a ≤ S4096.size a
  inb_S4096_S16_3216 : ∀ a, (![3216] : Fin 1 → Nat) a + S16.size a ≤ S4096.size a
  inb_S4096_S16_3232 : ∀ a, (![3232] : Fin 1 → Nat) a + S16.size a ≤ S4096.size a
  inb_S4096_S16_3248 : ∀ a, (![3248] : Fin 1 → Nat) a + S16.size a ≤ S4096.size a
  inb_S4096_S16_3264 : ∀ a, (![3264] : Fin 1 → Nat) a + S16.size a ≤ S4096.size a
  inb_S4096_S16_3280 : ∀ a, (![3280] : Fin 1 → Nat) a + S16.size a ≤ S4096.size a
  inb_S4096_S16_3296 : ∀ a, (![3296] : Fin 1 → Nat) a + S16.size a ≤ S4096.size a
  inb_S4096_S16_3312 : ∀ a, (![3312] : Fin 1 → Nat) a + S16.size a ≤ S4096.size a
  inb_S4096_S16_3328 : ∀ a, (![3328] : Fin 1 → Nat) a + S16.size a ≤ S4096.size a
  inb_S4096_S16_3344 : ∀ a, (![3344] : Fin 1 → Nat) a + S16.size a ≤ S4096.size a
  inb_S4096_S16_3360 : ∀ a, (![3360] : Fin 1 → Nat) a + S16.size a ≤ S4096.size a
  inb_S4096_S16_3376 : ∀ a, (![3376] : Fin 1 → Nat) a + S16.size a ≤ S4096.size a
  inb_S4096_S16_3392 : ∀ a, (![3392] : Fin 1 → Nat) a + S16.size a ≤ S4096.size a
  inb_S4096_S16_3408 : ∀ a, (![3408] : Fin 1 → Nat) a + S16.size a ≤ S4096.size a
  inb_S4096_S16_3424 : ∀ a, (![3424] : Fin 1 → Nat) a + S16.size a ≤ S4096.size a
  inb_S4096_S16_3440 : ∀ a, (![3440] : Fin 1 → Nat) a + S16.size a ≤ S4096.size a
  inb_S4096_S16_3456 : ∀ a, (![3456] : Fin 1 → Nat) a + S16.size a ≤ S4096.size a
  inb_S4096_S16_3472 : ∀ a, (![3472] : Fin 1 → Nat) a + S16.size a ≤ S4096.size a
  inb_S4096_S16_3488 : ∀ a, (![3488] : Fin 1 → Nat) a + S16.size a ≤ S4096.size a
  inb_S4096_S16_3504 : ∀ a, (![3504] : Fin 1 → Nat) a + S16.size a ≤ S4096.size a
  inb_S4096_S16_3520 : ∀ a, (![3520] : Fin 1 → Nat) a + S16.size a ≤ S4096.size a
  inb_S4096_S16_3536 : ∀ a, (![3536] : Fin 1 → Nat) a + S16.size a ≤ S4096.size a
  inb_S4096_S16_3552 : ∀ a, (![3552] : Fin 1 → Nat) a + S16.size a ≤ S4096.size a
  inb_S4096_S16_3568 : ∀ a, (![3568] : Fin 1 → Nat) a + S16.size a ≤ S4096.size a
  inb_S4096_S16_3584 : ∀ a, (![3584] : Fin 1 → Nat) a + S16.size a ≤ S4096.size a
  inb_S4096_S16_3600 : ∀ a, (![3600] : Fin 1 → Nat) a + S16.size a ≤ S4096.size a
  inb_S4096_S16_3616 : ∀ a, (![3616] : Fin 1 → Nat) a + S16.size a ≤ S4096.size a
  inb_S4096_S16_3632 : ∀ a, (![3632] : Fin 1 → Nat) a + S16.size a ≤ S4096.size a
  inb_S4096_S16_3648 : ∀ a, (![3648] : Fin 1 → Nat) a + S16.size a ≤ S4096.size a
  inb_S4096_S16_3664 : ∀ a, (![3664] : Fin 1 → Nat) a + S16.size a ≤ S4096.size a
  inb_S4096_S16_3680 : ∀ a, (![3680] : Fin 1 → Nat) a + S16.size a ≤ S4096.size a
  inb_S4096_S16_3696 : ∀ a, (![3696] : Fin 1 → Nat) a + S16.size a ≤ S4096.size a
  inb_S4096_S16_3712 : ∀ a, (![3712] : Fin 1 → Nat) a + S16.size a ≤ S4096.size a
  inb_S4096_S16_3728 : ∀ a, (![3728] : Fin 1 → Nat) a + S16.size a ≤ S4096.size a
  inb_S4096_S16_3744 : ∀ a, (![3744] : Fin 1 → Nat) a + S16.size a ≤ S4096.size a
  inb_S4096_S16_3760 : ∀ a, (![3760] : Fin 1 → Nat) a + S16.size a ≤ S4096.size a
  inb_S4096_S16_3776 : ∀ a, (![3776] : Fin 1 → Nat) a + S16.size a ≤ S4096.size a
  inb_S4096_S16_3792 : ∀ a, (![3792] : Fin 1 → Nat) a + S16.size a ≤ S4096.size a
  inb_S4096_S16_3808 : ∀ a, (![3808] : Fin 1 → Nat) a + S16.size a ≤ S4096.size a
  inb_S4096_S16_3824 : ∀ a, (![3824] : Fin 1 → Nat) a + S16.size a ≤ S4096.size a
  inb_S4096_S16_3840 : ∀ a, (![3840] : Fin 1 → Nat) a + S16.size a ≤ S4096.size a
  inb_S4096_S16_3856 : ∀ a, (![3856] : Fin 1 → Nat) a + S16.size a ≤ S4096.size a
  inb_S4096_S16_3872 : ∀ a, (![3872] : Fin 1 → Nat) a + S16.size a ≤ S4096.size a
  inb_S4096_S16_3888 : ∀ a, (![3888] : Fin 1 → Nat) a + S16.size a ≤ S4096.size a
  inb_S4096_S16_3904 : ∀ a, (![3904] : Fin 1 → Nat) a + S16.size a ≤ S4096.size a
  inb_S4096_S16_3920 : ∀ a, (![3920] : Fin 1 → Nat) a + S16.size a ≤ S4096.size a
  inb_S4096_S16_3936 : ∀ a, (![3936] : Fin 1 → Nat) a + S16.size a ≤ S4096.size a
  inb_S4096_S16_3952 : ∀ a, (![3952] : Fin 1 → Nat) a + S16.size a ≤ S4096.size a
  inb_S4096_S16_3968 : ∀ a, (![3968] : Fin 1 → Nat) a + S16.size a ≤ S4096.size a
  inb_S4096_S16_3984 : ∀ a, (![3984] : Fin 1 → Nat) a + S16.size a ≤ S4096.size a
  inb_S4096_S16_4000 : ∀ a, (![4000] : Fin 1 → Nat) a + S16.size a ≤ S4096.size a
  inb_S4096_S16_4016 : ∀ a, (![4016] : Fin 1 → Nat) a + S16.size a ≤ S4096.size a
  inb_S4096_S16_4032 : ∀ a, (![4032] : Fin 1 → Nat) a + S16.size a ≤ S4096.size a
  inb_S4096_S16_4048 : ∀ a, (![4048] : Fin 1 → Nat) a + S16.size a ≤ S4096.size a
  inb_S4096_S16_4064 : ∀ a, (![4064] : Fin 1 → Nat) a + S16.size a ≤ S4096.size a
  inb_S4096_S16_4080 : ∀ a, (![4080] : Fin 1 → Nat) a + S16.size a ≤ S4096.size a
  shapeCasts_S8388608_S4096x2048 : S8388608.ShapeCasts S4096x2048
  hcc0_scratch5 : 0 + S2.numel ≤ 5
  hcc0_scratch6 : 2 + S2.numel ≤ 5
  hcc0_scoped0 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (32768 * r.val))) a + S32768.size a ≤ S67108864.size a
  k0_off2_inb : ∀ i : grid0.Coords, ∀ a, (k0_off2 i) a + S4096.size a ≤ S8388608.size a
  k0_off3_inb : ∀ i : grid0.Coords, ∀ (r : Fin 2), ∀ a, (k0_off3 i (BitVec.ofNat 32 (32768 + 32768 * r.val))) a + S32768.size a ≤ S67108864.size a
  k0_off4_inb : ∀ i : grid0.Coords, ∀ (r : Fin 2), ∀ a, (k0_off4 i (BitVec.ofNat 32 (4096 + 241664 * r.val))) a + S4096.size a ≤ S8388608.size a
  k0_off5_inb : ∀ i : grid0.Coords, ∀ (r : Fin 2), ∀ a, (k0_off5 i (BitVec.ofNat 32 (98304 + 1933312 * r.val))) a + S32768.size a ≤ S67108864.size a
  k0_t1_ok : k0_t1_loop.OK
  k0_off6_inb : ∀ (i : grid0.Coords) (k0_t1 : Fin k0_t1_loop.trips), ∀ a, (k0_off6 i k0_t1) a + S32768.size a ≤ S67108864.size a
  k0_off7_inb : ∀ (i : grid0.Coords) (k0_t1 : Fin k0_t1_loop.trips), ∀ a, (k0_off7 i k0_t1) a + S4096.size a ≤ S8388608.size a
  k0_off8_inb : ∀ (i : grid0.Coords) (k0_t1 : Fin k0_t1_loop.trips), ∀ a, (k0_off8 i k0_t1) a + S4096.size a ≤ S8388608.size a
  k0_off9_inb : ∀ (i : grid0.Coords) (k0_t1 : Fin k0_t1_loop.trips), ∀ a, (k0_off9 i k0_t1) a + S32768.size a ≤ S67108864.size a
  k0_off10_inb : ∀ (i : grid0.Coords) (k0_t1 : Fin k0_t1_loop.trips), ∀ a, (k0_off10 i k0_t1) a + S32768.size a ≤ S67108864.size a
  k0_off11_inb : ∀ (i : grid0.Coords) (k0_t1 : Fin k0_t1_loop.trips), ∀ a, (k0_off11 i k0_t1) a + S4096.size a ≤ S8388608.size a
  k0_off12_inb : ∀ (i : grid0.Coords) (k0_t1 : Fin k0_t1_loop.trips), ∀ a, (k0_off12 i k0_t1) a + S4096.size a ≤ S8388608.size a
  k0_off13_inb : ∀ (i : grid0.Coords) (k0_t1 : Fin k0_t1_loop.trips), ∀ a, (k0_off13 i k0_t1) a + S32768.size a ≤ S67108864.size a
  k0_off14_inb : ∀ i : grid0.Coords, ∀ (r : Fin 2), ∀ a, (k0_off14 i (BitVec.ofNat 32 (249856 + 4096 * r.val))) a + S4096.size a ≤ S8388608.size a
  k0_off15_inb : ∀ i : grid0.Coords, ∀ a, (k0_off15 i) a + S32768.size a ≤ S67108864.size a
  k0_off16_inb : ∀ i : grid0.Coords, ∀ (r : Fin 2), ∀ a, (k0_off16 i (BitVec.ofNat 32 (253952 + 4096 * r.val))) a + S4096.size a ≤ S8388608.size a

variable [Facts₀]

abbrev cc0_scratch5 : DmaSems sig S2 := SemArray.consecutive 0 S2 hcc0_scratch5
abbrev cc0_scratch6 : DmaSems sig S2 := SemArray.consecutive 2 S2 hcc0_scratch6
abbrev cc0_scoped0 : DmaSems sig S_ := SemArray.consecutive 4 S_ hcc0_scoped0

class Facts : Prop extends Facts₀ where

variable [Facts]
-- ==== ReferenceIdeal.lean ====
abbrev S4096x2048x8 : Shape := ⟨3, ![4096, 2048, 8]⟩
abbrev S1 : Shape := ⟨1, ![1]⟩
abbrev S8 : Shape := ⟨1, ![8]⟩
abbrev S_ : Shape := ⟨0, ![]⟩
abbrev S4096x2048 : Shape := ⟨2, ![4096, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048x8, .f32⟩
  | .hbm, ⟨1, _⟩ => ⟨S1, .f32⟩
  | .hbm, ⟨2, _⟩ => ⟨S1, .i32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S8, .f32⟩
  | .hbm, ⟨16, _⟩ => ⟨S8, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S1, .i1⟩
  | .hbm, ⟨28, _⟩ => ⟨S1, .i1⟩
  | .hbm, ⟨29, _⟩ => ⟨S1, .i1⟩
  | .hbm, ⟨30, _⟩ => ⟨S_, .i1⟩
  | .hbm, ⟨31, _⟩ => ⟨S_, .i1⟩
  | .hbm, ⟨32, _⟩ => ⟨S4096x2048, .f32⟩
  | .hbm, ⟨33, _⟩ => ⟨S4096x2048, .i1⟩
  | .hbm, ⟨34, _⟩ => ⟨S_, .f32⟩
  | .hbm, ⟨35, _⟩ => ⟨S4096x2048, .f32⟩
  | .hbm, ⟨36, _⟩ => ⟨S4096x2048, .f32⟩
  | _, _ => ⟨S4096x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_c_0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_c_1 : Ref sig .tc := ⟨.hbm, 24, rfl⟩
abbrev main_call0_c_2 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_c_3 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_cst : Ref sig .tc := ⟨.hbm, 34, rfl⟩
abbrev main_call0_v11 : Ref sig .tc := ⟨.hbm, 35, rfl⟩
abbrev main_v11 : Ref sig .tc := ⟨.hbm, 36, rfl⟩

abbrev nD : Nat := 1
abbrev τ : Topo := Topo.v7x

variable {F : FTy → Type} [FloatOps F]

class Facts₀ : Prop where
  reducesTo_S8_S_d0 : S8.ReducesTo [0] S_
  h_S_ : 0 < S_.numel
  bcast_S_S1 : S_.BroadcastsInDim S1 (![] : Fin 0 → Fin S1.rank)
  bcast_S1_S8_0 : S1.BroadcastsInDim S8 (![0] : Fin 1 → Fin S8.rank)
  shapeCasts_S1_S_ : S1.ShapeCasts S_
  reducesTo_S1_S_d0 : S1.ReducesTo [0] S_
  bcast_S_S4096x2048 : S_.BroadcastsInDim S4096x2048 (![] : Fin 0 → Fin S4096x2048.rank)
  gather_S4096x2048x8_S1_S4096x2048_01_2_n_n_2_0_409620481_wf : GatherDims.WF S4096x2048x8 S1 S4096x2048 [0, 1] [2] [] [2] [] 0 ![4096, 2048, 1]

variable [Facts₀]

def gather_S4096x2048x8_S1_S4096x2048_01_2_n_n_2_0_409620481 : GatherDims S4096x2048x8 S1 S4096x2048 where
  offsetDims := [0, 1]
  collapsedSliceDims := [2]
  operandBatchingDims := []
  startIndicesBatchingDims := []
  startIndexMap := [2]
  indexVectorDim := 0
  sliceSizes := ![4096, 2048, 1]
  wf := gather_S4096x2048x8_S1_S4096x2048_01_2_n_n_2_0_409620481_wf

class Facts : Prop extends Facts₀ where

variable [Facts]
-- ==== Proof.Spec.lean ====
/-
  The function both programs compute: the plane of a rank-3 array selected by one integer word.
  For x : [4096, 2048, 8] and a one-word selector s, the result at (t, d) is x[t, d, k] with k the word read
  unsigned and capped at 7 (the cap is what a gather's clamp gives; under the range 0 ≤ s ≤ 7 it is s itself).
-/
import Idealize.ShloMosaic.Lib.ValueIdx

namespace Cert.Sel

open Idealize.ShloMosaic

/-- The operand's shape, the result's, and the selector's. -/
abbrev SX : Shape := ⟨3, ![4096, 2048, 8]⟩
abbrev SO : Shape := ⟨2, ![4096, 2048]⟩
abbrev SK : Shape := ⟨1, ![1]⟩

/-- The selector word as a position along the last axis: read unsigned, capped at 7. -/
def pos (s : SK.Idx → BitVec 32) : Fin 8 := ⟨min (s (ValueIdx.ix1 0)).toNat 7, by omega⟩

/-- Entry (t, d) of the selected plane is x[t, d, pos s]. -/
def plane {α : Type} (x : SX.Idx → α) (s : SK.Idx → BitVec 32) : SO.Idx → α :=
  fun j => x (ValueIdx.ix3 (j 0) (j 1) (pos s))

theorem plane_apply {α : Type} (x : SX.Idx → α) (s : SK.Idx → BitVec 32) (t : Fin 4096) (d : Fin 2048) :
    plane x s (ValueIdx.ix2 t d) = x (ValueIdx.ix3 t d (pos s)) := rfl

/-- In range, the position is the word itself. -/
theorem pos_val_of_le (s : SK.Idx → BitVec 32) (h : (s (ValueIdx.ix1 0)).toNat ≤ 7) : (pos s).val = (s (ValueIdx.ix1 0)).toNat := by
  show min _ 7 = _; omega

end Cert.Sel
-- ==== Proof.Pay.lean ====
/-
  The kernel side's shared vocabulary: the program as the SparseCore launch theorem sees it, the ghost state
  (the handshakes' rounds beside the local transfers' counters), the arrays after @main's two host operations
  (the operand flattened to one axis, the selector word repeated sixteen times), what the kernel leaves in the
  flat result, and what the one SparseCore call hands each SparseCore and each of its sixteen tiles and takes back.

  The mathematics. Write w = 2·i + c for tile i of SparseCore c (the kernel's own worker number). Worker w owns
  tokens 128·w … 128·w + 127, in 64 chunks of two tokens: chunk k of worker w is elements
  4096·(64·w + k) … +4095 of the flat result, i.e. part 64·w + k of its 2048 equal parts. Element o of the flat
  result is element 8·o + s of the flat operand (s the selector), so chunk j of the result (4096 elements) is read
  out of part j of the operand's 2048 equal parts (32768 elements). The selector is only read: every tile holds a
  read share of it, whole; of the operand and of the result a tile holds exactly its own 64 chunks.
-/
import proofs.«203709_g27616639714075_cont_sun_c4_439_12_alg».proof.KernelIdeal
import proofs.«203709_g27616639714075_cont_sun_c4_439_12_alg».proof.Proof.Gen.KernelIdeal
import proofs.«203709_g27616639714075_cont_sun_c4_439_12_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the local transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The four arguments, the flat operand, the repeated selector, the flat result and the result, on device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev inLoc (d : Dev nD) : Loc nD τ sig := (SparseCore.T d).loc main_v0
abbrev selLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

/-- What the proof asks of the launch memory: the selector word names one of the eight planes. -/
def PreOK : Prop := ∀ d : Dev nD, (m (a2Loc d) (ValueIdx.ix1 0)).toNat ≤ 7

/-- The operand flattened (what @main's first reshape writes) and the selector repeated (its broadcast). -/
def X1 (d : Dev nD) : Buf (Elt F) (inLoc d) := shapeCast S67108864 (m (a0Loc d)) shapeCasts_S4096x2048x8_S67108864
def SelV (d : Dev nD) : Buf (Elt F) (selLoc d) := broadcastInDim S16 ![0] bcast_S1_S16_0 (m (a2Loc d))

/-- The selector as a number, capped at 7 (the word itself under `PreOK`). -/
def selN (d : Dev nD) : ℕ := (Cert.Sel.pos (m (a2Loc d))).val
theorem selN_lt (d : Dev nD) : selN m d < 8 := (Cert.Sel.pos (m (a2Loc d))).isLt

/-- Where element `o` of the flat result comes from in the flat operand: `8·o + s`. -/
def srcIx (s : ℕ) (hs : s < 8) (o : S8388608.Idx) : S67108864.Idx :=
  ValueIdx.ix1 (⟨8 * (o 0).val + s, by have : (o 0).val < 8388608 := (o 0).isLt; omega⟩ : Fin 67108864)

/-- What the kernel leaves in the flat result. -/
def Y1 (d : Dev nD) : Buf (Elt F) (outLoc d) := fun o => X1 m d (srcIx (selN m d) (selN_lt m d) o)

/-! ## The result's chunks and the read shares -/

theorem hdiv : 2048 ∣ S8388608.size 0 := ⟨4096, rfl⟩
theorem hdivIn : 2048 ∣ S67108864.size 0 := ⟨32768, rfl⟩
/-- Part `j` of the flat operand's 2048 equal parts (32768 elements each): what chunk `j` of the result is read from. -/
abbrev inChunk (j : Fin 2048) : Rect S67108864 := Rect.part (s := S67108864) (a₀ := 0) hdivIn j
abbrev inChunkSet (j : Fin 2048) : Finset S67108864.Idx :=
  ((Memref.whole main_v0_scv : Memref sig .scVector .hbm S67108864 .f32).view.slice (inChunk j)).set
/-- Part `j` of the flat result's 2048 equal parts (4096 elements each). -/
abbrev chunk (j : Fin 2048) : Rect S8388608 := Rect.part (s := S8388608) (a₀ := 0) hdiv j
abbrev chunkSet (j : Fin 2048) : Finset S8388608.Idx :=
  ((Memref.whole main_v2_scv : Memref sig .scVector .hbm S8388608 .f32).view.slice (chunk j)).set

/-- Tile `i` of SparseCore `c` is worker `2·i + c`; its chunk `k` is part `64·(2·i + c) + k`. -/
def chunkIx (c : Fin 2) (i : Fin 16) (k : Fin 64) : Fin 2048 :=
  ⟨64 * (2 * i.val + c.val) + k.val, by have := c.isLt; have := i.isLt; have := k.isLt; omega⟩

/-- The read share of SparseCore `c`, and of its tile `i`. -/
abbrev cShare (c : Fin 2) : PosShare TreeShare := Transfers.shareTok fullShare 2 c
abbrev tShare (c : Fin 2) (i : Fin 16) : PosShare TreeShare := Transfers.shareTok (cShare c) 16 i

variable [FloatOps F]

/-- A tile's 64 chunks of the flat operand, at contents `f`. -/
def inChunks (d : Dev nD) (c : Fin 2) (i : Fin 16) (f : Buf (Elt F) (inLoc d)) : sProp 𝕄 :=
  bigSep Finset.univ fun k : Fin 64 => inLoc d ↦[inChunkSet (chunkIx c i k)]{fullShare} f

/-- A tile's 64 chunks of the flat result, at contents `f`. -/
def outChunks (d : Dev nD) (c : Fin 2) (i : Fin 16) (f : Buf (Elt F) (outLoc d)) : sProp 𝕄 :=
  bigSep Finset.univ fun k : Fin 64 => outLoc d ↦[chunkSet (chunkIx c i k)]{fullShare} f

/-- What a tile is handed: its chunks of the flat operand, a read share of the selector, and its chunks of the
    result as the launch left them; what it hands back: the same, its chunks of the result at the kernel's function. -/
def goT (d : Dev nD) (c : Fin 2) (i : Fin 16) : sProp 𝕄 :=
  iprop(inChunks d c i (X1 m d) ∗ (selLoc d ↦{tShare c i} SelV m d) ∗ outChunks d c i (m (outLoc d)))
def tdT (d : Dev nD) (c : Fin 2) (i : Fin 16) : sProp 𝕄 :=
  iprop(inChunks d c i (X1 m d) ∗ (selLoc d ↦{tShare c i} SelV m d) ∗ outChunks d c i (Y1 m d))

/-- What a SparseCore is handed and hands back: its sixteen tiles' chunks of the operand, its share of the selector,
    and its sixteen tiles' chunks of the result. -/
def stC (d : Dev nD) (c : Fin 2) : sProp 𝕄 :=
  iprop((bigSep Finset.univ fun i : Fin 16 => inChunks d c i (X1 m d)) ∗ (selLoc d ↦{cShare c} SelV m d)
    ∗ bigSep Finset.univ fun i : Fin 16 => outChunks d c i (m (outLoc d)))
def dnC (d : Dev nD) (c : Fin 2) : sProp 𝕄 :=
  iprop((bigSep Finset.univ fun i : Fin 16 => inChunks d c i (X1 m d)) ∗ (selLoc d ↦{cShare c} SelV m d)
    ∗ bigSep Finset.univ fun i : Fin 16 => outChunks d c i (Y1 m d))

/-- The one call's payloads. The kernel has no protocol of its own with other threads. -/
def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

/-- What the run leaves, for the claims: the result is the selected plane, the arguments are unchanged. -/
def QC : PUnit × MemSt nD τ sig (Elt F) → Prop := fun r => ∀ c : Dev nD,
  r.2.mem (resLoc c) = Cert.Sel.plane (m (a0Loc c)) (m (a2Loc c))
    ∧ r.2.mem (a0Loc c) = m (a0Loc c) ∧ r.2.mem (a1Loc c) = m (a1Loc c)
    ∧ r.2.mem (a2Loc c) = m (a2Loc c) ∧ r.2.mem (a3Loc c) = m (a3Loc c)

end Cert.KernelIdeal.Hand

end
-- ==== Proof.FlatPlane.lean ====
/-
  The value equation. The flat result read at shape [4096, 2048] is the selected plane of the operand.

  Row-major positions: entry (t, q) of the reshaped result is element t·2048 + q of the flat result; the kernel's
  function puts there element 8·(t·2048 + q) + s of the flat operand (s the selector, capped at 7); and that is
  entry (t, q, s) of the operand, whose row-major position is (t·2048 + q)·8 + s.
-/
import proofs.«203709_g27616639714075_cont_sun_c4_439_12_alg».proof.Proof.Pay
import Idealize.ShloMosaic.Lib.Pipeline.Value
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The flat result at the kernel's function, reshaped, is the selected plane. -/
theorem flat_plane (d : Dev nD) :
    shapeCast S4096x2048 (Y1 m d) shapeCasts_S8388608_S4096x2048 = Cert.Sel.plane (m (a0Loc d)) (m (a2Loc d)) := by
  funext j
  have h0 : (j 0).val < 4096 := (j 0).isLt
  have h1 : (j 1).val < 2048 := (j 1).isLt
  have ho : (j 0).val * 2048 + (j 1).val < 8388608 := by omega
  -- entry (t, q) of the reshaped result is element t·2048 + q of the flat one
  have e1 : (S8388608.rowMajor (ValueIdx.ix1 (⟨(j 0).val * 2048 + (j 1).val, ho⟩ : Fin 8388608))).val = (S4096x2048.rowMajor j).val := by
    rw [Shape.rowMajor_val_one, Shape.rowMajor_val_two]; rfl
  -- element 8·(t·2048 + q) + s of the flat operand is entry (t, q, s) of the operand
  have e2 : (S4096x2048x8.rowMajor (ValueIdx.ix3 (j 0) (j 1) (Cert.Sel.pos (m (a2Loc d))))).val
      = (S67108864.rowMajor (srcIx (selN m d) (selN_lt m d) (ValueIdx.ix1 (⟨(j 0).val * 2048 + (j 1).val, ho⟩ : Fin 8388608)))).val := by
    rw [Shape.rowMajor_val_three, Shape.rowMajor_val_one]
    show ((j 0).val * 2048 + (j 1).val) * 8 + (Cert.Sel.pos (m (a2Loc d))).val
      = 8 * ((j 0).val * 2048 + (j 1).val) + (Cert.Sel.pos (m (a2Loc d))).val
    omega
  calc shapeCast S4096x2048 (Y1 m d) shapeCasts_S8388608_S4096x2048 j
      = Y1 m d (ValueIdx.ix1 (⟨(j 0).val * 2048 + (j 1).val, ho⟩ : Fin 8388608)) :=
        shapeCast_apply (s := S8388608) (t := S4096x2048) (Y1 m d) shapeCasts_S8388608_S4096x2048 j _ e1
    _ = m (a0Loc d) (ValueIdx.ix3 (j 0) (j 1) (Cert.Sel.pos (m (a2Loc d)))) :=
        shapeCast_apply (s := S4096x2048x8) (t := S67108864) (m (a0Loc d)) shapeCasts_S4096x2048x8_S67108864 _ _ e2
    _ = Cert.Sel.plane (m (a0Loc d)) (m (a2Loc d)) j := rfl

end Cert.KernelIdeal.Hand

end
-- ==== Proof.Deal.lean ====
/-
  The arrays cut for the call. The flat operand and the flat result are each 2048 equal parts; part 64·(2·i + c) + k
  is chunk k of tile i of SparseCore c, and (c, i, k) ↦ 64·(2·i + c) + k is a bijection onto the 2048 parts, so an array
  held whole is every tile's 64 chunks, and back. The selector is only read: each SparseCore takes a read share of it,
  each tile a read share of its SparseCore's, the remainders kept aside until the shares come back.
-/
import proofs.«203709_g27616639714075_cont_sun_c4_439_12_alg».proof.Proof.Pay
import Idealize.ShloMosaic.Lib.Transfers

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The 2048 parts of the flat operand and of the flat result, regrouped by SparseCore, tile and chunk number -/

/-- `(c, i, k) ↦ 64·(2·i + c) + k` is a bijection onto the 2048 parts: `i = j / 128`, `c = (j / 64) mod 2`, `k = j mod 64`. -/
def chunkEquiv : Fin 2 × Fin 16 × Fin 64 ≃ Fin 2048 where
  toFun p := chunkIx p.1 p.2.1 p.2.2
  invFun j := (⟨(j.val / 64) % 2, by omega⟩, ⟨j.val / 128, by have := j.isLt; omega⟩, ⟨j.val % 64, by omega⟩)
  left_inv := by
    rintro ⟨c, i, k⟩
    have := c.isLt; have := i.isLt; have := k.isLt
    refine Prod.ext (Fin.ext ?_) (Prod.ext (Fin.ext ?_) (Fin.ext ?_)) <;> simp only [chunkIx] <;> omega
  right_inv := by
    intro j; have := j.isLt
    refine Fin.ext ?_; simp only [chunkIx]; omega

/-- A family over the 2048 parts, regrouped. -/
theorem bigSep_chunks (Φ : Fin 2048 → sProp 𝕄) :
    bigSep Finset.univ Φ
      = bigSep Finset.univ fun c : Fin 2 => bigSep Finset.univ fun i : Fin 16 => bigSep Finset.univ fun k : Fin 64 => Φ (chunkIx c i k) := by
  rw [bigSep_univ_equiv chunkEquiv Φ, bigSep_univ_prod]
  refine bigSep_congr fun c _ => ?_
  rw [bigSep_univ_prod]
  rfl

theorem chunkSet_eq (j : Fin 2048) : chunkSet j = (chunk j).set :=
  View.set_slice_whole (main_v2_scv : Ref sig .scVector) (chunk j)
theorem chunks_disjoint : ∀ i ∈ (Finset.univ : Finset (Fin 2048)), ∀ j ∈ (Finset.univ : Finset (Fin 2048)), i ≠ j → Disjoint (chunkSet i) (chunkSet j) :=
  fun i _ j _ h => by rw [chunkSet_eq, chunkSet_eq]; exact Rect.part_disjoint hdiv h
theorem chunks_cover : (Finset.univ : Finset (Fin 2048)).biUnion chunkSet = Finset.univ :=
  (Finset.biUnion_congr rfl fun i _ => chunkSet_eq i).trans (Rect.biUnion_part hdiv)

theorem inChunkSet_eq (j : Fin 2048) : inChunkSet j = (inChunk j).set :=
  View.set_slice_whole (main_v0_scv : Ref sig .scVector) (inChunk j)
theorem inChunks_disjoint : ∀ i ∈ (Finset.univ : Finset (Fin 2048)), ∀ j ∈ (Finset.univ : Finset (Fin 2048)), i ≠ j → Disjoint (inChunkSet i) (inChunkSet j) :=
  fun i _ j _ h => by rw [inChunkSet_eq, inChunkSet_eq]; exact Rect.part_disjoint hdivIn h
theorem inChunks_cover : (Finset.univ : Finset (Fin 2048)).biUnion inChunkSet = Finset.univ :=
  (Finset.biUnion_congr rfl fun i _ => inChunkSet_eq i).trans (Rect.biUnion_part hdivIn)

/-- The flat result whole is its 2048 parts, and so every tile's 64 chunks. -/
theorem out_parts (d : Dev nD) (f : Buf (Elt F) (outLoc d)) :
    (outLoc d ↦{fullShare} f : sProp 𝕄) = bigSep Finset.univ fun j : Fin 2048 => outLoc d ↦[chunkSet j]{fullShare} f := by
  rw [← pointsTo_biUnion Finset.univ (ℓ := outLoc d) chunkSet chunks_disjoint, chunks_cover]; try rfl
theorem out_chunks (d : Dev nD) (f : Buf (Elt F) (outLoc d)) :
    (outLoc d ↦{fullShare} f : sProp 𝕄)
      = bigSep Finset.univ fun c : Fin 2 => bigSep Finset.univ fun i : Fin 16 => outChunks d c i f := by
  rw [out_parts, bigSep_chunks]; rfl

/-- The flat operand whole is its 2048 parts, and so every tile's 64 chunks. -/
theorem in_parts (d : Dev nD) (f : Buf (Elt F) (inLoc d)) :
    (inLoc d ↦{fullShare} f : sProp 𝕄) = bigSep Finset.univ fun j : Fin 2048 => inLoc d ↦[inChunkSet j]{fullShare} f := by
  rw [← pointsTo_biUnion Finset.univ (ℓ := inLoc d) inChunkSet inChunks_disjoint, inChunks_cover]; try rfl
theorem in_chunks (d : Dev nD) (f : Buf (Elt F) (inLoc d)) :
    (inLoc d ↦{fullShare} f : sProp 𝕄)
      = bigSep Finset.univ fun c : Fin 2 => bigSep Finset.univ fun i : Fin 16 => inChunks d c i f := by
  rw [in_parts, bigSep_chunks]; rfl

/-! ## A SparseCore's operands to its sixteen tiles and back -/

/-- SparseCore `c`'s share of the selector splits into its sixteen tiles' read shares and a remainder kept aside until
    the tiles' shares come back; the chunks of the operand and of the result are already grouped per tile. -/
theorem coreSplit (d : Dev nD) (c : Fin 2) :
    stC m d c ⊢ |={Set.univ}=> iprop((bigSep Finset.univ fun i : Fin 16 => goT m d c i)
      ∗ ((bigSep Finset.univ fun i : Fin 16 => tdT m d c i) -∗ dnC m d c)) := by
  unfold stC dnC goT tdT
  rw [bigSep_sep', bigSep_sep', bigSep_sep', bigSep_sep']
  iintro ⟨Hin, Hsel, Hout⟩
  ihave Hsel' := (Transfers.pointsTo_toks_split (cShare c) 16) $$ Hsel
  icases Hsel' with ⟨HselR, HselT⟩
  imodintro
  isplitl [Hin HselT Hout]
  · isplitl [Hin]; · iexact Hin
    isplitl [HselT]; · iexact HselT
    iexact Hout
  iintro ⟨Hin, HselT, Hout⟩
  isplitl [Hin]; · iexact Hin
  isplitl [HselR HselT]
  · iapply (Transfers.pointsTo_toks_join (cShare c) 16); isplitl [HselR] <;> iassumption
  iexact Hout

/-! ## The call's operands from the TensorCore's arrays and back -/

/-- What the TensorCore keeps of the selector across the call: the remainder after the two SparseCores' read shares. -/
def rest (d : Dev nD) : sProp 𝕄 := selLoc d ↦{Transfers.shareDrop fullShare 2} SelV m d

/-- The flat operand, the repeated selector and the flat result, whole, are the two SparseCores' operands and the
    selector's remainder. -/
theorem st_intro (d : Dev nD) :
    iprop((inLoc d ↦{fullShare} X1 m d) ∗ (selLoc d ↦{fullShare} SelV m d) ∗ (outLoc d ↦{fullShare} m (outLoc d)))
      ⊢ iprop(rest m d ∗ bigSep Finset.univ fun c : Fin 2 => stC m d c) := by
  unfold stC rest
  rw [bigSep_sep', bigSep_sep', ← in_chunks, ← out_chunks]
  iintro ⟨Hin, Hsel, Hout⟩
  ihave Hsel' := (Transfers.pointsTo_toks_split fullShare 2) $$ Hsel
  icases Hsel' with ⟨HselR, HselT⟩
  isplitl [HselR]; · iexact HselR
  isplitl [Hin]; · iexact Hin
  isplitl [HselT]; · iexact HselT
  iexact Hout

/-- Back: the two SparseCores' results and the remainder are the three arrays whole, the flat result at the kernel's
    function. -/
theorem dn_elim (d : Dev nD) :
    iprop(rest m d ∗ bigSep Finset.univ fun c : Fin 2 => dnC m d c)
      ⊢ iprop((inLoc d ↦{fullShare} X1 m d) ∗ (selLoc d ↦{fullShare} SelV m d) ∗ (outLoc d ↦{fullShare} Y1 m d)) := by
  unfold dnC rest
  rw [bigSep_sep', bigSep_sep', ← in_chunks, ← out_chunks]
  iintro ⟨HselR, Hin, HselT, Hout⟩
  isplitl [Hin]; · iexact Hin
  isplitl [HselR HselT]
  · iapply (Transfers.pointsTo_toks_join fullShare 2); isplitl [HselR] <;> iassumption
  iexact Hout

end Cert.KernelIdeal.Hand

end
-- ==== Proof.Launch.lean ====
/-
  The run of the whole program from every tile's task: @main on the TensorCore — the operand flattened, the selector
  repeated, the one SparseCore call, the flat result reshaped —, the two sequencers and the 32 tiles. The call hands
  each SparseCore its tiles' chunks of the flat operand and of the flat result and a read share of the selector, and
  takes them back with the result's chunks at the kernel's function (element o of the flat result is element 8·o + s
  of the flat operand); reshaped, that is the selected plane. The four arguments are never written.
-/
import proofs.«203709_g27616639714075_cont_sun_c4_439_12_alg».proof.Proof.Pay
import proofs.«203709_g27616639714075_cont_sun_c4_439_12_alg».proof.Proof.FlatPlane
import proofs.«203709_g27616639714075_cont_sun_c4_439_12_alg».proof.Proof.Deal
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## @main's host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The three host operations of @main: the operand flattened, the selector repeated, the flat result reshaped. -/
abbrev opIn : HloOp τ sig (Elt F) := StableHlo.reshape main_arg0 main_v0 rfl shapeCasts_S4096x2048x8_S67108864
abbrev opSel : HloOp τ sig (Elt F) :=
  StableHlo.unary main_arg2 main_v1 (broadcastInDim S16 ![0] bcast_S1_S16_0 : (⟨S1, .i32⟩ : BufTy).Contents (Elt F) → (⟨S16, .i32⟩ : BufTy).Contents (Elt F))
abbrev opRes : HloOp τ sig (Elt F) := StableHlo.reshape main_v2 main_v3 rfl shapeCasts_S8388608_S4096x2048

/-- Two arrays of the TensorCore's, held whole at a valuation. -/
theorem held_pair (d : Dev nD) {a b : DevRef τ sig} (hab : a ≠ b) (W : Valuation τ sig (Elt F)) :
    (held (T d) {a, b} W : sProp 𝕄) = iprop(((d, a) ↦{fullShare} W a) ∗ ((d, b) ↦{fullShare} W b)) := by
  unfold held
  rw [SparseCore.bigSep_insert' (Finset.notMem_singleton.mpr hab), bigSep_singleton]

/-- The TensorCore's arrays, all unscoped: the four arguments and the four values of @main. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (a2Loc d ↦{fullShare} W main_arg2) ∗ (a3Loc d ↦{fullShare} W main_arg3) ∗ (inLoc d ↦{fullShare} W main_v0)
      ∗ (selLoc d ↦{fullShare} W main_v1) ∗ (outLoc d ↦{fullShare} W main_v2) ∗ (resLoc d ↦{fullShare} W main_v3)) := by
  unfold unscopedBufs
  rw [show (Finset.univ.filter fun b : Ref sig .tc => ¬ b.isScoped)
      = {main_arg0, main_arg1, main_arg2, main_arg3, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation; after the call, the flat result at the kernel's function. -/
def V0 (d : Dev nD) : Valuation τ sig (Elt F) := fun b => m (d, b)
def V3 (d : Dev nD) : Valuation τ sig (Elt F) := Function.update (V0 m d) v2' (Y1 m d)

theorem opIn_v0 (d : Dev nD) : (opIn (F := F)).result (V0 m d) v0' = X1 m d :=
  (StableHlo.reshape_result main_arg0 main_v0 rfl shapeCasts_S4096x2048x8_S67108864 _ _ (V0 m d)).trans rfl
theorem opIn_a0 (d : Dev nD) : (opIn (F := F)).result (V0 m d) a0' = m (a0Loc d) :=
  (opIn (F := F)).result_of_not_mem (V0 m d) (b := a0') (show a0' ∉ ({v0'} : Finset (DevRef τ sig)) by decide)
theorem opSel_v1 (d : Dev nD) : (opSel (F := F)).result (V0 m d) v1' = SelV m d :=
  (StableHlo.unary_result main_arg2 main_v1 _ _ _ (V0 m d)).trans rfl
theorem opSel_a2 (d : Dev nD) : (opSel (F := F)).result (V0 m d) a2' = m (a2Loc d) :=
  (opSel (F := F)).result_of_not_mem (V0 m d) (b := a2') (show a2' ∉ ({v1'} : Finset (DevRef τ sig)) by decide)

theorem V3_v2 (d : Dev nD) : V3 m d v2' = Y1 m d := Function.update_self _ _ _
theorem V3_v3 (d : Dev nD) : V3 m d v3' = m (resLoc d) := Function.update_of_ne (show v3' ≠ v2' by decide) _ _
theorem opRes_v3 (d : Dev nD) : (opRes (F := F)).result (V3 m d) v3' = shapeCast S4096x2048 (Y1 m d) shapeCasts_S8388608_S4096x2048 :=
  ((StableHlo.reshape_result main_v2 main_v3 rfl shapeCasts_S8388608_S4096x2048 _ _ (V3 m d)).trans rfl).trans
    (congrArg (fun f => shapeCast S4096x2048 f shapeCasts_S8388608_S4096x2048) (V3_v2 m d))
theorem opRes_v2 (d : Dev nD) : (opRes (F := F)).result (V3 m d) v2' = Y1 m d :=
  ((opRes (F := F)).result_of_not_mem (V3 m d) (b := v2') (show v2' ∉ ({v3'} : Finset (DevRef τ sig)) by decide)).trans (V3_v2 m d)

theorem held_in0 (d : Dev nD) :
    (held (T d) {a0', v0'} (V0 m d) : sProp 𝕄) = iprop((a0Loc d ↦{fullShare} m (a0Loc d)) ∗ (inLoc d ↦{fullShare} m (inLoc d))) := by
  rw [held_pair d (by decide)]; rfl
theorem held_in1 (d : Dev nD) :
    (held (T d) {a0', v0'} ((opIn (F := F)).result (V0 m d)) : sProp 𝕄) = iprop((a0Loc d ↦{fullShare} m (a0Loc d)) ∗ (inLoc d ↦{fullShare} X1 m d)) := by
  rw [held_pair d (by decide), opIn_a0, opIn_v0]
theorem held_sel0 (d : Dev nD) :
    (held (T d) {a2', v1'} (V0 m d) : sProp 𝕄) = iprop((a2Loc d ↦{fullShare} m (a2Loc d)) ∗ (selLoc d ↦{fullShare} m (selLoc d))) := by
  rw [held_pair d (by decide)]; rfl
theorem held_sel1 (d : Dev nD) :
    (held (T d) {a2', v1'} ((opSel (F := F)).result (V0 m d)) : sProp 𝕄) = iprop((a2Loc d ↦{fullShare} m (a2Loc d)) ∗ (selLoc d ↦{fullShare} SelV m d)) := by
  rw [held_pair d (by decide), opSel_a2, opSel_v1]
theorem held_res0 (d : Dev nD) :
    (held (T d) {v2', v3'} (V3 m d) : sProp 𝕄) = iprop((outLoc d ↦{fullShare} Y1 m d) ∗ (resLoc d ↦{fullShare} m (resLoc d))) := by
  rw [held_pair d (by decide), V3_v2, V3_v3]
theorem held_res1 (d : Dev nD) :
    (held (T d) {v2', v3'} ((opRes (F := F)).result (V3 m d)) : sProp 𝕄)
      = iprop((outLoc d ↦{fullShare} Y1 m d) ∗ (resLoc d ↦{fullShare} shapeCast S4096x2048 (Y1 m d) shapeCasts_S8388608_S4096x2048)) := by
  rw [held_pair d (by decide), opRes_v2, opRes_v3]

/-! ## The launch semaphores and the signature -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The payloads travel inside the handshake cells' invariants -/

instance inChunks_storable (d : Dev nD) (c : Fin 2) (i : Fin 16) (f : Buf (Elt F) (inLoc d)) :
    BI.Storable (upEmb : UEmb _ 𝕄) (inChunks d c i f) := by unfold inChunks; infer_instance
instance outChunks_storable (d : Dev nD) (c : Fin 2) (i : Fin 16) (f : Buf (Elt F) (outLoc d)) :
    BI.Storable (upEmb : UEmb _ 𝕄) (outChunks d c i f) := by unfold outChunks; infer_instance
instance goT_storable (d : Dev nD) (c : Fin 2) (i : Fin 16) : BI.Storable (upEmb : UEmb _ 𝕄) (goT m d c i) := by unfold goT; infer_instance
instance tdT_storable (d : Dev nD) (c : Fin 2) (i : Fin 16) : BI.Storable (upEmb : UEmb _ 𝕄) (tdT m d c i) := by unfold tdT; infer_instance
instance stC_storable (d : Dev nD) (c : Fin 2) : BI.Storable (upEmb : UEmb _ 𝕄) (stC m d c) := by unfold stC; infer_instance
instance dnC_storable (d : Dev nD) (c : Fin 2) : BI.Storable (upEmb : UEmb _ 𝕄) (dnC m d c) := by unfold dnC; infer_instance

instance P_storable : (P (F := F) m).IsStorable where
  st q d c := match q with | 0 => stC_storable m d _
  dn q d c := match q with | 0 => dnC_storable m d _
  go q d c i := match q with | 0 => goT_storable m d _ _
  td q d c i := match q with | 0 => tdT_storable m d _ _

/-! ## The launch theorem's split of a SparseCore's operands -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show stC m d (Fin.cast nCore_zero c) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ dnC m d (Fin.cast nCore_zero c)))
  rw [bigSep_tasks (F := F) (fun i => goT m d (Fin.cast nCore_zero c) i), bigSep_tasks (F := F) (fun i => tdT m d (Fin.cast nCore_zero c) i)]
  exact coreSplit m d _

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem st0_eq (d : Dev nD) :
    (bigSep Finset.univ fun c : Fin ((K (F := F)).nCore 0) => (P m).st 0 d c) = bigSep Finset.univ fun c : Fin 2 => stC m d c :=
  bigSep_cores (F := F) (fun c => stC m d c)
theorem dn0_eq (d : Dev nD) :
    (bigSep Finset.univ fun c : Fin ((K (F := F)).nCore 0) => (P m).dn 0 d c) = bigSep Finset.univ fun c : Fin 2 => dnC m d c :=
  bigSep_cores (F := F) (fun c => dnC m d c)

/-- What @main leaves the claim: the four arguments at their launch contents, the result at the selected plane. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (resLoc d ↦{fullShare} Cert.Sel.plane (m (a0Loc d)) (m (a2Loc d))))

/-- @main on device `d`'s TensorCore: the operand flattened and the selector repeated (two host operations, each over
    its operand and its result held whole), the call (the flat operand and the flat result cut into the tiles' chunks,
    the selector into read shares), the flat result reshaped — which is the selected plane (`flat_plane`). -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2, Hv3⟩, -, -⟩, -⟩
  -- the operand flattened
  iapply (wp_hlo_within 𝒱 (SparseCore.T d) none Set.univ (op := opIn) (S := {a0', v0'}) (Finset.Subset.refl _) (V := V0 m d)) $$ [Hb Ha0 Hv0]
  · isplitl [Hb]; · iexact Hb
    rw [held_in0]; isplitl [Ha0] <;> iassumption
  iintro ⟨Hb, Hheld⟩
  ihave Hh := (Entails.of_eq (held_in1 m d)) $$ Hheld
  icases Hh with ⟨Ha0, Hv0⟩
  rw [wp_ret]; imodintro
  -- the selector repeated
  iapply (wp_hlo_within 𝒱 (SparseCore.T d) none Set.univ (op := opSel) (S := {a2', v1'}) (Finset.Subset.refl _) (V := V0 m d)) $$ [Hb Ha2 Hv1]
  · isplitl [Hb]; · iexact Hb
    rw [held_sel0]; isplitl [Ha2] <;> iassumption
  iintro ⟨Hb, Hheld⟩
  ihave Hh := (Entails.of_eq (held_sel1 m d)) $$ Hheld
  icases Hh with ⟨Ha2, Hv1⟩
  rw [wp_ret]; imodintro
  -- the call
  ihave Hops := (st_intro m d) $$ [Hv0 Hv1 Hv2]
  · isplitl [Hv0]; · iexact Hv0
    isplitl [Hv1] <;> iassumption
  icases Hops with ⟨Hrest, Hsts⟩
  iapply ((K (F := F)).wp_run (D (F := F)) 𝒱 (EH := EH) (P := P m) κ d 0) $$ [Hst Hsts Hrest Hb Ha0 Ha1 Ha2 Ha3 Hv3]
  isplitr; · iexact Hctx
  isplitl [Hst]; · iexact Hst
  isplitl [Hsts]
  · rw [st0_eq]; iexact Hsts
  iintro ⟨Hst, Hdn⟩
  ihave Hdn' := (Entails.of_eq (dn0_eq m d)) $$ Hdn
  ihave Hback := (dn_elim m d) $$ [Hrest Hdn']
  · isplitl [Hrest] <;> iassumption
  icases Hback with ⟨-, -, Hv2⟩
  -- the flat result reshaped
  iapply (wp_hlo_within 𝒱 (SparseCore.T d) none Set.univ (op := opRes) (S := {v2', v3'}) (Finset.Subset.refl _) (V := V3 m d)) $$ [Hb Hv2 Hv3]
  · isplitl [Hb]; · iexact Hb
    rw [held_res0]; isplitl [Hv2] <;> iassumption
  iintro ⟨Hb, Hheld⟩
  ihave Hh := (Entails.of_eq (held_res1 m d)) $$ Hheld
  icases Hh with ⟨-, Hv3⟩
  rw [wp_ret]; imodintro; imodintro
  isplitl [Hst]; · iexact Hst
  rw [flat_plane]
  isplitl [Ha0]; · iexact Ha0
  isplitl [Ha1]; · iexact Ha1
  isplitl [Ha2]; · iexact Ha2
  isplitl [Ha3]; · iexact Ha3
  iexact Hv3

/-! ## What the final memory says -/

def fq (d : Dev nD) (s' : Phys nD τ sig (Elt F)) : Prop :=
  s'.mem.mem (resLoc d) = Cert.Sel.plane (m (a0Loc d)) (m (a2Loc d))
    ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨H0, H1, H2, H3, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := resLoc d) (I := Finset.univ) (q := fullShare)
    (f := Cert.Sel.plane (m (a0Loc d)) (m (a2Loc d)))) $$ [HSI Hr]
  · isplitl [HSI] <;> iassumption
  icases H with %hr
  ipureintro
  exact ⟨funext fun i => hr i (Finset.mem_univ i), funext fun i => h0 i (Finset.mem_univ i), funext fun i => h1 i (Finset.mem_univ i),
    funext fun i => h2 i (Finset.mem_univ i), funext fun i => h3 i (Finset.mem_univ i)⟩

/-! ## The program's run -/

theorem run_main [∀ e, Nonempty (Elt F e)] (hpre : PreOK m)
    (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KernelIdeal.Hand

end
-- ==== Proof.KPay.lean ====
/-
  The kernel side's shared vocabulary: the program as the SparseCore launch theorem sees it, the ghost state
  (the handshakes' rounds beside the local transfers' counters), the arrays after @main's two host operations
  (the operand flattened to one axis, the selector word repeated sixteen times), what the kernel leaves in the
  flat result, and what the one SparseCore call hands each SparseCore and each of its sixteen tiles and takes back.

  The mathematics. Write w = 2·i + c for tile i of SparseCore c (the kernel's own worker number). Worker w owns
  tokens 128·w … 128·w + 127, in 64 chunks of two tokens: chunk k of worker w is elements
  4096·(64·w + k) … +4095 of the flat result, i.e. part 64·w + k of its 2048 equal parts. Element o of the flat
  result is element 8·o + s of the flat operand (s the selector), so chunk j of the result (4096 elements) is read
  out of part j of the operand's 2048 equal parts (32768 elements). The selector is only read: every tile holds a
  read share of it, whole; of the operand and of the result a tile holds exactly its own 64 chunks.
-/
import proofs.«203709_g27616639714075_cont_sun_c4_439_12_alg».proof.Kernel
import proofs.«203709_g27616639714075_cont_sun_c4_439_12_alg».proof.Proof.Gen.Kernel
import proofs.«203709_g27616639714075_cont_sun_c4_439_12_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the local transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The four arguments, the flat operand, the repeated selector, the flat result and the result, on device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev inLoc (d : Dev nD) : Loc nD τ sig := (SparseCore.T d).loc main_v0
abbrev selLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

/-- What the proof asks of the launch memory: the selector word names one of the eight planes. -/
def PreOK : Prop := ∀ d : Dev nD, (m (a2Loc d) (ValueIdx.ix1 0)).toNat ≤ 7

/-- The operand flattened (what @main's first reshape writes) and the selector repeated (its broadcast). -/
def X1 (d : Dev nD) : Buf (Elt F) (inLoc d) := shapeCast S67108864 (m (a0Loc d)) shapeCasts_S4096x2048x8_S67108864
def SelV (d : Dev nD) : Buf (Elt F) (selLoc d) := broadcastInDim S16 ![0] bcast_S1_S16_0 (m (a2Loc d))

/-- The selector as a number, capped at 7 (the word itself under `PreOK`). -/
def selN (d : Dev nD) : ℕ := (Cert.Sel.pos (m (a2Loc d))).val
theorem selN_lt (d : Dev nD) : selN m d < 8 := (Cert.Sel.pos (m (a2Loc d))).isLt

/-- Where element `o` of the flat result comes from in the flat operand: `8·o + s`. -/
def srcIx (s : ℕ) (hs : s < 8) (o : S8388608.Idx) : S67108864.Idx :=
  ValueIdx.ix1 (⟨8 * (o 0).val + s, by have : (o 0).val < 8388608 := (o 0).isLt; omega⟩ : Fin 67108864)

/-- What the kernel leaves in the flat result. -/
def Y1 (d : Dev nD) : Buf (Elt F) (outLoc d) := fun o => X1 m d (srcIx (selN m d) (selN_lt m d) o)

/-! ## The result's chunks and the read shares -/

theorem hdiv : 2048 ∣ S8388608.size 0 := ⟨4096, rfl⟩
theorem hdivIn : 2048 ∣ S67108864.size 0 := ⟨32768, rfl⟩
/-- Part `j` of the flat operand's 2048 equal parts (32768 elements each): what chunk `j` of the result is read from. -/
abbrev inChunk (j : Fin 2048) : Rect S67108864 := Rect.part (s := S67108864) (a₀ := 0) hdivIn j
abbrev inChunkSet (j : Fin 2048) : Finset S67108864.Idx :=
  ((Memref.whole main_v0_scv : Memref sig .scVector .hbm S67108864 .f32).view.slice (inChunk j)).set
/-- Part `j` of the flat result's 2048 equal parts (4096 elements each). -/
abbrev chunk (j : Fin 2048) : Rect S8388608 := Rect.part (s := S8388608) (a₀ := 0) hdiv j
abbrev chunkSet (j : Fin 2048) : Finset S8388608.Idx :=
  ((Memref.whole main_v2_scv : Memref sig .scVector .hbm S8388608 .f32).view.slice (chunk j)).set

/-- Tile `i` of SparseCore `c` is worker `2·i + c`; its chunk `k` is part `64·(2·i + c) + k`. -/
def chunkIx (c : Fin 2) (i : Fin 16) (k : Fin 64) : Fin 2048 :=
  ⟨64 * (2 * i.val + c.val) + k.val, by have := c.isLt; have := i.isLt; have := k.isLt; omega⟩

/-- The read share of SparseCore `c`, and of its tile `i`. -/
abbrev cShare (c : Fin 2) : PosShare TreeShare := Transfers.shareTok fullShare 2 c
abbrev tShare (c : Fin 2) (i : Fin 16) : PosShare TreeShare := Transfers.shareTok (cShare c) 16 i

variable [FloatOps F]

/-- A tile's 64 chunks of the flat operand, at contents `f`. -/
def inChunks (d : Dev nD) (c : Fin 2) (i : Fin 16) (f : Buf (Elt F) (inLoc d)) : sProp 𝕄 :=
  bigSep Finset.univ fun k : Fin 64 => inLoc d ↦[inChunkSet (chunkIx c i k)]{fullShare} f

/-- A tile's 64 chunks of the flat result, at contents `f`. -/
def outChunks (d : Dev nD) (c : Fin 2) (i : Fin 16) (f : Buf (Elt F) (outLoc d)) : sProp 𝕄 :=
  bigSep Finset.univ fun k : Fin 64 => outLoc d ↦[chunkSet (chunkIx c i k)]{fullShare} f

/-- What a tile is handed: its chunks of the flat operand, a read share of the selector, and its chunks of the
    result as the launch left them; what it hands back: the same, its chunks of the result at the kernel's function. -/
def goT (d : Dev nD) (c : Fin 2) (i : Fin 16) : sProp 𝕄 :=
  iprop(inChunks d c i (X1 m d) ∗ (selLoc d ↦{tShare c i} SelV m d) ∗ outChunks d c i (m (outLoc d)))
def tdT (d : Dev nD) (c : Fin 2) (i : Fin 16) : sProp 𝕄 :=
  iprop(inChunks d c i (X1 m d) ∗ (selLoc d ↦{tShare c i} SelV m d) ∗ outChunks d c i (Y1 m d))

/-- What a SparseCore is handed and hands back: its sixteen tiles' chunks of the operand, its share of the selector,
    and its sixteen tiles' chunks of the result. -/
def stC (d : Dev nD) (c : Fin 2) : sProp 𝕄 :=
  iprop((bigSep Finset.univ fun i : Fin 16 => inChunks d c i (X1 m d)) ∗ (selLoc d ↦{cShare c} SelV m d)
    ∗ bigSep Finset.univ fun i : Fin 16 => outChunks d c i (m (outLoc d)))
def dnC (d : Dev nD) (c : Fin 2) : sProp 𝕄 :=
  iprop((bigSep Finset.univ fun i : Fin 16 => inChunks d c i (X1 m d)) ∗ (selLoc d ↦{cShare c} SelV m d)
    ∗ bigSep Finset.univ fun i : Fin 16 => outChunks d c i (Y1 m d))

/-- The one call's payloads. The kernel has no protocol of its own with other threads. -/
def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

/-- What the run leaves, for the claims: the result is the selected plane, the arguments are unchanged. -/
def QC : PUnit × MemSt nD τ sig (Elt F) → Prop := fun r => ∀ c : Dev nD,
  r.2.mem (resLoc c) = Cert.Sel.plane (m (a0Loc c)) (m (a2Loc c))
    ∧ r.2.mem (a0Loc c) = m (a0Loc c) ∧ r.2.mem (a1Loc c) = m (a1Loc c)
    ∧ r.2.mem (a2Loc c) = m (a2Loc c) ∧ r.2.mem (a3Loc c) = m (a3Loc c)

end Cert.Kernel.Hand

end
-- ==== Proof.KFlatPlane.lean ====
/-
  The value equation. The flat result read at shape [4096, 2048] is the selected plane of the operand.

  Row-major positions: entry (t, q) of the reshaped result is element t·2048 + q of the flat result; the kernel's
  function puts there element 8·(t·2048 + q) + s of the flat operand (s the selector, capped at 7); and that is
  entry (t, q, s) of the operand, whose row-major position is (t·2048 + q)·8 + s.
-/
import proofs.«203709_g27616639714075_cont_sun_c4_439_12_alg».proof.Proof.KPay
import Idealize.ShloMosaic.Lib.Pipeline.Value
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The flat result at the kernel's function, reshaped, is the selected plane. -/
theorem flat_plane (d : Dev nD) :
    shapeCast S4096x2048 (Y1 m d) shapeCasts_S8388608_S4096x2048 = Cert.Sel.plane (m (a0Loc d)) (m (a2Loc d)) := by
  funext j
  have h0 : (j 0).val < 4096 := (j 0).isLt
  have h1 : (j 1).val < 2048 := (j 1).isLt
  have ho : (j 0).val * 2048 + (j 1).val < 8388608 := by omega
  -- entry (t, q) of the reshaped result is element t·2048 + q of the flat one
  have e1 : (S8388608.rowMajor (ValueIdx.ix1 (⟨(j 0).val * 2048 + (j 1).val, ho⟩ : Fin 8388608))).val = (S4096x2048.rowMajor j).val := by
    rw [Shape.rowMajor_val_one, Shape.rowMajor_val_two]; rfl
  -- element 8·(t·2048 + q) + s of the flat operand is entry (t, q, s) of the operand
  have e2 : (S4096x2048x8.rowMajor (ValueIdx.ix3 (j 0) (j 1) (Cert.Sel.pos (m (a2Loc d))))).val
      = (S67108864.rowMajor (srcIx (selN m d) (selN_lt m d) (ValueIdx.ix1 (⟨(j 0).val * 2048 + (j 1).val, ho⟩ : Fin 8388608)))).val := by
    rw [Shape.rowMajor_val_three, Shape.rowMajor_val_one]
    show ((j 0).val * 2048 + (j 1).val) * 8 + (Cert.Sel.pos (m (a2Loc d))).val
      = 8 * ((j 0).val * 2048 + (j 1).val) + (Cert.Sel.pos (m (a2Loc d))).val
    omega
  calc shapeCast S4096x2048 (Y1 m d) shapeCasts_S8388608_S4096x2048 j
      = Y1 m d (ValueIdx.ix1 (⟨(j 0).val * 2048 + (j 1).val, ho⟩ : Fin 8388608)) :=
        shapeCast_apply (s := S8388608) (t := S4096x2048) (Y1 m d) shapeCasts_S8388608_S4096x2048 j _ e1
    _ = m (a0Loc d) (ValueIdx.ix3 (j 0) (j 1) (Cert.Sel.pos (m (a2Loc d)))) :=
        shapeCast_apply (s := S4096x2048x8) (t := S67108864) (m (a0Loc d)) shapeCasts_S4096x2048x8_S67108864 _ _ e2
    _ = Cert.Sel.plane (m (a0Loc d)) (m (a2Loc d)) j := rfl

end Cert.Kernel.Hand

end
-- ==== Proof.KDeal.lean ====
/-
  The arrays cut for the call. The flat operand and the flat result are each 2048 equal parts; part 64·(2·i + c) + k
  is chunk k of tile i of SparseCore c, and (c, i, k) ↦ 64·(2·i + c) + k is a bijection onto the 2048 parts, so an array
  held whole is every tile's 64 chunks, and back. The selector is only read: each SparseCore takes a read share of it,
  each tile a read share of its SparseCore's, the remainders kept aside until the shares come back.
-/
import proofs.«203709_g27616639714075_cont_sun_c4_439_12_alg».proof.Proof.KPay
import Idealize.ShloMosaic.Lib.Transfers

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The 2048 parts of the flat operand and of the flat result, regrouped by SparseCore, tile and chunk number -/

/-- `(c, i, k) ↦ 64·(2·i + c) + k` is a bijection onto the 2048 parts: `i = j / 128`, `c = (j / 64) mod 2`, `k = j mod 64`. -/
def chunkEquiv : Fin 2 × Fin 16 × Fin 64 ≃ Fin 2048 where
  toFun p := chunkIx p.1 p.2.1 p.2.2
  invFun j := (⟨(j.val / 64) % 2, by omega⟩, ⟨j.val / 128, by have := j.isLt; omega⟩, ⟨j.val % 64, by omega⟩)
  left_inv := by
    rintro ⟨c, i, k⟩
    have := c.isLt; have := i.isLt; have := k.isLt
    refine Prod.ext (Fin.ext ?_) (Prod.ext (Fin.ext ?_) (Fin.ext ?_)) <;> simp only [chunkIx] <;> omega
  right_inv := by
    intro j; have := j.isLt
    refine Fin.ext ?_; simp only [chunkIx]; omega

/-- A family over the 2048 parts, regrouped. -/
theorem bigSep_chunks (Φ : Fin 2048 → sProp 𝕄) :
    bigSep Finset.univ Φ
      = bigSep Finset.univ fun c : Fin 2 => bigSep Finset.univ fun i : Fin 16 => bigSep Finset.univ fun k : Fin 64 => Φ (chunkIx c i k) := by
  rw [bigSep_univ_equiv chunkEquiv Φ, bigSep_univ_prod]
  refine bigSep_congr fun c _ => ?_
  rw [bigSep_univ_prod]
  rfl

theorem chunkSet_eq (j : Fin 2048) : chunkSet j = (chunk j).set :=
  View.set_slice_whole (main_v2_scv : Ref sig .scVector) (chunk j)
theorem chunks_disjoint : ∀ i ∈ (Finset.univ : Finset (Fin 2048)), ∀ j ∈ (Finset.univ : Finset (Fin 2048)), i ≠ j → Disjoint (chunkSet i) (chunkSet j) :=
  fun i _ j _ h => by rw [chunkSet_eq, chunkSet_eq]; exact Rect.part_disjoint hdiv h
theorem chunks_cover : (Finset.univ : Finset (Fin 2048)).biUnion chunkSet = Finset.univ :=
  (Finset.biUnion_congr rfl fun i _ => chunkSet_eq i).trans (Rect.biUnion_part hdiv)

theorem inChunkSet_eq (j : Fin 2048) : inChunkSet j = (inChunk j).set :=
  View.set_slice_whole (main_v0_scv : Ref sig .scVector) (inChunk j)
theorem inChunks_disjoint : ∀ i ∈ (Finset.univ : Finset (Fin 2048)), ∀ j ∈ (Finset.univ : Finset (Fin 2048)), i ≠ j → Disjoint (inChunkSet i) (inChunkSet j) :=
  fun i _ j _ h => by rw [inChunkSet_eq, inChunkSet_eq]; exact Rect.part_disjoint hdivIn h
theorem inChunks_cover : (Finset.univ : Finset (Fin 2048)).biUnion inChunkSet = Finset.univ :=
  (Finset.biUnion_congr rfl fun i _ => inChunkSet_eq i).trans (Rect.biUnion_part hdivIn)

/-- The flat result whole is its 2048 parts, and so every tile's 64 chunks. -/
theorem out_parts (d : Dev nD) (f : Buf (Elt F) (outLoc d)) :
    (outLoc d ↦{fullShare} f : sProp 𝕄) = bigSep Finset.univ fun j : Fin 2048 => outLoc d ↦[chunkSet j]{fullShare} f := by
  rw [← pointsTo_biUnion Finset.univ (ℓ := outLoc d) chunkSet chunks_disjoint, chunks_cover]; try rfl
theorem out_chunks (d : Dev nD) (f : Buf (Elt F) (outLoc d)) :
    (outLoc d ↦{fullShare} f : sProp 𝕄)
      = bigSep Finset.univ fun c : Fin 2 => bigSep Finset.univ fun i : Fin 16 => outChunks d c i f := by
  rw [out_parts, bigSep_chunks]; rfl

/-- The flat operand whole is its 2048 parts, and so every tile's 64 chunks. -/
theorem in_parts (d : Dev nD) (f : Buf (Elt F) (inLoc d)) :
    (inLoc d ↦{fullShare} f : sProp 𝕄) = bigSep Finset.univ fun j : Fin 2048 => inLoc d ↦[inChunkSet j]{fullShare} f := by
  rw [← pointsTo_biUnion Finset.univ (ℓ := inLoc d) inChunkSet inChunks_disjoint, inChunks_cover]; try rfl
theorem in_chunks (d : Dev nD) (f : Buf (Elt F) (inLoc d)) :
    (inLoc d ↦{fullShare} f : sProp 𝕄)
      = bigSep Finset.univ fun c : Fin 2 => bigSep Finset.univ fun i : Fin 16 => inChunks d c i f := by
  rw [in_parts, bigSep_chunks]; rfl

/-! ## A SparseCore's operands to its sixteen tiles and back -/

/-- SparseCore `c`'s share of the selector splits into its sixteen tiles' read shares and a remainder kept aside until
    the tiles' shares come back; the chunks of the operand and of the result are already grouped per tile. -/
theorem coreSplit (d : Dev nD) (c : Fin 2) :
    stC m d c ⊢ |={Set.univ}=> iprop((bigSep Finset.univ fun i : Fin 16 => goT m d c i)
      ∗ ((bigSep Finset.univ fun i : Fin 16 => tdT m d c i) -∗ dnC m d c)) := by
  unfold stC dnC goT tdT
  rw [bigSep_sep', bigSep_sep', bigSep_sep', bigSep_sep']
  iintro ⟨Hin, Hsel, Hout⟩
  ihave Hsel' := (Transfers.pointsTo_toks_split (cShare c) 16) $$ Hsel
  icases Hsel' with ⟨HselR, HselT⟩
  imodintro
  isplitl [Hin HselT Hout]
  · isplitl [Hin]; · iexact Hin
    isplitl [HselT]; · iexact HselT
    iexact Hout
  iintro ⟨Hin, HselT, Hout⟩
  isplitl [Hin]; · iexact Hin
  isplitl [HselR HselT]
  · iapply (Transfers.pointsTo_toks_join (cShare c) 16); isplitl [HselR] <;> iassumption
  iexact Hout

/-! ## The call's operands from the TensorCore's arrays and back -/

/-- What the TensorCore keeps of the selector across the call: the remainder after the two SparseCores' read shares. -/
def rest (d : Dev nD) : sProp 𝕄 := selLoc d ↦{Transfers.shareDrop fullShare 2} SelV m d

/-- The flat operand, the repeated selector and the flat result, whole, are the two SparseCores' operands and the
    selector's remainder. -/
theorem st_intro (d : Dev nD) :
    iprop((inLoc d ↦{fullShare} X1 m d) ∗ (selLoc d ↦{fullShare} SelV m d) ∗ (outLoc d ↦{fullShare} m (outLoc d)))
      ⊢ iprop(rest m d ∗ bigSep Finset.univ fun c : Fin 2 => stC m d c) := by
  unfold stC rest
  rw [bigSep_sep', bigSep_sep', ← in_chunks, ← out_chunks]
  iintro ⟨Hin, Hsel, Hout⟩
  ihave Hsel' := (Transfers.pointsTo_toks_split fullShare 2) $$ Hsel
  icases Hsel' with ⟨HselR, HselT⟩
  isplitl [HselR]; · iexact HselR
  isplitl [Hin]; · iexact Hin
  isplitl [HselT]; · iexact HselT
  iexact Hout

/-- Back: the two SparseCores' results and the remainder are the three arrays whole, the flat result at the kernel's
    function. -/
theorem dn_elim (d : Dev nD) :
    iprop(rest m d ∗ bigSep Finset.univ fun c : Fin 2 => dnC m d c)
      ⊢ iprop((inLoc d ↦{fullShare} X1 m d) ∗ (selLoc d ↦{fullShare} SelV m d) ∗ (outLoc d ↦{fullShare} Y1 m d)) := by
  unfold dnC rest
  rw [bigSep_sep', bigSep_sep', ← in_chunks, ← out_chunks]
  iintro ⟨HselR, Hin, HselT, Hout⟩
  isplitl [Hin]; · iexact Hin
  isplitl [HselR HselT]
  · iapply (Transfers.pointsTo_toks_join fullShare 2); isplitl [HselR] <;> iassumption
  iexact Hout

end Cert.Kernel.Hand

end
-- ==== Proof.KLaunch.lean ====
/-
  The run of the whole program from every tile's task: @main on the TensorCore — the operand flattened, the selector
  repeated, the one SparseCore call, the flat result reshaped —, the two sequencers and the 32 tiles. The call hands
  each SparseCore its tiles' chunks of the flat operand and of the flat result and a read share of the selector, and
  takes them back with the result's chunks at the kernel's function (element o of the flat result is element 8·o + s
  of the flat operand); reshaped, that is the selected plane. The four arguments are never written.
-/
import proofs.«203709_g27616639714075_cont_sun_c4_439_12_alg».proof.Proof.KPay
import proofs.«203709_g27616639714075_cont_sun_c4_439_12_alg».proof.Proof.KFlatPlane
import proofs.«203709_g27616639714075_cont_sun_c4_439_12_alg».proof.Proof.KDeal
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## @main's host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The three host operations of @main: the operand flattened, the selector repeated, the flat result reshaped. -/
abbrev opIn : HloOp τ sig (Elt F) := StableHlo.reshape main_arg0 main_v0 rfl shapeCasts_S4096x2048x8_S67108864
abbrev opSel : HloOp τ sig (Elt F) :=
  StableHlo.unary main_arg2 main_v1 (broadcastInDim S16 ![0] bcast_S1_S16_0 : (⟨S1, .i32⟩ : BufTy).Contents (Elt F) → (⟨S16, .i32⟩ : BufTy).Contents (Elt F))
abbrev opRes : HloOp τ sig (Elt F) := StableHlo.reshape main_v2 main_v3 rfl shapeCasts_S8388608_S4096x2048

/-- Two arrays of the TensorCore's, held whole at a valuation. -/
theorem held_pair (d : Dev nD) {a b : DevRef τ sig} (hab : a ≠ b) (W : Valuation τ sig (Elt F)) :
    (held (T d) {a, b} W : sProp 𝕄) = iprop(((d, a) ↦{fullShare} W a) ∗ ((d, b) ↦{fullShare} W b)) := by
  unfold held
  rw [SparseCore.bigSep_insert' (Finset.notMem_singleton.mpr hab), bigSep_singleton]

/-- The TensorCore's arrays, all unscoped: the four arguments and the four values of @main. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (a2Loc d ↦{fullShare} W main_arg2) ∗ (a3Loc d ↦{fullShare} W main_arg3) ∗ (inLoc d ↦{fullShare} W main_v0)
      ∗ (selLoc d ↦{fullShare} W main_v1) ∗ (outLoc d ↦{fullShare} W main_v2) ∗ (resLoc d ↦{fullShare} W main_v3)) := by
  unfold unscopedBufs
  rw [show (Finset.univ.filter fun b : Ref sig .tc => ¬ b.isScoped)
      = {main_arg0, main_arg1, main_arg2, main_arg3, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation; after the call, the flat result at the kernel's function. -/
def V0 (d : Dev nD) : Valuation τ sig (Elt F) := fun b => m (d, b)
def V3 (d : Dev nD) : Valuation τ sig (Elt F) := Function.update (V0 m d) v2' (Y1 m d)

theorem opIn_v0 (d : Dev nD) : (opIn (F := F)).result (V0 m d) v0' = X1 m d :=
  (StableHlo.reshape_result main_arg0 main_v0 rfl shapeCasts_S4096x2048x8_S67108864 _ _ (V0 m d)).trans rfl
theorem opIn_a0 (d : Dev nD) : (opIn (F := F)).result (V0 m d) a0' = m (a0Loc d) :=
  (opIn (F := F)).result_of_not_mem (V0 m d) (b := a0') (show a0' ∉ ({v0'} : Finset (DevRef τ sig)) by decide)
theorem opSel_v1 (d : Dev nD) : (opSel (F := F)).result (V0 m d) v1' = SelV m d :=
  (StableHlo.unary_result main_arg2 main_v1 _ _ _ (V0 m d)).trans rfl
theorem opSel_a2 (d : Dev nD) : (opSel (F := F)).result (V0 m d) a2' = m (a2Loc d) :=
  (opSel (F := F)).result_of_not_mem (V0 m d) (b := a2') (show a2' ∉ ({v1'} : Finset (DevRef τ sig)) by decide)

theorem V3_v2 (d : Dev nD) : V3 m d v2' = Y1 m d := Function.update_self _ _ _
theorem V3_v3 (d : Dev nD) : V3 m d v3' = m (resLoc d) := Function.update_of_ne (show v3' ≠ v2' by decide) _ _
theorem opRes_v3 (d : Dev nD) : (opRes (F := F)).result (V3 m d) v3' = shapeCast S4096x2048 (Y1 m d) shapeCasts_S8388608_S4096x2048 :=
  ((StableHlo.reshape_result main_v2 main_v3 rfl shapeCasts_S8388608_S4096x2048 _ _ (V3 m d)).trans rfl).trans
    (congrArg (fun f => shapeCast S4096x2048 f shapeCasts_S8388608_S4096x2048) (V3_v2 m d))
theorem opRes_v2 (d : Dev nD) : (opRes (F := F)).result (V3 m d) v2' = Y1 m d :=
  ((opRes (F := F)).result_of_not_mem (V3 m d) (b := v2') (show v2' ∉ ({v3'} : Finset (DevRef τ sig)) by decide)).trans (V3_v2 m d)

theorem held_in0 (d : Dev nD) :
    (held (T d) {a0', v0'} (V0 m d) : sProp 𝕄) = iprop((a0Loc d ↦{fullShare} m (a0Loc d)) ∗ (inLoc d ↦{fullShare} m (inLoc d))) := by
  rw [held_pair d (by decide)]; rfl
theorem held_in1 (d : Dev nD) :
    (held (T d) {a0', v0'} ((opIn (F := F)).result (V0 m d)) : sProp 𝕄) = iprop((a0Loc d ↦{fullShare} m (a0Loc d)) ∗ (inLoc d ↦{fullShare} X1 m d)) := by
  rw [held_pair d (by decide), opIn_a0, opIn_v0]
theorem held_sel0 (d : Dev nD) :
    (held (T d) {a2', v1'} (V0 m d) : sProp 𝕄) = iprop((a2Loc d ↦{fullShare} m (a2Loc d)) ∗ (selLoc d ↦{fullShare} m (selLoc d))) := by
  rw [held_pair d (by decide)]; rfl
theorem held_sel1 (d : Dev nD) :
    (held (T d) {a2', v1'} ((opSel (F := F)).result (V0 m d)) : sProp 𝕄) = iprop((a2Loc d ↦{fullShare} m (a2Loc d)) ∗ (selLoc d ↦{fullShare} SelV m d)) := by
  rw [held_pair d (by decide), opSel_a2, opSel_v1]
theorem held_res0 (d : Dev nD) :
    (held (T d) {v2', v3'} (V3 m d) : sProp 𝕄) = iprop((outLoc d ↦{fullShare} Y1 m d) ∗ (resLoc d ↦{fullShare} m (resLoc d))) := by
  rw [held_pair d (by decide), V3_v2, V3_v3]
theorem held_res1 (d : Dev nD) :
    (held (T d) {v2', v3'} ((opRes (F := F)).result (V3 m d)) : sProp 𝕄)
      = iprop((outLoc d ↦{fullShare} Y1 m d) ∗ (resLoc d ↦{fullShare} shapeCast S4096x2048 (Y1 m d) shapeCasts_S8388608_S4096x2048)) := by
  rw [held_pair d (by decide), opRes_v2, opRes_v3]

/-! ## The launch semaphores and the signature -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The payloads travel inside the handshake cells' invariants -/

instance inChunks_storable (d : Dev nD) (c : Fin 2) (i : Fin 16) (f : Buf (Elt F) (inLoc d)) :
    BI.Storable (upEmb : UEmb _ 𝕄) (inChunks d c i f) := by unfold inChunks; infer_instance
instance outChunks_storable (d : Dev nD) (c : Fin 2) (i : Fin 16) (f : Buf (Elt F) (outLoc d)) :
    BI.Storable (upEmb : UEmb _ 𝕄) (outChunks d c i f) := by unfold outChunks; infer_instance
instance goT_storable (d : Dev nD) (c : Fin 2) (i : Fin 16) : BI.Storable (upEmb : UEmb _ 𝕄) (goT m d c i) := by unfold goT; infer_instance
instance tdT_storable (d : Dev nD) (c : Fin 2) (i : Fin 16) : BI.Storable (upEmb : UEmb _ 𝕄) (tdT m d c i) := by unfold tdT; infer_instance
instance stC_storable (d : Dev nD) (c : Fin 2) : BI.Storable (upEmb : UEmb _ 𝕄) (stC m d c) := by unfold stC; infer_instance
instance dnC_storable (d : Dev nD) (c : Fin 2) : BI.Storable (upEmb : UEmb _ 𝕄) (dnC m d c) := by unfold dnC; infer_instance

instance P_storable : (P (F := F) m).IsStorable where
  st q d c := match q with | 0 => stC_storable m d _
  dn q d c := match q with | 0 => dnC_storable m d _
  go q d c i := match q with | 0 => goT_storable m d _ _
  td q d c i := match q with | 0 => tdT_storable m d _ _

/-! ## The launch theorem's split of a SparseCore's operands -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show stC m d (Fin.cast nCore_zero c) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ dnC m d (Fin.cast nCore_zero c)))
  rw [bigSep_tasks (F := F) (fun i => goT m d (Fin.cast nCore_zero c) i), bigSep_tasks (F := F) (fun i => tdT m d (Fin.cast nCore_zero c) i)]
  exact coreSplit m d _

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem st0_eq (d : Dev nD) :
    (bigSep Finset.univ fun c : Fin ((K (F := F)).nCore 0) => (P m).st 0 d c) = bigSep Finset.univ fun c : Fin 2 => stC m d c :=
  bigSep_cores (F := F) (fun c => stC m d c)
theorem dn0_eq (d : Dev nD) :
    (bigSep Finset.univ fun c : Fin ((K (F := F)).nCore 0) => (P m).dn 0 d c) = bigSep Finset.univ fun c : Fin 2 => dnC m d c :=
  bigSep_cores (F := F) (fun c => dnC m d c)

/-- What @main leaves the claim: the four arguments at their launch contents, the result at the selected plane. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (resLoc d ↦{fullShare} Cert.Sel.plane (m (a0Loc d)) (m (a2Loc d))))

/-- @main on device `d`'s TensorCore: the operand flattened and the selector repeated (two host operations, each over
    its operand and its result held whole), the call (the flat operand and the flat result cut into the tiles' chunks,
    the selector into read shares), the flat result reshaped — which is the selected plane (`flat_plane`). -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2, Hv3⟩, -, -⟩, -⟩
  -- the operand flattened
  iapply (wp_hlo_within 𝒱 (SparseCore.T d) none Set.univ (op := opIn) (S := {a0', v0'}) (Finset.Subset.refl _) (V := V0 m d)) $$ [Hb Ha0 Hv0]
  · isplitl [Hb]; · iexact Hb
    rw [held_in0]; isplitl [Ha0] <;> iassumption
  iintro ⟨Hb, Hheld⟩
  ihave Hh := (Entails.of_eq (held_in1 m d)) $$ Hheld
  icases Hh with ⟨Ha0, Hv0⟩
  rw [wp_ret]; imodintro
  -- the selector repeated
  iapply (wp_hlo_within 𝒱 (SparseCore.T d) none Set.univ (op := opSel) (S := {a2', v1'}) (Finset.Subset.refl _) (V := V0 m d)) $$ [Hb Ha2 Hv1]
  · isplitl [Hb]; · iexact Hb
    rw [held_sel0]; isplitl [Ha2] <;> iassumption
  iintro ⟨Hb, Hheld⟩
  ihave Hh := (Entails.of_eq (held_sel1 m d)) $$ Hheld
  icases Hh with ⟨Ha2, Hv1⟩
  rw [wp_ret]; imodintro
  -- the call
  ihave Hops := (st_intro m d) $$ [Hv0 Hv1 Hv2]
  · isplitl [Hv0]; · iexact Hv0
    isplitl [Hv1] <;> iassumption
  icases Hops with ⟨Hrest, Hsts⟩
  iapply ((K (F := F)).wp_run (D (F := F)) 𝒱 (EH := EH) (P := P m) κ d 0) $$ [Hst Hsts Hrest Hb Ha0 Ha1 Ha2 Ha3 Hv3]
  isplitr; · iexact Hctx
  isplitl [Hst]; · iexact Hst
  isplitl [Hsts]
  · rw [st0_eq]; iexact Hsts
  iintro ⟨Hst, Hdn⟩
  ihave Hdn' := (Entails.of_eq (dn0_eq m d)) $$ Hdn
  ihave Hback := (dn_elim m d) $$ [Hrest Hdn']
  · isplitl [Hrest] <;> iassumption
  icases Hback with ⟨-, -, Hv2⟩
  -- the flat result reshaped
  iapply (wp_hlo_within 𝒱 (SparseCore.T d) none Set.univ (op := opRes) (S := {v2', v3'}) (Finset.Subset.refl _) (V := V3 m d)) $$ [Hb Hv2 Hv3]
  · isplitl [Hb]; · iexact Hb
    rw [held_res0]; isplitl [Hv2] <;> iassumption
  iintro ⟨Hb, Hheld⟩
  ihave Hh := (Entails.of_eq (held_res1 m d)) $$ Hheld
  icases Hh with ⟨-, Hv3⟩
  rw [wp_ret]; imodintro; imodintro
  isplitl [Hst]; · iexact Hst
  rw [flat_plane]
  isplitl [Ha0]; · iexact Ha0
  isplitl [Ha1]; · iexact Ha1
  isplitl [Ha2]; · iexact Ha2
  isplitl [Ha3]; · iexact Ha3
  iexact Hv3

/-! ## What the final memory says -/

def fq (d : Dev nD) (s' : Phys nD τ sig (Elt F)) : Prop :=
  s'.mem.mem (resLoc d) = Cert.Sel.plane (m (a0Loc d)) (m (a2Loc d))
    ∧ s'.mem.mem (a0Loc d) = m (a0Loc d) ∧ s'.mem.mem (a1Loc d) = m (a1Loc d)
    ∧ s'.mem.mem (a2Loc d) = m (a2Loc d) ∧ s'.mem.mem (a3Loc d) = m (a3Loc d)

theorem hfin (d : Dev nD) (s' : Phys nD τ sig (Elt F)) : iprop(FIN m d ∗ SI s') ⊢ (⌜fq m d s'⌝ : sProp 𝕄) := by
  iintro ⟨⟨H0, H1, H2, H3, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := resLoc d) (I := Finset.univ) (q := fullShare)
    (f := Cert.Sel.plane (m (a0Loc d)) (m (a2Loc d)))) $$ [HSI Hr]
  · isplitl [HSI] <;> iassumption
  icases H with %hr
  ipureintro
  exact ⟨funext fun i => hr i (Finset.mem_univ i), funext fun i => h0 i (Finset.mem_univ i), funext fun i => h1 i (Finset.mem_univ i),
    funext fun i => h2 i (Finset.mem_univ i), funext fun i => h3 i (Finset.mem_univ i)⟩

/-! ## The program's run -/

theorem run_main [∀ e, Nonempty (Elt F e)] (hpre : PreOK m)
    (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Kernel.Hand

end
-- ==== Proof.TileRes.lean ====
/-
  What a tile finds in its own storage: five scratch buffers (the selector's sixteen words, two chunk buffers of
  32768 elements, two result buffers of 4096) and five DMA semaphores (one per chunk buffer, one per result
  buffer, one for the selector's fetch), each counter at zero — picked out of the subcore's own buffers and cells,
  with the rest kept aside to be handed back.
-/
import proofs.«203709_g27616639714075_cont_sun_c4_439_12_alg».proof.Proof.Pay

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The tile of grid point `L`. -/
abbrev cV (L : grid0.Coords) : Fin τ.nSC := (L 0).castLE hcore0
abbrev jV (L : grid0.Coords) : Fin τ.nSub := (L 1).castLE hsub0
abbrev thrL (d : Dev nD) (L : grid0.Coords) : Thread nD τ := V d (cV L) (jV L)

/-- The worker number of the tile at grid point `L` (tile `L 1` of SparseCore `L 0`), and its chunk `j` as one of the
    2048 chunks of the flat arrays. -/
def wN (L : grid0.Coords) : ℕ := 2 * (L 1).val + (L 0).val
theorem wN_lt (L : grid0.Coords) : wN L < 32 := by
  have h0 : (L 0).val < 2 := (L 0).isLt
  have h1 : (L 1).val < 16 := (L 1).isLt
  unfold wN; omega
def chunkAt (L : grid0.Coords) (j : ℕ) (hj : j < 64) : Fin 2048 := ⟨64 * wN L + j, by have := wN_lt L; omega⟩

/-- The five semaphores, spelt as the body slices them out of its two pairs. -/
abbrev semIn0 : DmaSem sig := ((cc0_scratch5.slice (Rect.unit (s := S2) ![0] S1.size inb_S2_S1_0)).squeeze S_ squeezes_S1_S_).sem
abbrev semIn1 : DmaSem sig := ((cc0_scratch5.slice (Rect.unit (s := S2) ![1] S1.size inb_S2_S1_1)).squeeze S_ squeezes_S1_S_).sem
abbrev semOut0 : DmaSem sig := ((cc0_scratch6.slice (Rect.unit (s := S2) ![0] S1.size inb_S2_S1_0)).squeeze S_ squeezes_S1_S_).sem
abbrev semOut1 : DmaSem sig := ((cc0_scratch6.slice (Rect.unit (s := S2) ![1] S1.size inb_S2_S1_1)).squeeze S_ squeezes_S1_S_).sem
abbrev semSel : DmaSem sig := cc0_scoped0.sem

abbrev cellOf (d : Dev nD) (L : grid0.Coords) (sm : DmaSem sig) : GSem nD τ sig := (thrL d L, .dma sm)

variable (d : Dev nD) (L : grid0.Coords)

theorem cell_mem (sm : DmaSem sig) (h : (SemLoc.dma sm : SemLoc sig).isScoped .scVector = true) : cellOf d L sm ∈ ownCells (thrL d L) :=
  (mem_ownCells (g := cellOf d L sm)).mpr ⟨rfl, h⟩

theorem cell_ne {a b : DmaSem sig} (h : a ≠ b) : cellOf d L a ≠ cellOf d L b :=
  fun e => h (SemLoc.dma.inj (Prod.mk.inj e).2)

/-- The five cells at zero, and the subcore's other cells at zero. -/
theorem ownSems0_five :
    (ownSems0 (thrL d L) : sProp 𝕄)
      = iprop(semVal (cellOf d L semSel) 0 ∗ semVal (cellOf d L semIn0) 0 ∗ semVal (cellOf d L semIn1) 0
          ∗ semVal (cellOf d L semOut0) 0 ∗ semVal (cellOf d L semOut1) 0
          ∗ bigSep (((((((ownCells (thrL d L)).erase (cellOf d L semSel)).erase (cellOf d L semIn0)).erase (cellOf d L semIn1)).erase
              (cellOf d L semOut0)).erase (cellOf d L semOut1))) fun g => semVal g 0) := by
  unfold SparseCore.Cfg.ownSems0
  rw [SparseCore.bigSep_erase' (cell_mem d L semSel (by decide)),
    SparseCore.bigSep_erase' (Finset.mem_erase.mpr ⟨cell_ne d L (by decide), cell_mem d L semIn0 (by decide)⟩),
    SparseCore.bigSep_erase' (Finset.mem_erase.mpr ⟨cell_ne d L (by decide), Finset.mem_erase.mpr ⟨cell_ne d L (by decide), cell_mem d L semIn1 (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L semOut0 (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L semOut1 (by decide)⟩⟩⟩⟩)]

abbrev refOf (L : grid0.Coords) (b : Ref sig .scVector) : DevRef τ sig := (Proc.scVector (cV L) (jV L)).devRef b

theorem ref_mem (b : Ref sig .scVector) (h : (refOf L b).owner = .proc (Proc.scVector (cV L) (jV L))) : refOf L b ∈ ownRefs (τ := τ) (.scVector (cV L) (jV L)) :=
  SparseCore.Cfg.mem_ownRefs_of_owner (p := Proc.scVector (cV L) (jV L)) (b := refOf L b) h

theorem ref_ne {a b : Ref sig .scVector} (h : a ≠ b) : refOf L a ≠ refOf L b :=
  fun e => h (Proc.devRef_injective _ e)

/-- The five scratch buffers at some contents, and the subcore's other buffers. -/
theorem ownBufs_five :
    (ownBufs (thrL d L) : sProp 𝕄)
      = iprop((∃ f, (thrL d L).loc cc0_scratch0 ↦{fullShare} f) ∗ (∃ f, (thrL d L).loc cc0_scratch1 ↦{fullShare} f)
          ∗ (∃ f, (thrL d L).loc cc0_scratch2 ↦{fullShare} f) ∗ (∃ f, (thrL d L).loc cc0_scratch3 ↦{fullShare} f)
          ∗ (∃ f, (thrL d L).loc cc0_scratch4 ↦{fullShare} f)
          ∗ bigSep ((((((ownRefs (τ := τ) (.scVector (cV L) (jV L))).erase (refOf L cc0_scratch0)).erase (refOf L cc0_scratch1)).erase
              (refOf L cc0_scratch2)).erase (refOf L cc0_scratch3)).erase (refOf L cc0_scratch4))
              fun b => iprop(∃ f, ((d, b) : Loc nD τ sig) ↦{fullShare} f)) := by
  unfold SparseCore.Cfg.ownBufs
  refine (SparseCore.bigSep_erase' (ref_mem L cc0_scratch0 rfl)).trans ?_
  rw [SparseCore.bigSep_erase' (Finset.mem_erase.mpr ⟨ref_ne L (by decide), ref_mem L cc0_scratch1 rfl⟩),
    SparseCore.bigSep_erase' (Finset.mem_erase.mpr ⟨ref_ne L (by decide), Finset.mem_erase.mpr ⟨ref_ne L (by decide), ref_mem L cc0_scratch2 rfl⟩⟩),
    SparseCore.bigSep_erase' (Finset.mem_erase.mpr ⟨ref_ne L (by decide), Finset.mem_erase.mpr ⟨ref_ne L (by decide),
      Finset.mem_erase.mpr ⟨ref_ne L (by decide), ref_mem L cc0_scratch3 rfl⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide), ref_mem L cc0_scratch4 rfl⟩⟩⟩⟩)]

end Cert.KernelIdeal.Hand

end
-- ==== Proof.Piles.lean ====
/-
  A tile's chunks as piles. The body works through its 64 chunks in order, two in flight each way, so at any
  moment the chunks of the result split into those already written back (chunk numbers below some a), those in
  flight, and those not yet touched (from some b on); likewise the operand's chunks, lent to a copy and given back.
  A pile is the chunks `a ≤ j < b`, each held by exactly its own elements; taking the lowest chunk off a pile and
  putting one on top are the two moves the loop makes.
-/
import proofs.«203709_g27616639714075_cont_sun_c4_439_12_alg».proof.Proof.TileRes

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Piles over the natural numbers -/

omit F in
theorem Ico_pop_left {a b : ℕ} (h : a < b) : Finset.Ico a b = insert a (Finset.Ico (a + 1) b) := by
  ext x; simp only [Finset.mem_Ico, Finset.mem_insert]; omega
omit F in
theorem Ico_push_right {a b : ℕ} (h : a ≤ b) : Finset.Ico a (b + 1) = insert b (Finset.Ico a b) := by
  ext x; simp only [Finset.mem_Ico, Finset.mem_insert]; omega

theorem bigSep_Ico_pop_left (Φ : ℕ → sProp 𝕄) {a b : ℕ} (h : a < b) :
    bigSep (Finset.Ico a b) Φ = iprop(Φ a ∗ bigSep (Finset.Ico (a + 1) b) Φ) := by
  rw [Ico_pop_left h]
  exact SparseCore.bigSep_insert' (by simp)

theorem bigSep_Ico_push_right (Φ : ℕ → sProp 𝕄) {a b : ℕ} (h : a ≤ b) :
    bigSep (Finset.Ico a (b + 1)) Φ = iprop(Φ b ∗ bigSep (Finset.Ico a b) Φ) := by
  rw [Ico_push_right h]
  exact SparseCore.bigSep_insert' (by simp)

/-- The same with the remaining bound renamed (so that `2·k + 4 + 1` can be written `2·k + 5`). -/
theorem bigSep_Ico_pop_left' (Φ : ℕ → sProp 𝕄) {a a' b : ℕ} (h : a < b) (ha : a + 1 = a') :
    bigSep (Finset.Ico a b) Φ = iprop(Φ a ∗ bigSep (Finset.Ico a' b) Φ) := ha ▸ bigSep_Ico_pop_left Φ h

theorem bigSep_Ico_push_right' (Φ : ℕ → sProp 𝕄) {a b b' : ℕ} (h : a ≤ b) (hb : b + 1 = b') :
    bigSep (Finset.Ico a b') Φ = iprop(Φ b ∗ bigSep (Finset.Ico a b) Φ) := hb ▸ bigSep_Ico_push_right Φ h

theorem bigSep_Ico_self (Φ : ℕ → sProp 𝕄) (a : ℕ) : bigSep (Finset.Ico a a) Φ = iprop(emp) := by
  rw [Finset.Ico_self, bigSep_empty]; rfl

/-! ## A tile's chunks -/

variable (d : Dev nD) (L : grid0.Coords)

/-- Chunk `j` of the tile's operand chunks (of its result chunks) at contents `f`; nothing past the 64th. -/
def inAt (f : Buf (Elt F) (inLoc d)) (j : ℕ) : sProp 𝕄 :=
  if h : j < 64 then inLoc d ↦[inChunkSet (chunkAt L j h)]{fullShare} f else iprop(emp)
def outAt (f : Buf (Elt F) (outLoc d)) (j : ℕ) : sProp 𝕄 :=
  if h : j < 64 then outLoc d ↦[chunkSet (chunkAt L j h)]{fullShare} f else iprop(emp)

theorem inAt_lt (f : Buf (Elt F) (inLoc d)) {j : ℕ} (h : j < 64) :
    inAt d L f j = (inLoc d ↦[inChunkSet (chunkAt L j h)]{fullShare} f : sProp 𝕄) := dif_pos h
theorem outAt_lt (f : Buf (Elt F) (outLoc d)) {j : ℕ} (h : j < 64) :
    outAt d L f j = (outLoc d ↦[chunkSet (chunkAt L j h)]{fullShare} f : sProp 𝕄) := dif_pos h

/-- The chunks `a ≤ j < b`. -/
def inPile (f : Buf (Elt F) (inLoc d)) (a b : ℕ) : sProp 𝕄 := bigSep (Finset.Ico a b) (inAt d L f)
def outPile (f : Buf (Elt F) (outLoc d)) (a b : ℕ) : sProp 𝕄 := bigSep (Finset.Ico a b) (outAt d L f)

omit F in
theorem chunkAt_eq (k : Fin 64) : chunkAt L k.val k.isLt = chunkIx (L 0) (L 1) k := Fin.ext rfl

/-- All 64 of them are what the launch hands the tile. -/
theorem univ_eq_pile (Φ : ℕ → sProp 𝕄) : (bigSep Finset.univ fun k : Fin 64 => Φ k.val) = bigSep (Finset.Ico 0 64) Φ := by
  rw [← Finset.range_eq_Ico, SparseCore.Cfg.range_eq_map, bigSep_map]
  rfl

theorem inChunks_eq_pile (f : Buf (Elt F) (inLoc d)) : inChunks d (L 0) (L 1) f = inPile d L f 0 64 := by
  unfold inChunks inPile
  rw [← univ_eq_pile]
  exact bigSep_congr fun k _ => by rw [inAt_lt d L f k.isLt, chunkAt_eq]
theorem outChunks_eq_pile (f : Buf (Elt F) (outLoc d)) : outChunks d (L 0) (L 1) f = outPile d L f 0 64 := by
  unfold outChunks outPile
  rw [← univ_eq_pile]
  exact bigSep_congr fun k _ => by rw [outAt_lt d L f k.isLt, chunkAt_eq]

end Cert.KernelIdeal.Hand

end
-- ==== Proof.Slices.lean ====
/-
  The geometry under the kernel body's proof: which chunk of the flat arrays each of the program's slice memrefs
  names, what reading the operand through such a slice gives, and the arithmetic that ties a chunk of the result to
  a chunk of the operand.

  The mathematics. Write w = 2·(L 1) + (L 0) for the tile at grid point L. Every slice the body takes of the flat
  result is 4096 consecutive elements from 4096·(64·w + j), and every slice of the flat operand is 32768
  consecutive elements from 32768·(64·w + j), for a chunk number j < 64: these are part 64·w + j of the 2048 equal
  parts of the result, respectively of the operand. Local index y of the result slice sits at 4096·(64·w + j) + y,
  whose source in the operand is 8·(4096·(64·w + j) + y) + s = 32768·(64·w + j) + (8·y + s): local index 8·y + s
  of the operand slice with the same chunk number.
-/
import proofs.«203709_g27616639714075_cont_sun_c4_439_12_alg».proof.Proof.TileRes
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## A slice's rectangle is a chunk -/

/-- A one-element vector is determined by its entry. -/
theorem vec1_congr {a b : ℕ} (h : a = b) : (![a] : Fin 1 → ℕ) = ![b] := by rw [h]

/-- The program's slice memrefs: a 4096-element slice of the flat result and a 32768-element slice of the flat
    operand, at an offset function's value. -/
abbrev outS (off : Fin 1 → Nat) (inb : ∀ a, off a + S4096.size a ≤ S8388608.size a) : Memref sig .scVector .hbm S4096 .f32 :=
  (Memref.whole main_v2_scv : Memref sig .scVector .hbm S8388608 .f32).slice (Rect.unit (s := S8388608) off S4096.size inb) (fun _ => rfl)
abbrev inS (off : Fin 1 → Nat) (inb : ∀ a, off a + S32768.size a ≤ S67108864.size a) : Memref sig .scVector .hbm S32768 .f32 :=
  (Memref.whole main_v0_scv : Memref sig .scVector .hbm S67108864 .f32).slice (Rect.unit (s := S67108864) off S32768.size inb) (fun _ => rfl)

/-- 4096 consecutive elements of the flat result from 4096·(64·w + j) are part 64·w + j of its 2048 equal parts. -/
theorem outRect_eq (L : grid0.Coords) (off : Fin 1 → Nat) (inb : ∀ a, off a + S4096.size a ≤ S8388608.size a) (j : ℕ) (hj : j < 64)
    (hoff : off = ![4096 * (64 * wN L + j)]) :
    Rect.unit (s := S8388608) off S4096.size inb = chunk (chunkAt L j hj) := by
  subst hoff
  unfold chunk Rect.part Rect.block
  congr 1 <;> funext a
  · match a with
    | 0 => simp [Shape.partIx, Shape.partSize, chunkAt]; omega
  · match a with
    | 0 => simp [Shape.partSize]

/-- 32768 consecutive elements of the flat operand from 32768·(64·w + j) are part 64·w + j of its 2048 equal parts. -/
theorem inRect_eq (L : grid0.Coords) (off : Fin 1 → Nat) (inb : ∀ a, off a + S32768.size a ≤ S67108864.size a) (j : ℕ) (hj : j < 64)
    (hoff : off = ![32768 * (64 * wN L + j)]) :
    Rect.unit (s := S67108864) off S32768.size inb = inChunk (chunkAt L j hj) := by
  subst hoff
  unfold inChunk Rect.part Rect.block
  congr 1 <;> funext a
  · match a with
    | 0 => simp [Shape.partIx, Shape.partSize, chunkAt]; omega
  · match a with
    | 0 => simp [Shape.partSize]

theorem set_outS (L : grid0.Coords) (off : Fin 1 → Nat) (inb : ∀ a, off a + S4096.size a ≤ S8388608.size a) (j : ℕ) (hj : j < 64)
    (hoff : off = ![4096 * (64 * wN L + j)]) : (outS off inb).view.set = chunkSet (chunkAt L j hj) := by
  show ((Memref.whole main_v2_scv : Memref sig .scVector .hbm S8388608 .f32).view.slice (Rect.unit (s := S8388608) off S4096.size inb)).set
    = ((Memref.whole main_v2_scv : Memref sig .scVector .hbm S8388608 .f32).view.slice (chunk (chunkAt L j hj))).set
  exact outRect_eq L off inb j hj hoff ▸ rfl

theorem set_inS (L : grid0.Coords) (off : Fin 1 → Nat) (inb : ∀ a, off a + S32768.size a ≤ S67108864.size a) (j : ℕ) (hj : j < 64)
    (hoff : off = ![32768 * (64 * wN L + j)]) : (inS off inb).view.set = inChunkSet (chunkAt L j hj) := by
  show ((Memref.whole main_v0_scv : Memref sig .scVector .hbm S67108864 .f32).view.slice (Rect.unit (s := S67108864) off S32768.size inb)).set
    = ((Memref.whole main_v0_scv : Memref sig .scVector .hbm S67108864 .f32).view.slice (inChunk (chunkAt L j hj))).set
  exact inRect_eq L off inb j hj hoff ▸ rfl

theorem pts_outS (d : Dev nD) (L : grid0.Coords) (off : Fin 1 → Nat) (inb : ∀ a, off a + S4096.size a ≤ S8388608.size a) (j : ℕ) (hj : j < 64)
    (hoff : off = ![4096 * (64 * wN L + j)]) (f : Buf (Elt F) (outLoc d)) :
    ((outS off inb).view.loc (thrL d L) ↦[(outS off inb).view.set]{fullShare} f : sProp 𝕄) = outLoc d ↦[chunkSet (chunkAt L j hj)]{fullShare} f := by
  rw [set_outS L off inb j hj hoff]

theorem pts_inS (d : Dev nD) (L : grid0.Coords) (off : Fin 1 → Nat) (inb : ∀ a, off a + S32768.size a ≤ S67108864.size a) (j : ℕ) (hj : j < 64)
    (hoff : off = ![32768 * (64 * wN L + j)]) (f : Buf (Elt F) (inLoc d)) :
    ((inS off inb).view.loc (thrL d L) ↦[(inS off inb).view.set]{fullShare} f : sProp 𝕄) = inLoc d ↦[inChunkSet (chunkAt L j hj)]{fullShare} f := by
  rw [set_inS L off inb j hj hoff]

/-! ## The sixteen offsets, as chunk numbers

With w = 2·(L 1) + (L 0): 524288·(L 1) + 262144·(L 0) = 4096·64·w and 4194304·(L 1) + 2097152·(L 0) = 32768·64·w. -/

theorem off_out2 (L : grid0.Coords) : k0_off2 L = ![4096 * (64 * wN L + 0)] := by
  rw [k0_off2_eq]; exact vec1_congr (by unfold wN; omega)
theorem off_out4 (L : grid0.Coords) (r : Fin 2) :
    k0_off4 L (BitVec.ofNat 32 (4096 + 241664 * r.val)) = ![4096 * (64 * wN L + (1 + 59 * r.val))] := by
  rw [k0_off4_eq]; exact vec1_congr (by unfold wN; omega)
theorem off_out7 (L : grid0.Coords) (k : Fin k0_t1_loop.trips) : k0_off7 L k = ![4096 * (64 * wN L + 2 * k.val)] := by
  rw [k0_off7_eq]; exact vec1_congr (by unfold wN; omega)
theorem off_out8 (L : grid0.Coords) (k : Fin k0_t1_loop.trips) : k0_off8 L k = ![4096 * (64 * wN L + (2 * k.val + 2))] := by
  rw [k0_off8_eq]; exact vec1_congr (by unfold wN; omega)
theorem off_out11 (L : grid0.Coords) (k : Fin k0_t1_loop.trips) : k0_off11 L k = ![4096 * (64 * wN L + (2 * k.val + 1))] := by
  rw [k0_off11_eq]; exact vec1_congr (by unfold wN; omega)
theorem off_out12 (L : grid0.Coords) (k : Fin k0_t1_loop.trips) : k0_off12 L k = ![4096 * (64 * wN L + (2 * k.val + 3))] := by
  rw [k0_off12_eq]; exact vec1_congr (by unfold wN; omega)
theorem off_out14 (L : grid0.Coords) (r : Fin 2) :
    k0_off14 L (BitVec.ofNat 32 (249856 + 4096 * r.val)) = ![4096 * (64 * wN L + (61 + r.val))] := by
  rw [k0_off14_eq]; exact vec1_congr (by unfold wN; omega)
theorem off_out16 (L : grid0.Coords) (r : Fin 2) :
    k0_off16 L (BitVec.ofNat 32 (253952 + 4096 * r.val)) = ![4096 * (64 * wN L + (62 + r.val))] := by
  rw [k0_off16_eq]; exact vec1_congr (by unfold wN; omega)

theorem off_in1 (L : grid0.Coords) (r : Fin 2) :
    k0_off1 L (BitVec.ofNat 32 (32768 * r.val)) = ![32768 * (64 * wN L + r.val)] := by
  rw [k0_off1_eq]; exact vec1_congr (by unfold wN; omega)
theorem off_in3 (L : grid0.Coords) (r : Fin 2) :
    k0_off3 L (BitVec.ofNat 32 (32768 + 32768 * r.val)) = ![32768 * (64 * wN L + (1 + r.val))] := by
  rw [k0_off3_eq]; exact vec1_congr (by unfold wN; omega)
theorem off_in5 (L : grid0.Coords) (r : Fin 2) :
    k0_off5 L (BitVec.ofNat 32 (98304 + 1933312 * r.val)) = ![32768 * (64 * wN L + (3 + 59 * r.val))] := by
  rw [k0_off5_eq]; exact vec1_congr (by unfold wN; omega)
theorem off_in6 (L : grid0.Coords) (k : Fin k0_t1_loop.trips) : k0_off6 L k = ![32768 * (64 * wN L + (2 * k.val + 2))] := by
  rw [k0_off6_eq]; exact vec1_congr (by unfold wN; omega)
theorem off_in9 (L : grid0.Coords) (k : Fin k0_t1_loop.trips) : k0_off9 L k = ![32768 * (64 * wN L + (2 * k.val + 4))] := by
  rw [k0_off9_eq]; exact vec1_congr (by unfold wN; omega)
theorem off_in10 (L : grid0.Coords) (k : Fin k0_t1_loop.trips) : k0_off10 L k = ![32768 * (64 * wN L + (2 * k.val + 3))] := by
  rw [k0_off10_eq]; exact vec1_congr (by unfold wN; omega)
theorem off_in13 (L : grid0.Coords) (k : Fin k0_t1_loop.trips) : k0_off13 L k = ![32768 * (64 * wN L + (2 * k.val + 5))] := by
  rw [k0_off13_eq]; exact vec1_congr (by unfold wN; omega)
theorem off_in15 (L : grid0.Coords) : k0_off15 L = ![32768 * (64 * wN L + 63)] := by
  rw [k0_off15_eq]; exact vec1_congr (by unfold wN; omega)

/-! ## Reading through a slice, and the bridge -/

/-- Local index y of a result slice at offset off sits at off + y in the flat result. -/
theorem emb_outS (off : Fin 1 → Nat) (inb : ∀ a, off a + S4096.size a ≤ S8388608.size a) (y : S4096.Idx) :
    (outS off inb).view.emb y
      = ValueIdx.ix1 (⟨off 0 + (y 0).val, by have h := inb 0; have : (y 0).val < 4096 := (y 0).isLt; simp at h; omega⟩ : Fin 8388608) := by
  funext a
  match a with
  | 0 => exact Fin.ext (Nat.add_left_cancel_iff.mpr (Nat.one_mul _))

/-- Reading an operand slice at offset off at local index y gives the flat operand's element off + y. -/
theorem read_inS (d : Dev nD) (off : Fin 1 → Nat) (inb : ∀ a, off a + S32768.size a ≤ S67108864.size a) (X : Buf (Elt F) (inLoc d)) (y : S32768.Idx) :
    (inS off inb).view.read (Elt F) X y
      = X (ValueIdx.ix1 (⟨off 0 + (y 0).val, by have h := inb 0; have : (y 0).val < 32768 := (y 0).isLt; simp at h; omega⟩ : Fin 67108864)) := by
  rw [View.read_apply]
  show X _ = X _
  congr 1
  funext a
  match a with
  | 0 => exact Fin.ext (Nat.add_left_cancel_iff.mpr (Nat.one_mul _))

/-- Element y of result chunk j is element 8·y + s of operand chunk j: 8·(4096·c + y) + s = 32768·c + (8·y + s). -/
theorem Y1_chunk (m : (ℓ : Loc nD τ sig) → Buf (Elt F) ℓ) (d : Dev nD) (L : grid0.Coords)
    (offO : Fin 1 → Nat) (inbO : ∀ a, offO a + S4096.size a ≤ S8388608.size a)
    (offI : Fin 1 → Nat) (inbI : ∀ a, offI a + S32768.size a ≤ S67108864.size a) (j : ℕ) (hj : j < 64)
    (hO : offO = ![4096 * (64 * wN L + j)]) (hI : offI = ![32768 * (64 * wN L + j)]) (y : S4096.Idx) :
    Y1 m d ((outS offO inbO).view.emb y)
      = (inS offI inbI).view.read (Elt F) (X1 m d)
          (ValueIdx.ix1 (⟨8 * (y 0).val + selN m d, by have : (y 0).val < 4096 := (y 0).isLt; have := selN_lt m d; omega⟩ : Fin 32768)) := by
  rw [read_inS, emb_outS]
  subst hO hI
  unfold Y1 srcIx
  congr 1
  funext a
  match a with
  | 0 => exact Fin.ext (by show 8 * (4096 * (64 * wN L + j) + (y 0).val) + selN m d = 32768 * (64 * wN L + j) + (8 * (y 0).val + selN m d); omega)

/-! ## The same, at the offsets' literal arguments

The offset functions that take a word are applied in the program at literal words; the equations above at r = 0, 1
are these, the words and the chunk numbers evaluated. -/

theorem off_in1_0 (L : grid0.Coords) : k0_off1 L 0#32 = ![32768 * (64 * wN L + 0)] := off_in1 L 0
theorem off_in1_1 (L : grid0.Coords) : k0_off1 L 32768#32 = ![32768 * (64 * wN L + 1)] := off_in1 L 1
theorem off_in3_0 (L : grid0.Coords) : k0_off3 L 32768#32 = ![32768 * (64 * wN L + 1)] := off_in3 L 0
theorem off_in3_1 (L : grid0.Coords) : k0_off3 L 65536#32 = ![32768 * (64 * wN L + 2)] := off_in3 L 1
theorem off_out4_0 (L : grid0.Coords) : k0_off4 L 4096#32 = ![4096 * (64 * wN L + 1)] := off_out4 L 0
theorem off_out4_1 (L : grid0.Coords) : k0_off4 L 245760#32 = ![4096 * (64 * wN L + 60)] := off_out4 L 1
theorem off_in5_0 (L : grid0.Coords) : k0_off5 L 98304#32 = ![32768 * (64 * wN L + 3)] := off_in5 L 0
theorem off_in5_1 (L : grid0.Coords) : k0_off5 L 2031616#32 = ![32768 * (64 * wN L + 62)] := off_in5 L 1
theorem off_out14_0 (L : grid0.Coords) : k0_off14 L 249856#32 = ![4096 * (64 * wN L + 61)] := off_out14 L 0
theorem off_out14_1 (L : grid0.Coords) : k0_off14 L 253952#32 = ![4096 * (64 * wN L + 62)] := off_out14 L 1
theorem off_out16_0 (L : grid0.Coords) : k0_off16 L 253952#32 = ![4096 * (64 * wN L + 62)] := off_out16 L 0
theorem off_out16_1 (L : grid0.Coords) : k0_off16 L 258048#32 = ![4096 * (64 * wN L + 63)] := off_out16 L 1

end Cert.KernelIdeal.Hand

end
-- ==== Proof.RowIdx.lean ====
/-
  The arithmetic of the gather's index vectors. The kernel builds, once, the vector `s + 8·l` (l the lane, s the
  selector word in every lane), and from it every index vector it gathers with by adding two constants: the token's
  offset within the chunk (0 or 16384) and the group's (128·g, g < 128). Lane l of such a vector is
  `s + 8·l + c` as a natural number — nothing wraps: with s ≤ 7, l ≤ 15 and c ≤ 32640 the sum is below 32768 —
  so it names an element of the 32768-element chunk buffer, and that element is the one the result wants:
  element `8·(c/8 + l) + s`.
-/
import Idealize.ShloMosaic.Lib.ValueIdx
import Idealize.ShloMosaic.PureOps.Vector

namespace Cert.Sel

open Idealize.ShloMosaic

/-- A vector of sixteen words; a chunk buffer's shape. -/
abbrev L16 : Shape := ⟨1, ![16]⟩
abbrev B32768 : Shape := ⟨1, ![32768]⟩

/-- Lane `l` of `v` is `s + 8·l + c`, as a number. -/
def IsRow (s c : ℕ) (v : IVec L16 32) : Prop := ∀ l : L16.Idx, (v l).toNat = s + 8 * (l 0).val + c

theorem lane_lt (l : L16.Idx) : (l 0).val < 16 := (l 0).isLt

/-- Adding a constant word to every lane moves the offset, when nothing wraps (s ≤ 7 and lane ≤ 15 make the first
    two summands at most 127). -/
theorem IsRow.add {s c : ℕ} {v : IVec L16 32} (h : IsRow s c v) (hs7 : s ≤ 7) (k : BitVec 32) (hk : 127 + c + k.toNat < 4294967296) :
    IsRow s (c + k.toNat) (addi v (broadcast L16 k)) := by
  intro l
  show (v l + k).toNat = _
  have hl := lane_lt l
  rw [BitVec.toNat_add, h l, Nat.mod_eq_of_lt (by omega)]
  omega

/-- The base vector: the selector in every lane plus eight times the lane number. -/
theorem isRow_base {s : ℕ} {sv io : IVec L16 32} (hs : ∀ l, (sv l).toNat = s) (hs7 : s ≤ 7) (hio : ∀ l : L16.Idx, (io l).toNat = (l 0).val) :
    IsRow s 0 (addi sv (muli (broadcast L16 8#32) io)) := by
  intro l
  show (sv l + 8#32 * io l).toNat = _
  have hl := lane_lt l
  rw [BitVec.toNat_add, BitVec.toNat_mul, hs l, hio l]
  simp only [BitVec.toNat_ofNat, Nat.reducePow, Nat.reduceMod]
  rw [Nat.mod_eq_of_lt (a := 8 * (l 0).val) (by omega), Nat.mod_eq_of_lt (by omega)]
  omega

/-- The lane numbers `0 … 15` as words. -/
theorem iota_toNat (h : L16.Iotas .scVector 32 [0]) (l : L16.Idx) : (iota .scVector L16 32 [0] h l).toNat = (l 0).val := by
  show (BitVec.ofNat 32 (0 * L16.size 0 + (l 0).val)).toNat = _
  have hl := lane_lt l
  rw [BitVec.toNat_ofNat]
  simp only [Nat.zero_mul, Nat.zero_add]
  exact Nat.mod_eq_of_lt (by omega)

/-- Every lane of such a vector names an element of the chunk buffer. -/
theorem IsRow.inb {s c : ℕ} {v : IVec L16 32} (h : IsRow s c v) (hs7 : s ≤ 7) (hc : c ≤ 32640) :
    ∀ (a : Fin B32768.rank) (x : L16.Idx), ((![v] : Fin 1 → IVec L16 32) a x).toNat < B32768.size a := by
  intro a x
  obtain rfl : a = 0 := Subsingleton.elim _ _
  show (v x).toNat < 32768
  have hl := lane_lt x
  rw [h x]; omega

/-- What the gather at such a vector reads, lane by lane: element `s + 8·l + c` of the buffer. -/
theorem IsRow.loadIdx_apply {α : Type} {s c : ℕ} {v : IVec L16 32} (h : IsRow s c v) (hs7 : s ≤ 7) (hc : c ≤ 32640)
    (f : B32768.Idx → α) (hin : ∀ (a : Fin B32768.rank) (x : L16.Idx), ((![v] : Fin 1 → IVec L16 32) a x).toNat < B32768.size a) (l : L16.Idx) :
    f (idxAt (![v] : Fin 1 → IVec L16 32) hin l)
      = f (ValueIdx.ix1 (⟨s + 8 * (l 0).val + c, by have := lane_lt l; omega⟩ : Fin 32768)) := by
  congr 1
  funext a
  obtain rfl : a = 0 := Subsingleton.elim _ _
  apply Fin.ext
  show (v l).toNat = _
  exact h l

/-! ## Two additions above the base: the shape of every index vector the kernel gathers with -/

/-- The vector `(sv + 8·io) + r + g`, `r` the token's offset in the chunk and `g` the group's. -/
abbrev idxVec (sv io : IVec L16 32) (r g : BitVec 32) : IVec L16 32 :=
  addi (addi (addi sv (muli (broadcast L16 8#32) io)) (broadcast L16 r)) (broadcast L16 g)

theorem isRow_two {s : ℕ} {sv io : IVec L16 32} (hsv : ∀ l, (sv l).toNat = s) (hs7 : s ≤ 7) (hio : ∀ l : L16.Idx, (io l).toNat = (l 0).val)
    (r g : BitVec 32) (hr : 127 + 0 + r.toNat < 4294967296) (hg : 127 + (0 + r.toNat) + g.toNat < 4294967296) :
    IsRow s (0 + r.toNat + g.toNat) (idxVec sv io r g) :=
  ((isRow_base hsv hs7 hio).add hs7 r hr).add hs7 g hg

/-- Every lane of it names an element of the chunk buffer. -/
theorem inb_of_two {s : ℕ} {sv io : IVec L16 32} (hsv : ∀ l, (sv l).toNat = s) (hs7 : s ≤ 7) (hio : ∀ l : L16.Idx, (io l).toNat = (l 0).val)
    (r g : BitVec 32) (hr : 127 + 0 + r.toNat < 4294967296) (hg : 127 + (0 + r.toNat) + g.toNat < 4294967296) (hc : 0 + r.toNat + g.toNat ≤ 32640) :
    ∀ (a : Fin B32768.rank) (x : L16.Idx), ((![idxVec sv io r g] : Fin 1 → IVec L16 32) a x).toNat < B32768.size a :=
  (isRow_two hsv hs7 hio r g hr hg).inb hs7 hc

/-- What the gather at it reads, lane by lane. -/
theorem load_of_two {α : Type} {s : ℕ} {sv io : IVec L16 32} (hsv : ∀ l, (sv l).toNat = s) (hs7 : s ≤ 7) (hio : ∀ l : L16.Idx, (io l).toNat = (l 0).val)
    (r g : BitVec 32) (hr : 127 + 0 + r.toNat < 4294967296) (hg : 127 + (0 + r.toNat) + g.toNat < 4294967296) (hc : 0 + r.toNat + g.toNat ≤ 32640)
    (f : B32768.Idx → α) (hin : ∀ (a : Fin B32768.rank) (x : L16.Idx), ((![idxVec sv io r g] : Fin 1 → IVec L16 32) a x).toNat < B32768.size a) (l : L16.Idx) :
    f (idxAt (![idxVec sv io r g] : Fin 1 → IVec L16 32) hin l)
      = f (ValueIdx.ix1 (⟨s + 8 * (l 0).val + (0 + r.toNat + g.toNat), by have := lane_lt l; omega⟩ : Fin 32768)) :=
  (isRow_two hsv hs7 hio r g hr hg).loadIdx_apply hs7 hc f hin l

end Cert.Sel
-- ==== Proof.Gather.lean ====
/-
  The gather out of a chunk buffer, and what it leaves in the result.

  The mathematics. After operand chunk j has landed in a tile's chunk buffer (contents Bc, 32768 elements), the tile
  gathers 256 vectors of 16 lanes out of it and stores vector n at elements 16·n … 16·n + 15 of a 4096-element result
  buffer. Vector n is gathered at the index vector whose lane l is s + 8·l + c, with s ≤ 7 the selector and
  c = 8·(16·n) the sum of the token's and the group's offsets, so its lane l is Bc[s + 8·l + 8·(16·n)] =
  Bc[8·(16·n + l) + s]. The 256 stores tile the result buffer, so read back whole it is y ↦ Bc[8·y + s]; and since
  Bc is operand chunk j, copying it out to result chunk j leaves there element 8·o + s of the flat operand at every
  element o: the kernel's function.
-/
import proofs.«203709_g27616639714075_cont_sun_c4_439_12_alg».proof.Proof.Slices
import proofs.«203709_g27616639714075_cont_sun_c4_439_12_alg».proof.Proof.RowIdx
import Idealize.ShloMosaic.Lib.Pipeline.Value
import Idealize.ShloMosaic.Lib.Pipeline.FrameBody
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The gather: what a chunk buffer's 256 gathered vectors leave in a result buffer -/

/-- A piece holds the gathered function on its rectangle: its element at local index x is element 8·o + s of the
    chunk buffer, o the place of x in the 4096-element result buffer. -/
def GoodPiece (Bc : S32768.Idx → Elt F .f32) (s : ℕ) (hs : s < 8) (p : View.Piece (Elt F) S4096 .f32) : Prop :=
  ∀ x : p.1.shape.Idx, p.2 x
    = Bc (ValueIdx.ix1 (⟨8 * (p.1.emb x 0).val + s, by have h : (p.1.emb x 0).val < 4096 := (p.1.emb x 0).isLt; omega⟩ : Fin 32768))

/-- One gathered vector, stored at elements off … off + 15: lane l is chunk-buffer element s + 8·l + c with
    c = 8·off, which is 8·(off + l) + s. The buffer's contents are given as any function rd equal to Bc (what a load
    of the whole chunk buffer reads). -/
theorem goodPiece_of_load {s : ℕ} {sv io : IVec S16 32} (hsv : ∀ l, (sv l).toNat = s) (hs7 : s ≤ 7)
    (hio : ∀ l : S16.Idx, (io l).toNat = (l 0).val) {rd Bc : S32768.Idx → Elt F .f32} (hrd : rd = Bc)
    {off : ℕ} {inb : ∀ a, (![off] : Fin 1 → ℕ) a + S16.size a ≤ S4096.size a} {r gg : BitVec 32}
    (hr : 127 + 0 + r.toNat < 4294967296) (hg : 127 + (0 + r.toNat) + gg.toNat < 4294967296) (hc : 0 + r.toNat + gg.toNat = 8 * off)
    {hin : ∀ a x, ((![Cert.Sel.idxVec sv io r gg] : Fin 1 → IVec S16 32) a x).toNat < S32768.size a} :
    GoodPiece Bc s (by omega)
      ⟨Rect.unit (s := S4096) ![off] S16.size inb, loadIdx rd ![Cert.Sel.idxVec sv io r gg] hin⟩ := by
  intro x
  subst hrd
  have hoff : off + 16 ≤ 4096 := inb 0
  show rd (idxAt (![Cert.Sel.idxVec sv io r gg] : Fin 1 → IVec S16 32) hin x) = _
  rw [Cert.Sel.load_of_two hsv hs7 hio r gg hr hg (by omega) rd hin x]
  congr 1
  funext a
  match a with
  | 0 => exact Fin.ext (by show s + 8 * (x 0).val + (0 + r.toNat + gg.toNat) = 8 * (off + 1 * (x 0).val) + s; omega)

/-- The same with the contents spelt as a load of the whole first, respectively second, chunk buffer. -/
theorem goodPiece_two₁ {s : ℕ} {sv io : IVec S16 32} (hsv : ∀ l, (sv l).toNat = s) (hs7 : s ≤ 7)
    (hio : ∀ l : S16.Idx, (io l).toNat = (l 0).val) {Bc : S32768.Idx → Elt F .f32}
    {off : ℕ} {inb : ∀ a, (![off] : Fin 1 → ℕ) a + S16.size a ≤ S4096.size a} {r gg : BitVec 32}
    (hr : 127 + 0 + r.toNat < 4294967296) (hg : 127 + (0 + r.toNat) + gg.toNat < 4294967296) (hc : 0 + r.toNat + gg.toNat = 8 * off)
    {hin : ∀ a x, ((![Cert.Sel.idxVec sv io r gg] : Fin 1 → IVec S16 32) a x).toNat < S32768.size a} :
    GoodPiece Bc s (by omega)
      ⟨Rect.unit (s := S4096) ![off] S16.size inb,
        loadIdx (View.readAt (Elt F) (Memref.whole cc0_scratch1 : Memref sig .scVector .vmem S32768 .f32).view (LoadRect.whole S32768) Bc)
          ![Cert.Sel.idxVec sv io r gg] hin⟩ :=
  goodPiece_of_load hsv hs7 hio (Memref.readAt_whole (Elt F) cc0_scratch1 Bc) hr hg hc
theorem goodPiece_two₂ {s : ℕ} {sv io : IVec S16 32} (hsv : ∀ l, (sv l).toNat = s) (hs7 : s ≤ 7)
    (hio : ∀ l : S16.Idx, (io l).toNat = (l 0).val) {Bc : S32768.Idx → Elt F .f32}
    {off : ℕ} {inb : ∀ a, (![off] : Fin 1 → ℕ) a + S16.size a ≤ S4096.size a} {r gg : BitVec 32}
    (hr : 127 + 0 + r.toNat < 4294967296) (hg : 127 + (0 + r.toNat) + gg.toNat < 4294967296) (hc : 0 + r.toNat + gg.toNat = 8 * off)
    {hin : ∀ a x, ((![Cert.Sel.idxVec sv io r gg] : Fin 1 → IVec S16 32) a x).toNat < S32768.size a} :
    GoodPiece Bc s (by omega)
      ⟨Rect.unit (s := S4096) ![off] S16.size inb,
        loadIdx (View.readAt (Elt F) (Memref.whole cc0_scratch2 : Memref sig .scVector .vmem S32768 .f32).view (LoadRect.whole S32768) Bc)
          ![Cert.Sel.idxVec sv io r gg] hin⟩ :=
  goodPiece_of_load hsv hs7 hio (Memref.readAt_whole (Elt F) cc0_scratch2 Bc) hr hg hc

/-- Pieces that all hold the gathered function and together cover the result buffer: the buffer, read back whole,
    is y ↦ Bc[8·y + s] — whatever the view and the contents before. -/
theorem read_of_good [∀ e, Nonempty (Elt F e)] {κ : Kind} {sp : Space} (v : View sig κ sp S4096 .f32) (f : v.ty.Contents (Elt F))
    (Ls : List (View.Piece (Elt F) S4096 .f32)) (Bc : S32768.Idx → Elt F .f32) (s : ℕ) (hs : s < 8)
    (hL : ∀ p ∈ Ls, GoodPiece Bc s hs p) (hcov : ∀ y : S4096.Idx, ∃ p ∈ Ls, y ∈ p.1.set) (y : S4096.Idx) :
    v.read (Elt F) (v.writes (Elt F) f Ls) y
      = Bc (ValueIdx.ix1 (⟨8 * (y 0).val + s, by have h : (y 0).val < 4096 := (y 0).isLt; omega⟩ : Fin 32768)) := by
  rw [View.read_writes_eq_canon v f Ls hcov]
  exact View.canon_apply_of_pieces
    (fun y : S4096.Idx => Bc (ValueIdx.ix1 (⟨8 * (y 0).val + s, by have h : (y 0).val < 4096 := (y 0).isLt; omega⟩ : Fin 32768)))
    Ls hL y (hcov y)

/-- What lands in result chunk j when the vector copied out is the gathered function of operand chunk j: the
    kernel's function there. Bc is the chunk buffer after operand chunk j has landed in it. -/
theorem out_value_of (m : (ℓ : Loc nD τ sig) → Buf (Elt F) ℓ) (d : Dev nD) (L : grid0.Coords) (j : ℕ) (hj : j < 64)
    (offO : Fin 1 → Nat) (inbO : ∀ a, offO a + S4096.size a ≤ S8388608.size a)
    (offI : Fin 1 → Nat) (inbI : ∀ a, offI a + S32768.size a ≤ S67108864.size a)
    (hO : offO = ![4096 * (64 * wN L + j)]) (hI : offI = ![32768 * (64 * wN L + j)])
    (Bc : S32768.Idx → Elt F .f32) (hBc : Bc = (inS offI inbI).view.read (Elt F) (X1 m d))
    (g : S4096.Idx → Elt F .f32)
    (hg : ∀ y : S4096.Idx, g y
      = Bc (ValueIdx.ix1 (⟨8 * (y 0).val + selN m d, by have h : (y 0).val < 4096 := (y 0).isLt; have := selN_lt m d; omega⟩ : Fin 32768)))
    (Y : Buf (Elt F) (outLoc d)) :
    ∀ i ∈ (outS offO inbO).view.set, ((outS offO inbO).view.writes (Elt F) Y [⟨Rect.whole S4096, g⟩]) i = Y1 m d i := by
  intro i hi
  obtain ⟨y, rfl⟩ := View.exists_emb_of_mem_set _ hi
  have hw : ((outS offO inbO).view.slice (Rect.whole S4096)).write (Elt F) Y g Finset.univ ((outS offO inbO).view.emb y) = g y := by
    have h := View.write_emb_of_mem (v := (outS offO inbO).view.slice (Rect.whole S4096)) (Val := Elt F) Y g
      (M := Finset.univ) (x := y) (Finset.mem_univ _)
    have he : ((outS offO inbO).view.slice (Rect.whole S4096)).emb y = (outS offO inbO).view.emb y := by
      show (outS offO inbO).view.emb ((Rect.whole S4096).emb y) = _
      rw [Rect.emb_whole_apply]
    rw [he] at h
    exact h
  show ((outS offO inbO).view.slice (Rect.whole S4096)).write (Elt F) Y g Finset.univ ((outS offO inbO).view.emb y) = _
  rw [hw, hg y, Y1_chunk m d L offO inbO offI inbI j hj hO hI y, hBc]

/-- A transfer of a whole vector into a whole buffer leaves the vector. -/
theorem landed {κ : Kind} (b : Ref sig κ) (fB w : b.ty.Contents (Elt F)) :
    View.write (Elt F) (Memref.whole b).view fB (ReadAs.same.apply w) Finset.univ = w :=
  View.write_whole_univ b fB w

/-- The same with the chunk buffer's contents written as the result of the transfer of operand chunk j into the
    first, respectively second, chunk buffer. -/
theorem out_value (m : (ℓ : Loc nD τ sig) → Buf (Elt F) ℓ) (d : Dev nD) (L : grid0.Coords) (j : ℕ) (hj : j < 64)
    (offO : Fin 1 → Nat) (inbO : ∀ a, offO a + S4096.size a ≤ S8388608.size a)
    (offI : Fin 1 → Nat) (inbI : ∀ a, offI a + S32768.size a ≤ S67108864.size a)
    (hO : offO = ![4096 * (64 * wN L + j)]) (hI : offI = ![32768 * (64 * wN L + j)])
    (fB : cc0_scratch1.ty.Contents (Elt F)) (g : S4096.Idx → Elt F .f32)
    (hg : ∀ y : S4096.Idx, g y
      = (View.write (Elt F) (Memref.whole cc0_scratch1 : Memref sig .scVector .vmem S32768 .f32).view fB
          (ReadAs.same.apply ((inS offI inbI).view.read (Elt F) (X1 m d))) Finset.univ)
          (ValueIdx.ix1 (⟨8 * (y 0).val + selN m d, by have h : (y 0).val < 4096 := (y 0).isLt; have := selN_lt m d; omega⟩ : Fin 32768)))
    (Y : Buf (Elt F) (outLoc d)) :
    ∀ i ∈ (outS offO inbO).view.set, ((outS offO inbO).view.writes (Elt F) Y [⟨Rect.whole S4096, g⟩]) i = Y1 m d i :=
  out_value_of m d L j hj offO inbO offI inbI hO hI _ (landed cc0_scratch1 fB _) g hg Y
theorem out_value₂ (m : (ℓ : Loc nD τ sig) → Buf (Elt F) ℓ) (d : Dev nD) (L : grid0.Coords) (j : ℕ) (hj : j < 64)
    (offO : Fin 1 → Nat) (inbO : ∀ a, offO a + S4096.size a ≤ S8388608.size a)
    (offI : Fin 1 → Nat) (inbI : ∀ a, offI a + S32768.size a ≤ S67108864.size a)
    (hO : offO = ![4096 * (64 * wN L + j)]) (hI : offI = ![32768 * (64 * wN L + j)])
    (fB : cc0_scratch2.ty.Contents (Elt F)) (g : S4096.Idx → Elt F .f32)
    (hg : ∀ y : S4096.Idx, g y
      = (View.write (Elt F) (Memref.whole cc0_scratch2 : Memref sig .scVector .vmem S32768 .f32).view fB
          (ReadAs.same.apply ((inS offI inbI).view.read (Elt F) (X1 m d))) Finset.univ)
          (ValueIdx.ix1 (⟨8 * (y 0).val + selN m d, by have h : (y 0).val < 4096 := (y 0).isLt; have := selN_lt m d; omega⟩ : Fin 32768)))
    (Y : Buf (Elt F) (outLoc d)) :
    ∀ i ∈ (outS offO inbO).view.set, ((outS offO inbO).view.writes (Elt F) Y [⟨Rect.whole S4096, g⟩]) i = Y1 m d i :=
  out_value_of m d L j hj offO inbO offI inbI hO hI _ (landed cc0_scratch2 fB _) g hg Y

end Cert.KernelIdeal.Hand

end
-- ==== Proof.Flights.lean ====
/-
  The copies in flight, in one shape. A chunk of the operand on its way into a chunk buffer delivers the buffer at
  that chunk's elements and gives the chunk's elements of the operand back; a result buffer on its way out delivers
  the result's chunk at the kernel's function and gives the buffer back. Stated per chunk NUMBER, so that the
  flights the body's loop carries from trip to trip are one family in the trip.
-/
import proofs.«203709_g27616639714075_cont_sun_c4_439_12_alg».proof.Proof.Piles
import proofs.«203709_g27616639714075_cont_sun_c4_439_12_alg».proof.Proof.Slices
import proofs.«203709_g27616639714075_cont_sun_c4_439_12_alg».proof.Proof.Gather

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

omit F in
/-- Chunk `j` of the tile's operand chunks lies inside the flat operand. -/
theorem inb_in (j : ℕ) (hj : j < 64) : ∀ a, (![32768 * (64 * wN L + j)] : Fin 1 → ℕ) a + S32768.size a ≤ S67108864.size a := by
  intro a
  match a with
  | ⟨0, _⟩ =>
    show 32768 * (64 * wN L + j) + 32768 ≤ 67108864
    have := wN_lt L; omega

/-- What a chunk buffer holds once operand chunk `j` has landed in it. -/
def inBuf (j : ℕ) (hj : j < 64) : S32768.Idx → Elt F .f32 :=
  (inS ![32768 * (64 * wN L + j)] (inb_in L j hj)).view.read (Elt F) (X1 m d)

/-- Reading the operand through a slice at chunk `j`'s offset, however the offset is spelt, is `inBuf j`. -/
theorem read_inS_eq (off : Fin 1 → Nat) (inb : ∀ a, off a + S32768.size a ≤ S67108864.size a) (j : ℕ) (hj : j < 64)
    (hoff : off = ![32768 * (64 * wN L + j)]) : (inS off inb).view.read (Elt F) (X1 m d) = inBuf m d L j hj := by
  subst hoff; rfl

/-- A copy of operand chunk `j` into chunk buffer 6, in flight on semaphore `sm`. -/
def flIn6 (sm : DmaSem sig) (j : ℕ) : sProp 𝕄 :=
  if hj : j < 64 then
    Transfers.Flight countersEmb (thrL d L) (SemLoc.dma sm) default 1048576
      iprop(((Memref.whole cc0_scratch1 : Memref sig .scVector .vmem S32768 .f32).view.loc (thrL d L) ↦{fullShare} inBuf m d L j hj) ∗ inAt d L (X1 m d) j)
  else iprop(False)

theorem flIn6_lt (sm : DmaSem sig) {j : ℕ} (hj : j < 64) :
    flIn6 m d L sm j = (Transfers.Flight countersEmb (thrL d L) (SemLoc.dma sm) default 1048576
      iprop(((Memref.whole cc0_scratch1 : Memref sig .scVector .vmem S32768 .f32).view.loc (thrL d L) ↦{fullShare} inBuf m d L j hj) ∗ inAt d L (X1 m d) j) : sProp 𝕄) := dif_pos hj

/-- The run's in-flight copy into chunk buffer 6, in the one shape: what lands is the chunk read through the slice
    the body named, whatever the buffer held. -/
theorem flIn6_intro (sm : DmaSem sig) (off : Fin 1 → Nat) (inb : ∀ a, off a + S32768.size a ≤ S67108864.size a) (j : ℕ) (hj : j < 64)
    (hoff : off = ![32768 * (64 * wN L + j)])
    (fB : Buf (Elt F) ((Memref.whole cc0_scratch1 : Memref sig .scVector .vmem S32768 .f32).view.loc (thrL d L))) :
    (Transfers.Flight countersEmb (thrL d L) (SemLoc.dma sm) default 1048576
      iprop(((Memref.whole cc0_scratch1 : Memref sig .scVector .vmem S32768 .f32).view.loc (thrL d L) ↦{fullShare}
            View.write (Elt F) (Memref.whole cc0_scratch1 : Memref sig .scVector .vmem S32768 .f32).view fB
              (ReadAs.same.apply (View.read (Elt F) (inS off inb).view (X1 m d))) Finset.univ)
          ∗ ((inS off inb).view.loc (thrL d L) ↦[(inS off inb).view.set]{fullShare} X1 m d)) : sProp 𝕄)
      ⊢ flIn6 m d L sm j := by
  have hA : View.write (Elt F) (Memref.whole cc0_scratch1 : Memref sig .scVector .vmem S32768 .f32).view fB
      (ReadAs.same.apply (View.read (Elt F) (inS off inb).view (X1 m d))) Finset.univ = inBuf m d L j hj :=
    (landed cc0_scratch1 fB _).trans (read_inS_eq m d L off inb j hj hoff)
  rw [flIn6_lt m d L sm hj, hA, pts_inS d L off inb j hj hoff, inAt_lt d L _ hj]

/-- A copy of operand chunk `j` into chunk buffer 7, in flight on semaphore `sm`. -/
def flIn7 (sm : DmaSem sig) (j : ℕ) : sProp 𝕄 :=
  if hj : j < 64 then
    Transfers.Flight countersEmb (thrL d L) (SemLoc.dma sm) default 1048576
      iprop(((Memref.whole cc0_scratch2 : Memref sig .scVector .vmem S32768 .f32).view.loc (thrL d L) ↦{fullShare} inBuf m d L j hj) ∗ inAt d L (X1 m d) j)
  else iprop(False)

theorem flIn7_lt (sm : DmaSem sig) {j : ℕ} (hj : j < 64) :
    flIn7 m d L sm j = (Transfers.Flight countersEmb (thrL d L) (SemLoc.dma sm) default 1048576
      iprop(((Memref.whole cc0_scratch2 : Memref sig .scVector .vmem S32768 .f32).view.loc (thrL d L) ↦{fullShare} inBuf m d L j hj) ∗ inAt d L (X1 m d) j) : sProp 𝕄) := dif_pos hj

/-- The run's in-flight copy into chunk buffer 7, in the one shape: what lands is the chunk read through the slice
    the body named, whatever the buffer held. -/
theorem flIn7_intro (sm : DmaSem sig) (off : Fin 1 → Nat) (inb : ∀ a, off a + S32768.size a ≤ S67108864.size a) (j : ℕ) (hj : j < 64)
    (hoff : off = ![32768 * (64 * wN L + j)])
    (fB : Buf (Elt F) ((Memref.whole cc0_scratch2 : Memref sig .scVector .vmem S32768 .f32).view.loc (thrL d L))) :
    (Transfers.Flight countersEmb (thrL d L) (SemLoc.dma sm) default 1048576
      iprop(((Memref.whole cc0_scratch2 : Memref sig .scVector .vmem S32768 .f32).view.loc (thrL d L) ↦{fullShare}
            View.write (Elt F) (Memref.whole cc0_scratch2 : Memref sig .scVector .vmem S32768 .f32).view fB
              (ReadAs.same.apply (View.read (Elt F) (inS off inb).view (X1 m d))) Finset.univ)
          ∗ ((inS off inb).view.loc (thrL d L) ↦[(inS off inb).view.set]{fullShare} X1 m d)) : sProp 𝕄)
      ⊢ flIn7 m d L sm j := by
  have hA : View.write (Elt F) (Memref.whole cc0_scratch2 : Memref sig .scVector .vmem S32768 .f32).view fB
      (ReadAs.same.apply (View.read (Elt F) (inS off inb).view (X1 m d))) Finset.univ = inBuf m d L j hj :=
    (landed cc0_scratch2 fB _).trans (read_inS_eq m d L off inb j hj hoff)
  rw [flIn7_lt m d L sm hj, hA, pts_inS d L off inb j hj hoff, inAt_lt d L _ hj]

/-- A copy of result buffer 8 (contents `g`) out to result chunk `j`, in flight on semaphore `sm`. -/
def flOut8 (sm : DmaSem sig) (j : ℕ) (g : Buf (Elt F) ((Memref.whole cc0_scratch3 : Memref sig .scVector .vmem S4096 .f32).view.loc (thrL d L))) : sProp 𝕄 :=
  Transfers.Flight countersEmb (thrL d L) (SemLoc.dma sm) default 131072
    iprop(outAt d L (Y1 m d) j ∗ ((Memref.whole cc0_scratch3 : Memref sig .scVector .vmem S4096 .f32).view.loc (thrL d L)
      ↦[(Memref.whole cc0_scratch3 : Memref sig .scVector .vmem S4096 .f32).view.set]{fullShare} g))

/-- A copy of result buffer 9 (contents `g`) out to result chunk `j`, in flight on semaphore `sm`. -/
def flOut9 (sm : DmaSem sig) (j : ℕ) (g : Buf (Elt F) ((Memref.whole cc0_scratch4 : Memref sig .scVector .vmem S4096 .f32).view.loc (thrL d L))) : sProp 𝕄 :=
  Transfers.Flight countersEmb (thrL d L) (SemLoc.dma sm) default 131072
    iprop(outAt d L (Y1 m d) j ∗ ((Memref.whole cc0_scratch4 : Memref sig .scVector .vmem S4096 .f32).view.loc (thrL d L)
      ↦[(Memref.whole cc0_scratch4 : Memref sig .scVector .vmem S4096 .f32).view.set]{fullShare} g))

/-- The run's in-flight copy out of result buffer 8, in the one shape: when every piece stored into the buffer is
    the gathered function of operand chunk `j`, what lands in result chunk `j` is the kernel's function there. -/
theorem flOut8_intro [∀ e, Nonempty (Elt F e)] (sm : DmaSem sig) (offO : Fin 1 → Nat) (inbO : ∀ a, offO a + S4096.size a ≤ S8388608.size a)
    (j : ℕ) (hj : j < 64) (hO : offO = ![4096 * (64 * wN L + j)]) (Y : Buf (Elt F) (outLoc d))
    (f : Buf (Elt F) ((Memref.whole cc0_scratch3 : Memref sig .scVector .vmem S4096 .f32).view.loc (thrL d L)))
    (Ls : List (View.Piece (Elt F) S4096 .f32)) (Bc : S32768.Idx → Elt F .f32) (hBc : Bc = inBuf m d L j hj)
    (hL : ∀ p ∈ Ls, GoodPiece Bc (selN m d) (selN_lt m d) p) (hcov : ∀ y : S4096.Idx, ∃ p ∈ Ls, y ∈ p.1.set) :
    (Transfers.Flight countersEmb (thrL d L) (SemLoc.dma sm) default 131072
      iprop(((outS offO inbO).view.loc (thrL d L) ↦[(outS offO inbO).view.set]{fullShare}
            (outS offO inbO).view.writes (Elt F) Y
              [⟨Rect.whole S4096, ReadAs.same.apply (View.read (Elt F) (Memref.whole cc0_scratch3 : Memref sig .scVector .vmem S4096 .f32).view
                ((Memref.whole cc0_scratch3 : Memref sig .scVector .vmem S4096 .f32).view.writes (Elt F) f Ls))⟩])
          ∗ ((Memref.whole cc0_scratch3 : Memref sig .scVector .vmem S4096 .f32).view.loc (thrL d L)
              ↦[(Memref.whole cc0_scratch3 : Memref sig .scVector .vmem S4096 .f32).view.set]{fullShare}
              (Memref.whole cc0_scratch3 : Memref sig .scVector .vmem S4096 .f32).view.writes (Elt F) f Ls)) : sProp 𝕄)
      ⊢ flOut8 m d L sm j ((Memref.whole cc0_scratch3 : Memref sig .scVector .vmem S4096 .f32).view.writes (Elt F) f Ls) := by
  have hval : ∀ i ∈ (outS offO inbO).view.set,
      ((outS offO inbO).view.writes (Elt F) Y
        [⟨Rect.whole S4096, ReadAs.same.apply (View.read (Elt F) (Memref.whole cc0_scratch3 : Memref sig .scVector .vmem S4096 .f32).view
          ((Memref.whole cc0_scratch3 : Memref sig .scVector .vmem S4096 .f32).view.writes (Elt F) f Ls))⟩]) i = Y1 m d i :=
    out_value_of m d L j hj offO inbO _ (inb_in L j hj) hO rfl Bc hBc _
      (fun y => read_of_good _ _ Ls Bc (selN m d) (selN_lt m d) hL hcov y) Y
  unfold flOut8
  rw [pointsTo_congr hval, pts_outS d L offO inbO j hj hO, outAt_lt d L _ hj]

/-- The run's in-flight copy out of result buffer 9, in the one shape: when every piece stored into the buffer is
    the gathered function of operand chunk `j`, what lands in result chunk `j` is the kernel's function there. -/
theorem flOut9_intro [∀ e, Nonempty (Elt F e)] (sm : DmaSem sig) (offO : Fin 1 → Nat) (inbO : ∀ a, offO a + S4096.size a ≤ S8388608.size a)
    (j : ℕ) (hj : j < 64) (hO : offO = ![4096 * (64 * wN L + j)]) (Y : Buf (Elt F) (outLoc d))
    (f : Buf (Elt F) ((Memref.whole cc0_scratch4 : Memref sig .scVector .vmem S4096 .f32).view.loc (thrL d L)))
    (Ls : List (View.Piece (Elt F) S4096 .f32)) (Bc : S32768.Idx → Elt F .f32) (hBc : Bc = inBuf m d L j hj)
    (hL : ∀ p ∈ Ls, GoodPiece Bc (selN m d) (selN_lt m d) p) (hcov : ∀ y : S4096.Idx, ∃ p ∈ Ls, y ∈ p.1.set) :
    (Transfers.Flight countersEmb (thrL d L) (SemLoc.dma sm) default 131072
      iprop(((outS offO inbO).view.loc (thrL d L) ↦[(outS offO inbO).view.set]{fullShare}
            (outS offO inbO).view.writes (Elt F) Y
              [⟨Rect.whole S4096, ReadAs.same.apply (View.read (Elt F) (Memref.whole cc0_scratch4 : Memref sig .scVector .vmem S4096 .f32).view
                ((Memref.whole cc0_scratch4 : Memref sig .scVector .vmem S4096 .f32).view.writes (Elt F) f Ls))⟩])
          ∗ ((Memref.whole cc0_scratch4 : Memref sig .scVector .vmem S4096 .f32).view.loc (thrL d L)
              ↦[(Memref.whole cc0_scratch4 : Memref sig .scVector .vmem S4096 .f32).view.set]{fullShare}
              (Memref.whole cc0_scratch4 : Memref sig .scVector .vmem S4096 .f32).view.writes (Elt F) f Ls)) : sProp 𝕄)
      ⊢ flOut9 m d L sm j ((Memref.whole cc0_scratch4 : Memref sig .scVector .vmem S4096 .f32).view.writes (Elt F) f Ls) := by
  have hval : ∀ i ∈ (outS offO inbO).view.set,
      ((outS offO inbO).view.writes (Elt F) Y
        [⟨Rect.whole S4096, ReadAs.same.apply (View.read (Elt F) (Memref.whole cc0_scratch4 : Memref sig .scVector .vmem S4096 .f32).view
          ((Memref.whole cc0_scratch4 : Memref sig .scVector .vmem S4096 .f32).view.writes (Elt F) f Ls))⟩]) i = Y1 m d i :=
    out_value_of m d L j hj offO inbO _ (inb_in L j hj) hO rfl Bc hBc _
      (fun y => read_of_good _ _ Ls Bc (selN m d) (selN_lt m d) hL hcov y) Y
  unfold flOut9
  rw [pointsTo_congr hval, pts_outS d L offO inbO j hj hO, outAt_lt d L _ hj]

/-- Result chunk `j` as the copy out of result buffer 8 leaves it, when every piece stored into the buffer is the
    gathered function of operand chunk `j`: the kernel's function on that chunk. -/
theorem out_landed8 [∀ e, Nonempty (Elt F e)] (offO : Fin 1 → Nat) (inbO : ∀ a, offO a + S4096.size a ≤ S8388608.size a)
    (j : ℕ) (hj : j < 64) (hO : offO = ![4096 * (64 * wN L + j)]) (Y : Buf (Elt F) (outLoc d))
    (f : Buf (Elt F) ((Memref.whole cc0_scratch3 : Memref sig .scVector .vmem S4096 .f32).view.loc (thrL d L)))
    (Ls : List (View.Piece (Elt F) S4096 .f32)) (Bc : S32768.Idx → Elt F .f32) (hBc : Bc = inBuf m d L j hj)
    (hL : ∀ p ∈ Ls, GoodPiece Bc (selN m d) (selN_lt m d) p) (hcov : ∀ y : S4096.Idx, ∃ p ∈ Ls, y ∈ p.1.set) :
    ((outS offO inbO).view.loc (thrL d L) ↦[(outS offO inbO).view.set]{fullShare}
        (outS offO inbO).view.writes (Elt F) Y
          [⟨Rect.whole S4096, ReadAs.same.apply (View.read (Elt F) (Memref.whole cc0_scratch3 : Memref sig .scVector .vmem S4096 .f32).view
            ((Memref.whole cc0_scratch3 : Memref sig .scVector .vmem S4096 .f32).view.writes (Elt F) f Ls))⟩] : sProp 𝕄)
      = outAt d L (Y1 m d) j := by
  have hval : ∀ i ∈ (outS offO inbO).view.set,
      ((outS offO inbO).view.writes (Elt F) Y
        [⟨Rect.whole S4096, ReadAs.same.apply (View.read (Elt F) (Memref.whole cc0_scratch3 : Memref sig .scVector .vmem S4096 .f32).view
          ((Memref.whole cc0_scratch3 : Memref sig .scVector .vmem S4096 .f32).view.writes (Elt F) f Ls))⟩]) i = Y1 m d i :=
    out_value_of m d L j hj offO inbO _ (inb_in L j hj) hO rfl Bc hBc _
      (fun y => read_of_good _ _ Ls Bc (selN m d) (selN_lt m d) hL hcov y) Y
  rw [pointsTo_congr hval, pts_outS d L offO inbO j hj hO, outAt_lt d L _ hj]

/-- Result chunk `j` as the copy out of result buffer 9 leaves it, when every piece stored into the buffer is the
    gathered function of operand chunk `j`: the kernel's function on that chunk. -/
theorem out_landed9 [∀ e, Nonempty (Elt F e)] (offO : Fin 1 → Nat) (inbO : ∀ a, offO a + S4096.size a ≤ S8388608.size a)
    (j : ℕ) (hj : j < 64) (hO : offO = ![4096 * (64 * wN L + j)]) (Y : Buf (Elt F) (outLoc d))
    (f : Buf (Elt F) ((Memref.whole cc0_scratch4 : Memref sig .scVector .vmem S4096 .f32).view.loc (thrL d L)))
    (Ls : List (View.Piece (Elt F) S4096 .f32)) (Bc : S32768.Idx → Elt F .f32) (hBc : Bc = inBuf m d L j hj)
    (hL : ∀ p ∈ Ls, GoodPiece Bc (selN m d) (selN_lt m d) p) (hcov : ∀ y : S4096.Idx, ∃ p ∈ Ls, y ∈ p.1.set) :
    ((outS offO inbO).view.loc (thrL d L) ↦[(outS offO inbO).view.set]{fullShare}
        (outS offO inbO).view.writes (Elt F) Y
          [⟨Rect.whole S4096, ReadAs.same.apply (View.read (Elt F) (Memref.whole cc0_scratch4 : Memref sig .scVector .vmem S4096 .f32).view
            ((Memref.whole cc0_scratch4 : Memref sig .scVector .vmem S4096 .f32).view.writes (Elt F) f Ls))⟩] : sProp 𝕄)
      = outAt d L (Y1 m d) j := by
  have hval : ∀ i ∈ (outS offO inbO).view.set,
      ((outS offO inbO).view.writes (Elt F) Y
        [⟨Rect.whole S4096, ReadAs.same.apply (View.read (Elt F) (Memref.whole cc0_scratch4 : Memref sig .scVector .vmem S4096 .f32).view
          ((Memref.whole cc0_scratch4 : Memref sig .scVector .vmem S4096 .f32).view.writes (Elt F) f Ls))⟩]) i = Y1 m d i :=
    out_value_of m d L j hj offO inbO _ (inb_in L j hj) hO rfl Bc hBc _
      (fun y => read_of_good _ _ Ls Bc (selN m d) (selN_lt m d) hL hcov y) Y
  rw [pointsTo_congr hval, pts_outS d L offO inbO j hj hO, outAt_lt d L _ hj]

/-- The same, with the one shape written out. -/
theorem flOut8_intro' [∀ e, Nonempty (Elt F e)] (sm : DmaSem sig) (offO : Fin 1 → Nat) (inbO : ∀ a, offO a + S4096.size a ≤ S8388608.size a)
    (j : ℕ) (hj : j < 64) (hO : offO = ![4096 * (64 * wN L + j)]) (Y : Buf (Elt F) (outLoc d))
    (f : Buf (Elt F) ((Memref.whole cc0_scratch3 : Memref sig .scVector .vmem S4096 .f32).view.loc (thrL d L)))
    (Ls : List (View.Piece (Elt F) S4096 .f32)) (Bc : S32768.Idx → Elt F .f32) (hBc : Bc = inBuf m d L j hj)
    (hL : ∀ p ∈ Ls, GoodPiece Bc (selN m d) (selN_lt m d) p) (hcov : ∀ y : S4096.Idx, ∃ p ∈ Ls, y ∈ p.1.set) :
    (Transfers.Flight countersEmb (thrL d L) (SemLoc.dma sm) default 131072
      iprop(((outS offO inbO).view.loc (thrL d L) ↦[(outS offO inbO).view.set]{fullShare}
            (outS offO inbO).view.writes (Elt F) Y
              [⟨Rect.whole S4096, ReadAs.same.apply (View.read (Elt F) (Memref.whole cc0_scratch3 : Memref sig .scVector .vmem S4096 .f32).view
                ((Memref.whole cc0_scratch3 : Memref sig .scVector .vmem S4096 .f32).view.writes (Elt F) f Ls))⟩])
          ∗ ((Memref.whole cc0_scratch3 : Memref sig .scVector .vmem S4096 .f32).view.loc (thrL d L)
              ↦[(Memref.whole cc0_scratch3 : Memref sig .scVector .vmem S4096 .f32).view.set]{fullShare}
              (Memref.whole cc0_scratch3 : Memref sig .scVector .vmem S4096 .f32).view.writes (Elt F) f Ls)) : sProp 𝕄)
      ⊢ Transfers.Flight countersEmb (thrL d L) (SemLoc.dma sm) default 131072
          iprop(outAt d L (Y1 m d) j ∗ ((Memref.whole cc0_scratch3 : Memref sig .scVector .vmem S4096 .f32).view.loc (thrL d L)
            ↦[(Memref.whole cc0_scratch3 : Memref sig .scVector .vmem S4096 .f32).view.set]{fullShare}
            (Memref.whole cc0_scratch3 : Memref sig .scVector .vmem S4096 .f32).view.writes (Elt F) f Ls)) :=
  flOut8_intro m d L sm offO inbO j hj hO Y f Ls Bc hBc hL hcov

/-- The same, with the one shape written out. -/
theorem flOut9_intro' [∀ e, Nonempty (Elt F e)] (sm : DmaSem sig) (offO : Fin 1 → Nat) (inbO : ∀ a, offO a + S4096.size a ≤ S8388608.size a)
    (j : ℕ) (hj : j < 64) (hO : offO = ![4096 * (64 * wN L + j)]) (Y : Buf (Elt F) (outLoc d))
    (f : Buf (Elt F) ((Memref.whole cc0_scratch4 : Memref sig .scVector .vmem S4096 .f32).view.loc (thrL d L)))
    (Ls : List (View.Piece (Elt F) S4096 .f32)) (Bc : S32768.Idx → Elt F .f32) (hBc : Bc = inBuf m d L j hj)
    (hL : ∀ p ∈ Ls, GoodPiece Bc (selN m d) (selN_lt m d) p) (hcov : ∀ y : S4096.Idx, ∃ p ∈ Ls, y ∈ p.1.set) :
    (Transfers.Flight countersEmb (thrL d L) (SemLoc.dma sm) default 131072
      iprop(((outS offO inbO).view.loc (thrL d L) ↦[(outS offO inbO).view.set]{fullShare}
            (outS offO inbO).view.writes (Elt F) Y
              [⟨Rect.whole S4096, ReadAs.same.apply (View.read (Elt F) (Memref.whole cc0_scratch4 : Memref sig .scVector .vmem S4096 .f32).view
                ((Memref.whole cc0_scratch4 : Memref sig .scVector .vmem S4096 .f32).view.writes (Elt F) f Ls))⟩])
          ∗ ((Memref.whole cc0_scratch4 : Memref sig .scVector .vmem S4096 .f32).view.loc (thrL d L)
              ↦[(Memref.whole cc0_scratch4 : Memref sig .scVector .vmem S4096 .f32).view.set]{fullShare}
              (Memref.whole cc0_scratch4 : Memref sig .scVector .vmem S4096 .f32).view.writes (Elt F) f Ls)) : sProp 𝕄)
      ⊢ Transfers.Flight countersEmb (thrL d L) (SemLoc.dma sm) default 131072
          iprop(outAt d L (Y1 m d) j ∗ ((Memref.whole cc0_scratch4 : Memref sig .scVector .vmem S4096 .f32).view.loc (thrL d L)
            ↦[(Memref.whole cc0_scratch4 : Memref sig .scVector .vmem S4096 .f32).view.set]{fullShare}
            (Memref.whole cc0_scratch4 : Memref sig .scVector .vmem S4096 .f32).view.writes (Elt F) f Ls)) :=
  flOut9_intro m d L sm offO inbO j hj hO Y f Ls Bc hBc hL hcov

end Cert.KernelIdeal.Hand

end
-- ==== Proof.Region.lean ====
/-
  One trip of the body's loop. Trip k (the kernel's pair k + 1) finds operand chunks 2k+2 and 2k+3 on their way into
  the two chunk buffers and result chunks 2k and 2k+1 on their way out of the two result buffers. It waits for the
  first operand chunk and for the first result buffer's copy, gathers: vector n = 128·t + g of the 256 is read at
  the index vector s + 8·lane + 16384·t + 128·g, i.e. elements 8·(16n + lane) + s of the chunk, and is stored at
  elements 16n … 16n+15 of the result buffer, which therefore holds y ↦ chunk[8·y + s]; it starts that buffer's copy
  to result chunk 2k+2 and the fetch of operand chunk 2k+4; then the same on the second pair of buffers for chunks
  2k+3, 2k+1 → 2k+3, 2k+5. So the trip ends as the next one starts, two further along; every index vector stays inside
  the 32768-element chunk because s ≤ 7.
-/
import proofs.«203709_g27616639714075_cont_sun_c4_439_12_alg».proof.Proof.Flights
import proofs.«203709_g27616639714075_cont_sun_c4_439_12_alg».proof.Proof.RowIdx
import proofs.«203709_g27616639714075_cont_sun_c4_439_12_alg».proof.Proof.Gen.KernelIdeal.Skeleton
import Idealize.ShloMosaic.Lib.Ring
import Idealize.ShloMosaic.Lib.Tactic

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "inW" => (Memref.whole Cert.KernelIdeal.main_v0_scv : Memref Cert.KernelIdeal.sig Kind.scVector Space.hbm Cert.KernelIdeal.S67108864 EltTy.f32)
local notation "selW" => (Memref.whole Cert.KernelIdeal.main_v1_scv : Memref Cert.KernelIdeal.sig Kind.scVector Space.hbm Cert.KernelIdeal.S16 EltTy.i32)
local notation "outW" => (Memref.whole Cert.KernelIdeal.main_v2_scv : Memref Cert.KernelIdeal.sig Kind.scVector Space.hbm Cert.KernelIdeal.S8388608 EltTy.f32)
local notation "s5W" => (Memref.whole Cert.KernelIdeal.cc0_scratch0 : Memref Cert.KernelIdeal.sig Kind.scVector Space.vmem Cert.KernelIdeal.S16 EltTy.i32)
local notation "b6W" => (Memref.whole Cert.KernelIdeal.cc0_scratch1 : Memref Cert.KernelIdeal.sig Kind.scVector Space.vmem Cert.KernelIdeal.S32768 EltTy.f32)
local notation "b7W" => (Memref.whole Cert.KernelIdeal.cc0_scratch2 : Memref Cert.KernelIdeal.sig Kind.scVector Space.vmem Cert.KernelIdeal.S32768 EltTy.f32)
local notation "o8W" => (Memref.whole Cert.KernelIdeal.cc0_scratch3 : Memref Cert.KernelIdeal.sig Kind.scVector Space.vmem Cert.KernelIdeal.S4096 EltTy.f32)
local notation "o9W" => (Memref.whole Cert.KernelIdeal.cc0_scratch4 : Memref Cert.KernelIdeal.sig Kind.scVector Space.vmem Cert.KernelIdeal.S4096 EltTy.f32)

variable (m : (ℓ : Loc nD τ sig) → Buf (Elt F) ℓ) (d : Dev nD) (L : grid0.Coords)

/-- The four semaphores of the loop, as numbers. -/
abbrev sm0 : DmaSem sig := ⟨0, by decide⟩
abbrev sm1 : DmaSem sig := ⟨1, by decide⟩
abbrev sm2 : DmaSem sig := ⟨2, by decide⟩
abbrev sm3 : DmaSem sig := ⟨3, by decide⟩

/-- Before trip `k` of the loop (the kernel's pair `k + 1`): operand chunks `2k+2`, `2k+3` are on their way into the two
    chunk buffers, result chunks `2k`, `2k+1` on their way out of the two result buffers; operand chunks below `2k+2`
    have come back and those from `2k+4` on are still to be fetched; result chunks below `2k` are written, those from
    `2k+2` on untouched. -/
def inv (O : CellTallies nD τ sig (HIx 1)) (W : Waits sig (HIx 1)) (k : ℕ) (_acc : BitVec 32) : sProp 𝕄 :=
  iprop((Transfers.MayWaits (thrL d L) (none : HIx 1) O : sProp 𝕄)
    ∗ flIn6 m d L sm0 (2 * k + 2) ∗ flIn7 m d L sm1 (2 * k + 3)
    ∗ (∃ g8, flOut8 m d L sm2 (2 * k) g8 ∗ ((o8W).view.loc (thrL d L) ↦[Finset.univ \ (o8W).view.set]{fullShare} g8))
    ∗ (∃ g9, flOut9 m d L sm3 (2 * k + 1) g9 ∗ ((o9W).view.loc (thrL d L) ↦[Finset.univ \ (o9W).view.set]{fullShare} g9))
    ∗ inPile d L (X1 m d) 0 (2 * k + 2) ∗ inPile d L (X1 m d) (2 * k + 4) 64
    ∗ outPile d L (Y1 m d) 0 (2 * k) ∗ outPile d L (m (outLoc d)) (2 * k + 2) 64
    ∗ ∃ W', ⌜∀ p ∈ W', p ∈ W ∨ p.2 = none⌝ ∗ owes (thrL d L) O W')

omit [FloatOps F] in
theorem trips_eq : k0_t1_loop.trips = 30 := by decide

set_option maxHeartbeats 40000000 in
theorem region_run [∀ e, Nonempty (Elt F e)] (O : CellTallies nD τ sig (HIx 1)) (W : Waits sig (HIx 1))
    (sv io : IVec S16 32) (hsv : ∀ l, (sv l).toNat = selN m d) (hs7 : selN m d ≤ 7) (hio : ∀ l : S16.Idx, (io l).toNat = (l 0).val)
    (v8 v10 : BitVec 32) (v1584 : IVec S16 32) (v2077 : IVec S16 32) (k : Fin k0_t1_loop.trips) (acc : BitVec 32) :
    inv m d L O W k.val acc
      ⊢ wp frame (wpE (defs₀ (F := F)) 𝒱₀ (thrL d L) none) Set.univ
          (k0_t1_body L inW (Memref.isWhole_whole _) selW (Memref.isWhole_whole _) outW (Memref.isWhole_whole _)
            s5W (Memref.isWhole_whole _) b6W (Memref.isWhole_whole _) b7W (Memref.isWhole_whole _) o8W (Memref.isWhole_whole _) o9W (Memref.isWhole_whole _)
            cc0_scratch5 cc0_scratch6 cc0_scoped0 (addi sv (muli (broadcast S16 8#32) io)) v8 v10 v1584 v2077 k acc)
          (inv m d L O W (k.val + 1)) := by
  have hk : k.val < 30 := trips_eq ▸ k.isLt
  unfold inv inPile outPile
  rw [flIn6_lt m d L sm0 (by omega : 2 * k.val + 2 < 64), flIn7_lt m d L sm1 (by omega : 2 * k.val + 3 < 64)]
  unfold flOut8 flOut9
  rw [inAt_lt d L _ (by omega : 2 * k.val + 2 < 64), inAt_lt d L _ (by omega : 2 * k.val + 3 < 64),
    outAt_lt d L (Y1 m d) (by omega : 2 * k.val < 64), outAt_lt d L (Y1 m d) (by omega : 2 * k.val + 1 < 64),
    ← pts_inS d L (k0_off6 L k) (k0_off6_inb L k) (2 * k.val + 2) (by omega) (off_in6 L k),
    ← pts_inS d L (k0_off10 L k) (k0_off10_inb L k) (2 * k.val + 3) (by omega) (off_in10 L k),
    ← pts_outS d L (k0_off7 L k) (k0_off7_inb L k) (2 * k.val) (by omega) (off_out7 L k),
    ← pts_outS d L (k0_off11 L k) (k0_off11_inb L k) (2 * k.val + 1) (by omega) (off_out11 L k)]
  rw [bigSep_Ico_pop_left' (inAt d L (X1 m d)) (a := 2 * k.val + 4) (a' := 2 * k.val + 5) (b := 64) (by omega) (by omega),
    bigSep_Ico_pop_left' (inAt d L (X1 m d)) (a := 2 * k.val + 5) (a' := 2 * k.val + 6) (b := 64) (by omega) (by omega),
    bigSep_Ico_pop_left' (outAt d L (m (outLoc d))) (a := 2 * k.val + 2) (a' := 2 * k.val + 3) (b := 64) (by omega) (by omega),
    bigSep_Ico_pop_left' (outAt d L (m (outLoc d))) (a := 2 * k.val + 3) (a' := 2 * k.val + 4) (b := 64) (by omega) (by omega),
    inAt_lt d L _ (by omega : 2 * k.val + 4 < 64), inAt_lt d L _ (by omega : 2 * k.val + 5 < 64),
    outAt_lt d L _ (by omega : 2 * k.val + 2 < 64), outAt_lt d L _ (by omega : 2 * k.val + 3 < 64),
    ← pts_inS d L (k0_off9 L k) (k0_off9_inb L k) (2 * k.val + 4) (by omega) (off_in9 L k),
    ← pts_inS d L (k0_off13 L k) (k0_off13_inb L k) (2 * k.val + 5) (by omega) (off_in13 L k),
    ← pts_outS d L (k0_off8 L k) (k0_off8_inb L k) (2 * k.val + 2) (by omega) (off_out8 L k),
    ← pts_outS d L (k0_off12 L k) (k0_off12_inb L k) (2 * k.val + 3) (by omega) (off_out12 L k)]
  iintro ⟨Hmw, Hf6, Hf7, ⟨%g8, Hf8, H8r⟩, ⟨%g9, Hf9, H9r⟩, HinD, ⟨Hc4, Hc5, HinT⟩, HoutD, ⟨Hd2, Hd3, HoutT⟩, %W', %hW', HO⟩
  sl_exec (disch := exact Cert.Sel.inb_of_two hsv hs7 hio _ _ (by decide) (by decide) (by decide))
  repeat (sl_respell [SparseCore.vectorLoadIdx]; sl_exec (disch := exact Cert.Sel.inb_of_two hsv hs7 hio _ _ (by decide) (by decide) (by decide)))
  sl_step
  rw [show 2 * (k.val + 1) + 2 = 2 * k.val + 4 by omega, show 2 * (k.val + 1) + 3 = 2 * k.val + 5 by omega,
    show 2 * (k.val + 1) + 4 = 2 * k.val + 6 by omega, show 2 * (k.val + 1) + 1 = 2 * k.val + 3 by omega,
    show 2 * (k.val + 1) = 2 * k.val + 2 by omega]
  rw [bigSep_Ico_push_right' (inAt d L (X1 m d)) (a := 0) (b := 2 * k.val + 3) (b' := 2 * k.val + 4) (by omega) (by omega),
    bigSep_Ico_push_right' (inAt d L (X1 m d)) (a := 0) (b := 2 * k.val + 2) (b' := 2 * k.val + 3) (by omega) (by omega),
    bigSep_Ico_push_right' (outAt d L (Y1 m d)) (a := 0) (b := 2 * k.val + 1) (b' := 2 * k.val + 2) (by omega) (by omega),
    bigSep_Ico_push_right' (outAt d L (Y1 m d)) (a := 0) (b := 2 * k.val) (b' := 2 * k.val + 1) (by omega) (by omega),
    inAt_lt d L _ (by omega : 2 * k.val + 3 < 64), inAt_lt d L _ (by omega : 2 * k.val + 2 < 64),
    outAt_lt d L (Y1 m d) (by omega : 2 * k.val + 1 < 64), outAt_lt d L (Y1 m d) (by omega : 2 * k.val < 64),
    ← pts_inS d L (k0_off10 L k) (k0_off10_inb L k) (2 * k.val + 3) (by omega) (off_in10 L k),
    ← pts_inS d L (k0_off6 L k) (k0_off6_inb L k) (2 * k.val + 2) (by omega) (off_in6 L k),
    ← pts_outS d L (k0_off11 L k) (k0_off11_inb L k) (2 * k.val + 1) (by omega) (off_out11 L k),
    ← pts_outS d L (k0_off7 L k) (k0_off7_inb L k) (2 * k.val) (by omega) (off_out7 L k)]
  isplitl [Hmw]; · iexact Hmw
  isplitl [Hf6]
  · iapply (flIn6_intro m d L sm0 (k0_off9 L k) (k0_off9_inb L k) (2 * k.val + 4) (by omega) (off_in9 L k) _); iexact Hf6
  isplitl [Hf7]
  · iapply (flIn7_intro m d L sm1 (k0_off13 L k) (k0_off13_inb L k) (2 * k.val + 5) (by omega) (off_in13 L k) _); iexact Hf7
  isplitl [Hf8 H8r]
  · iexists _
    isplitl [Hf8]
    · iapply (flOut8_intro' m d L sm2 (k0_off8 L k) (k0_off8_inb L k) (2 * k.val + 2) (by omega) (off_out8 L k) _ _ _
        (inBuf m d L (2 * k.val + 2) (by omega)) rfl ?hL8 ?hc8)
      rotate_left 2
      · iexact Hf8
      case hL8 =>
        repeat' (first
        | refine List.forall_mem_cons.mpr ⟨goodPiece_of_load hsv hs7 hio (Memref.readAt_whole _ _ _) (by decide) (by decide) (by decide), ?_⟩
        | exact fun _ h => nomatch h)
      case hc8 => exact View.cover_of_tiledL _ S16.size (by sl_kernel_rfl)
    · iexact H8r
  isplitl [Hf9 H9r]
  · iexists _
    isplitl [Hf9]
    · iapply (flOut9_intro' m d L sm3 (k0_off12 L k) (k0_off12_inb L k) (2 * k.val + 3) (by omega) (off_out12 L k) _ _ _
        (inBuf m d L (2 * k.val + 3) (by omega)) rfl ?hL9 ?hc9)
      rotate_left 2
      · iexact Hf9
      case hL9 =>
        repeat' (first
        | refine List.forall_mem_cons.mpr ⟨goodPiece_of_load hsv hs7 hio (Memref.readAt_whole _ _ _) (by decide) (by decide) (by decide), ?_⟩
        | exact fun _ h => nomatch h)
      case hc9 => exact View.cover_of_tiledL _ S16.size (by sl_kernel_rfl)
    · iexact H9r
  isplitl [HinD Hf6_src Hf7_src]
  · isplitl [Hf7_src]; · iexact Hf7_src
    isplitl [Hf6_src]; · iexact Hf6_src
    iexact HinD
  isplitl [HinT]; · iexact HinT
  isplitl [HoutD Hf8_dst Hf9_dst]
  · isplitl [Hf9_dst]; · iexact Hf9_dst
    isplitl [Hf8_dst]; · iexact Hf8_dst
    iexact HoutD
  isplitl [HoutT]; · iexact HoutT
  iexists (insert (SemLoc.dma sm3, (default : HIx 1)) (insert (SemLoc.dma sm1, (default : HIx 1))
    (insert (SemLoc.dma sm2, (default : HIx 1)) (insert (SemLoc.dma sm0, (default : HIx 1)) W')))); isplitr
  · ipureintro; intro p hp
    simp only [Finset.mem_insert] at hp
    rcases hp with rfl | rfl | rfl | rfl | hp
    · exact .inr rfl
    · exact .inr rfl
    · exact .inr rfl
    · exact .inr rfl
    · exact hW' p hp
  · iexact HO

end Cert.KernelIdeal.Hand

end
-- ==== Proof.Tile.lean ====
/-
  One tile's task. Tile i of SparseCore c is worker w = 2·i + c: it owns tokens 128·w … 128·w + 127 in 64 chunks of two
  tokens; chunk j is elements 32768·(64·w + j) … of the flat operand and elements 4096·(64·w + j) … of the flat result.
  The body fetches the selector's sixteen copies, builds the vector s + 8·lane once, and then runs the chunks through
  two chunk buffers and two result buffers, one copy in flight per semaphore: fetch chunks 0 and 1; gather chunk 0,
  start writing it out, fetch chunk 2; the same for 1 and 3; thirty trips of the loop (Proof/Region.lean) for chunks
  2 … 61; the last two chunks; the last two waits. Each gather of a chunk leaves y ↦ chunk[8·y + s] in the result
  buffer, so result chunk j ends as the kernel's function Y1 restricted to it; the operand's chunks and the selector
  come back as they were. What is proved: from the tile's chunks and its own scratch buffers and semaphores at zero,
  the task terminates without a fault and hands back the same with the result's chunks at Y1 — the launch theorem's
  obligation for a vector-subcore kernel.
-/
import proofs.«203709_g27616639714075_cont_sun_c4_439_12_alg».proof.Proof.Region
import Idealize.ShloMosaic.Lib.SparseCore.Launch

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "inW" => (Memref.whole Cert.KernelIdeal.main_v0_scv : Memref Cert.KernelIdeal.sig Kind.scVector Space.hbm Cert.KernelIdeal.S67108864 EltTy.f32)
local notation "selW" => (Memref.whole Cert.KernelIdeal.main_v1_scv : Memref Cert.KernelIdeal.sig Kind.scVector Space.hbm Cert.KernelIdeal.S16 EltTy.i32)
local notation "outW" => (Memref.whole Cert.KernelIdeal.main_v2_scv : Memref Cert.KernelIdeal.sig Kind.scVector Space.hbm Cert.KernelIdeal.S8388608 EltTy.f32)
local notation "s5W" => (Memref.whole Cert.KernelIdeal.cc0_scratch0 : Memref Cert.KernelIdeal.sig Kind.scVector Space.vmem Cert.KernelIdeal.S16 EltTy.i32)
local notation "b6W" => (Memref.whole Cert.KernelIdeal.cc0_scratch1 : Memref Cert.KernelIdeal.sig Kind.scVector Space.vmem Cert.KernelIdeal.S32768 EltTy.f32)
local notation "b7W" => (Memref.whole Cert.KernelIdeal.cc0_scratch2 : Memref Cert.KernelIdeal.sig Kind.scVector Space.vmem Cert.KernelIdeal.S32768 EltTy.f32)
local notation "o8W" => (Memref.whole Cert.KernelIdeal.cc0_scratch3 : Memref Cert.KernelIdeal.sig Kind.scVector Space.vmem Cert.KernelIdeal.S4096 EltTy.f32)
local notation "o9W" => (Memref.whole Cert.KernelIdeal.cc0_scratch4 : Memref Cert.KernelIdeal.sig Kind.scVector Space.vmem Cert.KernelIdeal.S4096 EltTy.f32)

variable (m : (ℓ : Loc nD τ sig) → Buf (Elt F) ℓ) (d : Dev nD) (L : grid0.Coords)

set_option quotPrecheck false in
local notation "ptsI(" off ", " inb ", " f ")" => (View.loc (thrL d L) (inS off inb).view ↦[(inS off inb).view.set]{fullShare} f)
set_option quotPrecheck false in
local notation "ptsO(" off ", " inb ", " f ")" => (View.loc (thrL d L) (outS off inb).view ↦[(outS off inb).view.set]{fullShare} f)

omit [FloatOps F] in
/-- The tile's operand chunks: the first four as the body names them, the rest as a pile. -/
theorem in_start : (inChunks d (L 0) (L 1) (X1 m d) : sProp 𝕄) = iprop(
    ptsI(k0_off1 L 0#32, k0_off1_inb L 0, X1 m d) ∗ ptsI(k0_off1 L 32768#32, k0_off1_inb L 1, X1 m d)
    ∗ ptsI(k0_off3 L 65536#32, k0_off3_inb L 1, X1 m d) ∗ ptsI(k0_off5 L 98304#32, k0_off5_inb L 0, X1 m d)
    ∗ inPile d L (X1 m d) 4 64) := by
  rw [inChunks_eq_pile]; unfold inPile
  rw [bigSep_Ico_pop_left' (inAt d L (X1 m d)) (a := 0) (a' := 1) (b := 64) (by omega) rfl,
    bigSep_Ico_pop_left' (inAt d L (X1 m d)) (a := 1) (a' := 2) (b := 64) (by omega) rfl,
    bigSep_Ico_pop_left' (inAt d L (X1 m d)) (a := 2) (a' := 3) (b := 64) (by omega) rfl,
    bigSep_Ico_pop_left' (inAt d L (X1 m d)) (a := 3) (a' := 4) (b := 64) (by omega) rfl,
    inAt_lt d L _ (by omega : 0 < 64), inAt_lt d L _ (by omega : 1 < 64), inAt_lt d L _ (by omega : 2 < 64), inAt_lt d L _ (by omega : 3 < 64),
    ← pts_inS d L (k0_off1 L 0#32) (k0_off1_inb L 0) 0 (by omega) (off_in1_0 L),
    ← pts_inS d L (k0_off1 L 32768#32) (k0_off1_inb L 1) 1 (by omega) (off_in1_1 L),
    ← pts_inS d L (k0_off3 L 65536#32) (k0_off3_inb L 1) 2 (by omega) (off_in3_1 L),
    ← pts_inS d L (k0_off5 L 98304#32) (k0_off5_inb L 0) 3 (by omega) (off_in5_0 L)]

omit [FloatOps F] in
/-- The tile's result chunks: the first two as the body names them, the rest as a pile. -/
theorem out_start (f : Buf (Elt F) (outLoc d)) : (outChunks d (L 0) (L 1) f : sProp 𝕄) = iprop(
    ptsO(k0_off2 L, k0_off2_inb L, f) ∗ ptsO(k0_off4 L 4096#32, k0_off4_inb L 0, f) ∗ outPile d L f 2 64) := by
  rw [outChunks_eq_pile]; unfold outPile
  rw [bigSep_Ico_pop_left' (outAt d L f) (a := 0) (a' := 1) (b := 64) (by omega) rfl,
    bigSep_Ico_pop_left' (outAt d L f) (a := 1) (a' := 2) (b := 64) (by omega) rfl,
    outAt_lt d L _ (by omega : 0 < 64), outAt_lt d L _ (by omega : 1 < 64),
    ← pts_outS d L (k0_off2 L) (k0_off2_inb L) 0 (by omega) (off_out2 L),
    ← pts_outS d L (k0_off4 L 4096#32) (k0_off4_inb L 0) 1 (by omega) (off_out4_0 L)]

omit [FloatOps F] in
set_option maxHeartbeats 4000000 in
/-- After the loop's thirty trips: chunks 62 and 63 of the operand on their way in, 60 and 61 of the result on their
    way out, result chunks 62 and 63 still to be written — in the spelling the body's last stretch uses. -/
theorem inv_at_end (O : CellTallies nD τ sig (HIx 1)) (W : Waits sig (HIx 1)) (n : ℕ) (hn : n = 30) (acc : BitVec 32) :
    inv m d L O W n acc = iprop((Transfers.MayWaits (thrL d L) (none : HIx 1) O : sProp 𝕄)
      ∗ Transfers.Flight countersEmb (thrL d L) (SemLoc.dma sm0) default 1048576
          iprop(((b6W).view.loc (thrL d L) ↦{fullShare} inBuf m d L 62 (by omega)) ∗ ptsI(k0_off5 L 2031616#32, k0_off5_inb L 1, X1 m d))
      ∗ Transfers.Flight countersEmb (thrL d L) (SemLoc.dma sm1) default 1048576
          iprop(((b7W).view.loc (thrL d L) ↦{fullShare} inBuf m d L 63 (by omega)) ∗ ptsI(k0_off15 L, k0_off15_inb L, X1 m d))
      ∗ (∃ g8, Transfers.Flight countersEmb (thrL d L) (SemLoc.dma sm2) default 131072
            iprop(ptsO(k0_off4 L 245760#32, k0_off4_inb L 1, Y1 m d) ∗ ((o8W).view.loc (thrL d L) ↦[(o8W).view.set]{fullShare} g8))
          ∗ ((o8W).view.loc (thrL d L) ↦[Finset.univ \ (o8W).view.set]{fullShare} g8))
      ∗ (∃ g9, Transfers.Flight countersEmb (thrL d L) (SemLoc.dma sm3) default 131072
            iprop(ptsO(k0_off14 L 249856#32, k0_off14_inb L 0, Y1 m d) ∗ ((o9W).view.loc (thrL d L) ↦[(o9W).view.set]{fullShare} g9))
          ∗ ((o9W).view.loc (thrL d L) ↦[Finset.univ \ (o9W).view.set]{fullShare} g9))
      ∗ inPile d L (X1 m d) 0 62 ∗ emp
      ∗ outPile d L (Y1 m d) 0 60
      ∗ (ptsO(k0_off16 L 253952#32, k0_off16_inb L 0, m (outLoc d)) ∗ ptsO(k0_off16 L 258048#32, k0_off16_inb L 1, m (outLoc d)) ∗ emp)
      ∗ ∃ W', ⌜∀ p ∈ W', p ∈ W ∨ p.2 = none⌝ ∗ owes (thrL d L) O W') := by
  subst hn
  unfold inv inPile outPile flOut8 flOut9
  rw [show 2 * 30 + 2 = 62 from rfl, show 2 * 30 + 3 = 63 from rfl, show 2 * 30 + 4 = 64 from rfl, show 2 * 30 + 1 = 61 from rfl, show 2 * 30 = 60 from rfl,
    flIn6_lt m d L sm0 (by omega : 62 < 64), flIn7_lt m d L sm1 (by omega : 63 < 64),
    bigSep_Ico_self,
    bigSep_Ico_pop_left' (outAt d L (m (outLoc d))) (a := 62) (a' := 63) (b := 64) (by omega) rfl,
    bigSep_Ico_pop_left' (outAt d L (m (outLoc d))) (a := 63) (a' := 64) (b := 64) (by omega) rfl,
    bigSep_Ico_self,
    inAt_lt d L _ (by omega : 62 < 64), inAt_lt d L _ (by omega : 63 < 64),
    outAt_lt d L (Y1 m d) (by omega : 60 < 64), outAt_lt d L (Y1 m d) (by omega : 61 < 64),
    outAt_lt d L (m (outLoc d)) (by omega : 62 < 64), outAt_lt d L (m (outLoc d)) (by omega : 63 < 64),
    ← pts_inS d L (k0_off5 L 2031616#32) (k0_off5_inb L 1) 62 (by omega) (off_in5_1 L),
    ← pts_inS d L (k0_off15 L) (k0_off15_inb L) 63 (by omega) (off_in15 L),
    ← pts_outS d L (k0_off4 L 245760#32) (k0_off4_inb L 1) 60 (by omega) (off_out4_1 L),
    ← pts_outS d L (k0_off14 L 249856#32) (k0_off14_inb L 0) 61 (by omega) (off_out14_0 L),
    ← pts_outS d L (k0_off16 L 253952#32) (k0_off16_inb L 0) 62 (by omega) (off_out16_0 L),
    ← pts_outS d L (k0_off16 L 258048#32) (k0_off16_inb L 1) 63 (by omega) (off_out16_1 L)]

set_option maxHeartbeats 4000000 in
/-- At the loop's entry: chunks 2 and 3 of the operand are on their way in, chunks 0 and 1 of the result on their way
    out (each the gathered function of its operand chunk), operand chunks 0 and 1 have come back. -/
theorem init_inv [∀ e, Nonempty (Elt F e)] (O : CellTallies nD τ sig (HIx 1)) (W W0 : Waits sig (HIx 1)) (hW0 : ∀ p ∈ W0, p ∈ W ∨ p.2 = none)
    (B6 : Buf (Elt F) ((b6W).view.loc (thrL d L))) (B7 : Buf (Elt F) ((b7W).view.loc (thrL d L)))
    (f8 : Buf (Elt F) ((o8W).view.loc (thrL d L))) (f9 : Buf (Elt F) ((o9W).view.loc (thrL d L)))
    (Ls8 Ls9 : List (View.Piece (Elt F) S4096 .f32)) (Bc8 Bc9 : S32768.Idx → Elt F .f32)
    (hBc8 : Bc8 = inBuf m d L 0 (by omega)) (hBc9 : Bc9 = inBuf m d L 1 (by omega))
    (hL8 : ∀ p ∈ Ls8, GoodPiece Bc8 (selN m d) (selN_lt m d) p) (hc8 : ∀ y : S4096.Idx, ∃ p ∈ Ls8, y ∈ p.1.set)
    (hL9 : ∀ p ∈ Ls9, GoodPiece Bc9 (selN m d) (selN_lt m d) p) (hc9 : ∀ y : S4096.Idx, ∃ p ∈ Ls9, y ∈ p.1.set) (acc : BitVec 32) :
    iprop((Transfers.MayWaits (thrL d L) (none : HIx 1) O : sProp 𝕄)
      ∗ Transfers.Flight countersEmb (thrL d L) (SemLoc.dma sm0) default 1048576
          iprop(((b6W).view.loc (thrL d L) ↦{fullShare} View.write (Elt F) (b6W).view B6
              (ReadAs.same.apply (View.read (Elt F) (inS (k0_off3 L 65536#32) (k0_off3_inb L 1)).view (X1 m d))) Finset.univ)
            ∗ ptsI(k0_off3 L 65536#32, k0_off3_inb L 1, X1 m d))
      ∗ Transfers.Flight countersEmb (thrL d L) (SemLoc.dma sm1) default 1048576
          iprop(((b7W).view.loc (thrL d L) ↦{fullShare} View.write (Elt F) (b7W).view B7
              (ReadAs.same.apply (View.read (Elt F) (inS (k0_off5 L 98304#32) (k0_off5_inb L 0)).view (X1 m d))) Finset.univ)
            ∗ ptsI(k0_off5 L 98304#32, k0_off5_inb L 0, X1 m d))
      ∗ Transfers.Flight countersEmb (thrL d L) (SemLoc.dma sm2) default 131072
          iprop(ptsO(k0_off2 L, k0_off2_inb L, (outS (k0_off2 L) (k0_off2_inb L)).view.writes (Elt F) (m (outLoc d))
              [⟨Rect.whole S4096, ReadAs.same.apply (View.read (Elt F) (o8W).view ((o8W).view.writes (Elt F) f8 Ls8))⟩])
            ∗ ((o8W).view.loc (thrL d L) ↦[(o8W).view.set]{fullShare} (o8W).view.writes (Elt F) f8 Ls8))
      ∗ ((o8W).view.loc (thrL d L) ↦[Finset.univ \ (o8W).view.set]{fullShare} (o8W).view.writes (Elt F) f8 Ls8)
      ∗ Transfers.Flight countersEmb (thrL d L) (SemLoc.dma sm3) default 131072
          iprop(ptsO(k0_off4 L 4096#32, k0_off4_inb L 0, (outS (k0_off4 L 4096#32) (k0_off4_inb L 0)).view.writes (Elt F) (m (outLoc d))
              [⟨Rect.whole S4096, ReadAs.same.apply (View.read (Elt F) (o9W).view ((o9W).view.writes (Elt F) f9 Ls9))⟩])
            ∗ ((o9W).view.loc (thrL d L) ↦[(o9W).view.set]{fullShare} (o9W).view.writes (Elt F) f9 Ls9))
      ∗ ((o9W).view.loc (thrL d L) ↦[Finset.univ \ (o9W).view.set]{fullShare} (o9W).view.writes (Elt F) f9 Ls9)
      ∗ ptsI(k0_off1 L 0#32, k0_off1_inb L 0, X1 m d) ∗ ptsI(k0_off1 L 32768#32, k0_off1_inb L 1, X1 m d)
      ∗ inPile d L (X1 m d) 4 64 ∗ outPile d L (m (outLoc d)) 2 64
      ∗ owes (thrL d L) O W0)
      ⊢ inv m d L O W 0 acc := by
  unfold inv inPile outPile
  rw [show 2 * 0 + 2 = 2 from rfl, show 2 * 0 + 3 = 3 from rfl, show 2 * 0 + 4 = 4 from rfl, show 2 * 0 + 1 = 1 from rfl, show 2 * 0 = 0 from rfl,
    bigSep_Ico_push_right' (inAt d L (X1 m d)) (a := 0) (b := 1) (b' := 2) (by omega) rfl,
    bigSep_Ico_push_right' (inAt d L (X1 m d)) (a := 0) (b := 0) (b' := 1) (by omega) rfl,
    bigSep_Ico_self, bigSep_Ico_self,
    inAt_lt d L _ (by omega : 1 < 64), inAt_lt d L _ (by omega : 0 < 64),
    ← pts_inS d L (k0_off1 L 32768#32) (k0_off1_inb L 1) 1 (by omega) (off_in1_1 L),
    ← pts_inS d L (k0_off1 L 0#32) (k0_off1_inb L 0) 0 (by omega) (off_in1_0 L)]
  iintro ⟨Hmw, Hi0, Hi1, Ho0, H8r, Ho1, H9r, Hin0, Hin1, HinR, HoutR, HO⟩
  isplitl [Hmw]; · iexact Hmw
  isplitl [Hi0]
  · iapply (flIn6_intro m d L sm0 (k0_off3 L 65536#32) (k0_off3_inb L 1) 2 (by omega) (off_in3_1 L) B6); iexact Hi0
  isplitl [Hi1]
  · iapply (flIn7_intro m d L sm1 (k0_off5 L 98304#32) (k0_off5_inb L 0) 3 (by omega) (off_in5_0 L) B7); iexact Hi1
  isplitl [Ho0 H8r]
  · iexists _
    isplitl [Ho0]
    · iapply (flOut8_intro m d L sm2 (k0_off2 L) (k0_off2_inb L) 0 (by omega) (off_out2 L) (m (outLoc d)) f8 Ls8 Bc8 hBc8 hL8 hc8); iexact Ho0
    · iexact H8r
  isplitl [Ho1 H9r]
  · iexists _
    isplitl [Ho1]
    · iapply (flOut9_intro m d L sm3 (k0_off4 L 4096#32) (k0_off4_inb L 0) 1 (by omega) (off_out4_0 L) (m (outLoc d)) f9 Ls9 Bc9 hBc9 hL9 hc9); iexact Ho1
    · iexact H9r
  isplitl [Hin0 Hin1]
  · isplitl [Hin1]; · iexact Hin1
    isplitl [Hin0]; · iexact Hin0
    iempintro
  isplitl [HinR]; · iexact HinR
  isplitr; · iempintro
  isplitl [HoutR]; · iexact HoutR
  iexists W0; isplitr
  · ipureintro; exact hW0
  · iexact HO

/-! ## The selector, as the tile reads it -/

omit [FloatOps F] in
/-- A one-element array has one index. -/
theorem idx_S1_eq (i j : S1.Idx) : i = j := by
  funext a
  apply Fin.ext
  have hi : (i a).val < 1 := by have := (i a).isLt; match a with | ⟨0, _⟩ => exact this
  have hj : (j a).val < 1 := by have := (j a).isLt; match a with | ⟨0, _⟩ => exact this
  omega

omit [FloatOps F] in
/-- Every lane of the repeated selector is the selector word. -/
theorem SelV_apply (l : S16.Idx) : SelV m d l = m (a2Loc d) (ValueIdx.ix1 0) := by
  show (m (a2Loc d) : S1.Idx → Elt F .i32) _ = (m (a2Loc d) : S1.Idx → Elt F .i32) _
  exact congrArg _ (idx_S1_eq _ _)

omit [FloatOps F] in
/-- Under the range, the selector word is the position `selN`. -/
theorem selN_eq (hpre : PreOK m) : (m (a2Loc d) (ValueIdx.ix1 0)).toNat = selN m d :=
  (Cert.Sel.pos_val_of_le _ (hpre d)).symm

omit [FloatOps F] in
theorem pts_sel (q : PosShare TreeShare) (f : Buf (Elt F) (selLoc d)) :
    ((selW).view.loc (thrL d L) ↦{q} f : sProp 𝕄) = selLoc d ↦{q} f := by
  simp only [Memref.view_whole, View.set_whole]

omit [FloatOps F] in
theorem pts_s5 (f : Buf (Elt F) ((thrL d L).loc cc0_scratch0)) : ((s5W).view.loc (thrL d L) ↦{fullShare} f : sProp 𝕄) = (thrL d L).loc cc0_scratch0 ↦{fullShare} f := rfl
omit [FloatOps F] in
theorem pts_b6 (f : Buf (Elt F) ((thrL d L).loc cc0_scratch1)) : ((b6W).view.loc (thrL d L) ↦{fullShare} f : sProp 𝕄) = (thrL d L).loc cc0_scratch1 ↦{fullShare} f := rfl
omit [FloatOps F] in
theorem pts_b7 (f : Buf (Elt F) ((thrL d L).loc cc0_scratch2)) : ((b7W).view.loc (thrL d L) ↦{fullShare} f : sProp 𝕄) = (thrL d L).loc cc0_scratch2 ↦{fullShare} f := rfl
omit [FloatOps F] in
theorem pts_o8 (f : Buf (Elt F) ((thrL d L).loc cc0_scratch3)) : ((o8W).view.loc (thrL d L) ↦{fullShare} f : sProp 𝕄) = (thrL d L).loc cc0_scratch3 ↦{fullShare} f := rfl
omit [FloatOps F] in
theorem pts_o9 (f : Buf (Elt F) ((thrL d L).loc cc0_scratch4)) : ((o9W).view.loc (thrL d L) ↦{fullShare} f : sProp 𝕄) = (thrL d L).loc cc0_scratch4 ↦{fullShare} f := rfl

omit [FloatOps F] in
/-- Putting a chunk on top of a pile, at the level of piles. -/
theorem inPile_push (f : Buf (Elt F) (inLoc d)) {a b b' : ℕ} (h : a ≤ b) (hb : b + 1 = b') :
    inPile d L f a b' = iprop(inAt d L f b ∗ inPile d L f a b) := by
  unfold inPile; exact bigSep_Ico_push_right' _ h hb
omit [FloatOps F] in
theorem outPile_push (f : Buf (Elt F) (outLoc d)) {a b b' : ℕ} (h : a ≤ b) (hb : b + 1 = b') :
    outPile d L f a b' = iprop(outAt d L f b ∗ outPile d L f a b) := by
  unfold outPile; exact bigSep_Ico_push_right' _ h hb

set_option maxHeartbeats 4000000 in
/-- At the end: every chunk of the operand is back, every chunk of the result holds the kernel's function (the last
    two as their copies left them), the five buffers and the five semaphores are the tile's own again. -/
theorem final_post [∀ e, Nonempty (Elt F e)] (O : CellTallies nD τ sig (HIx 1)) (W W1 : Waits sig (HIx 1)) (hW1 : ∀ p ∈ W1, p ∈ W ∨ p.2 = none)
    (c5 : Buf (Elt F) ((s5W).view.loc (thrL d L)))
    (g8 : Buf (Elt F) ((o8W).view.loc (thrL d L))) (g9 : Buf (Elt F) ((o9W).view.loc (thrL d L)))
    (Ls8 Ls9 : List (View.Piece (Elt F) S4096 .f32))
    (hL8 : ∀ p ∈ Ls8, GoodPiece (inBuf m d L 62 (by omega)) (selN m d) (selN_lt m d) p) (hc8 : ∀ y : S4096.Idx, ∃ p ∈ Ls8, y ∈ p.1.set)
    (hL9 : ∀ p ∈ Ls9, GoodPiece (inBuf m d L 63 (by omega)) (selN m d) (selN_lt m d) p) (hc9 : ∀ y : S4096.Idx, ∃ p ∈ Ls9, y ∈ p.1.set) :
    iprop(inPile d L (X1 m d) 0 62
      ∗ ptsI(k0_off5 L 2031616#32, k0_off5_inb L 1, X1 m d) ∗ ptsI(k0_off15 L, k0_off15_inb L, X1 m d)
      ∗ ((selW).view.loc (thrL d L) ↦{tShare (L 0) (L 1)} SelV m d)
      ∗ outPile d L (Y1 m d) 0 60
      ∗ ptsO(k0_off4 L 245760#32, k0_off4_inb L 1, Y1 m d) ∗ ptsO(k0_off14 L 249856#32, k0_off14_inb L 0, Y1 m d)
      ∗ ptsO(k0_off16 L 253952#32, k0_off16_inb L 0, (outS (k0_off16 L 253952#32) (k0_off16_inb L 0)).view.writes (Elt F) (m (outLoc d))
          [⟨Rect.whole S4096, ReadAs.same.apply (View.read (Elt F) (o8W).view ((o8W).view.writes (Elt F) g8 Ls8))⟩])
      ∗ ptsO(k0_off16 L 258048#32, k0_off16_inb L 1, (outS (k0_off16 L 258048#32) (k0_off16_inb L 1)).view.writes (Elt F) (m (outLoc d))
          [⟨Rect.whole S4096, ReadAs.same.apply (View.read (Elt F) (o9W).view ((o9W).view.writes (Elt F) g9 Ls9))⟩])
      ∗ ((s5W).view.loc (thrL d L) ↦{fullShare} c5)
      ∗ ((b6W).view.loc (thrL d L) ↦{fullShare} inBuf m d L 62 (by omega))
      ∗ ((b7W).view.loc (thrL d L) ↦{fullShare} inBuf m d L 63 (by omega))
      ∗ ((o8W).view.loc (thrL d L) ↦{fullShare} (o8W).view.writes (Elt F) g8 Ls8)
      ∗ ((o9W).view.loc (thrL d L) ↦{fullShare} (o9W).view.writes (Elt F) g9 Ls9)
      ∗ bigSep ((((((ownRefs (τ := τ) (.scVector (cV L) (jV L))).erase (refOf L cc0_scratch0)).erase (refOf L cc0_scratch1)).erase
              (refOf L cc0_scratch2)).erase (refOf L cc0_scratch3)).erase (refOf L cc0_scratch4))
              (fun b => iprop(∃ f, ((d, b) : Loc nD τ sig) ↦{fullShare} f))
      ∗ semVal (thrL d L, SemLoc.dma (⟨4, by decide⟩ : DmaSem sig)) 0
      ∗ semVal (thrL d L, SemLoc.dma sm0) 0 ∗ semVal (thrL d L, SemLoc.dma sm1) 0
      ∗ semVal (thrL d L, SemLoc.dma sm2) 0 ∗ semVal (thrL d L, SemLoc.dma sm3) 0
      ∗ bigSep (((((((ownCells (thrL d L)).erase (cellOf d L semSel)).erase (cellOf d L semIn0)).erase (cellOf d L semIn1)).erase
              (cellOf d L semOut0)).erase (cellOf d L semOut1))) (fun g => semVal g 0)
      ∗ owes (thrL d L) O W1)
      ⊢ iprop(tdT m d (L 0) (L 1) ∗ ownBufs (thrL d L) ∗ ownSems0 (thrL d L)
          ∗ ∃ W', ⌜∀ p ∈ W', p ∈ W ∨ p.2 = none⌝ ∗ owes (thrL d L) O W') := by
  rw [ownSems0_five, ownBufs_five,
    out_landed8 m d L (k0_off16 L 253952#32) (k0_off16_inb L 0) 62 (by omega) (off_out16_0 L) (m (outLoc d)) g8 Ls8 (inBuf m d L 62 (by omega)) rfl hL8 hc8,
    out_landed9 m d L (k0_off16 L 258048#32) (k0_off16_inb L 1) 63 (by omega) (off_out16_1 L) (m (outLoc d)) g9 Ls9 (inBuf m d L 63 (by omega)) rfl hL9 hc9]
  unfold tdT
  rw [inChunks_eq_pile d L, outChunks_eq_pile d L,
    inPile_push d L (X1 m d) (a := 0) (b := 63) (b' := 64) (by omega) rfl,
    inPile_push d L (X1 m d) (a := 0) (b := 62) (b' := 63) (by omega) rfl,
    outPile_push d L (Y1 m d) (a := 0) (b := 63) (b' := 64) (by omega) rfl,
    outPile_push d L (Y1 m d) (a := 0) (b := 62) (b' := 63) (by omega) rfl,
    outPile_push d L (Y1 m d) (a := 0) (b := 61) (b' := 62) (by omega) rfl,
    outPile_push d L (Y1 m d) (a := 0) (b := 60) (b' := 61) (by omega) rfl,
    inAt_lt d L _ (by omega : 63 < 64), inAt_lt d L _ (by omega : 62 < 64),
    outAt_lt d L (Y1 m d) (by omega : 61 < 64), outAt_lt d L (Y1 m d) (by omega : 60 < 64),
    ← pts_inS d L (k0_off15 L) (k0_off15_inb L) 63 (by omega) (off_in15 L),
    ← pts_inS d L (k0_off5 L 2031616#32) (k0_off5_inb L 1) 62 (by omega) (off_in5_1 L),
    ← pts_outS d L (k0_off14 L 249856#32) (k0_off14_inb L 0) 61 (by omega) (off_out14_0 L),
    ← pts_outS d L (k0_off4 L 245760#32) (k0_off4_inb L 1) 60 (by omega) (off_out4_1 L),
    ← pts_sel (F := F) d L]
  iintro ⟨HinD, Hi62, Hi63, Hsel, HoutD, Ho60, Ho61, Ho62, Ho63, H5, H6, H7, H8, H9, Hbufs, Hs4, Hs0, Hs1, Hs2, Hs3, Hsems, HO⟩
  isplitl [HinD Hi62 Hi63 Hsel HoutD Ho60 Ho61 Ho62 Ho63]
  · isplitl [HinD Hi62 Hi63]
    · isplitl [Hi63]; · iexact Hi63
      isplitl [Hi62]; · iexact Hi62
      iexact HinD
    isplitl [Hsel]; · iexact Hsel
    isplitl [Ho63]; · iexact Ho63
    isplitl [Ho62]; · iexact Ho62
    isplitl [Ho61]; · iexact Ho61
    isplitl [Ho60]; · iexact Ho60
    iexact HoutD
  isplitl [H5 H6 H7 H8 H9 Hbufs]
  · isplitl [H5]; · iexists _; iexact H5
    isplitl [H6]; · iexists _; iexact H6
    isplitl [H7]; · iexists _; iexact H7
    isplitl [H8]; · iexists _; iexact H8
    isplitl [H9]; · iexists _; iexact H9
    iexact Hbufs
  isplitl [Hs4 Hs0 Hs1 Hs2 Hs3 Hsems]
  · isplitl [Hs4]; · iexact Hs4
    isplitl [Hs0]; · iexact Hs0
    isplitl [Hs1]; · iexact Hs1
    isplitl [Hs2]; · iexact Hs2
    isplitl [Hs3]; · iexact Hs3
    iexact Hsems
  iexists W1; isplitr
  · ipureintro; exact hW1
  · iexact HO

set_option maxRecDepth 65536 in
set_option maxHeartbeats 40000000 in
theorem tile_body [∀ e, Nonempty (Elt F e)] (hF : (K (F := F)).Facts) (hpre : PreOK m) (O : CellTallies nD τ sig (HIx 1)) (W : Waits sig (HIx 1)) (hO : ∀ g, O g none = 0) :
    iprop(levAts (K (F := F)).L (K (F := F)).lev ∗ emp ∗ goT m d (L 0) (L 1)
        ∗ scopedBufs (thrL d L) ∗ scopedSems0 (thrL d L) ∗ owes (thrL d L) O W)
      ⊢ wp frame (wpE (defs₀ (F := F)) 𝒱₀ (thrL d L) none) Set.univ
          (cc0__select_body L inW (Memref.isWhole_whole _) selW (Memref.isWhole_whole _) outW (Memref.isWhole_whole _)
            s5W (Memref.isWhole_whole _) b6W (Memref.isWhole_whole _) b7W (Memref.isWhole_whole _) o8W (Memref.isWhole_whole _) o9W (Memref.isWhole_whole _)
            cc0_scratch5 cc0_scratch6 cc0_scoped0)
          fun _ => iprop(tdT m d (L 0) (L 1) ∗ scopedBufs (thrL d L) ∗ scopedSems0 (thrL d L)
            ∗ ∃ W', ⌜∀ p ∈ W', p ∈ W ∨ p.2 = none⌝ ∗ owes (thrL d L) O W') := by
  rw [(K (F := F)).scopedBufs_V hF d (cV L) (jV L), SparseCore.Cfg.scopedSems0_V (Val := Elt F) d (cV L) (jV L)]
  unfold goT
  iintro ⟨#Hlv, -, ⟨Hin, Hsel, Hout⟩, Hbuf, Hsem, HO⟩
  ihave Hbuf' := (Entails.of_eq (ownBufs_five (F := F) d L)) $$ Hbuf
  icases Hbuf' with ⟨⟨%f5, H5⟩, ⟨%f6, H6⟩, ⟨%f7, H7⟩, ⟨%f8, H8⟩, ⟨%f9, H9⟩, Hbufs⟩
  ihave Hsem' := (Entails.of_eq (ownSems0_five (F := F) d L)) $$ Hsem
  icases Hsem' with ⟨Hsc, Hi0, Hi1, Ho0, Ho1, Hsems⟩
  ihave Hin' := (Entails.of_eq (in_start m d L)) $$ Hin
  icases Hin' with ⟨Hin0, Hin1, Hin2, Hin3, HinR⟩
  ihave Hout' := (Entails.of_eq (out_start (F := F) d L (m (outLoc d)))) $$ Hout
  icases Hout' with ⟨Hout0, Hout1, HoutR⟩
  ihave Hsel' := (Entails.of_eq (pts_sel (F := F) d L _ _).symm) $$ Hsel
  ihave Hmw := ((K (F := F)).mayWaits_none (thr := thrL d L) hO) $$ Hlv
  ihave H5' := (Entails.of_eq (pts_s5 (F := F) d L _).symm) $$ H5
  ihave H6' := (Entails.of_eq (pts_b6 (F := F) d L _).symm) $$ H6
  ihave H7' := (Entails.of_eq (pts_b7 (F := F) d L _).symm) $$ H7
  ihave H8' := (Entails.of_eq (pts_o8 (F := F) d L _).symm) $$ H8
  ihave H9' := (Entails.of_eq (pts_o9 (F := F) d L _).symm) $$ H9
  have hs7 : selN m d ≤ 7 := by have := selN_lt m d; omega
  have hsv : ∀ l : S16.Idx, ((View.readAt (Elt F) (s5W).view (Rect.unit (s := S16) ![0] S16.size inb_S16_S16_0).toLoadRect
      (View.write (Elt F) (s5W).view f5 (ReadAs.same.apply (View.read (Elt F) (selW).view (SelV m d))) Finset.univ)) l).toNat = selN m d := by
    intro l
    rw [View.readAt_apply]
    simp only [Memref.view_whole, View.read_whole, View.write_whole_univ]
    show (SelV m d _).toNat = _
    rw [SelV_apply, selN_eq m d hpre]
  sl_unfold [cc0__select_body]
  sl_exec (disch := exact Cert.Sel.inb_of_two hsv hs7 (Cert.Sel.iota_toNat _) _ _ (by decide) (by decide) (by decide))
  repeat (sl_respell [SparseCore.vectorLoadIdx]; sl_exec (disch := exact Cert.Sel.inb_of_two hsv hs7 (Cert.Sel.iota_toNat _) _ _ (by decide) (by decide) (by decide)))
  -- the loop, by its invariant
  sl_for (inv m d L O W) $$ [Hi0 Hi1 Ho0 H8' Ho1 H9' Hin0 Hin1 HinR HoutR HO]
  case region =>
    intro k acc
    exact region_run m d L O W _ _ hsv hs7 (Cert.Sel.iota_toNat _) _ _ (fun _ => 0#32) (fun _ => 0#32) k acc
  · iapply (init_inv m d L O W _ ?hW0 _ _ f8 f9 _ _ _ _
        ((landed cc0_scratch1 f6 _).trans (read_inS_eq m d L (k0_off1 L 0#32) (k0_off1_inb L 0) 0 (by omega) (off_in1_0 L)))
        ((landed cc0_scratch2 f7 _).trans (read_inS_eq m d L (k0_off1 L 32768#32) (k0_off1_inb L 1) 1 (by omega) (off_in1_1 L)))
        ?hL8 ?hc8 ?hL9 ?hc9 _)
    rotate_left 5
    · isplitr; · iexact Hmw
      isplitl [Hi0]; · iexact Hi0
      isplitl [Hi1]; · iexact Hi1
      isplitl [Ho0]; · iexact Ho0
      isplitl [H8']; · iexact H8'
      isplitl [Ho1]; · iexact Ho1
      isplitl [H9']; · iexact H9'
      isplitl [Hin0]; · iexact Hin0
      isplitl [Hin1]; · iexact Hin1
      isplitl [HinR]; · iexact HinR
      isplitl [HoutR]; · iexact HoutR
      iexact HO
    case hW0 =>
      intro p hp
      simp only [Finset.mem_insert] at hp
      rcases hp with rfl | rfl | rfl | hp
      · exact .inr rfl
      · exact .inr rfl
      · exact .inr rfl
      · exact .inl hp
    case hL8 =>
      repeat' (first
        | refine List.forall_mem_cons.mpr ⟨goodPiece_of_load hsv hs7 (Cert.Sel.iota_toNat _) (Memref.readAt_whole _ _ _) (by decide) (by decide) (by decide), ?_⟩
        | exact fun _ h => nomatch h)
    case hc8 => exact View.cover_of_tiledL _ S16.size (by sl_kernel_rfl)
    case hL9 =>
      repeat' (first
        | refine List.forall_mem_cons.mpr ⟨goodPiece_of_load hsv hs7 (Cert.Sel.iota_toNat _) (Memref.readAt_whole _ _ _) (by decide) (by decide) (by decide), ?_⟩
        | exact fun _ h => nomatch h)
    case hc9 => exact View.cover_of_tiledL _ S16.size (by sl_kernel_rfl)
  -- after the loop: the last two chunks
  iintro %acc HI
  ihave HI' := (Entails.of_eq (inv_at_end m d L O W _ (by decide) acc)) $$ HI
  icases HI' with ⟨-, Hf6, Hf7, ⟨%g8, Hf8, H8r⟩, ⟨%g9, Hf9, H9r⟩, HinD, -, HoutD, ⟨Hd62, Hd63, -⟩, %W', %hW', HO⟩
  sl_exec (disch := exact Cert.Sel.inb_of_two hsv hs7 (Cert.Sel.iota_toNat _) _ _ (by decide) (by decide) (by decide))
  repeat (sl_respell [SparseCore.vectorLoadIdx]; sl_exec (disch := exact Cert.Sel.inb_of_two hsv hs7 (Cert.Sel.iota_toNat _) _ _ (by decide) (by decide) (by decide)))
  sl_step
  iapply (final_post m d L O W _ ?hW1 _ g8 g9 _ _ ?hL8 ?hc8 ?hL9 ?hc9)
  rotate_left 5
  · isplitl [HinD]; · iexact HinD
    isplitl [Hf6_src]; · iexact Hf6_src
    isplitl [Hf7_src]; · iexact Hf7_src
    isplitl [Hsel']; · iexact Hsel'
    isplitl [HoutD]; · iexact HoutD
    isplitl [Hf8_dst]; · iexact Hf8_dst
    isplitl [Hf9_dst]; · iexact Hf9_dst
    isplitl [Hd62]; · iexact Hd62
    isplitl [Hd63]; · iexact Hd63
    isplitl [H5']; · iexact H5'
    isplitl [Hf6_dst]; · iexact Hf6_dst
    isplitl [Hf7_dst]; · iexact Hf7_dst
    isplitl [H8r]; · iexact H8r
    isplitl [H9r]; · iexact H9r
    isplitl [Hbufs]; · iexact Hbufs
    isplitl [Hsc]; · iexact Hsc
    isplitl [Hf6]; · iexact Hf6
    isplitl [Hf7]; · iexact Hf7
    isplitl [Hf8]; · iexact Hf8
    isplitl [Hf9]; · iexact Hf9
    isplitl [Hsems]; · iexact Hsems
    iexact HO
  case hW1 =>
    intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact hW' p hp
  case hL8 =>
    repeat' (first
      | refine List.forall_mem_cons.mpr ⟨goodPiece_of_load hsv hs7 (Cert.Sel.iota_toNat _) (Memref.readAt_whole _ _ _) (by decide) (by decide) (by decide), ?_⟩
      | exact fun _ h => nomatch h)
  case hc8 => exact View.cover_of_tiledL _ S16.size (by sl_kernel_rfl)
  case hL9 =>
    repeat' (first
      | refine List.forall_mem_cons.mpr ⟨goodPiece_of_load hsv hs7 (Cert.Sel.iota_toNat _) (Memref.readAt_whole _ _ _) (by decide) (by decide) (by decide), ?_⟩
      | exact fun _ h => nomatch h)
  case hc9 => exact View.cover_of_tiledL _ S16.size (by sl_kernel_rfl)

/-! ## The launch theorem's obligation -/

omit [FloatOps F] in
/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__select_body (coordsV c s)
          inW (Memref.isWhole_whole _) selW (Memref.isWhole_whole _) outW (Memref.isWhole_whole _)
          s5W (Memref.isWhole_whole _) b6W (Memref.isWhole_whole _) b7W (Memref.isWhole_whole _) o8W (Memref.isWhole_whole _) o9W (Memref.isWhole_whole _)
          cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 65536 in
set_option maxHeartbeats 4000000 in
/-- Every tile's task: from its chunks of the operand, its share of the selector and its chunks of the result, to the
    same with the result's chunks at the kernel's function. -/
theorem tileObl [∀ e, Nonempty (Elt F e)] (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.KernelIdeal.Hand

end
-- ==== Proof.KTileRes.lean ====
/-
  What a tile finds in its own storage: five scratch buffers (the selector's sixteen words, two chunk buffers of
  32768 elements, two result buffers of 4096) and five DMA semaphores (one per chunk buffer, one per result
  buffer, one for the selector's fetch), each counter at zero — picked out of the subcore's own buffers and cells,
  with the rest kept aside to be handed back.
-/
import proofs.«203709_g27616639714075_cont_sun_c4_439_12_alg».proof.Proof.KPay

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The tile of grid point `L`. -/
abbrev cV (L : grid0.Coords) : Fin τ.nSC := (L 0).castLE hcore0
abbrev jV (L : grid0.Coords) : Fin τ.nSub := (L 1).castLE hsub0
abbrev thrL (d : Dev nD) (L : grid0.Coords) : Thread nD τ := V d (cV L) (jV L)

/-- The worker number of the tile at grid point `L` (tile `L 1` of SparseCore `L 0`), and its chunk `j` as one of the
    2048 chunks of the flat arrays. -/
def wN (L : grid0.Coords) : ℕ := 2 * (L 1).val + (L 0).val
theorem wN_lt (L : grid0.Coords) : wN L < 32 := by
  have h0 : (L 0).val < 2 := (L 0).isLt
  have h1 : (L 1).val < 16 := (L 1).isLt
  unfold wN; omega
def chunkAt (L : grid0.Coords) (j : ℕ) (hj : j < 64) : Fin 2048 := ⟨64 * wN L + j, by have := wN_lt L; omega⟩

/-- The five semaphores, spelt as the body slices them out of its two pairs. -/
abbrev semIn0 : DmaSem sig := ((cc0_scratch5.slice (Rect.unit (s := S2) ![0] S1.size inb_S2_S1_0)).squeeze S_ squeezes_S1_S_).sem
abbrev semIn1 : DmaSem sig := ((cc0_scratch5.slice (Rect.unit (s := S2) ![1] S1.size inb_S2_S1_1)).squeeze S_ squeezes_S1_S_).sem
abbrev semOut0 : DmaSem sig := ((cc0_scratch6.slice (Rect.unit (s := S2) ![0] S1.size inb_S2_S1_0)).squeeze S_ squeezes_S1_S_).sem
abbrev semOut1 : DmaSem sig := ((cc0_scratch6.slice (Rect.unit (s := S2) ![1] S1.size inb_S2_S1_1)).squeeze S_ squeezes_S1_S_).sem
abbrev semSel : DmaSem sig := cc0_scoped0.sem

abbrev cellOf (d : Dev nD) (L : grid0.Coords) (sm : DmaSem sig) : GSem nD τ sig := (thrL d L, .dma sm)

variable (d : Dev nD) (L : grid0.Coords)

theorem cell_mem (sm : DmaSem sig) (h : (SemLoc.dma sm : SemLoc sig).isScoped .scVector = true) : cellOf d L sm ∈ ownCells (thrL d L) :=
  (mem_ownCells (g := cellOf d L sm)).mpr ⟨rfl, h⟩

theorem cell_ne {a b : DmaSem sig} (h : a ≠ b) : cellOf d L a ≠ cellOf d L b :=
  fun e => h (SemLoc.dma.inj (Prod.mk.inj e).2)

/-- The five cells at zero, and the subcore's other cells at zero. -/
theorem ownSems0_five :
    (ownSems0 (thrL d L) : sProp 𝕄)
      = iprop(semVal (cellOf d L semSel) 0 ∗ semVal (cellOf d L semIn0) 0 ∗ semVal (cellOf d L semIn1) 0
          ∗ semVal (cellOf d L semOut0) 0 ∗ semVal (cellOf d L semOut1) 0
          ∗ bigSep (((((((ownCells (thrL d L)).erase (cellOf d L semSel)).erase (cellOf d L semIn0)).erase (cellOf d L semIn1)).erase
              (cellOf d L semOut0)).erase (cellOf d L semOut1))) fun g => semVal g 0) := by
  unfold SparseCore.Cfg.ownSems0
  rw [SparseCore.bigSep_erase' (cell_mem d L semSel (by decide)),
    SparseCore.bigSep_erase' (Finset.mem_erase.mpr ⟨cell_ne d L (by decide), cell_mem d L semIn0 (by decide)⟩),
    SparseCore.bigSep_erase' (Finset.mem_erase.mpr ⟨cell_ne d L (by decide), Finset.mem_erase.mpr ⟨cell_ne d L (by decide), cell_mem d L semIn1 (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L semOut0 (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L semOut1 (by decide)⟩⟩⟩⟩)]

abbrev refOf (L : grid0.Coords) (b : Ref sig .scVector) : DevRef τ sig := (Proc.scVector (cV L) (jV L)).devRef b

theorem ref_mem (b : Ref sig .scVector) (h : (refOf L b).owner = .proc (Proc.scVector (cV L) (jV L))) : refOf L b ∈ ownRefs (τ := τ) (.scVector (cV L) (jV L)) :=
  SparseCore.Cfg.mem_ownRefs_of_owner (p := Proc.scVector (cV L) (jV L)) (b := refOf L b) h

theorem ref_ne {a b : Ref sig .scVector} (h : a ≠ b) : refOf L a ≠ refOf L b :=
  fun e => h (Proc.devRef_injective _ e)

/-- The five scratch buffers at some contents, and the subcore's other buffers. -/
theorem ownBufs_five :
    (ownBufs (thrL d L) : sProp 𝕄)
      = iprop((∃ f, (thrL d L).loc cc0_scratch0 ↦{fullShare} f) ∗ (∃ f, (thrL d L).loc cc0_scratch1 ↦{fullShare} f)
          ∗ (∃ f, (thrL d L).loc cc0_scratch2 ↦{fullShare} f) ∗ (∃ f, (thrL d L).loc cc0_scratch3 ↦{fullShare} f)
          ∗ (∃ f, (thrL d L).loc cc0_scratch4 ↦{fullShare} f)
          ∗ bigSep ((((((ownRefs (τ := τ) (.scVector (cV L) (jV L))).erase (refOf L cc0_scratch0)).erase (refOf L cc0_scratch1)).erase
              (refOf L cc0_scratch2)).erase (refOf L cc0_scratch3)).erase (refOf L cc0_scratch4))
              fun b => iprop(∃ f, ((d, b) : Loc nD τ sig) ↦{fullShare} f)) := by
  unfold SparseCore.Cfg.ownBufs
  refine (SparseCore.bigSep_erase' (ref_mem L cc0_scratch0 rfl)).trans ?_
  rw [SparseCore.bigSep_erase' (Finset.mem_erase.mpr ⟨ref_ne L (by decide), ref_mem L cc0_scratch1 rfl⟩),
    SparseCore.bigSep_erase' (Finset.mem_erase.mpr ⟨ref_ne L (by decide), Finset.mem_erase.mpr ⟨ref_ne L (by decide), ref_mem L cc0_scratch2 rfl⟩⟩),
    SparseCore.bigSep_erase' (Finset.mem_erase.mpr ⟨ref_ne L (by decide), Finset.mem_erase.mpr ⟨ref_ne L (by decide),
      Finset.mem_erase.mpr ⟨ref_ne L (by decide), ref_mem L cc0_scratch3 rfl⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide), ref_mem L cc0_scratch4 rfl⟩⟩⟩⟩)]

end Cert.Kernel.Hand

end
-- ==== Proof.KPiles.lean ====
/-
  A tile's chunks as piles. The body works through its 64 chunks in order, two in flight each way, so at any
  moment the chunks of the result split into those already written back (chunk numbers below some a), those in
  flight, and those not yet touched (from some b on); likewise the operand's chunks, lent to a copy and given back.
  A pile is the chunks `a ≤ j < b`, each held by exactly its own elements; taking the lowest chunk off a pile and
  putting one on top are the two moves the loop makes.
-/
import proofs.«203709_g27616639714075_cont_sun_c4_439_12_alg».proof.Proof.KTileRes

noncomputable section

namespace Cert.Kernel.Hand

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Piles over the natural numbers -/

omit F in
theorem Ico_pop_left {a b : ℕ} (h : a < b) : Finset.Ico a b = insert a (Finset.Ico (a + 1) b) := by
  ext x; simp only [Finset.mem_Ico, Finset.mem_insert]; omega
omit F in
theorem Ico_push_right {a b : ℕ} (h : a ≤ b) : Finset.Ico a (b + 1) = insert b (Finset.Ico a b) := by
  ext x; simp only [Finset.mem_Ico, Finset.mem_insert]; omega

theorem bigSep_Ico_pop_left (Φ : ℕ → sProp 𝕄) {a b : ℕ} (h : a < b) :
    bigSep (Finset.Ico a b) Φ = iprop(Φ a ∗ bigSep (Finset.Ico (a + 1) b) Φ) := by
  rw [Ico_pop_left h]
  exact SparseCore.bigSep_insert' (by simp)

theorem bigSep_Ico_push_right (Φ : ℕ → sProp 𝕄) {a b : ℕ} (h : a ≤ b) :
    bigSep (Finset.Ico a (b + 1)) Φ = iprop(Φ b ∗ bigSep (Finset.Ico a b) Φ) := by
  rw [Ico_push_right h]
  exact SparseCore.bigSep_insert' (by simp)

/-- The same with the remaining bound renamed (so that `2·k + 4 + 1` can be written `2·k + 5`). -/
theorem bigSep_Ico_pop_left' (Φ : ℕ → sProp 𝕄) {a a' b : ℕ} (h : a < b) (ha : a + 1 = a') :
    bigSep (Finset.Ico a b) Φ = iprop(Φ a ∗ bigSep (Finset.Ico a' b) Φ) := ha ▸ bigSep_Ico_pop_left Φ h

theorem bigSep_Ico_push_right' (Φ : ℕ → sProp 𝕄) {a b b' : ℕ} (h : a ≤ b) (hb : b + 1 = b') :
    bigSep (Finset.Ico a b') Φ = iprop(Φ b ∗ bigSep (Finset.Ico a b) Φ) := hb ▸ bigSep_Ico_push_right Φ h

theorem bigSep_Ico_self (Φ : ℕ → sProp 𝕄) (a : ℕ) : bigSep (Finset.Ico a a) Φ = iprop(emp) := by
  rw [Finset.Ico_self, bigSep_empty]; rfl

/-! ## A tile's chunks -/

variable (d : Dev nD) (L : grid0.Coords)

/-- Chunk `j` of the tile's operand chunks (of its result chunks) at contents `f`; nothing past the 64th. -/
def inAt (f : Buf (Elt F) (inLoc d)) (j : ℕ) : sProp 𝕄 :=
  if h : j < 64 then inLoc d ↦[inChunkSet (chunkAt L j h)]{fullShare} f else iprop(emp)
def outAt (f : Buf (Elt F) (outLoc d)) (j : ℕ) : sProp 𝕄 :=
  if h : j < 64 then outLoc d ↦[chunkSet (chunkAt L j h)]{fullShare} f else iprop(emp)

theorem inAt_lt (f : Buf (Elt F) (inLoc d)) {j : ℕ} (h : j < 64) :
    inAt d L f j = (inLoc d ↦[inChunkSet (chunkAt L j h)]{fullShare} f : sProp 𝕄) := dif_pos h
theorem outAt_lt (f : Buf (Elt F) (outLoc d)) {j : ℕ} (h : j < 64) :
    outAt d L f j = (outLoc d ↦[chunkSet (chunkAt L j h)]{fullShare} f : sProp 𝕄) := dif_pos h

/-- The chunks `a ≤ j < b`. -/
def inPile (f : Buf (Elt F) (inLoc d)) (a b : ℕ) : sProp 𝕄 := bigSep (Finset.Ico a b) (inAt d L f)
def outPile (f : Buf (Elt F) (outLoc d)) (a b : ℕ) : sProp 𝕄 := bigSep (Finset.Ico a b) (outAt d L f)

omit F in
theorem chunkAt_eq (k : Fin 64) : chunkAt L k.val k.isLt = chunkIx (L 0) (L 1) k := Fin.ext rfl

/-- All 64 of them are what the launch hands the tile. -/
theorem univ_eq_pile (Φ : ℕ → sProp 𝕄) : (bigSep Finset.univ fun k : Fin 64 => Φ k.val) = bigSep (Finset.Ico 0 64) Φ := by
  rw [← Finset.range_eq_Ico, SparseCore.Cfg.range_eq_map, bigSep_map]
  rfl

theorem inChunks_eq_pile (f : Buf (Elt F) (inLoc d)) : inChunks d (L 0) (L 1) f = inPile d L f 0 64 := by
  unfold inChunks inPile
  rw [← univ_eq_pile]
  exact bigSep_congr fun k _ => by rw [inAt_lt d L f k.isLt, chunkAt_eq]
theorem outChunks_eq_pile (f : Buf (Elt F) (outLoc d)) : outChunks d (L 0) (L 1) f = outPile d L f 0 64 := by
  unfold outChunks outPile
  rw [← univ_eq_pile]
  exact bigSep_congr fun k _ => by rw [outAt_lt d L f k.isLt, chunkAt_eq]

end Cert.Kernel.Hand

end
-- ==== Proof.KSlices.lean ====
/-
  The geometry under the kernel body's proof: which chunk of the flat arrays each of the program's slice memrefs
  names, what reading the operand through such a slice gives, and the arithmetic that ties a chunk of the result to
  a chunk of the operand.

  The mathematics. Write w = 2·(L 1) + (L 0) for the tile at grid point L. Every slice the body takes of the flat
  result is 4096 consecutive elements from 4096·(64·w + j), and every slice of the flat operand is 32768
  consecutive elements from 32768·(64·w + j), for a chunk number j < 64: these are part 64·w + j of the 2048 equal
  parts of the result, respectively of the operand. Local index y of the result slice sits at 4096·(64·w + j) + y,
  whose source in the operand is 8·(4096·(64·w + j) + y) + s = 32768·(64·w + j) + (8·y + s): local index 8·y + s
  of the operand slice with the same chunk number.
-/
import proofs.«203709_g27616639714075_cont_sun_c4_439_12_alg».proof.Proof.KTileRes
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## A slice's rectangle is a chunk -/

/-- A one-element vector is determined by its entry. -/
theorem vec1_congr {a b : ℕ} (h : a = b) : (![a] : Fin 1 → ℕ) = ![b] := by rw [h]

/-- The program's slice memrefs: a 4096-element slice of the flat result and a 32768-element slice of the flat
    operand, at an offset function's value. -/
abbrev outS (off : Fin 1 → Nat) (inb : ∀ a, off a + S4096.size a ≤ S8388608.size a) : Memref sig .scVector .hbm S4096 .f32 :=
  (Memref.whole main_v2_scv : Memref sig .scVector .hbm S8388608 .f32).slice (Rect.unit (s := S8388608) off S4096.size inb) (fun _ => rfl)
abbrev inS (off : Fin 1 → Nat) (inb : ∀ a, off a + S32768.size a ≤ S67108864.size a) : Memref sig .scVector .hbm S32768 .f32 :=
  (Memref.whole main_v0_scv : Memref sig .scVector .hbm S67108864 .f32).slice (Rect.unit (s := S67108864) off S32768.size inb) (fun _ => rfl)

/-- 4096 consecutive elements of the flat result from 4096·(64·w + j) are part 64·w + j of its 2048 equal parts. -/
theorem outRect_eq (L : grid0.Coords) (off : Fin 1 → Nat) (inb : ∀ a, off a + S4096.size a ≤ S8388608.size a) (j : ℕ) (hj : j < 64)
    (hoff : off = ![4096 * (64 * wN L + j)]) :
    Rect.unit (s := S8388608) off S4096.size inb = chunk (chunkAt L j hj) := by
  subst hoff
  unfold chunk Rect.part Rect.block
  congr 1 <;> funext a
  · match a with
    | 0 => simp [Shape.partIx, Shape.partSize, chunkAt]; omega
  · match a with
    | 0 => simp [Shape.partSize]

/-- 32768 consecutive elements of the flat operand from 32768·(64·w + j) are part 64·w + j of its 2048 equal parts. -/
theorem inRect_eq (L : grid0.Coords) (off : Fin 1 → Nat) (inb : ∀ a, off a + S32768.size a ≤ S67108864.size a) (j : ℕ) (hj : j < 64)
    (hoff : off = ![32768 * (64 * wN L + j)]) :
    Rect.unit (s := S67108864) off S32768.size inb = inChunk (chunkAt L j hj) := by
  subst hoff
  unfold inChunk Rect.part Rect.block
  congr 1 <;> funext a
  · match a with
    | 0 => simp [Shape.partIx, Shape.partSize, chunkAt]; omega
  · match a with
    | 0 => simp [Shape.partSize]

theorem set_outS (L : grid0.Coords) (off : Fin 1 → Nat) (inb : ∀ a, off a + S4096.size a ≤ S8388608.size a) (j : ℕ) (hj : j < 64)
    (hoff : off = ![4096 * (64 * wN L + j)]) : (outS off inb).view.set = chunkSet (chunkAt L j hj) := by
  show ((Memref.whole main_v2_scv : Memref sig .scVector .hbm S8388608 .f32).view.slice (Rect.unit (s := S8388608) off S4096.size inb)).set
    = ((Memref.whole main_v2_scv : Memref sig .scVector .hbm S8388608 .f32).view.slice (chunk (chunkAt L j hj))).set
  exact outRect_eq L off inb j hj hoff ▸ rfl

theorem set_inS (L : grid0.Coords) (off : Fin 1 → Nat) (inb : ∀ a, off a + S32768.size a ≤ S67108864.size a) (j : ℕ) (hj : j < 64)
    (hoff : off = ![32768 * (64 * wN L + j)]) : (inS off inb).view.set = inChunkSet (chunkAt L j hj) := by
  show ((Memref.whole main_v0_scv : Memref sig .scVector .hbm S67108864 .f32).view.slice (Rect.unit (s := S67108864) off S32768.size inb)).set
    = ((Memref.whole main_v0_scv : Memref sig .scVector .hbm S67108864 .f32).view.slice (inChunk (chunkAt L j hj))).set
  exact inRect_eq L off inb j hj hoff ▸ rfl

theorem pts_outS (d : Dev nD) (L : grid0.Coords) (off : Fin 1 → Nat) (inb : ∀ a, off a + S4096.size a ≤ S8388608.size a) (j : ℕ) (hj : j < 64)
    (hoff : off = ![4096 * (64 * wN L + j)]) (f : Buf (Elt F) (outLoc d)) :
    ((outS off inb).view.loc (thrL d L) ↦[(outS off inb).view.set]{fullShare} f : sProp 𝕄) = outLoc d ↦[chunkSet (chunkAt L j hj)]{fullShare} f := by
  rw [set_outS L off inb j hj hoff]

theorem pts_inS (d : Dev nD) (L : grid0.Coords) (off : Fin 1 → Nat) (inb : ∀ a, off a + S32768.size a ≤ S67108864.size a) (j : ℕ) (hj : j < 64)
    (hoff : off = ![32768 * (64 * wN L + j)]) (f : Buf (Elt F) (inLoc d)) :
    ((inS off inb).view.loc (thrL d L) ↦[(inS off inb).view.set]{fullShare} f : sProp 𝕄) = inLoc d ↦[inChunkSet (chunkAt L j hj)]{fullShare} f := by
  rw [set_inS L off inb j hj hoff]

/-! ## The sixteen offsets, as chunk numbers

With w = 2·(L 1) + (L 0): 524288·(L 1) + 262144·(L 0) = 4096·64·w and 4194304·(L 1) + 2097152·(L 0) = 32768·64·w. -/

theorem off_out2 (L : grid0.Coords) : k0_off2 L = ![4096 * (64 * wN L + 0)] := by
  rw [k0_off2_eq]; exact vec1_congr (by unfold wN; omega)
theorem off_out4 (L : grid0.Coords) (r : Fin 2) :
    k0_off4 L (BitVec.ofNat 32 (4096 + 241664 * r.val)) = ![4096 * (64 * wN L + (1 + 59 * r.val))] := by
  rw [k0_off4_eq]; exact vec1_congr (by unfold wN; omega)
theorem off_out7 (L : grid0.Coords) (k : Fin k0_t1_loop.trips) : k0_off7 L k = ![4096 * (64 * wN L + 2 * k.val)] := by
  rw [k0_off7_eq]; exact vec1_congr (by unfold wN; omega)
theorem off_out8 (L : grid0.Coords) (k : Fin k0_t1_loop.trips) : k0_off8 L k = ![4096 * (64 * wN L + (2 * k.val + 2))] := by
  rw [k0_off8_eq]; exact vec1_congr (by unfold wN; omega)
theorem off_out11 (L : grid0.Coords) (k : Fin k0_t1_loop.trips) : k0_off11 L k = ![4096 * (64 * wN L + (2 * k.val + 1))] := by
  rw [k0_off11_eq]; exact vec1_congr (by unfold wN; omega)
theorem off_out12 (L : grid0.Coords) (k : Fin k0_t1_loop.trips) : k0_off12 L k = ![4096 * (64 * wN L + (2 * k.val + 3))] := by
  rw [k0_off12_eq]; exact vec1_congr (by unfold wN; omega)
theorem off_out14 (L : grid0.Coords) (r : Fin 2) :
    k0_off14 L (BitVec.ofNat 32 (249856 + 4096 * r.val)) = ![4096 * (64 * wN L + (61 + r.val))] := by
  rw [k0_off14_eq]; exact vec1_congr (by unfold wN; omega)
theorem off_out16 (L : grid0.Coords) (r : Fin 2) :
    k0_off16 L (BitVec.ofNat 32 (253952 + 4096 * r.val)) = ![4096 * (64 * wN L + (62 + r.val))] := by
  rw [k0_off16_eq]; exact vec1_congr (by unfold wN; omega)

theorem off_in1 (L : grid0.Coords) (r : Fin 2) :
    k0_off1 L (BitVec.ofNat 32 (32768 * r.val)) = ![32768 * (64 * wN L + r.val)] := by
  rw [k0_off1_eq]; exact vec1_congr (by unfold wN; omega)
theorem off_in3 (L : grid0.Coords) (r : Fin 2) :
    k0_off3 L (BitVec.ofNat 32 (32768 + 32768 * r.val)) = ![32768 * (64 * wN L + (1 + r.val))] := by
  rw [k0_off3_eq]; exact vec1_congr (by unfold wN; omega)
theorem off_in5 (L : grid0.Coords) (r : Fin 2) :
    k0_off5 L (BitVec.ofNat 32 (98304 + 1933312 * r.val)) = ![32768 * (64 * wN L + (3 + 59 * r.val))] := by
  rw [k0_off5_eq]; exact vec1_congr (by unfold wN; omega)
theorem off_in6 (L : grid0.Coords) (k : Fin k0_t1_loop.trips) : k0_off6 L k = ![32768 * (64 * wN L + (2 * k.val + 2))] := by
  rw [k0_off6_eq]; exact vec1_congr (by unfold wN; omega)
theorem off_in9 (L : grid0.Coords) (k : Fin k0_t1_loop.trips) : k0_off9 L k = ![32768 * (64 * wN L + (2 * k.val + 4))] := by
  rw [k0_off9_eq]; exact vec1_congr (by unfold wN; omega)
theorem off_in10 (L : grid0.Coords) (k : Fin k0_t1_loop.trips) : k0_off10 L k = ![32768 * (64 * wN L + (2 * k.val + 3))] := by
  rw [k0_off10_eq]; exact vec1_congr (by unfold wN; omega)
theorem off_in13 (L : grid0.Coords) (k : Fin k0_t1_loop.trips) : k0_off13 L k = ![32768 * (64 * wN L + (2 * k.val + 5))] := by
  rw [k0_off13_eq]; exact vec1_congr (by unfold wN; omega)
theorem off_in15 (L : grid0.Coords) : k0_off15 L = ![32768 * (64 * wN L + 63)] := by
  rw [k0_off15_eq]; exact vec1_congr (by unfold wN; omega)

/-! ## Reading through a slice, and the bridge -/

/-- Local index y of a result slice at offset off sits at off + y in the flat result. -/
theorem emb_outS (off : Fin 1 → Nat) (inb : ∀ a, off a + S4096.size a ≤ S8388608.size a) (y : S4096.Idx) :
    (outS off inb).view.emb y
      = ValueIdx.ix1 (⟨off 0 + (y 0).val, by have h := inb 0; have : (y 0).val < 4096 := (y 0).isLt; simp at h; omega⟩ : Fin 8388608) := by
  funext a
  match a with
  | 0 => exact Fin.ext (Nat.add_left_cancel_iff.mpr (Nat.one_mul _))

/-- Reading an operand slice at offset off at local index y gives the flat operand's element off + y. -/
theorem read_inS (d : Dev nD) (off : Fin 1 → Nat) (inb : ∀ a, off a + S32768.size a ≤ S67108864.size a) (X : Buf (Elt F) (inLoc d)) (y : S32768.Idx) :
    (inS off inb).view.read (Elt F) X y
      = X (ValueIdx.ix1 (⟨off 0 + (y 0).val, by have h := inb 0; have : (y 0).val < 32768 := (y 0).isLt; simp at h; omega⟩ : Fin 67108864)) := by
  rw [View.read_apply]
  show X _ = X _
  congr 1
  funext a
  match a with
  | 0 => exact Fin.ext (Nat.add_left_cancel_iff.mpr (Nat.one_mul _))

/-- Element y of result chunk j is element 8·y + s of operand chunk j: 8·(4096·c + y) + s = 32768·c + (8·y + s). -/
theorem Y1_chunk (m : (ℓ : Loc nD τ sig) → Buf (Elt F) ℓ) (d : Dev nD) (L : grid0.Coords)
    (offO : Fin 1 → Nat) (inbO : ∀ a, offO a + S4096.size a ≤ S8388608.size a)
    (offI : Fin 1 → Nat) (inbI : ∀ a, offI a + S32768.size a ≤ S67108864.size a) (j : ℕ) (hj : j < 64)
    (hO : offO = ![4096 * (64 * wN L + j)]) (hI : offI = ![32768 * (64 * wN L + j)]) (y : S4096.Idx) :
    Y1 m d ((outS offO inbO).view.emb y)
      = (inS offI inbI).view.read (Elt F) (X1 m d)
          (ValueIdx.ix1 (⟨8 * (y 0).val + selN m d, by have : (y 0).val < 4096 := (y 0).isLt; have := selN_lt m d; omega⟩ : Fin 32768)) := by
  rw [read_inS, emb_outS]
  subst hO hI
  unfold Y1 srcIx
  congr 1
  funext a
  match a with
  | 0 => exact Fin.ext (by show 8 * (4096 * (64 * wN L + j) + (y 0).val) + selN m d = 32768 * (64 * wN L + j) + (8 * (y 0).val + selN m d); omega)

/-! ## The same, at the offsets' literal arguments

The offset functions that take a word are applied in the program at literal words; the equations above at r = 0, 1
are these, the words and the chunk numbers evaluated. -/

theorem off_in1_0 (L : grid0.Coords) : k0_off1 L 0#32 = ![32768 * (64 * wN L + 0)] := off_in1 L 0
theorem off_in1_1 (L : grid0.Coords) : k0_off1 L 32768#32 = ![32768 * (64 * wN L + 1)] := off_in1 L 1
theorem off_in3_0 (L : grid0.Coords) : k0_off3 L 32768#32 = ![32768 * (64 * wN L + 1)] := off_in3 L 0
theorem off_in3_1 (L : grid0.Coords) : k0_off3 L 65536#32 = ![32768 * (64 * wN L + 2)] := off_in3 L 1
theorem off_out4_0 (L : grid0.Coords) : k0_off4 L 4096#32 = ![4096 * (64 * wN L + 1)] := off_out4 L 0
theorem off_out4_1 (L : grid0.Coords) : k0_off4 L 245760#32 = ![4096 * (64 * wN L + 60)] := off_out4 L 1
theorem off_in5_0 (L : grid0.Coords) : k0_off5 L 98304#32 = ![32768 * (64 * wN L + 3)] := off_in5 L 0
theorem off_in5_1 (L : grid0.Coords) : k0_off5 L 2031616#32 = ![32768 * (64 * wN L + 62)] := off_in5 L 1
theorem off_out14_0 (L : grid0.Coords) : k0_off14 L 249856#32 = ![4096 * (64 * wN L + 61)] := off_out14 L 0
theorem off_out14_1 (L : grid0.Coords) : k0_off14 L 253952#32 = ![4096 * (64 * wN L + 62)] := off_out14 L 1
theorem off_out16_0 (L : grid0.Coords) : k0_off16 L 253952#32 = ![4096 * (64 * wN L + 62)] := off_out16 L 0
theorem off_out16_1 (L : grid0.Coords) : k0_off16 L 258048#32 = ![4096 * (64 * wN L + 63)] := off_out16 L 1

end Cert.Kernel.Hand

end
-- ==== Proof.KGather.lean ====
/-
  The gather out of a chunk buffer, and what it leaves in the result.

  The mathematics. After operand chunk j has landed in a tile's chunk buffer (contents Bc, 32768 elements), the tile
  gathers 256 vectors of 16 lanes out of it and stores vector n at elements 16·n … 16·n + 15 of a 4096-element result
  buffer. Vector n is gathered at the index vector whose lane l is s + 8·l + c, with s ≤ 7 the selector and
  c = 8·(16·n) the sum of the token's and the group's offsets, so its lane l is Bc[s + 8·l + 8·(16·n)] =
  Bc[8·(16·n + l) + s]. The 256 stores tile the result buffer, so read back whole it is y ↦ Bc[8·y + s]; and since
  Bc is operand chunk j, copying it out to result chunk j leaves there element 8·o + s of the flat operand at every
  element o: the kernel's function.
-/
import proofs.«203709_g27616639714075_cont_sun_c4_439_12_alg».proof.Proof.KSlices
import proofs.«203709_g27616639714075_cont_sun_c4_439_12_alg».proof.Proof.RowIdx
import Idealize.ShloMosaic.Lib.Pipeline.Value
import Idealize.ShloMosaic.Lib.Pipeline.FrameBody
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The gather: what a chunk buffer's 256 gathered vectors leave in a result buffer -/

/-- A piece holds the gathered function on its rectangle: its element at local index x is element 8·o + s of the
    chunk buffer, o the place of x in the 4096-element result buffer. -/
def GoodPiece (Bc : S32768.Idx → Elt F .f32) (s : ℕ) (hs : s < 8) (p : View.Piece (Elt F) S4096 .f32) : Prop :=
  ∀ x : p.1.shape.Idx, p.2 x
    = Bc (ValueIdx.ix1 (⟨8 * (p.1.emb x 0).val + s, by have h : (p.1.emb x 0).val < 4096 := (p.1.emb x 0).isLt; omega⟩ : Fin 32768))

/-- One gathered vector, stored at elements off … off + 15: lane l is chunk-buffer element s + 8·l + c with
    c = 8·off, which is 8·(off + l) + s. The buffer's contents are given as any function rd equal to Bc (what a load
    of the whole chunk buffer reads). -/
theorem goodPiece_of_load {s : ℕ} {sv io : IVec S16 32} (hsv : ∀ l, (sv l).toNat = s) (hs7 : s ≤ 7)
    (hio : ∀ l : S16.Idx, (io l).toNat = (l 0).val) {rd Bc : S32768.Idx → Elt F .f32} (hrd : rd = Bc)
    {off : ℕ} {inb : ∀ a, (![off] : Fin 1 → ℕ) a + S16.size a ≤ S4096.size a} {r gg : BitVec 32}
    (hr : 127 + 0 + r.toNat < 4294967296) (hg : 127 + (0 + r.toNat) + gg.toNat < 4294967296) (hc : 0 + r.toNat + gg.toNat = 8 * off)
    {hin : ∀ a x, ((![Cert.Sel.idxVec sv io r gg] : Fin 1 → IVec S16 32) a x).toNat < S32768.size a} :
    GoodPiece Bc s (by omega)
      ⟨Rect.unit (s := S4096) ![off] S16.size inb, loadIdx rd ![Cert.Sel.idxVec sv io r gg] hin⟩ := by
  intro x
  subst hrd
  have hoff : off + 16 ≤ 4096 := inb 0
  show rd (idxAt (![Cert.Sel.idxVec sv io r gg] : Fin 1 → IVec S16 32) hin x) = _
  rw [Cert.Sel.load_of_two hsv hs7 hio r gg hr hg (by omega) rd hin x]
  congr 1
  funext a
  match a with
  | 0 => exact Fin.ext (by show s + 8 * (x 0).val + (0 + r.toNat + gg.toNat) = 8 * (off + 1 * (x 0).val) + s; omega)

/-- The same with the contents spelt as a load of the whole first, respectively second, chunk buffer. -/
theorem goodPiece_two₁ {s : ℕ} {sv io : IVec S16 32} (hsv : ∀ l, (sv l).toNat = s) (hs7 : s ≤ 7)
    (hio : ∀ l : S16.Idx, (io l).toNat = (l 0).val) {Bc : S32768.Idx → Elt F .f32}
    {off : ℕ} {inb : ∀ a, (![off] : Fin 1 → ℕ) a + S16.size a ≤ S4096.size a} {r gg : BitVec 32}
    (hr : 127 + 0 + r.toNat < 4294967296) (hg : 127 + (0 + r.toNat) + gg.toNat < 4294967296) (hc : 0 + r.toNat + gg.toNat = 8 * off)
    {hin : ∀ a x, ((![Cert.Sel.idxVec sv io r gg] : Fin 1 → IVec S16 32) a x).toNat < S32768.size a} :
    GoodPiece Bc s (by omega)
      ⟨Rect.unit (s := S4096) ![off] S16.size inb,
        loadIdx (View.readAt (Elt F) (Memref.whole cc0_scratch1 : Memref sig .scVector .vmem S32768 .f32).view (LoadRect.whole S32768) Bc)
          ![Cert.Sel.idxVec sv io r gg] hin⟩ :=
  goodPiece_of_load hsv hs7 hio (Memref.readAt_whole (Elt F) cc0_scratch1 Bc) hr hg hc
theorem goodPiece_two₂ {s : ℕ} {sv io : IVec S16 32} (hsv : ∀ l, (sv l).toNat = s) (hs7 : s ≤ 7)
    (hio : ∀ l : S16.Idx, (io l).toNat = (l 0).val) {Bc : S32768.Idx → Elt F .f32}
    {off : ℕ} {inb : ∀ a, (![off] : Fin 1 → ℕ) a + S16.size a ≤ S4096.size a} {r gg : BitVec 32}
    (hr : 127 + 0 + r.toNat < 4294967296) (hg : 127 + (0 + r.toNat) + gg.toNat < 4294967296) (hc : 0 + r.toNat + gg.toNat = 8 * off)
    {hin : ∀ a x, ((![Cert.Sel.idxVec sv io r gg] : Fin 1 → IVec S16 32) a x).toNat < S32768.size a} :
    GoodPiece Bc s (by omega)
      ⟨Rect.unit (s := S4096) ![off] S16.size inb,
        loadIdx (View.readAt (Elt F) (Memref.whole cc0_scratch2 : Memref sig .scVector .vmem S32768 .f32).view (LoadRect.whole S32768) Bc)
          ![Cert.Sel.idxVec sv io r gg] hin⟩ :=
  goodPiece_of_load hsv hs7 hio (Memref.readAt_whole (Elt F) cc0_scratch2 Bc) hr hg hc

/-- Pieces that all hold the gathered function and together cover the result buffer: the buffer, read back whole,
    is y ↦ Bc[8·y + s] — whatever the view and the contents before. -/
theorem read_of_good [∀ e, Nonempty (Elt F e)] {κ : Kind} {sp : Space} (v : View sig κ sp S4096 .f32) (f : v.ty.Contents (Elt F))
    (Ls : List (View.Piece (Elt F) S4096 .f32)) (Bc : S32768.Idx → Elt F .f32) (s : ℕ) (hs : s < 8)
    (hL : ∀ p ∈ Ls, GoodPiece Bc s hs p) (hcov : ∀ y : S4096.Idx, ∃ p ∈ Ls, y ∈ p.1.set) (y : S4096.Idx) :
    v.read (Elt F) (v.writes (Elt F) f Ls) y
      = Bc (ValueIdx.ix1 (⟨8 * (y 0).val + s, by have h : (y 0).val < 4096 := (y 0).isLt; omega⟩ : Fin 32768)) := by
  rw [View.read_writes_eq_canon v f Ls hcov]
  exact View.canon_apply_of_pieces
    (fun y : S4096.Idx => Bc (ValueIdx.ix1 (⟨8 * (y 0).val + s, by have h : (y 0).val < 4096 := (y 0).isLt; omega⟩ : Fin 32768)))
    Ls hL y (hcov y)

/-- What lands in result chunk j when the vector copied out is the gathered function of operand chunk j: the
    kernel's function there. Bc is the chunk buffer after operand chunk j has landed in it. -/
theorem out_value_of (m : (ℓ : Loc nD τ sig) → Buf (Elt F) ℓ) (d : Dev nD) (L : grid0.Coords) (j : ℕ) (hj : j < 64)
    (offO : Fin 1 → Nat) (inbO : ∀ a, offO a + S4096.size a ≤ S8388608.size a)
    (offI : Fin 1 → Nat) (inbI : ∀ a, offI a + S32768.size a ≤ S67108864.size a)
    (hO : offO = ![4096 * (64 * wN L + j)]) (hI : offI = ![32768 * (64 * wN L + j)])
    (Bc : S32768.Idx → Elt F .f32) (hBc : Bc = (inS offI inbI).view.read (Elt F) (X1 m d))
    (g : S4096.Idx → Elt F .f32)
    (hg : ∀ y : S4096.Idx, g y
      = Bc (ValueIdx.ix1 (⟨8 * (y 0).val + selN m d, by have h : (y 0).val < 4096 := (y 0).isLt; have := selN_lt m d; omega⟩ : Fin 32768)))
    (Y : Buf (Elt F) (outLoc d)) :
    ∀ i ∈ (outS offO inbO).view.set, ((outS offO inbO).view.writes (Elt F) Y [⟨Rect.whole S4096, g⟩]) i = Y1 m d i := by
  intro i hi
  obtain ⟨y, rfl⟩ := View.exists_emb_of_mem_set _ hi
  have hw : ((outS offO inbO).view.slice (Rect.whole S4096)).write (Elt F) Y g Finset.univ ((outS offO inbO).view.emb y) = g y := by
    have h := View.write_emb_of_mem (v := (outS offO inbO).view.slice (Rect.whole S4096)) (Val := Elt F) Y g
      (M := Finset.univ) (x := y) (Finset.mem_univ _)
    have he : ((outS offO inbO).view.slice (Rect.whole S4096)).emb y = (outS offO inbO).view.emb y := by
      show (outS offO inbO).view.emb ((Rect.whole S4096).emb y) = _
      rw [Rect.emb_whole_apply]
    rw [he] at h
    exact h
  show ((outS offO inbO).view.slice (Rect.whole S4096)).write (Elt F) Y g Finset.univ ((outS offO inbO).view.emb y) = _
  rw [hw, hg y, Y1_chunk m d L offO inbO offI inbI j hj hO hI y, hBc]

/-- A transfer of a whole vector into a whole buffer leaves the vector. -/
theorem landed {κ : Kind} (b : Ref sig κ) (fB w : b.ty.Contents (Elt F)) :
    View.write (Elt F) (Memref.whole b).view fB (ReadAs.same.apply w) Finset.univ = w :=
  View.write_whole_univ b fB w

/-- The same with the chunk buffer's contents written as the result of the transfer of operand chunk j into the
    first, respectively second, chunk buffer. -/
theorem out_value (m : (ℓ : Loc nD τ sig) → Buf (Elt F) ℓ) (d : Dev nD) (L : grid0.Coords) (j : ℕ) (hj : j < 64)
    (offO : Fin 1 → Nat) (inbO : ∀ a, offO a + S4096.size a ≤ S8388608.size a)
    (offI : Fin 1 → Nat) (inbI : ∀ a, offI a + S32768.size a ≤ S67108864.size a)
    (hO : offO = ![4096 * (64 * wN L + j)]) (hI : offI = ![32768 * (64 * wN L + j)])
    (fB : cc0_scratch1.ty.Contents (Elt F)) (g : S4096.Idx → Elt F .f32)
    (hg : ∀ y : S4096.Idx, g y
      = (View.write (Elt F) (Memref.whole cc0_scratch1 : Memref sig .scVector .vmem S32768 .f32).view fB
          (ReadAs.same.apply ((inS offI inbI).view.read (Elt F) (X1 m d))) Finset.univ)
          (ValueIdx.ix1 (⟨8 * (y 0).val + selN m d, by have h : (y 0).val < 4096 := (y 0).isLt; have := selN_lt m d; omega⟩ : Fin 32768)))
    (Y : Buf (Elt F) (outLoc d)) :
    ∀ i ∈ (outS offO inbO).view.set, ((outS offO inbO).view.writes (Elt F) Y [⟨Rect.whole S4096, g⟩]) i = Y1 m d i :=
  out_value_of m d L j hj offO inbO offI inbI hO hI _ (landed cc0_scratch1 fB _) g hg Y
theorem out_value₂ (m : (ℓ : Loc nD τ sig) → Buf (Elt F) ℓ) (d : Dev nD) (L : grid0.Coords) (j : ℕ) (hj : j < 64)
    (offO : Fin 1 → Nat) (inbO : ∀ a, offO a + S4096.size a ≤ S8388608.size a)
    (offI : Fin 1 → Nat) (inbI : ∀ a, offI a + S32768.size a ≤ S67108864.size a)
    (hO : offO = ![4096 * (64 * wN L + j)]) (hI : offI = ![32768 * (64 * wN L + j)])
    (fB : cc0_scratch2.ty.Contents (Elt F)) (g : S4096.Idx → Elt F .f32)
    (hg : ∀ y : S4096.Idx, g y
      = (View.write (Elt F) (Memref.whole cc0_scratch2 : Memref sig .scVector .vmem S32768 .f32).view fB
          (ReadAs.same.apply ((inS offI inbI).view.read (Elt F) (X1 m d))) Finset.univ)
          (ValueIdx.ix1 (⟨8 * (y 0).val + selN m d, by have h : (y 0).val < 4096 := (y 0).isLt; have := selN_lt m d; omega⟩ : Fin 32768)))
    (Y : Buf (Elt F) (outLoc d)) :
    ∀ i ∈ (outS offO inbO).view.set, ((outS offO inbO).view.writes (Elt F) Y [⟨Rect.whole S4096, g⟩]) i = Y1 m d i :=
  out_value_of m d L j hj offO inbO offI inbI hO hI _ (landed cc0_scratch2 fB _) g hg Y

end Cert.Kernel.Hand

end
-- ==== Proof.KFlights.lean ====
/-
  The copies in flight, in one shape. A chunk of the operand on its way into a chunk buffer delivers the buffer at
  that chunk's elements and gives the chunk's elements of the operand back; a result buffer on its way out delivers
  the result's chunk at the kernel's function and gives the buffer back. Stated per chunk NUMBER, so that the
  flights the body's loop carries from trip to trip are one family in the trip.
-/
import proofs.«203709_g27616639714075_cont_sun_c4_439_12_alg».proof.Proof.KPiles
import proofs.«203709_g27616639714075_cont_sun_c4_439_12_alg».proof.Proof.KSlices
import proofs.«203709_g27616639714075_cont_sun_c4_439_12_alg».proof.Proof.KGather

noncomputable section

namespace Cert.Kernel.Hand

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ) (d : Dev nD) (L : grid0.Coords)

omit F in
/-- Chunk `j` of the tile's operand chunks lies inside the flat operand. -/
theorem inb_in (j : ℕ) (hj : j < 64) : ∀ a, (![32768 * (64 * wN L + j)] : Fin 1 → ℕ) a + S32768.size a ≤ S67108864.size a := by
  intro a
  match a with
  | ⟨0, _⟩ =>
    show 32768 * (64 * wN L + j) + 32768 ≤ 67108864
    have := wN_lt L; omega

/-- What a chunk buffer holds once operand chunk `j` has landed in it. -/
def inBuf (j : ℕ) (hj : j < 64) : S32768.Idx → Elt F .f32 :=
  (inS ![32768 * (64 * wN L + j)] (inb_in L j hj)).view.read (Elt F) (X1 m d)

/-- Reading the operand through a slice at chunk `j`'s offset, however the offset is spelt, is `inBuf j`. -/
theorem read_inS_eq (off : Fin 1 → Nat) (inb : ∀ a, off a + S32768.size a ≤ S67108864.size a) (j : ℕ) (hj : j < 64)
    (hoff : off = ![32768 * (64 * wN L + j)]) : (inS off inb).view.read (Elt F) (X1 m d) = inBuf m d L j hj := by
  subst hoff; rfl

/-- A copy of operand chunk `j` into chunk buffer 6, in flight on semaphore `sm`. -/
def flIn6 (sm : DmaSem sig) (j : ℕ) : sProp 𝕄 :=
  if hj : j < 64 then
    Transfers.Flight countersEmb (thrL d L) (SemLoc.dma sm) default 1048576
      iprop(((Memref.whole cc0_scratch1 : Memref sig .scVector .vmem S32768 .f32).view.loc (thrL d L) ↦{fullShare} inBuf m d L j hj) ∗ inAt d L (X1 m d) j)
  else iprop(False)

theorem flIn6_lt (sm : DmaSem sig) {j : ℕ} (hj : j < 64) :
    flIn6 m d L sm j = (Transfers.Flight countersEmb (thrL d L) (SemLoc.dma sm) default 1048576
      iprop(((Memref.whole cc0_scratch1 : Memref sig .scVector .vmem S32768 .f32).view.loc (thrL d L) ↦{fullShare} inBuf m d L j hj) ∗ inAt d L (X1 m d) j) : sProp 𝕄) := dif_pos hj

/-- The run's in-flight copy into chunk buffer 6, in the one shape: what lands is the chunk read through the slice
    the body named, whatever the buffer held. -/
theorem flIn6_intro (sm : DmaSem sig) (off : Fin 1 → Nat) (inb : ∀ a, off a + S32768.size a ≤ S67108864.size a) (j : ℕ) (hj : j < 64)
    (hoff : off = ![32768 * (64 * wN L + j)])
    (fB : Buf (Elt F) ((Memref.whole cc0_scratch1 : Memref sig .scVector .vmem S32768 .f32).view.loc (thrL d L))) :
    (Transfers.Flight countersEmb (thrL d L) (SemLoc.dma sm) default 1048576
      iprop(((Memref.whole cc0_scratch1 : Memref sig .scVector .vmem S32768 .f32).view.loc (thrL d L) ↦{fullShare}
            View.write (Elt F) (Memref.whole cc0_scratch1 : Memref sig .scVector .vmem S32768 .f32).view fB
              (ReadAs.same.apply (View.read (Elt F) (inS off inb).view (X1 m d))) Finset.univ)
          ∗ ((inS off inb).view.loc (thrL d L) ↦[(inS off inb).view.set]{fullShare} X1 m d)) : sProp 𝕄)
      ⊢ flIn6 m d L sm j := by
  have hA : View.write (Elt F) (Memref.whole cc0_scratch1 : Memref sig .scVector .vmem S32768 .f32).view fB
      (ReadAs.same.apply (View.read (Elt F) (inS off inb).view (X1 m d))) Finset.univ = inBuf m d L j hj :=
    (landed cc0_scratch1 fB _).trans (read_inS_eq m d L off inb j hj hoff)
  rw [flIn6_lt m d L sm hj, hA, pts_inS d L off inb j hj hoff, inAt_lt d L _ hj]

/-- A copy of operand chunk `j` into chunk buffer 7, in flight on semaphore `sm`. -/
def flIn7 (sm : DmaSem sig) (j : ℕ) : sProp 𝕄 :=
  if hj : j < 64 then
    Transfers.Flight countersEmb (thrL d L) (SemLoc.dma sm) default 1048576
      iprop(((Memref.whole cc0_scratch2 : Memref sig .scVector .vmem S32768 .f32).view.loc (thrL d L) ↦{fullShare} inBuf m d L j hj) ∗ inAt d L (X1 m d) j)
  else iprop(False)

theorem flIn7_lt (sm : DmaSem sig) {j : ℕ} (hj : j < 64) :
    flIn7 m d L sm j = (Transfers.Flight countersEmb (thrL d L) (SemLoc.dma sm) default 1048576
      iprop(((Memref.whole cc0_scratch2 : Memref sig .scVector .vmem S32768 .f32).view.loc (thrL d L) ↦{fullShare} inBuf m d L j hj) ∗ inAt d L (X1 m d) j) : sProp 𝕄) := dif_pos hj

/-- The run's in-flight copy into chunk buffer 7, in the one shape: what lands is the chunk read through the slice
    the body named, whatever the buffer held. -/
theorem flIn7_intro (sm : DmaSem sig) (off : Fin 1 → Nat) (inb : ∀ a, off a + S32768.size a ≤ S67108864.size a) (j : ℕ) (hj : j < 64)
    (hoff : off = ![32768 * (64 * wN L + j)])
    (fB : Buf (Elt F) ((Memref.whole cc0_scratch2 : Memref sig .scVector .vmem S32768 .f32).view.loc (thrL d L))) :
    (Transfers.Flight countersEmb (thrL d L) (SemLoc.dma sm) default 1048576
      iprop(((Memref.whole cc0_scratch2 : Memref sig .scVector .vmem S32768 .f32).view.loc (thrL d L) ↦{fullShare}
            View.write (Elt F) (Memref.whole cc0_scratch2 : Memref sig .scVector .vmem S32768 .f32).view fB
              (ReadAs.same.apply (View.read (Elt F) (inS off inb).view (X1 m d))) Finset.univ)
          ∗ ((inS off inb).view.loc (thrL d L) ↦[(inS off inb).view.set]{fullShare} X1 m d)) : sProp 𝕄)
      ⊢ flIn7 m d L sm j := by
  have hA : View.write (Elt F) (Memref.whole cc0_scratch2 : Memref sig .scVector .vmem S32768 .f32).view fB
      (ReadAs.same.apply (View.read (Elt F) (inS off inb).view (X1 m d))) Finset.univ = inBuf m d L j hj :=
    (landed cc0_scratch2 fB _).trans (read_inS_eq m d L off inb j hj hoff)
  rw [flIn7_lt m d L sm hj, hA, pts_inS d L off inb j hj hoff, inAt_lt d L _ hj]

/-- A copy of result buffer 8 (contents `g`) out to result chunk `j`, in flight on semaphore `sm`. -/
def flOut8 (sm : DmaSem sig) (j : ℕ) (g : Buf (Elt F) ((Memref.whole cc0_scratch3 : Memref sig .scVector .vmem S4096 .f32).view.loc (thrL d L))) : sProp 𝕄 :=
  Transfers.Flight countersEmb (thrL d L) (SemLoc.dma sm) default 131072
    iprop(outAt d L (Y1 m d) j ∗ ((Memref.whole cc0_scratch3 : Memref sig .scVector .vmem S4096 .f32).view.loc (thrL d L)
      ↦[(Memref.whole cc0_scratch3 : Memref sig .scVector .vmem S4096 .f32).view.set]{fullShare} g))

/-- A copy of result buffer 9 (contents `g`) out to result chunk `j`, in flight on semaphore `sm`. -/
def flOut9 (sm : DmaSem sig) (j : ℕ) (g : Buf (Elt F) ((Memref.whole cc0_scratch4 : Memref sig .scVector .vmem S4096 .f32).view.loc (thrL d L))) : sProp 𝕄 :=
  Transfers.Flight countersEmb (thrL d L) (SemLoc.dma sm) default 131072
    iprop(outAt d L (Y1 m d) j ∗ ((Memref.whole cc0_scratch4 : Memref sig .scVector .vmem S4096 .f32).view.loc (thrL d L)
      ↦[(Memref.whole cc0_scratch4 : Memref sig .scVector .vmem S4096 .f32).view.set]{fullShare} g))

/-- The run's in-flight copy out of result buffer 8, in the one shape: when every piece stored into the buffer is
    the gathered function of operand chunk `j`, what lands in result chunk `j` is the kernel's function there. -/
theorem flOut8_intro [∀ e, Nonempty (Elt F e)] (sm : DmaSem sig) (offO : Fin 1 → Nat) (inbO : ∀ a, offO a + S4096.size a ≤ S8388608.size a)
    (j : ℕ) (hj : j < 64) (hO : offO = ![4096 * (64 * wN L + j)]) (Y : Buf (Elt F) (outLoc d))
    (f : Buf (Elt F) ((Memref.whole cc0_scratch3 : Memref sig .scVector .vmem S4096 .f32).view.loc (thrL d L)))
    (Ls : List (View.Piece (Elt F) S4096 .f32)) (Bc : S32768.Idx → Elt F .f32) (hBc : Bc = inBuf m d L j hj)
    (hL : ∀ p ∈ Ls, GoodPiece Bc (selN m d) (selN_lt m d) p) (hcov : ∀ y : S4096.Idx, ∃ p ∈ Ls, y ∈ p.1.set) :
    (Transfers.Flight countersEmb (thrL d L) (SemLoc.dma sm) default 131072
      iprop(((outS offO inbO).view.loc (thrL d L) ↦[(outS offO inbO).view.set]{fullShare}
            (outS offO inbO).view.writes (Elt F) Y
              [⟨Rect.whole S4096, ReadAs.same.apply (View.read (Elt F) (Memref.whole cc0_scratch3 : Memref sig .scVector .vmem S4096 .f32).view
                ((Memref.whole cc0_scratch3 : Memref sig .scVector .vmem S4096 .f32).view.writes (Elt F) f Ls))⟩])
          ∗ ((Memref.whole cc0_scratch3 : Memref sig .scVector .vmem S4096 .f32).view.loc (thrL d L)
              ↦[(Memref.whole cc0_scratch3 : Memref sig .scVector .vmem S4096 .f32).view.set]{fullShare}
              (Memref.whole cc0_scratch3 : Memref sig .scVector .vmem S4096 .f32).view.writes (Elt F) f Ls)) : sProp 𝕄)
      ⊢ flOut8 m d L sm j ((Memref.whole cc0_scratch3 : Memref sig .scVector .vmem S4096 .f32).view.writes (Elt F) f Ls) := by
  have hval : ∀ i ∈ (outS offO inbO).view.set,
      ((outS offO inbO).view.writes (Elt F) Y
        [⟨Rect.whole S4096, ReadAs.same.apply (View.read (Elt F) (Memref.whole cc0_scratch3 : Memref sig .scVector .vmem S4096 .f32).view
          ((Memref.whole cc0_scratch3 : Memref sig .scVector .vmem S4096 .f32).view.writes (Elt F) f Ls))⟩]) i = Y1 m d i :=
    out_value_of m d L j hj offO inbO _ (inb_in L j hj) hO rfl Bc hBc _
      (fun y => read_of_good _ _ Ls Bc (selN m d) (selN_lt m d) hL hcov y) Y
  unfold flOut8
  rw [pointsTo_congr hval, pts_outS d L offO inbO j hj hO, outAt_lt d L _ hj]

/-- The run's in-flight copy out of result buffer 9, in the one shape: when every piece stored into the buffer is
    the gathered function of operand chunk `j`, what lands in result chunk `j` is the kernel's function there. -/
theorem flOut9_intro [∀ e, Nonempty (Elt F e)] (sm : DmaSem sig) (offO : Fin 1 → Nat) (inbO : ∀ a, offO a + S4096.size a ≤ S8388608.size a)
    (j : ℕ) (hj : j < 64) (hO : offO = ![4096 * (64 * wN L + j)]) (Y : Buf (Elt F) (outLoc d))
    (f : Buf (Elt F) ((Memref.whole cc0_scratch4 : Memref sig .scVector .vmem S4096 .f32).view.loc (thrL d L)))
    (Ls : List (View.Piece (Elt F) S4096 .f32)) (Bc : S32768.Idx → Elt F .f32) (hBc : Bc = inBuf m d L j hj)
    (hL : ∀ p ∈ Ls, GoodPiece Bc (selN m d) (selN_lt m d) p) (hcov : ∀ y : S4096.Idx, ∃ p ∈ Ls, y ∈ p.1.set) :
    (Transfers.Flight countersEmb (thrL d L) (SemLoc.dma sm) default 131072
      iprop(((outS offO inbO).view.loc (thrL d L) ↦[(outS offO inbO).view.set]{fullShare}
            (outS offO inbO).view.writes (Elt F) Y
              [⟨Rect.whole S4096, ReadAs.same.apply (View.read (Elt F) (Memref.whole cc0_scratch4 : Memref sig .scVector .vmem S4096 .f32).view
                ((Memref.whole cc0_scratch4 : Memref sig .scVector .vmem S4096 .f32).view.writes (Elt F) f Ls))⟩])
          ∗ ((Memref.whole cc0_scratch4 : Memref sig .scVector .vmem S4096 .f32).view.loc (thrL d L)
              ↦[(Memref.whole cc0_scratch4 : Memref sig .scVector .vmem S4096 .f32).view.set]{fullShare}
              (Memref.whole cc0_scratch4 : Memref sig .scVector .vmem S4096 .f32).view.writes (Elt F) f Ls)) : sProp 𝕄)
      ⊢ flOut9 m d L sm j ((Memref.whole cc0_scratch4 : Memref sig .scVector .vmem S4096 .f32).view.writes (Elt F) f Ls) := by
  have hval : ∀ i ∈ (outS offO inbO).view.set,
      ((outS offO inbO).view.writes (Elt F) Y
        [⟨Rect.whole S4096, ReadAs.same.apply (View.read (Elt F) (Memref.whole cc0_scratch4 : Memref sig .scVector .vmem S4096 .f32).view
          ((Memref.whole cc0_scratch4 : Memref sig .scVector .vmem S4096 .f32).view.writes (Elt F) f Ls))⟩]) i = Y1 m d i :=
    out_value_of m d L j hj offO inbO _ (inb_in L j hj) hO rfl Bc hBc _
      (fun y => read_of_good _ _ Ls Bc (selN m d) (selN_lt m d) hL hcov y) Y
  unfold flOut9
  rw [pointsTo_congr hval, pts_outS d L offO inbO j hj hO, outAt_lt d L _ hj]

/-- Result chunk `j` as the copy out of result buffer 8 leaves it, when every piece stored into the buffer is the
    gathered function of operand chunk `j`: the kernel's function on that chunk. -/
theorem out_landed8 [∀ e, Nonempty (Elt F e)] (offO : Fin 1 → Nat) (inbO : ∀ a, offO a + S4096.size a ≤ S8388608.size a)
    (j : ℕ) (hj : j < 64) (hO : offO = ![4096 * (64 * wN L + j)]) (Y : Buf (Elt F) (outLoc d))
    (f : Buf (Elt F) ((Memref.whole cc0_scratch3 : Memref sig .scVector .vmem S4096 .f32).view.loc (thrL d L)))
    (Ls : List (View.Piece (Elt F) S4096 .f32)) (Bc : S32768.Idx → Elt F .f32) (hBc : Bc = inBuf m d L j hj)
    (hL : ∀ p ∈ Ls, GoodPiece Bc (selN m d) (selN_lt m d) p) (hcov : ∀ y : S4096.Idx, ∃ p ∈ Ls, y ∈ p.1.set) :
    ((outS offO inbO).view.loc (thrL d L) ↦[(outS offO inbO).view.set]{fullShare}
        (outS offO inbO).view.writes (Elt F) Y
          [⟨Rect.whole S4096, ReadAs.same.apply (View.read (Elt F) (Memref.whole cc0_scratch3 : Memref sig .scVector .vmem S4096 .f32).view
            ((Memref.whole cc0_scratch3 : Memref sig .scVector .vmem S4096 .f32).view.writes (Elt F) f Ls))⟩] : sProp 𝕄)
      = outAt d L (Y1 m d) j := by
  have hval : ∀ i ∈ (outS offO inbO).view.set,
      ((outS offO inbO).view.writes (Elt F) Y
        [⟨Rect.whole S4096, ReadAs.same.apply (View.read (Elt F) (Memref.whole cc0_scratch3 : Memref sig .scVector .vmem S4096 .f32).view
          ((Memref.whole cc0_scratch3 : Memref sig .scVector .vmem S4096 .f32).view.writes (Elt F) f Ls))⟩]) i = Y1 m d i :=
    out_value_of m d L j hj offO inbO _ (inb_in L j hj) hO rfl Bc hBc _
      (fun y => read_of_good _ _ Ls Bc (selN m d) (selN_lt m d) hL hcov y) Y
  rw [pointsTo_congr hval, pts_outS d L offO inbO j hj hO, outAt_lt d L _ hj]

/-- Result chunk `j` as the copy out of result buffer 9 leaves it, when every piece stored into the buffer is the
    gathered function of operand chunk `j`: the kernel's function on that chunk. -/
theorem out_landed9 [∀ e, Nonempty (Elt F e)] (offO : Fin 1 → Nat) (inbO : ∀ a, offO a + S4096.size a ≤ S8388608.size a)
    (j : ℕ) (hj : j < 64) (hO : offO = ![4096 * (64 * wN L + j)]) (Y : Buf (Elt F) (outLoc d))
    (f : Buf (Elt F) ((Memref.whole cc0_scratch4 : Memref sig .scVector .vmem S4096 .f32).view.loc (thrL d L)))
    (Ls : List (View.Piece (Elt F) S4096 .f32)) (Bc : S32768.Idx → Elt F .f32) (hBc : Bc = inBuf m d L j hj)
    (hL : ∀ p ∈ Ls, GoodPiece Bc (selN m d) (selN_lt m d) p) (hcov : ∀ y : S4096.Idx, ∃ p ∈ Ls, y ∈ p.1.set) :
    ((outS offO inbO).view.loc (thrL d L) ↦[(outS offO inbO).view.set]{fullShare}
        (outS offO inbO).view.writes (Elt F) Y
          [⟨Rect.whole S4096, ReadAs.same.apply (View.read (Elt F) (Memref.whole cc0_scratch4 : Memref sig .scVector .vmem S4096 .f32).view
            ((Memref.whole cc0_scratch4 : Memref sig .scVector .vmem S4096 .f32).view.writes (Elt F) f Ls))⟩] : sProp 𝕄)
      = outAt d L (Y1 m d) j := by
  have hval : ∀ i ∈ (outS offO inbO).view.set,
      ((outS offO inbO).view.writes (Elt F) Y
        [⟨Rect.whole S4096, ReadAs.same.apply (View.read (Elt F) (Memref.whole cc0_scratch4 : Memref sig .scVector .vmem S4096 .f32).view
          ((Memref.whole cc0_scratch4 : Memref sig .scVector .vmem S4096 .f32).view.writes (Elt F) f Ls))⟩]) i = Y1 m d i :=
    out_value_of m d L j hj offO inbO _ (inb_in L j hj) hO rfl Bc hBc _
      (fun y => read_of_good _ _ Ls Bc (selN m d) (selN_lt m d) hL hcov y) Y
  rw [pointsTo_congr hval, pts_outS d L offO inbO j hj hO, outAt_lt d L _ hj]

/-- The same, with the one shape written out. -/
theorem flOut8_intro' [∀ e, Nonempty (Elt F e)] (sm : DmaSem sig) (offO : Fin 1 → Nat) (inbO : ∀ a, offO a + S4096.size a ≤ S8388608.size a)
    (j : ℕ) (hj : j < 64) (hO : offO = ![4096 * (64 * wN L + j)]) (Y : Buf (Elt F) (outLoc d))
    (f : Buf (Elt F) ((Memref.whole cc0_scratch3 : Memref sig .scVector .vmem S4096 .f32).view.loc (thrL d L)))
    (Ls : List (View.Piece (Elt F) S4096 .f32)) (Bc : S32768.Idx → Elt F .f32) (hBc : Bc = inBuf m d L j hj)
    (hL : ∀ p ∈ Ls, GoodPiece Bc (selN m d) (selN_lt m d) p) (hcov : ∀ y : S4096.Idx, ∃ p ∈ Ls, y ∈ p.1.set) :
    (Transfers.Flight countersEmb (thrL d L) (SemLoc.dma sm) default 131072
      iprop(((outS offO inbO).view.loc (thrL d L) ↦[(outS offO inbO).view.set]{fullShare}
            (outS offO inbO).view.writes (Elt F) Y
              [⟨Rect.whole S4096, ReadAs.same.apply (View.read (Elt F) (Memref.whole cc0_scratch3 : Memref sig .scVector .vmem S4096 .f32).view
                ((Memref.whole cc0_scratch3 : Memref sig .scVector .vmem S4096 .f32).view.writes (Elt F) f Ls))⟩])
          ∗ ((Memref.whole cc0_scratch3 : Memref sig .scVector .vmem S4096 .f32).view.loc (thrL d L)
              ↦[(Memref.whole cc0_scratch3 : Memref sig .scVector .vmem S4096 .f32).view.set]{fullShare}
              (Memref.whole cc0_scratch3 : Memref sig .scVector .vmem S4096 .f32).view.writes (Elt F) f Ls)) : sProp 𝕄)
      ⊢ Transfers.Flight countersEmb (thrL d L) (SemLoc.dma sm) default 131072
          iprop(outAt d L (Y1 m d) j ∗ ((Memref.whole cc0_scratch3 : Memref sig .scVector .vmem S4096 .f32).view.loc (thrL d L)
            ↦[(Memref.whole cc0_scratch3 : Memref sig .scVector .vmem S4096 .f32).view.set]{fullShare}
            (Memref.whole cc0_scratch3 : Memref sig .scVector .vmem S4096 .f32).view.writes (Elt F) f Ls)) :=
  flOut8_intro m d L sm offO inbO j hj hO Y f Ls Bc hBc hL hcov

/-- The same, with the one shape written out. -/
theorem flOut9_intro' [∀ e, Nonempty (Elt F e)] (sm : DmaSem sig) (offO : Fin 1 → Nat) (inbO : ∀ a, offO a + S4096.size a ≤ S8388608.size a)
    (j : ℕ) (hj : j < 64) (hO : offO = ![4096 * (64 * wN L + j)]) (Y : Buf (Elt F) (outLoc d))
    (f : Buf (Elt F) ((Memref.whole cc0_scratch4 : Memref sig .scVector .vmem S4096 .f32).view.loc (thrL d L)))
    (Ls : List (View.Piece (Elt F) S4096 .f32)) (Bc : S32768.Idx → Elt F .f32) (hBc : Bc = inBuf m d L j hj)
    (hL : ∀ p ∈ Ls, GoodPiece Bc (selN m d) (selN_lt m d) p) (hcov : ∀ y : S4096.Idx, ∃ p ∈ Ls, y ∈ p.1.set) :
    (Transfers.Flight countersEmb (thrL d L) (SemLoc.dma sm) default 131072
      iprop(((outS offO inbO).view.loc (thrL d L) ↦[(outS offO inbO).view.set]{fullShare}
            (outS offO inbO).view.writes (Elt F) Y
              [⟨Rect.whole S4096, ReadAs.same.apply (View.read (Elt F) (Memref.whole cc0_scratch4 : Memref sig .scVector .vmem S4096 .f32).view
                ((Memref.whole cc0_scratch4 : Memref sig .scVector .vmem S4096 .f32).view.writes (Elt F) f Ls))⟩])
          ∗ ((Memref.whole cc0_scratch4 : Memref sig .scVector .vmem S4096 .f32).view.loc (thrL d L)
              ↦[(Memref.whole cc0_scratch4 : Memref sig .scVector .vmem S4096 .f32).view.set]{fullShare}
              (Memref.whole cc0_scratch4 : Memref sig .scVector .vmem S4096 .f32).view.writes (Elt F) f Ls)) : sProp 𝕄)
      ⊢ Transfers.Flight countersEmb (thrL d L) (SemLoc.dma sm) default 131072
          iprop(outAt d L (Y1 m d) j ∗ ((Memref.whole cc0_scratch4 : Memref sig .scVector .vmem S4096 .f32).view.loc (thrL d L)
            ↦[(Memref.whole cc0_scratch4 : Memref sig .scVector .vmem S4096 .f32).view.set]{fullShare}
            (Memref.whole cc0_scratch4 : Memref sig .scVector .vmem S4096 .f32).view.writes (Elt F) f Ls)) :=
  flOut9_intro m d L sm offO inbO j hj hO Y f Ls Bc hBc hL hcov

end Cert.Kernel.Hand

end
-- ==== Proof.KRegion.lean ====
/-
  One trip of the body's loop. Trip k (the kernel's pair k + 1) finds operand chunks 2k+2 and 2k+3 on their way into
  the two chunk buffers and result chunks 2k and 2k+1 on their way out of the two result buffers. It waits for the
  first operand chunk and for the first result buffer's copy, gathers: vector n = 128·t + g of the 256 is read at
  the index vector s + 8·lane + 16384·t + 128·g, i.e. elements 8·(16n + lane) + s of the chunk, and is stored at
  elements 16n … 16n+15 of the result buffer, which therefore holds y ↦ chunk[8·y + s]; it starts that buffer's copy
  to result chunk 2k+2 and the fetch of operand chunk 2k+4; then the same on the second pair of buffers for chunks
  2k+3, 2k+1 → 2k+3, 2k+5. So the trip ends as the next one starts, two further along; every index vector stays inside
  the 32768-element chunk because s ≤ 7.
-/
import proofs.«203709_g27616639714075_cont_sun_c4_439_12_alg».proof.Proof.KFlights
import proofs.«203709_g27616639714075_cont_sun_c4_439_12_alg».proof.Proof.RowIdx
import proofs.«203709_g27616639714075_cont_sun_c4_439_12_alg».proof.Proof.Gen.Kernel.Skeleton
import Idealize.ShloMosaic.Lib.Ring
import Idealize.ShloMosaic.Lib.Tactic

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "inW" => (Memref.whole Cert.Kernel.main_v0_scv : Memref Cert.Kernel.sig Kind.scVector Space.hbm Cert.Kernel.S67108864 EltTy.f32)
local notation "selW" => (Memref.whole Cert.Kernel.main_v1_scv : Memref Cert.Kernel.sig Kind.scVector Space.hbm Cert.Kernel.S16 EltTy.i32)
local notation "outW" => (Memref.whole Cert.Kernel.main_v2_scv : Memref Cert.Kernel.sig Kind.scVector Space.hbm Cert.Kernel.S8388608 EltTy.f32)
local notation "s5W" => (Memref.whole Cert.Kernel.cc0_scratch0 : Memref Cert.Kernel.sig Kind.scVector Space.vmem Cert.Kernel.S16 EltTy.i32)
local notation "b6W" => (Memref.whole Cert.Kernel.cc0_scratch1 : Memref Cert.Kernel.sig Kind.scVector Space.vmem Cert.Kernel.S32768 EltTy.f32)
local notation "b7W" => (Memref.whole Cert.Kernel.cc0_scratch2 : Memref Cert.Kernel.sig Kind.scVector Space.vmem Cert.Kernel.S32768 EltTy.f32)
local notation "o8W" => (Memref.whole Cert.Kernel.cc0_scratch3 : Memref Cert.Kernel.sig Kind.scVector Space.vmem Cert.Kernel.S4096 EltTy.f32)
local notation "o9W" => (Memref.whole Cert.Kernel.cc0_scratch4 : Memref Cert.Kernel.sig Kind.scVector Space.vmem Cert.Kernel.S4096 EltTy.f32)

variable (m : (ℓ : Loc nD τ sig) → Buf (Elt F) ℓ) (d : Dev nD) (L : grid0.Coords)

/-- The four semaphores of the loop, as numbers. -/
abbrev sm0 : DmaSem sig := ⟨0, by decide⟩
abbrev sm1 : DmaSem sig := ⟨1, by decide⟩
abbrev sm2 : DmaSem sig := ⟨2, by decide⟩
abbrev sm3 : DmaSem sig := ⟨3, by decide⟩

/-- Before trip `k` of the loop (the kernel's pair `k + 1`): operand chunks `2k+2`, `2k+3` are on their way into the two
    chunk buffers, result chunks `2k`, `2k+1` on their way out of the two result buffers; operand chunks below `2k+2`
    have come back and those from `2k+4` on are still to be fetched; result chunks below `2k` are written, those from
    `2k+2` on untouched. -/
def inv (O : CellTallies nD τ sig (HIx 1)) (W : Waits sig (HIx 1)) (k : ℕ) (_acc : BitVec 32) : sProp 𝕄 :=
  iprop((Transfers.MayWaits (thrL d L) (none : HIx 1) O : sProp 𝕄)
    ∗ flIn6 m d L sm0 (2 * k + 2) ∗ flIn7 m d L sm1 (2 * k + 3)
    ∗ (∃ g8, flOut8 m d L sm2 (2 * k) g8 ∗ ((o8W).view.loc (thrL d L) ↦[Finset.univ \ (o8W).view.set]{fullShare} g8))
    ∗ (∃ g9, flOut9 m d L sm3 (2 * k + 1) g9 ∗ ((o9W).view.loc (thrL d L) ↦[Finset.univ \ (o9W).view.set]{fullShare} g9))
    ∗ inPile d L (X1 m d) 0 (2 * k + 2) ∗ inPile d L (X1 m d) (2 * k + 4) 64
    ∗ outPile d L (Y1 m d) 0 (2 * k) ∗ outPile d L (m (outLoc d)) (2 * k + 2) 64
    ∗ ∃ W', ⌜∀ p ∈ W', p ∈ W ∨ p.2 = none⌝ ∗ owes (thrL d L) O W')

omit [FloatOps F] in
theorem trips_eq : k0_t1_loop.trips = 30 := by decide

set_option maxHeartbeats 40000000 in
theorem region_run [∀ e, Nonempty (Elt F e)] (O : CellTallies nD τ sig (HIx 1)) (W : Waits sig (HIx 1))
    (sv io : IVec S16 32) (hsv : ∀ l, (sv l).toNat = selN m d) (hs7 : selN m d ≤ 7) (hio : ∀ l : S16.Idx, (io l).toNat = (l 0).val)
    (v8 v10 : BitVec 32) (v1584 : IVec S16 32) (v2077 : IVec S16 32) (k : Fin k0_t1_loop.trips) (acc : BitVec 32) :
    inv m d L O W k.val acc
      ⊢ wp frame (wpE (defs₀ (F := F)) 𝒱₀ (thrL d L) none) Set.univ
          (k0_t1_body L inW (Memref.isWhole_whole _) selW (Memref.isWhole_whole _) outW (Memref.isWhole_whole _)
            s5W (Memref.isWhole_whole _) b6W (Memref.isWhole_whole _) b7W (Memref.isWhole_whole _) o8W (Memref.isWhole_whole _) o9W (Memref.isWhole_whole _)
            cc0_scratch5 cc0_scratch6 cc0_scoped0 (addi sv (muli (broadcast S16 8#32) io)) v8 v10 v1584 v2077 k acc)
          (inv m d L O W (k.val + 1)) := by
  have hk : k.val < 30 := trips_eq ▸ k.isLt
  unfold inv inPile outPile
  rw [flIn6_lt m d L sm0 (by omega : 2 * k.val + 2 < 64), flIn7_lt m d L sm1 (by omega : 2 * k.val + 3 < 64)]
  unfold flOut8 flOut9
  rw [inAt_lt d L _ (by omega : 2 * k.val + 2 < 64), inAt_lt d L _ (by omega : 2 * k.val + 3 < 64),
    outAt_lt d L (Y1 m d) (by omega : 2 * k.val < 64), outAt_lt d L (Y1 m d) (by omega : 2 * k.val + 1 < 64),
    ← pts_inS d L (k0_off6 L k) (k0_off6_inb L k) (2 * k.val + 2) (by omega) (off_in6 L k),
    ← pts_inS d L (k0_off10 L k) (k0_off10_inb L k) (2 * k.val + 3) (by omega) (off_in10 L k),
    ← pts_outS d L (k0_off7 L k) (k0_off7_inb L k) (2 * k.val) (by omega) (off_out7 L k),
    ← pts_outS d L (k0_off11 L k) (k0_off11_inb L k) (2 * k.val + 1) (by omega) (off_out11 L k)]
  rw [bigSep_Ico_pop_left' (inAt d L (X1 m d)) (a := 2 * k.val + 4) (a' := 2 * k.val + 5) (b := 64) (by omega) (by omega),
    bigSep_Ico_pop_left' (inAt d L (X1 m d)) (a := 2 * k.val + 5) (a' := 2 * k.val + 6) (b := 64) (by omega) (by omega),
    bigSep_Ico_pop_left' (outAt d L (m (outLoc d))) (a := 2 * k.val + 2) (a' := 2 * k.val + 3) (b := 64) (by omega) (by omega),
    bigSep_Ico_pop_left' (outAt d L (m (outLoc d))) (a := 2 * k.val + 3) (a' := 2 * k.val + 4) (b := 64) (by omega) (by omega),
    inAt_lt d L _ (by omega : 2 * k.val + 4 < 64), inAt_lt d L _ (by omega : 2 * k.val + 5 < 64),
    outAt_lt d L _ (by omega : 2 * k.val + 2 < 64), outAt_lt d L _ (by omega : 2 * k.val + 3 < 64),
    ← pts_inS d L (k0_off9 L k) (k0_off9_inb L k) (2 * k.val + 4) (by omega) (off_in9 L k),
    ← pts_inS d L (k0_off13 L k) (k0_off13_inb L k) (2 * k.val + 5) (by omega) (off_in13 L k),
    ← pts_outS d L (k0_off8 L k) (k0_off8_inb L k) (2 * k.val + 2) (by omega) (off_out8 L k),
    ← pts_outS d L (k0_off12 L k) (k0_off12_inb L k) (2 * k.val + 3) (by omega) (off_out12 L k)]
  iintro ⟨Hmw, Hf6, Hf7, ⟨%g8, Hf8, H8r⟩, ⟨%g9, Hf9, H9r⟩, HinD, ⟨Hc4, Hc5, HinT⟩, HoutD, ⟨Hd2, Hd3, HoutT⟩, %W', %hW', HO⟩
  sl_exec (disch := exact Cert.Sel.inb_of_two hsv hs7 hio _ _ (by decide) (by decide) (by decide))
  repeat (sl_respell [SparseCore.vectorLoadIdx]; sl_exec (disch := exact Cert.Sel.inb_of_two hsv hs7 hio _ _ (by decide) (by decide) (by decide)))
  sl_step
  rw [show 2 * (k.val + 1) + 2 = 2 * k.val + 4 by omega, show 2 * (k.val + 1) + 3 = 2 * k.val + 5 by omega,
    show 2 * (k.val + 1) + 4 = 2 * k.val + 6 by omega, show 2 * (k.val + 1) + 1 = 2 * k.val + 3 by omega,
    show 2 * (k.val + 1) = 2 * k.val + 2 by omega]
  rw [bigSep_Ico_push_right' (inAt d L (X1 m d)) (a := 0) (b := 2 * k.val + 3) (b' := 2 * k.val + 4) (by omega) (by omega),
    bigSep_Ico_push_right' (inAt d L (X1 m d)) (a := 0) (b := 2 * k.val + 2) (b' := 2 * k.val + 3) (by omega) (by omega),
    bigSep_Ico_push_right' (outAt d L (Y1 m d)) (a := 0) (b := 2 * k.val + 1) (b' := 2 * k.val + 2) (by omega) (by omega),
    bigSep_Ico_push_right' (outAt d L (Y1 m d)) (a := 0) (b := 2 * k.val) (b' := 2 * k.val + 1) (by omega) (by omega),
    inAt_lt d L _ (by omega : 2 * k.val + 3 < 64), inAt_lt d L _ (by omega : 2 * k.val + 2 < 64),
    outAt_lt d L (Y1 m d) (by omega : 2 * k.val + 1 < 64), outAt_lt d L (Y1 m d) (by omega : 2 * k.val < 64),
    ← pts_inS d L (k0_off10 L k) (k0_off10_inb L k) (2 * k.val + 3) (by omega) (off_in10 L k),
    ← pts_inS d L (k0_off6 L k) (k0_off6_inb L k) (2 * k.val + 2) (by omega) (off_in6 L k),
    ← pts_outS d L (k0_off11 L k) (k0_off11_inb L k) (2 * k.val + 1) (by omega) (off_out11 L k),
    ← pts_outS d L (k0_off7 L k) (k0_off7_inb L k) (2 * k.val) (by omega) (off_out7 L k)]
  isplitl [Hmw]; · iexact Hmw
  isplitl [Hf6]
  · iapply (flIn6_intro m d L sm0 (k0_off9 L k) (k0_off9_inb L k) (2 * k.val + 4) (by omega) (off_in9 L k) _); iexact Hf6
  isplitl [Hf7]
  · iapply (flIn7_intro m d L sm1 (k0_off13 L k) (k0_off13_inb L k) (2 * k.val + 5) (by omega) (off_in13 L k) _); iexact Hf7
  isplitl [Hf8 H8r]
  · iexists _
    isplitl [Hf8]
    · iapply (flOut8_intro' m d L sm2 (k0_off8 L k) (k0_off8_inb L k) (2 * k.val + 2) (by omega) (off_out8 L k) _ _ _
        (inBuf m d L (2 * k.val + 2) (by omega)) rfl ?hL8 ?hc8)
      rotate_left 2
      · iexact Hf8
      case hL8 =>
        repeat' (first
        | refine List.forall_mem_cons.mpr ⟨goodPiece_of_load hsv hs7 hio (Memref.readAt_whole _ _ _) (by decide) (by decide) (by decide), ?_⟩
        | exact fun _ h => nomatch h)
      case hc8 => exact View.cover_of_tiledL _ S16.size (by sl_kernel_rfl)
    · iexact H8r
  isplitl [Hf9 H9r]
  · iexists _
    isplitl [Hf9]
    · iapply (flOut9_intro' m d L sm3 (k0_off12 L k) (k0_off12_inb L k) (2 * k.val + 3) (by omega) (off_out12 L k) _ _ _
        (inBuf m d L (2 * k.val + 3) (by omega)) rfl ?hL9 ?hc9)
      rotate_left 2
      · iexact Hf9
      case hL9 =>
        repeat' (first
        | refine List.forall_mem_cons.mpr ⟨goodPiece_of_load hsv hs7 hio (Memref.readAt_whole _ _ _) (by decide) (by decide) (by decide), ?_⟩
        | exact fun _ h => nomatch h)
      case hc9 => exact View.cover_of_tiledL _ S16.size (by sl_kernel_rfl)
    · iexact H9r
  isplitl [HinD Hf6_src Hf7_src]
  · isplitl [Hf7_src]; · iexact Hf7_src
    isplitl [Hf6_src]; · iexact Hf6_src
    iexact HinD
  isplitl [HinT]; · iexact HinT
  isplitl [HoutD Hf8_dst Hf9_dst]
  · isplitl [Hf9_dst]; · iexact Hf9_dst
    isplitl [Hf8_dst]; · iexact Hf8_dst
    iexact HoutD
  isplitl [HoutT]; · iexact HoutT
  iexists (insert (SemLoc.dma sm3, (default : HIx 1)) (insert (SemLoc.dma sm1, (default : HIx 1))
    (insert (SemLoc.dma sm2, (default : HIx 1)) (insert (SemLoc.dma sm0, (default : HIx 1)) W')))); isplitr
  · ipureintro; intro p hp
    simp only [Finset.mem_insert] at hp
    rcases hp with rfl | rfl | rfl | rfl | hp
    · exact .inr rfl
    · exact .inr rfl
    · exact .inr rfl
    · exact .inr rfl
    · exact hW' p hp
  · iexact HO

end Cert.Kernel.Hand

end
-- ==== Proof.KTile.lean ====
/-
  One tile's task. Tile i of SparseCore c is worker w = 2·i + c: it owns tokens 128·w … 128·w + 127 in 64 chunks of two
  tokens; chunk j is elements 32768·(64·w + j) … of the flat operand and elements 4096·(64·w + j) … of the flat result.
  The body fetches the selector's sixteen copies, builds the vector s + 8·lane once, and then runs the chunks through
  two chunk buffers and two result buffers, one copy in flight per semaphore: fetch chunks 0 and 1; gather chunk 0,
  start writing it out, fetch chunk 2; the same for 1 and 3; thirty trips of the loop (Proof/Region.lean) for chunks
  2 … 61; the last two chunks; the last two waits. Each gather of a chunk leaves y ↦ chunk[8·y + s] in the result
  buffer, so result chunk j ends as the kernel's function Y1 restricted to it; the operand's chunks and the selector
  come back as they were. What is proved: from the tile's chunks and its own scratch buffers and semaphores at zero,
  the task terminates without a fault and hands back the same with the result's chunks at Y1 — the launch theorem's
  obligation for a vector-subcore kernel.
-/
import proofs.«203709_g27616639714075_cont_sun_c4_439_12_alg».proof.Proof.KRegion
import Idealize.ShloMosaic.Lib.SparseCore.Launch

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "inW" => (Memref.whole Cert.Kernel.main_v0_scv : Memref Cert.Kernel.sig Kind.scVector Space.hbm Cert.Kernel.S67108864 EltTy.f32)
local notation "selW" => (Memref.whole Cert.Kernel.main_v1_scv : Memref Cert.Kernel.sig Kind.scVector Space.hbm Cert.Kernel.S16 EltTy.i32)
local notation "outW" => (Memref.whole Cert.Kernel.main_v2_scv : Memref Cert.Kernel.sig Kind.scVector Space.hbm Cert.Kernel.S8388608 EltTy.f32)
local notation "s5W" => (Memref.whole Cert.Kernel.cc0_scratch0 : Memref Cert.Kernel.sig Kind.scVector Space.vmem Cert.Kernel.S16 EltTy.i32)
local notation "b6W" => (Memref.whole Cert.Kernel.cc0_scratch1 : Memref Cert.Kernel.sig Kind.scVector Space.vmem Cert.Kernel.S32768 EltTy.f32)
local notation "b7W" => (Memref.whole Cert.Kernel.cc0_scratch2 : Memref Cert.Kernel.sig Kind.scVector Space.vmem Cert.Kernel.S32768 EltTy.f32)
local notation "o8W" => (Memref.whole Cert.Kernel.cc0_scratch3 : Memref Cert.Kernel.sig Kind.scVector Space.vmem Cert.Kernel.S4096 EltTy.f32)
local notation "o9W" => (Memref.whole Cert.Kernel.cc0_scratch4 : Memref Cert.Kernel.sig Kind.scVector Space.vmem Cert.Kernel.S4096 EltTy.f32)

variable (m : (ℓ : Loc nD τ sig) → Buf (Elt F) ℓ) (d : Dev nD) (L : grid0.Coords)

set_option quotPrecheck false in
local notation "ptsI(" off ", " inb ", " f ")" => (View.loc (thrL d L) (inS off inb).view ↦[(inS off inb).view.set]{fullShare} f)
set_option quotPrecheck false in
local notation "ptsO(" off ", " inb ", " f ")" => (View.loc (thrL d L) (outS off inb).view ↦[(outS off inb).view.set]{fullShare} f)

omit [FloatOps F] in
/-- The tile's operand chunks: the first four as the body names them, the rest as a pile. -/
theorem in_start : (inChunks d (L 0) (L 1) (X1 m d) : sProp 𝕄) = iprop(
    ptsI(k0_off1 L 0#32, k0_off1_inb L 0, X1 m d) ∗ ptsI(k0_off1 L 32768#32, k0_off1_inb L 1, X1 m d)
    ∗ ptsI(k0_off3 L 65536#32, k0_off3_inb L 1, X1 m d) ∗ ptsI(k0_off5 L 98304#32, k0_off5_inb L 0, X1 m d)
    ∗ inPile d L (X1 m d) 4 64) := by
  rw [inChunks_eq_pile]; unfold inPile
  rw [bigSep_Ico_pop_left' (inAt d L (X1 m d)) (a := 0) (a' := 1) (b := 64) (by omega) rfl,
    bigSep_Ico_pop_left' (inAt d L (X1 m d)) (a := 1) (a' := 2) (b := 64) (by omega) rfl,
    bigSep_Ico_pop_left' (inAt d L (X1 m d)) (a := 2) (a' := 3) (b := 64) (by omega) rfl,
    bigSep_Ico_pop_left' (inAt d L (X1 m d)) (a := 3) (a' := 4) (b := 64) (by omega) rfl,
    inAt_lt d L _ (by omega : 0 < 64), inAt_lt d L _ (by omega : 1 < 64), inAt_lt d L _ (by omega : 2 < 64), inAt_lt d L _ (by omega : 3 < 64),
    ← pts_inS d L (k0_off1 L 0#32) (k0_off1_inb L 0) 0 (by omega) (off_in1_0 L),
    ← pts_inS d L (k0_off1 L 32768#32) (k0_off1_inb L 1) 1 (by omega) (off_in1_1 L),
    ← pts_inS d L (k0_off3 L 65536#32) (k0_off3_inb L 1) 2 (by omega) (off_in3_1 L),
    ← pts_inS d L (k0_off5 L 98304#32) (k0_off5_inb L 0) 3 (by omega) (off_in5_0 L)]

omit [FloatOps F] in
/-- The tile's result chunks: the first two as the body names them, the rest as a pile. -/
theorem out_start (f : Buf (Elt F) (outLoc d)) : (outChunks d (L 0) (L 1) f : sProp 𝕄) = iprop(
    ptsO(k0_off2 L, k0_off2_inb L, f) ∗ ptsO(k0_off4 L 4096#32, k0_off4_inb L 0, f) ∗ outPile d L f 2 64) := by
  rw [outChunks_eq_pile]; unfold outPile
  rw [bigSep_Ico_pop_left' (outAt d L f) (a := 0) (a' := 1) (b := 64) (by omega) rfl,
    bigSep_Ico_pop_left' (outAt d L f) (a := 1) (a' := 2) (b := 64) (by omega) rfl,
    outAt_lt d L _ (by omega : 0 < 64), outAt_lt d L _ (by omega : 1 < 64),
    ← pts_outS d L (k0_off2 L) (k0_off2_inb L) 0 (by omega) (off_out2 L),
    ← pts_outS d L (k0_off4 L 4096#32) (k0_off4_inb L 0) 1 (by omega) (off_out4_0 L)]

omit [FloatOps F] in
set_option maxHeartbeats 4000000 in
/-- After the loop's thirty trips: chunks 62 and 63 of the operand on their way in, 60 and 61 of the result on their
    way out, result chunks 62 and 63 still to be written — in the spelling the body's last stretch uses. -/
theorem inv_at_end (O : CellTallies nD τ sig (HIx 1)) (W : Waits sig (HIx 1)) (n : ℕ) (hn : n = 30) (acc : BitVec 32) :
    inv m d L O W n acc = iprop((Transfers.MayWaits (thrL d L) (none : HIx 1) O : sProp 𝕄)
      ∗ Transfers.Flight countersEmb (thrL d L) (SemLoc.dma sm0) default 1048576
          iprop(((b6W).view.loc (thrL d L) ↦{fullShare} inBuf m d L 62 (by omega)) ∗ ptsI(k0_off5 L 2031616#32, k0_off5_inb L 1, X1 m d))
      ∗ Transfers.Flight countersEmb (thrL d L) (SemLoc.dma sm1) default 1048576
          iprop(((b7W).view.loc (thrL d L) ↦{fullShare} inBuf m d L 63 (by omega)) ∗ ptsI(k0_off15 L, k0_off15_inb L, X1 m d))
      ∗ (∃ g8, Transfers.Flight countersEmb (thrL d L) (SemLoc.dma sm2) default 131072
            iprop(ptsO(k0_off4 L 245760#32, k0_off4_inb L 1, Y1 m d) ∗ ((o8W).view.loc (thrL d L) ↦[(o8W).view.set]{fullShare} g8))
          ∗ ((o8W).view.loc (thrL d L) ↦[Finset.univ \ (o8W).view.set]{fullShare} g8))
      ∗ (∃ g9, Transfers.Flight countersEmb (thrL d L) (SemLoc.dma sm3) default 131072
            iprop(ptsO(k0_off14 L 249856#32, k0_off14_inb L 0, Y1 m d) ∗ ((o9W).view.loc (thrL d L) ↦[(o9W).view.set]{fullShare} g9))
          ∗ ((o9W).view.loc (thrL d L) ↦[Finset.univ \ (o9W).view.set]{fullShare} g9))
      ∗ inPile d L (X1 m d) 0 62 ∗ emp
      ∗ outPile d L (Y1 m d) 0 60
      ∗ (ptsO(k0_off16 L 253952#32, k0_off16_inb L 0, m (outLoc d)) ∗ ptsO(k0_off16 L 258048#32, k0_off16_inb L 1, m (outLoc d)) ∗ emp)
      ∗ ∃ W', ⌜∀ p ∈ W', p ∈ W ∨ p.2 = none⌝ ∗ owes (thrL d L) O W') := by
  subst hn
  unfold inv inPile outPile flOut8 flOut9
  rw [show 2 * 30 + 2 = 62 from rfl, show 2 * 30 + 3 = 63 from rfl, show 2 * 30 + 4 = 64 from rfl, show 2 * 30 + 1 = 61 from rfl, show 2 * 30 = 60 from rfl,
    flIn6_lt m d L sm0 (by omega : 62 < 64), flIn7_lt m d L sm1 (by omega : 63 < 64),
    bigSep_Ico_self,
    bigSep_Ico_pop_left' (outAt d L (m (outLoc d))) (a := 62) (a' := 63) (b := 64) (by omega) rfl,
    bigSep_Ico_pop_left' (outAt d L (m (outLoc d))) (a := 63) (a' := 64) (b := 64) (by omega) rfl,
    bigSep_Ico_self,
    inAt_lt d L _ (by omega : 62 < 64), inAt_lt d L _ (by omega : 63 < 64),
    outAt_lt d L (Y1 m d) (by omega : 60 < 64), outAt_lt d L (Y1 m d) (by omega : 61 < 64),
    outAt_lt d L (m (outLoc d)) (by omega : 62 < 64), outAt_lt d L (m (outLoc d)) (by omega : 63 < 64),
    ← pts_inS d L (k0_off5 L 2031616#32) (k0_off5_inb L 1) 62 (by omega) (off_in5_1 L),
    ← pts_inS d L (k0_off15 L) (k0_off15_inb L) 63 (by omega) (off_in15 L),
    ← pts_outS d L (k0_off4 L 245760#32) (k0_off4_inb L 1) 60 (by omega) (off_out4_1 L),
    ← pts_outS d L (k0_off14 L 249856#32) (k0_off14_inb L 0) 61 (by omega) (off_out14_0 L),
    ← pts_outS d L (k0_off16 L 253952#32) (k0_off16_inb L 0) 62 (by omega) (off_out16_0 L),
    ← pts_outS d L (k0_off16 L 258048#32) (k0_off16_inb L 1) 63 (by omega) (off_out16_1 L)]

set_option maxHeartbeats 4000000 in
/-- At the loop's entry: chunks 2 and 3 of the operand are on their way in, chunks 0 and 1 of the result on their way
    out (each the gathered function of its operand chunk), operand chunks 0 and 1 have come back. -/
theorem init_inv [∀ e, Nonempty (Elt F e)] (O : CellTallies nD τ sig (HIx 1)) (W W0 : Waits sig (HIx 1)) (hW0 : ∀ p ∈ W0, p ∈ W ∨ p.2 = none)
    (B6 : Buf (Elt F) ((b6W).view.loc (thrL d L))) (B7 : Buf (Elt F) ((b7W).view.loc (thrL d L)))
    (f8 : Buf (Elt F) ((o8W).view.loc (thrL d L))) (f9 : Buf (Elt F) ((o9W).view.loc (thrL d L)))
    (Ls8 Ls9 : List (View.Piece (Elt F) S4096 .f32)) (Bc8 Bc9 : S32768.Idx → Elt F .f32)
    (hBc8 : Bc8 = inBuf m d L 0 (by omega)) (hBc9 : Bc9 = inBuf m d L 1 (by omega))
    (hL8 : ∀ p ∈ Ls8, GoodPiece Bc8 (selN m d) (selN_lt m d) p) (hc8 : ∀ y : S4096.Idx, ∃ p ∈ Ls8, y ∈ p.1.set)
    (hL9 : ∀ p ∈ Ls9, GoodPiece Bc9 (selN m d) (selN_lt m d) p) (hc9 : ∀ y : S4096.Idx, ∃ p ∈ Ls9, y ∈ p.1.set) (acc : BitVec 32) :
    iprop((Transfers.MayWaits (thrL d L) (none : HIx 1) O : sProp 𝕄)
      ∗ Transfers.Flight countersEmb (thrL d L) (SemLoc.dma sm0) default 1048576
          iprop(((b6W).view.loc (thrL d L) ↦{fullShare} View.write (Elt F) (b6W).view B6
              (ReadAs.same.apply (View.read (Elt F) (inS (k0_off3 L 65536#32) (k0_off3_inb L 1)).view (X1 m d))) Finset.univ)
            ∗ ptsI(k0_off3 L 65536#32, k0_off3_inb L 1, X1 m d))
      ∗ Transfers.Flight countersEmb (thrL d L) (SemLoc.dma sm1) default 1048576
          iprop(((b7W).view.loc (thrL d L) ↦{fullShare} View.write (Elt F) (b7W).view B7
              (ReadAs.same.apply (View.read (Elt F) (inS (k0_off5 L 98304#32) (k0_off5_inb L 0)).view (X1 m d))) Finset.univ)
            ∗ ptsI(k0_off5 L 98304#32, k0_off5_inb L 0, X1 m d))
      ∗ Transfers.Flight countersEmb (thrL d L) (SemLoc.dma sm2) default 131072
          iprop(ptsO(k0_off2 L, k0_off2_inb L, (outS (k0_off2 L) (k0_off2_inb L)).view.writes (Elt F) (m (outLoc d))
              [⟨Rect.whole S4096, ReadAs.same.apply (View.read (Elt F) (o8W).view ((o8W).view.writes (Elt F) f8 Ls8))⟩])
            ∗ ((o8W).view.loc (thrL d L) ↦[(o8W).view.set]{fullShare} (o8W).view.writes (Elt F) f8 Ls8))
      ∗ ((o8W).view.loc (thrL d L) ↦[Finset.univ \ (o8W).view.set]{fullShare} (o8W).view.writes (Elt F) f8 Ls8)
      ∗ Transfers.Flight countersEmb (thrL d L) (SemLoc.dma sm3) default 131072
          iprop(ptsO(k0_off4 L 4096#32, k0_off4_inb L 0, (outS (k0_off4 L 4096#32) (k0_off4_inb L 0)).view.writes (Elt F) (m (outLoc d))
              [⟨Rect.whole S4096, ReadAs.same.apply (View.read (Elt F) (o9W).view ((o9W).view.writes (Elt F) f9 Ls9))⟩])
            ∗ ((o9W).view.loc (thrL d L) ↦[(o9W).view.set]{fullShare} (o9W).view.writes (Elt F) f9 Ls9))
      ∗ ((o9W).view.loc (thrL d L) ↦[Finset.univ \ (o9W).view.set]{fullShare} (o9W).view.writes (Elt F) f9 Ls9)
      ∗ ptsI(k0_off1 L 0#32, k0_off1_inb L 0, X1 m d) ∗ ptsI(k0_off1 L 32768#32, k0_off1_inb L 1, X1 m d)
      ∗ inPile d L (X1 m d) 4 64 ∗ outPile d L (m (outLoc d)) 2 64
      ∗ owes (thrL d L) O W0)
      ⊢ inv m d L O W 0 acc := by
  unfold inv inPile outPile
  rw [show 2 * 0 + 2 = 2 from rfl, show 2 * 0 + 3 = 3 from rfl, show 2 * 0 + 4 = 4 from rfl, show 2 * 0 + 1 = 1 from rfl, show 2 * 0 = 0 from rfl,
    bigSep_Ico_push_right' (inAt d L (X1 m d)) (a := 0) (b := 1) (b' := 2) (by omega) rfl,
    bigSep_Ico_push_right' (inAt d L (X1 m d)) (a := 0) (b := 0) (b' := 1) (by omega) rfl,
    bigSep_Ico_self, bigSep_Ico_self,
    inAt_lt d L _ (by omega : 1 < 64), inAt_lt d L _ (by omega : 0 < 64),
    ← pts_inS d L (k0_off1 L 32768#32) (k0_off1_inb L 1) 1 (by omega) (off_in1_1 L),
    ← pts_inS d L (k0_off1 L 0#32) (k0_off1_inb L 0) 0 (by omega) (off_in1_0 L)]
  iintro ⟨Hmw, Hi0, Hi1, Ho0, H8r, Ho1, H9r, Hin0, Hin1, HinR, HoutR, HO⟩
  isplitl [Hmw]; · iexact Hmw
  isplitl [Hi0]
  · iapply (flIn6_intro m d L sm0 (k0_off3 L 65536#32) (k0_off3_inb L 1) 2 (by omega) (off_in3_1 L) B6); iexact Hi0
  isplitl [Hi1]
  · iapply (flIn7_intro m d L sm1 (k0_off5 L 98304#32) (k0_off5_inb L 0) 3 (by omega) (off_in5_0 L) B7); iexact Hi1
  isplitl [Ho0 H8r]
  · iexists _
    isplitl [Ho0]
    · iapply (flOut8_intro m d L sm2 (k0_off2 L) (k0_off2_inb L) 0 (by omega) (off_out2 L) (m (outLoc d)) f8 Ls8 Bc8 hBc8 hL8 hc8); iexact Ho0
    · iexact H8r
  isplitl [Ho1 H9r]
  · iexists _
    isplitl [Ho1]
    · iapply (flOut9_intro m d L sm3 (k0_off4 L 4096#32) (k0_off4_inb L 0) 1 (by omega) (off_out4_0 L) (m (outLoc d)) f9 Ls9 Bc9 hBc9 hL9 hc9); iexact Ho1
    · iexact H9r
  isplitl [Hin0 Hin1]
  · isplitl [Hin1]; · iexact Hin1
    isplitl [Hin0]; · iexact Hin0
    iempintro
  isplitl [HinR]; · iexact HinR
  isplitr; · iempintro
  isplitl [HoutR]; · iexact HoutR
  iexists W0; isplitr
  · ipureintro; exact hW0
  · iexact HO

/-! ## The selector, as the tile reads it -/

omit [FloatOps F] in
/-- A one-element array has one index. -/
theorem idx_S1_eq (i j : S1.Idx) : i = j := by
  funext a
  apply Fin.ext
  have hi : (i a).val < 1 := by have := (i a).isLt; match a with | ⟨0, _⟩ => exact this
  have hj : (j a).val < 1 := by have := (j a).isLt; match a with | ⟨0, _⟩ => exact this
  omega

omit [FloatOps F] in
/-- Every lane of the repeated selector is the selector word. -/
theorem SelV_apply (l : S16.Idx) : SelV m d l = m (a2Loc d) (ValueIdx.ix1 0) := by
  show (m (a2Loc d) : S1.Idx → Elt F .i32) _ = (m (a2Loc d) : S1.Idx → Elt F .i32) _
  exact congrArg _ (idx_S1_eq _ _)

omit [FloatOps F] in
/-- Under the range, the selector word is the position `selN`. -/
theorem selN_eq (hpre : PreOK m) : (m (a2Loc d) (ValueIdx.ix1 0)).toNat = selN m d :=
  (Cert.Sel.pos_val_of_le _ (hpre d)).symm

omit [FloatOps F] in
theorem pts_sel (q : PosShare TreeShare) (f : Buf (Elt F) (selLoc d)) :
    ((selW).view.loc (thrL d L) ↦{q} f : sProp 𝕄) = selLoc d ↦{q} f := by
  simp only [Memref.view_whole, View.set_whole]

omit [FloatOps F] in
theorem pts_s5 (f : Buf (Elt F) ((thrL d L).loc cc0_scratch0)) : ((s5W).view.loc (thrL d L) ↦{fullShare} f : sProp 𝕄) = (thrL d L).loc cc0_scratch0 ↦{fullShare} f := rfl
omit [FloatOps F] in
theorem pts_b6 (f : Buf (Elt F) ((thrL d L).loc cc0_scratch1)) : ((b6W).view.loc (thrL d L) ↦{fullShare} f : sProp 𝕄) = (thrL d L).loc cc0_scratch1 ↦{fullShare} f := rfl
omit [FloatOps F] in
theorem pts_b7 (f : Buf (Elt F) ((thrL d L).loc cc0_scratch2)) : ((b7W).view.loc (thrL d L) ↦{fullShare} f : sProp 𝕄) = (thrL d L).loc cc0_scratch2 ↦{fullShare} f := rfl
omit [FloatOps F] in
theorem pts_o8 (f : Buf (Elt F) ((thrL d L).loc cc0_scratch3)) : ((o8W).view.loc (thrL d L) ↦{fullShare} f : sProp 𝕄) = (thrL d L).loc cc0_scratch3 ↦{fullShare} f := rfl
omit [FloatOps F] in
theorem pts_o9 (f : Buf (Elt F) ((thrL d L).loc cc0_scratch4)) : ((o9W).view.loc (thrL d L) ↦{fullShare} f : sProp 𝕄) = (thrL d L).loc cc0_scratch4 ↦{fullShare} f := rfl

omit [FloatOps F] in
/-- Putting a chunk on top of a pile, at the level of piles. -/
theorem inPile_push (f : Buf (Elt F) (inLoc d)) {a b b' : ℕ} (h : a ≤ b) (hb : b + 1 = b') :
    inPile d L f a b' = iprop(inAt d L f b ∗ inPile d L f a b) := by
  unfold inPile; exact bigSep_Ico_push_right' _ h hb
omit [FloatOps F] in
theorem outPile_push (f : Buf (Elt F) (outLoc d)) {a b b' : ℕ} (h : a ≤ b) (hb : b + 1 = b') :
    outPile d L f a b' = iprop(outAt d L f b ∗ outPile d L f a b) := by
  unfold outPile; exact bigSep_Ico_push_right' _ h hb

set_option maxHeartbeats 4000000 in
/-- At the end: every chunk of the operand is back, every chunk of the result holds the kernel's function (the last
    two as their copies left them), the five buffers and the five semaphores are the tile's own again. -/
theorem final_post [∀ e, Nonempty (Elt F e)] (O : CellTallies nD τ sig (HIx 1)) (W W1 : Waits sig (HIx 1)) (hW1 : ∀ p ∈ W1, p ∈ W ∨ p.2 = none)
    (c5 : Buf (Elt F) ((s5W).view.loc (thrL d L)))
    (g8 : Buf (Elt F) ((o8W).view.loc (thrL d L))) (g9 : Buf (Elt F) ((o9W).view.loc (thrL d L)))
    (Ls8 Ls9 : List (View.Piece (Elt F) S4096 .f32))
    (hL8 : ∀ p ∈ Ls8, GoodPiece (inBuf m d L 62 (by omega)) (selN m d) (selN_lt m d) p) (hc8 : ∀ y : S4096.Idx, ∃ p ∈ Ls8, y ∈ p.1.set)
    (hL9 : ∀ p ∈ Ls9, GoodPiece (inBuf m d L 63 (by omega)) (selN m d) (selN_lt m d) p) (hc9 : ∀ y : S4096.Idx, ∃ p ∈ Ls9, y ∈ p.1.set) :
    iprop(inPile d L (X1 m d) 0 62
      ∗ ptsI(k0_off5 L 2031616#32, k0_off5_inb L 1, X1 m d) ∗ ptsI(k0_off15 L, k0_off15_inb L, X1 m d)
      ∗ ((selW).view.loc (thrL d L) ↦{tShare (L 0) (L 1)} SelV m d)
      ∗ outPile d L (Y1 m d) 0 60
      ∗ ptsO(k0_off4 L 245760#32, k0_off4_inb L 1, Y1 m d) ∗ ptsO(k0_off14 L 249856#32, k0_off14_inb L 0, Y1 m d)
      ∗ ptsO(k0_off16 L 253952#32, k0_off16_inb L 0, (outS (k0_off16 L 253952#32) (k0_off16_inb L 0)).view.writes (Elt F) (m (outLoc d))
          [⟨Rect.whole S4096, ReadAs.same.apply (View.read (Elt F) (o8W).view ((o8W).view.writes (Elt F) g8 Ls8))⟩])
      ∗ ptsO(k0_off16 L 258048#32, k0_off16_inb L 1, (outS (k0_off16 L 258048#32) (k0_off16_inb L 1)).view.writes (Elt F) (m (outLoc d))
          [⟨Rect.whole S4096, ReadAs.same.apply (View.read (Elt F) (o9W).view ((o9W).view.writes (Elt F) g9 Ls9))⟩])
      ∗ ((s5W).view.loc (thrL d L) ↦{fullShare} c5)
      ∗ ((b6W).view.loc (thrL d L) ↦{fullShare} inBuf m d L 62 (by omega))
      ∗ ((b7W).view.loc (thrL d L) ↦{fullShare} inBuf m d L 63 (by omega))
      ∗ ((o8W).view.loc (thrL d L) ↦{fullShare} (o8W).view.writes (Elt F) g8 Ls8)
      ∗ ((o9W).view.loc (thrL d L) ↦{fullShare} (o9W).view.writes (Elt F) g9 Ls9)
      ∗ bigSep ((((((ownRefs (τ := τ) (.scVector (cV L) (jV L))).erase (refOf L cc0_scratch0)).erase (refOf L cc0_scratch1)).erase
              (refOf L cc0_scratch2)).erase (refOf L cc0_scratch3)).erase (refOf L cc0_scratch4))
              (fun b => iprop(∃ f, ((d, b) : Loc nD τ sig) ↦{fullShare} f))
      ∗ semVal (thrL d L, SemLoc.dma (⟨4, by decide⟩ : DmaSem sig)) 0
      ∗ semVal (thrL d L, SemLoc.dma sm0) 0 ∗ semVal (thrL d L, SemLoc.dma sm1) 0
      ∗ semVal (thrL d L, SemLoc.dma sm2) 0 ∗ semVal (thrL d L, SemLoc.dma sm3) 0
      ∗ bigSep (((((((ownCells (thrL d L)).erase (cellOf d L semSel)).erase (cellOf d L semIn0)).erase (cellOf d L semIn1)).erase
              (cellOf d L semOut0)).erase (cellOf d L semOut1))) (fun g => semVal g 0)
      ∗ owes (thrL d L) O W1)
      ⊢ iprop(tdT m d (L 0) (L 1) ∗ ownBufs (thrL d L) ∗ ownSems0 (thrL d L)
          ∗ ∃ W', ⌜∀ p ∈ W', p ∈ W ∨ p.2 = none⌝ ∗ owes (thrL d L) O W') := by
  rw [ownSems0_five, ownBufs_five,
    out_landed8 m d L (k0_off16 L 253952#32) (k0_off16_inb L 0) 62 (by omega) (off_out16_0 L) (m (outLoc d)) g8 Ls8 (inBuf m d L 62 (by omega)) rfl hL8 hc8,
    out_landed9 m d L (k0_off16 L 258048#32) (k0_off16_inb L 1) 63 (by omega) (off_out16_1 L) (m (outLoc d)) g9 Ls9 (inBuf m d L 63 (by omega)) rfl hL9 hc9]
  unfold tdT
  rw [inChunks_eq_pile d L, outChunks_eq_pile d L,
    inPile_push d L (X1 m d) (a := 0) (b := 63) (b' := 64) (by omega) rfl,
    inPile_push d L (X1 m d) (a := 0) (b := 62) (b' := 63) (by omega) rfl,
    outPile_push d L (Y1 m d) (a := 0) (b := 63) (b' := 64) (by omega) rfl,
    outPile_push d L (Y1 m d) (a := 0) (b := 62) (b' := 63) (by omega) rfl,
    outPile_push d L (Y1 m d) (a := 0) (b := 61) (b' := 62) (by omega) rfl,
    outPile_push d L (Y1 m d) (a := 0) (b := 60) (b' := 61) (by omega) rfl,
    inAt_lt d L _ (by omega : 63 < 64), inAt_lt d L _ (by omega : 62 < 64),
    outAt_lt d L (Y1 m d) (by omega : 61 < 64), outAt_lt d L (Y1 m d) (by omega : 60 < 64),
    ← pts_inS d L (k0_off15 L) (k0_off15_inb L) 63 (by omega) (off_in15 L),
    ← pts_inS d L (k0_off5 L 2031616#32) (k0_off5_inb L 1) 62 (by omega) (off_in5_1 L),
    ← pts_outS d L (k0_off14 L 249856#32) (k0_off14_inb L 0) 61 (by omega) (off_out14_0 L),
    ← pts_outS d L (k0_off4 L 245760#32) (k0_off4_inb L 1) 60 (by omega) (off_out4_1 L),
    ← pts_sel (F := F) d L]
  iintro ⟨HinD, Hi62, Hi63, Hsel, HoutD, Ho60, Ho61, Ho62, Ho63, H5, H6, H7, H8, H9, Hbufs, Hs4, Hs0, Hs1, Hs2, Hs3, Hsems, HO⟩
  isplitl [HinD Hi62 Hi63 Hsel HoutD Ho60 Ho61 Ho62 Ho63]
  · isplitl [HinD Hi62 Hi63]
    · isplitl [Hi63]; · iexact Hi63
      isplitl [Hi62]; · iexact Hi62
      iexact HinD
    isplitl [Hsel]; · iexact Hsel
    isplitl [Ho63]; · iexact Ho63
    isplitl [Ho62]; · iexact Ho62
    isplitl [Ho61]; · iexact Ho61
    isplitl [Ho60]; · iexact Ho60
    iexact HoutD
  isplitl [H5 H6 H7 H8 H9 Hbufs]
  · isplitl [H5]; · iexists _; iexact H5
    isplitl [H6]; · iexists _; iexact H6
    isplitl [H7]; · iexists _; iexact H7
    isplitl [H8]; · iexists _; iexact H8
    isplitl [H9]; · iexists _; iexact H9
    iexact Hbufs
  isplitl [Hs4 Hs0 Hs1 Hs2 Hs3 Hsems]
  · isplitl [Hs4]; · iexact Hs4
    isplitl [Hs0]; · iexact Hs0
    isplitl [Hs1]; · iexact Hs1
    isplitl [Hs2]; · iexact Hs2
    isplitl [Hs3]; · iexact Hs3
    iexact Hsems
  iexists W1; isplitr
  · ipureintro; exact hW1
  · iexact HO

set_option maxRecDepth 65536 in
set_option maxHeartbeats 40000000 in
theorem tile_body [∀ e, Nonempty (Elt F e)] (hF : (K (F := F)).Facts) (hpre : PreOK m) (O : CellTallies nD τ sig (HIx 1)) (W : Waits sig (HIx 1)) (hO : ∀ g, O g none = 0) :
    iprop(levAts (K (F := F)).L (K (F := F)).lev ∗ emp ∗ goT m d (L 0) (L 1)
        ∗ scopedBufs (thrL d L) ∗ scopedSems0 (thrL d L) ∗ owes (thrL d L) O W)
      ⊢ wp frame (wpE (defs₀ (F := F)) 𝒱₀ (thrL d L) none) Set.univ
          (cc0__select_body L inW (Memref.isWhole_whole _) selW (Memref.isWhole_whole _) outW (Memref.isWhole_whole _)
            s5W (Memref.isWhole_whole _) b6W (Memref.isWhole_whole _) b7W (Memref.isWhole_whole _) o8W (Memref.isWhole_whole _) o9W (Memref.isWhole_whole _)
            cc0_scratch5 cc0_scratch6 cc0_scoped0)
          fun _ => iprop(tdT m d (L 0) (L 1) ∗ scopedBufs (thrL d L) ∗ scopedSems0 (thrL d L)
            ∗ ∃ W', ⌜∀ p ∈ W', p ∈ W ∨ p.2 = none⌝ ∗ owes (thrL d L) O W') := by
  rw [(K (F := F)).scopedBufs_V hF d (cV L) (jV L), SparseCore.Cfg.scopedSems0_V (Val := Elt F) d (cV L) (jV L)]
  unfold goT
  iintro ⟨#Hlv, -, ⟨Hin, Hsel, Hout⟩, Hbuf, Hsem, HO⟩
  ihave Hbuf' := (Entails.of_eq (ownBufs_five (F := F) d L)) $$ Hbuf
  icases Hbuf' with ⟨⟨%f5, H5⟩, ⟨%f6, H6⟩, ⟨%f7, H7⟩, ⟨%f8, H8⟩, ⟨%f9, H9⟩, Hbufs⟩
  ihave Hsem' := (Entails.of_eq (ownSems0_five (F := F) d L)) $$ Hsem
  icases Hsem' with ⟨Hsc, Hi0, Hi1, Ho0, Ho1, Hsems⟩
  ihave Hin' := (Entails.of_eq (in_start m d L)) $$ Hin
  icases Hin' with ⟨Hin0, Hin1, Hin2, Hin3, HinR⟩
  ihave Hout' := (Entails.of_eq (out_start (F := F) d L (m (outLoc d)))) $$ Hout
  icases Hout' with ⟨Hout0, Hout1, HoutR⟩
  ihave Hsel' := (Entails.of_eq (pts_sel (F := F) d L _ _).symm) $$ Hsel
  ihave Hmw := ((K (F := F)).mayWaits_none (thr := thrL d L) hO) $$ Hlv
  ihave H5' := (Entails.of_eq (pts_s5 (F := F) d L _).symm) $$ H5
  ihave H6' := (Entails.of_eq (pts_b6 (F := F) d L _).symm) $$ H6
  ihave H7' := (Entails.of_eq (pts_b7 (F := F) d L _).symm) $$ H7
  ihave H8' := (Entails.of_eq (pts_o8 (F := F) d L _).symm) $$ H8
  ihave H9' := (Entails.of_eq (pts_o9 (F := F) d L _).symm) $$ H9
  have hs7 : selN m d ≤ 7 := by have := selN_lt m d; omega
  have hsv : ∀ l : S16.Idx, ((View.readAt (Elt F) (s5W).view (Rect.unit (s := S16) ![0] S16.size inb_S16_S16_0).toLoadRect
      (View.write (Elt F) (s5W).view f5 (ReadAs.same.apply (View.read (Elt F) (selW).view (SelV m d))) Finset.univ)) l).toNat = selN m d := by
    intro l
    rw [View.readAt_apply]
    simp only [Memref.view_whole, View.read_whole, View.write_whole_univ]
    show (SelV m d _).toNat = _
    rw [SelV_apply, selN_eq m d hpre]
  sl_unfold [cc0__select_body]
  sl_exec (disch := exact Cert.Sel.inb_of_two hsv hs7 (Cert.Sel.iota_toNat _) _ _ (by decide) (by decide) (by decide))
  repeat (sl_respell [SparseCore.vectorLoadIdx]; sl_exec (disch := exact Cert.Sel.inb_of_two hsv hs7 (Cert.Sel.iota_toNat _) _ _ (by decide) (by decide) (by decide)))
  -- the loop, by its invariant
  sl_for (inv m d L O W) $$ [Hi0 Hi1 Ho0 H8' Ho1 H9' Hin0 Hin1 HinR HoutR HO]
  case region =>
    intro k acc
    exact region_run m d L O W _ _ hsv hs7 (Cert.Sel.iota_toNat _) _ _ (fun _ => 0#32) (fun _ => 0#32) k acc
  · iapply (init_inv m d L O W _ ?hW0 _ _ f8 f9 _ _ _ _
        ((landed cc0_scratch1 f6 _).trans (read_inS_eq m d L (k0_off1 L 0#32) (k0_off1_inb L 0) 0 (by omega) (off_in1_0 L)))
        ((landed cc0_scratch2 f7 _).trans (read_inS_eq m d L (k0_off1 L 32768#32) (k0_off1_inb L 1) 1 (by omega) (off_in1_1 L)))
        ?hL8 ?hc8 ?hL9 ?hc9 _)
    rotate_left 5
    · isplitr; · iexact Hmw
      isplitl [Hi0]; · iexact Hi0
      isplitl [Hi1]; · iexact Hi1
      isplitl [Ho0]; · iexact Ho0
      isplitl [H8']; · iexact H8'
      isplitl [Ho1]; · iexact Ho1
      isplitl [H9']; · iexact H9'
      isplitl [Hin0]; · iexact Hin0
      isplitl [Hin1]; · iexact Hin1
      isplitl [HinR]; · iexact HinR
      isplitl [HoutR]; · iexact HoutR
      iexact HO
    case hW0 =>
      intro p hp
      simp only [Finset.mem_insert] at hp
      rcases hp with rfl | rfl | rfl | hp
      · exact .inr rfl
      · exact .inr rfl
      · exact .inr rfl
      · exact .inl hp
    case hL8 =>
      repeat' (first
        | refine List.forall_mem_cons.mpr ⟨goodPiece_of_load hsv hs7 (Cert.Sel.iota_toNat _) (Memref.readAt_whole _ _ _) (by decide) (by decide) (by decide), ?_⟩
        | exact fun _ h => nomatch h)
    case hc8 => exact View.cover_of_tiledL _ S16.size (by sl_kernel_rfl)
    case hL9 =>
      repeat' (first
        | refine List.forall_mem_cons.mpr ⟨goodPiece_of_load hsv hs7 (Cert.Sel.iota_toNat _) (Memref.readAt_whole _ _ _) (by decide) (by decide) (by decide), ?_⟩
        | exact fun _ h => nomatch h)
    case hc9 => exact View.cover_of_tiledL _ S16.size (by sl_kernel_rfl)
  -- after the loop: the last two chunks
  iintro %acc HI
  ihave HI' := (Entails.of_eq (inv_at_end m d L O W _ (by decide) acc)) $$ HI
  icases HI' with ⟨-, Hf6, Hf7, ⟨%g8, Hf8, H8r⟩, ⟨%g9, Hf9, H9r⟩, HinD, -, HoutD, ⟨Hd62, Hd63, -⟩, %W', %hW', HO⟩
  sl_exec (disch := exact Cert.Sel.inb_of_two hsv hs7 (Cert.Sel.iota_toNat _) _ _ (by decide) (by decide) (by decide))
  repeat (sl_respell [SparseCore.vectorLoadIdx]; sl_exec (disch := exact Cert.Sel.inb_of_two hsv hs7 (Cert.Sel.iota_toNat _) _ _ (by decide) (by decide) (by decide)))
  sl_step
  iapply (final_post m d L O W _ ?hW1 _ g8 g9 _ _ ?hL8 ?hc8 ?hL9 ?hc9)
  rotate_left 5
  · isplitl [HinD]; · iexact HinD
    isplitl [Hf6_src]; · iexact Hf6_src
    isplitl [Hf7_src]; · iexact Hf7_src
    isplitl [Hsel']; · iexact Hsel'
    isplitl [HoutD]; · iexact HoutD
    isplitl [Hf8_dst]; · iexact Hf8_dst
    isplitl [Hf9_dst]; · iexact Hf9_dst
    isplitl [Hd62]; · iexact Hd62
    isplitl [Hd63]; · iexact Hd63
    isplitl [H5']; · iexact H5'
    isplitl [Hf6_dst]; · iexact Hf6_dst
    isplitl [Hf7_dst]; · iexact Hf7_dst
    isplitl [H8r]; · iexact H8r
    isplitl [H9r]; · iexact H9r
    isplitl [Hbufs]; · iexact Hbufs
    isplitl [Hsc]; · iexact Hsc
    isplitl [Hf6]; · iexact Hf6
    isplitl [Hf7]; · iexact Hf7
    isplitl [Hf8]; · iexact Hf8
    isplitl [Hf9]; · iexact Hf9
    isplitl [Hsems]; · iexact Hsems
    iexact HO
  case hW1 =>
    intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact hW' p hp
  case hL8 =>
    repeat' (first
      | refine List.forall_mem_cons.mpr ⟨goodPiece_of_load hsv hs7 (Cert.Sel.iota_toNat _) (Memref.readAt_whole _ _ _) (by decide) (by decide) (by decide), ?_⟩
      | exact fun _ h => nomatch h)
  case hc8 => exact View.cover_of_tiledL _ S16.size (by sl_kernel_rfl)
  case hL9 =>
    repeat' (first
      | refine List.forall_mem_cons.mpr ⟨goodPiece_of_load hsv hs7 (Cert.Sel.iota_toNat _) (Memref.readAt_whole _ _ _) (by decide) (by decide) (by decide), ?_⟩
      | exact fun _ h => nomatch h)
  case hc9 => exact View.cover_of_tiledL _ S16.size (by sl_kernel_rfl)

/-! ## The launch theorem's obligation -/

omit [FloatOps F] in
/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__select_body (coordsV c s)
          inW (Memref.isWhole_whole _) selW (Memref.isWhole_whole _) outW (Memref.isWhole_whole _)
          s5W (Memref.isWhole_whole _) b6W (Memref.isWhole_whole _) b7W (Memref.isWhole_whole _) o8W (Memref.isWhole_whole _) o9W (Memref.isWhole_whole _)
          cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 65536 in
set_option maxHeartbeats 4000000 in
/-- Every tile's task: from its chunks of the operand, its share of the selector and its chunks of the result, to the
    same with the result's chunks at the kernel's function. -/
theorem tileObl [∀ e, Nonempty (Elt F e)] (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Kernel.Hand

end
-- ==== Proof.PreDom.lean ====
/-
  The precondition, decoded. The printed predicate is the conjunction (by `and` on one-bit words) of four
  "all finite" reductions and of the reduction, over the one selector word s, of (0 ≤ s) ∧ (s ≤ 7), both compares
  signed. When the predicate's word is 1, the last reduction is 1, so its one element is 1: 0 ≤ s ≤ 7 as a signed
  word, hence s read unsigned is at most 7.
-/
import proofs.«203709_g27616639714075_cont_sun_c4_439_12_alg».proof.Pre_input_domain
import proofs.«203709_g27616639714075_cont_sun_c4_439_12_alg».proof.Proof.Gen.Pre_input_domain
import Idealize.ShloMosaic.Lib.ReduceAll
import Idealize.ShloMosaic.Lib.ValueIdx

namespace Cert.Hand

open Idealize.ShloMosaic Idealize.ShloMosaic.ValueIdx Cert.Pre_input_domain

/-- The scalar shape has one index. -/
instance : Subsingleton S_.Idx := ⟨fun a b => funext fun d => d.elim0⟩

/-- A word in [0, 7] signed is at most 7 unsigned. -/
theorem toNat_le_seven (v : BitVec 32) (h0 : IntOp.cmpi .sge v 0#32 = 1#1) (h7 : IntOp.cmpi .sle v 7#32 = 1#1) :
    v.toNat ≤ 7 := by
  rw [IntOp.cmpi_sge] at h0
  rw [IntOp.cmpi_sle] at h7
  have e0 : (0#32 : BitVec 32).toInt = 0 := by decide
  have e7 : (7#32 : BitVec 32).toInt = 7 := by decide
  rw [e0] at h0
  rw [e7] at h7
  have hv := v.isLt
  rw [BitVec.toInt_eq_toNat_cond] at h0 h7
  split at h7 <;> omega

/-- The precondition's word is 1 only if the selector word, read unsigned, is at most 7. -/
theorem sel_le_of_pre {F : FTy → Type} [FloatOps F]
    (a0 : FVec F S4096x2048x8 .f32) (a1 : FVec F S1 .f32) (a2 : IVec S1 32) (a3 : FVec F S8 .f32)
    (h : Cert.Pre_input_domain.fn (F := F) a0 a1 a2 a3 = fun _ => 1#1) : (a2 (ValueIdx.ix1 0)).toNat ≤ 7 := by
  have e := congrFun h ValueIdx.ix0
  dsimp only [Cert.Pre_input_domain.fn, Cert.Pre_input_domain.fn_part1] at e
  -- the last `and`: (all finite) ∧ (the reduction over the selector's range test)
  have e1 := (IntOp.andi_eq_one.1 e).2
  -- the reduction by `and` over the one word: its element is 1
  have e2 := Host.reduce_andi_all _ _ _ _ _ e1 (ValueIdx.ix1 (0 : Fin 1))
  obtain ⟨h0, h7⟩ := IntOp.andi_eq_one.1 e2
  exact toNat_le_seven _ h0 h7

end Cert.Hand
-- ==== Proof.RefRun.lean ====
/-
  The reference program's run, by hand. Its @main is a straight line of host operations: a softmax of the fourth argument
  that nothing reads, the selector reshaped to a scalar, then the take — the selector word with 8 added when negative
  (signed), its range test 0 ≤ · ≤ 7, a gather of the first argument along its last axis at that word, and a select
  between the gathered plane and a constant by the range test. When the selector word, read unsigned, is at most 7 it is
  non-negative as a signed word: the word is kept, the range test holds, the gather's clamp into [0, 7] is the cap of the
  specification, and the result is the selected plane of the first argument. No operation writes an argument.
-/
import proofs.«203709_g27616639714075_cont_sun_c4_439_12_alg».proof.ReferenceIdeal
import proofs.«203709_g27616639714075_cont_sun_c4_439_12_alg».proof.Proof.Gen.ReferenceIdeal
import proofs.«203709_g27616639714075_cont_sun_c4_439_12_alg».proof.Proof.Spec
import Idealize.ShloMosaic.Lib.StableHlo.Run
import Idealize.ShloMosaic.Lib.ValueIdx
import Idealize.ShloMosaic.PureOps.Reduce

noncomputable section

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-! ## The result as one function of the operand and the selector -/

/-- The gather's dimension numbers: result axes 0 and 1 are the operand's, operand axis 2 is collapsed and indexed by
    the one start index. -/
abbrev gd : GatherDims S4096x2048x8 S1 S4096x2048 := gather_S4096x2048x8_S1_S4096x2048_01_2_n_n_2_0_409620481

/-- The selector word as the gather takes it: the word itself, with 8 added when it is negative (signed). -/
def word (s : IVec S1 32) : IVec S_ 32 :=
  select (cmpi .slt (shapeCast S_ s shapeCasts_S1_S_) (constantI S_ 32 0#32))
    (addi (shapeCast S_ s shapeCasts_S1_S_) (constantI S_ 32 8#32)) (shapeCast S_ s shapeCasts_S1_S_)

/-- The start index: that word as a one-element array. -/
def start (s : IVec S1 32) : IVec S1 32 := broadcastInDim S1 ![] bcast_S_S1 (word s)

/-- The range test: the `and`, over the one element, of (0 ≤ start) ∧ (start ≤ 7), both signed. -/
def mask (s : IVec S1 32) : IVec S_ 1 :=
  Host.reduce IntOp.andi
    (andi (cmpi .sge (start s) (broadcastInDim S1 ![] bcast_S_S1 (constantI S_ 32 0#32))) (cmpi .sle (start s) (constantI S1 32 7#32)))
    (constantI S_ 1 1#1) reducesTo_S1_S_d0 h_S_

/-- The program's result: where the range test holds the gathered plane, elsewhere a constant. -/
def out (x : FVec F S4096x2048x8 .f32) (s : IVec S1 32) : FVec F S4096x2048 .f32 :=
  select (broadcastInDim S4096x2048 ![] bcast_S_S4096x2048 (mask s)) (Host.gather gd x (start s))
    (broadcastInDim S4096x2048 ![] bcast_S_S4096x2048 (constant S_ .f32 0x7FC00000#32))

/-! ## Words -/

/-- A word at most 7 unsigned is non-negative signed: it is not below 0, it is at least 0 and at most 7, and its signed
    reading is its unsigned one. -/
theorem word_facts (v : BitVec 32) (h : v.toNat ≤ 7) :
    IntOp.cmpi .slt v 0#32 = 0#1 ∧ IntOp.cmpi .sge v 0#32 = 1#1 ∧ IntOp.cmpi .sle v 7#32 = 1#1 ∧ v.toInt.toNat = v.toNat := by
  have hi : v.toInt = (v.toNat : Int) := BitVec.toInt_eq_toNat_of_lt (by omega)
  have e0 : (0#32 : BitVec 32).toInt = 0 := by decide
  have e7 : (7#32 : BitVec 32).toInt = 7 := by decide
  refine ⟨eq_zero_of_ne_one ?_, ?_, ?_, ?_⟩
  · rw [IntOp.cmpi_slt, hi, e0]; omega
  · rw [IntOp.cmpi_sge, hi, e0]; omega
  · rw [IntOp.cmpi_sle, hi, e7]; omega
  · rw [hi]; omega

/-- A one-element array has one index. -/
theorem S1_idx (x : S1.Idx) : x = ix1 (0 : Fin 1) := by
  funext a
  match a with
  | ⟨0, _⟩ =>
    apply Fin.ext
    have h := (x ⟨0, by decide⟩).isLt
    have hs : S1.size ⟨0, by decide⟩ = 1 := by decide
    show (x ⟨0, _⟩).val = 0
    omega

/-- In range, the word the gather takes is the selector word. -/
theorem word_apply (s : IVec S1 32) (i : S_.Idx) (h : (s (ix1 0)).toNat ≤ 7) : word s i = s (ix1 0) := by
  have e : shapeCast S_ s shapeCasts_S1_S_ i = s (ix1 0) := congrArg s (S1_idx _)
  show Scalar.select (IntOp.cmpi .slt (shapeCast S_ s shapeCasts_S1_S_ i) 0#32)
    (IntOp.addi (shapeCast S_ s shapeCasts_S1_S_ i) 8#32) (shapeCast S_ s shapeCasts_S1_S_ i) = _
  rw [e, (word_facts _ h).1]
  exact select_zero _ _

theorem start_apply (s : IVec S1 32) (k : S1.Idx) (h : (s (ix1 0)).toNat ≤ 7) : start s k = s (ix1 0) :=
  word_apply s _ h

/-! ## The range test -/

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, hf => by
    have ha : IntOp.andi 1#1 (f a) = 1#1 := by rw [hf a (List.mem_cons_self ..)]; decide
    rw [List.foldl_cons, ha]
    exact foldl_andi_one f l (fun n hn => hf n (List.mem_cons_of_mem _ hn))

/-- A reduce by `and` from 1 of an array that is all ones is 1. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x _ (fun n _ => hx n)

/-- In range, the range test holds. -/
theorem mask_apply (s : IVec S1 32) (i : S_.Idx) (h : (s (ix1 0)).toNat ≤ 7) : mask s i = 1#1 := by
  unfold mask
  refine reduce_andi_of_all _ _ _ _ _ (fun k => ?_) rfl
  show IntOp.andi (IntOp.cmpi .sge (start s k) 0#32) (IntOp.cmpi .sle (start s k) 7#32) = 1#1
  rw [start_apply s k h, (word_facts _ h).2.1, (word_facts _ h).2.2.1]
  decide

/-! ## The gather at an index -/

/-- The gather read at (t, d): the operand at (t, d, k) with k the start index read signed and capped at 7. -/
theorem gather_apply {α : Type} (x : S4096x2048x8.Idx → α) (idx : IVec S1 32) (t : Fin 4096) (d : Fin 2048) :
    Host.gather gd x idx (ix2 t d) = x (ix3 t d ⟨min (idx (ix1 0)).toInt.toNat 7, by omega⟩) := by
  unfold Host.gather
  congr 1
  funext a
  refine Fin.ext ?_
  show gd.start (ix2 t d) idx a + gd.batchCoord (ix2 t d) a + gd.offCoord (ix2 t d) a = _
  rw [GatherDims.batchCoord_eq_zero _ _ _ List.not_mem_nil, Nat.add_zero]
  match a with
  | ⟨0, h0⟩ =>
    have h1 : gd.start (ix2 t d) idx ⟨0, h0⟩ = 0 := by
      unfold GatherDims.start
      exact dif_neg (by decide : (⟨0, by decide⟩ : Fin S4096x2048x8.rank) ∉ gd.startIndexMap)
    have h2 : gd.offCoord (ix2 t d) ⟨0, h0⟩ = t.val := by
      unfold GatherDims.offCoord
      rw [dif_pos (by decide : (⟨0, by decide⟩ : Fin S4096x2048x8.rank) ∈ gd.sKept)]; rfl
    rw [h1, h2, Nat.zero_add]
  | ⟨1, h0⟩ =>
    have h1 : gd.start (ix2 t d) idx ⟨1, h0⟩ = 0 := by
      unfold GatherDims.start
      exact dif_neg (by decide : (⟨1, by decide⟩ : Fin S4096x2048x8.rank) ∉ gd.startIndexMap)
    have h2 : gd.offCoord (ix2 t d) ⟨1, h0⟩ = d.val := by
      unfold GatherDims.offCoord
      rw [dif_pos (by decide : (⟨1, by decide⟩ : Fin S4096x2048x8.rank) ∈ gd.sKept)]; rfl
    rw [h1, h2, Nat.zero_add]
  | ⟨2, h0⟩ =>
    rw [GatherDims.offCoord_eq_zero _ _ _ (fun h => ((GatherDims.mem_sKept _ _).mp h).1 (List.mem_singleton.mpr rfl)), Nat.add_zero]
    unfold GatherDims.start
    rw [dif_pos (show (⟨2, h0⟩ : Fin S4096x2048x8.rank) ∈ gd.startIndexMap from List.mem_singleton.mpr rfl)]
    have hsi : gd.siIdx (ix2 t d) ⟨List.idxOf (⟨2, h0⟩ : Fin S4096x2048x8.rank) gd.startIndexMap,
        List.idxOf_lt_length_iff.2 (List.mem_singleton.mpr rfl)⟩ = ix1 0 := S1_idx _
    rw [hsi]
    rfl

/-! ## The result is the selected plane -/

theorem out_plane (x : FVec F S4096x2048x8 .f32) (s : IVec S1 32) (h : (s (ix1 0)).toNat ≤ 7) :
    out x s = Cert.Sel.plane x s := by
  funext j
  obtain ⟨t, d, rfl⟩ : ∃ t d, j = ix2 t d := ⟨j 0, j 1, eq_ix2 j⟩
  show Scalar.select (mask s _) (Host.gather gd x (start s) (ix2 t d)) _ = x (ix3 t d (Cert.Sel.pos s))
  rw [mask_apply s _ h, select_one, gather_apply]
  refine congrArg (fun k : Fin 8 => x (ix3 t d k)) (Fin.ext ?_)
  show min (start s (ix1 0)).toInt.toNat 7 = min (s (ix1 0)).toNat 7
  rw [start_apply s _ h, (word_facts _ h).2.2.2]

/-! ## The program as a line of operations -/

/-- @main's operations in order, the two calls unfolded: fourteen of its own (a softmax of the fourth argument that nothing
    reads, then the selector as a scalar), then the nineteen of the take with the select of its inner call in place —
    the word with 8 added when negative, its range test, the gather, the constant, the final select. -/
abbrev ops : List (HloOp τ sig (Elt F)) :=
  [ nullary main_cst (constant S_ .f32 0xFF800000#32),
    binary main_arg3 main_cst main_v0 ((fun x v => Host.reduce FloatOps.maximumf x v reducesTo_S8_S_d0 h_S_) : (⟨S8, .f32⟩ : BufTy).Contents (Elt F) → (⟨S_, .f32⟩ : BufTy).Contents (Elt F) → (⟨S_, .f32⟩ : BufTy).Contents (Elt F)),
    nullary main_cst_0 (constant S_ .f32 0xFF800000#32),
    binary main_cst_0 main_v0 main_v1 (maximumf : (⟨S_, .f32⟩ : BufTy).Contents (Elt F) → (⟨S_, .f32⟩ : BufTy).Contents (Elt F) → (⟨S_, .f32⟩ : BufTy).Contents (Elt F)),
    unary main_v1 main_v2 (broadcastInDim S1 ![] bcast_S_S1 : (⟨S_, .f32⟩ : BufTy).Contents (Elt F) → (⟨S1, .f32⟩ : BufTy).Contents (Elt F)),
    unary main_v2 main_v3 (broadcastInDim S8 ![0] bcast_S1_S8_0 : (⟨S1, .f32⟩ : BufTy).Contents (Elt F) → (⟨S8, .f32⟩ : BufTy).Contents (Elt F)),
    binary main_arg3 main_v3 main_v4 (subf : (⟨S8, .f32⟩ : BufTy).Contents (Elt F) → (⟨S8, .f32⟩ : BufTy).Contents (Elt F) → (⟨S8, .f32⟩ : BufTy).Contents (Elt F)),
    unary main_v4 main_v5 (Host.exp : (⟨S8, .f32⟩ : BufTy).Contents (Elt F) → (⟨S8, .f32⟩ : BufTy).Contents (Elt F)),
    nullary main_cst_1 (constant S_ .f32 0x00000000#32),
    binary main_v5 main_cst_1 main_v6 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    unary main_v6 main_v7 (broadcastInDim S1 ![] bcast_S_S1 : (⟨S_, .f32⟩ : BufTy).Contents (Elt F) → (⟨S1, .f32⟩ : BufTy).Contents (Elt F)),
    unary main_v7 main_v8 (broadcastInDim S8 ![0] bcast_S1_S8_0 : (⟨S1, .f32⟩ : BufTy).Contents (Elt F) → (⟨S8, .f32⟩ : BufTy).Contents (Elt F)),
    binary main_v5 main_v8 main_v9 (Host.divf : (⟨S8, .f32⟩ : BufTy).Contents (Elt F) → (⟨S8, .f32⟩ : BufTy).Contents (Elt F) → (⟨S8, .f32⟩ : BufTy).Contents (Elt F)),
    reshape main_arg2 main_v10 rfl shapeCasts_S1_S_,
    TRef.nullary main_call0.c (constantI S_ 32 0#32),
    TRef.binary (.of main_v10) main_call0.c main_call0.v0 (cmpi .slt),
    TRef.nullary main_call0.c_0 (constantI S_ 32 8#32),
    TRef.binary (.of main_v10) main_call0.c_0 main_call0.v1 addi,
    TRef.ternary main_call0.v0 main_call0.v1 (.of main_v10) main_call0.call0.v0 select,
    TRef.unary main_call0.call0.v0 main_call0.v3 (broadcastInDim S1 ![] bcast_S_S1),
    TRef.nullary main_call0.c_1 (constantI S1 32 7#32),
    TRef.nullary main_call0.c_2 (constantI S_ 32 0#32),
    TRef.unary main_call0.c_2 main_call0.v4 (broadcastInDim S1 ![] bcast_S_S1),
    TRef.binary main_call0.v3 main_call0.v4 main_call0.v5 (cmpi .sge),
    TRef.binary main_call0.v3 main_call0.c_1 main_call0.v6 (cmpi .sle),
    TRef.binary main_call0.v5 main_call0.v6 main_call0.v7 andi,
    TRef.nullary main_call0.c_3 (constantI S_ 1 1#1),
    TRef.binary main_call0.v7 main_call0.c_3 main_call0.v8 (fun x v => Host.reduce IntOp.andi x v reducesTo_S1_S_d0 h_S_),
    TRef.binary (.of main_arg0) main_call0.v3 main_call0.v9 (fun x i => Host.gather gather_S4096x2048x8_S1_S4096x2048_01_2_n_n_2_0_409620481 x i),
    TRef.unary main_call0.v8 main_call0.v10 (broadcastInDim S4096x2048 ![] bcast_S_S4096x2048),
    TRef.nullary main_call0.cst (constant S_ .f32 0x7FC00000#32),
    TRef.unary main_call0.cst main_call0.v11 (broadcastInDim S4096x2048 ![] bcast_S_S4096x2048),
    TRef.ternary main_call0.v10 main_call0.v9 main_call0.v11 main_call0.v12 select ]

set_option maxRecDepth 4096 in
/-- @main is that line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., reshape_bufs_sub ..,
    nullary_bufs_sub .., binary_bufs_sub .., nullary_bufs_sub .., binary_bufs_sub .., ternary_bufs_sub .., unary_bufs_sub ..,
    nullary_bufs_sub .., nullary_bufs_sub .., unary_bufs_sub .., binary_bufs_sub .., binary_bufs_sub .., binary_bufs_sub ..,
    nullary_bufs_sub .., binary_bufs_sub .., binary_bufs_sub .., unary_bufs_sub .., nullary_bufs_sub .., unary_bufs_sub ..,
    ternary_bufs_sub ..⟩

/-! ## What the line leaves in the result and in the arguments -/

set_option maxHeartbeats 1000000 in
/-- The result buffer after the line is `out` of the first and third arguments: each operation's result read at its own
    buffer, every other buffer as it was. -/
theorem out_eq (V : Valuation τ sig (Elt F)) :
    after ops V (Proc.devRef .tc main_v11) = out (V (Proc.devRef .tc main_arg0)) (V (Proc.devRef .tc main_arg2)) := by
  after_results_simp
  rfl

/-- No operation writes an argument. -/
theorem arg0_eq (V : Valuation τ sig (Elt F)) : after ops V (Proc.devRef .tc main_arg0) = V (Proc.devRef .tc main_arg0) := by
  after_results_simp
theorem arg1_eq (V : Valuation τ sig (Elt F)) : after ops V (Proc.devRef .tc main_arg1) = V (Proc.devRef .tc main_arg1) := by
  after_results_simp
theorem arg2_eq (V : Valuation τ sig (Elt F)) : after ops V (Proc.devRef .tc main_arg2) = V (Proc.devRef .tc main_arg2) := by
  after_results_simp
theorem arg3_eq (V : Valuation τ sig (Elt F)) : after ops V (Proc.devRef .tc main_arg3) = V (Proc.devRef .tc main_arg3) := by
  after_results_simp

/-! ## The run -/

/-- On every device, from any memory with zero counters whose selector word is at most 7: every weakly fair execution of
    @main terminates with the result the selected plane of the first argument and the arguments unchanged. -/
theorem run (m : (ℓ : Loc nD τ sig) → Buf (Elt F) ℓ) (ρ : Dev nD → PrngReg)
    (hsel : ∀ c : Dev nD, (m ((c.tc : Thread nD τ).loc main_arg2) (ValueIdx.ix1 0)).toNat ≤ 7) :
    θ_run (Cert.ReferenceIdeal.defs (F := F)) (onTc (τ := Cert.ReferenceIdeal.τ) (Cert.ReferenceIdeal.main (F := F))) ⟨m, fun _ => 0, ρ⟩
      (fun r => ∀ c : Dev nD,
        r.2.mem ((c.tc : Thread nD τ).loc main_v11) = Cert.Sel.plane (m ((c.tc : Thread nD τ).loc main_arg0)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c =>
      ⟨(h c main_v11).trans ((out_eq _).trans (out_plane _ _ (hsel c))),
       (h c main_arg0).trans (arg0_eq _), (h c main_arg1).trans (arg1_eq _),
       (h c main_arg2).trans (arg2_eq _), (h c main_arg3).trans (arg3_eq _)⟩)
    (run_seq scopedRefs_eq scopedSems_eq defs main (fun _ => ops) main_eq (fun _ => ops_sub) m ρ)

end Cert.ReferenceIdeal.Hand

end
-- ==== Proof.lean ====
/-
  The certificate of the selected-plane kernel: a SparseCore kernel on 2 × 16 vector subcores that copies, for every
  token t and channel q, element [t, q, s] of a [4096, 2048, 8] array into element [t, q] of the result (s the one
  selector word, 0 ≤ s ≤ 7), against jnp.take(input, s, axis = -1).

  Both programs compute Cert.Sel.plane (Proof/Spec.lean). The kernel's run is the SparseCore launch theorem applied
  to one tile's task (Proof/Launch.lean over Proof/Tile.lean; at the bit-exact instance Proof/KLaunch.lean over
  Proof/KTile.lean): worker w = 2·tile + core moves its 64 chunks of two tokens through two chunk buffers and two
  result buffers, one copy in flight per semaphore, and gathers element 8·o + s of the flat operand into element o of
  the flat result; the reference's run is its host operations read one by one (Proof/RefRun.lean), the gather at a
  selector in range being the plane itself. The precondition is used for that range only (Proof/PreDom.lean): the
  result is pure data movement and needs no finiteness. The three frames are the runs with the value dropped;
  nothing was rewritten by the ideal pass, so `preserves` is trivial.
-/
import proofs.«203709_g27616639714075_cont_sun_c4_439_12_alg».proof.Defs
import proofs.«203709_g27616639714075_cont_sun_c4_439_12_alg».proof.Proof.Gen.Kernel
import proofs.«203709_g27616639714075_cont_sun_c4_439_12_alg».proof.Proof.Gen.KernelIdeal
import proofs.«203709_g27616639714075_cont_sun_c4_439_12_alg».proof.Proof.Gen.ReferenceIdeal
import proofs.«203709_g27616639714075_cont_sun_c4_439_12_alg».proof.Proof.Gen.Pre_input_domain
import proofs.«203709_g27616639714075_cont_sun_c4_439_12_alg».proof.Proof.Launch
import proofs.«203709_g27616639714075_cont_sun_c4_439_12_alg».proof.Proof.KLaunch
import proofs.«203709_g27616639714075_cont_sun_c4_439_12_alg».proof.Proof.Tile
import proofs.«203709_g27616639714075_cont_sun_c4_439_12_alg».proof.Proof.KTile
import proofs.«203709_g27616639714075_cont_sun_c4_439_12_alg».proof.Proof.PreDom
import proofs.«203709_g27616639714075_cont_sun_c4_439_12_alg».proof.Proof.RefRun
import Idealize.ShloMosaic.Adequacy
import Idealize.ShloMosaic.Init

noncomputable section

namespace Cert.Proof

open Idealize.ShloMosaic Idealize.SL.Sem

/-- The precondition gives what the proofs ask of the launch memory: the selector word is at most 7. -/
theorem preOK_Kernel (m : (ℓ : Loc Cert.Kernel.nD Cert.Kernel.τ Cert.Kernel.sig) → Buf (Elt Bits) ℓ) (h : Cert.Pre_Kernel m) :
    Cert.Kernel.Hand.PreOK m := fun d => Cert.Hand.sel_le_of_pre _ _ _ _ (h d)
theorem preOK_KernelIdeal (m : (ℓ : Loc Cert.KernelIdeal.nD Cert.KernelIdeal.τ Cert.KernelIdeal.sig) → Buf (Elt Ideal) ℓ) (h : Cert.Pre_KernelIdeal m) :
    Cert.KernelIdeal.Hand.PreOK m := fun d => Cert.Hand.sel_le_of_pre _ _ _ _ (h d)

theorem frame_Kernel : Cert.frame_Kernel := fun m ρ hpre =>
  (θ_run Cert.Kernel.defs _ _).mono (fun _ h c => (h c).2)
    (Cert.Kernel.Hand.run_main (F := Bits) m ρ (preOK_Kernel m hpre) (Cert.Kernel.Hand.tileObl m Cert.Kernel.Hand.facts (preOK_Kernel m hpre)))

theorem frame_KernelIdeal : Cert.frame_KernelIdeal := fun m ρ hpre =>
  (θ_run Cert.KernelIdeal.defs _ _).mono (fun _ h c => (h c).2)
    (Cert.KernelIdeal.Hand.run_main (F := Ideal) m ρ (preOK_KernelIdeal m hpre) (Cert.KernelIdeal.Hand.tileObl m Cert.KernelIdeal.Hand.facts (preOK_KernelIdeal m hpre)))

theorem frame_ReferenceIdeal : Cert.frame_ReferenceIdeal := fun m ρ hpre =>
  (θ_run Cert.ReferenceIdeal.defs _ _).mono (fun _ h c => (h c).2)
    (Cert.ReferenceIdeal.Hand.run (F := Ideal) m ρ fun c => Cert.Hand.sel_le_of_pre _ _ _ _ (hpre c))

/-- Both programs leave the selected plane of the first argument: the kernel's of its own arguments, the reference's of
    arguments that agree with them. -/
theorem algebraic : Cert.algebraic_KernelIdeal_ReferenceIdeal := fun m g m' g' hpre hagree => by
  have hsel := preOK_KernelIdeal m hpre
  refine ⟨fun c => Cert.Sel.plane (m ((c.tc : Thread Cert.KernelIdeal.nD Cert.KernelIdeal.τ).loc Cert.KernelIdeal.main_arg0))
      (m ((c.tc : Thread Cert.KernelIdeal.nD Cert.KernelIdeal.τ).loc Cert.KernelIdeal.main_arg2)), ?_, ?_⟩
  · exact (θ_run Cert.KernelIdeal.defs _ _).mono (fun _ h c => h c)
      (Cert.KernelIdeal.Hand.run_main (F := Ideal) m g hsel (Cert.KernelIdeal.Hand.tileObl m Cert.KernelIdeal.Hand.facts hsel))
  · have hsel' : ∀ c : Dev Cert.ReferenceIdeal.nD,
        (m' ((c.tc : Thread Cert.ReferenceIdeal.nD Cert.ReferenceIdeal.τ).loc Cert.ReferenceIdeal.main_arg2) (ValueIdx.ix1 0)).toNat ≤ 7 := by
      intro c; rw [(hagree c).2.2.1]; exact hsel c
    refine (θ_run Cert.ReferenceIdeal.defs _ _).mono (fun _ h c => ?_) (Cert.ReferenceIdeal.Hand.run (F := Ideal) m' g' hsel')
    obtain ⟨hv, h0, h1, h2, h3⟩ := h c
    refine ⟨?_, h0, h1, h2, h3⟩
    rw [hv, (hagree c).1, (hagree c).2.2.1]

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
